-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200x2 : Shape := ⟨3, ![16384, 200, 2]⟩
abbrev S60x128 : Shape := ⟨2, ![60, 128]⟩
abbrev S72x128 : Shape := ⟨2, ![72, 128]⟩
abbrev S_ : Shape := ⟨0, ![]⟩

class Facts : Prop where
  bcast_S_S60x128 : S_.BroadcastsInDim S60x128 (![] : Fin 0 → Fin S60x128.rank)
  reducesTo_S60x128_S_d0_1 : S60x128.ReducesTo [0, 1] S_
  h_S_ : 0 < S_.numel
  bcast_S_S72x128 : S_.BroadcastsInDim S72x128 (![] : Fin 0 → Fin S72x128.rank)
  reducesTo_S72x128_S_d0_1 : S72x128.ReducesTo [0, 1] S_
  bcast_S_S16384x200x2 : S_.BroadcastsInDim S16384x200x2 (![] : Fin 0 → Fin S16384x200x2.rank)
  reducesTo_S16384x200x2_S_d0_1_2 : S16384x200x2.ReducesTo [0, 1, 2] S_

variable [Facts]

def fn {F : FTy → Type} [FloatOps F] (main_arg0 : IVec S16384x200x2 32) (main_arg1 : FVec F S60x128 .f32) (main_arg2 : FVec F S72x128 .f32) : IVec S_ 1 :=
  let main_v0 : FVec F S60x128 .f32 := Host.absf main_arg1
  let main_cst : FVec F S_ .f32 := constant S_ .f32 0x7F800000#32
  let main_v1 : FVec F S60x128 .f32 := broadcastInDim S60x128 ![] bcast_S_S60x128 main_cst
  let main_v2 : IVec S60x128 1 := cmpf .olt main_v0 main_v1
  let main_c : IVec S_ 1 := constantI S_ 1 1#1
  let main_v3 : IVec S_ 1 := (fun x v => Host.reduce IntOp.andi x v reducesTo_S60x128_S_d0_1 h_S_) main_v2 main_c
  let main_v4 : FVec F S72x128 .f32 := Host.absf main_arg2
  let main_cst_0 : FVec F S_ .f32 := constant S_ .f32 0x7F800000#32
  let main_v5 : FVec F S72x128 .f32 := broadcastInDim S72x128 ![] bcast_S_S72x128 main_cst_0
  let main_v6 : IVec S72x128 1 := cmpf .olt main_v4 main_v5
  let main_c_1 : IVec S_ 1 := constantI S_ 1 1#1
  let main_v7 : IVec S_ 1 := (fun x v => Host.reduce IntOp.andi x v reducesTo_S72x128_S_d0_1 h_S_) main_v6 main_c_1
  let main_v8 : IVec S_ 1 := andi main_v3 main_v7
  let main_c_2 : IVec S_ 32 := constantI S_ 32 0#32
  let main_v9 : IVec S16384x200x2 32 := broadcastInDim S16384x200x2 ![] bcast_S_S16384x200x2 main_c_2
  let main_v10 : IVec S16384x200x2 1 := cmpi .sge main_arg0 main_v9
  let main_c_3 : IVec S_ 32 := constantI S_ 32 59#32
  let main_v11 : IVec S16384x200x2 32 := broadcastInDim S16384x200x2 ![] bcast_S_S16384x200x2 main_c_3
  let main_v12 : IVec S16384x200x2 1 := cmpi .sle main_arg0 main_v11
  let main_v13 : IVec S16384x200x2 1 := andi main_v10 main_v12
  let main_c_4 : IVec S_ 1 := constantI S_ 1 1#1
  let main_v14 : IVec S_ 1 := (fun x v => Host.reduce IntOp.andi x v reducesTo_S16384x200x2_S_d0_1_2 h_S_) main_v13 main_c_4
  let main_v15 : IVec S_ 1 := andi main_v8 main_v14
  main_v15
-- ==== Kernel.lean ====
abbrev S16384x200x2 : Shape := ⟨3, ![16384, 200, 2]⟩
abbrev S60x128 : Shape := ⟨2, ![60, 128]⟩
abbrev S72x128 : Shape := ⟨2, ![72, 128]⟩
abbrev S16384x200x1 : Shape := ⟨3, ![16384, 200, 1]⟩
abbrev S16384x200 : Shape := ⟨2, ![16384, 200]⟩
abbrev S1x3276800 : Shape := ⟨2, ![1, 3276800]⟩
abbrev S3276800x128 : Shape := ⟨2, ![3276800, 128]⟩
abbrev S128 : Shape := ⟨1, ![128]⟩
abbrev S64x128 : Shape := ⟨2, ![64, 128]⟩
abbrev S288x128 : Shape := ⟨2, ![288, 128]⟩
abbrev S4608x128 : Shape := ⟨2, ![4608, 128]⟩
abbrev S_ : Shape := ⟨0, ![]⟩
abbrev S1x16 : Shape := ⟨2, ![1, 16]⟩
abbrev S16 : Shape := ⟨1, ![16]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S16384x200x128 : Shape := ⟨3, ![16384, 200, 128]⟩

abbrev nBuf : Table → Nat
  | .hbm => 11
  | .shared => 1
  | .local .scVector .vmem => 7
  | _ => 0

abbrev bufTy : (tb : Table) → Fin (nBuf tb) → BufTy
  | .hbm, ⟨0, _⟩ => ⟨S16384x200x2, .i32⟩
  | .hbm, ⟨1, _⟩ => ⟨S60x128, .f32⟩
  | .hbm, ⟨2, _⟩ => ⟨S72x128, .f32⟩
  | .hbm, ⟨3, _⟩ => ⟨S16384x200x1, .i32⟩
  | .hbm, ⟨4, _⟩ => ⟨S16384x200, .i32⟩
  | .hbm, ⟨5, _⟩ => ⟨S1x3276800, .i32⟩
  | .hbm, ⟨6, _⟩ => ⟨S16384x200x1, .i32⟩
  | .hbm, ⟨7, _⟩ => ⟨S16384x200, .i32⟩
  | .hbm, ⟨8, _⟩ => ⟨S1x3276800, .i32⟩
  | .hbm, ⟨9, _⟩ => ⟨S3276800x128, .f32⟩
  | .hbm, ⟨10, _⟩ => ⟨S16384x200x128, .f32⟩
  | .shared, ⟨0, _⟩ => ⟨S4608x128, .f32⟩
  | .local .scVector .vmem, ⟨0, _⟩ => ⟨S128, .i32⟩
  | .local .scVector .vmem, ⟨1, _⟩ => ⟨S64x128, .f32⟩
  | .local .scVector .vmem, ⟨2, _⟩ => ⟨S72x128, .f32⟩
  | .local .scVector .vmem, ⟨3, _⟩ => ⟨S288x128, .f32⟩
  | .local .scVector .vmem, ⟨4, _⟩ => ⟨S2x1x128, .i32⟩
  | .local .scVector .vmem, ⟨5, _⟩ => ⟨S2x1x128, .i32⟩
  | .local .scVector .vmem, ⟨6, _⟩ => ⟨S2x128x128, .f32⟩
  | _, _ => ⟨S16384x200x2, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 5 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_arg1_scv : Ref sig .scVector := ⟨.hbm, 1, rfl⟩
abbrev main_arg2_scv : Ref sig .scVector := ⟨.hbm, 2, rfl⟩
abbrev main_v2_scv : Ref sig .scVector := ⟨.hbm, 5, rfl⟩
abbrev main_v5_scv : Ref sig .scVector := ⟨.hbm, 8, rfl⟩
abbrev main_v6_scv : Ref sig .scVector := ⟨.hbm, 9, rfl⟩
abbrev cc0_scratch4 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scoped3 : Ref sig .scVector := ⟨.vmem, 4, rfl⟩
abbrev cc0_scoped5 : Ref sig .scVector := ⟨.vmem, 5, rfl⟩
abbrev cc0_scoped7 : Ref sig .scVector := ⟨.vmem, 6, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c288_i32_0 : BitVec 32 := 288#32
  let v1 : BitVec 32 := Scalar.addi c0_i32 c288_i32_0
  let c1_i32 : BitVec 32 := 1#32
  ⟨c0_i32, v1, c1_i32⟩
def k0_off1 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v12 : Index := Scalar.indexCast v10
  let c0_6 : Index := 0#32
  ![v12.toNat, 0]
def k0_off2 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v15 : Index := Scalar.indexCast v11
  let c0_7 : Index := 0#32
  ![v15.toNat, 0]
def k0_off3 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v19 : Index := Scalar.indexCast v8
  let c0_8 : Index := 0#32
  ![v19.toNat, 0]
def k0_off4 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v23 : Index := Scalar.indexCast v10
  let c16 : Index := 16#32
  ![v23.toNat, 16]
def k0_off5 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v26 : Index := Scalar.indexCast v11
  let c16_9 : Index := 16#32
  ![v26.toNat, 16]
def k0_off6 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v30 : Index := Scalar.indexCast v8
  let c16_10 : Index := 16#32
  ![v30.toNat, 16]
def k0_off7 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v34 : Index := Scalar.indexCast v10
  let c32 : Index := 32#32
  ![v34.toNat, 32]
def k0_off8 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v37 : Index := Scalar.indexCast v11
  let c32_11 : Index := 32#32
  ![v37.toNat, 32]
def k0_off9 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v41 : Index := Scalar.indexCast v8
  let c32_12 : Index := 32#32
  ![v41.toNat, 32]
def k0_off10 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v45 : Index := Scalar.indexCast v10
  let c48 : Index := 48#32
  ![v45.toNat, 48]
def k0_off11 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v48 : Index := Scalar.indexCast v11
  let c48_13 : Index := 48#32
  ![v48.toNat, 48]
def k0_off12 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v52 : Index := Scalar.indexCast v8
  let c48_14 : Index := 48#32
  ![v52.toNat, 48]
def k0_off13 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v56 : Index := Scalar.indexCast v10
  let c64 : Index := 64#32
  ![v56.toNat, 64]
def k0_off14 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v59 : Index := Scalar.indexCast v11
  let c64_15 : Index := 64#32
  ![v59.toNat, 64]
def k0_off15 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v63 : Index := Scalar.indexCast v8
  let c64_16 : Index := 64#32
  ![v63.toNat, 64]
def k0_off16 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v67 : Index := Scalar.indexCast v10
  let c80 : Index := 80#32
  ![v67.toNat, 80]
def k0_off17 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v70 : Index := Scalar.indexCast v11
  let c80_17 : Index := 80#32
  ![v70.toNat, 80]
def k0_off18 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v74 : Index := Scalar.indexCast v8
  let c80_18 : Index := 80#32
  ![v74.toNat, 80]
def k0_off19 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v78 : Index := Scalar.indexCast v10
  let c96 : Index := 96#32
  ![v78.toNat, 96]
def k0_off20 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v81 : Index := Scalar.indexCast v11
  let c96_19 : Index := 96#32
  ![v81.toNat, 96]
def k0_off21 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v85 : Index := Scalar.indexCast v8
  let c96_20 : Index := 96#32
  ![v85.toNat, 96]
def k0_off22 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c6_i32 : BitVec 32 := 6#32
  let v10 : BitVec 32 := Scalar.shrui v9 c6_i32
  let v89 : Index := Scalar.indexCast v10
  let c112 : Index := 112#32
  ![v89.toNat, 112]
def k0_off23 (i : grid0.Coords) (k0_t1 : Fin k0_t1_loop.trips) : Fin 2 → Nat :=
  let arg1 : BitVec 32 := BitVec.ofNat 32 (i 1).val
  let c288_i32 : BitVec 32 := 288#32
  let v0 : BitVec 32 := Scalar.muli arg1 c288_i32
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v9 : BitVec 32 := Scalar.addi v0 v8
  let c63_i32 : BitVec 32 := 63#32
  let v11 : BitVec 32 := Scalar.andi v9 c63_i32
  let v92 : Index := Scalar.indexCast v11
  let c112_21 : Index := 112#32
  ![v92.toNat, 112]
def k0_off24 (k0_t1 : Fin k0_t1_loop.trips) : Fin 2 → Nat :=
  let c0_i32_5 : BitVec 32 := 0#32
  let c0_i32 : BitVec 32 := 0#32
  let c1_i32 : BitVec 32 := 1#32
  let arg12 : BitVec 32 := Scf.iv c0_i32 c1_i32 k0_t1
  let c1_i32_4 : BitVec 32 := 1#32
  let v7 : BitVec 32 := Scalar.muli arg12 c1_i32_4
  let v8 : BitVec 32 := Scalar.addi c0_i32_5 v7
  let v96 : Index := Scalar.indexCast v8
  let c112_22 : Index := 112#32
  ![v96.toNat, 112]
def k0_off25 (i : grid0.Coords) : Fin 2 → Nat :=
  let arg1 : BitVec 32 := BitVec.ofNat 32 (i 1).val
  let c288_i32 : BitVec 32 := 288#32
  let v0 : BitVec 32 := Scalar.muli arg1 c288_i32
  let c0_i32_4_r2 : BitVec 32 := 0#32
  ![v0.toNat, 0]
def k0_off26 : Fin 3 → Nat :=
  let c0_i32_18_r3 : BitVec 32 := 0#32
  let c2_i32_r3 : BitVec 32 := 2#32
  let v24_r3 : BitVec 32 := Scalar.remui c0_i32_18_r3 c2_i32_r3
  let c0_i32_19_r3 : BitVec 32 := 0#32
  let c0_i32_20_r3 : BitVec 32 := 0#32
  ![v24_r3.toNat, 0, 0]
def k0_off27 (i : grid0.Coords) : Fin 2 → Nat :=
  let c0_i32_21_r3 : BitVec 32 := 0#32
  let c128_i32_r3 : BitVec 32 := 128#32
  let c0_i32_6_r3 : BitVec 32 := 0#32
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v10_r3 : BitVec 32 := Scalar.addi c0_i32_6_r3 v6
  let v25_r3 : BitVec 32 := Scalar.muli c128_i32_r3 v10_r3
  ![0, v25_r3.toNat]
def k0_off28 : Fin 1 → Nat :=
  let c0_i32_18_r3 : BitVec 32 := 0#32
  let c2_i32_r3 : BitVec 32 := 2#32
  let v24_r3 : BitVec 32 := Scalar.remui c0_i32_18_r3 c2_i32_r3
  ![v24_r3.toNat]
@[reducible] def k0_t2_loop : Scf.Loop 32 :=
  let c0_i32_43_r3 : BitVec 32 := 0#32
  let c800_i32_44_r3 : BitVec 32 := 800#32
  let v46_r3 : BitVec 32 := Scalar.addi c0_i32_43_r3 c800_i32_44_r3
  let c1_i32_45_r3 : BitVec 32 := 1#32
  ⟨c0_i32_43_r3, v46_r3, c1_i32_45_r3⟩
def k0_off29 (arg13_r3 : BitVec 32) : Fin 3 → Nat :=
  let c2_i32_219_r3 : BitVec 32 := 2#32
  let v335_r3 : BitVec 32 := Scalar.remui arg13_r3 c2_i32_219_r3
  let c0_i32_221_r3 : BitVec 32 := 0#32
  let c0_i32_222_r3 : BitVec 32 := 0#32
  ![v335_r3.toNat, 0, 0]
def k0_cond1 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_78_r3 : BitVec 1 := 1#1
  let c1_i32_77_r3 : BitVec 32 := 1#32
  let v86_r3 : BitVec 32 := Scalar.addi arg19_r3 c1_i32_77_r3
  let v87_r3 : BitVec 32 := Scalar.select true_78_r3 v86_r3 arg19_r3
  let c800_i32_79_r3 : BitVec 32 := 800#32
  let v88_r3 : BitVec 1 := Scalar.cmpi .eq v87_r3 c800_i32_79_r3
  let c0_i32_80_r3 : BitVec 32 := 0#32
  let v89_r3 : BitVec 32 := Scalar.select v88_r3 c0_i32_80_r3 v87_r3
  let v90_r3 : BitVec 32 := Scalar.addi v89_r3 v6
  let v96_r3 : BitVec 1 := Scalar.cmpi .ne v80_r3 v90_r3
  let c0_i32_43_r3 : BitVec 32 := 0#32
  let c1_i32_45_r3 : BitVec 32 := 1#32
  let arg12_r3 : BitVec 32 := Scf.iv c0_i32_43_r3 c1_i32_45_r3 k0_t2
  let c799_i32_85_r3 : BitVec 32 := 799#32
  let v97_r3 : BitVec 1 := Scalar.cmpi .sge arg12_r3 c799_i32_85_r3
  let true_86_r3 : BitVec 1 := 1#1
  let v98_r3 : BitVec 1 := Scalar.xori v97_r3 true_86_r3
  let v99_r3 : BitVec 1 := Scalar.andi v96_r3 v98_r3
  let v100_r3 : BitVec 32 := Scalar.extui v99_r3
  let c0_i32_87_r3 : BitVec 32 := 0#32
  let v101_r3 : BitVec 1 := Scalar.cmpi .ne v100_r3 c0_i32_87_r3
  v101_r3

def k0_off30 (i : grid0.Coords) (arg19_r3 : BitVec 32) : Fin 2 → Nat :=
  let c0_i32_223_r3 : BitVec 32 := 0#32
  let c128_i32_220_r3 : BitVec 32 := 128#32
  let true_78_r3 : BitVec 1 := 1#1
  let c1_i32_77_r3 : BitVec 32 := 1#32
  let v86_r3 : BitVec 32 := Scalar.addi arg19_r3 c1_i32_77_r3
  let v87_r3 : BitVec 32 := Scalar.select true_78_r3 v86_r3 arg19_r3
  let c800_i32_79_r3 : BitVec 32 := 800#32
  let v88_r3 : BitVec 1 := Scalar.cmpi .eq v87_r3 c800_i32_79_r3
  let c0_i32_80_r3 : BitVec 32 := 0#32
  let v89_r3 : BitVec 32 := Scalar.select v88_r3 c0_i32_80_r3 v87_r3
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v90_r3 : BitVec 32 := Scalar.addi v89_r3 v6
  let v336_r3 : BitVec 32 := Scalar.muli c128_i32_220_r3 v90_r3
  ![0, v336_r3.toNat]
def k0_off31 (arg13_r3 : BitVec 32) : Fin 1 → Nat :=
  let c2_i32_219_r3 : BitVec 32 := 2#32
  let v335_r3 : BitVec 32 := Scalar.remui arg13_r3 c2_i32_219_r3
  ![v335_r3.toNat]
def k0_off32 (arg15_r3 : BitVec 32) : Fin 3 → Nat :=
  let c2_i32_219_r3 : BitVec 32 := 2#32
  let v335_r3 : BitVec 32 := Scalar.remui arg15_r3 c2_i32_219_r3
  let c0_i32_221_r3 : BitVec 32 := 0#32
  let c0_i32_222_r3 : BitVec 32 := 0#32
  ![v335_r3.toNat, 0, 0]
def k0_cond2 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_78_r3 : BitVec 1 := 1#1
  let c1_i32_77_r3 : BitVec 32 := 1#32
  let v86_r3 : BitVec 32 := Scalar.addi arg19_r3 c1_i32_77_r3
  let v87_r3 : BitVec 32 := Scalar.select true_78_r3 v86_r3 arg19_r3
  let c800_i32_79_r3 : BitVec 32 := 800#32
  let v88_r3 : BitVec 1 := Scalar.cmpi .eq v87_r3 c800_i32_79_r3
  let c0_i32_80_r3 : BitVec 32 := 0#32
  let v89_r3 : BitVec 32 := Scalar.select v88_r3 c0_i32_80_r3 v87_r3
  let v90_r3 : BitVec 32 := Scalar.addi v89_r3 v6
  let v105_r3 : BitVec 1 := Scalar.cmpi .ne v80_r3 v90_r3
  let c0_i32_43_r3 : BitVec 32 := 0#32
  let c1_i32_45_r3 : BitVec 32 := 1#32
  let arg12_r3 : BitVec 32 := Scf.iv c0_i32_43_r3 c1_i32_45_r3 k0_t2
  let c799_i32_90_r3 : BitVec 32 := 799#32
  let v106_r3 : BitVec 1 := Scalar.cmpi .sge arg12_r3 c799_i32_90_r3
  let true_91_r3 : BitVec 1 := 1#1
  let v107_r3 : BitVec 1 := Scalar.xori v106_r3 true_91_r3
  let v108_r3 : BitVec 1 := Scalar.andi v105_r3 v107_r3
  let v109_r3 : BitVec 32 := Scalar.extui v108_r3
  let c0_i32_92_r3 : BitVec 32 := 0#32
  let v110_r3 : BitVec 1 := Scalar.cmpi .ne v109_r3 c0_i32_92_r3
  v110_r3

def k0_off33 (i : grid0.Coords) (arg19_r3 : BitVec 32) : Fin 2 → Nat :=
  let c0_i32_223_r3 : BitVec 32 := 0#32
  let c128_i32_220_r3 : BitVec 32 := 128#32
  let true_78_r3 : BitVec 1 := 1#1
  let c1_i32_77_r3 : BitVec 32 := 1#32
  let v86_r3 : BitVec 32 := Scalar.addi arg19_r3 c1_i32_77_r3
  let v87_r3 : BitVec 32 := Scalar.select true_78_r3 v86_r3 arg19_r3
  let c800_i32_79_r3 : BitVec 32 := 800#32
  let v88_r3 : BitVec 1 := Scalar.cmpi .eq v87_r3 c800_i32_79_r3
  let c0_i32_80_r3 : BitVec 32 := 0#32
  let v89_r3 : BitVec 32 := Scalar.select v88_r3 c0_i32_80_r3 v87_r3
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v90_r3 : BitVec 32 := Scalar.addi v89_r3 v6
  let v336_r3 : BitVec 32 := Scalar.muli c128_i32_220_r3 v90_r3
  ![0, v336_r3.toNat]
def k0_off34 (arg15_r3 : BitVec 32) : Fin 1 → Nat :=
  let c2_i32_219_r3 : BitVec 32 := 2#32
  let v335_r3 : BitVec 32 := Scalar.remui arg15_r3 c2_i32_219_r3
  ![v335_r3.toNat]
def k0_off35 (arg14_r3 : BitVec 32) : Fin 3 → Nat :=
  let c2_i32_220_r3 : BitVec 32 := 2#32
  let v336_r3 : BitVec 32 := Scalar.remui arg14_r3 c2_i32_220_r3
  let c0_i32_221_r3 : BitVec 32 := 0#32
  let c0_i32_222_r3 : BitVec 32 := 0#32
  ![v336_r3.toNat, 0, 0]
def k0_cond3 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_74_r3 : BitVec 1 := 1#1
  let c1_i32_73_r3 : BitVec 32 := 1#32
  let v81_r3 : BitVec 32 := Scalar.subi arg19_r3 c1_i32_73_r3
  let v82_r3 : BitVec 32 := Scalar.select true_74_r3 v81_r3 arg19_r3
  let c_m1_i32_75_r3 : BitVec 32 := 4294967295#32
  let v83_r3 : BitVec 1 := Scalar.cmpi .eq v82_r3 c_m1_i32_75_r3
  let c799_i32_76_r3 : BitVec 32 := 799#32
  let v84_r3 : BitVec 32 := Scalar.select v83_r3 c799_i32_76_r3 v82_r3
  let v85_r3 : BitVec 32 := Scalar.addi v84_r3 v6
  let v118_r3 : BitVec 1 := Scalar.cmpi .ne v80_r3 v85_r3
  let c0_i32_43_r3 : BitVec 32 := 0#32
  let c1_i32_45_r3 : BitVec 32 := 1#32
  let arg12_r3 : BitVec 32 := Scf.iv c0_i32_43_r3 c1_i32_45_r3 k0_t2
  let c0_i32_71_r3 : BitVec 32 := 0#32
  let v78_r3 : BitVec 1 := Scalar.cmpi .eq arg12_r3 c0_i32_71_r3
  let v119_r3 : BitVec 1 := Scalar.ori v118_r3 v78_r3
  let c0_i32_97_r3 : BitVec 32 := 0#32
  let v120_r3 : BitVec 1 := Scalar.cmpi .slt arg12_r3 c0_i32_97_r3
  let true_98_r3 : BitVec 1 := 1#1
  let v121_r3 : BitVec 1 := Scalar.xori v120_r3 true_98_r3
  let v122_r3 : BitVec 1 := Scalar.andi v119_r3 v121_r3
  let v123_r3 : BitVec 32 := Scalar.extui v122_r3
  let c0_i32_99_r3 : BitVec 32 := 0#32
  let v124_r3 : BitVec 1 := Scalar.cmpi .ne v123_r3 c0_i32_99_r3
  v124_r3

def k0_off36 (i : grid0.Coords) (arg19_r3 : BitVec 32) : Fin 2 → Nat :=
  let c0_i32_223_r3 : BitVec 32 := 0#32
  let c128_i32_219_r3 : BitVec 32 := 128#32
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let v335_r3 : BitVec 32 := Scalar.muli c128_i32_219_r3 v80_r3
  ![0, v335_r3.toNat]
def k0_off37 (arg14_r3 : BitVec 32) : Fin 1 → Nat :=
  let c2_i32_220_r3 : BitVec 32 := 2#32
  let v336_r3 : BitVec 32 := Scalar.remui arg14_r3 c2_i32_220_r3
  ![v336_r3.toNat]
def k0_off38 (arg16_r3 : BitVec 32) : Fin 3 → Nat :=
  let c2_i32_220_r3 : BitVec 32 := 2#32
  let v336_r3 : BitVec 32 := Scalar.remui arg16_r3 c2_i32_220_r3
  let c0_i32_221_r3 : BitVec 32 := 0#32
  let c0_i32_222_r3 : BitVec 32 := 0#32
  ![v336_r3.toNat, 0, 0]
def k0_cond4 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_74_r3 : BitVec 1 := 1#1
  let c1_i32_73_r3 : BitVec 32 := 1#32
  let v81_r3 : BitVec 32 := Scalar.subi arg19_r3 c1_i32_73_r3
  let v82_r3 : BitVec 32 := Scalar.select true_74_r3 v81_r3 arg19_r3
  let c_m1_i32_75_r3 : BitVec 32 := 4294967295#32
  let v83_r3 : BitVec 1 := Scalar.cmpi .eq v82_r3 c_m1_i32_75_r3
  let c799_i32_76_r3 : BitVec 32 := 799#32
  let v84_r3 : BitVec 32 := Scalar.select v83_r3 c799_i32_76_r3 v82_r3
  let v85_r3 : BitVec 32 := Scalar.addi v84_r3 v6
  let v125_r3 : BitVec 1 := Scalar.cmpi .ne v80_r3 v85_r3
  let c0_i32_43_r3 : BitVec 32 := 0#32
  let c1_i32_45_r3 : BitVec 32 := 1#32
  let arg12_r3 : BitVec 32 := Scf.iv c0_i32_43_r3 c1_i32_45_r3 k0_t2
  let c0_i32_71_r3 : BitVec 32 := 0#32
  let v78_r3 : BitVec 1 := Scalar.cmpi .eq arg12_r3 c0_i32_71_r3
  let v126_r3 : BitVec 1 := Scalar.ori v125_r3 v78_r3
  let c0_i32_100_r3 : BitVec 32 := 0#32
  let v127_r3 : BitVec 1 := Scalar.cmpi .slt arg12_r3 c0_i32_100_r3
  let true_101_r3 : BitVec 1 := 1#1
  let v128_r3 : BitVec 1 := Scalar.xori v127_r3 true_101_r3
  let v129_r3 : BitVec 1 := Scalar.andi v126_r3 v128_r3
  let v130_r3 : BitVec 32 := Scalar.extui v129_r3
  let c0_i32_102_r3 : BitVec 32 := 0#32
  let v131_r3 : BitVec 1 := Scalar.cmpi .ne v130_r3 c0_i32_102_r3
  v131_r3

def k0_off39 (i : grid0.Coords) (arg19_r3 : BitVec 32) : Fin 2 → Nat :=
  let c0_i32_223_r3 : BitVec 32 := 0#32
  let c128_i32_219_r3 : BitVec 32 := 128#32
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let v335_r3 : BitVec 32 := Scalar.muli c128_i32_219_r3 v80_r3
  ![0, v335_r3.toNat]
def k0_off40 (arg16_r3 : BitVec 32) : Fin 1 → Nat :=
  let c2_i32_220_r3 : BitVec 32 := 2#32
  let v336_r3 : BitVec 32 := Scalar.remui arg16_r3 c2_i32_220_r3
  ![v336_r3.toNat]
def k0_off41 (arg14_r3 : BitVec 32) : Fin 3 → Nat :=
  let c2_i32_106_r3 : BitVec 32 := 2#32
  let v139_r3 : BitVec 32 := Scalar.remui arg14_r3 c2_i32_106_r3
  let c0_i32_110_r3 : BitVec 32 := 0#32
  let c0_i32_111_r3 : BitVec 32 := 0#32
  ![v139_r3.toNat, 0, 0]

def k0_chk2 (arg14_r3 : BitVec 32) : Prop :=
  (∀ a, (k0_off41 arg14_r3) a + S1x1x128.size a ≤ S2x1x128.size a)
instance k0_chk2.dec : ∀ (arg14_r3 : BitVec 32), Decidable (k0_chk2 arg14_r3) := fun arg14_r3 => decidable_of_iff' _ (Iff.of_eq (k0_chk2.eq_1 arg14_r3))
theorem k0_off41_inb : ∀ (arg14_r3 : BitVec 32) (k0_hw2 : k0_chk2 arg14_r3), ∀ a, (k0_off41 arg14_r3) a + S1x1x128.size a ≤ S2x1x128.size a := fun arg14_r3 k0_hw2 => k0_hw2

def k0_off42 (arg16_r3 : BitVec 32) : Fin 3 → Nat :=
  let c2_i32_107_r3 : BitVec 32 := 2#32
  let v140_r3 : BitVec 32 := Scalar.remui arg16_r3 c2_i32_107_r3
  let c0_i32_115_r3 : BitVec 32 := 0#32
  let c0_i32_116_r3 : BitVec 32 := 0#32
  ![v140_r3.toNat, 0, 0]

def k0_chk3 (arg16_r3 : BitVec 32) : Prop :=
  (∀ a, (k0_off42 arg16_r3) a + S1x1x128.size a ≤ S2x1x128.size a)
instance k0_chk3.dec : ∀ (arg16_r3 : BitVec 32), Decidable (k0_chk3 arg16_r3) := fun arg16_r3 => decidable_of_iff' _ (Iff.of_eq (k0_chk3.eq_1 arg16_r3))
theorem k0_off42_inb : ∀ (arg16_r3 : BitVec 32) (k0_hw3 : k0_chk3 arg16_r3), ∀ a, (k0_off42 arg16_r3) a + S1x1x128.size a ≤ S2x1x128.size a := fun arg16_r3 k0_hw3 => k0_hw3

def k0_off43 (arg17_r3 : BitVec 32) : Fin 3 → Nat :=
  let c2_i32_108_r3 : BitVec 32 := 2#32
  let v141_r3 : BitVec 32 := Scalar.remui arg17_r3 c2_i32_108_r3
  let c0_i32_219_r4 : BitVec 32 := 0#32
  let c0_i32_220_r4 : BitVec 32 := 0#32
  ![v141_r3.toNat, 0, 0]

def k0_chk4 (arg17_r3 : BitVec 32) : Prop :=
  (∀ a, (k0_off43 arg17_r3) a + S1x128x128.size a ≤ S2x128x128.size a)
instance k0_chk4.dec : ∀ (arg17_r3 : BitVec 32), Decidable (k0_chk4 arg17_r3) := fun arg17_r3 => decidable_of_iff' _ (Iff.of_eq (k0_chk4.eq_1 arg17_r3))
theorem k0_off43_inb : ∀ (arg17_r3 : BitVec 32) (k0_hw4 : k0_chk4 arg17_r3), ∀ a, (k0_off43 arg17_r3) a + S1x128x128.size a ≤ S2x128x128.size a := fun arg17_r3 k0_hw4 => k0_hw4

def k0_off44 (arg17_r3 : BitVec 32) : Fin 3 → Nat :=
  let c2_i32_219_r3 : BitVec 32 := 2#32
  let v335_r3 : BitVec 32 := Scalar.remui arg17_r3 c2_i32_219_r3
  let c0_i32_221_r3 : BitVec 32 := 0#32
  let c0_i32_222_r3 : BitVec 32 := 0#32
  ![v335_r3.toNat, 0, 0]
def k0_cond8 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_78_r3 : BitVec 1 := 1#1
  let c1_i32_77_r3 : BitVec 32 := 1#32
  let v86_r3 : BitVec 32 := Scalar.addi arg19_r3 c1_i32_77_r3
  let v87_r3 : BitVec 32 := Scalar.select true_78_r3 v86_r3 arg19_r3
  let c800_i32_79_r3 : BitVec 32 := 800#32
  let v88_r3 : BitVec 1 := Scalar.cmpi .eq v87_r3 c800_i32_79_r3
  let c0_i32_80_r3 : BitVec 32 := 0#32
  let v89_r3 : BitVec 32 := Scalar.select v88_r3 c0_i32_80_r3 v87_r3
  let v90_r3 : BitVec 32 := Scalar.addi v89_r3 v6
  let v296_r3 : BitVec 1 := Scalar.cmpi .ne v80_r3 v90_r3
  let c0_i32_43_r3 : BitVec 32 := 0#32
  let c1_i32_45_r3 : BitVec 32 := 1#32
  let arg12_r3 : BitVec 32 := Scf.iv c0_i32_43_r3 c1_i32_45_r3 k0_t2
  let c799_i32_72_r3 : BitVec 32 := 799#32
  let v79_r3 : BitVec 1 := Scalar.cmpi .eq arg12_r3 c799_i32_72_r3
  let v297_r3 : BitVec 1 := Scalar.ori v296_r3 v79_r3
  let v298_r3 : BitVec 32 := Scalar.extui v297_r3
  let c0_i32_200_r3 : BitVec 32 := 0#32
  let v299_r3 : BitVec 1 := Scalar.cmpi .ne v298_r3 c0_i32_200_r3
  v299_r3

def k0_off45 (i : grid0.Coords) (arg19_r3 : BitVec 32) : Fin 2 → Nat :=
  let c128_i32_220_r3 : BitVec 32 := 128#32
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let v336_r3 : BitVec 32 := Scalar.muli c128_i32_220_r3 v80_r3
  let c0_i32_223_r3 : BitVec 32 := 0#32
  ![v336_r3.toNat, 0]
def k0_off46 (arg17_r3 : BitVec 32) : Fin 1 → Nat :=
  let c2_i32_219_r3 : BitVec 32 := 2#32
  let v335_r3 : BitVec 32 := Scalar.remui arg17_r3 c2_i32_219_r3
  ![v335_r3.toNat]
def k0_off47 (arg18_r3 : BitVec 32) : Fin 3 → Nat :=
  let c2_i32_219_r3 : BitVec 32 := 2#32
  let v335_r3 : BitVec 32 := Scalar.remui arg18_r3 c2_i32_219_r3
  let c0_i32_221_r3 : BitVec 32 := 0#32
  let c0_i32_222_r3 : BitVec 32 := 0#32
  ![v335_r3.toNat, 0, 0]
def k0_cond11 (i : grid0.Coords) (k0_t2 : Fin k0_t2_loop.trips) (arg19_r3 : BitVec 32) : BitVec 1 :=
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v80_r3 : BitVec 32 := Scalar.addi arg19_r3 v6
  let true_74_r3 : BitVec 1 := 1#1
  let c1_i32_73_r3 : BitVec 32 := 1#32
  let v81_r3 : BitVec 32 := Scalar.subi arg19_r3 c1_i32_73_r3
  let v82_r3 : BitVec 32 := Scalar.select true_74_r3 v81_r3 arg19_r3
  let c_m1_i32_75_r3 : BitVec 32 := 4294967295#32
  let v83_r3 : BitVec 1 := Scalar.cmpi .eq v82_r3 c_m1_i32_75_r3
  let c799_i32_76_r3 : BitVec 32 := 799#32
  let v84_r3 : BitVec 32 := Scalar.select v83_r3 c799_i32_76_r3 v82_r3
  let v85_r3 : BitVec 32 := Scalar.addi v84_r3 v6
  let v315_r3 : BitVec 1 := Scalar.cmpi .ne v80_r3 v85_r3
  let c0_i32_43_r3 : BitVec 32 := 0#32
  let c1_i32_45_r3 : BitVec 32 := 1#32
  let arg12_r3 : BitVec 32 := Scf.iv c0_i32_43_r3 c1_i32_45_r3 k0_t2
  let c0_i32_71_r3 : BitVec 32 := 0#32
  let v78_r3 : BitVec 1 := Scalar.cmpi .eq arg12_r3 c0_i32_71_r3
  let true_209_r3 : BitVec 1 := 1#1
  let v316_r3 : BitVec 1 := Scalar.xori v78_r3 true_209_r3
  let v317_r3 : BitVec 1 := Scalar.andi v315_r3 v316_r3
  let v318_r3 : BitVec 32 := Scalar.extui v317_r3
  let c0_i32_210_r3 : BitVec 32 := 0#32
  let v319_r3 : BitVec 1 := Scalar.cmpi .ne v318_r3 c0_i32_210_r3
  v319_r3

def k0_off48 (i : grid0.Coords) (arg19_r3 : BitVec 32) : Fin 2 → Nat :=
  let c128_i32_220_r3 : BitVec 32 := 128#32
  let true_74_r3 : BitVec 1 := 1#1
  let c1_i32_73_r3 : BitVec 32 := 1#32
  let v81_r3 : BitVec 32 := Scalar.subi arg19_r3 c1_i32_73_r3
  let v82_r3 : BitVec 32 := Scalar.select true_74_r3 v81_r3 arg19_r3
  let c_m1_i32_75_r3 : BitVec 32 := 4294967295#32
  let v83_r3 : BitVec 1 := Scalar.cmpi .eq v82_r3 c_m1_i32_75_r3
  let c799_i32_76_r3 : BitVec 32 := 799#32
  let v84_r3 : BitVec 32 := Scalar.select v83_r3 c799_i32_76_r3 v82_r3
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v85_r3 : BitVec 32 := Scalar.addi v84_r3 v6
  let v336_r3 : BitVec 32 := Scalar.muli c128_i32_220_r3 v85_r3
  let c0_i32_223_r3 : BitVec 32 := 0#32
  ![v336_r3.toNat, 0]
def k0_off49 (arg18_r3 : BitVec 32) : Fin 1 → Nat :=
  let c2_i32_219_r3 : BitVec 32 := 2#32
  let v335_r3 : BitVec 32 := Scalar.remui arg18_r3 c2_i32_219_r3
  ![v335_r3.toNat]

def k0_chk1 (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) : Prop :=
  (∀ (k0_h1 : k0_cond1 i k0_t2 arg19_r3 = 1#1), ∀ a, (k0_off29 arg13_r3) a + S1x1x128.size a ≤ S2x1x128.size a) ∧
  (∀ (k0_h1 : k0_cond1 i k0_t2 arg19_r3 = 1#1), ∀ a, (k0_off30 i arg19_r3) a + S1x128.size a ≤ S1x3276800.size a) ∧
  (∀ (k0_h1 : k0_cond1 i k0_t2 arg19_r3 = 1#1), ∀ a, (k0_off31 arg13_r3) a + S1.size a ≤ S2.size a) ∧
  (∀ (k0_h2 : k0_cond2 i k0_t2 arg19_r3 = 1#1), ∀ a, (k0_off32 arg15_r3) a + S1x1x128.size a ≤ S2x1x128.size a) ∧
  (∀ (k0_h2 : k0_cond2 i k0_t2 arg19_r3 = 1#1), ∀ a, (k0_off33 i arg19_r3) a + S1x128.size a ≤ S1x3276800.size a) ∧
  (∀ (k0_h2 : k0_cond2 i k0_t2 arg19_r3 = 1#1), ∀ a, (k0_off34 arg15_r3) a + S1.size a ≤ S2.size a) ∧
  (∀ (k0_h3 : k0_cond3 i k0_t2 arg19_r3 = 1#1), ∀ a, (k0_off35 arg14_r3) a + S1x1x128.size a ≤ S2x1x128.size a) ∧
  (∀ (k0_h3 : k0_cond3 i k0_t2 arg19_r3 = 1#1), ∀ a, (k0_off36 i arg19_r3) a + S1x128.size a ≤ S1x3276800.size a) ∧
  (∀ (k0_h3 : k0_cond3 i k0_t2 arg19_r3 = 1#1), ∀ a, (k0_off37 arg14_r3) a + S1.size a ≤ S2.size a) ∧
  (∀ (k0_h4 : k0_cond4 i k0_t2 arg19_r3 = 1#1), ∀ a, (k0_off38 arg16_r3) a + S1x1x128.size a ≤ S2x1x128.size a) ∧
  (∀ (k0_h4 : k0_cond4 i k0_t2 arg19_r3 = 1#1), ∀ a, (k0_off39 i arg19_r3) a + S1x128.size a ≤ S1x3276800.size a) ∧
  (∀ (k0_h4 : k0_cond4 i k0_t2 arg19_r3 = 1#1), ∀ a, (k0_off40 arg16_r3) a + S1.size a ≤ S2.size a) ∧
  (∀ (k0_h8 : k0_cond8 i k0_t2 arg19_r3 = 1#1), ∀ a, (k0_off44 arg17_r3) a + S1x128x128.size a ≤ S2x128x128.size a) ∧
  (∀ (k0_h8 : k0_cond8 i k0_t2 arg19_r3 = 1#1), ∀ a, (k0_off45 i arg19_r3) a + S128x128.size a ≤ S3276800x128.size a) ∧
  (∀ (k0_h8 : k0_cond8 i k0_t2 arg19_r3 = 1#1), ∀ a, (k0_off46 arg17_r3) a + S1.size a ≤ S2.size a) ∧
  (∀ (k0_h11 : k0_cond11 i k0_t2 arg19_r3 = 1#1), ∀ a, (k0_off47 arg18_r3) a + S1x128x128.size a ≤ S2x128x128.size a) ∧
  (∀ (k0_h11 : k0_cond11 i k0_t2 arg19_r3 = 1#1), ∀ a, (k0_off48 i arg19_r3) a + S128x128.size a ≤ S3276800x128.size a) ∧
  (∀ (k0_h11 : k0_cond11 i k0_t2 arg19_r3 = 1#1), ∀ a, (k0_off49 arg18_r3) a + S1.size a ≤ S2.size a)
instance k0_chk1.dec : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32), Decidable (k0_chk1 i k0_t2 arg13_r3 arg14_r3 arg15_r3 arg16_r3 arg17_r3 arg18_r3 arg19_r3) := fun i k0_t2 arg13_r3 arg14_r3 arg15_r3 arg16_r3 arg17_r3 arg18_r3 arg19_r3 => decidable_of_iff' _ (Iff.of_eq (k0_chk1.eq_1 i k0_t2 arg13_r3 arg14_r3 arg15_r3 arg16_r3 arg17_r3 arg18_r3 arg19_r3))
theorem k0_off29_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h1 : k0_cond1 i k0_t2 arg19_r3 = 1#1), ∀ a, (k0_off29 arg13_r3) a + S1x1x128.size a ≤ S2x1x128.size a := fun i k0_t2 arg13_r3 arg14_r3 arg15_r3 arg16_r3 arg17_r3 arg18_r3 arg19_r3 k0_hw1 k0_h1 => k0_hw1.1 k0_h1
theorem k0_off30_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h1 : k0_cond1 i k0_t2 arg19_r3 = 1#1), ∀ a, (k0_off30 i arg19_r3) a + S1x128.size a ≤ S1x3276800.size a := fun i k0_t2 arg13_r3 arg14_r3 arg15_r3 arg16_r3 arg17_r3 arg18_r3 arg19_r3 k0_hw1 k0_h1 => k0_hw1.2.1 k0_h1
theorem k0_off31_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h1 : k0_cond1 i k0_t2 arg19_r3 = 1#1), ∀ a, (k0_off31 arg13_r3) a + S1.size a ≤ S2.size a := fun i k0_t2 arg13_r3 arg14_r3 arg15_r3 arg16_r3 arg17_r3 arg18_r3 arg19_r3 k0_hw1 k0_h1 => k0_hw1.2.2.1 k0_h1
theorem k0_off32_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h2 : k0_cond2 i k0_t2 arg19_r3 = 1#1), ∀ a, (k0_off32 arg15_r3) a + S1x1x128.size a ≤ S2x1x128.size a := fun i k0_t2 arg13_r3 arg14_r3 arg15_r3 arg16_r3 arg17_r3 arg18_r3 arg19_r3 k0_hw1 k0_h2 => k0_hw1.2.2.2.1 k0_h2
theorem k0_off33_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h2 : k0_cond2 i k0_t2 arg19_r3 = 1#1), ∀ a, (k0_off33 i arg19_r3) a + S1x128.size a ≤ S1x3276800.size a := fun i k0_t2 arg13_r3 arg14_r3 arg15_r3 arg16_r3 arg17_r3 arg18_r3 arg19_r3 k0_hw1 k0_h2 => k0_hw1.2.2.2.2.1 k0_h2
theorem k0_off34_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h2 : k0_cond2 i k0_t2 arg19_r3 = 1#1), ∀ a, (k0_off34 arg15_r3) a + S1.size a ≤ S2.size a := fun i k0_t2 arg13_r3 arg14_r3 arg15_r3 arg16_r3 arg17_r3 arg18_r3 arg19_r3 k0_hw1 k0_h2 => k0_hw1.2.2.2.2.2.1 k0_h2
theorem k0_off35_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h3 : k0_cond3 i k0_t2 arg19_r3 = 1#1), ∀ a, (k0_off35 arg14_r3) a + S1x1x128.size a ≤ S2x1x128.size a := fun i k0_t2 arg13_r3 arg14_r3 arg15_r3 arg16_r3 arg17_r3 arg18_r3 arg19_r3 k0_hw1 k0_h3 => k0_hw1.2.2.2.2.2.2.1 k0_h3
theorem k0_off36_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h3 : k0_cond3 i k0_t2 arg19_r3 = 1#1), ∀ a, (k0_off36 i arg19_r3) a + S1x128.size a ≤ S1x3276800.size a := fun i k0_t2 arg13_r3 arg14_r3 arg15_r3 arg16_r3 arg17_r3 arg18_r3 arg19_r3 k0_hw1 k0_h3 => k0_hw1.2.2.2.2.2.2.2.1 k0_h3
theorem k0_off37_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h3 : k0_cond3 i k0_t2 arg19_r3 = 1#1), ∀ a, (k0_off37 arg14_r3) a + S1.size a ≤ S2.size a := fun i k0_t2 arg13_r3 arg14_r3 arg15_r3 arg16_r3 arg17_r3 arg18_r3 arg19_r3 k0_hw1 k0_h3 => k0_hw1.2.2.2.2.2.2.2.2.1 k0_h3
theorem k0_off38_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h4 : k0_cond4 i k0_t2 arg19_r3 = 1#1), ∀ a, (k0_off38 arg16_r3) a + S1x1x128.size a ≤ S2x1x128.size a := fun i k0_t2 arg13_r3 arg14_r3 arg15_r3 arg16_r3 arg17_r3 arg18_r3 arg19_r3 k0_hw1 k0_h4 => k0_hw1.2.2.2.2.2.2.2.2.2.1 k0_h4
theorem k0_off39_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h4 : k0_cond4 i k0_t2 arg19_r3 = 1#1), ∀ a, (k0_off39 i arg19_r3) a + S1x128.size a ≤ S1x3276800.size a := fun i k0_t2 arg13_r3 arg14_r3 arg15_r3 arg16_r3 arg17_r3 arg18_r3 arg19_r3 k0_hw1 k0_h4 => k0_hw1.2.2.2.2.2.2.2.2.2.2.1 k0_h4
theorem k0_off40_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h4 : k0_cond4 i k0_t2 arg19_r3 = 1#1), ∀ a, (k0_off40 arg16_r3) a + S1.size a ≤ S2.size a := fun i k0_t2 arg13_r3 arg14_r3 arg15_r3 arg16_r3 arg17_r3 arg18_r3 arg19_r3 k0_hw1 k0_h4 => k0_hw1.2.2.2.2.2.2.2.2.2.2.2.1 k0_h4
theorem k0_off44_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h8 : k0_cond8 i k0_t2 arg19_r3 = 1#1), ∀ a, (k0_off44 arg17_r3) a + S1x128x128.size a ≤ S2x128x128.size a := fun i k0_t2 arg13_r3 arg14_r3 arg15_r3 arg16_r3 arg17_r3 arg18_r3 arg19_r3 k0_hw1 k0_h8 => k0_hw1.2.2.2.2.2.2.2.2.2.2.2.2.1 k0_h8
theorem k0_off45_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h8 : k0_cond8 i k0_t2 arg19_r3 = 1#1), ∀ a, (k0_off45 i arg19_r3) a + S128x128.size a ≤ S3276800x128.size a := fun i k0_t2 arg13_r3 arg14_r3 arg15_r3 arg16_r3 arg17_r3 arg18_r3 arg19_r3 k0_hw1 k0_h8 => k0_hw1.2.2.2.2.2.2.2.2.2.2.2.2.2.1 k0_h8
theorem k0_off46_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h8 : k0_cond8 i k0_t2 arg19_r3 = 1#1), ∀ a, (k0_off46 arg17_r3) a + S1.size a ≤ S2.size a := fun i k0_t2 arg13_r3 arg14_r3 arg15_r3 arg16_r3 arg17_r3 arg18_r3 arg19_r3 k0_hw1 k0_h8 => k0_hw1.2.2.2.2.2.2.2.2.2.2.2.2.2.2.1 k0_h8
theorem k0_off47_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h11 : k0_cond11 i k0_t2 arg19_r3 = 1#1), ∀ a, (k0_off47 arg18_r3) a + S1x128x128.size a ≤ S2x128x128.size a := fun i k0_t2 arg13_r3 arg14_r3 arg15_r3 arg16_r3 arg17_r3 arg18_r3 arg19_r3 k0_hw1 k0_h11 => k0_hw1.2.2.2.2.2.2.2.2.2.2.2.2.2.2.2.1 k0_h11
theorem k0_off48_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h11 : k0_cond11 i k0_t2 arg19_r3 = 1#1), ∀ a, (k0_off48 i arg19_r3) a + S128x128.size a ≤ S3276800x128.size a := fun i k0_t2 arg13_r3 arg14_r3 arg15_r3 arg16_r3 arg17_r3 arg18_r3 arg19_r3 k0_hw1 k0_h11 => k0_hw1.2.2.2.2.2.2.2.2.2.2.2.2.2.2.2.2.1 k0_h11
theorem k0_off49_inb : ∀ (i : grid0.Coords) (k0_t2 : Fin k0_t2_loop.trips) (arg13_r3 : BitVec 32) (arg14_r3 : BitVec 32) (arg15_r3 : BitVec 32) (arg16_r3 : BitVec 32) (arg17_r3 : BitVec 32) (arg18_r3 : BitVec 32) (arg19_r3 : BitVec 32) (k0_hw1 : k0_chk1 i k0_t2 arg13_r3 arg14_r3 arg15_r3 arg16_r3 arg17_r3 arg18_r3 arg19_r3), ∀ (k0_h11 : k0_cond11 i k0_t2 arg19_r3 = 1#1), ∀ a, (k0_off49 arg18_r3) a + S1.size a ≤ S2.size a := fun i k0_t2 arg13_r3 arg14_r3 arg15_r3 arg16_r3 arg17_r3 arg18_r3 arg19_r3 k0_hw1 k0_h11 => k0_hw1.2.2.2.2.2.2.2.2.2.2.2.2.2.2.2.2.2 k0_h11

def k0_off50 (v47_5_r3 : BitVec 32) : Fin 3 → Nat :=
  let c2_i32_63_r3 : BitVec 32 := 2#32
  let v68_r3 : BitVec 32 := Scalar.remui v47_5_r3 c2_i32_63_r3
  let c0_i32_65_r3 : BitVec 32 := 0#32
  let c0_i32_66_r3 : BitVec 32 := 0#32
  ![v68_r3.toNat, 0, 0]

def k0_off51 (i : grid0.Coords) (v47_6_r3 : BitVec 32) : Fin 2 → Nat :=
  let c128_i32_64_r3 : BitVec 32 := 128#32
  let true_48_r3 : BitVec 1 := 1#1
  let c1_i32_47_r3 : BitVec 32 := 1#32
  let v48_r3 : BitVec 32 := Scalar.subi v47_6_r3 c1_i32_47_r3
  let v49_r3 : BitVec 32 := Scalar.select true_48_r3 v48_r3 v47_6_r3
  let c_m1_i32_49_r3 : BitVec 32 := 4294967295#32
  let v50_r3 : BitVec 1 := Scalar.cmpi .eq v49_r3 c_m1_i32_49_r3
  let c799_i32_50_r3 : BitVec 32 := 799#32
  let v51_r3 : BitVec 32 := Scalar.select v50_r3 c799_i32_50_r3 v49_r3
  let c0_i32_3 : BitVec 32 := 0#32
  let arg1 : BitVec 32 := BitVec.ofNat 32 (i 1).val
  let c1_i32_2 : BitVec 32 := 1#32
  let v2 : BitVec 32 := Scalar.muli arg1 c1_i32_2
  let v3 : BitVec 32 := Scalar.addi c0_i32_3 v2
  let arg0 : BitVec 32 := BitVec.ofNat 32 (i 0).val
  let c16_i32 : BitVec 32 := 16#32
  let v4 : BitVec 32 := Scalar.muli arg0 c16_i32
  let v5 : BitVec 32 := Scalar.addi v3 v4
  let c800_i32 : BitVec 32 := 800#32
  let v6 : BitVec 32 := Scalar.muli v5 c800_i32
  let v52_r3 : BitVec 32 := Scalar.addi v51_r3 v6
  let v69_r3 : BitVec 32 := Scalar.muli c128_i32_64_r3 v52_r3
  let c0_i32_67_r3 : BitVec 32 := 0#32
  ![v69_r3.toNat, 0]

def k0_chk6 (i : grid0.Coords) (v47_6_r3 : BitVec 32) : Prop :=
  (∀ a, (k0_off51 i v47_6_r3) a + S128x128.size a ≤ S3276800x128.size a)
instance k0_chk6.dec : ∀ (i : grid0.Coords) (v47_6_r3 : BitVec 32), Decidable (k0_chk6 i v47_6_r3) := fun i v47_6_r3 => decidable_of_iff' _ (Iff.of_eq (k0_chk6.eq_1 i v47_6_r3))
theorem k0_off51_inb : ∀ (i : grid0.Coords) (v47_6_r3 : BitVec 32) (k0_hw6 : k0_chk6 i v47_6_r3), ∀ a, (k0_off51 i v47_6_r3) a + S128x128.size a ≤ S3276800x128.size a := fun i v47_6_r3 k0_hw6 => k0_hw6

def k0_off52 (v47_5_r3 : BitVec 32) : Fin 1 → Nat :=
  let c2_i32_63_r3 : BitVec 32 := 2#32
  let v68_r3 : BitVec 32 := Scalar.remui v47_5_r3 c2_i32_63_r3
  ![v68_r3.toNat]
def k0_off53 (v47_5_r3 : BitVec 32) : Fin 3 → Nat :=
  let c2_i32_63_r3 : BitVec 32 := 2#32
  let v68_r3 : BitVec 32 := Scalar.remui v47_5_r3 c2_i32_63_r3
  let c0_i32_69_r3 : BitVec 32 := 0#32
  let c0_i32_70_r3 : BitVec 32 := 0#32
  ![v68_r3.toNat, 0, 0]

def k0_chk5 (v47_5_r3 : BitVec 32) : Prop :=
  (∀ a, (k0_off50 v47_5_r3) a + S1x128x128.size a ≤ S2x128x128.size a) ∧
  (∀ a, (k0_off52 v47_5_r3) a + S1.size a ≤ S2.size a) ∧
  (∀ a, (k0_off53 v47_5_r3) a + S1x128x128.size a ≤ S2x128x128.size a)
instance k0_chk5.dec : ∀ (v47_5_r3 : BitVec 32), Decidable (k0_chk5 v47_5_r3) := fun v47_5_r3 => decidable_of_iff' _ (Iff.of_eq (k0_chk5.eq_1 v47_5_r3))
theorem k0_off50_inb : ∀ (v47_5_r3 : BitVec 32) (k0_hw5 : k0_chk5 v47_5_r3), ∀ a, (k0_off50 v47_5_r3) a + S1x128x128.size a ≤ S2x128x128.size a := fun v47_5_r3 k0_hw5 => k0_hw5.1
theorem k0_off52_inb : ∀ (v47_5_r3 : BitVec 32) (k0_hw5 : k0_chk5 v47_5_r3), ∀ a, (k0_off52 v47_5_r3) a + S1.size a ≤ S2.size a := fun v47_5_r3 k0_hw5 => k0_hw5.2.1
theorem k0_off53_inb : ∀ (v47_5_r3 : BitVec 32) (k0_hw5 : k0_chk5 v47_5_r3), ∀ a, (k0_off53 v47_5_r3) a + S1x128x128.size a ≤ S2x128x128.size a := fun v47_5_r3 k0_hw5 => k0_hw5.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S16384x200x2_S16384x200x1_0_0_0 : S16384x200x2.Slices ![0, 0, 0] S16384x200x1
  shapeCasts_S16384x200x1_S16384x200 : S16384x200x1.ShapeCasts S16384x200
  shapeCasts_S16384x200_S1x3276800 : S16384x200.ShapeCasts S1x3276800
  slices_S16384x200x2_S16384x200x1_0_0_1 : S16384x200x2.Slices ![0, 0, 1] S16384x200x1
  inb_S64x128_S60x128_0_0 : ∀ a, (![0, 0] : Fin 2 → Nat) a + S60x128.size a ≤ S64x128.size a
  h_S1x16 : 0 < S1x16.numel
  shapeCasts_S1x16_S16 : S1x16.ShapeCasts S16
  shapeCasts_S16_S1x16 : S16.ShapeCasts S1x16
  squeezes_S1x1x128_S1x128 : S1x1x128.Squeezes S1x128
  squeezes_S1_S_ : S1.Squeezes S_
  inb_S1x128_S1x128_0_0 : ∀ a, (![0, 0] : Fin 2 → Nat) a + S1x128.size a ≤ S1x128.size a
  squeezes_S1x128_S128 : S1x128.Squeezes S128
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  squeezes_S1x128x128_S128x128 : S1x128x128.Squeezes S128x128
  inb_S4608x128_S4608x128_0_0 : ∀ a, (![0, 0] : Fin 2 → Nat) a + S4608x128.size a ≤ S4608x128.size a
  gathers_S4608x128_S128x128 : S4608x128.Gathers 0 S128x128
  shapeCasts_S3276800x128_S16384x200x128 : S3276800x128.ShapeCasts S16384x200x128
  hcc0_scoped0 : 0 + S_.numel ≤ 10
  hcc0_scoped1 : 1 + S_.numel ≤ 10
  hcc0_scoped2 : 2 + S_.numel ≤ 10
  hcc0_scoped4 : 3 + S2.numel ≤ 10
  hcc0_scoped6 : 5 + S2.numel ≤ 10
  hcc0_scoped8 : 7 + S2.numel ≤ 10
  hcc0_scoped9 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S1x16.size a ≤ S72x128.size a
  k0_off2_inb : ∀ (i : grid0.Coords) (k0_t1 : Fin k0_t1_loop.trips), ∀ a, (k0_off2 i k0_t1) a + S1x16.size a ≤ S64x128.size a
  k0_off3_inb : ∀ k0_t1 : Fin k0_t1_loop.trips, ∀ a, (k0_off3 k0_t1) a + S1x16.size a ≤ S288x128.size a
  k0_off4_inb : ∀ (i : grid0.Coords) (k0_t1 : Fin k0_t1_loop.trips), ∀ a, (k0_off4 i k0_t1) a + S1x16.size a ≤ S72x128.size a
  k0_off5_inb : ∀ (i : grid0.Coords) (k0_t1 : Fin k0_t1_loop.trips), ∀ a, (k0_off5 i k0_t1) a + S1x16.size a ≤ S64x128.size a
  k0_off6_inb : ∀ k0_t1 : Fin k0_t1_loop.trips, ∀ a, (k0_off6 k0_t1) a + S1x16.size a ≤ S288x128.size a
  k0_off7_inb : ∀ (i : grid0.Coords) (k0_t1 : Fin k0_t1_loop.trips), ∀ a, (k0_off7 i k0_t1) a + S1x16.size a ≤ S72x128.size a
  k0_off8_inb : ∀ (i : grid0.Coords) (k0_t1 : Fin k0_t1_loop.trips), ∀ a, (k0_off8 i k0_t1) a + S1x16.size a ≤ S64x128.size a
  k0_off9_inb : ∀ k0_t1 : Fin k0_t1_loop.trips, ∀ a, (k0_off9 k0_t1) a + S1x16.size a ≤ S288x128.size a
  k0_off10_inb : ∀ (i : grid0.Coords) (k0_t1 : Fin k0_t1_loop.trips), ∀ a, (k0_off10 i k0_t1) a + S1x16.size a ≤ S72x128.size a
  k0_off11_inb : ∀ (i : grid0.Coords) (k0_t1 : Fin k0_t1_loop.trips), ∀ a, (k0_off11 i k0_t1) a + S1x16.size a ≤ S64x128.size a
  k0_off12_inb : ∀ k0_t1 : Fin k0_t1_loop.trips, ∀ a, (k0_off12 k0_t1) a + S1x16.size a ≤ S288x128.size a
  k0_off13_inb : ∀ (i : grid0.Coords) (k0_t1 : Fin k0_t1_loop.trips), ∀ a, (k0_off13 i k0_t1) a + S1x16.size a ≤ S72x128.size a
  k0_off14_inb : ∀ (i : grid0.Coords) (k0_t1 : Fin k0_t1_loop.trips), ∀ a, (k0_off14 i k0_t1) a + S1x16.size a ≤ S64x128.size a
  k0_off15_inb : ∀ k0_t1 : Fin k0_t1_loop.trips, ∀ a, (k0_off15 k0_t1) a + S1x16.size a ≤ S288x128.size a
  k0_off16_inb : ∀ (i : grid0.Coords) (k0_t1 : Fin k0_t1_loop.trips), ∀ a, (k0_off16 i k0_t1) a + S1x16.size a ≤ S72x128.size a
  k0_off17_inb : ∀ (i : grid0.Coords) (k0_t1 : Fin k0_t1_loop.trips), ∀ a, (k0_off17 i k0_t1) a + S1x16.size a ≤ S64x128.size a
  k0_off18_inb : ∀ k0_t1 : Fin k0_t1_loop.trips, ∀ a, (k0_off18 k0_t1) a + S1x16.size a ≤ S288x128.size a
  k0_off19_inb : ∀ (i : grid0.Coords) (k0_t1 : Fin k0_t1_loop.trips), ∀ a, (k0_off19 i k0_t1) a + S1x16.size a ≤ S72x128.size a
  k0_off20_inb : ∀ (i : grid0.Coords) (k0_t1 : Fin k0_t1_loop.trips), ∀ a, (k0_off20 i k0_t1) a + S1x16.size a ≤ S64x128.size a
  k0_off21_inb : ∀ k0_t1 : Fin k0_t1_loop.trips, ∀ a, (k0_off21 k0_t1) a + S1x16.size a ≤ S288x128.size a
  k0_off22_inb : ∀ (i : grid0.Coords) (k0_t1 : Fin k0_t1_loop.trips), ∀ a, (k0_off22 i k0_t1) a + S1x16.size a ≤ S72x128.size a
  k0_off23_inb : ∀ (i : grid0.Coords) (k0_t1 : Fin k0_t1_loop.trips), ∀ a, (k0_off23 i k0_t1) a + S1x16.size a ≤ S64x128.size a
  k0_off24_inb : ∀ k0_t1 : Fin k0_t1_loop.trips, ∀ a, (k0_off24 k0_t1) a + S1x16.size a ≤ S288x128.size a
  k0_off25_inb : ∀ i : grid0.Coords, ∀ a, (k0_off25 i) a + S288x128.size a ≤ S4608x128.size a
  k0_off26_inb : ∀ a, k0_off26 a + S1x1x128.size a ≤ S2x1x128.size a
  k0_off27_inb : ∀ i : grid0.Coords, ∀ a, (k0_off27 i) a + S1x128.size a ≤ S1x3276800.size a
  k0_off28_inb : ∀ a, k0_off28 a + S1.size a ≤ S2.size a
  k0_t2_ok : k0_t2_loop.OK

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped4 : DmaSems sig S2 := SemArray.consecutive 3 S2 hcc0_scoped4
abbrev cc0_scoped6 : DmaSems sig S2 := SemArray.consecutive 5 S2 hcc0_scoped6
abbrev cc0_scoped8 : DmaSems sig S2 := SemArray.consecutive 7 S2 hcc0_scoped8
abbrev cc0_scoped9 : DmaSems sig S_ := SemArray.consecutive 9 S_ hcc0_scoped9

class Facts : Prop extends Facts₀ where

variable [Facts]
-- ==== ReferenceIdeal.lean ====
abbrev S16384x200x2 : Shape := ⟨3, ![16384, 200, 2]⟩
abbrev S60x128 : Shape := ⟨2, ![60, 128]⟩
abbrev S72x128 : Shape := ⟨2, ![72, 128]⟩
abbrev S16384x200x1 : Shape := ⟨3, ![16384, 200, 1]⟩
abbrev S16384x200 : Shape := ⟨2, ![16384, 200]⟩
abbrev S_ : Shape := ⟨0, ![]⟩
abbrev S1 : Shape := ⟨1, ![1]⟩
abbrev S1x1x1 : Shape := ⟨3, ![1, 1, 1]⟩
abbrev S16384x200x128 : Shape := ⟨3, ![16384, 200, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x200x2, .i32⟩
  | .hbm, ⟨1, _⟩ => ⟨S60x128, .f32⟩
  | .hbm, ⟨2, _⟩ => ⟨S72x128, .f32⟩
  | .hbm, ⟨3, _⟩ => ⟨S16384x200x1, .i32⟩
  | .hbm, ⟨4, _⟩ => ⟨S16384x200, .i32⟩
  | .hbm, ⟨5, _⟩ => ⟨S_, .i32⟩
  | .hbm, ⟨6, _⟩ => ⟨S16384x200, .i32⟩
  | .hbm, ⟨7, _⟩ => ⟨S16384x200, .i1⟩
  | .hbm, ⟨8, _⟩ => ⟨S_, .i32⟩
  | .hbm, ⟨9, _⟩ => ⟨S16384x200, .i32⟩
  | .hbm, ⟨10, _⟩ => ⟨S16384x200, .i32⟩
  | .hbm, ⟨11, _⟩ => ⟨S16384x200, .i32⟩
  | .hbm, ⟨12, _⟩ => ⟨S16384x200x1, .i32⟩
  | .hbm, ⟨13, _⟩ => ⟨S1, .i32⟩
  | .hbm, ⟨14, _⟩ => ⟨S_, .i32⟩
  | .hbm, ⟨15, _⟩ => ⟨S16384x200x1, .i32⟩
  | .hbm, ⟨16, _⟩ => ⟨S16384x200x1, .i1⟩
  | .hbm, ⟨17, _⟩ => ⟨S1x1x1, .i32⟩
  | .hbm, ⟨18, _⟩ => ⟨S16384x200x1, .i32⟩
  | .hbm, ⟨19, _⟩ => ⟨S16384x200x1, .i1⟩
  | .hbm, ⟨20, _⟩ => ⟨S16384x200x1, .i1⟩
  | .hbm, ⟨21, _⟩ => ⟨S_, .i1⟩
  | .hbm, ⟨22, _⟩ => ⟨S16384x200, .i1⟩
  | .hbm, ⟨23, _⟩ => ⟨S16384x200x128, .f32⟩
  | .hbm, ⟨24, _⟩ => ⟨S16384x200x128, .i1⟩
  | .hbm, ⟨25, _⟩ => ⟨S_, .f32⟩
  | .hbm, ⟨26, _⟩ => ⟨S16384x200x128, .f32⟩
  | .hbm, ⟨27, _⟩ => ⟨S16384x200x128, .f32⟩
  | .hbm, ⟨28, _⟩ => ⟨S16384x200x1, .i32⟩
  | .hbm, ⟨29, _⟩ => ⟨S16384x200, .i32⟩
  | .hbm, ⟨30, _⟩ => ⟨S_, .i32⟩
  | .hbm, ⟨31, _⟩ => ⟨S16384x200, .i32⟩
  | .hbm, ⟨32, _⟩ => ⟨S16384x200, .i1⟩
  | .hbm, ⟨33, _⟩ => ⟨S_, .i32⟩
  | .hbm, ⟨34, _⟩ => ⟨S16384x200, .i32⟩
  | .hbm, ⟨35, _⟩ => ⟨S16384x200, .i32⟩
  | .hbm, ⟨36, _⟩ => ⟨S16384x200, .i32⟩
  | .hbm, ⟨37, _⟩ => ⟨S16384x200x1, .i32⟩
  | .hbm, ⟨38, _⟩ => ⟨S1, .i32⟩
  | .hbm, ⟨39, _⟩ => ⟨S_, .i32⟩
  | .hbm, ⟨40, _⟩ => ⟨S16384x200x1, .i32⟩
  | .hbm, ⟨41, _⟩ => ⟨S16384x200x1, .i1⟩
  | .hbm, ⟨42, _⟩ => ⟨S1x1x1, .i32⟩
  | .hbm, ⟨43, _⟩ => ⟨S16384x200x1, .i32⟩
  | .hbm, ⟨44, _⟩ => ⟨S16384x200x1, .i1⟩
  | .hbm, ⟨45, _⟩ => ⟨S16384x200x1, .i1⟩
  | .hbm, ⟨46, _⟩ => ⟨S_, .i1⟩
  | .hbm, ⟨47, _⟩ => ⟨S16384x200, .i1⟩
  | .hbm, ⟨48, _⟩ => ⟨S16384x200x128, .f32⟩
  | .hbm, ⟨49, _⟩ => ⟨S16384x200x128, .i1⟩
  | .hbm, ⟨50, _⟩ => ⟨S_, .f32⟩
  | .hbm, ⟨51, _⟩ => ⟨S16384x200x128, .f32⟩
  | .hbm, ⟨52, _⟩ => ⟨S16384x200x128, .f32⟩
  | .hbm, ⟨53, _⟩ => ⟨S16384x200x128, .f32⟩
  | _, _ => ⟨S16384x200x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]

class Facts₀ : Prop where
  slices_S16384x200x2_S16384x200x1_0_0_1 : S16384x200x2.Slices ![0, 0, 1] S16384x200x1
  shapeCasts_S16384x200x1_S16384x200 : S16384x200x1.ShapeCasts S16384x200
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x128_0_1 : S16384x200.BroadcastsInDim S16384x200x128 (![0, 1] : Fin 2 → Fin S16384x200x128.rank)
  bcast_S_S16384x200x128 : S_.BroadcastsInDim S16384x200x128 (![] : Fin 0 → Fin S16384x200x128.rank)
  slices_S16384x200x2_S16384x200x1_0_0_0 : S16384x200x2.Slices ![0, 0, 0] S16384x200x1
  gather_S60x128_S16384x200x1_S16384x200x128_2_0_n_n_0_2_1128_wf : GatherDims.WF S60x128 S16384x200x1 S16384x200x128 [2] [0] [] [0] [] 2 ![1, 128]
  gather_S72x128_S16384x200x1_S16384x200x128_2_0_n_n_0_2_1128_wf : GatherDims.WF S72x128 S16384x200x1 S16384x200x128 [2] [0] [] [0] [] 2 ![1, 128]

variable [Facts₀]

def gather_S60x128_S16384x200x1_S16384x200x128_2_0_n_n_0_2_1128 : GatherDims S60x128 S16384x200x1 S16384x200x128 where
  offsetDims := [2]
  collapsedSliceDims := [0]
  operandBatchingDims := []
  startIndicesBatchingDims := []
  startIndexMap := [0]
  indexVectorDim := 2
  sliceSizes := ![1, 128]
  wf := gather_S60x128_S16384x200x1_S16384x200x128_2_0_n_n_0_2_1128_wf
def gather_S72x128_S16384x200x1_S16384x200x128_2_0_n_n_0_2_1128 : GatherDims S72x128 S16384x200x1 S16384x200x128 where
  offsetDims := [2]
  collapsedSliceDims := [0]
  operandBatchingDims := []
  startIndicesBatchingDims := []
  startIndexMap := [0]
  indexVectorDim := 2
  sliceSizes := ![1, 128]
  wf := gather_S72x128_S16384x200x1_S16384x200x128_2_0_n_n_0_2_1128_wf

class Facts : Prop extends Facts₀ where

variable [Facts]
-- ==== Proof.PreRange.lean ====
/-
  The precondition, decoded: every word of the index input is at most 59.

  The precondition is the conjunction of three "for all entries" tests: every minute-table entry is finite, every
  hour-table entry is finite, and every word w of the index input satisfies 0 ≤ w and w ≤ 59, both comparisons read
  SIGNED (two's complement). It is stated as: the conjunction, computed as a one-bit word, equals 1.

  Only the third test matters for the value of the two lookups. A word that is nonnegative when read signed has its top
  bit clear, so its signed and unsigned readings agree; being at most 59 signed, it is then at most 59 as a natural
  number. Since 59 is below both table heights (60 minute rows, 72 hour rows), every admitted word names a real row of
  either table. The two finiteness tests are only split off and dropped: the equality of the two programs adds the same
  two table entries in the same order, which needs no property of the floats.
-/
import proofs.«204352_g17334488006705_cont_7to1_713_23_alg».proof.Defs
import Idealize.ShloMosaic.Lib.ReduceAll
import Idealize.ShloMosaic.Lib.ValueIdx

noncomputable section

namespace Cert.PreRange

open Idealize.ShloMosaic Idealize.SL.Sem

/-- A 32-bit word w with 0 ≤ w and w ≤ n, both read signed, where n < 2³¹, has unsigned value at most n.
    The signed reading of w is w.toNat when 2·w.toNat < 2³², and w.toNat − 2³² (a negative number) otherwise;
    0 ≤ w signed rules out the second case, and in the first case the signed bound w ≤ n is the unsigned one. -/
theorem toNat_le_of_signed_range (w : BitVec 32) (n : Nat) (hn : n < 2 ^ 31)
    (h0 : IntOp.cmpi .sge w (0#32) = 1#1) (h1 : IntOp.cmpi .sle w (BitVec.ofNat 32 n) = 1#1) : w.toNat ≤ n := by
  -- what the two comparison bits say about the signed readings
  rw [IntOp.cmpi_sge] at h0
  rw [IntOp.cmpi_sle] at h1
  -- the two literals read signed: 0 is 0, and n (below 2³¹, top bit clear) is n
  have hz : (0#32 : BitVec 32).toInt = 0 := by decide
  have hN : (BitVec.ofNat 32 n).toInt = n := by
    rw [BitVec.toInt_eq_toNat_of_lt (by rw [BitVec.toNat_ofNat]; omega), BitVec.toNat_ofNat]
    omega
  rw [hz] at h0
  rw [hN] at h1
  have hw := w.isLt
  -- the signed reading of w, by cases on its top bit
  unfold BitVec.toInt at h0 h1
  split at h0 <;> omega

/-- The result of a reduction over all axes has exactly one index. -/
instance : Subsingleton Cert.Pre_input_domain.S_.Idx := ⟨fun a b => funext fun d => d.elim0⟩

variable [Cert.Pre_input_domain.Facts]

/-- THE PRECONDITION DECODED, for any float type: if the precondition's bit is 1 then every word of the index
    input, read as a natural number, is at most 59. -/
theorem word_le_of_pre {F : FTy → Type} [FloatOps F]
    (x : IVec Cert.Pre_input_domain.S16384x200x2 32) (a1 : FVec F Cert.Pre_input_domain.S60x128 .f32)
    (a2 : FVec F Cert.Pre_input_domain.S72x128 .f32)
    (h : Cert.Pre_input_domain.fn (F := F) x a1 a2 = fun _ => 1#1) : ∀ j, (x j).toNat ≤ 59 := by
  intro j
  -- the precondition's one bit, as the program's chain of operations
  have e := congrFun h ValueIdx.ix0
  dsimp only [Cert.Pre_input_domain.fn] at e
  -- the outer conjunction is (both tables finite) and (every word in range): keep the second half
  obtain ⟨-, hall⟩ := IntOp.andi_eq_one.1 e
  -- a conjunction over all indices that came out 1 met a 1 at every index, in particular at j
  have hj := Host.reduce_andi_all _ _ _ _ _ hall j
  -- at index j that bit is (x j ≥ 0) and (x j ≤ 59), signed: a constant broadcast to the input's shape, read at j, is
  -- the constant
  obtain ⟨h0, h59⟩ := IntOp.andi_eq_one.1
    (show IntOp.andi (IntOp.cmpi .sge (x j) (0#32)) (IntOp.cmpi .sle (x j) (BitVec.ofNat 32 59)) = 1#1 from hj)
  exact toNat_le_of_signed_range (x j) 59 (by norm_num) h0 h59

/-! ## The same fact for each program's launch memory

Each program's precondition says the predicate above holds of the three argument arrays its launch memory holds, on
every device; so on every device the index input's words are at most 59. -/

/-- The kernel at the machine's floats. -/
theorem range_Kernel (m : (ℓ : Loc Cert.Kernel.nD Cert.Kernel.τ Cert.Kernel.sig) → Buf (Elt Bits) ℓ)
    (h : Cert.Pre_Kernel m) :
    ∀ (c : Dev Cert.Kernel.nD) j,
      (m ((c.tc : Thread Cert.Kernel.nD Cert.Kernel.τ).loc Cert.Kernel.main_arg0) j).toNat ≤ 59 :=
  fun c => word_le_of_pre (F := Bits) _ _ _ (h c)

/-- The kernel at the ideal (real-number) floats. -/
theorem range_KernelIdeal (m : (ℓ : Loc Cert.KernelIdeal.nD Cert.KernelIdeal.τ Cert.KernelIdeal.sig) → Buf (Elt Ideal) ℓ)
    (h : Cert.Pre_KernelIdeal m) :
    ∀ (c : Dev Cert.KernelIdeal.nD) j,
      (m ((c.tc : Thread Cert.KernelIdeal.nD Cert.KernelIdeal.τ).loc Cert.KernelIdeal.main_arg0) j).toNat ≤ 59 :=
  fun c => word_le_of_pre (F := Ideal) _ _ _ (h c)

/-- The reference at the ideal floats. -/
theorem range_ReferenceIdeal
    (m : (ℓ : Loc Cert.ReferenceIdeal.nD Cert.ReferenceIdeal.τ Cert.ReferenceIdeal.sig) → Buf (Elt Ideal) ℓ)
    (h : Cert.Pre_ReferenceIdeal m) :
    ∀ (c : Dev Cert.ReferenceIdeal.nD) j,
      (m ((c.tc : Thread Cert.ReferenceIdeal.nD Cert.ReferenceIdeal.τ).loc Cert.ReferenceIdeal.main_arg0) j).toNat ≤ 59 :=
  fun c => word_le_of_pre (F := Ideal) _ _ _ (h c)

end Cert.PreRange

end
-- ==== Proof.RefRun.lean ====
/-
  The reference program's run, read back as one list of host operations.

  The reference computes two embedding lookups and adds them. Its text is a main function that slices the word
  array into its minute column and its hour column, reshapes each to a matrix of words, and calls an outlined
  lookup function once per table; each lookup in turn calls an outlined three-way choice. A call executes the
  callee's body on the caller's operands, so the whole program is a straight line of host operations: the
  callee's operations written at the call site over that call's own buffers. This module writes that line
  out — fifty-one operations — shows the main function IS that line (unfolding the three function bodies and
  re-associating the sequencing), and concludes that every weakly fair execution terminates with each buffer
  holding the fold of the operations over the launch contents.

  One lookup of a table of `N` rows is twenty-three operations: the words below zero are moved up by `N`
  (a comparison with zero, the sum with `N`, the choice between the two), the result is given a trailing axis of
  length one to serve as start indices, a mask records whether every start index lies in `[0, N − 1]` (two
  comparisons, their conjunction, a conjunction-reduction over the trailing axis), whole rows are gathered, and
  where the mask is false the gathered row is replaced by a quiet not-a-number.
-/
import proofs.«204352_g17334488006705_cont_7to1_713_23_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Minute lookup, first part: the words below zero moved up by the table's height (the comparison with zero, the
    sum with the height, the choice between the two), and the result given a trailing axis of length one: the start
    indices. -/
abbrev wrapMinuteOps : List (HloOp τ sig (Elt F)) :=
  [ TRef.nullary main_call0.c (constantI S_ 32 0#32),
    TRef.unary main_call0.c main_call0.v0 (broadcastInDim S16384x200 ![] bcast_S_S16384x200),
    TRef.binary (.of main_v1) main_call0.v0 main_call0.v1 (cmpi .slt),
    TRef.nullary main_call0.c_0 (constantI S_ 32 60#32),
    TRef.unary main_call0.c_0 main_call0.v2 (broadcastInDim S16384x200 ![] bcast_S_S16384x200),
    TRef.binary (.of main_v1) main_call0.v2 main_call0.v3 addi,
    TRef.ternary main_call0.v1 main_call0.v3 (.of main_v1) main_call0.call0.v0 select,
    TRef.unary main_call0.call0.v0 main_call0.v5 (broadcastInDim S16384x200x1 ![0, 1] bcast_S16384x200_S16384x200x1_0_1) ]

/-- Minute lookup, second part: the mask "every start index of the position lies between zero and the last row" — two
    comparisons, their conjunction, and the conjunction-reduction over the trailing axis from the constant true. -/
abbrev maskMinuteOps : List (HloOp τ sig (Elt F)) :=
  [ TRef.nullary main_call0.c_1 (constantI S1 32 59#32),
    TRef.nullary main_call0.c_2 (constantI S_ 32 0#32),
    TRef.unary main_call0.c_2 main_call0.v6 (broadcastInDim S16384x200x1 ![] bcast_S_S16384x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x200x1 ![0, 1, 2] bcast_S1x1x1_S16384x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x200x1_S16384x200_d2 h_S_) ]

/-- Minute lookup, third part: whole rows gathered at the start indices, and the masked choice between the gathered
    rows and a quiet not-a-number. -/
abbrev pickMinuteOps : List (HloOp τ sig (Elt F)) :=
  [ TRef.binary (.of main_arg1) main_call0.v5 main_call0.v13 (fun x i => Host.gather gather_S60x128_S16384x200x1_S16384x200x128_2_0_n_n_0_2_1128 x i),
    TRef.unary main_call0.v12 main_call0.v14 (broadcastInDim S16384x200x128 ![0, 1] bcast_S16384x200_S16384x200x128_0_1),
    TRef.nullary main_call0.cst (constant S_ .f32 0x7FC00000#32),
    TRef.unary main_call0.cst main_call0.v15 (broadcastInDim S16384x200x128 ![] bcast_S_S16384x200x128),
    TRef.ternary main_call0.v14 main_call0.v13 main_call0.v15 main_call0.v16 select ]

/-- The lookup of the minute table (60 rows) at the minute column, over the buffers of the first call: its three
    parts in order, twenty-three operations. -/
abbrev takeMinuteOps : List (HloOp τ sig (Elt F)) :=
  wrapMinuteOps ++ maskMinuteOps ++ pickMinuteOps

/-- Hour lookup, first part: the words below zero moved up by the table's height (the comparison with zero, the
    sum with the height, the choice between the two), and the result given a trailing axis of length one: the start
    indices. -/
abbrev wrapHourOps : List (HloOp τ sig (Elt F)) :=
  [ TRef.nullary main_call1.c (constantI S_ 32 0#32),
    TRef.unary main_call1.c main_call1.v0 (broadcastInDim S16384x200 ![] bcast_S_S16384x200),
    TRef.binary (.of main_v4) main_call1.v0 main_call1.v1 (cmpi .slt),
    TRef.nullary main_call1.c_0 (constantI S_ 32 72#32),
    TRef.unary main_call1.c_0 main_call1.v2 (broadcastInDim S16384x200 ![] bcast_S_S16384x200),
    TRef.binary (.of main_v4) main_call1.v2 main_call1.v3 addi,
    TRef.ternary main_call1.v1 main_call1.v3 (.of main_v4) main_call1.call0.v0 select,
    TRef.unary main_call1.call0.v0 main_call1.v5 (broadcastInDim S16384x200x1 ![0, 1] bcast_S16384x200_S16384x200x1_0_1) ]

/-- Hour lookup, second part: the mask "every start index of the position lies between zero and the last row" — two
    comparisons, their conjunction, and the conjunction-reduction over the trailing axis from the constant true. -/
abbrev maskHourOps : List (HloOp τ sig (Elt F)) :=
  [ TRef.nullary main_call1.c_1 (constantI S1 32 71#32),
    TRef.nullary main_call1.c_2 (constantI S_ 32 0#32),
    TRef.unary main_call1.c_2 main_call1.v6 (broadcastInDim S16384x200x1 ![] bcast_S_S16384x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x200x1 ![0, 1, 2] bcast_S1x1x1_S16384x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x200x1_S16384x200_d2 h_S_) ]

/-- Hour lookup, third part: whole rows gathered at the start indices, and the masked choice between the gathered
    rows and a quiet not-a-number. -/
abbrev pickHourOps : List (HloOp τ sig (Elt F)) :=
  [ TRef.binary (.of main_arg2) main_call1.v5 main_call1.v13 (fun x i => Host.gather gather_S72x128_S16384x200x1_S16384x200x128_2_0_n_n_0_2_1128 x i),
    TRef.unary main_call1.v12 main_call1.v14 (broadcastInDim S16384x200x128 ![0, 1] bcast_S16384x200_S16384x200x128_0_1),
    TRef.nullary main_call1.cst (constant S_ .f32 0x7FC00000#32),
    TRef.unary main_call1.cst main_call1.v15 (broadcastInDim S16384x200x128 ![] bcast_S_S16384x200x128),
    TRef.ternary main_call1.v14 main_call1.v13 main_call1.v15 main_call1.v16 select ]

/-- The lookup of the hour table (72 rows) at the hour column, over the buffers of the second call: the same three
    parts. -/
abbrev takeHourOps : List (HloOp τ sig (Elt F)) :=
  wrapHourOps ++ maskHourOps ++ pickHourOps

/-- The minute column of the word array: the slice `[:, :, 1:2]`, reshaped to a matrix of words. -/
abbrev minuteColOps : List (HloOp τ sig (Elt F)) :=
  [ unary main_arg0 main_v0 ((extractStridedSlice S16384x200x1 ![0, 0, 1] · slices_S16384x200x2_S16384x200x1_0_0_1) : (⟨S16384x200x2, .i32⟩ : BufTy).Contents (Elt F) → (⟨S16384x200x1, .i32⟩ : BufTy).Contents (Elt F)),
    reshape main_v0 main_v1 rfl shapeCasts_S16384x200x1_S16384x200 ]

/-- The hour column of the word array: the slice `[:, :, 0:1]`, reshaped to a matrix of words. -/
abbrev hourColOps : List (HloOp τ sig (Elt F)) :=
  [ unary main_arg0 main_v3 ((extractStridedSlice S16384x200x1 ![0, 0, 0] · slices_S16384x200x2_S16384x200x1_0_0_0) : (⟨S16384x200x2, .i32⟩ : BufTy).Contents (Elt F) → (⟨S16384x200x1, .i32⟩ : BufTy).Contents (Elt F)),
    reshape main_v3 main_v4 rfl shapeCasts_S16384x200x1_S16384x200 ]

/-- The sum of the two lookups, the hour lookup first. -/
abbrev sumOps : List (HloOp τ sig (Elt F)) :=
  [ binary main_v5 main_v2 main_v6 (addf : (⟨S16384x200x128, .f32⟩ : BufTy).Contents (Elt F) → (⟨S16384x200x128, .f32⟩ : BufTy).Contents (Elt F) → (⟨S16384x200x128, .f32⟩ : BufTy).Contents (Elt F)) ]

/-- The whole program in order: the minute column and the minute lookup; the hour column and the hour lookup;
    the sum. -/
abbrev ops : List (HloOp τ sig (Elt F)) :=
  minuteColOps ++ takeMinuteOps ++ hourColOps ++ takeHourOps ++ sumOps

-- fifty-one binds re-associated: the rewrite under the chain recurses once per statement
set_option maxRecDepth 4096 in
/-- The main function is that straight line: with the three function bodies unfolded at their calls, both sides
    are one chain of host steps once the sequencing is re-associated. -/
theorem main_eq (c : Dev nD) : main (F := F) c = seq ops := by
  simp only [main, fn_take.body, fn_take_0.body, fn_where.body, ops, minuteColOps, takeMinuteOps, wrapMinuteOps, maskMinuteOps, pickMinuteOps, hourColOps, takeHourOps, wrapHourOps, maskHourOps, pickHourOps, sumOps, List.cons_append,
    List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [ops, minuteColOps, takeMinuteOps, wrapMinuteOps, maskMinuteOps, pickMinuteOps, hourColOps, takeHourOps, wrapHourOps, maskHourOps, pickHourOps, sumOps, List.cons_append, List.nil_append, List.Forall]
  exact ⟨unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

/-- At the compiled mesh, for any float values, from any memory with zero counters: every weakly fair execution
    of the main function terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibGatherBatchRows.lean ====
/-
  A gather of whole rows under a batch of start indices, read at an index.

  `x[idx]` along axis 0 for a table `x : [N, D]` and an array of start indices `idx : [B, R, 1]` copies whole rows:
  the `[B, R, D]` result's entry `(b, r, d)` is the table's entry `(row, d)`, where `row` is start index
  `idx[b, r, 0]` read as a signed integer and clamped into `[0, N − 1]`. The host operation reads the operand at
  the operand index its dimension numbers compute from the result index: on the table's axis 0 (named by the start
  index map, collapsed) the clamped start index and nothing else, on axis 1 (the one offset axis, of full slice
  size `D`) the result's last coordinate and nothing else. So the operation at `(b, r, d)` is
  `x (clamped idx[b, r, 0], d)`, for every element type and every index width.
-/
import Idealize.ShloMosaic.PureOps
import Idealize.ShloMosaic.Lib.ValueIdx

noncomputable section

namespace Cert.Lib.GatherBatchRows

open Idealize.ShloMosaic Idealize.ShloMosaic.ValueIdx

variable {α : Type}

/-- The whole-row dimension numbers for a table `[N, D]`, start indices `[B, R, 1]` and a result `[B, R, D]`:
    the result's last axis is the one offset axis, the table's axis 0 is collapsed and is the one axis a start
    index names, the index vector lies along the start indices' last axis, a slice is one whole row. Their
    conditions `wf` are decided on a program's literal shapes. -/
abbrev rowsDims (N D B R : Nat)
    (wf : GatherDims.WF ⟨2, ![N, D]⟩ ⟨3, ![B, R, 1]⟩ ⟨3, ![B, R, D]⟩ [2] [0] [] [0] [] 2 ![1, D]) :
    GatherDims ⟨2, ![N, D]⟩ ⟨3, ![B, R, 1]⟩ ⟨3, ![B, R, D]⟩ where
  offsetDims := [2]
  collapsedSliceDims := [0]
  operandBatchingDims := []
  startIndicesBatchingDims := []
  startIndexMap := [0]
  indexVectorDim := 2
  sliceSizes := ![1, D]
  wf := wf

/-- The operand index on the table's axis 0, for result index `(b, r, d)`: the axis is collapsed (no offset
    coordinate), is no batching axis, and is the one the start index names, so what is left is the start index
    `idx[b, r, 0]` — read at the result's two batch coordinates, 0 along the index vector — signed and clamped to
    `[0, N − 1]` (the table's extent less the slice size 1). -/
theorem operandIdx_row {N D B R w : Nat} (hN : 0 < N)
    (wf : GatherDims.WF ⟨2, ![N, D]⟩ ⟨3, ![B, R, 1]⟩ ⟨3, ![B, R, D]⟩ [2] [0] [] [0] [] 2 ![1, D])
    (idx : IVec ⟨3, ![B, R, 1]⟩ w) (b : Fin B) (r : Fin R) (d : Fin D) :
    ((rowsDims N D B R wf).operandIdx (ix3 b r d) idx (0 : Fin 2)).val
      = min (idx (ix3 b r (0 : Fin 1))).toInt.toNat (N - 1) := by
  show (rowsDims N D B R wf).start (ix3 b r d) idx 0 + (rowsDims N D B R wf).batchCoord (ix3 b r d) 0
      + (rowsDims N D B R wf).offCoord (ix3 b r d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D B R wf).startIndexMap from List.mem_singleton.mpr rfl)]
  have hsi : (rowsDims N D B R wf).siIdx (ix3 b r d) ⟨List.idxOf (0 : Fin 2) (rowsDims N D B R wf).startIndexMap,
      List.idxOf_lt_length_iff.2 (List.mem_singleton.mpr rfl)⟩ = ix3 b r (0 : Fin 1) := by
    funext c; refine Fin.ext ?_
    match c with
    | ⟨0, _⟩ => rfl
    | ⟨1, _⟩ => rfl
    | ⟨2, _⟩ => rfl
  rw [hsi]
  rfl

/-- The operand index on the table's axis 1: no start index names it (the slice starts at 0), it is no batching
    axis, and it is the one axis kept as an offset axis, so what is left is the result's last coordinate. -/
theorem operandIdx_col {N D B R w : Nat}
    (wf : GatherDims.WF ⟨2, ![N, D]⟩ ⟨3, ![B, R, 1]⟩ ⟨3, ![B, R, D]⟩ [2] [0] [] [0] [] 2 ![1, D])
    (idx : IVec ⟨3, ![B, R, 1]⟩ w) (b : Fin B) (r : Fin R) (d : Fin D) :
    ((rowsDims N D B R wf).operandIdx (ix3 b r d) idx (1 : Fin 2)).val = d.val := by
  show (rowsDims N D B R wf).start (ix3 b r d) idx 1 + (rowsDims N D B R wf).batchCoord (ix3 b r d) 1
      + (rowsDims N D B R wf).offCoord (ix3 b r d) 1 = _
  rw [GatherDims.batchCoord_eq_zero _ _ _ List.not_mem_nil]
  unfold GatherDims.start
  rw [dif_neg (fun h : (1 : Fin 2) ∈ (rowsDims N D B R wf).startIndexMap =>
    absurd (List.mem_singleton.mp h) (show ¬ ((1 : Fin 2) = 0) by decide))]
  simp only [Nat.add_zero, Nat.zero_add]
  rfl

/-- THE GATHER READ AT `(b, r, d)`: the table at the row start index `idx[b, r, 0]` names — read signed and
    clamped into `[0, N − 1]` — and the same column `d`. -/
theorem gather_rows_apply {N D B R w : Nat} (hN : 0 < N)
    (wf : GatherDims.WF ⟨2, ![N, D]⟩ ⟨3, ![B, R, 1]⟩ ⟨3, ![B, R, D]⟩ [2] [0] [] [0] [] 2 ![1, D])
    (x : (⟨2, ![N, D]⟩ : Shape).Idx → α) (idx : IVec ⟨3, ![B, R, 1]⟩ w) (b : Fin B) (r : Fin R) (d : Fin D) :
    Host.gather (rowsDims N D B R wf) x idx (ix3 b r d)
      = x (ix2 ⟨min (idx (ix3 b r (0 : Fin 1))).toInt.toNat (N - 1), by omega⟩ d) := by
  unfold Host.gather
  refine congrArg x (funext fun a => Fin.ext ?_)
  match a with
  | ⟨0, _⟩ => exact operandIdx_row hN wf idx b r d
  | ⟨1, _⟩ => exact operandIdx_col wf idx b r d

end Cert.Lib.GatherBatchRows

end
-- ==== Proof.Spec.lean ====
/-
  The function both programs compute, index by index.

  The input `x` holds, for every position `(b, l)`, an hour word `x[b, l, 0]` and a minute word `x[b, l, 1]`.
  The result at `(b, l, d)` is the hour table's row `x[b, l, 0]` plus the minute table's row `x[b, l, 1]`, both at
  column `d`: the sum of two embedding lookups, hour first. A word names a row through its value as a natural
  number, reduced modulo the table's height so that the function is total; for the words the precondition admits
  (`0 ≤ x ≤ 59`, below both heights 72 and 60) the reduction changes nothing.
-/
import Idealize.ShloMosaic.Lib.ValueIdx
import Idealize.ShloMosaic.PureOps

noncomputable section

namespace Cert.Spec

open Idealize.ShloMosaic Idealize.ShloMosaic.ValueIdx

/-- The input of hour and minute words, one pair per position. -/
abbrev SX : Shape := ⟨3, ![16384, 200, 2]⟩
/-- The minute table: 60 rows of 128 columns. -/
abbrev SM : Shape := ⟨2, ![60, 128]⟩
/-- The hour table: 72 rows of 128 columns. -/
abbrev SH : Shape := ⟨2, ![72, 128]⟩
/-- The result: one row of 128 columns per position. -/
abbrev SO : Shape := ⟨3, ![16384, 200, 128]⟩

/-- The row of a table of `N` rows that a 32-bit word names: its value as a natural number, modulo `N`. -/
def row (N : Nat) (hN : 0 < N) (w : BitVec 32) : Fin N := ⟨w.toNat % N, Nat.mod_lt _ hN⟩

/-- A word below the height names the row of its own value. -/
theorem row_val_of_lt {N : Nat} (hN : 0 < N) {w : BitVec 32} (h : w.toNat < N) : (row N hN w).val = w.toNat :=
  Nat.mod_eq_of_lt h

/-- The hour word of position `(b, l)`. -/
def hourWord (x : IVec SX 32) (b : Fin 16384) (l : Fin 200) : BitVec 32 := x (ix3 b l (0 : Fin 2))
/-- The minute word of position `(b, l)`. -/
def minuteWord (x : IVec SX 32) (b : Fin 16384) (l : Fin 200) : BitVec 32 := x (ix3 b l (1 : Fin 2))

/-- The sum of the two lookups at one entry, over explicit coordinates. -/
def entry {F : FTy → Type} [FloatOps F] (x : IVec SX 32) (mt : FVec F SM .f32) (ht : FVec F SH .f32)
    (b : Fin 16384) (l : Fin 200) (d : Fin 128) : F .f32 :=
  FloatOps.addf (ht (ix2 (row 72 (by norm_num) (hourWord x b l)) d)) (mt (ix2 (row 60 (by norm_num) (minuteWord x b l)) d))

/-- The whole result array: hour row plus minute row at every position. -/
def G {F : FTy → Type} [FloatOps F] (x : IVec SX 32) (mt : FVec F SM .f32) (ht : FVec F SH .f32) : FVec F SO .f32 :=
  fun j => entry x mt ht (j 0) (j 1) (j 2)

theorem G_apply {F : FTy → Type} [FloatOps F] (x : IVec SX 32) (mt : FVec F SM .f32) (ht : FVec F SH .f32)
    (b : Fin 16384) (l : Fin 200) (d : Fin 128) : G x mt ht (ix3 b l d) = entry x mt ht b l d := rfl

end Cert.Spec

end
-- ==== Proof.RefValue.lean ====
/-
  The reference program's result, index by index.

  The run of the reference (its fifty-one host operations, in order) leaves the result buffer at the sum of two
  lookups, the hour table's first. This module names that sum as one function of the three arguments, reads it
  at an entry `(b, l, d)`, and shows that for words between 0 and 59 it is the specification: the hour table's row
  `x[b, l, 0]` plus the minute table's row `x[b, l, 1]`, at column `d`.

  One lookup of a table of `N` rows at a matrix of words goes through four stages, and a word `w` with
  `0 ≤ w < N` passes each of them unchanged:
  * the wrap `w < 0 ? w + N : w` keeps `w`, because `w` is not negative;
  * the start index is `w` again, the matrix only given a trailing axis of length one;
  * the mask "every start index lies in `[0, N − 1]`" is true: a conjunction over the one start index of two
    comparisons that both hold;
  * the gather reads the table at row `min (max w 0) (N − 1) = w`, and, the mask being true, the choice against the
    not-a-number fill keeps the gathered entry.
  The columns of the word array are cut out by a slice and a reshape, which at `(b, l)` read `x[b, l, k]`.
-/
import proofs.«204352_g17334488006705_cont_7to1_713_23_alg».proof.Proof.RefRun
import proofs.«204352_g17334488006705_cont_7to1_713_23_alg».proof.Proof.LibGatherBatchRows
import proofs.«204352_g17334488006705_cont_7to1_713_23_alg».proof.Proof.Spec
import Idealize.ShloMosaic.Lib.ValueIdx
import Idealize.ShloMosaic.Lib.Pipeline.Value
import Idealize.ShloMosaic.Lib.Affine
import Idealize.ShloMosaic.PureOps.Reduce

-- each fold below is a long chain of intermediate results, taken one theorem after another
set_option Elab.async false

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx Cert.Lib.GatherBatchRows

/-! ## Words -/

/-- A 32-bit word whose value as a natural number is below `2 ^ 31` reads the same as a signed integer. -/
theorem toInt_eq_toNat {w : BitVec 32} (h : w.toNat < 2 ^ 31) : w.toInt = (w.toNat : Int) := by
  have e := BitVec.toInt_eq_toNat_cond w
  omega

/-- A conjunction of one-bit words, each of them 1, started at 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h1 : IntOp.andi (1#1) (f a) = 1#1 := by rw [h a (List.mem_cons_self ..)]; decide
    rw [List.foldl_cons, h1]
    exact foldl_andi_ones f l (fun n hn => h n (List.mem_cons_of_mem _ hn))

/-! ## The columns of the word array -/

/-- Column `1` of the word array (the minute words) as a matrix: the slice `[:, :, 1:2]` reshaped. -/
def minuteCol (x : IVec S16384x200x2 32) : IVec S16384x200 32 :=
  shapeCast S16384x200 (extractStridedSlice S16384x200x1 ![0, 0, 1] x slices_S16384x200x2_S16384x200x1_0_0_1)
    shapeCasts_S16384x200x1_S16384x200

/-- Column `0` of the word array (the hour words) as a matrix: the slice `[:, :, 0:1]` reshaped. -/
def hourCol (x : IVec S16384x200x2 32) : IVec S16384x200 32 :=
  shapeCast S16384x200 (extractStridedSlice S16384x200x1 ![0, 0, 0] x slices_S16384x200x2_S16384x200x1_0_0_0)
    shapeCasts_S16384x200x1_S16384x200

/-- The reshape drops a trailing axis of length one: positions `(b, l)` and `(b, l, 0)` have the same row-major rank. -/
theorem rank_eq (b : Fin 16384) (l : Fin 200) :
    (S16384x200x1.rowMajor (ix3 b l (0 : Fin 1))).val = (S16384x200.rowMajor (ix2 b l)).val := by
  rw [Shape.rowMajor_val_three, Shape.rowMajor_val_two]
  show (b.val * 200 + l.val) * 1 + 0 = b.val * 200 + l.val
  omega

/-- The minute column at `(b, l)` is the word `x[b, l, 1]`: the slice shifts the last coordinate by one. -/
theorem minuteCol_apply (x : IVec S16384x200x2 32) (b : Fin 16384) (l : Fin 200) :
    minuteCol x (ix2 b l) = x (ix3 b l (1 : Fin 2)) := by
  unfold minuteCol
  rw [shapeCast_apply _ _ (ix2 b l) (ix3 b l (0 : Fin 1)) (rank_eq b l)]
  exact extractStridedSlice_apply _ _ _ (ix3 b l (0 : Fin 1)) (ix3 b l (1 : Fin 2))
    (fun a => match a with | ⟨0, _⟩ => (Nat.zero_add _).symm | ⟨1, _⟩ => (Nat.zero_add _).symm | ⟨2, _⟩ => rfl)

/-- The hour column at `(b, l)` is the word `x[b, l, 0]`. -/
theorem hourCol_apply (x : IVec S16384x200x2 32) (b : Fin 16384) (l : Fin 200) :
    hourCol x (ix2 b l) = x (ix3 b l (0 : Fin 2)) := by
  unfold hourCol
  rw [shapeCast_apply _ _ (ix2 b l) (ix3 b l (0 : Fin 1)) (rank_eq b l)]
  exact extractStridedSlice_apply _ _ _ (ix3 b l (0 : Fin 1)) (ix3 b l (0 : Fin 2))
    (fun a => match a with | ⟨0, _⟩ => (Nat.zero_add _).symm | ⟨1, _⟩ => (Nat.zero_add _).symm | ⟨2, _⟩ => rfl)

/-! ## One lookup -/

/-- The wrap of negative words: `w < 0 ? w + n : w`, entry by entry. -/
def wrap (n : BitVec 32) (w : IVec S16384x200 32) : IVec S16384x200 32 :=
  select (cmpi .slt w (broadcastInDim S16384x200 ![] bcast_S_S16384x200 (constantI S_ 32 0#32)))
    (addi w (broadcastInDim S16384x200 ![] bcast_S_S16384x200 (constantI S_ 32 n))) w

/-- The start indices: the wrapped words with a trailing axis of length one. -/
def starts (n : BitVec 32) (w : IVec S16384x200 32) : IVec S16384x200x1 32 :=
  broadcastInDim S16384x200x1 ![0, 1] bcast_S16384x200_S16384x200x1_0_1 (wrap n w)

/-- The mask: at `(b, l)`, whether every start index of that position lies in `[0, top]` — the conjunction,
    over the trailing axis, of the two comparisons' conjunction. -/
def inRange (top : BitVec 32) (st : IVec S16384x200x1 32) : IVec S16384x200 1 :=
  Host.reduce IntOp.andi
    (andi (cmpi .sge st (broadcastInDim S16384x200x1 ![] bcast_S_S16384x200x1 (constantI S_ 32 0#32)))
      (cmpi .sle st (broadcastInDim S16384x200x1 ![0, 1, 2] bcast_S1x1x1_S16384x200x1_0_1_2
        (broadcastInDim S1x1x1 ![2] bcast_S1_S1x1x1_2 (constantI S1 32 top)))))
    (constantI S_ 1 1#1) reducesTo_S16384x200x1_S16384x200_d2 h_S_

variable {F : FTy → Type} [FloatOps F]

/-- The fill for positions whose start index is out of range: a quiet not-a-number everywhere. -/
def fill : FVec F S16384x200x128 .f32 :=
  broadcastInDim S16384x200x128 ![] bcast_S_S16384x200x128 (constant S_ .f32 0x7FC00000#32)

/-- One lookup of a table of `N` rows at the matrix of words `w`: the gathered rows where the mask is true, the
    fill elsewhere. `n` is `N` as a word and `top` is `N − 1`. -/
def takeRows (N : Nat) (wf : GatherDims.WF ⟨2, ![N, 128]⟩ S16384x200x1 S16384x200x128 [2] [0] [] [0] [] 2 ![1, 128])
    (n top : BitVec 32) (tbl : FVec F ⟨2, ![N, 128]⟩ .f32) (w : IVec S16384x200 32) : FVec F S16384x200x128 .f32 :=
  select (broadcastInDim S16384x200x128 ![0, 1] bcast_S16384x200_S16384x200x128_0_1 (inRange top (starts n w)))
    (Host.gather (rowsDims N 128 16384 200 wf) tbl (starts n w)) fill

/-- A word that is not negative is kept by the wrap. -/
theorem wrap_apply_of_nonneg (n : BitVec 32) (w : IVec S16384x200 32) (i : S16384x200.Idx) (h : 0 ≤ (w i).toInt) :
    wrap n w i = w i := by
  unfold wrap
  rw [select_apply]
  have hc : cmpi .slt w (broadcastInDim S16384x200 ![] bcast_S_S16384x200 (constantI S_ 32 0#32)) i = 0#1 := by
    apply eq_zero_of_ne_one
    intro h1
    have h2 : (w i).toInt < (0#32 : BitVec 32).toInt := (IntOp.cmpi_slt (x := w i) (y := 0#32)).1 h1
    rw [show (0#32 : BitVec 32).toInt = 0 from by decide] at h2
    omega
  rw [hc, select_zero]

/-- The start index of position `(b, l)` is the wrapped word of that position. -/
theorem starts_apply (n : BitVec 32) (w : IVec S16384x200 32) (b : Fin 16384) (l : Fin 200) (u : Fin 1) :
    starts n w (ix3 b l u) = wrap n w (ix2 b l) := by
  unfold starts
  exact broadcastInDim_apply _ _ _ (ix3 b l u) (ix2 b l) (fun a => match a with | ⟨0, _⟩ => rfl | ⟨1, _⟩ => rfl)

/-- If every start index lies in `[0, top]` (read signed), the mask is true everywhere. -/
theorem inRange_eq_one (top : BitVec 32) (st : IVec S16384x200x1 32)
    (h : ∀ i, 0 ≤ (st i).toInt ∧ (st i).toInt ≤ top.toInt) (j : S16384x200.Idx) : inRange top st j = 1#1 := by
  unfold inRange
  rw [Host.reduce_eq_foldl]
  refine foldl_andi_ones _ _ (fun i _ => ?_)
  refine IntOp.andi_eq_one.2 ⟨(IntOp.cmpi_sge (x := st i) (y := 0#32)).2 ?_, (IntOp.cmpi_sle (x := st i) (y := top)).2 (h i).2⟩
  rw [show (0#32 : BitVec 32).toInt = 0 from by decide]
  exact (h i).1

/-- THE LOOKUP AT AN ENTRY. For words below the table's height (itself at most `2 ^ 31`), the lookup at `(b, l, d)`
    is the table at the row the word of position `(b, l)` names, column `d`. -/
theorem takeRows_apply {N : Nat} (hN : 0 < N) (hN31 : N ≤ 2 ^ 31)
    (wf : GatherDims.WF ⟨2, ![N, 128]⟩ S16384x200x1 S16384x200x128 [2] [0] [] [0] [] 2 ![1, 128])
    (n top : BitVec 32) (htop : top.toInt = (N : Int) - 1) (tbl : FVec F ⟨2, ![N, 128]⟩ .f32) (w : IVec S16384x200 32)
    (hw : ∀ i, (w i).toNat < N) (b : Fin 16384) (l : Fin 200) (d : Fin 128) :
    takeRows N wf n top tbl w (ix3 b l d) = tbl (ix2 (Cert.Spec.row N hN (w (ix2 b l))) d) := by
  have hint : ∀ i, (w i).toInt = ((w i).toNat : Int) := fun i => toInt_eq_toNat (by have := hw i; omega)
  have hst : ∀ (b : Fin 16384) (l : Fin 200) (u : Fin 1), starts n w (ix3 b l u) = w (ix2 b l) := fun b l u => by
    rw [starts_apply, wrap_apply_of_nonneg _ _ _ (by rw [hint]; omega)]
  have hmask : inRange top (starts n w) (ix2 b l) = 1#1 := by
    refine inRange_eq_one top _ (fun i => ?_) _
    obtain ⟨b', l', u', rfl⟩ : ∃ (b' : Fin 16384) (l' : Fin 200) (u' : Fin 1), i = ix3 b' l' u' := ⟨i 0, i 1, i 2, eq_ix3 i⟩
    rw [hst, hint, htop]
    have := hw (ix2 b' l')
    omega
  unfold takeRows
  rw [select_apply]
  rw [show broadcastInDim S16384x200x128 ![0, 1] bcast_S16384x200_S16384x200x128_0_1 (inRange top (starts n w)) (ix3 b l d)
      = inRange top (starts n w) (ix2 b l) from
    broadcastInDim_apply _ _ _ (ix3 b l d) (ix2 b l) (fun a => match a with | ⟨0, _⟩ => rfl | ⟨1, _⟩ => rfl)]
  rw [hmask, select_one, gather_rows_apply hN wf tbl (starts n w) b l d]
  refine congrArg tbl (congrArg (fun r => ix2 r d) (Fin.ext ?_))
  show min (starts n w (ix3 b l (0 : Fin 1))).toInt.toNat (N - 1) = (w (ix2 b l)).toNat % N
  rw [hst, hint, Nat.mod_eq_of_lt (hw _)]
  have := hw (ix2 b l)
  omega

/-! ## The whole result -/

/-- The reference's result as one function of its three arguments: the hour lookup plus the minute lookup. -/
def out (x : IVec S16384x200x2 32) (mt : FVec F S60x128 .f32) (ht : FVec F S72x128 .f32) : FVec F S16384x200x128 .f32 :=
  addf (takeRows 72 gather_S72x128_S16384x200x1_S16384x200x128_2_0_n_n_0_2_1128_wf 72#32 71#32 ht (hourCol x))
    (takeRows 60 gather_S60x128_S16384x200x1_S16384x200x128_2_0_n_n_0_2_1128_wf 60#32 59#32 mt (minuteCol x))

/-- FOR WORDS BETWEEN 0 AND 59 THE RESULT IS THE SPECIFICATION: at `(b, l, d)` each lookup reads its table at the row
    its word names (59 is below both heights, 72 and 60), and the sum is the specification's, hour row first. -/
theorem out_eq_G (x : IVec S16384x200x2 32) (mt : FVec F S60x128 .f32) (ht : FVec F S72x128 .f32)
    (hx : ∀ j, (x j).toNat ≤ 59) : out x mt ht = Cert.Spec.G x mt ht := by
  funext j
  obtain ⟨b, l, d, rfl⟩ : ∃ (b : Fin 16384) (l : Fin 200) (d : Fin 128), j = ix3 b l d := ⟨j 0, j 1, j 2, eq_ix3 j⟩
  have hh : ∀ i, (hourCol x i).toNat < 72 := fun i => by
    obtain ⟨b', l', rfl⟩ : ∃ (b' : Fin 16384) (l' : Fin 200), i = ix2 b' l' := ⟨i 0, i 1, eq_ix2 i⟩
    rw [hourCol_apply]; have := hx (ix3 b' l' (0 : Fin 2)); omega
  have hm : ∀ i, (minuteCol x i).toNat < 60 := fun i => by
    obtain ⟨b', l', rfl⟩ : ∃ (b' : Fin 16384) (l' : Fin 200), i = ix2 b' l' := ⟨i 0, i 1, eq_ix2 i⟩
    rw [minuteCol_apply]; have := hx (ix3 b' l' (1 : Fin 2)); omega
  show FloatOps.addf
      (takeRows 72 gather_S72x128_S16384x200x1_S16384x200x128_2_0_n_n_0_2_1128_wf 72#32 71#32 ht (hourCol x) (ix3 b l d))
      (takeRows 60 gather_S60x128_S16384x200x1_S16384x200x128_2_0_n_n_0_2_1128_wf 60#32 59#32 mt (minuteCol x) (ix3 b l d))
    = Cert.Spec.entry x mt ht b l d
  rw [takeRows_apply (by norm_num) (by norm_num) _ 72#32 71#32 (by decide) ht (hourCol x) hh b l d,
    takeRows_apply (by norm_num) (by norm_num) _ 60#32 59#32 (by decide) mt (minuteCol x) hm b l d,
    hourCol_apply, minuteCol_apply]
  rfl

/-! ## The run's fold, stretch by stretch

The program is five stretches in a row — a column cut out, its lookup, the other column, its lookup, the sum — and
each lookup three parts in a row. The fold over stretches in a row is the fold over the later from the fold over
the earlier, so the result buffer is read off one stretch at a time, each over an arbitrary valuation: what the
stretch leaves in the one buffer a later stretch reads, and that it leaves alone the buffers read after it. Each of
these is by computation: an operation's result decides whether the buffer read is the one it writes, and the typed
references' transports are the identity at these literal references. The conjunction-reduction and the gather are
kept folded meanwhile (no equation here looks inside them). -/

/-- The fold over two stretches in a row is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

section Stretches

variable (V : Valuation τ sig (Elt F))

attribute [local irreducible] Host.reduce Host.gather

/-- The first stretch leaves the minute column in its buffer … -/
theorem minuteCol_v1 : after minuteColOps V (main_v1 : DevRef τ sig) = minuteCol (V (main_arg0 : DevRef τ sig)) := by
  simp only [after_cons, after_nil]; rfl
/-- … and the three arguments alone. -/
theorem minuteCol_arg0 : after minuteColOps V (main_arg0 : DevRef τ sig) = V (main_arg0 : DevRef τ sig) := by
  simp only [after_cons, after_nil]; rfl
theorem minuteCol_arg1 : after minuteColOps V (main_arg1 : DevRef τ sig) = V (main_arg1 : DevRef τ sig) := by
  simp only [after_cons, after_nil]; rfl
theorem minuteCol_arg2 : after minuteColOps V (main_arg2 : DevRef τ sig) = V (main_arg2 : DevRef τ sig) := by
  simp only [after_cons, after_nil]; rfl

/-- The minute lookup's first part leaves the start indices — the minute column wrapped, with a trailing axis — in their
    buffer, and the table alone. -/
theorem wrapMinute_v5 : after wrapMinuteOps V (main_call0_v5 : DevRef τ sig) = starts 60#32 (V (main_v1 : DevRef τ sig)) := by
  simp only [after_cons, after_nil]; rfl
theorem wrapMinute_tbl : after wrapMinuteOps V (main_arg1 : DevRef τ sig) = V (main_arg1 : DevRef τ sig) := by
  simp only [after_cons, after_nil]; rfl

/-- Its second part leaves the mask of the start indices in its buffer, and the start indices and the table alone. -/
theorem maskMinute_v12 : after maskMinuteOps V (main_call0_v12 : DevRef τ sig) = inRange 59#32 (V (main_call0_v5 : DevRef τ sig)) := by
  simp only [after_cons, after_nil]; rfl
theorem maskMinute_v5 : after maskMinuteOps V (main_call0_v5 : DevRef τ sig) = V (main_call0_v5 : DevRef τ sig) := by
  simp only [after_cons, after_nil]; rfl
theorem maskMinute_tbl : after maskMinuteOps V (main_arg1 : DevRef τ sig) = V (main_arg1 : DevRef τ sig) := by
  simp only [after_cons, after_nil]; rfl

/-- Its third part leaves in the lookup's result buffer the gathered rows where the mask is true, the fill elsewhere. -/
theorem pickMinute_out : after pickMinuteOps V (main_v2 : DevRef τ sig)
    = (select (broadcastInDim S16384x200x128 ![0, 1] bcast_S16384x200_S16384x200x128_0_1 (V (main_call0_v12 : DevRef τ sig) : IVec S16384x200 1))
        (Host.gather (rowsDims 60 128 16384 200 gather_S60x128_S16384x200x1_S16384x200x128_2_0_n_n_0_2_1128_wf) (V (main_arg1 : DevRef τ sig) : FVec F S60x128 .f32)
          (V (main_call0_v5 : DevRef τ sig) : IVec S16384x200x1 32))
        fill : FVec F S16384x200x128 .f32) := by
  simp only [after_cons, after_nil]; rfl

/-- THE MINUTE LOOKUP leaves, in its result buffer, the lookup of its table at the minute column: its three parts
    chained, last part first … -/
theorem minute_out : after takeMinuteOps V (main_v2 : DevRef τ sig)
    = takeRows 60 gather_S60x128_S16384x200x1_S16384x200x128_2_0_n_n_0_2_1128_wf 60#32 59#32 (V (main_arg1 : DevRef τ sig)) (V (main_v1 : DevRef τ sig)) := by
  show after (wrapMinuteOps ++ maskMinuteOps ++ pickMinuteOps) V (main_v2 : DevRef τ sig) = _
  rw [after_append, after_append, pickMinute_out, maskMinute_v12, maskMinute_v5, maskMinute_tbl, wrapMinute_v5, wrapMinute_tbl]
  rfl

/-- … and the minute lookup leaves the word array and the hour table alone. -/
theorem minute_arg0 : after takeMinuteOps V (main_arg0 : DevRef τ sig) = V (main_arg0 : DevRef τ sig) := by
  simp only [takeMinuteOps, wrapMinuteOps, maskMinuteOps, pickMinuteOps, List.cons_append, List.nil_append, after_cons, after_nil]; rfl
theorem minute_arg2 : after takeMinuteOps V (main_arg2 : DevRef τ sig) = V (main_arg2 : DevRef τ sig) := by
  simp only [takeMinuteOps, wrapMinuteOps, maskMinuteOps, pickMinuteOps, List.cons_append, List.nil_append, after_cons, after_nil]; rfl

/-- The third stretch leaves the hour column in its buffer, and the minute lookup's result and the hour table alone. -/
theorem hourCol_v4 : after hourColOps V (main_v4 : DevRef τ sig) = hourCol (V (main_arg0 : DevRef τ sig)) := by
  simp only [after_cons, after_nil]; rfl
theorem hourCol_v2 : after hourColOps V (main_v2 : DevRef τ sig) = V (main_v2 : DevRef τ sig) := by
  simp only [after_cons, after_nil]; rfl
theorem hourCol_arg2 : after hourColOps V (main_arg2 : DevRef τ sig) = V (main_arg2 : DevRef τ sig) := by
  simp only [after_cons, after_nil]; rfl

/-- The hour lookup's first part leaves the start indices — the hour column wrapped, with a trailing axis — in their
    buffer, and the table alone. -/
theorem wrapHour_v5 : after wrapHourOps V (main_call1_v5 : DevRef τ sig) = starts 72#32 (V (main_v4 : DevRef τ sig)) := by
  simp only [after_cons, after_nil]; rfl
theorem wrapHour_tbl : after wrapHourOps V (main_arg2 : DevRef τ sig) = V (main_arg2 : DevRef τ sig) := by
  simp only [after_cons, after_nil]; rfl

/-- Its second part leaves the mask of the start indices in its buffer, and the start indices and the table alone. -/
theorem maskHour_v12 : after maskHourOps V (main_call1_v12 : DevRef τ sig) = inRange 71#32 (V (main_call1_v5 : DevRef τ sig)) := by
  simp only [after_cons, after_nil]; rfl
theorem maskHour_v5 : after maskHourOps V (main_call1_v5 : DevRef τ sig) = V (main_call1_v5 : DevRef τ sig) := by
  simp only [after_cons, after_nil]; rfl
theorem maskHour_tbl : after maskHourOps V (main_arg2 : DevRef τ sig) = V (main_arg2 : DevRef τ sig) := by
  simp only [after_cons, after_nil]; rfl

/-- Its third part leaves in the lookup's result buffer the gathered rows where the mask is true, the fill elsewhere. -/
theorem pickHour_out : after pickHourOps V (main_v5 : DevRef τ sig)
    = (select (broadcastInDim S16384x200x128 ![0, 1] bcast_S16384x200_S16384x200x128_0_1 (V (main_call1_v12 : DevRef τ sig) : IVec S16384x200 1))
        (Host.gather (rowsDims 72 128 16384 200 gather_S72x128_S16384x200x1_S16384x200x128_2_0_n_n_0_2_1128_wf) (V (main_arg2 : DevRef τ sig) : FVec F S72x128 .f32)
          (V (main_call1_v5 : DevRef τ sig) : IVec S16384x200x1 32))
        fill : FVec F S16384x200x128 .f32) := by
  simp only [after_cons, after_nil]; rfl

/-- THE HOUR LOOKUP leaves, in its result buffer, the lookup of its table at the hour column: its three parts
    chained, last part first … -/
theorem hour_out : after takeHourOps V (main_v5 : DevRef τ sig)
    = takeRows 72 gather_S72x128_S16384x200x1_S16384x200x128_2_0_n_n_0_2_1128_wf 72#32 71#32 (V (main_arg2 : DevRef τ sig)) (V (main_v4 : DevRef τ sig)) := by
  show after (wrapHourOps ++ maskHourOps ++ pickHourOps) V (main_v5 : DevRef τ sig) = _
  rw [after_append, after_append, pickHour_out, maskHour_v12, maskHour_v5, maskHour_tbl, wrapHour_v5, wrapHour_tbl]
  rfl

/-- … and the hour lookup leaves the minute lookup's result alone. -/
theorem hour_v2 : after takeHourOps V (main_v2 : DevRef τ sig) = V (main_v2 : DevRef τ sig) := by
  simp only [takeHourOps, wrapHourOps, maskHourOps, pickHourOps, List.cons_append, List.nil_append, after_cons, after_nil]; rfl

/-- The last stretch leaves the sum of the two lookups' results, hour first, in the result buffer. -/
theorem sum_v6 : after sumOps V (main_v6 : DevRef τ sig)
    = (addf (V (main_v5 : DevRef τ sig) : FVec F S16384x200x128 .f32) (V (main_v2 : DevRef τ sig)) : FVec F S16384x200x128 .f32) := by
  simp only [after_cons, after_nil]; rfl

end Stretches

/-- THE RESULT BUFFER AFTER THE RUN is `out` of the three arguments' contents: the stretches' lemmas chained, last
    stretch first. -/
theorem out_eq (V : Valuation τ sig (Elt F)) :
    after ops V (main_v6 : DevRef τ sig)
      = out (V (main_arg0 : DevRef τ sig)) (V (main_arg1 : DevRef τ sig)) (V (main_arg2 : DevRef τ sig)) := by
  show after (minuteColOps ++ takeMinuteOps ++ hourColOps ++ takeHourOps ++ sumOps) V (main_v6 : DevRef τ sig) = _
  rw [after_append _ sumOps, after_append _ takeHourOps, after_append _ hourColOps, after_append minuteColOps takeMinuteOps,
    sum_v6, hour_out, hour_v2, hourCol_v4, hourCol_v2, hourCol_arg2,
    minute_out, minute_arg0, minute_arg2, minuteCol_v1, minuteCol_arg0, minuteCol_arg1, minuteCol_arg2]
  rfl

set_option maxRecDepth 4096 in
/-- The run leaves the three arguments alone: no operation writes an argument's buffer. -/
theorem arg0_eq (V : Valuation τ sig (Elt F)) : after ops V (main_arg0 : DevRef τ sig) = V (main_arg0 : DevRef τ sig) := by
  simp only [ops, minuteColOps, takeMinuteOps, wrapMinuteOps, maskMinuteOps, pickMinuteOps, hourColOps, takeHourOps, wrapHourOps, maskHourOps, pickHourOps, sumOps, List.cons_append, List.nil_append, after_cons, after_nil]
  rfl
set_option maxRecDepth 4096 in
theorem arg1_eq (V : Valuation τ sig (Elt F)) : after ops V (main_arg1 : DevRef τ sig) = V (main_arg1 : DevRef τ sig) := by
  simp only [ops, minuteColOps, takeMinuteOps, wrapMinuteOps, maskMinuteOps, pickMinuteOps, hourColOps, takeHourOps, wrapHourOps, maskHourOps, pickHourOps, sumOps, List.cons_append, List.nil_append, after_cons, after_nil]
  rfl
set_option maxRecDepth 4096 in
theorem arg2_eq (V : Valuation τ sig (Elt F)) : after ops V (main_arg2 : DevRef τ sig) = V (main_arg2 : DevRef τ sig) := by
  simp only [ops, minuteColOps, takeMinuteOps, wrapMinuteOps, maskMinuteOps, pickMinuteOps, hourColOps, takeHourOps, wrapHourOps, maskHourOps, pickHourOps, sumOps, List.cons_append, List.nil_append, after_cons, after_nil]
  rfl

/-! ## The reference's run, with its value -/

/-- From any memory whose word array holds words between 0 and 59, with zero counters: every weakly fair
    execution of the reference terminates with the result buffer at the specification of the three arguments'
    launch contents, and the arguments unchanged. -/
theorem ref_run (m : (ℓ : Loc Cert.ReferenceIdeal.nD Cert.ReferenceIdeal.τ Cert.ReferenceIdeal.sig) → Buf (Elt Ideal) ℓ)
    (g : Dev Cert.ReferenceIdeal.nD → PrngReg)
    (hx : ∀ (c : Dev Cert.ReferenceIdeal.nD) (j : Cert.Spec.SX.Idx),
      ((m ((c.tc : Thread Cert.ReferenceIdeal.nD Cert.ReferenceIdeal.τ).loc Cert.ReferenceIdeal.main_arg0) : IVec Cert.Spec.SX 32) j).toNat ≤ 59) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v6)
          = Cert.Spec.G (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c =>
      ⟨(h c main_v6).trans ((out_eq (launchContents m c)).trans (out_eq_G _ _ _ (hx c))),
        (h c main_arg0).trans (arg0_eq (launchContents m c)),
        (h c main_arg1).trans (arg1_eq (launchContents m c)),
        (h c main_arg2).trans (arg2_eq (launchContents m c))⟩)
    (Cert.ReferenceIdeal.RefRun.run_main m g)

end Cert.ReferenceIdeal.RefValue

end
-- ==== Proof.Common.lean ====
/-
  What every part of the kernel's proof shares: the program as the launch theorem reads it, the ghost state, the arrays
  and their pieces, the values, the barrier's schedule and what the handshakes carry.

  The kernel runs on the 32 vector subcores (2 SparseCores of 16 tiles). Tile `i` of a SparseCore first builds rows
  `[288 i, 288 i + 288)` of a table of 4608 = 72 · 64 rows in the SparseCore's shared memory: row `R` is the hour
  table's row `R / 64` plus the minute table's row `R % 64` (minute rows 60 … 63 do not exist: those table rows hold
  whatever the tile's scratch held, and are never read). The tiles of a SparseCore meet at the subcore barrier, where
  each hands every tile a read share of its 288 rows. Then tile number `t = i + 16 c` serves positions
  `[102400 t, 102400 t + 102400)` in 800 blocks of 128: per block it forms the words `64 · hour + minute`, gathers
  those rows of the table and copies the 128 × 128 block out.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Transfers
import proofs.«204352_g17334488006705_cont_7to1_713_23_alg».proof.Proof.Gen.KernelIdeal
import proofs.«204352_g17334488006705_cont_7to1_713_23_alg».proof.Proof.Gen.KernelIdeal.Skeleton
import proofs.«204352_g17334488006705_cont_7to1_713_23_alg».proof.Proof.Spec

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The minute table, the hour table, the flattened hour and minute words, and the flat result, in HBM. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev x0Loc (d : Dev nD) : Loc nD τ sig := (SparseCore.T d).loc main_v2
abbrev x1Loc (d : Dev nD) : Loc nD τ sig := (SparseCore.T d).loc main_v5
abbrev oLoc (d : Dev nD) : Loc nD τ sig := (SparseCore.T d).loc main_v6

/-- SparseCore `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## Tiles, blocks and rows -/

/-- The number of tile `i` of SparseCore `c` among the 32. -/
def tno (c : Fin 2) (i : Fin 16) : Fin 32 := ⟨i.val + 16 * c.val, by omega⟩
/-- The number of tile number `t`'s `k`-th block among the 25600 blocks of 128 positions. -/
def blkNo (t : Fin 32) (k : Fin 800) : Fin 25600 := ⟨t.val * 800 + k.val, by omega⟩

theorem hdivO : 25600 ∣ S3276800x128.size 0 := ⟨128, rfl⟩
theorem hdivS : 16 ∣ S4608x128.size 0 := ⟨288, rfl⟩
/-- Block `B` of the flat result: rows `[128 B, 128 B + 128)`, every column. -/
abbrev oRect (B : Fin 25600) : Rect S3276800x128 := Rect.part (s := S3276800x128) (a₀ := 0) hdivO B
abbrev oblk (B : Fin 25600) : Finset S3276800x128.Idx := (oRect B).set
/-- Tile `i`'s rows of the shared table: `[288 i, 288 i + 288)`, every column. -/
abbrev shRect (i : Fin 16) : Rect S4608x128 := Rect.part (s := S4608x128) (a₀ := 0) hdivS i
abbrev shrows (i : Fin 16) : Finset S4608x128.Idx := (shRect i).set

/-- The read share of an input array that tile number `t` holds. -/
abbrev inTok (t : Fin 32) : PosShare TreeShare := shareTok fullShare 32 t
/-- The read share of a tile's table rows that tile `j` of the SparseCore is handed at the barrier. -/
abbrev shTok (j : Fin 16) : PosShare TreeShare := shareTok fullShare 16 j
/-- What the tile keeps of its own rows. -/
abbrev shRest : PosShare TreeShare := shareDrop fullShare 16

/-! ## The values -/

section Values
variable [FloatOps F]

/-- Row `R` of the table is right: where its minute `R % 64` exists, it is hour row `R / 64` plus minute row `R % 64`. -/
def TabOK (a1 : FVec F S60x128 .f32) (a2 : FVec F S72x128 .f32) (g : FVec F S4608x128 .f32) (R : Fin 4608) : Prop :=
  ∀ (hm : R.val % 64 < 60) (col : Fin 128),
    g (ix2 R col) = FloatOps.addf (a2 (ix2 (⟨R.val / 64, by omega⟩ : Fin 72) col)) (a1 (ix2 (⟨R.val % 64, hm⟩ : Fin 60) col))

/-- The flat result: at position `n`, column `col`, the hour row named by the `n`-th hour word plus the minute row named
    by the `n`-th minute word. -/
def OutFlat (a1 : FVec F S60x128 .f32) (a2 : FVec F S72x128 .f32) (x0 x1 : IVec S1x3276800 32) : FVec F S3276800x128 .f32 :=
  fun j => FloatOps.addf (a2 (ix2 (Cert.Spec.row 72 (by norm_num) (x0 (ix2 (0 : Fin 1) (j 0)))) (j 1)))
    (a1 (ix2 (Cert.Spec.row 60 (by norm_num) (x1 (ix2 (0 : Fin 1) (j 0)))) (j 1)))

end Values

/-! ## The barrier cells -/

variable (m : (ℓ : Loc nD τ sig) → Buf (Elt F) ℓ) (ρ : Dev nD → PrngReg)
-- the flattened hour and minute words as the call finds them (the host's slices and reshapes of `x`)
variable (X0v X1v : Dev nD → IVec S1x3276800 32)

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

variable [FloatOps F]

/-- Tile `n`'s rows of SparseCore `c`'s table are right, and held at share `q`. -/
def shPiece (d : Dev nD) (c : Fin τ.nSC) (n : Fin 16) (q : PosShare TreeShare) : sProp 𝕄 :=
  iprop(∃ f : Buf (Elt F) (shLoc d c), ⌜∀ R : Fin 4608, R.val / 288 = n.val → TabOK (F := F) (m (a1Loc d)) (m (a2Loc d)) f R⌝ ∗ shLoc d c ↦[shrows n]{q} f)

/-- What tile `n`'s arrival at tile `j`'s barrier cell hands over: a read share of tile `n`'s rows of the table, right. -/
def bPay (g : GSem nD τ sig) (n : ℕ) : sProp 𝕄 :=
  match g with
  | ((d, .scVector c j), _) => if h : n < 16 then shPiece m d c ⟨n, h⟩ (shTok (Fin.cast nSub_eq j)) else iprop(emp)
  | _ => iprop(emp)

/-- The barrier cells' schedule: one round on each, of one unit duty per tile of the SparseCore (named by its number),
    each handing over a read share of its rows. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay shPiece
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier bundle: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The result array's contents after the call. -/
abbrev OUTv (d : Dev nD) : Buf (Elt F) (oLoc d) := OutFlat (F := F) (m (a1Loc d)) (m (a2Loc d)) (X0v d) (X1v d)

/-- The four input arrays at tile number `t`'s read shares. -/
abbrev inPts (d : Dev nD) (t : Fin 32) : sProp 𝕄 :=
  iprop((a1Loc d ↦{inTok t} m (a1Loc d)) ∗ (a2Loc d ↦{inTok t} m (a2Loc d)) ∗ (x0Loc d ↦{inTok t} (X0v d : Buf (Elt F) (x0Loc d))) ∗ (x1Loc d ↦{inTok t} (X1v d : Buf (Elt F) (x1Loc d))))
/-- A tile's 800 blocks of the result at some contents, and at the contents the call leaves. -/
abbrev oBlksAny (d : Dev nD) (t : Fin 32) : sProp 𝕄 := bigSep Finset.univ fun k : Fin 800 => iprop(∃ f, oLoc d ↦[oblk (blkNo t k)]{fullShare} f)
abbrev oBlksDone (d : Dev nD) (t : Fin 32) : sProp 𝕄 := bigSep Finset.univ fun k : Fin 800 => oLoc d ↦[oblk (blkNo t k)]{fullShare} OUTv m X0v X1v d

/-- What tile `i` (number `t`) of SparseCore `sc` is handed, and hands back. -/
abbrev goPts (d : Dev nD) (sc : Fin τ.nSC) (t : Fin 32) (i : Fin 16) : sProp 𝕄 :=
  iprop(inPts m X0v X1v d t ∗ oBlksAny d t ∗ ∃ f, shLoc d sc ↦[shrows i]{fullShare} f)
abbrev tdPts (d : Dev nD) (sc : Fin τ.nSC) (t : Fin 32) (i : Fin 16) : sProp 𝕄 :=
  iprop(oBlksDone m X0v X1v d t
    ∗ (∃ f, shLoc d sc ↦[shrows i]{shRest} f) ∗ ∃ f, shLoc d sc ↦{shTok i} f)

/-- The tile number of the call's core `c` and subcore `i`. -/
abbrev tnoK (c : Fin ((K (F := F)).nCore 0)) (i : Fin ((K (F := F)).nSub 0)) : Fin 32 := tno (Fin.cast nCore_zero c) (Fin.cast nSub_zero i)

/-- The one call: each SparseCore is handed its tiles' shares and blocks; each task the read shares of the inputs, its 800
    blocks of the result and its rows of the table, and hands back the blocks filled and what it holds of the table (the read shares of
    the inputs are not handed back: nothing after the call needs them);
    each task's proof consumes its barrier bundle; each tile owes its arrivals. -/
def P : (K (F := F)).Pay (nD := nD) (Val := Elt F) (Name := ℕ) (U := UU) where
  st := fun q d c => match q with | 0 => bigSep Finset.univ fun i : Fin ((K (F := F)).nSub 0) => iprop(inPts m X0v X1v d (tnoK c i) ∗ oBlksAny d (tnoK c i))
  dn := fun q d c => match q with | 0 => bigSep Finset.univ fun i : Fin ((K (F := F)).nSub 0) => oBlksDone m X0v X1v d (tnoK c i)
  go := fun q d c i => match q with | 0 => goPts m X0v X1v d (coreOf c) (tnoK c i) (Fin.cast nSub_zero i)
  td := fun q d c i => match q with | 0 => tdPts m X0v X1v d (coreOf c) (tnoK c i) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m X0v X1v).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## The task, as a statement -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The number of the tile at coordinates `L`. -/
abbrev tL (L : grid0.Coords) : Fin 32 := tno (cL L) (jL L)

/-- The kernel's operands as the task addresses them: the two tables, the flattened words, the flat result, in HBM; the
    index list, the minute and hour copies and the 288 built rows in the tile's memory; the table in shared memory; the
    two-slot staging buffers of the words and of the result blocks. -/
abbrev a1V : Memref sig .scVector .hbm S60x128 .f32 := Memref.whole main_arg1_scv
abbrev a2V : Memref sig .scVector .hbm S72x128 .f32 := Memref.whole main_arg2_scv
abbrev x0V : Memref sig .scVector .hbm S1x3276800 .i32 := Memref.whole main_v2_scv
abbrev x1V : Memref sig .scVector .hbm S1x3276800 .i32 := Memref.whole main_v5_scv
abbrev oV : Memref sig .scVector .hbm S3276800x128 .f32 := Memref.whole main_v6_scv
abbrev idxV : Memref sig .scVector .vmem S128 .i32 := Memref.whole cc0_scratch0
abbrev minV : Memref sig .scVector .vmem S64x128 .f32 := Memref.whole cc0_scratch1
abbrev hourV : Memref sig .scVector .vmem S72x128 .f32 := Memref.whole cc0_scratch2
abbrev cbufV : Memref sig .scVector .vmem S288x128 .f32 := Memref.whole cc0_scratch3
abbrev shV : Memref sig .scVector .shared S4608x128 .f32 := Memref.whole cc0_scratch4
abbrev w0V : Memref sig .scVector .vmem S2x1x128 .i32 := Memref.whole cc0_scoped3
abbrev w1V : Memref sig .scVector .vmem S2x1x128 .i32 := Memref.whole cc0_scoped5
abbrev stgV : Memref sig .scVector .vmem S2x128x128 .f32 := Memref.whole cc0_scoped7

/-- The task's program at coordinates `L`. -/
abbrev taskProg (L : grid0.Coords) : Prog (TpuEff nD τ sig (Elt F) Λ₀ (.scVector ((L 0).castLE hcore0) ((L 1).castLE hsub0))) PUnit :=
  cc0_k (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9

/-- The task on the vector subcore at coordinates `L` of device `d`, from what it is handed to what it hands back. -/
def TileBodyAt (hF : (K (F := F)).Facts) : Prop :=
  ∀ (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit m d (cV L) (jV L)
        ∗ goPts m X0v X1v d (cV L) (tL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (taskProg (F := F) L)
          fun _ => iprop(tdPts m X0v X1v d (cV L) (tL L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Tile

/-- Every task, on every device at every coordinate. -/
def TileBodySpec : Prop := ∀ (d : Dev nD) (L : grid0.Coords) (hF : (K (F := F)).Facts), TileBodyAt m X0v X1v d L hF

end Cert.KernelIdeal.Hand

end
-- ==== Proof.LaunchGhost.lean ====
/-
  The launch element of the ghost state: the barrier cells of every tile of both SparseCores are funded at once, before
  any thread runs, so that a tile may signal a sibling whose task has not begun. Each cell gets its invariant (round 0,
  sixteen unit duties, one per tile of the SparseCore); each tile gets its bundle: every cell's invariant of its
  SparseCore, its own duty token in each of them, its position at the origin of its own cell's round, and the credit for
  the sixteen units it will wait for. Then: one tile's task, as the launch theorem asks for it, from the task's own
  statement.
-/
import proofs.«204352_g17334488006705_cont_7to1_713_23_alg».proof.Proof.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable (X0v X1v : Dev nD → IVec S1x3276800 32)

variable [FloatOps F]

/-! ## The barrier cells and the tokens -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of either SparseCore the sixteen units of its own cell. -/
theorem creds_b : ((P (F := F) m X0v X1v).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m X0v X1v).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m X0v X1v).oxFrom 0 (V d c i) = oxV d c := fun i => by
      rw [show (0 : ℕ) = (0 : Fin 1).val from rfl, (P m X0v X1v).oxFrom_step, (P m X0v X1v).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m X0v X1v).x q (SparseCore.T d)) = iprop(emp) :=
  bigSep_univ_of_subsingleton (0 : Fin 1)
theorem Px_S (d : Dev nD) (c : Fin τ.nSC) : (bigSep Finset.univ fun q : Fin 1 => (P (F := F) m X0v X1v).x q (S d c)) = iprop(emp) :=
  bigSep_univ_of_subsingleton (0 : Fin 1)
theorem Px_V (d : Dev nD) (c : Fin τ.nSC) (i : Fin τ.nSub) :
    (bigSep Finset.univ fun q : Fin 1 => (P (F := F) m X0v X1v).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's bundle out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its bundle. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m X0v X1v).x q thr : sProp 𝕄) := by
  rw [SparseCore.Cfg.bigSep_threads (fun thr : Thread nD τ => bigSep Finset.univ fun q : Fin 1 => (P m X0v X1v).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m X0v X1v).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m X0v X1v).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m X0v X1v) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m X0v X1v)
  isplitr
  · isplitl; · iexists κ; iexact Hinv'
    iexact Hr'
  isplitl [Hat']; · iexact Hat'
  isplitl [Htok']; · iexact Htok'
  iexact Hcred'

/-! ## One tile's task, as the launch theorem asks for it -/

/-- The coordinates of the tile the call's core `c` and subcore `s` name. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => taskProg (F := F) (coordsV c s)) ⟨⟩ c s := rfl

set_option maxRecDepth 16384 in
/-- The launch theorem's obligation for a tile is the task's statement at that tile's coordinates: the tile of the
    call's core `c` and subcore `i` is tile number `i + 16 c`, on SparseCore `c`. -/
theorem tileObl (hbody : TileBodySpec (F := F) m X0v X1v) (hF : (K (F := F)).Facts) :
    (K (F := F)).TileObl (D (F := F)) 𝒱 (P m X0v X1v) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m X0v X1v).ox 0 (V d ((K (F := F)).core 0 c) ((K (F := F)).sub 0 i)) = oxV d ((K (F := F)).core 0 c) from if_pos hc,
    show (P m X0v X1v).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev

end Cert.KernelIdeal.Hand

end
-- ==== Proof.LaunchSplit.lean ====
/-
  How the call's operands are cut up and put back. The shared table of a SparseCore is the sequencer's own buffer: it
  is cut into the sixteen row sets of 288 rows, one per tile, and rebuilt from what the tiles hand back: from tile i
  the remainder of its rows (the share left after sixteen read shares were split off) and a read share of the WHOLE
  table (what it was handed at the barrier, row set by row set). The remainders of the sixteen disjoint row sets are one
  whole-array remainder at some contents h; every read share, held beside it, agrees with h everywhere, so it is a read
  share of h; remainder and sixteen read shares of h are h at the full share. The flat result is cut into its 25600
  blocks of 128 rows, grouped as 32 tiles of 800 blocks; each input into 32 read shares, which the tiles keep, and a remainder, which stays with the TensorCore.
-/
import proofs.«204352_g17334488006705_cont_7to1_713_23_alg».proof.Proof.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable (X0v X1v : Dev nD → IVec S1x3276800 32)

variable [FloatOps F]

/-! ## Two holders of one array agree, and keep what they hold -/

omit [FloatOps F] in
theorem pt_agree_keep {ℓ : Loc nD τ sig} {I : Finset (Idx ℓ)} {q₁ q₂ : PosShare TreeShare} {f g : Buf (Elt F) ℓ} :
    iprop((ℓ ↦[I]{q₁} f) ∗ ℓ ↦[I]{q₂} g) ⊢ (iprop((ℓ ↦[I]{q₁} f) ∗ ℓ ↦[I]{q₂} f) : sProp 𝕄) :=
  pure_elim _ pointsTo_agree fun h => Entails.of_eq (by
    rw [pointsTo_congr (f := g) (g := f) fun i hi => ((h i (Finset.mem_inter.mpr ⟨hi, hi⟩)).1).symm])

omit [FloatOps F] in
/-- A family of holders of the whole array, each at contents of its own, beside one more holder at contents `h`: all
    are holders of `h`. -/
theorem toks_restate {T : Type} [DecidableEq T] {ℓ : Loc nD τ sig} (q : PosShare TreeShare) (p : T → PosShare TreeShare)
    (h : Buf (Elt F) ℓ) (gs : T → Buf (Elt F) ℓ) (s : Finset T) :
    iprop((ℓ ↦{q} h) ∗ bigSep s fun j => ℓ ↦{p j} gs j) ⊢ (iprop((ℓ ↦{q} h) ∗ bigSep s fun j => ℓ ↦{p j} h) : sProp 𝕄) := by
  induction s using Finset.induction_on with
  | empty => rw [bigSep_empty, bigSep_empty]
  | insert a s ha ih =>
    rw [SparseCore.bigSep_insert' ha, SparseCore.bigSep_insert' ha]
    iintro ⟨Hh, Ha, Hs⟩
    ihave H := ih $$ [Hh Hs]
    · isplitl [Hh] <;> iassumption
    icases H with ⟨Hh, Hs⟩
    ihave H := (pt_agree_keep (F := F)) $$ [Hh Ha]
    · isplitl [Hh] <;> iassumption
    icases H with ⟨Hh, Ha⟩
    isplitl [Hh]; · iexact Hh
    isplitl [Ha]; · iexact Ha
    iexact Hs

/-! ## The shared table's rows -/

omit [FloatOps F] in
theorem shrows_disjoint : ∀ i ∈ (Finset.univ : Finset (Fin 16)), ∀ j ∈ (Finset.univ : Finset (Fin 16)), i ≠ j → Disjoint (shrows i) (shrows j) :=
  fun _ _ _ _ h => Rect.part_disjoint hdivS h
omit [FloatOps F] in
theorem shrows_cover : (Finset.univ : Finset (Fin 16)).biUnion shrows = Finset.univ := Rect.biUnion_part hdivS

omit [FloatOps F] in
theorem shPts_rows (d : Dev nD) (c : Fin τ.nSC) (f : Buf (Elt F) (shLoc d c)) :
    (shLoc d c ↦{fullShare} f : sProp 𝕄) = bigSep Finset.univ fun i : Fin 16 => shLoc d c ↦[shrows i]{fullShare} f := by
  rw [← pointsTo_biUnion Finset.univ (ℓ := shLoc d c) shrows shrows_disjoint, shrows_cover]; try rfl

/-- The table, whole, is its sixteen row sets, each at some contents. -/
theorem sh_split (d : Dev nD) (c : Fin τ.nSC) (f : Buf (Elt F) (shLoc d c)) :
    (shLoc d c ↦{fullShare} f : sProp 𝕄) ⊢ bigSep Finset.univ fun i : Fin 16 => iprop(∃ g, shLoc d c ↦[shrows i]{fullShare} g) :=
  (Entails.of_eq (shPts_rows d c f)).trans (SparseCore.ent (bigSep_mono (Φ := fun i => (shLoc d c ↦[shrows i]{fullShare} f : sProp 𝕄))
    (Ψ := fun i => iprop(∃ g, shLoc d c ↦[shrows i]{fullShare} g))
    fun i _ => BI.BIClass.exists_intro (Φ := fun g => (shLoc d c ↦[shrows i]{fullShare} g : sProp 𝕄)) f))

/-- What the sixteen tiles hand back is the table, whole, at some contents. -/
theorem sh_join (d : Dev nD) (c : Fin τ.nSC) :
    iprop((bigSep Finset.univ fun i : Fin 16 => iprop(∃ f, shLoc d c ↦[shrows i]{shRest} f))
        ∗ bigSep Finset.univ fun i : Fin 16 => iprop(∃ g, shLoc d c ↦{shTok i} g))
      ⊢ (iprop(∃ f, shLoc d c ↦{fullShare} f) : sProp 𝕄) := by
  iintro ⟨HA, HB⟩
  ihave HA' := (bigSep_exists_pi Finset.univ (fun (i : Fin 16) (f : Buf (Elt F) (shLoc d c)) => (shLoc d c ↦[shrows i]{shRest} f : sProp 𝕄))) $$ HA
  icases HA' with ⟨%fs, HA⟩
  ihave HB' := (bigSep_exists_pi Finset.univ (fun (i : Fin 16) (g : Buf (Elt F) (shLoc d c)) => (shLoc d c ↦{shTok i} g : sProp 𝕄))) $$ HB
  icases HB' with ⟨%gs, HB⟩
  -- the remainders of the sixteen row sets: one remainder of the whole table, at contents `h`
  ihave HA'' := (pointsTo_biUnion_join Finset.univ shrows fs (fs 0) shrows_disjoint) $$ HA
  icases HA'' with ⟨%h, -, Hh⟩
  rw [shrows_cover]
  -- every read share agrees with it
  ihave H := (toks_restate (F := F) shRest shTok h gs Finset.univ) $$ [Hh HB]
  · isplitl [Hh] <;> iassumption
  iexists h
  iapply (Transfers.pointsTo_toks_join fullShare 16)
  iexact H

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The tiles of a SparseCore -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- One SparseCore's split, over its sixteen tiles, whatever else the tiles are handed (`IN`, `OA`) and hand back
    (`OD`): tile `j` is handed its rows of the table; the table comes back whole from what the tiles return. -/
theorem split_generic (IN OA OD : Fin 16 → sProp 𝕄) (d : Dev nD) (sc : Fin τ.nSC) :
    iprop((bigSep Finset.univ fun j : Fin 16 => iprop(IN j ∗ OA j)) ∗ ownBufs (S d sc))
      ⊢ |={Set.univ}=> iprop(
        (bigSep Finset.univ fun j : Fin 16 => iprop(IN j ∗ OA j ∗ ∃ f : Buf (Elt F) (shLoc d sc), shLoc d sc ↦[shrows j]{fullShare} f))
        ∗ ((bigSep Finset.univ fun j : Fin 16 => iprop(OD j
              ∗ (∃ f : Buf (Elt F) (shLoc d sc), shLoc d sc ↦[shrows j]{shRest} f) ∗ ∃ f : Buf (Elt F) (shLoc d sc), shLoc d sc ↦{shTok j} f))
            -∗ iprop((bigSep Finset.univ fun j : Fin 16 => OD j) ∗ ownBufs (S d sc)))) := by
  rw [bigSep_sep', bigSep_sep', bigSep_sep', bigSep_sep', bigSep_sep', ownBufs_S]
  iintro ⟨⟨Hin, Hoa⟩, ⟨%fsh, Hsh⟩, Hrest⟩; imodintro
  isplitl [Hin Hoa Hsh]
  · isplitl [Hin]; · iexact Hin
    isplitl [Hoa]; · iexact Hoa
    iapply (sh_split d sc fsh); iexact Hsh
  iintro ⟨Hod, Hsr, Hst⟩
  isplitl [Hod]; · iexact Hod
  isplitl [Hsr Hst]
  · iapply (sh_join d sc)
    isplitl [Hsr]; · iexact Hsr
    iexact Hst
  iexact Hrest

/-- The same at the tiles' operands: tile `j` is handed its inputs' shares, its blocks and its rows of the table, and hands
    back its blocks filled and what it holds of the table. -/
theorem vecSplit16 (d : Dev nD) (c2 : Fin 2) (sc : Fin τ.nSC) :
    iprop((bigSep Finset.univ fun j : Fin 16 => iprop(inPts m X0v X1v d (tno c2 j) ∗ oBlksAny d (tno c2 j))) ∗ ownBufs (S d sc))
      ⊢ |={Set.univ}=> iprop(
        (bigSep Finset.univ fun j : Fin 16 => iprop(inPts m X0v X1v d (tno c2 j) ∗ oBlksAny d (tno c2 j) ∗ ∃ f, shLoc d sc ↦[shrows j]{fullShare} f))
        ∗ ((bigSep Finset.univ fun j : Fin 16 => iprop(oBlksDone m X0v X1v d (tno c2 j)
              ∗ (∃ f, shLoc d sc ↦[shrows j]{shRest} f) ∗ ∃ f, shLoc d sc ↦{shTok j} f))
            -∗ iprop((bigSep Finset.univ fun j : Fin 16 => oBlksDone m X0v X1v d (tno c2 j)) ∗ ownBufs (S d sc)))) :=
  split_generic (F := F) (fun j => inPts m X0v X1v d (tno c2 j)) (fun j => oBlksAny d (tno c2 j)) (fun j => oBlksDone m X0v X1v d (tno c2 j)) d sc

theorem P_st (d : Dev nD) (c : Fin ((K (F := F)).nCore 0)) : (P (F := F) m X0v X1v).st 0 d c
    = bigSep Finset.univ fun i : Fin ((K (F := F)).nSub 0) => iprop(inPts m X0v X1v d (tnoK c i) ∗ oBlksAny d (tnoK c i)) := by unfold P; dsimp only <;> rfl
theorem P_dn (d : Dev nD) (c : Fin ((K (F := F)).nCore 0)) : (P (F := F) m X0v X1v).dn 0 d c
    = bigSep Finset.univ fun i : Fin ((K (F := F)).nSub 0) => oBlksDone m X0v X1v d (tnoK c i) := by unfold P; dsimp only <;> rfl
theorem P_go (d : Dev nD) (c : Fin ((K (F := F)).nCore 0)) (i : Fin ((K (F := F)).nSub 0)) : (P (F := F) m X0v X1v).go 0 d c i
    = goPts m X0v X1v d (coreOf c) (tnoK c i) (Fin.cast nSub_zero i) := rfl
theorem P_td (d : Dev nD) (c : Fin ((K (F := F)).nCore 0)) (i : Fin ((K (F := F)).nSub 0)) : (P (F := F) m X0v X1v).td 0 d c i
    = tdPts m X0v X1v d (coreOf c) (tnoK c i) (Fin.cast nSub_zero i) := rfl

/-- The split of the call's operands for one SparseCore among its tiles, over the sequencer's own buffers. -/
theorem vecSplit : (K (F := F)).VecSplit (P m X0v X1v) 0 := by
  intro d c
  simp only [P_st, P_dn, P_go, P_td]
  rw [bigSep_tasks (F := F) (fun j => iprop(inPts m X0v X1v d (tno (Fin.cast nCore_zero c) j) ∗ oBlksAny d (tno (Fin.cast nCore_zero c) j))),
    bigSep_tasks (F := F) (fun j => iprop(inPts m X0v X1v d (tno (Fin.cast nCore_zero c) j) ∗ oBlksAny d (tno (Fin.cast nCore_zero c) j) ∗ ∃ f, shLoc d (coreOf c) ↦[shrows j]{fullShare} f)),
    bigSep_tasks (F := F) (fun j => iprop(oBlksDone m X0v X1v d (tno (Fin.cast nCore_zero c) j)
      ∗ (∃ f, shLoc d (coreOf c) ↦[shrows j]{shRest} f) ∗ ∃ f, shLoc d (coreOf c) ↦{shTok j} f)),
    bigSep_tasks (F := F) (fun j => oBlksDone m X0v X1v d (tno (Fin.cast nCore_zero c) j))]
  exact vecSplit16 m X0v X1v d (Fin.cast nCore_zero c) (coreOf c)

/-! ## The 32 tiles and their 800 blocks -/

/-- Tile `i` of SparseCore `c` is tile number `i + 16 c`: every number below 32 once. -/
def tnoEquiv : Fin 2 × Fin 16 ≃ Fin 32 where
  toFun x := tno x.1 x.2
  invFun t := (⟨t.val / 16, by omega⟩, ⟨t.val % 16, by omega⟩)
  left_inv := by
    rintro ⟨c, i⟩
    refine Prod.ext (Fin.ext ?_) (Fin.ext ?_)
    · show (i.val + 16 * c.val) / 16 = c.val; omega
    · show (i.val + 16 * c.val) % 16 = i.val; omega
  right_inv := by
    intro t; refine Fin.ext ?_
    show t.val % 16 + 16 * (t.val / 16) = t.val; omega

/-- Tile number `t`'s `k`-th block is block `800 t + k`: every block below 25600 once. -/
def blkEquiv : Fin 32 × Fin 800 ≃ Fin 25600 where
  toFun x := blkNo x.1 x.2
  invFun B := (⟨B.val / 800, by omega⟩, ⟨B.val % 800, by omega⟩)
  left_inv := by
    rintro ⟨t, k⟩
    refine Prod.ext (Fin.ext ?_) (Fin.ext ?_)
    · show (t.val * 800 + k.val) / 800 = t.val; omega
    · show (t.val * 800 + k.val) % 800 = k.val; omega
  right_inv := by
    intro B; refine Fin.ext ?_
    show B.val / 800 * 800 + B.val % 800 = B.val; omega

omit [FloatOps F] in
/-- Over the call's cores and subcores is over the 32 tile numbers. -/
theorem bigSep_grid (Φ : Fin 32 → sProp 𝕄) :
    (bigSep Finset.univ fun c : Fin ((K (F := F)).nCore 0) => bigSep Finset.univ fun i : Fin ((K (F := F)).nSub 0) => Φ (tnoK c i)) = bigSep Finset.univ Φ := by
  rw [bigSep_univ_equiv tnoEquiv Φ, bigSep_univ_prod]
  exact bigSep_congr fun c _ => bigSep_congr fun i _ => congrArg Φ (Fin.ext rfl)

theorem st_eq (d : Dev nD) : (bigSep Finset.univ fun c : Fin ((K (F := F)).nCore 0) => (P m X0v X1v).st 0 d c)
    = bigSep Finset.univ fun t : Fin 32 => iprop(inPts m X0v X1v d t ∗ oBlksAny d t) := by
  simp only [P_st]
  exact bigSep_grid (F := F) fun t => iprop(inPts m X0v X1v d t ∗ oBlksAny d t)
theorem dn_eq (d : Dev nD) : (bigSep Finset.univ fun c : Fin ((K (F := F)).nCore 0) => (P m X0v X1v).dn 0 d c)
    = bigSep Finset.univ fun t : Fin 32 => oBlksDone m X0v X1v d t := by
  simp only [P_dn]
  exact bigSep_grid (F := F) fun t => oBlksDone m X0v X1v d t

omit [FloatOps F] in
theorem oblk_disjoint : ∀ B ∈ (Finset.univ : Finset (Fin 25600)), ∀ B' ∈ (Finset.univ : Finset (Fin 25600)), B ≠ B' → Disjoint (oblk B) (oblk B') :=
  fun _ _ _ _ h => Rect.part_disjoint hdivO h
omit [FloatOps F] in
theorem oblk_cover : (Finset.univ : Finset (Fin 25600)).biUnion oblk = Finset.univ := Rect.biUnion_part hdivO

omit [FloatOps F] in
/-- The flat result, whole, is its blocks, tile by tile. -/
theorem oPts_blocks (d : Dev nD) (f : Buf (Elt F) (oLoc d)) :
    (oLoc d ↦{fullShare} f : sProp 𝕄) = bigSep Finset.univ fun t : Fin 32 => bigSep Finset.univ fun k : Fin 800 => oLoc d ↦[oblk (blkNo t k)]{fullShare} f :=
  calc (oLoc d ↦{fullShare} f : sProp 𝕄)
      = bigSep Finset.univ fun B : Fin 25600 => oLoc d ↦[oblk B]{fullShare} f := by
        rw [← pointsTo_biUnion Finset.univ (ℓ := oLoc d) oblk oblk_disjoint, oblk_cover]; try rfl
    _ = bigSep Finset.univ fun x : Fin 32 × Fin 800 => oLoc d ↦[oblk (blkEquiv x)]{fullShare} f :=
        bigSep_univ_equiv blkEquiv fun B : Fin 25600 => (oLoc d ↦[oblk B]{fullShare} f : sProp 𝕄)
    _ = bigSep Finset.univ fun x : Fin 32 × Fin 800 => oLoc d ↦[oblk (blkNo x.1 x.2)]{fullShare} f := rfl
    _ = _ := bigSep_univ_prod fun x : Fin 32 × Fin 800 => (oLoc d ↦[oblk (blkNo x.1 x.2)]{fullShare} f : sProp 𝕄)

/-! ## What the TensorCore keeps, hands to the call and gets back -/

/-- What the TensorCore keeps of the four inputs during the call: the remainder after 32 read shares. -/
abbrev inRest (d : Dev nD) : sProp 𝕄 :=
  iprop((a1Loc d ↦{shareDrop fullShare 32} m (a1Loc d)) ∗ (a2Loc d ↦{shareDrop fullShare 32} m (a2Loc d))
    ∗ (x0Loc d ↦{shareDrop fullShare 32} (X0v d : Buf (Elt F) (x0Loc d))) ∗ (x1Loc d ↦{shareDrop fullShare 32} (X1v d : Buf (Elt F) (x1Loc d))))
/-- The four inputs, whole. -/
abbrev inFull (d : Dev nD) : sProp 𝕄 :=
  iprop((a1Loc d ↦{fullShare} m (a1Loc d)) ∗ (a2Loc d ↦{fullShare} m (a2Loc d))
    ∗ (x0Loc d ↦{fullShare} (X0v d : Buf (Elt F) (x0Loc d))) ∗ (x1Loc d ↦{fullShare} (X1v d : Buf (Elt F) (x1Loc d))))

theorem in_split (d : Dev nD) : (inFull m X0v X1v d : sProp 𝕄) ⊢ iprop(inRest m X0v X1v d ∗ bigSep Finset.univ fun t : Fin 32 => inPts m X0v X1v d t) := by
  rw [bigSep_sep', bigSep_sep', bigSep_sep']
  iintro ⟨H1, H2, H3, H4⟩
  ihave H1' := (Transfers.pointsTo_toks_split fullShare 32) $$ H1
  ihave H2' := (Transfers.pointsTo_toks_split fullShare 32) $$ H2
  ihave H3' := (Transfers.pointsTo_toks_split fullShare 32) $$ H3
  ihave H4' := (Transfers.pointsTo_toks_split fullShare 32) $$ H4
  icases H1' with ⟨R1, T1⟩; icases H2' with ⟨R2, T2⟩; icases H3' with ⟨R3, T3⟩; icases H4' with ⟨R4, T4⟩
  isplitl [R1 R2 R3 R4]
  · isplitl [R1]; · iexact R1
    isplitl [R2]; · iexact R2
    isplitl [R3]; · iexact R3
    iexact R4
  isplitl [T1]; · iexact T1
  isplitl [T2]; · iexact T2
  isplitl [T3]; · iexact T3
  iexact T4

/-- Before the call: the inputs and the result, whole, are what the TensorCore keeps and what the SparseCores are handed. -/
theorem st_intro (d : Dev nD) (fo : Buf (Elt F) (oLoc d)) :
    iprop(inFull m X0v X1v d ∗ oLoc d ↦{fullShare} fo)
      ⊢ (iprop(inRest m X0v X1v d ∗ bigSep Finset.univ fun c : Fin ((K (F := F)).nCore 0) => (P m X0v X1v).st 0 d c) : sProp 𝕄) := by
  rw [st_eq, bigSep_sep', oPts_blocks]
  iintro ⟨Hin, Ho⟩
  ihave Hin' := (in_split m X0v X1v d) $$ Hin
  icases Hin' with ⟨HR, HT⟩
  isplitl [HR]; · iexact HR
  isplitl [HT]; · iexact HT
  iapply (SparseCore.ent (bigSep_mono (Φ := fun t : Fin 32 => bigSep Finset.univ fun k : Fin 800 => (oLoc d ↦[oblk (blkNo t k)]{fullShare} fo : sProp 𝕄))
    (Ψ := fun t : Fin 32 => oBlksAny (F := F) d t) fun t _ =>
      bigSep_mono (Φ := fun k : Fin 800 => (oLoc d ↦[oblk (blkNo t k)]{fullShare} fo : sProp 𝕄))
        (Ψ := fun k : Fin 800 => iprop(∃ f, oLoc d ↦[oblk (blkNo t k)]{fullShare} f)) fun k _ =>
          BI.BIClass.exists_intro (Φ := fun f => (oLoc d ↦[oblk (blkNo t k)]{fullShare} f : sProp 𝕄)) fo))
  iexact Ho

/-- After the call: what the SparseCores hand back is the flat result, whole, at the contents the call leaves. (The read
    shares of the inputs stay with the tiles; the TensorCore goes on with the remainders it kept.) -/
theorem dn_elim (d : Dev nD) :
    (bigSep Finset.univ fun c : Fin ((K (F := F)).nCore 0) => (P m X0v X1v).dn 0 d c)
      ⊢ (oLoc d ↦{fullShare} OUTv m X0v X1v d : sProp 𝕄) := by
  rw [dn_eq, oPts_blocks]

end Cert.KernelIdeal.Hand

end
-- ==== Proof.LaunchMain.lean ====
/-
  @main on the TensorCore. Six host operations flatten the two columns of x: the slice of column 0 (of column 1), the
  squeeze of the last axis, the reshape to one row of 3276800 words; these are the hour words and the minute words the
  call finds. The call hands each of the 32 tiles a read share of the two tables and of the two word rows and its 800
  blocks of the flat result, and brings the result back at the value every block was filled with; the read shares stay
  with the tiles, and the TensorCore keeps the remainder of each input's share, which is enough to read the two tables
  back at the end. One more host operation reshapes the flat result to 16384 × 200 × 128. The arguments are never
  written.
-/
import proofs.«204352_g17334488006705_cont_7to1_713_23_alg».proof.Proof.Common
import proofs.«204352_g17334488006705_cont_7to1_713_23_alg».proof.Proof.LaunchSplit

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

variable [FloatOps F]

/-! ## The flattened words, and the result -/

/-- The hour words as the call finds them: column 0 of `x`, its last axis squeezed, flattened to one row. -/
def X0v (d : Dev nD) : IVec S1x3276800 32 :=
  shapeCast S1x3276800 (shapeCast S16384x200
    (extractStridedSlice S16384x200x1 ![0, 0, 0] (m (a0Loc d) : (⟨S16384x200x2, .i32⟩ : BufTy).Contents (Elt F)) slices_S16384x200x2_S16384x200x1_0_0_0)
    shapeCasts_S16384x200x1_S16384x200) shapeCasts_S16384x200_S1x3276800
/-- The minute words: column 1 of `x`, likewise. -/
def X1v (d : Dev nD) : IVec S1x3276800 32 :=
  shapeCast S1x3276800 (shapeCast S16384x200
    (extractStridedSlice S16384x200x1 ![0, 0, 1] (m (a0Loc d) : (⟨S16384x200x2, .i32⟩ : BufTy).Contents (Elt F)) slices_S16384x200x2_S16384x200x1_0_0_1)
    shapeCasts_S16384x200x1_S16384x200) shapeCasts_S16384x200_S1x3276800

abbrev rLoc (d : Dev nD) : Loc nD τ sig := (SparseCore.T d).loc main_v7
/-- The program's result: the flat result, reshaped to 16384 × 200 × 128. -/
def RES (d : Dev nD) : Buf (Elt F) (rLoc d) :=
  shapeCast S16384x200x128 (OUTv m (X0v m) (X1v m) d : (⟨S3276800x128, .f32⟩ : BufTy).Contents (Elt F)) shapeCasts_S3276800x128_S16384x200x128

/-! ## The TensorCore's arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev x0' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev x1' : DevRef τ sig := Proc.devRef .tc (main_v5 : Ref sig .tc)
abbrev o' : DevRef τ sig := Proc.devRef .tc (main_v6 : Ref sig .tc)
abbrev r' : DevRef τ sig := Proc.devRef .tc (main_v7 : Ref sig .tc)

abbrev op0 : HloOp τ sig (Elt F) := StableHlo.unary main_arg0 main_v0 ((extractStridedSlice S16384x200x1 ![0, 0, 0] · slices_S16384x200x2_S16384x200x1_0_0_0) : (⟨S16384x200x2, .i32⟩ : BufTy).Contents (Elt F) → (⟨S16384x200x1, .i32⟩ : BufTy).Contents (Elt F))
abbrev op1 : HloOp τ sig (Elt F) := StableHlo.reshape main_v0 main_v1 rfl shapeCasts_S16384x200x1_S16384x200
abbrev op2 : HloOp τ sig (Elt F) := StableHlo.reshape main_v1 main_v2 rfl shapeCasts_S16384x200_S1x3276800
abbrev op3 : HloOp τ sig (Elt F) := StableHlo.unary main_arg0 main_v3 ((extractStridedSlice S16384x200x1 ![0, 0, 1] · slices_S16384x200x2_S16384x200x1_0_0_1) : (⟨S16384x200x2, .i32⟩ : BufTy).Contents (Elt F) → (⟨S16384x200x1, .i32⟩ : BufTy).Contents (Elt F))
abbrev op4 : HloOp τ sig (Elt F) := StableHlo.reshape main_v3 main_v4 rfl shapeCasts_S16384x200x1_S16384x200
abbrev op5 : HloOp τ sig (Elt F) := StableHlo.reshape main_v4 main_v5 rfl shapeCasts_S16384x200_S1x3276800
abbrev op7 : HloOp τ sig (Elt F) := StableHlo.reshape main_v6 main_v7 rfl shapeCasts_S3276800x128_S16384x200x128

/-- The TensorCore's arrays, all in HBM, none scoped: `x`, the two tables, the eight intermediate and result arrays. -/
abbrev S11 : Finset (DevRef τ sig) := {a0', a1', a2', v0', v1', x0', v3', v4', x1', o', r'}

theorem held_S11 (d : Dev nD) (W : Valuation τ sig (Elt F)) :
    (held (T d) S11 W : sProp 𝕄)
      = iprop((a0Loc d ↦{fullShare} W a0') ∗ (a1Loc d ↦{fullShare} W a1') ∗ (a2Loc d ↦{fullShare} W a2')
          ∗ ((SparseCore.T d).loc main_v0 ↦{fullShare} W v0') ∗ ((SparseCore.T d).loc main_v1 ↦{fullShare} W v1') ∗ (x0Loc d ↦{fullShare} W x0')
          ∗ ((SparseCore.T d).loc main_v3 ↦{fullShare} W v3') ∗ ((SparseCore.T d).loc main_v4 ↦{fullShare} W v4') ∗ (x1Loc d ↦{fullShare} W x1')
          ∗ (oLoc d ↦{fullShare} W o') ∗ rLoc d ↦{fullShare} W r') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ ((SparseCore.T d).loc main_v0 ↦{fullShare} W main_v0) ∗ ((SparseCore.T d).loc main_v1 ↦{fullShare} W main_v1) ∗ (x0Loc d ↦{fullShare} W main_v2)
          ∗ ((SparseCore.T d).loc main_v3 ↦{fullShare} W main_v3) ∗ ((SparseCore.T d).loc main_v4 ↦{fullShare} W main_v4) ∗ (x1Loc d ↦{fullShare} W main_v5)
          ∗ (oLoc d ↦{fullShare} W main_v6) ∗ rLoc d ↦{fullShare} W main_v7) := by
  unfold unscopedBufs
  rw [show (Finset.univ.filter fun b : Ref sig .tc => ¬ b.isScoped) = {main_arg0, main_arg1, main_arg2, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; the valuation before the call (the six operations' results); after the call (the flat result
    at what the tiles wrote); after the last reshape. -/
def V0 (d : Dev nD) : Valuation τ sig (Elt F) := fun b => m (d, b)
def V6 (d : Dev nD) : Valuation τ sig (Elt F) :=
  (op5 (F := F)).result ((op4 (F := F)).result ((op3 (F := F)).result ((op2 (F := F)).result ((op1 (F := F)).result ((op0 (F := F)).result (V0 m d))))))
def V7 (d : Dev nD) : Valuation τ sig (Elt F) := Function.update (V6 m d) o' (OUTv m (X0v m) (X1v m) d)
def V8 (d : Dev nD) : Valuation τ sig (Elt F) := (op7 (F := F)).result (V7 m d)

theorem unscoped_held (d : Dev nD) : (unscopedBufs d (fun b => m ((SparseCore.T d).loc b)) : sProp 𝕄) = held (T d) S11 (V0 m d) := by
  rw [unscopedBufs_eq, held_S11]; rfl

theorem V6_a0 (d : Dev nD) : V6 m d a0' = m (a0Loc d) := by
  unfold V6
  simp (disch := decide) only [StableHlo.reshape_result_ne', StableHlo.unary_result_ne']
  rfl
theorem V6_a1 (d : Dev nD) : V6 m d a1' = m (a1Loc d) := by
  unfold V6
  simp (disch := decide) only [StableHlo.reshape_result_ne', StableHlo.unary_result_ne']
  rfl
theorem V6_a2 (d : Dev nD) : V6 m d a2' = m (a2Loc d) := by
  unfold V6
  simp (disch := decide) only [StableHlo.reshape_result_ne', StableHlo.unary_result_ne']
  rfl
theorem V6_x0 (d : Dev nD) : V6 m d x0' = (X0v m d : Buf (Elt F) (x0Loc d)) := by
  unfold V6
  simp (disch := decide) only [StableHlo.reshape_result', StableHlo.unary_result', StableHlo.reshape_result_ne', StableHlo.unary_result_ne']
  rfl
theorem V6_x1 (d : Dev nD) : V6 m d x1' = (X1v m d : Buf (Elt F) (x1Loc d)) := by
  unfold V6
  simp (disch := decide) only [StableHlo.reshape_result', StableHlo.unary_result', StableHlo.reshape_result_ne', StableHlo.unary_result_ne']
  rfl

theorem V7_r (d : Dev nD) : V7 m d r' = V6 m d r' := Function.update_of_ne (show r' ≠ o' by decide) _ _
theorem V7_o (d : Dev nD) : V7 m d o' = OUTv m (X0v m) (X1v m) d := Function.update_self _ _ _

theorem V8_r (d : Dev nD) : V8 m d r' = RES m d := by
  unfold V8
  simp (disch := decide) only [StableHlo.reshape_result']
  rw [V7_o]
  rfl

/-- The eleven arrays before the call. -/
theorem held_V6 (d : Dev nD) :
    (held (T d) S11 ((op5 (F := F)).result ((op4 (F := F)).result ((op3 (F := F)).result ((op2 (F := F)).result ((op1 (F := F)).result ((op0 (F := F)).result (V0 m d)))))))
        : sProp 𝕄)
      = iprop((a0Loc d ↦{fullShare} m (a0Loc d)) ∗ (a1Loc d ↦{fullShare} m (a1Loc d)) ∗ (a2Loc d ↦{fullShare} m (a2Loc d))
          ∗ ((SparseCore.T d).loc main_v0 ↦{fullShare} V6 m d v0') ∗ ((SparseCore.T d).loc main_v1 ↦{fullShare} V6 m d v1')
          ∗ (x0Loc d ↦{fullShare} (X0v m d : Buf (Elt F) (x0Loc d)))
          ∗ ((SparseCore.T d).loc main_v3 ↦{fullShare} V6 m d v3') ∗ ((SparseCore.T d).loc main_v4 ↦{fullShare} V6 m d v4')
          ∗ (x1Loc d ↦{fullShare} (X1v m d : Buf (Elt F) (x1Loc d)))
          ∗ (oLoc d ↦{fullShare} V6 m d o') ∗ rLoc d ↦{fullShare} V6 m d r') := by
  show held (SparseCore.T d) S11 (V6 m d) = _
  rw [held_S11, V6_a0, V6_a1, V6_a2, V6_x0, V6_x1]

/-- The flat result and the result array: what the last reshape touches. -/
abbrev S2 : Finset (DevRef τ sig) := {o', r'}

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The two arrays after the call, -/
theorem held_V7 (d : Dev nD) :
    (held (T d) S2 (V7 m d) : sProp 𝕄) = iprop((oLoc d ↦{fullShare} OUTv m (X0v m) (X1v m) d) ∗ rLoc d ↦{fullShare} V6 m d r') := by
  rw [held_S2, V7_o, V7_r]

/-- and after the last reshape. -/
theorem held_V8 (d : Dev nD) :
    (held (T d) S2 ((op7 (F := F)).result (V7 m d)) : sProp 𝕄) = iprop((oLoc d ↦{fullShare} V8 m d o') ∗ rLoc d ↦{fullShare} RES m d) := by
  show held (SparseCore.T d) S2 (V8 m d) = _
  rw [held_S2, V8_r]

/-- What @main leaves the claim: `x` at its launch contents, whole; of the two tables, at their launch contents, the
    remainder of the share the TensorCore kept through the call; the result at its value. -/
abbrev FIN (d : Dev nD) : sProp 𝕄 :=
  iprop((a0Loc d ↦{fullShare} m (a0Loc d)) ∗ (a1Loc d ↦{shareDrop fullShare 32} m (a1Loc d)) ∗ (a2Loc d ↦{shareDrop fullShare 32} m (a2Loc d))
    ∗ rLoc d ↦{fullShare} RES m d)

theorem h0 : (op0 (F := F)).bufs ⊆ S11 := show ({a0', v0'} : Finset (DevRef τ sig)) ⊆ S11 by decide
theorem h1 : (op1 (F := F)).bufs ⊆ S11 := show ({v0', v1'} : Finset (DevRef τ sig)) ⊆ S11 by decide
theorem h2 : (op2 (F := F)).bufs ⊆ S11 := show ({v1', x0'} : Finset (DevRef τ sig)) ⊆ S11 by decide
theorem h3 : (op3 (F := F)).bufs ⊆ S11 := show ({a0', v3'} : Finset (DevRef τ sig)) ⊆ S11 by decide
theorem h4 : (op4 (F := F)).bufs ⊆ S11 := show ({v3', v4'} : Finset (DevRef τ sig)) ⊆ S11 by decide
theorem h5 : (op5 (F := F)).bufs ⊆ S11 := show ({v4', x1'} : Finset (DevRef τ sig)) ⊆ S11 by decide
theorem h7 : (op7 (F := F)).bufs ⊆ S2 := show ({o', r'} : Finset (DevRef τ sig)) ⊆ S2 from Finset.Subset.refl _

/-- @main on device `d`'s TensorCore: the six host operations (over the eleven arrays held whole), the call (from the read
    shares of the four inputs and the blocks of the flat result; the result back at its value), the last reshape (over
    the flat result and the result array). -/
theorem hmain (κ : GSem nD τ sig → ℕ) (d : Dev nD) :
    iprop((K (F := F)).ctx EH (P m (X0v m) (X1v m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the slices and the reshapes
  iapply (wp_hlo_within 𝒱 (SparseCore.T d) none Set.univ (op := op0) (S := S11) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S11) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S11) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S11) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S11) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S11) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call: each tile its read shares and its blocks; the blocks back, filled
  ihave Hh := (Entails.of_eq (held_V6 (F := F) m d)) $$ Hheld
  icases Hh with ⟨Ha0, Ha1, Ha2, -, -, Hx0, -, -, Hx1, Ho, Hr⟩
  ihave Hs := (st_intro m (X0v m) (X1v m) d (V6 m d o')) $$ [Ha1 Ha2 Hx0 Hx1 Ho]
  · isplitl [Ha1 Ha2 Hx0 Hx1]
    · isplitl [Ha1]; · iexact Ha1
      isplitl [Ha2]; · iexact Ha2
      isplitl [Hx0]; · iexact Hx0
      iexact Hx1
    iexact Ho
  icases Hs with ⟨⟨Ra1, Ra2, -, -⟩, Hst0⟩
  iapply ((K (F := F)).wp_run (D (F := F)) 𝒱 (EH := EH) (P := P m (X0v m) (X1v m)) κ d 0) $$ [Hst Hst0 Hb Ha0 Hr Ra1 Ra2]
  isplitr; · iexact Hctx
  isplitl [Hst]; · iexact Hst
  isplitl [Hst0]; · iexact Hst0
  iintro ⟨Hst, Hdn⟩
  ihave Ho := (dn_elim m (X0v m) (X1v m) d) $$ Hdn
  -- the last reshape
  iapply (wp_hlo_within 𝒱 (SparseCore.T d) none Set.univ (op := op7) (S := S2) h7 (V := V7 m d)) $$ [Hb Ho Hr]
  · isplitl [Hb]; · iexact Hb
    rw [held_V7]
    isplitl [Ho]; · iexact Ho
    iexact Hr
  iintro ⟨Hb, Hheld⟩
  ihave Hh := (Entails.of_eq (held_V8 (F := F) m d)) $$ Hheld
  icases Hh with ⟨-, Hr⟩
  rw [wp_ret]; imodintro; imodintro
  isplitl [Hst]; · iexact Hst
  isplitl [Ha0]; · iexact Ha0
  isplitl [Ra1]; · iexact Ra1
  isplitl [Ra2]; · iexact Ra2
  iexact Hr

/-! ## What the final memory reads -/

def fq (d : Dev nD) (s' : Phys nD τ sig (Elt F)) : Prop :=
  s'.mem.mem (rLoc d) = RES m d ∧ s'.mem.mem (a0Loc d) = m (a0Loc d) ∧ s'.mem.mem (a1Loc d) = m (a1Loc d) ∧ s'.mem.mem (a2Loc d) = m (a2Loc d)

omit [FloatOps F] in
/-- An array held whole is what the memory holds. -/
theorem SI_read {ℓ : Loc nD τ sig} {q : PosShare TreeShare} {f : Buf (Elt F) ℓ} (s' : Phys nD τ sig (Elt F)) :
    iprop(SI s' ∗ ℓ ↦{q} f) ⊢ (iprop(SI s' ∗ ⌜s'.mem.mem ℓ = f⌝) : sProp 𝕄) :=
  pure_elim _ (SI_pointsTo_agree (st := s') (ℓ := ℓ) (I := Finset.univ) (q := q) (f := f)) fun hx => by
    iintro ⟨HSI, -⟩
    isplitl [HSI]; · iexact HSI
    ipureintro; exact funext fun i => hx i (Finset.mem_univ i)

theorem hfin (d : Dev nD) (s' : Phys nD τ sig (Elt F)) : iprop(FIN m d ∗ SI s') ⊢ (⌜fq m d s'⌝ : sProp 𝕄) := by
  iintro ⟨⟨Ha0, Ha1, Ha2, Hr⟩, HSI⟩
  ihave H := (SI_read (F := F) s') $$ [HSI Hr]
  · isplitl [HSI] <;> iassumption
  icases H with ⟨HSI, %hr⟩
  ihave H := (SI_read (F := F) s') $$ [HSI Ha0]
  · isplitl [HSI] <;> iassumption
  icases H with ⟨HSI, %h0⟩
  ihave H := (SI_read (F := F) s') $$ [HSI Ha1]
  · isplitl [HSI] <;> iassumption
  icases H with ⟨HSI, %h1⟩
  ihave H := (SI_read (F := F) s') $$ [HSI Ha2]
  · isplitl [HSI] <;> iassumption
  icases H with ⟨HSI, %h2⟩
  ipureintro; exact ⟨hr, h0, h1, h2⟩

end Cert.KernelIdeal.Hand

end
-- ==== Proof.Launch.lean ====
/-
  The program's run, with values: from one tile's task (proved apart, taken here as a hypothesis), every weakly fair
  execution of the 35 threads of a device — the TensorCore, the two sequencers, the 32 tiles — terminates, and in the
  final memory the result is the flat result reshaped to 16384 × 200 × 128, where row n of the flat result is the hour
  table's row named by the n-th hour word plus the minute table's row named by the n-th minute word; the three
  arguments are unchanged.
-/
import proofs.«204352_g17334488006705_cont_7to1_713_23_alg».proof.Proof.Common
import proofs.«204352_g17334488006705_cont_7to1_713_23_alg».proof.Proof.LaunchGhost
import proofs.«204352_g17334488006705_cont_7to1_713_23_alg».proof.Proof.LaunchMain

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the run leaves: the result at its value, the arguments unchanged, on every device. -/
def QC : PUnit × MemSt nD τ sig (Elt F) → Prop := fun r => ∀ c : Dev nD,
  r.2.mem ((c.tc : Thread Cert.KernelIdeal.nD Cert.KernelIdeal.τ).loc Cert.KernelIdeal.main_v7) = RES m c
  ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
  ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
  ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)

/-- The run of the whole program from one tile's task: the launch theorem, given the task's statement at every tile,
    the split of the call's operands, the launch element of the ghost state, @main, and how the final memory reads. -/
theorem run_main [∀ e, Nonempty (Elt F e)] (hbody : TileBodySpec (F := F) m (X0v m) (X1v m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (X0v m) (X1v m)) facts v₀
    (fun q hq => match q with | 0 => nomatch hq)
    (fun q _ => match q with | 0 => tileObl m (X0v m) (X1v m) hbody facts)
    (fun q _ => match q with | 0 => vecSplit m (X0v m) (X1v m))
    m ρ main (fun _ => iprop(emp)) (FIN m) (u₀ (F := F)) (hu₀ m (X0v m) (X1v m)) (hmain m ρ) (fq m) (hfin m) (QC m) (fun _ h => h)

end Cert.KernelIdeal.Hand

end
-- ==== Proof.ValueBridge.lean ====
/-
  The value bridge: the index arithmetic that connects what the kernel computes, word by word, to the function the
  specification states.

  Five facts, none of them about memory or synchronisation:

  * the table's rows. In trip `k` the tile at subcore `s` builds table row `R = 288 s + k` from hour row `R >> 6` and
    minute row `R & 63`; in 32-bit words these are `R / 64` and `R % 64` because `R < 4608` never wraps;
  * the index word. Per lane the kernel gathers table row `64 · hour + minute`; for words at most 59 this does not
    wrap, is below 4608, and has quotient `hour` and remainder `minute < 60` by 64;
  * the table gives the result. Row `64 · hour + minute` of a right table holds hour row `hour` plus minute row
    `minute`, which for words below both heights are the rows the words name;
  * the flattened words. The host's slice and two reshapes of `x` put `x[b, l, c]` at flat position `200 b + l`;
  * the final reshape. Entry `(b, l, d)` of the result is entry `(200 b + l, d)` of the flat array.
-/
import proofs.«204352_g17334488006705_cont_7to1_713_23_alg».proof.Proof.Common
import proofs.«204352_g17334488006705_cont_7to1_713_23_alg».proof.Proof.Spec
import Idealize.ShloMosaic.Lib.Pipeline.Value
import Idealize.ShloMosaic.Lib.ValueIdx
import Idealize.ShloMosaic.Lib.ValueLayout
import Idealize.ShloMosaic.Lib.Affine

noncomputable section

namespace Cert.KernelIdeal.Hand

open Cert.KernelIdeal Cert.KernelIdeal.Gen
open Idealize.ShloMosaic
open Idealize.ShloMosaic.ValueIdx

variable {F : FTy → Type}

/-! ## The table's row arithmetic

In trip `k` of the loop that builds the table, the tile at subcore `s` forms the table row number
`R = 288 · s + k` in 32-bit words, and reads the hour copy at row `R >> 6` and the minute copy at row `R & 63`.
Since `s < 16` and `k < 288`, `R < 4608 < 2³¹`: no product or sum wraps, a logical shift right by 6 is the
quotient by `64 = 2⁶`, and the mask `63 = 2⁶ − 1` is the remainder modulo 64. -/

/-- The row word `288 · subcore + trip`, by the operations the kernel computes it with. -/
def rowWord (L : grid0.Coords) (k : Fin k0_t1_loop.trips) : BitVec 32 :=
  Scalar.addi (Scalar.muli (BitVec.ofNat 32 (L 1).val) 288#32) (Scalar.addi 0#32 (Scalar.muli (Scf.iv 0#32 1#32 k) 1#32))

/-- No step of the row word wraps: it is the number `288 · subcore + trip`. -/
theorem rowWord_toNat (L : grid0.Coords) (k : Fin k0_t1_loop.trips) : (rowWord L k).toNat = 288 * (L 1).val + k.val := by
  have hs : (L 1).val < 16 := (L 1).isLt
  have hk : k.val < 288 := Nat.lt_of_lt_of_le k.isLt k0_t1_abs.2.1
  have h_s : Affine.IsInt (BitVec.ofNat 32 (L 1).val) ((L 1).val : Int) := Affine.ofNat _ ⟨rfl, by omega⟩
  have h_288 : Affine.IsInt 288#32 288 := Affine.ofNat _ (by omega)
  have h_0 : Affine.IsInt 0#32 0 := Affine.ofNat _ (by omega)
  have h_1 : Affine.IsInt 1#32 1 := Affine.ofNat _ (by omega)
  have h_prod : Affine.IsInt _ (288 * ((L 1).val : Int)) := Affine.muli h_s h_288 (by omega)
  have h_iv : Affine.IsInt (Scf.iv 0#32 1#32 k.val) (k.val : Int) := Affine.iv h_0 h_1 k.val (by omega)
  have h_iv1 : Affine.IsInt _ (k.val : Int) := Affine.muli h_iv h_1 (by omega)
  have h_iv0 : Affine.IsInt _ (k.val : Int) := Affine.addi h_0 h_iv1 (by omega)
  have h_row : Affine.IsInt (rowWord L k) (288 * ((L 1).val : Int) + k.val) := Affine.addi h_prod h_iv0 (by omega)
  exact Affine.nat_eq h_row _ (by omega)

/-- A logical shift right by the literal 6 is the quotient by 64. -/
theorem shrui6_toNat (w : BitVec 32) : (Scalar.indexCast (Scalar.shrui w 6#32)).toNat = w.toNat / 64 := by
  unfold Scalar.indexCast Scalar.shrui IntOp.shrui
  rw [if_pos (by decide)]
  rw [BitVec.ushiftRight_eq', BitVec.toNat_ushiftRight, Nat.shiftRight_eq_div_pow]
  rfl

/-- The mask `63 = 2⁶ − 1` keeps the remainder modulo 64. -/
theorem andi63_toNat (w : BitVec 32) : (Scalar.indexCast (Scalar.andi w 63#32)).toNat = w.toNat % 64 := by
  unfold Scalar.indexCast Scalar.andi IntOp.andi
  rw [BitVec.toNat_and]
  exact Nat.and_two_pow_sub_one_eq_mod w.toNat 6

/-- The hour copy is read at row `(288 s + k) / 64`, whatever the column offset `c`. -/
theorem hourOff_eq (L : grid0.Coords) (k : Fin k0_t1_loop.trips) (c : Nat) :
    (![(Scalar.indexCast (Scalar.shrui (rowWord L k) 6#32)).toNat, c] : Fin 2 → Nat) = ![(288 * (L 1).val + k.val) / 64, c] := by
  rw [shrui6_toNat, rowWord_toNat]

/-- The minute copy is read at row `(288 s + k) % 64`, whatever the column offset `c`. -/
theorem minuteOff_eq (L : grid0.Coords) (k : Fin k0_t1_loop.trips) (c : Nat) :
    (![(Scalar.indexCast (Scalar.andi (rowWord L k) 63#32)).toNat, c] : Fin 2 → Nat) = ![(288 * (L 1).val + k.val) % 64, c] := by
  rw [andi63_toNat, rowWord_toNat]

/-- The sixteen loads of a trip: for each of the eight chunks of 16 columns (column offsets `0, 16, …, 112`) the hour
    copy at row `(288 s + k) / 64` and the minute copy at row `(288 s + k) % 64`. Each chain is the row word, shifted or
    masked, so each closed form is one of the two lemmas above. -/
theorem k0_off1_eq (L : grid0.Coords) (k : Fin k0_t1_loop.trips) : k0_off1 L k = ![(288 * (L 1).val + k.val) / 64, 0] := hourOff_eq L k 0
theorem k0_off2_eq (L : grid0.Coords) (k : Fin k0_t1_loop.trips) : k0_off2 L k = ![(288 * (L 1).val + k.val) % 64, 0] := minuteOff_eq L k 0
theorem k0_off4_eq (L : grid0.Coords) (k : Fin k0_t1_loop.trips) : k0_off4 L k = ![(288 * (L 1).val + k.val) / 64, 16] := hourOff_eq L k 16
theorem k0_off5_eq (L : grid0.Coords) (k : Fin k0_t1_loop.trips) : k0_off5 L k = ![(288 * (L 1).val + k.val) % 64, 16] := minuteOff_eq L k 16
theorem k0_off7_eq (L : grid0.Coords) (k : Fin k0_t1_loop.trips) : k0_off7 L k = ![(288 * (L 1).val + k.val) / 64, 32] := hourOff_eq L k 32
theorem k0_off8_eq (L : grid0.Coords) (k : Fin k0_t1_loop.trips) : k0_off8 L k = ![(288 * (L 1).val + k.val) % 64, 32] := minuteOff_eq L k 32
theorem k0_off10_eq (L : grid0.Coords) (k : Fin k0_t1_loop.trips) : k0_off10 L k = ![(288 * (L 1).val + k.val) / 64, 48] := hourOff_eq L k 48
theorem k0_off11_eq (L : grid0.Coords) (k : Fin k0_t1_loop.trips) : k0_off11 L k = ![(288 * (L 1).val + k.val) % 64, 48] := minuteOff_eq L k 48
theorem k0_off13_eq (L : grid0.Coords) (k : Fin k0_t1_loop.trips) : k0_off13 L k = ![(288 * (L 1).val + k.val) / 64, 64] := hourOff_eq L k 64
theorem k0_off14_eq (L : grid0.Coords) (k : Fin k0_t1_loop.trips) : k0_off14 L k = ![(288 * (L 1).val + k.val) % 64, 64] := minuteOff_eq L k 64
theorem k0_off16_eq (L : grid0.Coords) (k : Fin k0_t1_loop.trips) : k0_off16 L k = ![(288 * (L 1).val + k.val) / 64, 80] := hourOff_eq L k 80
theorem k0_off17_eq (L : grid0.Coords) (k : Fin k0_t1_loop.trips) : k0_off17 L k = ![(288 * (L 1).val + k.val) % 64, 80] := minuteOff_eq L k 80
theorem k0_off19_eq (L : grid0.Coords) (k : Fin k0_t1_loop.trips) : k0_off19 L k = ![(288 * (L 1).val + k.val) / 64, 96] := hourOff_eq L k 96
theorem k0_off20_eq (L : grid0.Coords) (k : Fin k0_t1_loop.trips) : k0_off20 L k = ![(288 * (L 1).val + k.val) % 64, 96] := minuteOff_eq L k 96
theorem k0_off22_eq (L : grid0.Coords) (k : Fin k0_t1_loop.trips) : k0_off22 L k = ![(288 * (L 1).val + k.val) / 64, 112] := hourOff_eq L k 112
theorem k0_off23_eq (L : grid0.Coords) (k : Fin k0_t1_loop.trips) : k0_off23 L k = ![(288 * (L 1).val + k.val) % 64, 112] := minuteOff_eq L k 112

/-! ## The index word

Per lane the kernel forms `64 · hour + minute` in 32-bit words. With both words at most 59 the product is at most
`64 · 59 = 3776` and the sum at most `3835 < 4608 < 2³²`, so nothing wraps; and since `minute < 64` the hour is the
quotient of the index by 64 and the minute its remainder: the index names the table row built from exactly that hour
row and that minute row, and the minute is one that exists (`< 60`). -/

/-- The index word of an hour word and a minute word, by the operations the kernel applies to a lane. -/
def idxWord (h mn : BitVec 32) : BitVec 32 := IntOp.addi (IntOp.muli h 64#32) mn

/-- For words in range the index word is the number `64 · hour + minute`. -/
theorem idxWord_toNat {h mn : BitVec 32} (hh : h.toNat ≤ 59) (hm : mn.toNat ≤ 59) : (idxWord h mn).toNat = 64 * h.toNat + mn.toNat := by
  unfold idxWord IntOp.addi IntOp.muli
  rw [BitVec.toNat_add, BitVec.toNat_mul]
  have h64 : (64#32 : BitVec 32).toNat = 64 := rfl
  rw [h64]
  omega

/-- It is a row of the table. -/
theorem idxWord_lt {h mn : BitVec 32} (hh : h.toNat ≤ 59) (hm : mn.toNat ≤ 59) : (idxWord h mn).toNat < 4608 := by
  rw [idxWord_toNat hh hm]; omega

/-- Its quotient by 64 is the hour. -/
theorem idxWord_div {h mn : BitVec 32} (hh : h.toNat ≤ 59) (hm : mn.toNat ≤ 59) : (idxWord h mn).toNat / 64 = h.toNat := by
  rw [idxWord_toNat hh hm]; omega

/-- Its remainder modulo 64 is the minute, a minute that exists. -/
theorem idxWord_mod {h mn : BitVec 32} (hh : h.toNat ≤ 59) (hm : mn.toNat ≤ 59) : (idxWord h mn).toNat % 64 = mn.toNat := by
  rw [idxWord_toNat hh hm]; omega

theorem idxWord_mod_lt {h mn : BitVec 32} (hh : h.toNat ≤ 59) (hm : mn.toNat ≤ 59) : (idxWord h mn).toNat % 64 < 60 := by
  rw [idxWord_mod hh hm]; omega

/-- Each of the eight payloads of a block's index list (one per chunk of 16 lanes) is, lane by lane, the index word of
    the hour lane and the minute lane: the shape casts are between equal shapes, the multiplier is the splat of 64. -/
theorem k0_pay10_apply (v0 v1 : Vec F S16 .i32) (i : S16.Idx) : k0_pay10 (F := F) v0 v1 i = idxWord (v0 i) (v1 i) := by
  unfold k0_pay10
  simp only [shapeCast_self]
  rfl
theorem k0_pay11_apply (v0 v1 : Vec F S16 .i32) (i : S16.Idx) : k0_pay11 (F := F) v0 v1 i = idxWord (v0 i) (v1 i) := by
  unfold k0_pay11
  simp only [shapeCast_self]
  rfl
theorem k0_pay12_apply (v0 v1 : Vec F S16 .i32) (i : S16.Idx) : k0_pay12 (F := F) v0 v1 i = idxWord (v0 i) (v1 i) := by
  unfold k0_pay12
  simp only [shapeCast_self]
  rfl
theorem k0_pay13_apply (v0 v1 : Vec F S16 .i32) (i : S16.Idx) : k0_pay13 (F := F) v0 v1 i = idxWord (v0 i) (v1 i) := by
  unfold k0_pay13
  simp only [shapeCast_self]
  rfl
theorem k0_pay14_apply (v0 v1 : Vec F S16 .i32) (i : S16.Idx) : k0_pay14 (F := F) v0 v1 i = idxWord (v0 i) (v1 i) := by
  unfold k0_pay14
  simp only [shapeCast_self]
  rfl
theorem k0_pay15_apply (v0 v1 : Vec F S16 .i32) (i : S16.Idx) : k0_pay15 (F := F) v0 v1 i = idxWord (v0 i) (v1 i) := by
  unfold k0_pay15
  simp only [shapeCast_self]
  rfl
theorem k0_pay16_apply (v0 v1 : Vec F S16 .i32) (i : S16.Idx) : k0_pay16 (F := F) v0 v1 i = idxWord (v0 i) (v1 i) := by
  unfold k0_pay16
  simp only [shapeCast_self]
  rfl
theorem k0_pay17_apply (v0 v1 : Vec F S16 .i32) (i : S16.Idx) : k0_pay17 (F := F) v0 v1 i = idxWord (v0 i) (v1 i) := by
  unfold k0_pay17
  simp only [shapeCast_self]
  rfl

/-! ## The table gives the result

A table row `R = 64 · hour + minute` whose minute exists holds hour row `R / 64 = hour` plus minute row
`R % 64 = minute`; for words below both heights the row a word names (its value modulo the height) is the row of its
own value. So the gathered row is the entry the flat result names. -/

section Table
variable [FloatOps F]

/-- Row `R = 64 · hour + minute` of a right table, read at a column. -/
theorem tab_entry {a1 : FVec F S60x128 .f32} {a2 : FVec F S72x128 .f32} {g : FVec F S4608x128 .f32} {R : Fin 4608}
    (hT : TabOK a1 a2 g R) {h mn : BitVec 32} (hh : h.toNat ≤ 59) (hm : mn.toNat ≤ 59) (hR : R.val = 64 * h.toNat + mn.toNat) (col : Fin 128) :
    g (ix2 R col) = FloatOps.addf (a2 (ix2 (Cert.Spec.row 72 (by norm_num) h) col)) (a1 (ix2 (Cert.Spec.row 60 (by norm_num) mn) col)) := by
  have hmod : R.val % 64 < 60 := by omega
  rw [hT hmod col]
  have e2 : (⟨R.val / 64, by omega⟩ : Fin 72) = Cert.Spec.row 72 (by norm_num) h :=
    Fin.ext (by rw [Cert.Spec.row_val_of_lt (by norm_num) (by omega : h.toNat < 72)]; show R.val / 64 = h.toNat; omega)
  have e1 : (⟨R.val % 64, hmod⟩ : Fin 60) = Cert.Spec.row 60 (by norm_num) mn :=
    Fin.ext (by rw [Cert.Spec.row_val_of_lt (by norm_num) (by omega : mn.toNat < 60)]; show R.val % 64 = mn.toNat; omega)
  rw [e2, e1]

/-- The same with the row written out, for a table right at every row. -/
theorem tab_entry_all {a1 : FVec F S60x128 .f32} {a2 : FVec F S72x128 .f32} {g : FVec F S4608x128 .f32}
    (hT : ∀ R, TabOK a1 a2 g R) {h mn : BitVec 32} (hh : h.toNat ≤ 59) (hm : mn.toNat ≤ 59) (col : Fin 128) :
    g (ix2 (⟨64 * h.toNat + mn.toNat, by omega⟩ : Fin 4608) col)
      = FloatOps.addf (a2 (ix2 (Cert.Spec.row 72 (by norm_num) h) col)) (a1 (ix2 (Cert.Spec.row 60 (by norm_num) mn) col)) :=
  tab_entry (hT _) hh hm rfl col

/-- The same at the row the index word names. -/
theorem tab_entry_idxWord {a1 : FVec F S60x128 .f32} {a2 : FVec F S72x128 .f32} {g : FVec F S4608x128 .f32}
    (hT : ∀ R, TabOK a1 a2 g R) {h mn : BitVec 32} (hh : h.toNat ≤ 59) (hm : mn.toNat ≤ 59) (col : Fin 128) :
    g (ix2 (⟨(idxWord h mn).toNat, idxWord_lt hh hm⟩ : Fin 4608) col)
      = FloatOps.addf (a2 (ix2 (Cert.Spec.row 72 (by norm_num) h) col)) (a1 (ix2 (Cert.Spec.row 60 (by norm_num) mn) col)) :=
  tab_entry (hT _) hh hm (idxWord_toNat hh hm) col

end Table

/-! ## The flattened words

Before the call the host takes the two planes of `x`: the slice `x[:, :, c : c+1]` (`c = 0` for the hour, `c = 1` for
the minute), reshaped to `[16384, 200]` and then to `[1, 3276800]`. A reshape keeps the row-major position, and the
position of `(b, l)` in `[16384, 200]` is `200 b + l`: word `200 b + l` of the flattened hour (minute) list is
`x[b, l, 0]` (`x[b, l, 1]`). -/

/-- The flattened hour words: the slice at plane 0, reshaped twice. -/
def X0h (x : IVec S16384x200x2 32) : IVec S1x3276800 32 :=
  shapeCast S1x3276800
    (shapeCast S16384x200 (extractStridedSlice S16384x200x1 ![0, 0, 0] x slices_S16384x200x2_S16384x200x1_0_0_0)
      shapeCasts_S16384x200x1_S16384x200)
    shapeCasts_S16384x200_S1x3276800

/-- The flattened minute words: the slice at plane 1, reshaped twice. -/
def X1h (x : IVec S16384x200x2 32) : IVec S1x3276800 32 :=
  shapeCast S1x3276800
    (shapeCast S16384x200 (extractStridedSlice S16384x200x1 ![0, 0, 1] x slices_S16384x200x2_S16384x200x1_0_0_1)
      shapeCasts_S16384x200x1_S16384x200)
    shapeCasts_S16384x200_S1x3276800

/-- The flat position of `(b, l)`. -/
abbrev flatPos (b : Fin 16384) (l : Fin 200) : Fin 3276800 := ⟨200 * b.val + l.val, by omega⟩

/-- A plane of `x`, sliced and reshaped twice, read at the flat position of `(b, l)`. -/
theorem plane_apply (x : IVec S16384x200x2 32) (c : Fin 2) (hs : S16384x200x2.Slices ![0, 0, c.val] S16384x200x1)
    (b : Fin 16384) (l : Fin 200) :
    shapeCast S1x3276800
        (shapeCast S16384x200 (extractStridedSlice S16384x200x1 ![0, 0, c.val] x hs) shapeCasts_S16384x200x1_S16384x200)
        shapeCasts_S16384x200_S1x3276800 (ix2 (0 : Fin 1) (flatPos b l))
      = x (ix3 b l c) := by
  -- the outer reshape: position `0 · 3276800 + (200 b + l)` of `[1, 3276800]` is position `b · 200 + l` of `[16384, 200]`
  refine (shapeCast_apply _ _ _ (ix2 b l) ?_).trans ?_
  · rw [Shape.rowMajor_val_two, Shape.rowMajor_val_two]
    show b.val * 200 + l.val = 0 * 3276800 + (200 * b.val + l.val)
    omega
  -- the inner reshape drops the unit axis: position `(b · 200 + l) · 1 + 0` of `[16384, 200, 1]`
  refine (shapeCast_apply _ _ _ (ix3 b l (0 : Fin 1)) ?_).trans ?_
  · rw [Shape.rowMajor_val_three, Shape.rowMajor_val_two]
    show (b.val * 200 + l.val) * 1 + 0 = b.val * 200 + l.val
    omega
  -- the slice shifts the last coordinate by the plane
  exact extractStridedSlice_apply _ _ _ _ (ix3 b l c) fun a => match a with
    | ⟨0, _⟩ => by show b.val = 0 + b.val; omega
    | ⟨1, _⟩ => by show l.val = 0 + l.val; omega
    | ⟨2, _⟩ => by show c.val = c.val + 0; omega

theorem X0h_apply (x : IVec S16384x200x2 32) (b : Fin 16384) (l : Fin 200) :
    X0h x (ix2 (0 : Fin 1) (flatPos b l)) = x (ix3 b l (0 : Fin 2)) :=
  plane_apply x 0 slices_S16384x200x2_S16384x200x1_0_0_0 b l

theorem X1h_apply (x : IVec S16384x200x2 32) (b : Fin 16384) (l : Fin 200) :
    X1h x (ix2 (0 : Fin 1) (flatPos b l)) = x (ix3 b l (1 : Fin 2)) :=
  plane_apply x 1 slices_S16384x200x2_S16384x200x1_0_0_1 b l

/-! ## The final reshape

The call leaves the flat result `[3276800, 128]`; the host reshapes it to `[16384, 200, 128]`. Entry `(b, l, d)` has
row-major position `(200 b + l) · 128 + d`, which is entry `(200 b + l, d)` of the flat array: the hour row named by
`x[b, l, 0]` plus the minute row named by `x[b, l, 1]`, at column `d` — the specification's entry. -/

theorem outFlat_reshape [FloatOps F] (x : IVec S16384x200x2 32) (a1 : FVec F S60x128 .f32) (a2 : FVec F S72x128 .f32) :
    shapeCast S16384x200x128 (OutFlat a1 a2 (X0h x) (X1h x)) shapeCasts_S3276800x128_S16384x200x128 = Cert.Spec.G x a1 a2 := by
  funext j
  obtain ⟨b, l, d, rfl⟩ : ∃ (b : Fin 16384) (l : Fin 200) (d : Fin 128), j = ix3 b l d := ⟨j 0, j 1, j 2, eq_ix3 j⟩
  refine (shapeCast_apply _ _ _ (ix2 (flatPos b l) d) ?_).trans ?_
  · rw [Shape.rowMajor_val_two, Shape.rowMajor_val_three]
    show (200 * b.val + l.val) * 128 + d.val = (b.val * 200 + l.val) * 128 + d.val
    omega
  show FloatOps.addf (a2 (ix2 (Cert.Spec.row 72 _ (X0h x (ix2 (0 : Fin 1) (flatPos b l)))) d))
      (a1 (ix2 (Cert.Spec.row 60 _ (X1h x (ix2 (0 : Fin 1) (flatPos b l)))) d)) = _
  rw [X0h_apply, X1h_apply]
  rfl

end Cert.KernelIdeal.Hand

end
-- ==== Proof.TileOpen.lean ====
/-
  Opening a tile's scoped storage.

  When its task starts, a vector subcore holds its own semaphores at zero and its own buffers whole at some contents, each
  as one iterated conjunction over everything it owns. The task's proof needs the ones the kernel names, one by one: the
  ten DMA semaphores (three of the table's set-up, three two-slot arrays of the pipeline, one of the gather) and the seven
  vector-memory buffers (the index list, the minute and hour copies, the built rows, three two-slot staging buffers). Each
  opening splits the conjunction over a named finite set from the conjunction over the rest, and spells the named part
  out. The last section restates the points-to of each whole-array operand as the task's program addresses it.
-/
import proofs.«204352_g17334488006705_cont_7to1_713_23_alg».proof.Proof.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-- The vector subcore at coordinates `L` of device `d`, as a thread. -/
abbrev thr (d : Dev nD) (L : grid0.Coords) : Thread nD τ := V d (cV L) (jV L)

/-! ## The subcore's ten DMA semaphores -/

/-- The cell of the subcore's DMA semaphore number `n`. -/
abbrev dcell (d : Dev nD) (L : grid0.Coords) (n : DmaSem sig) : GSem nD τ sig := (thr d L, SemLoc.dma n)

/-- Distinct semaphores have distinct cells. -/
def dcellEmb (d : Dev nD) (L : grid0.Coords) : DmaSem sig ↪ GSem nD τ sig :=
  ⟨dcell d L, fun _ _ h => SemLoc.dma.inj (Prod.mk.inj h).2⟩

/-- The ten cells together. -/
def dmaCells (d : Dev nD) (L : grid0.Coords) : Finset (GSem nD τ sig) := Finset.univ.map (dcellEmb d L)

theorem dmaCells_subset (d : Dev nD) (L : grid0.Coords) : dmaCells d L ⊆ ownCells (thr d L) := by
  intro g hg
  obtain ⟨n, -, rfl⟩ := Finset.mem_map.mp hg
  refine mem_ownCells.mpr ⟨rfl, ?_⟩
  -- every DMA semaphore of a vector subcore is a scoped one
  have key : ∀ n : DmaSem sig, (SemLoc.dma n : SemLoc sig).isScoped .scVector = true := by decide
  exact key n

theorem bigSep_dmaCells (d : Dev nD) (L : grid0.Coords) (Φ : GSem nD τ sig → sProp 𝕄) :
    bigSep (dmaCells d L) Φ = iprop(Φ (dcell d L ⟨0, by decide⟩) ∗ Φ (dcell d L ⟨1, by decide⟩) ∗ Φ (dcell d L ⟨2, by decide⟩)
      ∗ Φ (dcell d L ⟨3, by decide⟩) ∗ Φ (dcell d L ⟨4, by decide⟩) ∗ Φ (dcell d L ⟨5, by decide⟩) ∗ Φ (dcell d L ⟨6, by decide⟩)
      ∗ Φ (dcell d L ⟨7, by decide⟩) ∗ Φ (dcell d L ⟨8, by decide⟩) ∗ Φ (dcell d L ⟨9, by decide⟩)) := by
  unfold dmaCells
  rw [BI.bigSep_map]
  rw [show (Finset.univ : Finset (DmaSem sig)) = {⟨0, by decide⟩, ⟨1, by decide⟩, ⟨2, by decide⟩, ⟨3, by decide⟩, ⟨4, by decide⟩,
      ⟨5, by decide⟩, ⟨6, by decide⟩, ⟨7, by decide⟩, ⟨8, by decide⟩, ⟨9, by decide⟩} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]
  rfl

/-- The subcore's scoped semaphores at zero are its ten DMA semaphores at zero, and the rest. -/
theorem ownSems0_V (d : Dev nD) (L : grid0.Coords) :
    (ownSems0 (thr d L) : sProp 𝕄)
      = iprop(semVal (dcell d L ⟨0, by decide⟩) 0 ∗ semVal (dcell d L ⟨1, by decide⟩) 0 ∗ semVal (dcell d L ⟨2, by decide⟩) 0
          ∗ semVal (dcell d L ⟨3, by decide⟩) 0 ∗ semVal (dcell d L ⟨4, by decide⟩) 0 ∗ semVal (dcell d L ⟨5, by decide⟩) 0
          ∗ semVal (dcell d L ⟨6, by decide⟩) 0 ∗ semVal (dcell d L ⟨7, by decide⟩) 0 ∗ semVal (dcell d L ⟨8, by decide⟩) 0
          ∗ semVal (dcell d L ⟨9, by decide⟩) 0
          ∗ bigSep (ownCells (thr d L) \ dmaCells d L) fun g => semVal g 0) := by
  have assoc : ∀ P Q R : sProp 𝕄, iprop((P ∗ Q) ∗ R) = iprop(P ∗ Q ∗ R) := fun _ _ _ =>
    Idealize.SL.BI.Entails.antisymm Idealize.SL.BI.sep_assoc Idealize.SL.BI.sep_assoc'
  unfold SparseCore.Cfg.ownSems0
  rw [SparseCore.bigSep_sdiff_split' (dmaCells_subset d L), bigSep_dmaCells]
  simp only [assoc]

/-! ## How the kernel's names read the ten semaphores

The three single semaphores of the table's set-up are numbers 0, 1, 2; the pipeline's three two-slot arrays are numbers
3–4 (hour words in), 5–6 (minute words in), 7–8 (blocks out); the gather's is number 9. A slot of a two-slot array is
its base plus the slot. -/

theorem cc0_scoped0_sem : cc0_scoped0.sem = (⟨0, by decide⟩ : DmaSem sig) := rfl
theorem cc0_scoped1_sem : cc0_scoped1.sem = (⟨1, by decide⟩ : DmaSem sig) := rfl
theorem cc0_scoped2_sem : cc0_scoped2.sem = (⟨2, by decide⟩ : DmaSem sig) := rfl
theorem cc0_scoped9_sem : cc0_scoped9.sem = (⟨9, by decide⟩ : DmaSem sig) := rfl

/-- Slot `off 0` of a two-slot semaphore array laid from `base`: number `base + off 0`. -/
theorem slot_sem_val (base : Nat) (hb : base + S2.numel ≤ 10) (off : Fin 1 → Nat) (h : ∀ a, off a + S1.size a ≤ S2.size a) :
    ((((SemArray.consecutive base S2 hb : DmaSems sig S2).slice (Rect.unit (s := S2) off S1.size h)).squeeze S_ squeezes_S1_S_).sem).val
      = base + off 0 := by
  show base + (S2.rowMajor ((Rect.unit (s := S2) off S1.size h).emb (Shape.reshapeEquiv squeezes_S1_S_.numel_eq fun i => i.elim0))).val = _
  rw [Shape.rowMajor_val_one, Rect.emb_apply]
  have h0 : ((Shape.reshapeEquiv squeezes_S1_S_.numel_eq (fun i => i.elim0) : (Rect.unit (s := S2) off S1.size h).shape.Idx) 0).val < 1 :=
    ((Shape.reshapeEquiv squeezes_S1_S_.numel_eq (fun i => i.elim0) : (Rect.unit (s := S2) off S1.size h).shape.Idx) 0).isLt
  show base + (off 0 + 1 * _) = _
  omega

theorem cc0_scoped4_slot (off : Fin 1 → Nat) (h : ∀ a, off a + S1.size a ≤ S2.size a) :
    ((cc0_scoped4.slice (Rect.unit (s := S2) off S1.size h)).squeeze S_ squeezes_S1_S_).sem
      = (⟨3 + off 0, by have := h 0; show 3 + off 0 < 10; change off 0 + 1 ≤ 2 at this; omega⟩ : DmaSem sig) :=
  Fin.ext (slot_sem_val 3 hcc0_scoped4 off h)
theorem cc0_scoped6_slot (off : Fin 1 → Nat) (h : ∀ a, off a + S1.size a ≤ S2.size a) :
    ((cc0_scoped6.slice (Rect.unit (s := S2) off S1.size h)).squeeze S_ squeezes_S1_S_).sem
      = (⟨5 + off 0, by have := h 0; show 5 + off 0 < 10; change off 0 + 1 ≤ 2 at this; omega⟩ : DmaSem sig) :=
  Fin.ext (slot_sem_val 5 hcc0_scoped6 off h)
theorem cc0_scoped8_slot (off : Fin 1 → Nat) (h : ∀ a, off a + S1.size a ≤ S2.size a) :
    ((cc0_scoped8.slice (Rect.unit (s := S2) off S1.size h)).squeeze S_ squeezes_S1_S_).sem
      = (⟨7 + off 0, by have := h 0; show 7 + off 0 < 10; change off 0 + 1 ≤ 2 at this; omega⟩ : DmaSem sig) :=
  Fin.ext (slot_sem_val 7 hcc0_scoped8 off h)

/-! ## The subcore's seven buffers

The index list, the minute copy, the hour copy, the 288 built rows, and the three two-slot staging buffers (hour words,
minute words, result blocks): buffers 0–6 of the subcore's vector memory. -/

/-- The seven, as the kernel names them. -/
def tileRefs₀ : Finset (Ref sig .scVector) :=
  {cc0_scratch0, cc0_scratch1, cc0_scratch2, cc0_scratch3, cc0_scoped3, cc0_scoped5, cc0_scoped7}

/-- The seven, as buffers of the device: those of the subcore at `L`. -/
def tileRefs (L : grid0.Coords) : Finset (DevRef τ sig) :=
  tileRefs₀.map ⟨(Proc.scVector (cV L) (jV L)).devRef, Proc.devRef_injective _⟩

theorem tileRefs_subset (L : grid0.Coords) : tileRefs L ⊆ ownRefs (τ := τ) (.scVector (cV L) (jV L)) := by
  intro b hb
  obtain ⟨r, hr, rfl⟩ := Finset.mem_map.mp hb
  simp only [tileRefs₀, Finset.mem_insert, Finset.mem_singleton] at hr
  rcases hr with rfl | rfl | rfl | rfl | rfl | rfl | rfl <;> exact SparseCore.Cfg.mem_ownRefs_of_owner rfl

theorem bigSep_tileRefs₀ (Ψ : Ref sig .scVector → sProp 𝕄) :
    bigSep tileRefs₀ Ψ = iprop(Ψ cc0_scratch0 ∗ Ψ cc0_scratch1 ∗ Ψ cc0_scratch2 ∗ Ψ cc0_scratch3 ∗ Ψ cc0_scoped3 ∗ Ψ cc0_scoped5 ∗ Ψ cc0_scoped7) := by
  unfold tileRefs₀
  rw [SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]

theorem bigSep_tileRefs (L : grid0.Coords) (Φ : DevRef τ sig → sProp 𝕄) :
    bigSep (tileRefs L) Φ
      = iprop(Φ ((Proc.scVector (cV L) (jV L)).devRef cc0_scratch0) ∗ Φ ((Proc.scVector (cV L) (jV L)).devRef cc0_scratch1)
          ∗ Φ ((Proc.scVector (cV L) (jV L)).devRef cc0_scratch2) ∗ Φ ((Proc.scVector (cV L) (jV L)).devRef cc0_scratch3)
          ∗ Φ ((Proc.scVector (cV L) (jV L)).devRef cc0_scoped3) ∗ Φ ((Proc.scVector (cV L) (jV L)).devRef cc0_scoped5)
          ∗ Φ ((Proc.scVector (cV L) (jV L)).devRef cc0_scoped7)) := by
  unfold tileRefs
  exact (BI.bigSep_map _).trans (bigSep_tileRefs₀ _)

/-- The subcore's own buffers, each whole at some contents, are its seven and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scoped3 ↦{fullShare} f) ∗ (∃ f, (thr d L).loc cc0_scoped5 ↦{fullShare} f)
          ∗ (∃ f, (thr d L).loc cc0_scoped7 ↦{fullShare} f)
          ∗ bigSep (ownRefs (τ := τ) (.scVector (cV L) (jV L)) \ tileRefs L) fun b => iprop(∃ f, ((d, b) : Loc nD τ sig) ↦{fullShare} f)) := by
  have assoc : ∀ P Q R : sProp 𝕄, iprop((P ∗ Q) ∗ R) = iprop(P ∗ Q ∗ R) := fun _ _ _ =>
    Idealize.SL.BI.Entails.antisymm Idealize.SL.BI.sep_assoc Idealize.SL.BI.sep_assoc'
  unfold SparseCore.Cfg.ownBufs
  rw [SparseCore.bigSep_sdiff_split' (tileRefs_subset L), bigSep_tileRefs]
  simp only [assoc]

/-! ## The operands as the task's program addresses them

A whole-array memref's view is the array itself: a points-to through it is the points-to of the array. -/

section Respell
variable (d : Dev nD) (L : grid0.Coords)

theorem pts_idxV (f : Buf (Elt F) ((thr d L).loc cc0_scratch0)) :
    ((idxV).view.loc (thr d L) ↦{fullShare} f : sProp 𝕄) = (thr d L).loc cc0_scratch0 ↦{fullShare} f := rfl
theorem pts_minV (f : Buf (Elt F) ((thr d L).loc cc0_scratch1)) :
    ((minV).view.loc (thr d L) ↦{fullShare} f : sProp 𝕄) = (thr d L).loc cc0_scratch1 ↦{fullShare} f := rfl
theorem pts_hourV (f : Buf (Elt F) ((thr d L).loc cc0_scratch2)) :
    ((hourV).view.loc (thr d L) ↦{fullShare} f : sProp 𝕄) = (thr d L).loc cc0_scratch2 ↦{fullShare} f := rfl
theorem pts_cbufV (f : Buf (Elt F) ((thr d L).loc cc0_scratch3)) :
    ((cbufV).view.loc (thr d L) ↦{fullShare} f : sProp 𝕄) = (thr d L).loc cc0_scratch3 ↦{fullShare} f := rfl
theorem pts_w0V (f : Buf (Elt F) ((thr d L).loc cc0_scoped3)) :
    ((w0V).view.loc (thr d L) ↦{fullShare} f : sProp 𝕄) = (thr d L).loc cc0_scoped3 ↦{fullShare} f := rfl
theorem pts_w1V (f : Buf (Elt F) ((thr d L).loc cc0_scoped5)) :
    ((w1V).view.loc (thr d L) ↦{fullShare} f : sProp 𝕄) = (thr d L).loc cc0_scoped5 ↦{fullShare} f := rfl
theorem pts_stgV (f : Buf (Elt F) ((thr d L).loc cc0_scoped7)) :
    ((stgV).view.loc (thr d L) ↦{fullShare} f : sProp 𝕄) = (thr d L).loc cc0_scoped7 ↦{fullShare} f := rfl

theorem pts_a1V (q : PosShare TreeShare) (f : Buf (Elt F) (a1Loc d)) :
    ((a1V).view.loc (thr d L) ↦{q} f : sProp 𝕄) = a1Loc d ↦{q} f := by
  simp only [Memref.view_whole, View.set_whole]
theorem pts_a2V (q : PosShare TreeShare) (f : Buf (Elt F) (a2Loc d)) :
    ((a2V).view.loc (thr d L) ↦{q} f : sProp 𝕄) = a2Loc d ↦{q} f := by
  simp only [Memref.view_whole, View.set_whole]
theorem pts_x0V (q : PosShare TreeShare) (f : Buf (Elt F) (x0Loc d)) :
    ((x0V).view.loc (thr d L) ↦{q} f : sProp 𝕄) = x0Loc d ↦{q} f := by
  simp only [Memref.view_whole, View.set_whole]
theorem pts_x1V (q : PosShare TreeShare) (f : Buf (Elt F) (x1Loc d)) :
    ((x1V).view.loc (thr d L) ↦{q} f : sProp 𝕄) = x1Loc d ↦{q} f := by
  simp only [Memref.view_whole, View.set_whole]
theorem pts_shV (q : PosShare TreeShare) (f : Buf (Elt F) (shLoc d (cV L))) :
    ((shV).view.loc (thr d L) ↦{q} f : sProp 𝕄) = shLoc d (cV L) ↦{q} f := rfl

end Respell

end Cert.KernelIdeal.Hand

end
-- ==== Proof.PipeWords.lean ====
/-
  The control words of the pipelined loop, as pure facts about 32-bit words.

  One tile's main loop runs 800 trips over seven carried counters.  Two of them count the
  prefetches issued, three the blocks consumed and produced, one the copies out that have been
  waited for, and one is the index of the current block, which wraps to zero after block 799.
  A buffer slot is always "counter mod 2".  This module gives the counters' values at every
  trip in closed form, and proves, from those values,
    * that every slot offset is inside its two-slot buffer, whatever the counter;
    * which of the trip's conditional transfers run (all of them, except: no prefetch in the
      last trip, no wait for a copy out in the first);
    * where in the flat input and result arrays each transfer of the trip lands;
    * that the side conditions the program states at each trip hold; and
    * that one trip takes the closed forms at trip `k` to the closed forms at trip `k + 1`.

  Method.  A word is read as the signed integer it represents; as long as no intermediate result
  leaves the 32-bit range, the program's additions, multiplications, comparisons and selections
  are the integer ones (the library's `Affine.IsInt` calculus).  The tile number is at most 31 and
  the block index at most 799, so the largest number formed is 128 · (800 · 31 + 799) < 2³¹.
-/
import proofs.«204352_g17334488006705_cont_7to1_713_23_alg».proof.KernelIdeal
import Idealize.ShloMosaic.Lib.Affine
import Idealize.ShloMosaic.Lib.WordArith

namespace Cert.KernelIdeal.Hand

open Idealize.ShloMosaic Idealize.SL.Sem
open Idealize.ShloMosaic.Affine (IsInt Holds Fails)

/-! ## The carried counters in closed form -/

/-- The number of prefetches issued before trip `k`: one before the loop, and one more in every
    trip except the last (there is no block 800 to fetch).  Carried twice, once per input. -/
def A13 (k : ℕ) : BitVec 32 := BitVec.ofNat 32 (min (k + 1) 800)
/-- The number of blocks consumed, and of blocks produced, before trip `k`. -/
def A14 (k : ℕ) : BitVec 32 := BitVec.ofNat 32 k
/-- The number of copies out waited for before trip `k`: every trip but the first waits for the
    copy out of the block before it (truncated subtraction: zero at `k = 0`). -/
def A18 (k : ℕ) : BitVec 32 := BitVec.ofNat 32 (k - 1)
/-- The block index at trip `k`; after the last trip it has wrapped to zero. -/
def A19 (k : ℕ) : BitVec 32 := BitVec.ofNat 32 (k % 800)

theorem trips_eq : k0_t2_loop.trips = 800 := by decide

theorem A13_eq_A14_succ {k : ℕ} (hk : k < 799) : A13 k = A14 (k + 1) := by
  unfold A13 A14; rw [Nat.min_eq_left (by omega)]
theorem A13_last : A13 799 = 800#32 := rfl
theorem A13_end : A13 800 = 800#32 := rfl

/-! ## Slots

A slot is `counter mod 2`, so it is 0 or 1 and the slot's block of the two-slot buffer (or
its semaphore of the two) is inside the buffer, for every word. -/

theorem slot_lt (w : BitVec 32) : (Scalar.remui w 2#32).toNat < 2 := by
  unfold Scalar.remui IntOp.remui
  rw [if_neg (by decide), BitVec.toNat_umod]
  exact Nat.mod_lt _ (by decide)

/-- The slot of the word that spells the number `n` is `n mod 2` (2 divides 2³², so the
    reduction of `n` to a word does not change its parity). -/
theorem slot_ofNat (n : ℕ) : (Scalar.remui (BitVec.ofNat 32 n) 2#32).toNat = n % 2 := by
  unfold Scalar.remui IntOp.remui
  rw [if_neg (by decide), BitVec.toNat_umod, BitVec.toNat_ofNat]
  show n % 2 ^ 32 % 2 = n % 2
  omega

/-- A slot of a buffer of two blocks of shape `1 × 128` words. -/
theorem inb_slot_w {x : ℕ} (hx : x < 2) : ∀ a, (![x, 0, 0] : Fin 3 → ℕ) a + S1x1x128.size a ≤ S2x1x128.size a := by
  intro a; fin_cases a
  · show x + 1 ≤ 2; omega
  · show 0 + 1 ≤ 1; omega
  · show 0 + 128 ≤ 128; omega
/-- A slot of a buffer of two blocks of shape `128 × 128`. -/
theorem inb_slot_f {x : ℕ} (hx : x < 2) : ∀ a, (![x, 0, 0] : Fin 3 → ℕ) a + S1x128x128.size a ≤ S2x128x128.size a := by
  intro a; fin_cases a
  · show x + 1 ≤ 2; omega
  · show 0 + 128 ≤ 128; omega
  · show 0 + 128 ≤ 128; omega
/-- One of two semaphores. -/
theorem inb_slot_s {x : ℕ} (hx : x < 2) : ∀ a, (![x] : Fin 1 → ℕ) a + S1.size a ≤ S2.size a := by
  intro a; fin_cases a
  show x + 1 ≤ 2; omega

theorem off29_inb (w : BitVec 32) : ∀ a, (k0_off29 w) a + S1x1x128.size a ≤ S2x1x128.size a := inb_slot_w (slot_lt w)
theorem off31_inb (w : BitVec 32) : ∀ a, (k0_off31 w) a + S1.size a ≤ S2.size a := inb_slot_s (slot_lt w)
theorem off32_inb (w : BitVec 32) : ∀ a, (k0_off32 w) a + S1x1x128.size a ≤ S2x1x128.size a := inb_slot_w (slot_lt w)
theorem off34_inb (w : BitVec 32) : ∀ a, (k0_off34 w) a + S1.size a ≤ S2.size a := inb_slot_s (slot_lt w)
theorem off35_inb (w : BitVec 32) : ∀ a, (k0_off35 w) a + S1x1x128.size a ≤ S2x1x128.size a := inb_slot_w (slot_lt w)
theorem off37_inb (w : BitVec 32) : ∀ a, (k0_off37 w) a + S1.size a ≤ S2.size a := inb_slot_s (slot_lt w)
theorem off38_inb (w : BitVec 32) : ∀ a, (k0_off38 w) a + S1x1x128.size a ≤ S2x1x128.size a := inb_slot_w (slot_lt w)
theorem off40_inb (w : BitVec 32) : ∀ a, (k0_off40 w) a + S1.size a ≤ S2.size a := inb_slot_s (slot_lt w)
theorem off41_inb (w : BitVec 32) : ∀ a, (k0_off41 w) a + S1x1x128.size a ≤ S2x1x128.size a := inb_slot_w (slot_lt w)
theorem off42_inb (w : BitVec 32) : ∀ a, (k0_off42 w) a + S1x1x128.size a ≤ S2x1x128.size a := inb_slot_w (slot_lt w)
theorem off43_inb (w : BitVec 32) : ∀ a, (k0_off43 w) a + S1x128x128.size a ≤ S2x128x128.size a := inb_slot_f (slot_lt w)
theorem off44_inb (w : BitVec 32) : ∀ a, (k0_off44 w) a + S1x128x128.size a ≤ S2x128x128.size a := inb_slot_f (slot_lt w)
theorem off46_inb (w : BitVec 32) : ∀ a, (k0_off46 w) a + S1.size a ≤ S2.size a := inb_slot_s (slot_lt w)
theorem off47_inb (w : BitVec 32) : ∀ a, (k0_off47 w) a + S1x128x128.size a ≤ S2x128x128.size a := inb_slot_f (slot_lt w)
theorem off49_inb (w : BitVec 32) : ∀ a, (k0_off49 w) a + S1.size a ≤ S2.size a := inb_slot_s (slot_lt w)
theorem off50_inb (w : BitVec 32) : ∀ a, (k0_off50 w) a + S1x128x128.size a ≤ S2x128x128.size a := inb_slot_f (slot_lt w)
theorem off52_inb (w : BitVec 32) : ∀ a, (k0_off52 w) a + S1.size a ≤ S2.size a := inb_slot_s (slot_lt w)
theorem off53_inb (w : BitVec 32) : ∀ a, (k0_off53 w) a + S1x128x128.size a ≤ S2x128x128.size a := inb_slot_f (slot_lt w)

/-- The side conditions the loop body states of a single counter: its slot is in the buffer. -/
theorem chk2_all (w : BitVec 32) : k0_chk2 w := off41_inb w
theorem chk3_all (w : BitVec 32) : k0_chk3 w := off42_inb w
theorem chk4_all (w : BitVec 32) : k0_chk4 w := off43_inb w
theorem chk5_all (w : BitVec 32) : k0_chk5 w := ⟨off50_inb w, off52_inb w, off53_inb w⟩

/-! ### The slot of a counter given by a number -/

theorem off29_ofNat (n : ℕ) : k0_off29 (BitVec.ofNat 32 n) = ![n % 2, 0, 0] := by
  show ![(Scalar.remui (BitVec.ofNat 32 n) 2#32).toNat, 0, 0] = _; rw [slot_ofNat]
theorem off32_ofNat (n : ℕ) : k0_off32 (BitVec.ofNat 32 n) = ![n % 2, 0, 0] := by
  show ![(Scalar.remui (BitVec.ofNat 32 n) 2#32).toNat, 0, 0] = _; rw [slot_ofNat]
theorem off35_ofNat (n : ℕ) : k0_off35 (BitVec.ofNat 32 n) = ![n % 2, 0, 0] := by
  show ![(Scalar.remui (BitVec.ofNat 32 n) 2#32).toNat, 0, 0] = _; rw [slot_ofNat]
theorem off38_ofNat (n : ℕ) : k0_off38 (BitVec.ofNat 32 n) = ![n % 2, 0, 0] := by
  show ![(Scalar.remui (BitVec.ofNat 32 n) 2#32).toNat, 0, 0] = _; rw [slot_ofNat]
theorem off41_ofNat (n : ℕ) : k0_off41 (BitVec.ofNat 32 n) = ![n % 2, 0, 0] := by
  show ![(Scalar.remui (BitVec.ofNat 32 n) 2#32).toNat, 0, 0] = _; rw [slot_ofNat]
theorem off42_ofNat (n : ℕ) : k0_off42 (BitVec.ofNat 32 n) = ![n % 2, 0, 0] := by
  show ![(Scalar.remui (BitVec.ofNat 32 n) 2#32).toNat, 0, 0] = _; rw [slot_ofNat]
theorem off43_ofNat (n : ℕ) : k0_off43 (BitVec.ofNat 32 n) = ![n % 2, 0, 0] := by
  show ![(Scalar.remui (BitVec.ofNat 32 n) 2#32).toNat, 0, 0] = _; rw [slot_ofNat]
theorem off44_ofNat (n : ℕ) : k0_off44 (BitVec.ofNat 32 n) = ![n % 2, 0, 0] := by
  show ![(Scalar.remui (BitVec.ofNat 32 n) 2#32).toNat, 0, 0] = _; rw [slot_ofNat]
theorem off47_ofNat (n : ℕ) : k0_off47 (BitVec.ofNat 32 n) = ![n % 2, 0, 0] := by
  show ![(Scalar.remui (BitVec.ofNat 32 n) 2#32).toNat, 0, 0] = _; rw [slot_ofNat]
theorem off50_ofNat (n : ℕ) : k0_off50 (BitVec.ofNat 32 n) = ![n % 2, 0, 0] := by
  show ![(Scalar.remui (BitVec.ofNat 32 n) 2#32).toNat, 0, 0] = _; rw [slot_ofNat]
theorem off53_ofNat (n : ℕ) : k0_off53 (BitVec.ofNat 32 n) = ![n % 2, 0, 0] := by
  show ![(Scalar.remui (BitVec.ofNat 32 n) 2#32).toNat, 0, 0] = _; rw [slot_ofNat]
theorem off31_ofNat (n : ℕ) : k0_off31 (BitVec.ofNat 32 n) = ![n % 2] := by
  show ![(Scalar.remui (BitVec.ofNat 32 n) 2#32).toNat] = _; rw [slot_ofNat]
theorem off34_ofNat (n : ℕ) : k0_off34 (BitVec.ofNat 32 n) = ![n % 2] := by
  show ![(Scalar.remui (BitVec.ofNat 32 n) 2#32).toNat] = _; rw [slot_ofNat]
theorem off37_ofNat (n : ℕ) : k0_off37 (BitVec.ofNat 32 n) = ![n % 2] := by
  show ![(Scalar.remui (BitVec.ofNat 32 n) 2#32).toNat] = _; rw [slot_ofNat]
theorem off40_ofNat (n : ℕ) : k0_off40 (BitVec.ofNat 32 n) = ![n % 2] := by
  show ![(Scalar.remui (BitVec.ofNat 32 n) 2#32).toNat] = _; rw [slot_ofNat]
theorem off46_ofNat (n : ℕ) : k0_off46 (BitVec.ofNat 32 n) = ![n % 2] := by
  show ![(Scalar.remui (BitVec.ofNat 32 n) 2#32).toNat] = _; rw [slot_ofNat]
theorem off49_ofNat (n : ℕ) : k0_off49 (BitVec.ofNat 32 n) = ![n % 2] := by
  show ![(Scalar.remui (BitVec.ofNat 32 n) 2#32).toNat] = _; rw [slot_ofNat]
theorem off52_ofNat (n : ℕ) : k0_off52 (BitVec.ofNat 32 n) = ![n % 2] := by
  show ![(Scalar.remui (BitVec.ofNat 32 n) 2#32).toNat] = _; rw [slot_ofNat]

/-! ## Words read as integers -/

/-- A literal below 2³¹ reads as itself. -/
theorem lit (n : ℕ) (h : n < 2 ^ 31 := by omega) : IsInt (BitVec.ofNat 32 n) (n : ℤ) := Affine.ofNat n ⟨rfl, h⟩

/-- Two words with the same reading are the same word. -/
theorem eq_of_isInt {x y : BitVec 32} {e : ℤ} (hx : IsInt x e) (hy : IsInt y e) : x = y := by
  unfold Affine.IsInt at hx hy
  exact BitVec.eq_of_toInt_eq (hx.trans hy.symm)

/-- The tile's first block number as the kernel computes it, `800 · (subcore + 16 · core)`: the
    tiles of the second SparseCore come after the sixteen of the first, 800 blocks each. -/
abbrev baseW (L : grid0.Coords) : BitVec 32 :=
  Scalar.muli (Scalar.addi (Scalar.addi 0#32 (Scalar.muli (BitVec.ofNat 32 (L 1).val) 1#32))
    (Scalar.muli (BitVec.ofNat 32 (L 0).val) 16#32)) 800#32

/-- The block index after `w`, wrapping from 799 to 0 (what the kernel's pipeline asks to fetch next). -/
abbrev nextW (w : BitVec 32) : BitVec 32 :=
  Scalar.select (Scalar.cmpi .eq (Scalar.select 1#1 (Scalar.addi w 1#32) w) 800#32) 0#32
    (Scalar.select 1#1 (Scalar.addi w 1#32) w)

/-- The block index before `w`, wrapping from 0 to 799 (the block whose copy out is still pending). -/
abbrev prevW (w : BitVec 32) : BitVec 32 :=
  Scalar.select (Scalar.cmpi .eq (Scalar.select 1#1 (Scalar.subi w 1#32) w) 4294967295#32) 799#32
    (Scalar.select 1#1 (Scalar.subi w 1#32) w)

theorem coords_lt (L : grid0.Coords) : (L 1).val < 16 ∧ (L 0).val < 2 := ⟨(L 1).isLt, (L 0).isLt⟩

/-- The tile number is at most 31, so 800 times it is far inside the 32-bit range. -/
theorem baseW_isInt (L : grid0.Coords) : IsInt (baseW L) (800 * (((L 1).val : ℤ) + 16 * ((L 0).val : ℤ))) := by
  obtain ⟨h1, h0⟩ := coords_lt L
  have a1 : IsInt (BitVec.ofNat 32 (L 1).val) ((L 1).val : ℤ) := Affine.ofNat _ ⟨rfl, by omega⟩
  have a0 : IsInt (BitVec.ofNat 32 (L 0).val) ((L 0).val : ℤ) := Affine.ofNat _ ⟨rfl, by omega⟩
  have v2 : IsInt _ ((L 1).val : ℤ) := Affine.muli a1 (lit 1) (by omega)
  have v3 : IsInt _ ((L 1).val : ℤ) := Affine.addi (lit 0) v2 (by omega)
  have v4 : IsInt _ (16 * ((L 0).val : ℤ)) := Affine.muli a0 (lit 16) (by omega)
  have v5 : IsInt _ (((L 1).val : ℤ) + 16 * ((L 0).val : ℤ)) := Affine.addi v3 v4 (by omega)
  exact Affine.muli v5 (lit 800) (by omega)

section
variable {w : BitVec 32} {k : ℕ}

/-- `k + 1`, except that 799 is followed by 0. -/
theorem nextW_isInt (hw : IsInt w (k : ℤ)) (hk : k < 800) : IsInt (nextW w) (((k + 1) % 800 : ℕ) : ℤ) := by
  have h86 : IsInt (Scalar.addi w 1#32) ((k : ℤ) + 1) := Affine.addi hw (lit 1) (by omega)
  have h87 : IsInt (Scalar.select 1#1 (Scalar.addi w 1#32) w) ((k : ℤ) + 1) :=
    Affine.select_holds Affine.holds_one h86 hw rfl
  by_cases hl : k = 799
  · exact Affine.select_holds (Affine.eq_holds h87 (lit 800) (by omega)) (lit 0) h87 (by omega)
  · exact Affine.select_fails (Affine.eq_fails h87 (lit 800) (by omega)) (lit 0) h87 (by omega)

/-- `k − 1`, except that 0 is preceded by 799: the subtraction gives −1 there, which the kernel
    tests for. -/
theorem prevW_isInt (hw : IsInt w (k : ℤ)) (hk : k < 800) : IsInt (prevW w) (((k + 799) % 800 : ℕ) : ℤ) := by
  have h81 : IsInt (Scalar.subi w 1#32) ((k : ℤ) - 1) := Affine.subi hw (lit 1) (by omega)
  have h82 : IsInt (Scalar.select 1#1 (Scalar.subi w 1#32) w) ((k : ℤ) - 1) :=
    Affine.select_holds Affine.holds_one h81 hw rfl
  have hm1 : IsInt 4294967295#32 (-1) := Affine.ofNat_neg 4294967295 (by omega)
  by_cases hz : k = 0
  · exact Affine.select_holds (Affine.eq_holds h82 hm1 (by omega)) (lit 799) h82 (by omega)
  · exact Affine.select_fails (Affine.eq_fails h82 hm1 (by omega)) (lit 799) h82 (by omega)

theorem A19_isInt (hk : k < 800) : IsInt (A19 k) (k : ℤ) := Affine.ofNat _ ⟨by omega, by omega⟩
theorem A14_isInt (hk : k ≤ 800) : IsInt (A14 k) (k : ℤ) := Affine.ofNat _ ⟨rfl, by omega⟩
theorem A13_isInt : IsInt (A13 k) ((min (k + 1) 800 : ℕ) : ℤ) := Affine.ofNat _ ⟨rfl, by omega⟩
theorem A18_isInt (hk : k ≤ 800) : IsInt (A18 k) ((k - 1 : ℕ) : ℤ) := Affine.ofNat _ ⟨rfl, by omega⟩
/-- The induction word of trip `k` is `k`. -/
theorem iv_isInt (hk : k < 800) : IsInt (Scf.iv 0#32 1#32 k) (k : ℤ) := Affine.iv (lit 0) (lit 1) k (by omega)

/-- The current block is never the next one: the tile base added to both sides cancels, and
    `k ≠ k + 1`, `799 ≠ 0`. -/
theorem ne_next (L : grid0.Coords) (hw : IsInt w (k : ℤ)) (hk : k < 800) :
    Holds (Scalar.cmpi .ne (Scalar.addi w (baseW L)) (Scalar.addi (nextW w) (baseW L))) := by
  obtain ⟨h1, h0⟩ := coords_lt L
  have hb := baseW_isInt L
  have h80 : IsInt (Scalar.addi w (baseW L)) _ := Affine.addi hw hb ⟨rfl, by omega, by omega⟩
  have h90 : IsInt (Scalar.addi (nextW w) (baseW L)) _ := Affine.addi (nextW_isInt hw hk) hb ⟨rfl, by omega, by omega⟩
  exact Affine.ne_holds h80 h90 (by omega)

/-- Nor is it the previous one. -/
theorem ne_prev (L : grid0.Coords) (hw : IsInt w (k : ℤ)) (hk : k < 800) :
    Holds (Scalar.cmpi .ne (Scalar.addi w (baseW L)) (Scalar.addi (prevW w) (baseW L))) := by
  obtain ⟨h1, h0⟩ := coords_lt L
  have hb := baseW_isInt L
  have h80 : IsInt (Scalar.addi w (baseW L)) _ := Affine.addi hw hb ⟨rfl, by omega, by omega⟩
  have h85 : IsInt (Scalar.addi (prevW w) (baseW L)) _ := Affine.addi (prevW_isInt hw hk) hb ⟨rfl, by omega, by omega⟩
  exact Affine.ne_holds h80 h85 (by omega)

end

theorem trip_lt (k : Fin k0_t2_loop.trips) : k.val < 800 := by
  have := k.isLt; have e := trips_eq; omega

/-! ## Which conditional transfers run -/

/-- "Not yet the last trip": the guard of both prefetches and of the prefetch counters' increment. -/
theorem notLast_holds (k : Fin k0_t2_loop.trips) (h : k.val < 799) :
    Holds (Scalar.xori (Scalar.cmpi .sge (Scf.iv 0#32 1#32 k) 799#32) 1#1) :=
  Affine.xori_fh (Affine.sge_fails (iv_isInt (trip_lt k)) (lit 799) (by omega)) Affine.holds_one
theorem notLast_fails (k : Fin k0_t2_loop.trips) (h : k.val = 799) :
    Fails (Scalar.xori (Scalar.cmpi .sge (Scf.iv 0#32 1#32 k) 799#32) 1#1) :=
  Affine.xori_hh (Affine.sge_holds (iv_isInt (trip_lt k)) (lit 799) (by omega)) Affine.holds_one
/-- "Not the first trip": the guard of the wait for the previous copy out. -/
theorem notFirst_holds (k : Fin k0_t2_loop.trips) (h : 0 < k.val) :
    Holds (Scalar.xori (Scalar.cmpi .eq (Scf.iv 0#32 1#32 k) 0#32) 1#1) :=
  Affine.xori_fh (Affine.eq_fails (iv_isInt (trip_lt k)) (lit 0) (by omega)) Affine.holds_one
theorem notFirst_fails (k : Fin k0_t2_loop.trips) (h : k.val = 0) :
    Fails (Scalar.xori (Scalar.cmpi .eq (Scf.iv 0#32 1#32 k) 0#32) 1#1) :=
  Affine.xori_hh (Affine.eq_holds (iv_isInt (trip_lt k)) (lit 0) (by omega)) Affine.holds_one
/-- The induction word is never negative. -/
theorem nonneg_holds (k : Fin k0_t2_loop.trips) :
    Holds (Scalar.xori (Scalar.cmpi .slt (Scf.iv 0#32 1#32 k) 0#32) 1#1) :=
  Affine.xori_fh (Affine.slt_fails (iv_isInt (trip_lt k)) (lit 0) (by omega)) Affine.holds_one

variable (L : grid0.Coords) (k : Fin k0_t2_loop.trips)

/-- The prefetch of the next block of the first input runs in every trip but the last. -/
theorem cond1_lt (h : k.val < 799) : k0_cond1 L k (A19 k.val) = 1#1 :=
  (Scalar.guard_iff _).mpr (Affine.andi_holds (ne_next L (A19_isInt (trip_lt k)) (trip_lt k)) (notLast_holds k h))
theorem cond1_last (h : k.val = 799) : k0_cond1 L k (A19 k.val) ≠ 1#1 :=
  (Scalar.guard_iff _).not.mpr (Affine.andi_fails_right (Affine.tH (ne_next L (A19_isInt (trip_lt k)) (trip_lt k))) (notLast_fails k h))
/-- Likewise for the second input. -/
theorem cond2_lt (h : k.val < 799) : k0_cond2 L k (A19 k.val) = 1#1 :=
  (Scalar.guard_iff _).mpr (Affine.andi_holds (ne_next L (A19_isInt (trip_lt k)) (trip_lt k)) (notLast_holds k h))
theorem cond2_last (h : k.val = 799) : k0_cond2 L k (A19 k.val) ≠ 1#1 :=
  (Scalar.guard_iff _).not.mpr (Affine.andi_fails_right (Affine.tH (ne_next L (A19_isInt (trip_lt k)) (trip_lt k))) (notLast_fails k h))
/-- The waits for the current block of each input run in every trip. -/
theorem cond3_all : k0_cond3 L k (A19 k.val) = 1#1 :=
  (Scalar.guard_iff _).mpr (Affine.andi_holds
    (Affine.ori_holds_left (ne_prev L (A19_isInt (trip_lt k)) (trip_lt k)) trivial) (nonneg_holds k))
theorem cond4_all : k0_cond4 L k (A19 k.val) = 1#1 :=
  (Scalar.guard_iff _).mpr (Affine.andi_holds
    (Affine.ori_holds_left (ne_prev L (A19_isInt (trip_lt k)) (trip_lt k)) trivial) (nonneg_holds k))
/-- The copy out of the block just gathered starts in every trip. -/
theorem cond8_all : k0_cond8 L k (A19 k.val) = 1#1 :=
  (Scalar.guard_iff _).mpr (Affine.ori_holds_left (ne_next L (A19_isInt (trip_lt k)) (trip_lt k)) trivial)
/-- The wait for the previous block's copy out runs in every trip but the first. -/
theorem cond11_pos (h : 0 < k.val) : k0_cond11 L k (A19 k.val) = 1#1 :=
  (Scalar.guard_iff _).mpr (Affine.andi_holds (ne_prev L (A19_isInt (trip_lt k)) (trip_lt k)) (notFirst_holds k h))
theorem cond11_first (h : k.val = 0) : k0_cond11 L k (A19 k.val) ≠ 1#1 :=
  (Scalar.guard_iff _).not.mpr (Affine.andi_fails_right (Affine.tH (ne_prev L (A19_isInt (trip_lt k)) (trip_lt k))) (notFirst_fails k h))

/-! ## Where the transfers of a trip land

Block `B` of a tile's 800 is block `800 · T + B` of the whole array (`T` the tile number,
`subcore + 16 · core`), and starts at word (or row) 128 times that. -/

/-- Word `128 · (block index + tile base)`, read as a natural number. -/
theorem blockStart_toNat {w : BitVec 32} {b : ℕ} (hw : IsInt w (b : ℤ)) (hb : b < 800) :
    (Scalar.muli 128#32 (Scalar.addi w (baseW L))).toNat = 128 * (800 * ((L 1).val + 16 * (L 0).val) + b) := by
  obtain ⟨h1, h0⟩ := coords_lt L
  have h80 : IsInt (Scalar.addi w (baseW L)) _ := Affine.addi hw (baseW_isInt L) ⟨rfl, by omega, by omega⟩
  have hm : IsInt (Scalar.muli 128#32 (Scalar.addi w (baseW L))) _ := Affine.muli (lit 128) h80 ⟨rfl, by omega, by omega⟩
  exact Affine.nat_eq hm _ (by push_cast; omega)

/-- A block of 128 words of the flat input that starts at or before word 128 · 25599 is inside it. -/
theorem inb_flat {x : ℕ} (hx : x + 128 ≤ 3276800) : ∀ a, (![0, x] : Fin 2 → ℕ) a + S1x128.size a ≤ S1x3276800.size a := by
  intro a; fin_cases a
  · show 0 + 1 ≤ 1; omega
  · show x + 128 ≤ 3276800; omega
/-- Likewise a block of 128 rows of the result. -/
theorem inb_rows {x : ℕ} (hx : x + 128 ≤ 3276800) : ∀ a, (![x, 0] : Fin 2 → ℕ) a + S128x128.size a ≤ S3276800x128.size a := by
  intro a; fin_cases a
  · show x + 128 ≤ 3276800; omega
  · show 0 + 128 ≤ 128; omega

/-- The prefetch of trip `k < 799` reads block `k + 1` of the tile's share of the first input. -/
theorem off30_eq (h : k.val < 799) :
    k0_off30 L (A19 k.val) = ![0, 128 * (800 * ((L 1).val + 16 * (L 0).val) + k.val + 1)] := by
  have hn := blockStart_toNat L (nextW_isInt (A19_isInt (trip_lt k)) (trip_lt k)) (Nat.mod_lt _ (by omega))
  show ![0, (Scalar.muli 128#32 (Scalar.addi (nextW (A19 k.val)) (baseW L))).toNat] = _
  rw [hn, Nat.mod_eq_of_lt (by omega)]; rfl
theorem off33_eq (h : k.val < 799) :
    k0_off33 L (A19 k.val) = ![0, 128 * (800 * ((L 1).val + 16 * (L 0).val) + k.val + 1)] := off30_eq L k h
/-- The wait of trip `k` is for block `k` of each input. -/
theorem off36_eq : k0_off36 L (A19 k.val) = ![0, 128 * (800 * ((L 1).val + 16 * (L 0).val) + k.val)] := by
  have hn := blockStart_toNat L (A19_isInt (trip_lt k)) (trip_lt k)
  show ![0, (Scalar.muli 128#32 (Scalar.addi (A19 k.val) (baseW L))).toNat] = _
  rw [hn]
theorem off39_eq : k0_off39 L (A19 k.val) = ![0, 128 * (800 * ((L 1).val + 16 * (L 0).val) + k.val)] := off36_eq L k
/-- The copy out of trip `k` writes block `k` of the tile's share of the result. -/
theorem off45_eq : k0_off45 L (A19 k.val) = ![128 * (800 * ((L 1).val + 16 * (L 0).val) + k.val), 0] := by
  have hn := blockStart_toNat L (A19_isInt (trip_lt k)) (trip_lt k)
  show ![(Scalar.muli 128#32 (Scalar.addi (A19 k.val) (baseW L))).toNat, 0] = _
  rw [hn]
/-- The wait of trip `k > 0` is for the copy out of block `k − 1`. -/
theorem off48_eq (h : 0 < k.val) :
    k0_off48 L (A19 k.val) = ![128 * (800 * ((L 1).val + 16 * (L 0).val) + k.val - 1), 0] := by
  have hn := blockStart_toNat L (prevW_isInt (A19_isInt (trip_lt k)) (trip_lt k)) (Nat.mod_lt _ (by omega))
  show ![(Scalar.muli 128#32 (Scalar.addi (prevW (A19 k.val)) (baseW L))).toNat, 0] = _
  have hk := trip_lt k
  rw [hn]; congr 2; omega
/-- After the loop the block index has wrapped to 0, and the block before it is the last one. -/
theorem off51_eq : k0_off51 L 0#32 = ![128 * (800 * ((L 1).val + 16 * (L 0).val) + 799), 0] := by
  have hn := blockStart_toNat L (prevW_isInt (k := 0) (lit 0) (by omega)) (Nat.mod_lt _ (by omega))
  show ![(Scalar.muli 128#32 (Scalar.addi (prevW 0#32) (baseW L))).toNat, 0] = _
  rw [hn]

/-! ### … and that they land inside the arrays

Whatever block index below 800 the wrap-around produces, block `800 · T + B` is one of the
25600 blocks, so these hold at every trip, whether or not the transfer runs. -/

theorem off30_inb : ∀ a, (k0_off30 L (A19 k.val)) a + S1x128.size a ≤ S1x3276800.size a := by
  obtain ⟨h1, h0⟩ := coords_lt L
  have hn := blockStart_toNat L (nextW_isInt (A19_isInt (trip_lt k)) (trip_lt k)) (Nat.mod_lt _ (by omega))
  have hlt : (k.val + 1) % 800 < 800 := Nat.mod_lt _ (by omega)
  exact inb_flat (x := (Scalar.muli 128#32 (Scalar.addi (nextW (A19 k.val)) (baseW L))).toNat) (by omega)
theorem off33_inb : ∀ a, (k0_off33 L (A19 k.val)) a + S1x128.size a ≤ S1x3276800.size a := off30_inb L k
theorem off36_inb : ∀ a, (k0_off36 L (A19 k.val)) a + S1x128.size a ≤ S1x3276800.size a := by
  obtain ⟨h1, h0⟩ := coords_lt L
  have hn := blockStart_toNat L (A19_isInt (trip_lt k)) (trip_lt k)
  have hk := trip_lt k
  exact inb_flat (x := (Scalar.muli 128#32 (Scalar.addi (A19 k.val) (baseW L))).toNat) (by omega)
theorem off39_inb : ∀ a, (k0_off39 L (A19 k.val)) a + S1x128.size a ≤ S1x3276800.size a := off36_inb L k
theorem off45_inb : ∀ a, (k0_off45 L (A19 k.val)) a + S128x128.size a ≤ S3276800x128.size a := by
  obtain ⟨h1, h0⟩ := coords_lt L
  have hn := blockStart_toNat L (A19_isInt (trip_lt k)) (trip_lt k)
  have hk := trip_lt k
  exact inb_rows (x := (Scalar.muli 128#32 (Scalar.addi (A19 k.val) (baseW L))).toNat) (by omega)
theorem off48_inb : ∀ a, (k0_off48 L (A19 k.val)) a + S128x128.size a ≤ S3276800x128.size a := by
  obtain ⟨h1, h0⟩ := coords_lt L
  have hn := blockStart_toNat L (prevW_isInt (A19_isInt (trip_lt k)) (trip_lt k)) (Nat.mod_lt _ (by omega))
  have hlt : (k.val + 799) % 800 < 800 := Nat.mod_lt _ (by omega)
  exact inb_rows (x := (Scalar.muli 128#32 (Scalar.addi (prevW (A19 k.val)) (baseW L))).toNat) (by omega)

/-! ## The side conditions the program states at each trip, and after the loop -/

theorem chk1_at : k0_chk1 L k (A13 k.val) (A14 k.val) (A13 k.val) (A14 k.val) (A14 k.val) (A18 k.val) (A19 k.val) :=
  ⟨fun _ => off29_inb _, fun _ => off30_inb L k, fun _ => off31_inb _,
   fun _ => off32_inb _, fun _ => off33_inb L k, fun _ => off34_inb _,
   fun _ => off35_inb _, fun _ => off36_inb L k, fun _ => off37_inb _,
   fun _ => off38_inb _, fun _ => off39_inb L k, fun _ => off40_inb _,
   fun _ => off44_inb _, fun _ => off45_inb L k, fun _ => off46_inb _,
   fun _ => off47_inb _, fun _ => off48_inb L k, fun _ => off49_inb _⟩

theorem chk6_end : k0_chk6 L 0#32 := by
  obtain ⟨h1, h0⟩ := coords_lt L
  have hn := blockStart_toNat L (prevW_isInt (k := 0) (lit 0) (by omega)) (Nat.mod_lt _ (by omega))
  exact inb_rows (x := (Scalar.muli 128#32 (Scalar.addi (prevW 0#32) (baseW L))).toNat) (by omega)

/-! ## One trip's update of the carried counters

The seven definitions below are the program's own lines for the values a trip yields, in the
program's operations, over the trip's induction word `Scf.iv 0 1 k`, the tile base and the carried
words they read.  Each theorem says that at the closed forms of trip `k` the line yields the closed
form of trip `k + 1`. -/

/-- Next count of prefetches of the first input: one more unless this is the last trip. -/
def nxt13 (L : grid0.Coords) (k : Fin k0_t2_loop.trips) (a13 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v96 : BitVec 1 := Scalar.cmpi .ne v80 v90
  let v97 : BitVec 1 := Scalar.cmpi .sge arg12 799#32
  let v98 : BitVec 1 := Scalar.xori v97 1#1
  let v99 : BitVec 1 := Scalar.andi v96 v98
  let v102 : BitVec 1 := Scalar.andi v99 1#1
  let v103 : BitVec 32 := Scalar.addi a13 1#32
  Scalar.select v102 v103 a13

/-- Next count of prefetches of the second input: the same rule, written again by the program. -/
def nxt15 (L : grid0.Coords) (k : Fin k0_t2_loop.trips) (a15 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v105 : BitVec 1 := Scalar.cmpi .ne v80 v90
  let v106 : BitVec 1 := Scalar.cmpi .sge arg12 799#32
  let v107 : BitVec 1 := Scalar.xori v106 1#1
  let v108 : BitVec 1 := Scalar.andi v105 v107
  let v111 : BitVec 1 := Scalar.andi v108 1#1
  let v112 : BitVec 32 := Scalar.addi a15 1#32
  Scalar.select v111 v112 a15

/-- Next count of blocks of the first input consumed: always one more. -/
def nxt14 (L : grid0.Coords) (k : Fin k0_t2_loop.trips) (a14 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v79 : BitVec 1 := Scalar.cmpi .eq arg12 799#32
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v323 : BitVec 1 := Scalar.cmpi .ne v80 v90
  let v324 : BitVec 1 := Scalar.ori v323 v79
  let v325 : BitVec 32 := Scalar.addi a14 1#32
  Scalar.select v324 v325 a14

/-- Next count of blocks of the second input consumed: the same line over its own counter. -/
def nxt16 (L : grid0.Coords) (k : Fin k0_t2_loop.trips) (a16 a19 : BitVec 32) : BitVec 32 := nxt14 L k a16 a19

/-- Next count of result blocks produced: always one more. -/
def nxt17 (L : grid0.Coords) (k : Fin k0_t2_loop.trips) (a17 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v79 : BitVec 1 := Scalar.cmpi .eq arg12 799#32
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v296 : BitVec 1 := Scalar.cmpi .ne v80 v90
  let v297 : BitVec 1 := Scalar.ori v296 v79
  let v300 : BitVec 1 := Scalar.andi v297 1#1
  let v301 : BitVec 32 := Scalar.addi a17 1#32
  Scalar.select v300 v301 a17

/-- Next count of copies out waited for: one more unless this is the first trip. -/
def nxt18 (L : grid0.Coords) (k : Fin k0_t2_loop.trips) (a18 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v78 : BitVec 1 := Scalar.cmpi .eq arg12 0#32
  let v80 : BitVec 32 := Scalar.addi a19 v6
  let v81 : BitVec 32 := Scalar.subi a19 1#32
  let v82 : BitVec 32 := Scalar.select 1#1 v81 a19
  let v83 : BitVec 1 := Scalar.cmpi .eq v82 4294967295#32
  let v84 : BitVec 32 := Scalar.select v83 799#32 v82
  let v85 : BitVec 32 := Scalar.addi v84 v6
  let v315 : BitVec 1 := Scalar.cmpi .ne v80 v85
  let v316 : BitVec 1 := Scalar.xori v78 1#1
  let v317 : BitVec 1 := Scalar.andi v315 v316
  let v320 : BitVec 1 := Scalar.andi v317 1#1
  let v321 : BitVec 32 := Scalar.addi a18 1#32
  Scalar.select v320 v321 a18

/-- Next block index: one more, wrapping from 799 to 0. -/
def nxt19 (a19 : BitVec 32) : BitVec 32 :=
  let v331 : BitVec 32 := Scalar.addi a19 1#32
  let v332 : BitVec 32 := Scalar.select 1#1 v331 a19
  let v333 : BitVec 1 := Scalar.cmpi .eq v332 800#32
  Scalar.select v333 0#32 v332

theorem nxt13_eq : nxt13 L k (A13 k.val) (A19 k.val) = A13 (k.val + 1) := by
  have hk := trip_lt k
  have hne := ne_next L (A19_isInt hk) hk
  have h13 : IsInt (A13 k.val) _ := A13_isInt
  have h103 : IsInt (Scalar.addi (A13 k.val) 1#32) _ := Affine.addi h13 (lit 1) ⟨rfl, by omega, by omega⟩
  by_cases hl : k.val < 799
  · exact eq_of_isInt (Affine.select_holds (Affine.andi_holds (Affine.andi_holds hne (notLast_holds k hl)) Affine.holds_one)
      h103 h13 rfl) (Affine.ofNat _ ⟨by omega, by omega⟩)
  · exact eq_of_isInt (Affine.select_fails (Affine.andi_fails_left
      (Affine.andi_fails_right (Affine.tH hne) (notLast_fails k (by omega))) trivial) h103 h13 rfl)
      (Affine.ofNat _ ⟨by omega, by omega⟩)

theorem nxt15_eq : nxt15 L k (A13 k.val) (A19 k.val) = A13 (k.val + 1) := nxt13_eq L k

theorem nxt14_eq : nxt14 L k (A14 k.val) (A19 k.val) = A14 (k.val + 1) := by
  have hk := trip_lt k
  have hne := ne_next L (A19_isInt hk) hk
  have h14 : IsInt (A14 k.val) _ := A14_isInt (by omega)
  have h325 : IsInt (Scalar.addi (A14 k.val) 1#32) _ := Affine.addi h14 (lit 1) ⟨rfl, by omega, by omega⟩
  exact eq_of_isInt (Affine.select_holds (Affine.ori_holds_left hne trivial) h325 h14 rfl)
    (Affine.ofNat _ ⟨by omega, by omega⟩)

theorem nxt16_eq : nxt16 L k (A14 k.val) (A19 k.val) = A14 (k.val + 1) := nxt14_eq L k

theorem nxt17_eq : nxt17 L k (A14 k.val) (A19 k.val) = A14 (k.val + 1) := by
  have hk := trip_lt k
  have hne := ne_next L (A19_isInt hk) hk
  have h14 : IsInt (A14 k.val) _ := A14_isInt (by omega)
  have h301 : IsInt (Scalar.addi (A14 k.val) 1#32) _ := Affine.addi h14 (lit 1) ⟨rfl, by omega, by omega⟩
  exact eq_of_isInt (Affine.select_holds (Affine.andi_holds (Affine.ori_holds_left hne trivial) Affine.holds_one) h301 h14 rfl)
    (Affine.ofNat _ ⟨by omega, by omega⟩)

theorem nxt18_eq : nxt18 L k (A18 k.val) (A19 k.val) = A18 (k.val + 1) := by
  have hk := trip_lt k
  have hne := ne_prev L (A19_isInt hk) hk
  have h18 : IsInt (A18 k.val) _ := A18_isInt (by omega)
  have h321 : IsInt (Scalar.addi (A18 k.val) 1#32) _ := Affine.addi h18 (lit 1) ⟨rfl, by omega, by omega⟩
  by_cases hz : 0 < k.val
  · exact eq_of_isInt (Affine.select_holds (Affine.andi_holds (Affine.andi_holds hne (notFirst_holds k hz)) Affine.holds_one)
      h321 h18 rfl) (Affine.ofNat _ ⟨by omega, by omega⟩)
  · exact eq_of_isInt (Affine.select_fails (Affine.andi_fails_left
      (Affine.andi_fails_right (Affine.tH hne) (notFirst_fails k (by omega))) trivial) h321 h18 rfl)
      (Affine.ofNat _ ⟨by omega, by omega⟩)

theorem nxt19_eq : nxt19 (A19 k.val) = A19 (k.val + 1) := by
  have hk := trip_lt k
  exact eq_of_isInt (nextW_isInt (A19_isInt hk) hk) (Affine.ofNat _ ⟨by omega, by omega⟩)

/-- The loop's initial values are the closed forms at trip 0 … -/
theorem A_init : (A13 0, A14 0, A13 0, A14 0, A14 0, A18 0, A19 0) = ((1#32, 0#32, 1#32, 0#32, 0#32, 0#32, 0#32) : BitVec 32 × BitVec 32 × BitVec 32 × BitVec 32 × BitVec 32 × BitVec 32 × BitVec 32) := rfl
/-- … and after the last trip the block index is back at zero, which is what the final wait reads. -/
theorem A19_end : A19 800 = 0#32 := rfl

end Cert.KernelIdeal.Hand
-- ==== Proof.PipeIface.lean ====
/-
  The seam between the two halves of a tile's task. The first half builds the tile's rows of the table and meets the
  other tiles at the barrier; the second half is the pipeline: fetch the first block's words, 800 trips of
  (prefetch, wait, form the index words, gather, copy out, wait for the previous copy), and the wait for the last copy.
  Here: the second half as a program of its own, the check that the kernel is the first half followed by it, and what
  the second half does, as a statement.
-/
import proofs.«204352_g17334488006705_cont_7to1_713_23_alg».proof.Proof.Common
import proofs.«204352_g17334488006705_cont_7to1_713_23_alg».proof.Proof.TileOpen
import proofs.«204352_g17334488006705_cont_7to1_713_23_alg».proof.Proof.PipeWords

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-- The task after its table part: from the words `v6` (the tile's first block number) … that the table part returns. -/
def tailProg (L : grid0.Coords) (v6 v10_r3 : BitVec 32) (true_9_r3 : BitVec 1) (c0_i32_10_r3 : BitVec 32) :
    Prog (TpuEff nD τ sig (Elt F) Λ₀ (.scVector ((L 0).castLE hcore0) ((L 1).castLE hsub0))) PUnit := do
  let ⟨v34_r3, c0_i32_36_r3⟩ : Σ' (v34_r3 : BitVec 32), BitVec 32 ← k0_part11 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 v6 v10_r3 true_9_r3 c0_i32_10_r3
  let ⟨v47_5_r3, v47_6_r3, k0_hw6, k0_hw5⟩ : Σ' (v47_5_r3 : BitVec 32) (v47_6_r3 : BitVec 32) (k0_hw6 : k0_chk6 L v47_6_r3), k0_chk5 v47_5_r3 ← k0_part12 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 v6 v34_r3 c0_i32_36_r3
  let v73_r3 : DmaSems sig S1 := cc0_scoped8.slice (Rect.unit (s := S2) (k0_off52 v47_5_r3) S1.size (k0_off52_inb v47_5_r3 k0_hw5))
  let v74_r3 : DmaSems sig S_ := v73_r3.squeeze S_ squeezes_S1_S_
  let v75_r3 : Memref sig .scVector .hbm S128x128 .f32 := (oV).slice (Rect.unit (s := S3276800x128) (k0_off51 L v47_6_r3) S128x128.size (k0_off51_inb L v47_6_r3 k0_hw6)) (fun _ => rfl)
  let v76_r3 : Memref sig .scVector .vmem S1x128x128 .f32 := (stgV).slice (Rect.unit (s := S2x128x128) (k0_off53 v47_5_r3) S1x128x128.size (k0_off53_inb v47_5_r3 k0_hw5)) (fun _ => rfl)
  let v77_r3 : Memref sig .scVector .vmem S128x128 .f32 := v76_r3.squeeze S128x128 squeezes_S1x128x128_S128x128
  Prog.lift (.waitDma2 v74_r3.sem v77_r3 v75_r3 ((View.wordExact_bits rfl).reshape _ _) (View.wordExact_bits rfl))
  pure ⟨⟩

set_option maxRecDepth 65536 in
/-- The kernel is its table part followed by the tail. -/
theorem taskProg_eq_tail (L : grid0.Coords) :
    taskProg (F := F) L = (k0_part10 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9) >>= fun r => tailProg (F := F) L r.1 r.2.1 r.2.2.1 r.2.2.2 := rfl

/-- The words the table part returns: the tile's first block number `800 · t`, as the program computes it. -/
abbrev firstBlk (L : grid0.Coords) : BitVec 32 :=
  Scalar.muli (Scalar.addi (Scalar.addi 0#32 (Scalar.muli (BitVec.ofNat 32 (L 1).val) 1#32)) (Scalar.muli (BitVec.ofNat 32 (L 0).val) 16#32)) 800#32

/-- What the pipeline does: from the read shares of the flattened words, the tile's 800 blocks of the result at any
    contents, the index list, the three two-slot staging buffers, the seven semaphores it uses at zero and a read share
    of the whole table, right — to the 800 blocks at their final contents, the staging storage and semaphores back. -/
def PipeSpec (hx0 : ∀ j, (X0v d j).toNat ≤ 59) (hx1 : ∀ j, (X1v d j).toNat ≤ 59) : Prop :=
  ∀ (g : Buf (Elt F) (shLoc d (cV L))) (_hg : ∀ R : Fin 4608, TabOK (F := F) (m (a1Loc d)) (m (a2Loc d)) g R)
    (O : CellTallies nD τ sig (HIx 1)) (W1 : Waits sig (HIx 1)),
    iprop(Transfers.MayWaits (thr d L) (default : HIx 1) O
        ∗ ((x0V).view.loc (thr d L) ↦{inTok (tL L)} (X0v d : Buf (Elt F) (x0Loc d)))
        ∗ ((x1V).view.loc (thr d L) ↦{inTok (tL L)} (X1v d : Buf (Elt F) (x1Loc d)))
        ∗ oBlksAny (F := F) d (tL L)
        ∗ (∃ f, (idxV).view.loc (thr d L) ↦{fullShare} f) ∗ (∃ f, (w0V).view.loc (thr d L) ↦{fullShare} f)
        ∗ (∃ f, (w1V).view.loc (thr d L) ↦{fullShare} f) ∗ (∃ f, (stgV).view.loc (thr d L) ↦{fullShare} f)
        ∗ semVal (dcell d L ⟨3, by decide⟩) 0 ∗ semVal (dcell d L ⟨4, by decide⟩) 0 ∗ semVal (dcell d L ⟨5, by decide⟩) 0
        ∗ semVal (dcell d L ⟨6, by decide⟩) 0 ∗ semVal (dcell d L ⟨7, by decide⟩) 0 ∗ semVal (dcell d L ⟨8, by decide⟩) 0
        ∗ semVal (dcell d L ⟨9, by decide⟩) 0
        ∗ ((shV).view.loc (thr d L) ↦{shTok (jL L)} g)
        ∗ owes (thr d L) O W1)
      ⊢ wp frame (wpE (defs₀ (F := F)) 𝒱₀ (thr d L) none) Set.univ (tailProg (F := F) L (firstBlk L) (Scalar.addi 0#32 (firstBlk L)) 1#1 0#32)
          fun _ => iprop(oBlksDone m X0v X1v d (tL L)
            ∗ (∃ f, (idxV).view.loc (thr d L) ↦{fullShare} f) ∗ (∃ f, (w0V).view.loc (thr d L) ↦{fullShare} f)
            ∗ (∃ f, (w1V).view.loc (thr d L) ↦{fullShare} f) ∗ (∃ f, (stgV).view.loc (thr d L) ↦{fullShare} f)
            ∗ semVal (dcell d L ⟨3, by decide⟩) 0 ∗ semVal (dcell d L ⟨4, by decide⟩) 0 ∗ semVal (dcell d L ⟨5, by decide⟩) 0
            ∗ semVal (dcell d L ⟨6, by decide⟩) 0 ∗ semVal (dcell d L ⟨7, by decide⟩) 0 ∗ semVal (dcell d L ⟨8, by decide⟩) 0
            ∗ semVal (dcell d L ⟨9, by decide⟩) 0
            ∗ (∃ g', (shV).view.loc (thr d L) ↦{shTok (jL L)} g')
            ∗ ∃ W', ⌜∀ p ∈ W', p ∈ W1 ∨ p.2 = none⌝ ∗ owes (thr d L) O W')

end Cert.KernelIdeal.Hand
end
-- ==== Proof.SlotSplit.lean ====
/-
  The two slots of a double buffer.

  The pipeline's three staging buffers (hour words, minute words, result blocks) have shape `[2, n₁, n₂]`: two slots,
  used in turn. A buffer held whole splits into its two slots, and the two slots, each at whatever contents its last use
  left, join back into the buffer whole. Both follow from one fact about index sets: an element is in slot `s % 2`
  exactly when its leading coordinate is `s % 2`, so the slots of two consecutive numbers are disjoint and cover the
  buffer.
-/
import proofs.«204352_g17334488006705_cont_7to1_713_23_alg».proof.Proof.Common
import proofs.«204352_g17334488006705_cont_7to1_713_23_alg».proof.Proof.TileOpen

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Slots, named by offsets -/

/-- Slot `off` of a two-slot word buffer, and of the two-slot staging buffer of result blocks. -/
abbrev wSlot (M : Memref sig .scVector .vmem S2x1x128 .i32) (off : Fin 3 → Nat) (h : ∀ a, off a + S1x1x128.size a ≤ S2x1x128.size a) :
    Memref sig .scVector .vmem S1x1x128 .i32 :=
  M.slice (Rect.unit (s := S2x1x128) off S1x1x128.size h) (fun _ => rfl)
abbrev sSlot (off : Fin 3 → Nat) (h : ∀ a, off a + S1x128x128.size a ≤ S2x128x128.size a) : Memref sig .scVector .vmem S1x128x128 .f32 :=
  (stgV).slice (Rect.unit (s := S2x128x128) off S1x128x128.size h) (fun _ => rfl)

/-- The offsets of slot `s % 2` of a two-slot buffer. -/
abbrev slot3 (s : ℕ) : Fin 3 → Nat := ![s % 2, 0, 0]

/-- A slot of a `[2, n₁, n₂]` buffer is in range. -/
theorem slot3_inb (n₁ n₂ : ℕ) (s : ℕ) : ∀ a, slot3 s a + (![1, n₁, n₂] : Fin 3 → Nat) a ≤ (![2, n₁, n₂] : Fin 3 → Nat) a := by
  have := Nat.mod_lt s (show 0 < 2 by norm_num)
  intro a
  match a with
  | ⟨0, _⟩ => show s % 2 + 1 ≤ 2; omega
  | ⟨1, _⟩ => show 0 + n₁ ≤ n₁; omega
  | ⟨2, _⟩ => show 0 + n₂ ≤ n₂; omega

theorem slot3_inb_w (s : ℕ) : ∀ a, slot3 s a + S1x1x128.size a ≤ S2x1x128.size a := slot3_inb 1 128 s
theorem slot3_inb_s (s : ℕ) : ∀ a, slot3 s a + S1x128x128.size a ≤ S2x128x128.size a := slot3_inb 128 128 s

/-- Slot `s % 2` of a word buffer, and of the staging buffer. -/
abbrev wSlotC (M : Memref sig .scVector .vmem S2x1x128 .i32) (s : ℕ) : Memref sig .scVector .vmem S1x1x128 .i32 := wSlot M (slot3 s) (slot3_inb_w s)
abbrev sSlotC (s : ℕ) : Memref sig .scVector .vmem S1x128x128 .f32 := sSlot (slot3 s) (slot3_inb_s s)

/-! ## The two slots partition the buffer

An element of a `[2, n₁, n₂]` buffer lies in slot `s % 2` exactly when its leading coordinate is `s % 2`. Consecutive
numbers have different parities, so slots `s` and `s + 1` share no element; a leading coordinate below 2 is one of the two
parities, so together they are the whole buffer. -/

/-- The rectangle of slot `s % 2`. -/
abbrev slotRect (n₁ n₂ : ℕ) (s : ℕ) : Rect (⟨3, ![2, n₁, n₂]⟩ : Shape) :=
  Rect.unit (s := ⟨3, ![2, n₁, n₂]⟩) (slot3 s) ![1, n₁, n₂] (slot3_inb n₁ n₂ s)

theorem mem_slotRect {n₁ n₂ : ℕ} (s : ℕ) (i : (⟨3, ![2, n₁, n₂]⟩ : Shape).Idx) :
    i ∈ (slotRect n₁ n₂ s).set ↔ (i 0).val = s % 2 := by
  rw [LoadRect.mem_set]
  constructor
  · intro H
    obtain ⟨j, hj, e⟩ := H 0
    have hj' : j < 1 := hj
    have e' : (i 0).val = s % 2 + 1 * j := e
    omega
  · intro e a
    match a with
    | ⟨0, _⟩ => exact ⟨0, Nat.one_pos, by show (i 0).val = s % 2 + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem slotRect_disjoint (n₁ n₂ : ℕ) (s : ℕ) : Disjoint (slotRect n₁ n₂ s).set (slotRect n₁ n₂ (s + 1)).set := by
  rw [Finset.disjoint_left]
  intro i h₀ h₁
  rw [mem_slotRect] at h₀ h₁
  omega

theorem slotRect_cover (n₁ n₂ : ℕ) (s : ℕ) : (slotRect n₁ n₂ s).set ∪ (slotRect n₁ n₂ (s + 1)).set = Finset.univ := by
  ext i
  simp only [Finset.mem_union, mem_slotRect, Finset.mem_univ, iff_true]
  have : (i 0).val < 2 := (i 0).isLt
  omega

/-! ## Splitting and joining along two sets that partition a buffer -/

section TwoSets
variable {ℓ : Loc nD τ sig} {A B : Finset (Idx ℓ)}

theorem pts_split2 (hd : Disjoint A B) (hc : A ∪ B = Finset.univ) (q : PosShare TreeShare) (f : Buf (Elt F) ℓ) :
    (ℓ ↦{q} f : sProp 𝕄) ⊢ iprop((ℓ ↦[A]{q} f) ∗ ℓ ↦[B]{q} f) := by
  rw [← hc]
  exact (pointsTo_union hd).1

theorem pts_join2 (hd : Disjoint A B) (hc : A ∪ B = Finset.univ) (q : PosShare TreeShare) :
    iprop((∃ f, ℓ ↦[A]{q} f) ∗ (∃ g, ℓ ↦[B]{q} g)) ⊢ (iprop(∃ f, ℓ ↦{q} f) : sProp 𝕄) := by
  iintro ⟨⟨%f, Hf⟩, ⟨%g, Hg⟩⟩
  iexists (B.piecewise g f)
  rw [← hc]
  iapply (pointsTo_join hd)
  isplitl [Hf]
  · iexact Hf
  · iexact Hg

end TwoSets

/-! ## The three double buffers -/

/-- The slots' element sets of the word buffer `w0V`. -/
theorem set_w0 (s : ℕ) : (wSlotC w0V s).view.set = (slotRect 1 128 s).set := by
  show (((w0V).view.slice (slotRect 1 128 s))).set = _
  simp only [Memref.view_whole, View.set_slice_whole]

/-- The buffer whole is its slots `s` and `s + 1`, at the same contents. -/
theorem split_w0 (d : Dev nD) (L : grid0.Coords) (s : ℕ) (f : Buf (Elt F) ((w0V).view.loc (thr d L))) :
    ((w0V).view.loc (thr d L) ↦{fullShare} f : sProp 𝕄)
      ⊢ iprop(((wSlotC w0V s).view.loc (thr d L) ↦[(wSlotC w0V s).view.set]{fullShare} f)
          ∗ ((wSlotC w0V (s + 1)).view.loc (thr d L) ↦[(wSlotC w0V (s + 1)).view.set]{fullShare} f)) := by
  rw [set_w0, set_w0]
  exact pts_split2 (ℓ := (w0V).view.loc (thr d L)) (slotRect_disjoint 1 128 s) (slotRect_cover 1 128 s) fullShare f

/-- The slots `s` and `s + 1`, each at some contents, are the buffer whole at some contents. -/
theorem join_w0 (d : Dev nD) (L : grid0.Coords) (s : ℕ) :
    iprop((∃ f, (wSlotC w0V s).view.loc (thr d L) ↦[(wSlotC w0V s).view.set]{fullShare} f)
        ∗ (∃ f, (wSlotC w0V (s + 1)).view.loc (thr d L) ↦[(wSlotC w0V (s + 1)).view.set]{fullShare} f))
      ⊢ (iprop(∃ f, (w0V).view.loc (thr d L) ↦{fullShare} f) : sProp 𝕄) := by
  rw [set_w0, set_w0]
  exact pts_join2 (ℓ := (w0V).view.loc (thr d L)) (slotRect_disjoint 1 128 s) (slotRect_cover 1 128 s) fullShare

/-- The slots' element sets of the word buffer `w1V`. -/
theorem set_w1 (s : ℕ) : (wSlotC w1V s).view.set = (slotRect 1 128 s).set := by
  show (((w1V).view.slice (slotRect 1 128 s))).set = _
  simp only [Memref.view_whole, View.set_slice_whole]

/-- The buffer whole is its slots `s` and `s + 1`, at the same contents. -/
theorem split_w1 (d : Dev nD) (L : grid0.Coords) (s : ℕ) (f : Buf (Elt F) ((w1V).view.loc (thr d L))) :
    ((w1V).view.loc (thr d L) ↦{fullShare} f : sProp 𝕄)
      ⊢ iprop(((wSlotC w1V s).view.loc (thr d L) ↦[(wSlotC w1V s).view.set]{fullShare} f)
          ∗ ((wSlotC w1V (s + 1)).view.loc (thr d L) ↦[(wSlotC w1V (s + 1)).view.set]{fullShare} f)) := by
  rw [set_w1, set_w1]
  exact pts_split2 (ℓ := (w1V).view.loc (thr d L)) (slotRect_disjoint 1 128 s) (slotRect_cover 1 128 s) fullShare f

/-- The slots `s` and `s + 1`, each at some contents, are the buffer whole at some contents. -/
theorem join_w1 (d : Dev nD) (L : grid0.Coords) (s : ℕ) :
    iprop((∃ f, (wSlotC w1V s).view.loc (thr d L) ↦[(wSlotC w1V s).view.set]{fullShare} f)
        ∗ (∃ f, (wSlotC w1V (s + 1)).view.loc (thr d L) ↦[(wSlotC w1V (s + 1)).view.set]{fullShare} f))
      ⊢ (iprop(∃ f, (w1V).view.loc (thr d L) ↦{fullShare} f) : sProp 𝕄) := by
  rw [set_w1, set_w1]
  exact pts_join2 (ℓ := (w1V).view.loc (thr d L)) (slotRect_disjoint 1 128 s) (slotRect_cover 1 128 s) fullShare

/-- The slots' element sets of the staging buffer. -/
theorem set_stg (s : ℕ) : (sSlotC s).view.set = (slotRect 128 128 s).set := by
  show (((stgV).view.slice (slotRect 128 128 s))).set = _
  simp only [Memref.view_whole, View.set_slice_whole]

/-- The buffer whole is its slots `s` and `s + 1`, at the same contents. -/
theorem split_stg (d : Dev nD) (L : grid0.Coords) (s : ℕ) (f : Buf (Elt F) ((stgV).view.loc (thr d L))) :
    ((stgV).view.loc (thr d L) ↦{fullShare} f : sProp 𝕄)
      ⊢ iprop(((sSlotC s).view.loc (thr d L) ↦[(sSlotC s).view.set]{fullShare} f)
          ∗ ((sSlotC (s + 1)).view.loc (thr d L) ↦[(sSlotC (s + 1)).view.set]{fullShare} f)) := by
  rw [set_stg, set_stg]
  exact pts_split2 (ℓ := (stgV).view.loc (thr d L)) (slotRect_disjoint 128 128 s) (slotRect_cover 128 128 s) fullShare f

/-- The slots `s` and `s + 1`, each at some contents, are the buffer whole at some contents. -/
theorem join_stg (d : Dev nD) (L : grid0.Coords) (s : ℕ) :
    iprop((∃ f, (sSlotC s).view.loc (thr d L) ↦[(sSlotC s).view.set]{fullShare} f)
        ∗ (∃ f, (sSlotC (s + 1)).view.loc (thr d L) ↦[(sSlotC (s + 1)).view.set]{fullShare} f))
      ⊢ (iprop(∃ f, (stgV).view.loc (thr d L) ↦{fullShare} f) : sProp 𝕄) := by
  rw [set_stg, set_stg]
  exact pts_join2 (ℓ := (stgV).view.loc (thr d L)) (slotRect_disjoint 128 128 s) (slotRect_cover 128 128 s) fullShare

end Cert.KernelIdeal.Hand

end
-- ==== Proof.WordsLand.lean ====
/-
  What a prefetch leaves in a word slot. A pipeline trip copies a window of 128 consecutive words of a flat row of
  3276800 words into one of the two slots of a 2 × 1 × 128 buffer. The slot is addressed as the 1 × 1 × 128 block at
  offset (s, 0, 0), its leading axis squeezed away; the window as the 1 × 128 block at offset (0, c). Reading the buffer
  after the copy at (s, 0, lane) gives the row's word at position c + lane: the slot's index (0, lane) sits at
  (s, 0, lane) in the buffer, the copy puts there what the window reads at (0, lane), and the window's (0, lane) sits at
  (0, c + lane) in the row. The other slot keeps what it held.
-/
import proofs.«204352_g17334488006705_cont_7to1_713_23_alg».proof.Proof.Common

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## Where the slot's and the window's indices sit -/

/-- The squeeze matches the slot's `(0, lane)` with the block's `(0, 0, lane)`: both are at row-major position `lane`. -/
theorem squeeze_lane (h : S1x128.numel = S1x1x128.numel) (lane : Fin 128) :
    Shape.reshapeEquiv h (ix2 (0 : Fin 1) lane) = ix3 (0 : Fin 1) (0 : Fin 1) lane :=
  Shape.reshapeEquiv_eq_of_rowMajor h (by
    show ((⟨3, ![1, 1, 128]⟩ : Shape).rowMajor (ix3 (0 : Fin 1) (0 : Fin 1) lane)).val = ((⟨2, ![1, 128]⟩ : Shape).rowMajor (ix2 (0 : Fin 1) lane)).val
    rw [Shape.rowMajor_val_three, Shape.rowMajor_val_two]; simp)

/-- Slot `s`'s index `(0, lane)` sits at `(s, 0, lane)` of the two-slot buffer. -/
theorem slot0_emb (o3 : Fin S2x1x128.rank → ℕ) (h3 : ∀ a, o3 a + S1x1x128.size a ≤ S2x1x128.size a)
    (s : Fin 2) (ho3 : o3 = ![s.val, 0, 0]) (lane : Fin 128) :
    (((w0V).slice (Rect.unit (s := S2x1x128) o3 S1x1x128.size h3) (fun _ => rfl)).squeeze S1x128 squeezes_S1x1x128_S1x128).view.emb (ix2 (0 : Fin 1) lane)
      = ix3 s (0 : Fin 1) lane := by
  subst ho3
  show (Rect.unit (s := S2x1x128) ![s.val, 0, 0] S1x1x128.size h3).emb (Shape.reshapeEquiv squeezes_S1x1x128_S1x128.numel_eq (ix2 (0 : Fin 1) lane)) = _
  rw [squeeze_lane]
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl
  | ⟨2, _⟩ => simp only [Rect.off_unit, Rect.stride_unit, Nat.one_mul]; show 0 + lane.val = lane.val; omega

/-- The window's index `(0, lane)` sits at `(0, c + lane)` of the flat row. -/
theorem win0_emb (o2 : Fin S1x3276800.rank → ℕ) (h2 : ∀ a, o2 a + S1x128.size a ≤ S1x3276800.size a)
    (c : ℕ) (ho2 : o2 = ![0, c]) (hc : c + 128 ≤ 3276800) (lane : Fin 128) :
    ((x0V).slice (Rect.unit (s := S1x3276800) o2 S1x128.size h2) (fun _ => rfl)).view.emb (ix2 (0 : Fin 1) lane)
      = ix2 (0 : Fin 1) (⟨c + lane.val, by omega⟩ : Fin 3276800) := by
  subst ho2
  show (Rect.unit (s := S1x3276800) ![0, c] S1x128.size h2).emb (ix2 (0 : Fin 1) lane) = _
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl

/-! ## What the slot holds after the copy -/

/-- After the copy of the window at `(0, c)` of the hour words into slot `s`, the slot's lane `lane` holds the word at
    position `c + lane`. -/
theorem words_landed0 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (c : ℕ) (ho2 : o2 = ![0, c]) (hc : c + 128 ≤ 3276800) (lane : Fin 128) :
    View.write (Elt F) (((w0V).slice (Rect.unit (s := S2x1x128) o3 S1x1x128.size h3) (fun _ => rfl)).squeeze S1x128 squeezes_S1x1x128_S1x128).view fA
        (ReadAs.same.apply (View.read (Elt F) ((x0V).slice (Rect.unit (s := S1x3276800) o2 S1x128.size h2) (fun _ => rfl)).view X)) Finset.univ
        (ix3 s (0 : Fin 1) lane)
      = X (ix2 (0 : Fin 1) (⟨c + lane.val, by omega⟩ : Fin 3276800)) := by
  rw [← slot0_emb o3 h3 s ho3 lane, View.write_emb_of_mem _ _ (Finset.mem_univ _)]
  show _root_.cast _ (View.read (Elt F) ((x0V).slice (Rect.unit (s := S1x3276800) o2 S1x128.size h2) (fun _ => rfl)).view X (ix2 (0 : Fin 1) lane)) = _
  rw [View.read_apply, cast_cast, cast_eq, win0_emb o2 h2 c ho2 hc lane]

/-! ## The same for the minute words -/

/-- Slot `s`'s index `(0, lane)` sits at `(s, 0, lane)` of the two-slot buffer. -/
theorem slot1_emb (o3 : Fin S2x1x128.rank → ℕ) (h3 : ∀ a, o3 a + S1x1x128.size a ≤ S2x1x128.size a)
    (s : Fin 2) (ho3 : o3 = ![s.val, 0, 0]) (lane : Fin 128) :
    (((w1V).slice (Rect.unit (s := S2x1x128) o3 S1x1x128.size h3) (fun _ => rfl)).squeeze S1x128 squeezes_S1x1x128_S1x128).view.emb (ix2 (0 : Fin 1) lane)
      = ix3 s (0 : Fin 1) lane := by
  subst ho3
  show (Rect.unit (s := S2x1x128) ![s.val, 0, 0] S1x1x128.size h3).emb (Shape.reshapeEquiv squeezes_S1x1x128_S1x128.numel_eq (ix2 (0 : Fin 1) lane)) = _
  rw [squeeze_lane]
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl
  | ⟨2, _⟩ => simp only [Rect.off_unit, Rect.stride_unit, Nat.one_mul]; show 0 + lane.val = lane.val; omega

/-- The window's index `(0, lane)` sits at `(0, c + lane)` of the flat row. -/
theorem win1_emb (o2 : Fin S1x3276800.rank → ℕ) (h2 : ∀ a, o2 a + S1x128.size a ≤ S1x3276800.size a)
    (c : ℕ) (ho2 : o2 = ![0, c]) (hc : c + 128 ≤ 3276800) (lane : Fin 128) :
    ((x1V).slice (Rect.unit (s := S1x3276800) o2 S1x128.size h2) (fun _ => rfl)).view.emb (ix2 (0 : Fin 1) lane)
      = ix2 (0 : Fin 1) (⟨c + lane.val, by omega⟩ : Fin 3276800) := by
  subst ho2
  show (Rect.unit (s := S1x3276800) ![0, c] S1x128.size h2).emb (ix2 (0 : Fin 1) lane) = _
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl

/-- After the copy of the window at `(0, c)` of the minute words into slot `s`, the slot's lane `lane` holds the word at
    position `c + lane`. -/
theorem words_landed1 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (c : ℕ) (ho2 : o2 = ![0, c]) (hc : c + 128 ≤ 3276800) (lane : Fin 128) :
    View.write (Elt F) (((w1V).slice (Rect.unit (s := S2x1x128) o3 S1x1x128.size h3) (fun _ => rfl)).squeeze S1x128 squeezes_S1x1x128_S1x128).view fA
        (ReadAs.same.apply (View.read (Elt F) ((x1V).slice (Rect.unit (s := S1x3276800) o2 S1x128.size h2) (fun _ => rfl)).view X)) Finset.univ
        (ix3 s (0 : Fin 1) lane)
      = X (ix2 (0 : Fin 1) (⟨c + lane.val, by omega⟩ : Fin 3276800)) := by
  rw [← slot1_emb o3 h3 s ho3 lane, View.write_emb_of_mem _ _ (Finset.mem_univ _)]
  show _root_.cast _ (View.read (Elt F) ((x1V).slice (Rect.unit (s := S1x3276800) o2 S1x128.size h2) (fun _ => rfl)).view X (ix2 (0 : Fin 1) lane)) = _
  rw [View.read_apply, cast_cast, cast_eq, win1_emb o2 h2 c ho2 hc lane]

/-! ## The other slot -/

/-- The copy into slot `s` leaves the other slot as it was: no index of slot `s` has first coordinate `s'`. -/
theorem words_kept0 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (s' : Fin 2) (hs : s' ≠ s) (lane : Fin 128) :
    View.write (Elt F) (((w0V).slice (Rect.unit (s := S2x1x128) o3 S1x1x128.size h3) (fun _ => rfl)).squeeze S1x128 squeezes_S1x1x128_S1x128).view fA
        (ReadAs.same.apply (View.read (Elt F) ((x0V).slice (Rect.unit (s := S1x3276800) o2 S1x128.size h2) (fun _ => rfl)).view X)) Finset.univ
        (ix3 s' (0 : Fin 1) lane)
      = fA (ix3 s' (0 : Fin 1) lane) := by
  refine View.write_of_not_mem _ _ _ ?_
  intro hmem
  rw [View.setOn_univ] at hmem
  obtain ⟨y, -, hy⟩ := Finset.mem_map.mp hmem
  subst ho3
  have h0 : ((((w0V).slice (Rect.unit (s := S2x1x128) ![s.val, 0, 0] S1x1x128.size h3) (fun _ => rfl)).squeeze S1x128 squeezes_S1x1x128_S1x128).view.emb y (0 : Fin 3)).val = s'.val :=
    congrArg (fun i : S2x1x128.Idx => (i (0 : Fin 3)).val) hy
  have h1 : ((((w0V).slice (Rect.unit (s := S2x1x128) ![s.val, 0, 0] S1x1x128.size h3) (fun _ => rfl)).squeeze S1x128 squeezes_S1x1x128_S1x128).view.emb y (0 : Fin 3)).val
      = s.val + 1 * ((Shape.reshapeEquiv squeezes_S1x1x128_S1x128.numel_eq y) (0 : Fin 3)).val := rfl
  have h4 : ((Shape.reshapeEquiv squeezes_S1x1x128_S1x128.numel_eq y) (0 : Fin 3)).val < 1 :=
    ((Shape.reshapeEquiv squeezes_S1x1x128_S1x128.numel_eq y) (0 : Fin 3)).isLt
  exact hs (Fin.ext (by omega))

/-- The copy into slot `s` leaves the other slot as it was: no index of slot `s` has first coordinate `s'`. -/
theorem words_kept1 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (s' : Fin 2) (hs : s' ≠ s) (lane : Fin 128) :
    View.write (Elt F) (((w1V).slice (Rect.unit (s := S2x1x128) o3 S1x1x128.size h3) (fun _ => rfl)).squeeze S1x128 squeezes_S1x1x128_S1x128).view fA
        (ReadAs.same.apply (View.read (Elt F) ((x1V).slice (Rect.unit (s := S1x3276800) o2 S1x128.size h2) (fun _ => rfl)).view X)) Finset.univ
        (ix3 s' (0 : Fin 1) lane)
      = fA (ix3 s' (0 : Fin 1) lane) := by
  refine View.write_of_not_mem _ _ _ ?_
  intro hmem
  rw [View.setOn_univ] at hmem
  obtain ⟨y, -, hy⟩ := Finset.mem_map.mp hmem
  subst ho3
  have h0 : ((((w1V).slice (Rect.unit (s := S2x1x128) ![s.val, 0, 0] S1x1x128.size h3) (fun _ => rfl)).squeeze S1x128 squeezes_S1x1x128_S1x128).view.emb y (0 : Fin 3)).val = s'.val :=
    congrArg (fun i : S2x1x128.Idx => (i (0 : Fin 3)).val) hy
  have h1 : ((((w1V).slice (Rect.unit (s := S2x1x128) ![s.val, 0, 0] S1x1x128.size h3) (fun _ => rfl)).squeeze S1x128 squeezes_S1x1x128_S1x128).view.emb y (0 : Fin 3)).val
      = s.val + 1 * ((Shape.reshapeEquiv squeezes_S1x1x128_S1x128.numel_eq y) (0 : Fin 3)).val := rfl
  have h4 : ((Shape.reshapeEquiv squeezes_S1x1x128_S1x128.numel_eq y) (0 : Fin 3)).val < 1 :=
    ((Shape.reshapeEquiv squeezes_S1x1x128_S1x128.numel_eq y) (0 : Fin 3)).isLt
  exact hs (Fin.ext (by omega))

end Cert.KernelIdeal.Hand

end
-- ==== Proof.IdxList.lean ====
/-
  The index list of one pipeline trip.

  A trip of the pipeline turns the current block's 128 hour words and 128 minute words, staged in one slot each of two
  two-slot buffers, into the 128 row numbers the gather reads: eight loads of 16 lanes from each slot, eight stores of
  the index words `64 · hour + minute` into the index list. This module names the list of those stores, reads a slot
  through the body's chain of slices and squeezes, reads the list after the stores lane by lane, and bounds every lane
  by the table's height when the words are in range.
-/
import proofs.«204352_g17334488006705_cont_7to1_713_23_alg».proof.Proof.Common
import proofs.«204352_g17334488006705_cont_7to1_713_23_alg».proof.Proof.ValueBridge
import proofs.«204352_g17334488006705_cont_7to1_713_23_alg».proof.Proof.TileOpen
import Idealize.ShloMosaic.Lib.Writes
import Idealize.ShloMosaic.Lib.Pipeline.Value

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## A slot of a two-slot word buffer

The pipeline stages the hour words and the minute words of a block in two-slot buffers of shape `[2, 1, 128]`. The body
addresses slot `s` as a list of 128 words: the slice `[s : s+1, 0 : 1, 0 : 128]`, its leading unit axis dropped, the whole
of that, its remaining unit axis dropped. A load of 16 lanes at lane `n` of the list reads words `n … n + 15` of slot `s`. -/

/-- Slot `o` of a two-slot word buffer `M` as a list of 128 words, by the body's chain of slices and squeezes. -/
abbrev slotView (M : Memref sig .scVector .vmem S2x1x128 .i32) (o : Fin 3 → Nat) (h : ∀ a, o a + S1x1x128.size a ≤ S2x1x128.size a) :
    View sig .scVector .vmem S128 .i32 :=
  ((((M.slice (Rect.unit (s := S2x1x128) o S1x1x128.size h) (fun _ => rfl)).squeeze S1x128 squeezes_S1x1x128_S1x128).slice
      (Rect.unit ![0, 0] S1x128.size inb_S1x128_S1x128_0_0) (fun _ => rfl)).squeeze S128 squeezes_S1x128_S128).view

theorem shapeCasts_S1x1x128_S1x128 : S1x1x128.ShapeCasts S1x128 := by decide
theorem shapeCasts_S1x128_S128 : S1x128.ShapeCasts S128 := by decide

section Slot
variable (d : Dev nD) (L : grid0.Coords)

/-- Sixteen lanes at lane `n` of slot `s` of the hour-word buffer: lane `y` is word `n + y` of row `s`. -/
theorem slot0_read (o : Fin 3 → Nat) (h : ∀ a, o a + S1x1x128.size a ≤ S2x1x128.size a) (s : Fin 2) (ho : o = ![s.val, 0, 0])
    (cur : Buf (Elt F) ((thr d L).loc cc0_scoped3)) (n : Nat) (inb : ∀ a, (![n] : Fin 1 → Nat) a + S16.size a ≤ S128.size a)
    (y : S16.Idx) (hny : n + (y 0).val < 128) :
    View.readAt (Elt F) (slotView w0V o h) (Rect.unit (s := S128) ![n] S16.size inb).toLoadRect cur y
      = cur (ix3 s (0 : Fin 1) (⟨n + (y 0).val, hny⟩ : Fin 128)) := by
  subst ho
  rw [View.readAt_apply]
  -- the outer squeeze: position `n + y` of the list is position `0 · 128 + (n + y)` of `[1, 128]`
  refine (congrFun (Memref.read_squeeze_slice (Val := Elt F)
    ((w0V.slice (Rect.unit (s := S2x1x128) ![s.val, 0, 0] S1x1x128.size h) (fun _ => rfl)).squeeze S1x128 squeezes_S1x1x128_S1x128)
    (Rect.unit ![0, 0] S1x128.size inb_S1x128_S1x128_0_0) (fun _ => rfl)
    squeezes_S1x128_S128 shapeCasts_S1x128_S128 cur) _).trans ?_
  refine (shapeCast_apply _ _ _ (ix2 (0 : Fin 1) (⟨n + (y 0).val, hny⟩ : Fin 128)) ?_).trans ?_
  · rw [Shape.rowMajor_val_two, Shape.rowMajor_val_one]
    show 0 * 128 + (n + (y 0).val) = n + 1 * (y 0).val
    omega
  rw [View.readAt_apply]
  -- the inner squeeze: position `(0 · 1 + 0) · 128 + (n + y)` of `[1, 1, 128]`
  refine (congrFun (Memref.read_squeeze_slice (Val := Elt F) w0V (Rect.unit (s := S2x1x128) ![s.val, 0, 0] S1x1x128.size h) (fun _ => rfl)
    squeezes_S1x1x128_S1x128 shapeCasts_S1x1x128_S1x128 cur) _).trans ?_
  refine (shapeCast_apply _ _ _ (ix3 (0 : Fin 1) (0 : Fin 1) (⟨n + (y 0).val, hny⟩ : Fin 128)) ?_).trans ?_
  · rw [Shape.rowMajor_val_three, Shape.rowMajor_val_two]
    show (0 * 1 + 0) * 128 + (n + (y 0).val) = (0 + 1 * 0) * 128 + (0 + 1 * (n + (y 0).val))
    omega
  -- the slice shifts the slot coordinate by `s`
  rw [View.readAt_apply]
  refine congrArg cur (funext fun a => Fin.ext ?_)
  match a with
  | ⟨0, _⟩ => show s.val + 1 * 0 = s.val; omega
  | ⟨1, _⟩ => show 0 + 1 * 0 = 0; omega
  | ⟨2, _⟩ => show 0 + 1 * (n + (y 0).val) = n + (y 0).val; omega

/-- Sixteen lanes at lane `n` of slot `s` of the minute-word buffer: lane `y` is word `n + y` of row `s`. -/
theorem slot1_read (o : Fin 3 → Nat) (h : ∀ a, o a + S1x1x128.size a ≤ S2x1x128.size a) (s : Fin 2) (ho : o = ![s.val, 0, 0])
    (cur : Buf (Elt F) ((thr d L).loc cc0_scoped5)) (n : Nat) (inb : ∀ a, (![n] : Fin 1 → Nat) a + S16.size a ≤ S128.size a)
    (y : S16.Idx) (hny : n + (y 0).val < 128) :
    View.readAt (Elt F) (slotView w1V o h) (Rect.unit (s := S128) ![n] S16.size inb).toLoadRect cur y
      = cur (ix3 s (0 : Fin 1) (⟨n + (y 0).val, hny⟩ : Fin 128)) := by
  subst ho
  rw [View.readAt_apply]
  -- the outer squeeze: position `n + y` of the list is position `0 · 128 + (n + y)` of `[1, 128]`
  refine (congrFun (Memref.read_squeeze_slice (Val := Elt F)
    ((w1V.slice (Rect.unit (s := S2x1x128) ![s.val, 0, 0] S1x1x128.size h) (fun _ => rfl)).squeeze S1x128 squeezes_S1x1x128_S1x128)
    (Rect.unit ![0, 0] S1x128.size inb_S1x128_S1x128_0_0) (fun _ => rfl)
    squeezes_S1x128_S128 shapeCasts_S1x128_S128 cur) _).trans ?_
  refine (shapeCast_apply _ _ _ (ix2 (0 : Fin 1) (⟨n + (y 0).val, hny⟩ : Fin 128)) ?_).trans ?_
  · rw [Shape.rowMajor_val_two, Shape.rowMajor_val_one]
    show 0 * 128 + (n + (y 0).val) = n + 1 * (y 0).val
    omega
  rw [View.readAt_apply]
  -- the inner squeeze: position `(0 · 1 + 0) · 128 + (n + y)` of `[1, 1, 128]`
  refine (congrFun (Memref.read_squeeze_slice (Val := Elt F) w1V (Rect.unit (s := S2x1x128) ![s.val, 0, 0] S1x1x128.size h) (fun _ => rfl)
    squeezes_S1x1x128_S1x128 shapeCasts_S1x1x128_S1x128 cur) _).trans ?_
  refine (shapeCast_apply _ _ _ (ix3 (0 : Fin 1) (0 : Fin 1) (⟨n + (y 0).val, hny⟩ : Fin 128)) ?_).trans ?_
  · rw [Shape.rowMajor_val_three, Shape.rowMajor_val_two]
    show (0 * 1 + 0) * 128 + (n + (y 0).val) = (0 + 1 * 0) * 128 + (0 + 1 * (n + (y 0).val))
    omega
  -- the slice shifts the slot coordinate by `s`
  rw [View.readAt_apply]
  refine congrArg cur (funext fun a => Fin.ext ?_)
  match a with
  | ⟨0, _⟩ => show s.val + 1 * 0 = s.val; omega
  | ⟨1, _⟩ => show 0 + 1 * 0 = 0; omega
  | ⟨2, _⟩ => show 0 + 1 * (n + (y 0).val) = n + (y 0).val; omega

end Slot

/-! ## The index list of a trip

For each of the eight chunks `c` of 16 lanes, the body loads lanes `[16 c, 16 c + 16)` of the current hour-word slot and
of the current minute-word slot, and stores their index words at lanes `[16 c, 16 c + 16)` of the index list. The eight
stores tile the 128 lanes, so afterwards lane `x` of the list is the index word of hour word `x` and minute word `x` of
the current slots, whatever the list held before. -/

section IdxList
variable (d : Dev nD) (L : grid0.Coords)

/-- Sixteen hour words of slot `o0` at lane `n`, as the body loads them. -/
abbrev RD0 (o0 : Fin 3 → Nat) (h0 : ∀ a, o0 a + S1x1x128.size a ≤ S2x1x128.size a) (cur0 : Buf (Elt F) ((thr d L).loc cc0_scoped3))
    (n : Nat) (inb : ∀ a, (![n] : Fin 1 → Nat) a + S16.size a ≤ S128.size a) : Vec F S16 .i32 :=
  View.readAt (Elt F) (slotView w0V o0 h0) (Rect.unit (s := S128) ![n] S16.size inb).toLoadRect cur0

/-- Sixteen minute words of slot `o1` at lane `n`, as the body loads them. -/
abbrev RD1 (o1 : Fin 3 → Nat) (h1 : ∀ a, o1 a + S1x1x128.size a ≤ S2x1x128.size a) (cur1 : Buf (Elt F) ((thr d L).loc cc0_scoped5))
    (n : Nat) (inb : ∀ a, (![n] : Fin 1 → Nat) a + S16.size a ≤ S128.size a) : Vec F S16 .i32 :=
  View.readAt (Elt F) (slotView w1V o1 h1) (Rect.unit (s := S128) ![n] S16.size inb).toLoadRect cur1

/-- The eight stores of a trip into the index list, the last store first. -/
def idxPieces (o0 : Fin 3 → Nat) (h0 : ∀ a, o0 a + S1x1x128.size a ≤ S2x1x128.size a)
    (o1 : Fin 3 → Nat) (h1 : ∀ a, o1 a + S1x1x128.size a ≤ S2x1x128.size a)
    (cur0 : Buf (Elt F) ((thr d L).loc cc0_scoped3)) (cur1 : Buf (Elt F) ((thr d L).loc cc0_scoped5)) :
    List (View.Piece (Elt F) S128 EltTy.i32) :=
  [
    ⟨Rect.unit ![112] S16.size inb_S128_S16_112, k0_pay17 (RD0 d L o0 h0 cur0 112 inb_S128_S16_112) (RD1 d L o1 h1 cur1 112 inb_S128_S16_112)⟩,
    ⟨Rect.unit ![96] S16.size inb_S128_S16_96, k0_pay16 (RD0 d L o0 h0 cur0 96 inb_S128_S16_96) (RD1 d L o1 h1 cur1 96 inb_S128_S16_96)⟩,
    ⟨Rect.unit ![80] S16.size inb_S128_S16_80, k0_pay15 (RD0 d L o0 h0 cur0 80 inb_S128_S16_80) (RD1 d L o1 h1 cur1 80 inb_S128_S16_80)⟩,
    ⟨Rect.unit ![64] S16.size inb_S128_S16_64, k0_pay14 (RD0 d L o0 h0 cur0 64 inb_S128_S16_64) (RD1 d L o1 h1 cur1 64 inb_S128_S16_64)⟩,
    ⟨Rect.unit ![48] S16.size inb_S128_S16_48, k0_pay13 (RD0 d L o0 h0 cur0 48 inb_S128_S16_48) (RD1 d L o1 h1 cur1 48 inb_S128_S16_48)⟩,
    ⟨Rect.unit ![32] S16.size inb_S128_S16_32, k0_pay12 (RD0 d L o0 h0 cur0 32 inb_S128_S16_32) (RD1 d L o1 h1 cur1 32 inb_S128_S16_32)⟩,
    ⟨Rect.unit ![16] S16.size inb_S128_S16_16, k0_pay11 (RD0 d L o0 h0 cur0 16 inb_S128_S16_16) (RD1 d L o1 h1 cur1 16 inb_S128_S16_16)⟩,
    ⟨Rect.unit ![0] S16.size inb_S128_S16_0, k0_pay10 (RD0 d L o0 h0 cur0 0 inb_S128_S16_0) (RD1 d L o1 h1 cur1 0 inb_S128_S16_0)⟩]

variable {d L}
variable {o0 : Fin 3 → Nat} {h0 : ∀ a, o0 a + S1x1x128.size a ≤ S2x1x128.size a}
  {o1 : Fin 3 → Nat} {h1 : ∀ a, o1 a + S1x1x128.size a ≤ S2x1x128.size a}
  {cur0 : Buf (Elt F) ((thr d L).loc cc0_scoped3)} {cur1 : Buf (Elt F) ((thr d L).loc cc0_scoped5)}
  {s0 s1 : Fin 2}

/-- Lane `x` of the list as the stores leave it: the index word of the current slots' words `x`. -/
def idxLane (cur0 : Buf (Elt F) ((thr d L).loc cc0_scoped3)) (cur1 : Buf (Elt F) ((thr d L).loc cc0_scoped5)) (s0 s1 : Fin 2)
    (x : S128.Idx) : Elt F .i32 :=
  idxWord (cur0 (ix3 s0 (0 : Fin 1) (x 0 : Fin 128))) (cur1 (ix3 s1 (0 : Fin 1) (x 0 : Fin 128)))

/-- One store's payload at a lane is the list's lane under it. -/
theorem piece_lane (ho0 : o0 = ![s0.val, 0, 0]) (ho1 : o1 = ![s1.val, 0, 0])
    (n : Nat) (inb : ∀ a, (![n] : Fin 1 → Nat) a + S16.size a ≤ S128.size a) (y : S16.Idx) :
    idxWord (RD0 d L o0 h0 cur0 n inb y) (RD1 d L o1 h1 cur1 n inb y)
      = idxLane cur0 cur1 s0 s1 ((Rect.unit (s := S128) ![n] S16.size inb).emb y) := by
  have hn : n + 16 ≤ 128 := inb 0
  have hy : (y 0).val < 16 := (y 0).isLt
  have hny : n + (y 0).val < 128 := by omega
  rw [show RD0 d L o0 h0 cur0 n inb y = _ from slot0_read d L o0 h0 s0 ho0 cur0 n inb y hny,
    show RD1 d L o1 h1 cur1 n inb y = _ from slot1_read d L o1 h1 s1 ho1 cur1 n inb y hny]
  have e : (⟨n + (y 0).val, hny⟩ : Fin 128) = ((Rect.unit (s := S128) ![n] S16.size inb).emb y 0 : Fin 128) :=
    Fin.ext (by show n + (y 0).val = n + 1 * (y 0).val; omega)
  unfold idxLane
  rw [e]

/-- The list after the eight stores, read at a lane, over any prior contents. -/
theorem idxList_read (ho0 : o0 = ![s0.val, 0, 0]) (ho1 : o1 = ![s1.val, 0, 0]) (j : idxV.view.ty.Contents (Elt F)) (x : S128.Idx) :
    View.read (Elt F) idxV.view (idxV.view.writes (Elt F) j (idxPieces d L o0 h0 o1 h1 cur0 cur1)) x
      = idxWord (cur0 (ix3 s0 (0 : Fin 1) (x 0 : Fin 128))) (cur1 (ix3 s1 (0 : Fin 1) (x 0 : Fin 128))) := by
  refine View.read_writes_apply_of_pieces idxV.view j (idxLane cur0 cur1 s0 s1) _ ?_ x
    (View.cover_of_tiled _ ![16] rfl x)
  intro p hp y
  simp only [idxPieces, List.mem_cons, List.not_mem_nil, or_false] at hp
  rcases hp with rfl | rfl | rfl | rfl | rfl | rfl | rfl | rfl
  · exact (k0_pay17_apply _ _ y).trans (piece_lane ho0 ho1 112 inb_S128_S16_112 y)
  · exact (k0_pay16_apply _ _ y).trans (piece_lane ho0 ho1 96 inb_S128_S16_96 y)
  · exact (k0_pay15_apply _ _ y).trans (piece_lane ho0 ho1 80 inb_S128_S16_80 y)
  · exact (k0_pay14_apply _ _ y).trans (piece_lane ho0 ho1 64 inb_S128_S16_64 y)
  · exact (k0_pay13_apply _ _ y).trans (piece_lane ho0 ho1 48 inb_S128_S16_48 y)
  · exact (k0_pay12_apply _ _ y).trans (piece_lane ho0 ho1 32 inb_S128_S16_32 y)
  · exact (k0_pay11_apply _ _ y).trans (piece_lane ho0 ho1 16 inb_S128_S16_16 y)
  · exact (k0_pay10_apply _ _ y).trans (piece_lane ho0 ho1 0 inb_S128_S16_0 y)

/-- With the current slots' words in range, every lane of the list names a row of the table. -/
theorem idxList_lt [FloatOps F] (ho0 : o0 = ![s0.val, 0, 0]) (ho1 : o1 = ![s1.val, 0, 0])
    (hr0 : ∀ lane : Fin 128, (cur0 (ix3 s0 (0 : Fin 1) lane)).toNat ≤ 59) (hr1 : ∀ lane : Fin 128, (cur1 (ix3 s1 (0 : Fin 1) lane)).toNat ≤ 59)
    (x : S128.Idx) :
    (View.read (Elt F) idxV.view (idxV.view.writes (Elt F) idxV.view.junk (idxPieces d L o0 h0 o1 h1 cur0 cur1)) x).toNat < 4608 := by
  rw [idxList_read ho0 ho1]
  exact idxWord_lt (hr0 _) (hr1 _)

/-- The same bound, written with the table's extent on the gathered axis. -/
theorem idxList_lt_axis [FloatOps F] (ho0 : o0 = ![s0.val, 0, 0]) (ho1 : o1 = ![s1.val, 0, 0])
    (hr0 : ∀ lane : Fin 128, (cur0 (ix3 s0 (0 : Fin 1) lane)).toNat ≤ 59) (hr1 : ∀ lane : Fin 128, (cur1 (ix3 s1 (0 : Fin 1) lane)).toNat ≤ 59)
    (x : S128.Idx) :
    (View.read (Elt F) idxV.view (idxV.view.writes (Elt F) idxV.view.junk (idxPieces d L o0 h0 o1 h1 cur0 cur1)) x).toNat
      < S4608x128.size gathers_S4608x128_S128x128.axis :=
  idxList_lt ho0 ho1 hr0 hr1 x

end IdxList

end Cert.KernelIdeal.Hand

end
-- ==== Proof.OutBlock.lean ====
/-
  The value of one block of the result.

  In one trip of the pipeline a tile forms 128 index words from the block's hour and minute words, gathers the rows of
  the shared table those words name into a staging slot, and copies the slot out to the block's 128 rows of the flat
  result. This module follows one entry of the block back through those three steps.

  * Geometry. The window the copy writes, rows `[128 B, 128 B + 128)` and every column, is block `B` of the cut of the
    result into 25600 blocks; its entry `(r, c)` is the result's entry `(128 B + r, c)`.
  * The copy moves what the gather has just put in the slot, unchanged.
  * The gather's entry `(r, c)` is the table's entry at the row that lane `r` of the index list names, column `c`.
  * That lane holds `64 · hour + minute` for the block's `r`-th hour and minute words, both at most 59; a right table
    holds at that row the hour table's row `hour` plus the minute table's row `minute`.
  * The block's `r`-th words are the flat word lists' entries at position `128 B + r`, so this is exactly what the flat
    result is defined to hold at `(128 B + r, c)`.
-/
import proofs.«204352_g17334488006705_cont_7to1_713_23_alg».proof.Proof.Common
import proofs.«204352_g17334488006705_cont_7to1_713_23_alg».proof.Proof.ValueBridge
import proofs.«204352_g17334488006705_cont_7to1_713_23_alg».proof.Proof.TileOpen
import proofs.«204352_g17334488006705_cont_7to1_713_23_alg».proof.Proof.PipeWords
import proofs.«204352_g17334488006705_cont_7to1_713_23_alg».proof.Proof.IdxList
import Idealize.ShloMosaic.Lib.Writes
import Idealize.ShloMosaic.Lib.SparseCore.Stream

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

section
variable (d : Dev nD) (L : grid0.Coords)
/-- The window of 128 rows the copy out writes is block `B` of the flat result. -/
theorem set_oWin (B : Fin 25600) (offO : Fin 2 → Nat) (hO : ∀ a, offO a + S128x128.size a ≤ S3276800x128.size a)
    (hoff : offO = ![128 * B.val, 0]) :
    ((oV).slice (Rect.unit (s := S3276800x128) offO S128x128.size hO) (fun _ => rfl)).view.set = oblk B := by
  subst hoff
  refine (View.set_slice_whole main_v6_scv (Rect.unit (s := S3276800x128) ![128 * B.val, 0] S128x128.size hO)).trans ?_
  ext i
  rw [Rect.mem_set_unit, Rect.mem_set_unit]
  have hB := B.isLt
  -- both sides say: row in [128 B, 128 B + 128), column in [0, 128)
  constructor
  · intro h a
    have ha := h a
    match a with
    | ⟨0, _⟩ =>
      change 128 * B.val ≤ (i 0).val ∧ (i 0).val < 128 * B.val + 128 at ha
      show B.val * 128 ≤ (i 0).val ∧ (i 0).val < B.val * 128 + 128
      omega
    | ⟨1, _⟩ =>
      change 0 ≤ (i 1).val ∧ (i 1).val < 0 + 128 at ha
      show 0 * 128 ≤ (i 1).val ∧ (i 1).val < 0 * 128 + 128
      omega
  · intro h a
    have ha := h a
    match a with
    | ⟨0, _⟩ =>
      change B.val * 128 ≤ (i 0).val ∧ (i 0).val < B.val * 128 + 128 at ha
      show 128 * B.val ≤ (i 0).val ∧ (i 0).val < 128 * B.val + 128
      omega
    | ⟨1, _⟩ =>
      change 0 * 128 ≤ (i 1).val ∧ (i 1).val < 0 * 128 + 128 at ha
      show 0 ≤ (i 1).val ∧ (i 1).val < 0 + 128
      omega

/-- Reading the whole table through the gather's source window (all rows, all columns, from the origin) is reading the table. -/
theorem whole_read (g : Buf (Elt F) (shLoc d (cV L))) (hs : ∀ a, (Rect.unit (s := S4608x128) ![0, 0] S4608x128.size inb_S4608x128_S4608x128_0_0).stride a = 1) :
    View.read (Elt F) ((shV).slice (Rect.unit ![0, 0] S4608x128.size inb_S4608x128_S4608x128_0_0) hs).view g = g := by
  funext y
  rw [View.read_apply]
  have e : ((shV).slice (Rect.unit ![0, 0] S4608x128.size inb_S4608x128_S4608x128_0_0) hs).view.emb y = y := by
    funext a
    apply Fin.ext
    match a with
    | ⟨0, _⟩ => show 0 + 1 * (y 0).val = (y 0).val; omega
    | ⟨1, _⟩ => show 0 + 1 * (y 1).val = (y 1).val; omega
  rw [e]
  rfl

/-- The table index a gathered entry comes from: the row the list names for the entry's row, the entry's own column. -/
theorem gather_idx (r : Fin (S128x128.size gathers_S4608x128_S128x128.axis') → Fin (S4608x128.size gathers_S4608x128_S128x128.axis)) (x : S128x128.Idx) :
    gathers_S4608x128_S128x128.idx r x = ix2 (r (x 0)) (x 1) := by
  funext b
  apply Fin.ext
  match b with
  | ⟨0, _⟩ => exact congrArg Fin.val (Shape.Gathers.idx_axis gathers_S4608x128_S128x128 r x)
  | ⟨1, _⟩ => exact Shape.Gathers.idx_of_ne gathers_S4608x128_S128x128 r x ⟨1, by decide⟩ (by decide)

/-- The row the list names for entry `k`: the number its `k`-th word spells (a list of rank one: position `k` is lane `k`). -/
theorem rows_apply (idx : S128.Idx → Elt F .i32) (hn : S128.numel = S128x128.size gathers_S4608x128_S128x128.axis')
    (hin : ∀ x, (idx x).toNat < S4608x128.size gathers_S4608x128_S128x128.axis) (k : Fin 128) :
    (SparseCore.rows idx hn hin k).val = (idx (ix1 k)).toNat := by
  unfold SparseCore.rows
  show (idx _).toNat = _
  congr 2
  rw [Equiv.symm_apply_eq]
  apply Fin.ext
  rw [Shape.rowMajor_val_one]
  rfl

/-- The copy out, as a statement about positions: if entry `(r, c)` of what is copied is `G` at row `128 B + r`, column `c`,
    then after the copy the result array agrees with `G` on all of block `B`. -/
theorem block_of_copy (B : Fin 25600) (offO : Fin 2 → Nat) (hO : ∀ a, offO a + S128x128.size a ≤ S3276800x128.size a)
    (hoff : offO = ![128 * B.val, 0]) (fo G : Buf (Elt F) (oLoc d)) (C : S128x128.Idx → Elt F .f32)
    (hC : ∀ x : S128x128.Idx, C x = G (ix2 (⟨128 * B.val + (x 0).val, by have := B.isLt; have : (x 0).val < 128 := (x 0).isLt; omega⟩ : Fin 3276800) (x 1 : Fin 128))) :
    ∀ i ∈ oblk B, (((oV).slice (Rect.unit (s := S3276800x128) offO S128x128.size hO) (fun _ => rfl)).view.writes (Elt F) fo
        [⟨Rect.whole S128x128, C⟩]) i = G i := by
  intro i hi
  rw [← set_oWin B offO hO hoff] at hi
  obtain ⟨x, -, rfl⟩ := Finset.mem_map.mp hi
  subst hoff
  have hread := View.read_writes_cons_emb ((oV).slice (Rect.unit (s := S3276800x128) ![128 * B.val, 0] S128x128.size hO) (fun _ => rfl)).view fo
    (Rect.whole S128x128) C [] x
  have e : (Rect.whole S128x128).emb x = x := Rect.emb_whole_apply S128x128 x
  rw [e, View.read_apply] at hread
  have epos : ((oV).slice (Rect.unit (s := S3276800x128) ![128 * B.val, 0] S128x128.size hO) (fun _ => rfl)).view.emb x
      = ix2 (⟨128 * B.val + (x 0).val, by have := B.isLt; have : (x 0).val < 128 := (x 0).isLt; omega⟩ : Fin 3276800) (x 1 : Fin 128) := by
    funext a
    apply Fin.ext
    match a with
    | ⟨0, _⟩ => show 128 * B.val + 1 * (x 0).val = 128 * B.val + (x 0).val; omega
    | ⟨1, _⟩ => show 0 + 1 * (x 1).val = (x 1).val; omega
  exact Eq.trans (by rfl) (hread.trans ((hC x).trans (congrArg G epos.symm)))

/-- The value half: entry `(r, c)` of what the trip copies out. The copy reads the staging slot the gather has just
    filled, so it is the gathered entry; the gather took it from the table row that lane `r` of the index list names,
    column `c`; that lane holds `64 · hour + minute` of the block's `r`-th hour and minute words; a right table holds
    there the hour row plus the minute row, which is the flat result at position `128 B + r`. -/
theorem copy_value [FloatOps F] (B : Fin 25600)
    (a1 : FVec F S60x128 .f32) (a2 : FVec F S72x128 .f32) (x0 x1 : IVec S1x3276800 32)
    (g : Buf (Elt F) (shLoc d (cV L))) (hg : ∀ R, TabOK a1 a2 g R)
    (cur0 : Buf (Elt F) ((thr d L).loc cc0_scoped3)) (cur1 : Buf (Elt F) ((thr d L).loc cc0_scoped5))
    (fs : Buf (Elt F) ((thr d L).loc cc0_scoped7))
    (s0 s1 : Fin 2)
    (o0 : Fin 3 → Nat) (h0 : ∀ a, o0 a + S1x1x128.size a ≤ S2x1x128.size a) (ho0 : o0 = ![s0.val, 0, 0])
    (o1 : Fin 3 → Nat) (h1 : ∀ a, o1 a + S1x1x128.size a ≤ S2x1x128.size a) (ho1 : o1 = ![s1.val, 0, 0])
    (hw0 : ∀ lane : Fin 128, cur0 (ix3 s0 (0 : Fin 1) lane) = x0 (ix2 (0 : Fin 1) (⟨128 * B.val + lane.val, by omega⟩ : Fin 3276800)))
    (hw1 : ∀ lane : Fin 128, cur1 (ix3 s1 (0 : Fin 1) lane) = x1 (ix2 (0 : Fin 1) (⟨128 * B.val + lane.val, by omega⟩ : Fin 3276800)))
    (hx0 : ∀ j, (x0 j).toNat ≤ 59) (hx1 : ∀ j, (x1 j).toNat ≤ 59)
    (o43 o44 : Fin 3 → Nat) (h43 : ∀ a, o43 a + S1x128x128.size a ≤ S2x128x128.size a) (h44 : ∀ a, o44 a + S1x128x128.size a ≤ S2x128x128.size a)
    (ho : o43 = o44)
    (hsW : ∀ a, (Rect.unit (s := S4608x128) ![0, 0] S4608x128.size inb_S4608x128_S4608x128_0_0).stride a = 1)
    (hn : S128.numel = S128x128.size gathers_S4608x128_S128x128.axis')
    (hin : ∀ x, (View.read (Elt F) idxV.view (idxV.view.writes (Elt F) idxV.view.junk (idxPieces d L o0 h0 o1 h1 cur0 cur1)) x).toNat < S4608x128.size gathers_S4608x128_S128x128.axis)
    (x : S128x128.Idx) :
    ReadAs.same.apply (View.read (Elt F) (((stgV).slice (Rect.unit (s := S2x128x128) o44 S1x128x128.size h44) (fun _ => rfl)).squeeze S128x128 squeezes_S1x128x128_S128x128).view
        (View.write (Elt F) (((stgV).slice (Rect.unit (s := S2x128x128) o43 S1x128x128.size h43) (fun _ => rfl)).squeeze S128x128 squeezes_S1x128x128_S128x128).view fs
          (SparseCore.gatherPayload gathers_S4608x128_S128x128
            (View.read (Elt F) ((shV).slice (Rect.unit ![0, 0] S4608x128.size inb_S4608x128_S4608x128_0_0) hsW).view g)
            (SparseCore.rows (View.read (Elt F) idxV.view (idxV.view.writes (Elt F) idxV.view.junk (idxPieces d L o0 h0 o1 h1 cur0 cur1))) hn hin))
          Finset.univ)) x
      = OutFlat (F := F) a1 a2 x0 x1 (ix2 (⟨128 * B.val + (x 0).val, by have := B.isLt; have : (x 0).val < 128 := (x 0).isLt; omega⟩ : Fin 3276800) (x 1 : Fin 128)) := by
  subst ho
  -- the copy reads the slot the gather has just filled
  refine (congrFun (View.read_write_univ (v := (((stgV).slice (Rect.unit (s := S2x128x128) o43 S1x128x128.size h43) (fun _ => rfl)).squeeze S128x128 squeezes_S1x128x128_S128x128).view) fs _) x).trans ?_
  -- the gathered entry: the table at the row the list names for row `x 0`, column `x 1`
  show View.read (Elt F) ((shV).slice (Rect.unit ![0, 0] S4608x128.size inb_S4608x128_S4608x128_0_0) hsW).view g
      (gathers_S4608x128_S128x128.idx (SparseCore.rows (View.read (Elt F) idxV.view (idxV.view.writes (Elt F) idxV.view.junk (idxPieces d L o0 h0 o1 h1 cur0 cur1))) hn hin) x) = _
  refine (congrFun (whole_read d L g hsW) _).trans ?_
  refine (congrArg g (gather_idx _ x)).trans ?_
  -- that row is the index word of the block's hour word and minute word at lane `x 0`
  have hR : (SparseCore.rows (View.read (Elt F) idxV.view (idxV.view.writes (Elt F) idxV.view.junk (idxPieces d L o0 h0 o1 h1 cur0 cur1))) hn hin (x 0)).val
      = (idxWord (cur0 (ix3 s0 (0 : Fin 1) (x 0 : Fin 128))) (cur1 (ix3 s1 (0 : Fin 1) (x 0 : Fin 128)))).toNat :=
    (rows_apply _ hn hin (x 0)).trans (congrArg BitVec.toNat (idxList_read ho0 ho1 _ (ix1 (x 0 : Fin 128))))
  have hh : (cur0 (ix3 s0 (0 : Fin 1) (x 0 : Fin 128))).toNat ≤ 59 := le_of_eq_of_le (congrArg BitVec.toNat (hw0 (x 0))) (hx0 _)
  have hm : (cur1 (ix3 s1 (0 : Fin 1) (x 0 : Fin 128))).toNat ≤ 59 := le_of_eq_of_le (congrArg BitVec.toNat (hw1 (x 0))) (hx1 _)
  -- a right table holds there the hour row plus the minute row
  refine (tab_entry (hg _) hh hm (hR.trans (idxWord_toNat hh hm)) (x 1)).trans ?_
  -- and the words are the flat lists' words at position `128 B + x 0`
  exact congrArg₂ (fun u v => FloatOps.addf (a2 (ix2 (Cert.Spec.row 72 (by norm_num) u) (x 1 : Fin 128))) (a1 (ix2 (Cert.Spec.row 60 (by norm_num) v) (x 1 : Fin 128))))
    (hw0 (x 0)) (hw1 (x 0))

/-- One block of the result after a trip's copy out: on all of block `B`, the result array holds the flat result. -/
theorem block_value [FloatOps F] (B : Fin 25600)
    (a1 : FVec F S60x128 .f32) (a2 : FVec F S72x128 .f32) (x0 x1 : IVec S1x3276800 32)
    (g : Buf (Elt F) (shLoc d (cV L))) (hg : ∀ R, TabOK a1 a2 g R)
    (cur0 : Buf (Elt F) ((thr d L).loc cc0_scoped3)) (cur1 : Buf (Elt F) ((thr d L).loc cc0_scoped5))
    (fs : Buf (Elt F) ((thr d L).loc cc0_scoped7)) (fo : Buf (Elt F) (oLoc d))
    (s0 s1 : Fin 2)
    (o0 : Fin 3 → Nat) (h0 : ∀ a, o0 a + S1x1x128.size a ≤ S2x1x128.size a) (ho0 : o0 = ![s0.val, 0, 0])
    (o1 : Fin 3 → Nat) (h1 : ∀ a, o1 a + S1x1x128.size a ≤ S2x1x128.size a) (ho1 : o1 = ![s1.val, 0, 0])
    (hw0 : ∀ lane : Fin 128, cur0 (ix3 s0 (0 : Fin 1) lane) = x0 (ix2 (0 : Fin 1) (⟨128 * B.val + lane.val, by omega⟩ : Fin 3276800)))
    (hw1 : ∀ lane : Fin 128, cur1 (ix3 s1 (0 : Fin 1) lane) = x1 (ix2 (0 : Fin 1) (⟨128 * B.val + lane.val, by omega⟩ : Fin 3276800)))
    (hx0 : ∀ j, (x0 j).toNat ≤ 59) (hx1 : ∀ j, (x1 j).toNat ≤ 59)
    (o43 o44 : Fin 3 → Nat) (h43 : ∀ a, o43 a + S1x128x128.size a ≤ S2x128x128.size a) (h44 : ∀ a, o44 a + S1x128x128.size a ≤ S2x128x128.size a)
    (ho : o43 = o44)
    (offO : Fin 2 → Nat) (hO : ∀ a, offO a + S128x128.size a ≤ S3276800x128.size a) (hoff : offO = ![128 * B.val, 0])
    (hsW : ∀ a, (Rect.unit (s := S4608x128) ![0, 0] S4608x128.size inb_S4608x128_S4608x128_0_0).stride a = 1)
    (hn : S128.numel = S128x128.size gathers_S4608x128_S128x128.axis')
    (hin : ∀ x, (View.read (Elt F) idxV.view (idxV.view.writes (Elt F) idxV.view.junk (idxPieces d L o0 h0 o1 h1 cur0 cur1)) x).toNat < S4608x128.size gathers_S4608x128_S128x128.axis) :
    ∀ i ∈ oblk B,
      (((oV).slice (Rect.unit (s := S3276800x128) offO S128x128.size hO) (fun _ => rfl)).view.writes (Elt F) fo
        [⟨Rect.whole S128x128,
          ReadAs.same.apply (View.read (Elt F) (((stgV).slice (Rect.unit (s := S2x128x128) o44 S1x128x128.size h44) (fun _ => rfl)).squeeze S128x128 squeezes_S1x128x128_S128x128).view
            (View.write (Elt F) (((stgV).slice (Rect.unit (s := S2x128x128) o43 S1x128x128.size h43) (fun _ => rfl)).squeeze S128x128 squeezes_S1x128x128_S128x128).view fs
              (SparseCore.gatherPayload gathers_S4608x128_S128x128
                (View.read (Elt F) ((shV).slice (Rect.unit ![0, 0] S4608x128.size inb_S4608x128_S4608x128_0_0) hsW).view g)
                (SparseCore.rows (View.read (Elt F) idxV.view (idxV.view.writes (Elt F) idxV.view.junk (idxPieces d L o0 h0 o1 h1 cur0 cur1))) hn hin))
              Finset.univ))⟩]) i
      = OutFlat (F := F) a1 a2 x0 x1 i :=
  block_of_copy d B offO hO hoff fo (OutFlat (F := F) a1 a2 x0 x1) _ fun x =>
    copy_value d L B a1 a2 x0 x1 g hg cur0 cur1 fs s0 s1 o0 h0 ho0 o1 h1 ho1 hw0 hw1 hx0 hx1 o43 o44 h43 h44 ho hsW hn hin x

/-! ## The windows of a trip, by block number

The copy out of trip `k` of tile number `t` writes block `800 t + k`; the wait of trip `k > 0` is for block `800 t + k − 1`;
the wait after the loop is for the tile's last block. -/

theorem off45_blk (k : Fin k0_t2_loop.trips) :
    k0_off45 L (A19 k.val) = ![128 * (blkNo (tL L) ⟨k.val, trip_lt k⟩).val, 0] := by
  rw [off45_eq]
  have e : (blkNo (tL L) ⟨k.val, trip_lt k⟩).val = 800 * ((L 1).val + 16 * (L 0).val) + k.val := by
    show ((L 1).val + 16 * (L 0).val) * 800 + k.val = _
    omega
  rw [e]

theorem off48_blk (k : Fin k0_t2_loop.trips) (hk : 0 < k.val) :
    k0_off48 L (A19 k.val) = ![128 * (blkNo (tL L) ⟨k.val - 1, by have := trip_lt k; omega⟩).val, 0] := by
  rw [off48_eq L k hk]
  have e : (blkNo (tL L) ⟨k.val - 1, by have := trip_lt k; omega⟩).val = 800 * ((L 1).val + 16 * (L 0).val) + k.val - 1 := by
    show ((L 1).val + 16 * (L 0).val) * 800 + (k.val - 1) = _
    omega
  rw [e]

theorem off51_blk : k0_off51 L 0#32 = ![128 * (blkNo (tL L) ⟨799, by omega⟩).val, 0] := by
  rw [off51_eq]
  have e : (blkNo (tL L) ⟨799, by omega⟩).val = 800 * ((L 1).val + 16 * (L 0).val) + 799 := by
    show ((L 1).val + 16 * (L 0).val) * 800 + 799 = _
    omega
  rw [e]

end
end Cert.KernelIdeal.Hand
end
-- ==== Proof.PipeInv.lean ====
/-
  The pipeline of one tile: the invariant of its 800 trips.

  Block `k` of the tile (number `800 t + k` among all blocks) goes through three double-buffered stages, the slot of
  every stage being the trip number modulo two:
    * its 128 hour words and 128 minute words are fetched into slot `k % 2` of the two word buffers — started one trip
      ahead (or before the loop for block 0), awaited in trip `k`;
    * trip `k` forms the 128 index words, gathers those rows of the table into slot `k % 2` of the staging buffer and
      starts the copy of that slot out to the block's 128 rows of the result;
    * that copy is awaited in trip `k + 1` (the last one after the loop).
  So before trip `k`: the fetches of block `k` are in flight into slot `k % 2`, slot `(k + 1) % 2` of the word buffers is
  free, staging slot `k % 2` is free, the copy-out of block `k - 1` is in flight from staging slot `(k + 1) % 2`, blocks
  before `k - 1` hold their final contents and blocks from `k` on are untouched.
-/
import proofs.«204352_g17334488006705_cont_7to1_713_23_alg».proof.Proof.Common
import proofs.«204352_g17334488006705_cont_7to1_713_23_alg».proof.Proof.PipeIface
import proofs.«204352_g17334488006705_cont_7to1_713_23_alg».proof.Proof.SlotSplit
import proofs.«204352_g17334488006705_cont_7to1_713_23_alg».proof.Proof.WordsLand
import proofs.«204352_g17334488006705_cont_7to1_713_23_alg».proof.Proof.OutBlock

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## Slots, windows and cells, named by offsets -/

abbrev xWin (M : Memref sig .scVector .hbm S1x3276800 .i32) (off : Fin 2 → Nat) (h : ∀ a, off a + S1x128.size a ≤ S1x3276800.size a) : Memref sig .scVector .hbm S1x128 .i32 :=
  M.slice (Rect.unit (s := S1x3276800) off S1x128.size h) (fun _ => rfl)
abbrev oWin (off : Fin 2 → Nat) (h : ∀ a, off a + S128x128.size a ≤ S3276800x128.size a) : Memref sig .scVector .hbm S128x128 .f32 :=
  (oV).slice (Rect.unit (s := S3276800x128) off S128x128.size h) (fun _ => rfl)
abbrev semAt (A : DmaSems sig S2) (off : Fin 1 → Nat) (h : ∀ a, off a + S1.size a ≤ S2.size a) : SemLoc sig :=
  .dma ((A.slice (Rect.unit (s := S2) off S1.size h)).squeeze S_ squeezes_S1_S_).sem

/-- The offsets of slot `s % 2` of a two-slot buffer, and of a two-cell semaphore array. -/
abbrev slot1 (s : ℕ) : Fin 1 → Nat := ![s % 2]
omit [FloatOps F] in
theorem slot1_inb (s : ℕ) : ∀ a, slot1 s a + S1.size a ≤ S2.size a := by
  intro a; have := Nat.mod_lt s (show 0 < 2 by norm_num); fin_cases a; simp [slot1]; omega

/-- Slot `s % 2` of a word buffer, of the staging buffer, and cell `s % 2` of a semaphore pair. -/
abbrev cellC (A : DmaSems sig S2) (s : ℕ) : SemLoc sig := semAt A (slot1 s) (slot1_inb s)

omit [FloatOps F] in
theorem wSlot_congr (M : Memref sig .scVector .vmem S2x1x128 .i32) {o o' : Fin 3 → Nat} (e : o = o') (h : ∀ a, o a + S1x1x128.size a ≤ S2x1x128.size a)
    (h' : ∀ a, o' a + S1x1x128.size a ≤ S2x1x128.size a) : wSlot M o h = wSlot M o' h' := by subst e; rfl
omit [FloatOps F] in
theorem sSlot_congr {o o' : Fin 3 → Nat} (e : o = o') (h : ∀ a, o a + S1x128x128.size a ≤ S2x128x128.size a)
    (h' : ∀ a, o' a + S1x128x128.size a ≤ S2x128x128.size a) : sSlot o h = sSlot o' h' := by subst e; rfl
omit [FloatOps F] in
theorem semAt_congr (A : DmaSems sig S2) {o o' : Fin 1 → Nat} (e : o = o') (h : ∀ a, o a + S1.size a ≤ S2.size a)
    (h' : ∀ a, o' a + S1.size a ≤ S2.size a) : semAt A o h = semAt A o' h' := by subst e; rfl
omit [FloatOps F] in
theorem slot3_add_two (s : ℕ) : slot3 (s + 2) = slot3 s := by unfold slot3; rw [Nat.add_mod_right]
omit [FloatOps F] in
theorem slot1_add_two (s : ℕ) : slot1 (s + 2) = slot1 s := by unfold slot1; rw [Nat.add_mod_right]

/-! ## The invariant -/

/-- The carried words before trip `k`. -/
abbrev accAt (k : ℕ) : BitVec 32 × BitVec 32 × BitVec 32 × BitVec 32 × BitVec 32 × BitVec 32 × BitVec 32 :=
  (A13 k, A14 k, A13 k, A14 k, A14 k, A18 k, A19 k)

/-- A word slot holds block `B`'s 128 words of `x` in slot `s % 2`. -/
def WordsOK (x : IVec S1x3276800 32) (B : ℕ) (s : ℕ) (cur : IVec S2x1x128 32) : Prop :=
  ∀ lane : Fin 128, cur (ix3 (⟨s % 2, Nat.mod_lt _ (by norm_num)⟩ : Fin 2) (0 : Fin 1) lane) = x (ix2 (0 : Fin 1) (⟨(128 * B + lane.val) % 3276800, Nat.mod_lt _ (by norm_num)⟩ : Fin 3276800))

/-- The number of the tile's block `k` among all blocks, as a natural number. -/
abbrev blkN (L : grid0.Coords) (k : ℕ) : ℕ := 800 * ((L 1).val + 16 * (L 0).val) + k

/-- The hour-word stream before trip `k`: what is left of its read share, the fetch of block `k` in flight into slot `k % 2` from
    the block's window of the flattened words (after the last trip: that slot free), and slot `(k + 1) % 2` free. -/
def inStream0 (X : IVec S1x3276800 32) (k : ℕ) : sProp 𝕄 :=
  iprop((x0Loc d ↦{shareDrop (inTok (tL L)) (k + 1)} X)
    ∗ (if h : k < 800 then
        iprop(∃ cur : IVec S2x1x128 32, ⌜WordsOK X (blkN L k) k cur⌝
          ∗ Transfers.Flight countersEmb (thr d L) (cellC cc0_scoped4 k) (default : HIx 1) 4096
              iprop(((wSlotC w0V k).view.loc (thr d L) ↦[(wSlotC w0V k).view.set]{fullShare} cur)
                ∗ ((xWin x0V (k0_off36 L (A19 k)) (off36_inb L ⟨k, by rw [trips_eq]; exact h⟩)).view.loc (thr d L)
                    ↦[(xWin x0V (k0_off36 L (A19 k)) (off36_inb L ⟨k, by rw [trips_eq]; exact h⟩)).view.set]{Transfers.shareTokN (inTok (tL L)) k} X)))
      else iprop((∃ cur : IVec S2x1x128 32, (wSlotC w0V k).view.loc (thr d L) ↦[(wSlotC w0V k).view.set]{fullShare} cur) ∗ semVal (thr d L, cellC cc0_scoped4 k) 0))
    ∗ (∃ f : IVec S2x1x128 32, (wSlotC w0V (k + 1)).view.loc (thr d L) ↦[(wSlotC w0V (k + 1)).view.set]{fullShare} f)
    ∗ semVal (thr d L, cellC cc0_scoped4 (k + 1)) 0)

/-- The minute-word stream before trip `k`: what is left of its read share, the fetch of block `k` in flight into slot `k % 2` from
    the block's window of the flattened words (after the last trip: that slot free), and slot `(k + 1) % 2` free. -/
def inStream1 (X : IVec S1x3276800 32) (k : ℕ) : sProp 𝕄 :=
  iprop((x1Loc d ↦{shareDrop (inTok (tL L)) (k + 1)} X)
    ∗ (if h : k < 800 then
        iprop(∃ cur : IVec S2x1x128 32, ⌜WordsOK X (blkN L k) k cur⌝
          ∗ Transfers.Flight countersEmb (thr d L) (cellC cc0_scoped6 k) (default : HIx 1) 4096
              iprop(((wSlotC w1V k).view.loc (thr d L) ↦[(wSlotC w1V k).view.set]{fullShare} cur)
                ∗ ((xWin x1V (k0_off39 L (A19 k)) (off39_inb L ⟨k, by rw [trips_eq]; exact h⟩)).view.loc (thr d L)
                    ↦[(xWin x1V (k0_off39 L (A19 k)) (off39_inb L ⟨k, by rw [trips_eq]; exact h⟩)).view.set]{Transfers.shareTokN (inTok (tL L)) k} X)))
      else iprop((∃ cur : IVec S2x1x128 32, (wSlotC w1V k).view.loc (thr d L) ↦[(wSlotC w1V k).view.set]{fullShare} cur) ∗ semVal (thr d L, cellC cc0_scoped6 k) 0))
    ∗ (∃ f : IVec S2x1x128 32, (wSlotC w1V (k + 1)).view.loc (thr d L) ↦[(wSlotC w1V (k + 1)).view.set]{fullShare} f)
    ∗ semVal (thr d L, cellC cc0_scoped6 (k + 1)) 0)

/-- The result side before trip `k`: staging slot `k % 2` free, the copy-out of block `k - 1` in flight from slot
    `(k + 1) % 2` (before the first trip: that slot free), the blocks before `k - 1` final, those from `k` on untouched. -/
def outStream (k : ℕ) : sProp 𝕄 :=
  iprop((∃ f : FVec F S2x128x128 .f32, (sSlotC k).view.loc (thr d L) ↦[(sSlotC k).view.set]{fullShare} f)
    ∗ semVal (thr d L, cellC cc0_scoped8 k) 0
    ∗ (if 0 < k then
        iprop(∃ (f : FVec F S2x128x128 .f32) (B : Fin 25600), ⌜B.val = blkN L (k - 1)⌝
          ∗ Transfers.Flight countersEmb (thr d L) (cellC cc0_scoped8 (k + 1)) (default : HIx 1) 524288
              iprop((oLoc d ↦[oblk B]{fullShare} OUTv m X0v X1v d)
                ∗ ((sSlotC (k + 1)).view.loc (thr d L) ↦[(sSlotC (k + 1)).view.set]{fullShare} f)))
      else iprop((∃ f : FVec F S2x128x128 .f32, (sSlotC (k + 1)).view.loc (thr d L) ↦[(sSlotC (k + 1)).view.set]{fullShare} f)
            ∗ semVal (thr d L, cellC cc0_scoped8 (k + 1)) 0))
    ∗ (bigSep (Finset.univ.filter fun b : Fin 800 => k ≤ b.val) fun b => iprop(∃ f, oLoc d ↦[oblk (blkNo (tL L) b)]{fullShare} f))
    ∗ (bigSep (Finset.univ.filter fun b : Fin 800 => b.val + 1 < k) fun b => oLoc d ↦[oblk (blkNo (tL L) b)]{fullShare} OUTv m X0v X1v d))

/-- Before trip `k` of the pipeline. -/
def inv2 (g : Buf (Elt F) (shLoc d (cV L))) (O : CellTallies nD τ sig (HIx 1)) (W : Waits sig (HIx 1)) (k : ℕ)
    (acc : BitVec 32 × BitVec 32 × BitVec 32 × BitVec 32 × BitVec 32 × BitVec 32 × BitVec 32) : sProp 𝕄 :=
  iprop(⌜acc = accAt k⌝ ∗ Transfers.MayWaits (thr d L) (default : HIx 1) O
    ∗ ((shV).view.loc (thr d L) ↦{shTok (jL L)} g)
    ∗ (∃ fi, (idxV).view.loc (thr d L) ↦{fullShare} fi)
    ∗ semVal (dcell d L ⟨9, by decide⟩) 0
    ∗ inStream0 (F := F) d L (X0v d) k
    ∗ inStream1 (F := F) d L (X1v d) k
    ∗ outStream m X0v X1v d L k
    ∗ ∃ W', ⌜∀ p ∈ W', p ∈ W ∨ p.2 = none⌝ ∗ owes (thr d L) O W')

/-! ## Respellings: a slot under the name the program's chain gives it at a word, and under its number -/

omit [FloatOps F] in
/-- The tile's block `k` has number `800 t + k` among all blocks. -/
theorem blkNo_val (k : Fin 800) : (blkNo (tL L) k).val = blkN L k.val := by
  show (tL L).val * 800 + k.val = 800 * ((L 1).val + 16 * (L 0).val) + k.val
  have : (tL L).val = (L 1).val + 16 * (L 0).val := rfl
  rw [this]; ring

/-- A block of the result as the program slices it is the block as the call hands it over. -/
theorem pts_oWin (off : Fin 2 → Nat) (h : ∀ a, off a + S128x128.size a ≤ S3276800x128.size a) (B : Fin 25600) (e : off = ![128 * B.val, 0]) (f : Buf (Elt F) (oLoc d)) :
    ((oWin off h).view.loc (thr d L) ↦[(oWin off h).view.set]{fullShare} f : sProp 𝕄) = oLoc d ↦[oblk B]{fullShare} f := by
  rw [set_oWin B off h e]

omit [FloatOps F] in
theorem untouched_split (k : ℕ) (hk : k < 800) : (Finset.univ.filter fun b : Fin 800 => k ≤ b.val) = insert (⟨k, hk⟩ : Fin 800) (Finset.univ.filter fun b : Fin 800 => k + 1 ≤ b.val) := by
  ext b; simp only [Finset.mem_filter, Finset.mem_univ, true_and, Finset.mem_insert, Fin.ext_iff]; omega
omit [FloatOps F] in
theorem done_split (k : ℕ) (hk0 : 0 < k) (hk : k ≤ 800) : (Finset.univ.filter fun b : Fin 800 => b.val + 1 < k + 1) = insert (⟨k - 1, by omega⟩ : Fin 800) (Finset.univ.filter fun b : Fin 800 => b.val + 1 < k) := by
  ext b; simp only [Finset.mem_filter, Finset.mem_univ, true_and, Finset.mem_insert, Fin.ext_iff]; omega

theorem w0_open (s : ℕ) {o : Fin 3 → Nat} (e : slot3 s = o) (h : ∀ a, o a + S1x1x128.size a ≤ S2x1x128.size a) :
    iprop(∃ f : IVec S2x1x128 32, (wSlotC w0V s).view.loc (thr d L) ↦[(wSlotC w0V s).view.set]{fullShare} f)
      ⊢ (iprop(∃ f : IVec S2x1x128 32, (wSlot w0V o h).view.loc (thr d L) ↦[(wSlot w0V o h).view.set]{fullShare} f) : sProp 𝕄) := by
  subst e; exact BI.Entails.refl _
theorem w0_fold (s : ℕ) {o : Fin 3 → Nat} (e : o = slot3 s) (h : ∀ a, o a + S1x1x128.size a ≤ S2x1x128.size a) (f : IVec S2x1x128 32) :
    ((wSlot w0V o h).view.loc (thr d L) ↦[(wSlot w0V o h).view.set]{fullShare} f : sProp 𝕄)
      ⊢ (wSlotC w0V s).view.loc (thr d L) ↦[(wSlotC w0V s).view.set]{fullShare} f := by
  subst e; exact BI.Entails.refl _

theorem w1_open (s : ℕ) {o : Fin 3 → Nat} (e : slot3 s = o) (h : ∀ a, o a + S1x1x128.size a ≤ S2x1x128.size a) :
    iprop(∃ f : IVec S2x1x128 32, (wSlotC w1V s).view.loc (thr d L) ↦[(wSlotC w1V s).view.set]{fullShare} f)
      ⊢ (iprop(∃ f : IVec S2x1x128 32, (wSlot w1V o h).view.loc (thr d L) ↦[(wSlot w1V o h).view.set]{fullShare} f) : sProp 𝕄) := by
  subst e; exact BI.Entails.refl _
theorem w1_fold (s : ℕ) {o : Fin 3 → Nat} (e : o = slot3 s) (h : ∀ a, o a + S1x1x128.size a ≤ S2x1x128.size a) (f : IVec S2x1x128 32) :
    ((wSlot w1V o h).view.loc (thr d L) ↦[(wSlot w1V o h).view.set]{fullShare} f : sProp 𝕄)
      ⊢ (wSlotC w1V s).view.loc (thr d L) ↦[(wSlotC w1V s).view.set]{fullShare} f := by
  subst e; exact BI.Entails.refl _

theorem st_open (s : ℕ) {o : Fin 3 → Nat} (e : slot3 s = o) (h : ∀ a, o a + S1x128x128.size a ≤ S2x128x128.size a) :
    iprop(∃ f : FVec F S2x128x128 .f32, (sSlotC s).view.loc (thr d L) ↦[(sSlotC s).view.set]{fullShare} f)
      ⊢ (iprop(∃ f : FVec F S2x128x128 .f32, (sSlot o h).view.loc (thr d L) ↦[(sSlot o h).view.set]{fullShare} f) : sProp 𝕄) := by
  subst e; exact BI.Entails.refl _
theorem st_fold (s : ℕ) {o : Fin 3 → Nat} (e : o = slot3 s) (h : ∀ a, o a + S1x128x128.size a ≤ S2x128x128.size a) (f : FVec F S2x128x128 .f32) :
    ((sSlot o h).view.loc (thr d L) ↦[(sSlot o h).view.set]{fullShare} f : sProp 𝕄)
      ⊢ (sSlotC s).view.loc (thr d L) ↦[(sSlotC s).view.set]{fullShare} f := by
  subst e; exact BI.Entails.refl _

theorem w0_flight_open (s : ℕ) (sm : SemLoc sig) {o : Fin 3 → Nat} (e : slot3 s = o) (h : ∀ a, o a + S1x1x128.size a ≤ S2x1x128.size a) (cur : IVec S2x1x128 32) (Src : sProp 𝕄) :
    (Transfers.Flight countersEmb (thr d L) sm (default : HIx 1) 4096 iprop(((wSlotC w0V s).view.loc (thr d L) ↦[(wSlotC w0V s).view.set]{fullShare} cur) ∗ Src) : sProp 𝕄)
      ⊢ Transfers.Flight countersEmb (thr d L) sm (default : HIx 1) 4096 iprop(((wSlot w0V o h).view.loc (thr d L) ↦[(wSlot w0V o h).view.set]{fullShare} cur) ∗ Src) := by
  subst e; exact BI.Entails.refl _

theorem w1_flight_open (s : ℕ) (sm : SemLoc sig) {o : Fin 3 → Nat} (e : slot3 s = o) (h : ∀ a, o a + S1x1x128.size a ≤ S2x1x128.size a) (cur : IVec S2x1x128 32) (Src : sProp 𝕄) :
    (Transfers.Flight countersEmb (thr d L) sm (default : HIx 1) 4096 iprop(((wSlotC w1V s).view.loc (thr d L) ↦[(wSlotC w1V s).view.set]{fullShare} cur) ∗ Src) : sProp 𝕄)
      ⊢ Transfers.Flight countersEmb (thr d L) sm (default : HIx 1) 4096 iprop(((wSlot w1V o h).view.loc (thr d L) ↦[(wSlot w1V o h).view.set]{fullShare} cur) ∗ Src) := by
  subst e; exact BI.Entails.refl _

/-! ## What a trip's transfers leave -/

/-- The hour-word buffer after the prefetch of a window of the flattened words into one of its slots. -/
abbrev landed0 (o3 : Fin 3 → Nat) (h3 : ∀ a, o3 a + S1x1x128.size a ≤ S2x1x128.size a) (o2 : Fin 2 → Nat) (h2 : ∀ a, o2 a + S1x128.size a ≤ S1x3276800.size a)
    (fA : IVec S2x1x128 32) (X : IVec S1x3276800 32) : IVec S2x1x128 32 :=
  View.write (Elt F) (((w0V).slice (Rect.unit (s := S2x1x128) o3 S1x1x128.size h3) (fun _ => rfl)).squeeze S1x128 squeezes_S1x1x128_S1x128).view fA
    (ReadAs.same.apply (View.read (Elt F) ((x0V).slice (Rect.unit (s := S1x3276800) o2 S1x128.size h2) (fun _ => rfl)).view X)) Finset.univ
abbrev landed1 (o3 : Fin 3 → Nat) (h3 : ∀ a, o3 a + S1x1x128.size a ≤ S2x1x128.size a) (o2 : Fin 2 → Nat) (h2 : ∀ a, o2 a + S1x128.size a ≤ S1x3276800.size a)
    (fA : IVec S2x1x128 32) (X : IVec S1x3276800 32) : IVec S2x1x128 32 :=
  View.write (Elt F) (((w1V).slice (Rect.unit (s := S2x1x128) o3 S1x1x128.size h3) (fun _ => rfl)).squeeze S1x128 squeezes_S1x1x128_S1x128).view fA
    (ReadAs.same.apply (View.read (Elt F) ((x1V).slice (Rect.unit (s := S1x3276800) o2 S1x128.size h2) (fun _ => rfl)).view X)) Finset.univ

omit [FloatOps F] in
/-- A block number below 25600 puts its 128 positions inside the flattened words. -/
theorem blk_pos_lt {B : ℕ} (hB : B < 25600) (lane : Fin 128) : 128 * B + lane.val < 3276800 := by have := lane.isLt; omega
omit [FloatOps F] in
theorem blkN_lt (k : ℕ) (hk : k < 800) : blkN L k < 25600 := by
  have h1 := (L 1).isLt; have h0 := (L 0).isLt
  have : grid0.bound 1 = 16 := rfl
  have : grid0.bound 0 = 2 := rfl
  unfold blkN; omega

omit [FloatOps F] in
/-- The words a prefetch of block `B` into slot `s` leaves there are block `B`'s. -/
theorem landed0_ok (s : ℕ) (B : ℕ) (hB : B < 25600) (o3 : Fin 3 → Nat) (h3 : ∀ a, o3 a + S1x1x128.size a ≤ S2x1x128.size a) (ho3 : o3 = slot3 s)
    (o2 : Fin 2 → Nat) (h2 : ∀ a, o2 a + S1x128.size a ≤ S1x3276800.size a) (ho2 : o2 = ![0, 128 * B]) (fA : IVec S2x1x128 32) (X : IVec S1x3276800 32) :
    WordsOK X B s (landed0 (F := F) o3 h3 o2 h2 fA X) := by
  intro lane
  have hc : 128 * B + 128 ≤ 3276800 := by omega
  refine (words_landed0 (F := F) o3 h3 o2 h2 fA X ⟨s % 2, Nat.mod_lt _ (by norm_num)⟩ ho3 (128 * B) ho2 hc lane).trans ?_
  congr 2; exact Fin.ext (Nat.mod_eq_of_lt (blk_pos_lt hB lane)).symm
omit [FloatOps F] in
theorem landed1_ok (s : ℕ) (B : ℕ) (hB : B < 25600) (o3 : Fin 3 → Nat) (h3 : ∀ a, o3 a + S1x1x128.size a ≤ S2x1x128.size a) (ho3 : o3 = slot3 s)
    (o2 : Fin 2 → Nat) (h2 : ∀ a, o2 a + S1x128.size a ≤ S1x3276800.size a) (ho2 : o2 = ![0, 128 * B]) (fA : IVec S2x1x128 32) (X : IVec S1x3276800 32) :
    WordsOK X B s (landed1 (F := F) o3 h3 o2 h2 fA X) := by
  intro lane
  have hc : 128 * B + 128 ≤ 3276800 := by omega
  refine (words_landed1 (F := F) o3 h3 o2 h2 fA X ⟨s % 2, Nat.mod_lt _ (by norm_num)⟩ ho3 (128 * B) ho2 hc lane).trans ?_
  congr 2; exact Fin.ext (Nat.mod_eq_of_lt (blk_pos_lt hB lane)).symm

omit [FloatOps F] in
/-- A window of the flattened words under two names of one offset. -/
theorem x0win_congr {o o' : Fin 2 → Nat} (e : o = o') (h : ∀ a, o a + S1x128.size a ≤ S1x3276800.size a) (h' : ∀ a, o' a + S1x128.size a ≤ S1x3276800.size a)
    (q : PosShare TreeShare) (X : IVec S1x3276800 32) :
    ((xWin x0V o h).view.loc (thr d L) ↦[(xWin x0V o h).view.set]{q} X : sProp 𝕄) = (xWin x0V o' h').view.loc (thr d L) ↦[(xWin x0V o' h').view.set]{q} X := by
  subst e; rfl
omit [FloatOps F] in
theorem x1win_congr {o o' : Fin 2 → Nat} (e : o = o') (h : ∀ a, o a + S1x128.size a ≤ S1x3276800.size a) (h' : ∀ a, o' a + S1x128.size a ≤ S1x3276800.size a)
    (q : PosShare TreeShare) (X : IVec S1x3276800 32) :
    ((xWin x1V o h).view.loc (thr d L) ↦[(xWin x1V o h).view.set]{q} X : sProp 𝕄) = (xWin x1V o' h').view.loc (thr d L) ↦[(xWin x1V o' h').view.set]{q} X := by
  subst e; rfl

/-- The staging slot a copy-out read from, held by the elements of its squeezed view, is the slot of its number. -/
theorem stg_src_fold (s : ℕ) {o43 o44 : Fin 3 → Nat} (e43 : o43 = slot3 s) (e44 : o44 = slot3 s) (h43 : ∀ a, o43 a + S1x128x128.size a ≤ S2x128x128.size a)
    (h44 : ∀ a, o44 a + S1x128x128.size a ≤ S2x128x128.size a) (f : FVec F S2x128x128 .f32) :
    ((sSlot o43 h43).view.loc (thr d L) ↦[(((stgV).slice (Rect.unit (s := S2x128x128) o44 S1x128x128.size h44) (fun _ => rfl)).squeeze S128x128 squeezes_S1x128x128_S128x128).view.set]{fullShare} f : sProp 𝕄)
      ⊢ (sSlotC s).view.loc (thr d L) ↦[(sSlotC s).view.set]{fullShare} f := by
  subst e43 e44
  refine Entails.of_eq ?_
  congr 1
  show ((((stgV).view.slice (Rect.unit (s := S2x128x128) (slot3 s) S1x128x128.size h44)).reshape S128x128 squeezes_S1x128x128_S128x128.numel_eq).set) = _
  rw [View.set_reshape]

/-- The word slot a prefetch wrote, held by the elements of its squeezed view, is the slot of its number. -/
theorem w0_dst_fold (s : ℕ) {o : Fin 3 → Nat} (e : o = slot3 s) (h : ∀ a, o a + S1x1x128.size a ≤ S2x1x128.size a) (f : IVec S2x1x128 32) :
    ((wSlot w0V o h).view.loc (thr d L) ↦[(((w0V).slice (Rect.unit (s := S2x1x128) o S1x1x128.size h) (fun _ => rfl)).squeeze S1x128 squeezes_S1x1x128_S1x128).view.set]{fullShare} f : sProp 𝕄)
      ⊢ (wSlotC w0V s).view.loc (thr d L) ↦[(wSlotC w0V s).view.set]{fullShare} f := by
  subst e
  refine Entails.of_eq ?_
  congr 1
  show ((((w0V).view.slice (Rect.unit (s := S2x1x128) (slot3 s) S1x1x128.size h)).reshape S1x128 squeezes_S1x1x128_S1x128.numel_eq).set) = _
  rw [View.set_reshape]

/-- The word slot a prefetch wrote, held by the elements of its squeezed view, is the slot of its number. -/
theorem w1_dst_fold (s : ℕ) {o : Fin 3 → Nat} (e : o = slot3 s) (h : ∀ a, o a + S1x1x128.size a ≤ S2x1x128.size a) (f : IVec S2x1x128 32) :
    ((wSlot w1V o h).view.loc (thr d L) ↦[(((w1V).slice (Rect.unit (s := S2x1x128) o S1x1x128.size h) (fun _ => rfl)).squeeze S1x128 squeezes_S1x1x128_S1x128).view.set]{fullShare} f : sProp 𝕄)
      ⊢ (wSlotC w1V s).view.loc (thr d L) ↦[(wSlotC w1V s).view.set]{fullShare} f := by
  subst e
  refine Entails.of_eq ?_
  congr 1
  show ((((w1V).view.slice (Rect.unit (s := S2x1x128) (slot3 s) S1x1x128.size h)).reshape S1x128 squeezes_S1x1x128_S1x128.numel_eq).set) = _
  rw [View.set_reshape]

end Cert.KernelIdeal.Hand
end
-- ==== Proof.PipeTrips.lean ====
/-
  One trip of the pipeline keeps its invariant.

  In trip `k` the tile: starts the fetch of block `k + 1`'s hour and minute words into the free slot of each word buffer
  (not in the last trip); waits for block `k`'s words; forms the 128 index words `64 · hour + minute` — each below 4608
  and with a minute below 60 because the precondition bounds the words by 59 —; gathers those rows of the table into
  the free staging slot; starts the copy of that slot out to block `k`'s rows of the result; and waits for block
  `k - 1`'s copy-out (not in the first trip). Each resource then sits where the invariant of trip `k + 1` wants it: the
  slot just read is the next prefetch's target, the slot just filled is in flight out, the staging slot whose copy-out
  landed is the next gather's target, and the landed block holds the hour row plus the minute row of each of its
  positions. The three cases (first, middle, last trip) differ only in which of the optional stages run.
-/
import proofs.«204352_g17334488006705_cont_7to1_713_23_alg».proof.Proof.PipeInv

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## One trip, in the middle of the loop -/

set_option maxHeartbeats 32000000 in
/-- A trip `0 < k < 799`: every stage runs. -/
theorem trip_mid (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk0 : 0 < k.val) (hk1 : k.val < 799)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  generalize hΦ : inv2 (F := F) m X0v X1v d L g O W (k.val + 1) = Φ
  unfold inv2 inStream0 inStream1 outStream
  rw [dif_pos hk8, dif_pos hk8, if_pos hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_lt L k hk1
  have hc2 := cond2_lt L k hk1
  have hc3 := cond3_all L k
  have hc4 := cond4_all L k
  have hc8 := cond8_all L k
  have hc11 := cond11_pos L k hk0
  have e13 : A13 k.val = BitVec.ofNat 32 (k.val + 1) := A13_eq_A14_succ hk1
  have e18 : slot3 (k.val + 1) = slot3 (k.val - 1) := by
    have : k.val + 1 = (k.val - 1) + 2 := by omega
    rw [this, slot3_add_two]
  have e18' : slot1 (k.val + 1) = slot1 (k.val - 1) := by
    have : k.val + 1 = (k.val - 1) + 2 := by omega
    rw [this, slot1_add_two]
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 k.val = semAt cc0_scoped8 (k0_off46 (A14 k.val)) (off46_inb _) from semAt_congr _ (off46_ofNat _).symm _ _,
    show cellC cc0_scoped8 (k.val + 1) = semAt cc0_scoped8 (k0_off49 (A18 k.val)) (off49_inb _) from semAt_congr _ (e18'.trans (off49_ofNat _).symm) _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨%fp, %Bp, %hBp, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hw0n := (w0_open (F := F) d L (k.val + 1) (show slot3 (k.val + 1) = k0_off29 (A13 k.val) from (e13 ▸ (off29_ofNat _).symm)) (off29_inb _)) $$ Hw0n
  icases Hw0n with ⟨%fA, Hw0n⟩
  ihave Hw1n := (w1_open (F := F) d L (k.val + 1) (show slot3 (k.val + 1) = k0_off32 (A13 k.val) from (e13 ▸ (off32_ofNat _).symm)) (off32_inb _)) $$ Hw1n
  icases Hw1n with ⟨%fA1, Hw1n⟩
  ihave Hstg := (st_open (F := F) d L k.val (show slot3 k.val = k0_off43 (A14 k.val) from (off43_ofNat _).symm) hw4) $$ Hstg
  icases Hstg with ⟨%fs, Hstg⟩
  -- a read token of each word stream for the prefetch
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  ihave Hx0t := (Entails.of_eq (pts_x0V (F := F) d L _ _).symm) $$ Hx0t
  ihave Hx1t := (Entails.of_eq (pts_x1V (F := F) d L _ _).symm) $$ Hx1t
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : k.val + 1 < 800 := by omega
  unfold inv2 inStream0 inStream1 outStream
  rw [dif_pos hk9, dif_pos hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 (k.val + 1) = semAt cc0_scoped8 (k0_off49 (A18 k.val)) (off49_inb _) from semAt_congr _ (e18'.trans (off49_ofNat _).symm) _ _]
  have hB : blkN L (k.val + 1) < 25600 := blkN_lt L _ hk9
  have e30 : k0_off30 L (A19 k.val) = ![0, 128 * blkN L (k.val + 1)] := off30_eq L k hk1
  have e33 : k0_off33 L (A19 k.val) = ![0, 128 * blkN L (k.val + 1)] := off33_eq L k hk1
  have e36 : k0_off30 L (A19 k.val) = k0_off36 L (A19 (k.val + 1)) := by rw [e30, off36_eq L ⟨k.val + 1, by have := trips_eq; omega⟩]
  have e39 : k0_off33 L (A19 k.val) = k0_off39 L (A19 (k.val + 1)) := by rw [e33, off39_eq L ⟨k.val + 1, by have := trips_eq; omega⟩]
  -- the yielded words are the next trip's
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: block k + 1 is in flight into the slot the prefetch took, the slot just read is free
  isplitl [Hx0 Hs0n F0_dst F0]
  · isplitl [Hx0]; · iexact Hx0
    isplitl [Hs0n]
    · iexists (landed0 (F := F) (k0_off29 (A13 k.val)) (off29_inb _) (k0_off30 L (A19 k.val)) (off30_inb L k) fA (X0v d))
      isplitr
      · ipureintro
        exact landed0_ok (F := F) (k.val + 1) (blkN L (k.val + 1)) hB _ _ (e13 ▸ off29_ofNat (k.val + 1)) _ _ e30 fA (X0v d)
      · iapply (Transfers.Flight_mono countersEmb (thr d L) (BI.sep_mono (w0_dst_fold (F := F) d L (k.val + 1) (e13 ▸ off29_ofNat (k.val + 1)) (off29_inb _) _)
          (Entails.of_eq (x0win_congr (F := F) d L e36 (off30_inb L k) _ _ (X0v d)))))
        iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hs1n F1_dst F1]
  · isplitl [Hx1]; · iexact Hx1
    isplitl [Hs1n]
    · iexists (landed1 (F := F) (k0_off32 (A13 k.val)) (off32_inb _) (k0_off33 L (A19 k.val)) (off33_inb L k) fA1 (X1v d))
      isplitr
      · ipureintro
        exact landed1_ok (F := F) (k.val + 1) (blkN L (k.val + 1)) hB _ _ (e13 ▸ off32_ofNat (k.val + 1)) _ _ e33 fA1 (X1v d)
      · iapply (Transfers.Flight_mono countersEmb (thr d L) (BI.sep_mono (w1_dst_fold (F := F) d L (k.val + 1) (e13 ▸ off32_ofNat (k.val + 1)) (off32_inb _) _)
          (Entails.of_eq (x1win_congr (F := F) d L e39 (off33_inb L k) _ _ (X1v d)))))
        iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  have hkm : k.val - 1 < 800 := Nat.lt_of_le_of_lt (Nat.sub_le _ _) hk8
  have hBp' : Bp = blkNo (tL L) ⟨k.val - 1, hkm⟩ := Fin.ext (hBp.trans (blkNo_val L ⟨k.val - 1, hkm⟩).symm)
  subst hBp'
  isplitl [FO_src FO HsO Hun Hdn FO_dst]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [done_split k.val hk0 (by omega), SparseCore.bigSep_insert' (by simp only [Finset.mem_filter, Finset.mem_univ, _root_.true_and]; omega)]
    isplitl [FO_dst]; · iexact FO_dst
    iexact Hdn
  -- the waits recorded
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact hW' p hp

/-! ## The first trip -/

set_option maxHeartbeats 32000000 in
/-- Trip `0`: no copy-out is in flight yet; the other staging slot and its cell stay free. -/
theorem trip_first (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk : k.val = 0)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  have hk1 : k.val < 799 := by omega
  have hk0 : ¬ 0 < k.val := by omega
  generalize hΦ : inv2 (F := F) m X0v X1v d L g O W (k.val + 1) = Φ
  unfold inv2 inStream0 inStream1 outStream
  rw [dif_pos hk8, dif_pos hk8, if_neg hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_lt L k hk1
  have hc2 := cond2_lt L k hk1
  have hc3 := cond3_all L k
  have hc4 := cond4_all L k
  have hc8 := cond8_all L k
  have hc11 := cond11_first L k hk
  have e13 : A13 k.val = BitVec.ofNat 32 (k.val + 1) := A13_eq_A14_succ hk1
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 k.val = semAt cc0_scoped8 (k0_off46 (A14 k.val)) (off46_inb _) from semAt_congr _ (off46_ofNat _).symm _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨⟨%fp, FO_src⟩, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hw0n := (w0_open (F := F) d L (k.val + 1) (show slot3 (k.val + 1) = k0_off29 (A13 k.val) from (e13 ▸ (off29_ofNat _).symm)) (off29_inb _)) $$ Hw0n
  icases Hw0n with ⟨%fA, Hw0n⟩
  ihave Hw1n := (w1_open (F := F) d L (k.val + 1) (show slot3 (k.val + 1) = k0_off32 (A13 k.val) from (e13 ▸ (off32_ofNat _).symm)) (off32_inb _)) $$ Hw1n
  icases Hw1n with ⟨%fA1, Hw1n⟩
  ihave Hstg := (st_open (F := F) d L k.val (show slot3 k.val = k0_off43 (A14 k.val) from (off43_ofNat _).symm) hw4) $$ Hstg
  icases Hstg with ⟨%fs, Hstg⟩
  -- a read token of each word stream for the prefetch
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  ihave Hx0t := (Entails.of_eq (pts_x0V (F := F) d L _ _).symm) $$ Hx0t
  ihave Hx1t := (Entails.of_eq (pts_x1V (F := F) d L _ _).symm) $$ Hx1t
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : k.val + 1 < 800 := by omega
  unfold inv2 inStream0 inStream1 outStream
  rw [dif_pos hk9, dif_pos hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _]
  have hB : blkN L (k.val + 1) < 25600 := blkN_lt L _ hk9
  have e30 : k0_off30 L (A19 k.val) = ![0, 128 * blkN L (k.val + 1)] := off30_eq L k hk1
  have e33 : k0_off33 L (A19 k.val) = ![0, 128 * blkN L (k.val + 1)] := off33_eq L k hk1
  have e36 : k0_off30 L (A19 k.val) = k0_off36 L (A19 (k.val + 1)) := by rw [e30, off36_eq L ⟨k.val + 1, by have := trips_eq; omega⟩]
  have e39 : k0_off33 L (A19 k.val) = k0_off39 L (A19 (k.val + 1)) := by rw [e33, off39_eq L ⟨k.val + 1, by have := trips_eq; omega⟩]
  -- the yielded words are the next trip's
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: block k + 1 is in flight into the slot the prefetch took, the slot just read is free
  isplitl [Hx0 Hs0n F0_dst F0]
  · isplitl [Hx0]; · iexact Hx0
    isplitl [Hs0n]
    · iexists (landed0 (F := F) (k0_off29 (A13 k.val)) (off29_inb _) (k0_off30 L (A19 k.val)) (off30_inb L k) fA (X0v d))
      isplitr
      · ipureintro
        exact landed0_ok (F := F) (k.val + 1) (blkN L (k.val + 1)) hB _ _ (e13 ▸ off29_ofNat (k.val + 1)) _ _ e30 fA (X0v d)
      · iapply (Transfers.Flight_mono countersEmb (thr d L) (BI.sep_mono (w0_dst_fold (F := F) d L (k.val + 1) (e13 ▸ off29_ofNat (k.val + 1)) (off29_inb _) _)
          (Entails.of_eq (x0win_congr (F := F) d L e36 (off30_inb L k) _ _ (X0v d)))))
        iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hs1n F1_dst F1]
  · isplitl [Hx1]; · iexact Hx1
    isplitl [Hs1n]
    · iexists (landed1 (F := F) (k0_off32 (A13 k.val)) (off32_inb _) (k0_off33 L (A19 k.val)) (off33_inb L k) fA1 (X1v d))
      isplitr
      · ipureintro
        exact landed1_ok (F := F) (k.val + 1) (blkN L (k.val + 1)) hB _ _ (e13 ▸ off32_ofNat (k.val + 1)) _ _ e33 fA1 (X1v d)
      · iapply (Transfers.Flight_mono countersEmb (thr d L) (BI.sep_mono (w1_dst_fold (F := F) d L (k.val + 1) (e13 ▸ off32_ofNat (k.val + 1)) (off32_inb _) _)
          (Entails.of_eq (x1win_congr (F := F) d L e39 (off33_inb L k) _ _ (X1v d)))))
        iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  isplitl [FO_src FO HsO Hun Hdn]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [show (Finset.univ.filter fun b : Fin 800 => b.val + 1 < k.val + 1) = (Finset.univ.filter fun b : Fin 800 => b.val + 1 < k.val) from by
      ext b; simp only [Finset.mem_filter, Finset.mem_univ, _root_.true_and]; omega]
    iexact Hdn
  -- the waits recorded
  iexists _; isplitr
  swap; · iexact HO
  ipureintro; intro p hp
  simp only [Finset.mem_insert] at hp
  rcases hp with rfl | rfl | rfl | hp
  · exact .inr rfl
  · exact .inr rfl
  · exact .inr rfl
  · exact hW' p hp

/-! ## The last trip -/

set_option maxHeartbeats 32000000 in
/-- Trip `799`: there is no next block to prefetch; the word slot and cell the prefetch would have taken stay free. -/
theorem trip_last (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk : k.val = 799)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  have hk0 : 0 < k.val := by omega
  generalize hΦ : inv2 (F := F) m X0v X1v d L g O W (k.val + 1) = Φ
  unfold inv2 inStream0 inStream1 outStream
  rw [dif_pos hk8, dif_pos hk8, if_pos hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_last L k hk
  have hc2 := cond2_last L k hk
  have hc3 := cond3_all L k
  have hc4 := cond4_all L k
  have hc8 := cond8_all L k
  have hc11 := cond11_pos L k hk0
  have e18 : slot3 (k.val + 1) = slot3 (k.val - 1) := by
    have : k.val + 1 = (k.val - 1) + 2 := by omega
    rw [this, slot3_add_two]
  have e18' : slot1 (k.val + 1) = slot1 (k.val - 1) := by
    have : k.val + 1 = (k.val - 1) + 2 := by omega
    rw [this, slot1_add_two]
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped8 k.val = semAt cc0_scoped8 (k0_off46 (A14 k.val)) (off46_inb _) from semAt_congr _ (off46_ofNat _).symm _ _,
    show cellC cc0_scoped8 (k.val + 1) = semAt cc0_scoped8 (k0_off49 (A18 k.val)) (off49_inb _) from semAt_congr _ (e18'.trans (off49_ofNat _).symm) _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨%fp, %Bp, %hBp, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hstg := (st_open (F := F) d L k.val (show slot3 k.val = k0_off43 (A14 k.val) from (off43_ofNat _).symm) hw4) $$ Hstg
  icases Hstg with ⟨%fs, Hstg⟩
  -- the read shares are cut as in every trip (the token is not used)
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : ¬ k.val + 1 < 800 := by omega
  unfold inv2 inStream0 inStream1 outStream
  rw [dif_neg hk9, dif_neg hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped8 (k.val + 1) = semAt cc0_scoped8 (k0_off49 (A18 k.val)) (off49_inb _) from semAt_congr _ (e18'.trans (off49_ofNat _).symm) _ _]
  -- the yielded words are the loop's last
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: both slots and cells are free
  isplitl [Hx0 Hw0n Hs0n F0_dst F0]
  · isplitl [Hx0]; · iexact Hx0
    isplitl [Hw0n Hs0n]
    · isplitl [Hw0n]; · iexact Hw0n
      iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hw1n Hs1n F1_dst F1]
  · isplitl [Hx1]; · iexact Hx1
    isplitl [Hw1n Hs1n]
    · isplitl [Hw1n]; · iexact Hw1n
      iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  have hkm : k.val - 1 < 800 := Nat.lt_of_le_of_lt (Nat.sub_le _ _) hk8
  have hBp' : Bp = blkNo (tL L) ⟨k.val - 1, hkm⟩ := Fin.ext (hBp.trans (blkNo_val L ⟨k.val - 1, hkm⟩).symm)
  subst hBp'
  isplitl [FO_src FO HsO Hun Hdn FO_dst]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [done_split k.val hk0 (by omega), SparseCore.bigSep_insert' (by simp only [Finset.mem_filter, Finset.mem_univ, _root_.true_and]; omega)]
    isplitl [FO_dst]; · iexact FO_dst
    iexact Hdn
  -- the waits recorded
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact hW' p hp

/-! ## Every trip -/

/-- Trip `k` of the pipeline takes the invariant before `k` to the invariant before `k + 1`. -/
theorem trip (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  by_cases h0 : k.val = 0
  · exact trip_first (F := F) m X0v X1v d L g hg hx0 hx1 O W k h0 acc
  by_cases h9 : k.val = 799
  · exact trip_last (F := F) m X0v X1v d L g hg hx0 hx1 O W k h9 acc
  have hk := trip_lt k
  exact trip_mid (F := F) m X0v X1v d L g hg hx0 hx1 O W k (by omega) (by omega) acc

end Cert.KernelIdeal.Hand
end
-- ==== Proof.PipeEnds.lean ====
/-
  The two ends of the pipeline, and the pipeline from its trips.

  The second half of a tile's task is: start the fetches of its block 0 (the hour words and the minute words of 128
  positions, into slot 0 of the two word buffers); 800 trips; wait for the copy-out of the last block. The trips are
  proved elsewhere to carry the invariant `inv2` from `k` to `k + 1`. Here:

  * `pipe_entry`: what the task holds when it enters the pipeline, after the two fetches are started, IS the invariant
    before trip 0 — each word buffer and the staging buffer split into their two slots, a read token split off each word
    stream for the fetch in flight, slot 0's contents after the fetch being block 0's words, every block of the result
    untouched and none final;
  * `pipe_loop`: 800 trips take the invariant from 0 to 800, and the two side conditions the program then assumes of the
    carried words hold of the words the invariant names;
  * `pipe_last`: the invariant after trip 799 has one copy-out in flight, that of block 799 from staging slot 1. Once it
    is waited for, block 799 joins the 799 blocks that were final: all 800 are; the slots rejoin into whole buffers;
  * `pipe_spec_of_trips`: the three composed, along the program's own sequencing.
-/
import proofs.«204352_g17334488006705_cont_7to1_713_23_alg».proof.Proof.PipeInv

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## Cells and slots under their two names -/

omit [FloatOps F] in
theorem cell4_even : cellC cc0_scoped4 0 = (SemLoc.dma ⟨3, by decide⟩ : SemLoc sig) := rfl
omit [FloatOps F] in
theorem cell4_odd : cellC cc0_scoped4 1 = (SemLoc.dma ⟨4, by decide⟩ : SemLoc sig) := rfl
omit [FloatOps F] in
theorem cell6_even : cellC cc0_scoped6 0 = (SemLoc.dma ⟨5, by decide⟩ : SemLoc sig) := rfl
omit [FloatOps F] in
theorem cell6_odd : cellC cc0_scoped6 1 = (SemLoc.dma ⟨6, by decide⟩ : SemLoc sig) := rfl
omit [FloatOps F] in
theorem cell8_even : cellC cc0_scoped8 0 = (SemLoc.dma ⟨7, by decide⟩ : SemLoc sig) := rfl
omit [FloatOps F] in
theorem cell8_odd : cellC cc0_scoped8 1 = (SemLoc.dma ⟨8, by decide⟩ : SemLoc sig) := rfl

omit [FloatOps F] in
/-- A slot of the hour-word buffer under two names of one offset. -/
theorem w0slot_respell {o o' : Fin 3 → Nat} (e : o = o') (h : ∀ a, o a + S1x1x128.size a ≤ S2x1x128.size a)
    (h' : ∀ a, o' a + S1x1x128.size a ≤ S2x1x128.size a) (q : PosShare TreeShare) (f : IVec S2x1x128 32) :
    ((wSlot w0V o h).view.loc (thr d L) ↦[(wSlot w0V o h).view.set]{q} f : sProp 𝕄)
      ⊢ (wSlot w0V o' h').view.loc (thr d L) ↦[(wSlot w0V o' h').view.set]{q} f := by
  subst e; exact BI.Entails.refl _
omit [FloatOps F] in
/-- A slot of the minute-word buffer under two names of one offset. -/
theorem w1slot_respell {o o' : Fin 3 → Nat} (e : o = o') (h : ∀ a, o a + S1x1x128.size a ≤ S2x1x128.size a)
    (h' : ∀ a, o' a + S1x1x128.size a ≤ S2x1x128.size a) (q : PosShare TreeShare) (f : IVec S2x1x128 32) :
    ((wSlot w1V o h).view.loc (thr d L) ↦[(wSlot w1V o h).view.set]{q} f : sProp 𝕄)
      ⊢ (wSlot w1V o' h').view.loc (thr d L) ↦[(wSlot w1V o' h').view.set]{q} f := by
  subst e; exact BI.Entails.refl _

/-! ## The tail in three pieces: the first fetches, the loop with its two side conditions, the last wait -/

/-- The wait for the last block's copy-out. -/
def tail3 (L : grid0.Coords) (v47_5_r3 v47_6_r3 : BitVec 32) (k0_hw6 : k0_chk6 L v47_6_r3) (k0_hw5 : k0_chk5 v47_5_r3) :
    Prog (TpuEff nD τ sig (Elt F) Λ₀ (.scVector ((L 0).castLE hcore0) ((L 1).castLE hsub0))) PUnit := do
  let v73_r3 : DmaSems sig S1 := cc0_scoped8.slice (Rect.unit (s := S2) (k0_off52 v47_5_r3) S1.size (k0_off52_inb v47_5_r3 k0_hw5))
  let v74_r3 : DmaSems sig S_ := v73_r3.squeeze S_ squeezes_S1_S_
  let v75_r3 : Memref sig .scVector .hbm S128x128 .f32 := (oV).slice (Rect.unit (s := S3276800x128) (k0_off51 L v47_6_r3) S128x128.size (k0_off51_inb L v47_6_r3 k0_hw6)) (fun _ => rfl)
  let v76_r3 : Memref sig .scVector .vmem S1x128x128 .f32 := (stgV).slice (Rect.unit (s := S2x128x128) (k0_off53 v47_5_r3) S1x128x128.size (k0_off53_inb v47_5_r3 k0_hw5)) (fun _ => rfl)
  let v77_r3 : Memref sig .scVector .vmem S128x128 .f32 := v76_r3.squeeze S128x128 squeezes_S1x128x128_S128x128
  Prog.lift (.waitDma2 v74_r3.sem v77_r3 v75_r3 ((View.wordExact_bits rfl).reshape _ _) (View.wordExact_bits rfl))
  pure ⟨⟩

/-- The loop, then the last wait. -/
def tail2 (L : grid0.Coords) (v6 v34_r3 c0_i32_36_r3 : BitVec 32) :
    Prog (TpuEff nD τ sig (Elt F) Λ₀ (.scVector ((L 0).castLE hcore0) ((L 1).castLE hsub0))) PUnit :=
  k0_part12 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 v6 v34_r3 c0_i32_36_r3 >>= fun r => tail3 (F := F) L r.1 r.2.1 r.2.2.1 r.2.2.2

set_option maxRecDepth 65536 in
/-- The tail is the first fetches followed by the rest. -/
theorem tailProg_eq (L : grid0.Coords) (v6 v10_r3 : BitVec 32) (t : BitVec 1) (c : BitVec 32) :
    tailProg (F := F) L v6 v10_r3 t c = k0_part11 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 v6 v10_r3 t c >>= fun r => tail2 (F := F) L v6 r.1 r.2 := rfl

/-! ## Into the loop: the two fetches of block 0 -/

set_option maxHeartbeats 8000000 in
/-- Before the loop the tile starts the fetches of its block 0 into slot 0 of the two word buffers. What it then holds is
    the invariant before trip 0. -/
theorem pipe_entry (g : Buf (Elt F) (shLoc d (cV L))) (O : CellTallies nD τ sig (HIx 1)) (W1 : Waits sig (HIx 1)) :
    iprop(Transfers.MayWaits (thr d L) (default : HIx 1) O
        ∗ ((x0V).view.loc (thr d L) ↦{inTok (tL L)} (X0v d : Buf (Elt F) (x0Loc d)))
        ∗ ((x1V).view.loc (thr d L) ↦{inTok (tL L)} (X1v d : Buf (Elt F) (x1Loc d)))
        ∗ oBlksAny (F := F) d (tL L)
        ∗ (∃ f, (idxV).view.loc (thr d L) ↦{fullShare} f) ∗ (∃ f, (w0V).view.loc (thr d L) ↦{fullShare} f)
        ∗ (∃ f, (w1V).view.loc (thr d L) ↦{fullShare} f) ∗ (∃ f, (stgV).view.loc (thr d L) ↦{fullShare} f)
        ∗ semVal (dcell d L ⟨3, by decide⟩) 0 ∗ semVal (dcell d L ⟨4, by decide⟩) 0 ∗ semVal (dcell d L ⟨5, by decide⟩) 0
        ∗ semVal (dcell d L ⟨6, by decide⟩) 0 ∗ semVal (dcell d L ⟨7, by decide⟩) 0 ∗ semVal (dcell d L ⟨8, by decide⟩) 0
        ∗ semVal (dcell d L ⟨9, by decide⟩) 0
        ∗ ((shV).view.loc (thr d L) ↦{shTok (jL L)} g)
        ∗ owes (thr d L) O W1)
      ⊢ wp frame (wpE (defs₀ (F := F)) 𝒱₀ (thr d L) none) Set.univ (k0_part11 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 (firstBlk L)) 1#1 0#32)
          fun a => iprop(⌜a = ⟨Scalar.addi 0#32 1#32, 0#32⟩⌝ ∗ inv2 (F := F) m X0v X1v d L g O W1 0 (accAt 0)) := by
  rw [k0_part11_eq_skeleton]; unfold k0_part11_skel
  iintro ⟨#Hmw, Hx0, Hx1, Hob, ⟨%fi, Hidx⟩, ⟨%fw0, Hw0⟩, ⟨%fw1, Hw1⟩, ⟨%fst, Hstg⟩, Hs3, Hs4, Hs5, Hs6, Hs7, Hs8, Hs9, Hsh, HO⟩
  -- the three double buffers as their two slots
  ihave Hw0s := (split_w0 (F := F) d L 0 fw0) $$ Hw0
  icases Hw0s with ⟨Hw0a, Hw0b⟩
  ihave Hw1s := (split_w1 (F := F) d L 0 fw1) $$ Hw1
  icases Hw1s with ⟨Hw1a, Hw1b⟩
  ihave Hsts := (split_stg (F := F) d L 0 fst) $$ Hstg
  icases Hsts with ⟨Hsta, Hstb⟩
  -- slot 0 of the word buffers, as the program names it
  have e26 : slot3 0 = k0_off26 := k0_off26_eq.symm
  ihave Hw0a := (w0slot_respell (F := F) d L e26 (slot3_inb_w 0) k0_off26_inb fullShare fw0) $$ Hw0a
  ihave Hw1a := (w1slot_respell (F := F) d L e26 (slot3_inb_w 0) k0_off26_inb fullShare fw1) $$ Hw1a
  -- a read token of each word stream for the first fetch; the rest is kept aside
  ihave Hx0s := ((pointsTo_share (PosShare.mem_left_op_right (inTok (tL L)))).1) $$ Hx0
  icases Hx0s with ⟨Hx0, Hx0t⟩
  ihave Hx1s := ((pointsTo_share (PosShare.mem_left_op_right (inTok (tL L)))).1) $$ Hx1
  icases Hx1s with ⟨Hx1, Hx1t⟩
  ihave Hx0 := (Entails.of_eq (pts_x0V (F := F) d L _ _)) $$ Hx0
  ihave Hx1 := (Entails.of_eq (pts_x1V (F := F) d L _ _)) $$ Hx1
  -- the two fetches of block 0
  sl_exec
  sl_step
  isplitr
  · ipureintro; rfl
  -- what is held is the invariant before trip 0
  have h0 : (0 : ℕ) < 800 := by norm_num
  have hB : blkN L 0 < 25600 := blkN_lt L 0 h0
  have e27 : k0_off27 L = ![0, 128 * blkN L 0] := by
    have : 102400 * (L 1).val + 1638400 * (L 0).val = 128 * blkN L 0 := by unfold blkN; omega
    rw [k0_off27_eq, this]
  have e36 : k0_off27 L = k0_off36 L (A19 0) := by rw [e27, off36_eq L ⟨0, by rw [trips_eq]; exact h0⟩]
  have e39 : k0_off27 L = k0_off39 L (A19 0) := by rw [e27, off39_eq L ⟨0, by rw [trips_eq]; exact h0⟩]
  unfold inv2 inStream0 inStream1 outStream
  rw [dif_pos h0, dif_pos h0, if_neg (Nat.lt_irrefl 0)]
  isplitr; · ipureintro; rfl
  isplitr; · iexact Hmw
  isplitl [Hsh]; · iexact Hsh
  isplitl [Hidx]; · iexists fi; iexact Hidx
  isplitl [Hs9]; · iexact Hs9
  -- the hour words: block 0 in flight into slot 0, slot 1 free
  isplitl [Hx0 Hs3 Hw0b Hs4]
  · isplitl [Hx0]; · iexact Hx0
    isplitl [Hs3]
    · iexists (landed0 (F := F) k0_off26 k0_off26_inb (k0_off27 L) (k0_off27_inb L) fw0 (X0v d))
      isplitr
      · ipureintro
        exact landed0_ok (F := F) 0 (blkN L 0) hB _ _ k0_off26_eq _ _ e27 fw0 (X0v d)
      · iapply (Transfers.Flight_mono countersEmb (thr d L) (BI.sep_mono (w0_fold (F := F) d L 0 k0_off26_eq k0_off26_inb _)
          (Entails.of_eq (x0win_congr (F := F) d L e36 (k0_off27_inb L) _ _ (X0v d)))))
        iexact Hs3
    isplitl [Hw0b]; · iexists fw0; iexact Hw0b
    iexact Hs4
  -- the minute words likewise
  isplitl [Hx1 Hs5 Hw1b Hs6]
  · isplitl [Hx1]; · iexact Hx1
    isplitl [Hs5]
    · iexists (landed1 (F := F) k0_off26 k0_off26_inb (k0_off27 L) (k0_off27_inb L) fw1 (X1v d))
      isplitr
      · ipureintro
        exact landed1_ok (F := F) 0 (blkN L 0) hB _ _ k0_off26_eq _ _ e27 fw1 (X1v d)
      · iapply (Transfers.Flight_mono countersEmb (thr d L) (BI.sep_mono (w1_fold (F := F) d L 0 k0_off26_eq k0_off26_inb _)
          (Entails.of_eq (x1win_congr (F := F) d L e39 (k0_off27_inb L) _ _ (X1v d)))))
        iexact Hs5
    isplitl [Hw1b]; · iexists fw1; iexact Hw1b
    iexact Hs6
  -- the result: both staging slots free, every block untouched, none final
  isplitl [Hsta Hs7 Hstb Hs8 Hob]
  · isplitl [Hsta]; · iexists fst; iexact Hsta
    isplitl [Hs7]; · iexact Hs7
    isplitl [Hstb Hs8]
    · isplitl [Hstb]; · iexists fst; iexact Hstb
      iexact Hs8
    isplitl [Hob]
    · rw [show (Finset.univ.filter fun b : Fin 800 => 0 ≤ b.val) = Finset.univ from Finset.filter_true_of_mem fun _ _ => Nat.zero_le _]
      iexact Hob
    · rw [show (Finset.univ.filter fun b : Fin 800 => b.val + 1 < 0) = ∅ from Finset.filter_false_of_mem fun _ _ => Nat.not_lt_zero _, BI.bigSep_empty]
      iempintro
  iexists W1; isplitr
  · ipureintro; exact fun p hp => .inl hp
  · iexact HO

/-! ## The loop -/

omit [FloatOps F] in
theorem t2_trips : Scf.trips k0_t2_loop.lb k0_t2_loop.ub k0_t2_loop.st = 800 := trips_eq

set_option maxHeartbeats 8000000 in
/-- The 800 trips carry the invariant from before trip 0 to after trip 799; the two side conditions the program then
    assumes of the carried words hold of the words the invariant names. -/
theorem pipe_loop
    (htrip : ∀ (g : Buf (Elt F) (shLoc d (cV L))) (_hg : ∀ R : Fin 4608, TabOK (F := F) (m (a1Loc d)) (m (a2Loc d)) g R)
      (O : CellTallies nD τ sig (HIx 1)) (W : Waits sig (HIx 1)) (k : Fin k0_t2_loop.trips)
      (acc : BitVec 32 × BitVec 32 × BitVec 32 × BitVec 32 × BitVec 32 × BitVec 32 × BitVec 32),
      inv2 (F := F) m X0v X1v d L g O W k.val acc ⊢ wp frame (wpE (defs₀ (F := F)) 𝒱₀ (thr d L) none) Set.univ
        (k0_t2_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)))
    (g : Buf (Elt F) (shLoc d (cV L))) (hg : ∀ R : Fin 4608, TabOK (F := F) (m (a1Loc d)) (m (a2Loc d)) g R)
    (O : CellTallies nD τ sig (HIx 1)) (W1 : Waits sig (HIx 1)) :
    inv2 (F := F) m X0v X1v d L g O W1 0 (accAt 0)
      ⊢ wp frame (wpE (defs₀ (F := F)) 𝒱₀ (thr d L) none) Set.univ (k0_part12 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32)
          fun r => iprop(⌜r.1 = A18 800 ∧ r.2.1 = A19 800⌝ ∗ inv2 (F := F) m X0v X1v d L g O W1 800 (accAt 800)) := by
  rw [k0_part12_eq_skeleton]; unfold k0_part12_skel
  iintro Hinv
  sl_exec
  sl_for (inv2 (F := F) m X0v X1v d L g O W1) $$ [Hinv]
  rotate_left
  · iexact Hinv
  case region =>
    intro k acc
    exact htrip g hg O W1 k acc
  rw [t2_trips]
  unfold inv2
  iintro %acc ⟨%hacc, Hrest⟩
  subst hacc
  have hw6 : k0_chk6 L (A19 800) := chk6_end L
  have hw5 : k0_chk5 (A18 800) := chk5_all _
  sl_exec
  sl_step
  isplitr
  · ipureintro; exact ⟨rfl, rfl⟩
  isplitr
  · ipureintro; rfl
  iexact Hrest

omit [FloatOps F] in
/-- All 800 blocks are block 799 and the blocks before it. -/
theorem bigSep_all_blocks (Φ : Fin 800 → sProp 𝕄) :
    bigSep (Finset.univ : Finset (Fin 800)) Φ = iprop(Φ ⟨799, by norm_num⟩ ∗ bigSep (Finset.univ.filter fun b : Fin 800 => b.val + 1 < 800) Φ) := by
  have e : (Finset.univ : Finset (Fin 800)) = insert (⟨799, by norm_num⟩ : Fin 800) (Finset.univ.filter fun b : Fin 800 => b.val + 1 < 800) := by
    ext b; simp only [Finset.mem_univ, Finset.mem_insert, Finset.mem_filter, true_and, Fin.ext_iff, true_iff]; have := b.isLt; omega
  conv_lhs => rw [e]
  exact SparseCore.bigSep_insert' (by simp only [Finset.mem_filter, Finset.mem_univ, true_and]; omega)

/-! ## Out of the loop: the last copy-out -/

set_option maxHeartbeats 8000000 in
/-- After the last trip only the copy-out of block 799 is in flight. The tile waits for it: then all its 800 blocks hold
    their final contents, and every buffer and semaphore of the pipeline is free again. -/
theorem pipe_last (g : Buf (Elt F) (shLoc d (cV L))) (O : CellTallies nD τ sig (HIx 1)) (W1 : Waits sig (HIx 1))
    (hw6 : k0_chk6 L (A19 800)) (hw5 : k0_chk5 (A18 800)) :
    inv2 (F := F) m X0v X1v d L g O W1 800 (accAt 800)
      ⊢ wp frame (wpE (defs₀ (F := F)) 𝒱₀ (thr d L) none) Set.univ (tail3 (F := F) L (A18 800) (A19 800) hw6 hw5)
          fun _ => iprop(oBlksDone m X0v X1v d (tL L)
            ∗ (∃ f, (idxV).view.loc (thr d L) ↦{fullShare} f) ∗ (∃ f, (w0V).view.loc (thr d L) ↦{fullShare} f)
            ∗ (∃ f, (w1V).view.loc (thr d L) ↦{fullShare} f) ∗ (∃ f, (stgV).view.loc (thr d L) ↦{fullShare} f)
            ∗ semVal (dcell d L ⟨3, by decide⟩) 0 ∗ semVal (dcell d L ⟨4, by decide⟩) 0 ∗ semVal (dcell d L ⟨5, by decide⟩) 0
            ∗ semVal (dcell d L ⟨6, by decide⟩) 0 ∗ semVal (dcell d L ⟨7, by decide⟩) 0 ∗ semVal (dcell d L ⟨8, by decide⟩) 0
            ∗ semVal (dcell d L ⟨9, by decide⟩) 0
            ∗ (∃ g', (shV).view.loc (thr d L) ↦{shTok (jL L)} g')
            ∗ ∃ W', ⌜∀ p ∈ W', p ∈ W1 ∨ p.2 = none⌝ ∗ owes (thr d L) O W') := by
  unfold inv2 inStream0 inStream1 outStream
  rw [dif_neg (Nat.lt_irrefl 800), dif_neg (Nat.lt_irrefl 800), if_pos (by norm_num : 0 < 800)]
  -- the cell of the copy-out in flight, as the program names it at the carried word
  rw [show cellC cc0_scoped8 (800 + 1) = semAt cc0_scoped8 (k0_off52 (A18 800)) (off52_inb _) from semAt_congr _ (off52_ofNat 799).symm _ _]
  iintro ⟨-, #Hmw, Hsh, ⟨%fi, Hidx⟩, Hs9, ⟨Hx0, ⟨⟨%c0, Hw0a⟩, Hs4a⟩, ⟨%c0', Hw0b⟩, Hs4b⟩, ⟨Hx1, ⟨⟨%c1, Hw1a⟩, Hs6a⟩, ⟨%c1', Hw1b⟩, Hs6b⟩, ⟨⟨%fs, Hstg⟩, HsO, ⟨%fp, %Bp, %hBp, FO⟩, Hun, Hdn⟩, ⟨%W', %hW', HO⟩⟩
  unfold tail3
  sl_exec
  sl_step
  -- all 800 blocks hold their final contents: the blocks before 799 already did, block 799 has just landed
  have hBp' : Bp = blkNo (tL L) ⟨799, by norm_num⟩ := Fin.ext (hBp.trans (blkNo_val L ⟨799, by norm_num⟩).symm)
  subst hBp'
  isplitl [Hdn FO_dst]
  · iapply (Entails.of_eq (bigSep_all_blocks (F := F) fun b => (oLoc d ↦[oblk (blkNo (tL L) b)]{fullShare} OUTv m X0v X1v d : sProp 𝕄)).symm)
    isplitl [FO_dst]; · iexact FO_dst
    iexact Hdn
  -- the buffers whole again, the cells under their numbers
  isplitl [Hidx]; · iexists fi; iexact Hidx
  isplitl [Hw0a Hw0b]
  · iapply (join_w0 (F := F) d L 800)
    isplitl [Hw0a]; · iexists c0; iexact Hw0a
    iexists c0'; iexact Hw0b
  isplitl [Hw1a Hw1b]
  · iapply (join_w1 (F := F) d L 800)
    isplitl [Hw1a]; · iexists c1; iexact Hw1a
    iexists c1'; iexact Hw1b
  isplitl [Hstg FO_src]
  · iapply (join_stg (F := F) d L 800)
    isplitl [Hstg]; · iexists fs; iexact Hstg
    iexists fp; iexact FO_src
  isplitl [Hs4a]; · iexact Hs4a
  isplitl [Hs4b]; · iexact Hs4b
  isplitl [Hs6a]; · iexact Hs6a
  isplitl [Hs6b]; · iexact Hs6b
  isplitl [HsO]; · iexact HsO
  isplitl [FO]; · iexact FO
  isplitl [Hs9]; · iexact Hs9
  isplitl [Hsh]; · iexists g; iexact Hsh
  -- the last wait is at no call index
  iexists _; isplitr
  swap; · iexact HO
  ipureintro; intro p hp
  rcases Finset.mem_insert.mp hp with h | h
  · exact .inr (by rw [h]; rfl)
  · exact hW' p h

/-! ## The pipeline, from its trips -/

set_option maxHeartbeats 8000000 in
/-- Given that every trip carries the invariant one step on, the pipeline does what its statement says: the first
    fetches establish the invariant, 800 trips carry it, the last wait turns it into the statement's post. -/
theorem pipe_spec_of_trips (hx0 : ∀ j, (X0v d j).toNat ≤ 59) (hx1 : ∀ j, (X1v d j).toNat ≤ 59)
    (htrip : ∀ (g : Buf (Elt F) (shLoc d (cV L))) (_hg : ∀ R : Fin 4608, TabOK (F := F) (m (a1Loc d)) (m (a2Loc d)) g R)
      (O : CellTallies nD τ sig (HIx 1)) (W : Waits sig (HIx 1)) (k : Fin k0_t2_loop.trips)
      (acc : BitVec 32 × BitVec 32 × BitVec 32 × BitVec 32 × BitVec 32 × BitVec 32 × BitVec 32),
      inv2 (F := F) m X0v X1v d L g O W k.val acc ⊢ wp frame (wpE (defs₀ (F := F)) 𝒱₀ (thr d L) none) Set.univ
        (k0_t2_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1))) :
    PipeSpec (F := F) m X0v X1v d L hx0 hx1 := by
  intro g hg O W1
  rw [tailProg_eq, wp_bind]
  iintro H
  -- the first fetches
  iapply (wp_wand_r Idealize.ShloMosaic.frame (wpE (defs₀ (F := F)) 𝒱₀ (thr d L) none) Set.univ)
  isplitl [H]
  · iapply (pipe_entry (F := F) m X0v X1v d L g O W1); iexact H
  iintro %a ⟨%ha, Hinv⟩
  subst ha
  -- the loop
  unfold tail2
  rw [wp_bind]
  iapply (wp_wand_r Idealize.ShloMosaic.frame (wpE (defs₀ (F := F)) 𝒱₀ (thr d L) none) Set.univ)
  isplitl [Hinv]
  · iapply (pipe_loop (F := F) m X0v X1v d L htrip g hg O W1); iexact Hinv
  iintro %r ⟨%hr, Hinv⟩
  obtain ⟨v5, v6, h6, h5⟩ := r
  obtain ⟨rfl, rfl⟩ := hr
  -- the last wait
  iapply (pipe_last (F := F) m X0v X1v d L g O W1 h6 h5); iexact Hinv

end Cert.KernelIdeal.Hand
end
-- ==== Proof.Pipe.lean ====
/-
  The pipeline of one tile, whole: from the first block's fetches, through the 800 trips, to the wait for the last
  block's copy-out, the tile's 800 blocks of the result end at the hour row plus the minute row of each position.
  The entry and the exit are the ends of the loop; every trip keeps the invariant.
-/
import proofs.«204352_g17334488006705_cont_7to1_713_23_alg».proof.Proof.PipeTrips
import proofs.«204352_g17334488006705_cont_7to1_713_23_alg».proof.Proof.PipeEnds

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-- What the pipeline does, proved: the ends of the loop around the trips. -/
theorem pipe_spec (hx0 : ∀ j, (X0v d j).toNat ≤ 59) (hx1 : ∀ j, (X1v d j).toNat ≤ 59) : PipeSpec (F := F) m X0v X1v d L hx0 hx1 :=
  pipe_spec_of_trips (F := F) m X0v X1v d L hx0 hx1
    (fun g hg O W k acc => trip (F := F) m X0v X1v d L g hg hx0 hx1 O W k acc)

end Cert.KernelIdeal.Hand
end
-- ==== Proof.BodyTable.lean ====
/-
  The table-building loop, one trip.

  Tile `s` of a SparseCore builds rows `[288 s, 288 s + 288)` of the table in a 288 × 128 scratch of its own. Trip `k` of
  the loop builds row `k` of the scratch, that is row `R = 288 s + k` of the table: it reads the hour copy at row
  `R / 64` and the minute copy at row `R % 64`, in eight chunks of 16 lanes, adds the chunks lane by lane and stores the
  eight sums in row `k`. The loop's invariant says that the two copies stay as they are and that the rows before `k` hold
  their sums; this file proves that a trip carries the invariant from `k` to `k + 1`.

  The argument, once the trip's memory operations are accounted for: the scratch then holds its former contents
  overwritten by eight chunks. Each chunk sits in row `k`, so a row `r < k` reads what it read before, which the invariant
  describes; the chunks cover row `k`, and chunk `c` at lane `l` is the hour copy at `(R / 64, 16 c + l)` plus the minute
  copy at `(R % 64, 16 c + l)` (the casts between `1 × 16` and `16` around the addition keep the lane), so row `k` reads
  its sum at every column.
-/
import proofs.«204352_g17334488006705_cont_7to1_713_23_alg».proof.Proof.Common
import proofs.«204352_g17334488006705_cont_7to1_713_23_alg».proof.Proof.TileOpen
import proofs.«204352_g17334488006705_cont_7to1_713_23_alg».proof.Proof.ValueBridge
import Idealize.ShloMosaic.Lib.Writes
import Idealize.ShloMosaic.Lib.ValueLayout

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- Before trip `k` of the table-building loop: the minute and hour copies as they are, and the first `k` built rows right. -/
def inv1 (HV : Buf (Elt F) ((thr d L).loc cc0_scratch2)) (MV : Buf (Elt F) ((thr d L).loc cc0_scratch1)) (k : Nat) (_ : Unit) : sProp 𝕄 :=
  iprop(((minV).view.loc (thr d L) ↦{fullShare} MV) ∗ ((hourV).view.loc (thr d L) ↦{fullShare} HV)
    ∗ ∃ g : Buf (Elt F) ((thr d L).loc cc0_scratch3), ⌜∀ r : Fin 288, r.val < k → ∀ col : Fin 128,
        g (ix2 r col) = FloatOps.addf (HV (ix2 (⟨(288 * (L 1).val + r.val) / 64, by have := (L 1).isLt; have : grid0.bound 1 = 16 := rfl; omega⟩ : Fin 72) col))
          (MV (ix2 (⟨(288 * (L 1).val + r.val) % 64, Nat.mod_lt _ (by norm_num)⟩ : Fin 64) col))⌝
      ∗ (cbufV).view.loc (thr d L) ↦{fullShare} g)

/-! ## One chunk of one row -/

section Chunk
variable (HV : Buf (Elt F) ((thr d L).loc cc0_scratch2)) (MV : Buf (Elt F) ((thr d L).loc cc0_scratch1))

/-- What a trip writes, as a function of the position `y` in the 288 × 128 scratch: at column `y 1`, the hour copy's row
    `hr` plus the minute copy's row `mr`. (It does not depend on `y`'s row: a trip writes one row.) -/
def rowSum (hr : Fin 72) (mr : Fin 64) (y : S288x128.Idx) : Elt F .f32 :=
  FloatOps.addf (HV (ix2 hr (⟨(y 1).val, (y 1).isLt⟩ : Fin 128))) (MV (ix2 mr (⟨(y 1).val, (y 1).isLt⟩ : Fin 128)))

/-- One of the eight chunks of a trip. The trip loads 16 lanes of hour row `hr` and of minute row `mr` from column `c`
    on, drops the unit axis of both, adds them lane by lane, puts the unit axis back and stores the 16 sums in row `k`
    from column `c` on. A cast between `1 × 16` and `16` keeps the lane, and the three rectangles have unit strides, so
    lane `l` of the stored chunk is the sum of the two copies at column `c + l`: the payload agrees with `rowSum` at the
    place the store puts it. The offsets are taken as variables equal to their closed forms, so that one statement
    serves the eight chunks whatever the words they are computed from. -/
theorem chunk_eq (hr : Fin 72) (mr : Fin 64) (k : Fin 288) (c : Nat)
    {offH offM offC : Fin 2 → Nat} (eH : offH = ![hr.val, c]) (eM : offM = ![mr.val, c]) (eC : offC = ![k.val, c])
    (inbH : ∀ a, offH a + S1x16.size a ≤ S72x128.size a) (inbM : ∀ a, offM a + S1x16.size a ≤ S64x128.size a)
    (inbC : ∀ a, offC a + S1x16.size a ≤ S288x128.size a) (x : S1x16.Idx) :
    shapeCast S1x16 (addf (shapeCast S16 (View.readAt (Elt F) (hourV).view (Rect.unit (s := S72x128) offH S1x16.size inbH).toLoadRect HV) shapeCasts_S1x16_S16)
        (shapeCast S16 (View.readAt (Elt F) (minV).view (Rect.unit (s := S64x128) offM S1x16.size inbM).toLoadRect MV) shapeCasts_S1x16_S16)) shapeCasts_S16_S1x16 x
      = rowSum d L HV MV hr mr ((Rect.unit (s := S288x128) offC S1x16.size inbC).emb x) := by
  subst eH eM eC
  obtain ⟨u, l, rfl⟩ : ∃ u l, x = ix2 u l := ⟨x 0, x 1, eq_ix2 x⟩
  rw [shapeCast_a_1a_apply]
  show FloatOps.addf (shapeCast S16 _ _ (ix1 l)) (shapeCast S16 _ _ (ix1 l)) = _
  rw [shapeCast_1a_a_apply, shapeCast_1a_a_apply, View.readAt_apply, View.readAt_apply]
  unfold rowSum
  show FloatOps.addf (HV _) (MV _) = FloatOps.addf (HV _) (MV _)
  congr 2
  · funext a
    match a with
    | ⟨0, _⟩ => exact Fin.ext (show hr.val + 1 * ((0 : Fin 1) : ℕ) = hr.val by simp)
    | ⟨1, _⟩ => exact Fin.ext (show c + 1 * l.val = c + 1 * l.val from rfl)
  · funext a
    match a with
    | ⟨0, _⟩ => exact Fin.ext (show mr.val + 1 * ((0 : Fin 1) : ℕ) = mr.val by simp)
    | ⟨1, _⟩ => exact Fin.ext (show c + 1 * l.val = c + 1 * l.val from rfl)

end Chunk

/-! ## The writes of one trip, read back -/

/-- A position of the scratch lies in the chunk at row `k`, columns `[c, c + 16)`, when its row is `k` and its column is
    in that range. -/
theorem mem_chunk {off : Fin 2 → Nat} (k c : Nat) (e : off = ![k, c]) (inb : ∀ a, off a + S1x16.size a ≤ S288x128.size a)
    (r : Fin 288) (col : Fin 128) (hr : r.val = k) (h1 : c ≤ col.val) (h2 : col.val < c + 16) :
    ix2 r col ∈ (Rect.unit (s := S288x128) off S1x16.size inb).set := by
  subst e
  refine Rect.mem_set_unit.mpr fun a => ?_
  match a with
  | ⟨0, _⟩ => exact ⟨hr.ge, show r.val < k + 1 by omega⟩
  | ⟨1, _⟩ => exact ⟨h1, h2⟩

/-- A position in a chunk of row `k` is in row `k`. -/
theorem row_of_mem_chunk {off : Fin 2 → Nat} (k c : Nat) (e : off = ![k, c]) (inb : ∀ a, off a + S1x16.size a ≤ S288x128.size a)
    (r : Fin 288) (col : Fin 128) (h : ix2 r col ∈ (Rect.unit (s := S288x128) off S1x16.size inb).set) : r.val = k := by
  subst e
  have h0 := Rect.mem_set_unit.mp h 0
  have h1 : k ≤ r.val := h0.1
  have h2 : r.val < k + 1 := h0.2
  omega

/-- The scratch after the stores of trip `k`, read at (row, column). The stores all lie in row `k` and between them cover
    it, and each payload is the function `G` at the place it is stored: so a row before `k` still holds what it held
    (`T` by the invariant), and row `k` now holds `G`, which is `T` there. -/
theorem rows_step (g : Buf (Elt F) ((thr d L).loc cc0_scratch3)) (Lst : List (View.Piece (Elt F) S288x128 .f32)) (k : Nat) (hk : k < 288)
    (T : Fin 288 → Fin 128 → Elt F .f32) (G : S288x128.Idx → Elt F .f32)
    (hpay : ∀ p ∈ Lst, ∀ x : p.1.shape.Idx, p.2 x = G (p.1.emb x))
    (hrow : ∀ p ∈ Lst, ∀ (r : Fin 288) (col : Fin 128), ix2 r col ∈ p.1.set → r.val = k)
    (hcov : ∀ col : Fin 128, ∃ p ∈ Lst, ix2 (⟨k, hk⟩ : Fin 288) col ∈ p.1.set)
    (hg : ∀ r : Fin 288, r.val < k → ∀ col : Fin 128, g (ix2 r col) = T r col)
    (hG : ∀ col : Fin 128, G (ix2 (⟨k, hk⟩ : Fin 288) col) = T ⟨k, hk⟩ col) :
    ∀ r : Fin 288, r.val < k + 1 → ∀ col : Fin 128, ((cbufV).view.writes (Elt F) g Lst) (ix2 r col) = T r col := by
  intro r hr col
  show (cbufV).view.read (Elt F) ((cbufV).view.writes (Elt F) g Lst) (ix2 r col) = _
  by_cases hrk : r.val = k
  · obtain rfl : r = ⟨k, hk⟩ := Fin.ext hrk
    rw [View.read_writes_apply_of_pieces _ _ G Lst hpay _ (hcov col)]; exact hG col
  · rw [View.read_writes_apply_of_forall_not_mem _ _ _ Lst (fun p hp hm => hrk (hrow p hp r col hm))]
    exact hg r (by omega) col

/-! ## One trip -/

set_option maxHeartbeats 4000000 in
/-- Trip `k` of the table-building loop keeps the invariant: it reads the two copies (kept as they are), and its eight
    stores fill row `k` of the scratch with hour row `(288 s + k) / 64` plus minute row `(288 s + k) % 64`, `s` the
    subcore, leaving the rows before it alone. -/
theorem t1_region (HV : Buf (Elt F) ((thr d L).loc cc0_scratch2)) (MV : Buf (Elt F) ((thr d L).loc cc0_scratch1)) (k : Fin k0_t1_loop.trips) (acc : Unit) :
    inv1 d L HV MV k.val acc ⊢ wp frame (wpE (defs₀ (F := F)) 𝒱₀ (thr d L) none) Set.univ
      (k0_t1_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (Scalar.muli (BitVec.ofNat 32 (L 1).val) 288#32) k acc) (inv1 d L HV MV (k.val + 1)) := by
  have hk : k.val < 288 := Nat.lt_of_lt_of_le k.isLt k0_t1_abs.2.1
  have hj : (L 1).val < 16 := (L 1).isLt
  unfold inv1
  iintro ⟨Hmin, Hhour, ⟨%g, %hg, Hcbuf⟩⟩
  unfold k0_t1_body
  rw [k0_part1_eq_skeleton, k0_part2_eq_skeleton]; unfold k0_part1_skel k0_part2_skel
  sl_exec
  sl_step
  isplitl [Hmin]; · iexact Hmin
  isplitl [Hhour]; · iexact Hhour
  iexists _; isplitr
  swap; · iexact Hcbuf
  ipureintro
  refine rows_step d L g _ k.val hk _
    (rowSum d L HV MV ⟨(288 * (L 1).val + k.val) / 64, by omega⟩ ⟨(288 * (L 1).val + k.val) % 64, Nat.mod_lt _ (by norm_num)⟩) ?_ ?_ ?_ hg ?_
  · -- each of the eight payloads is the row's sum at the place it is stored
    intro p hp
    simp only [List.mem_cons, List.not_mem_nil, _root_.or_false] at hp
    rcases hp with rfl | rfl | rfl | rfl | rfl | rfl | rfl | rfl
    · exact chunk_eq d L HV MV _ _ ⟨k.val, hk⟩ 112 (k0_off22_eq L k) (k0_off23_eq L k) (k0_off24_eq k) (k0_off22_inb L k) (k0_off23_inb L k) (k0_off24_inb k)
    · exact chunk_eq d L HV MV _ _ ⟨k.val, hk⟩ 96 (k0_off19_eq L k) (k0_off20_eq L k) (k0_off21_eq k) (k0_off19_inb L k) (k0_off20_inb L k) (k0_off21_inb k)
    · exact chunk_eq d L HV MV _ _ ⟨k.val, hk⟩ 80 (k0_off16_eq L k) (k0_off17_eq L k) (k0_off18_eq k) (k0_off16_inb L k) (k0_off17_inb L k) (k0_off18_inb k)
    · exact chunk_eq d L HV MV _ _ ⟨k.val, hk⟩ 64 (k0_off13_eq L k) (k0_off14_eq L k) (k0_off15_eq k) (k0_off13_inb L k) (k0_off14_inb L k) (k0_off15_inb k)
    · exact chunk_eq d L HV MV _ _ ⟨k.val, hk⟩ 48 (k0_off10_eq L k) (k0_off11_eq L k) (k0_off12_eq k) (k0_off10_inb L k) (k0_off11_inb L k) (k0_off12_inb k)
    · exact chunk_eq d L HV MV _ _ ⟨k.val, hk⟩ 32 (k0_off7_eq L k) (k0_off8_eq L k) (k0_off9_eq k) (k0_off7_inb L k) (k0_off8_inb L k) (k0_off9_inb k)
    · exact chunk_eq d L HV MV _ _ ⟨k.val, hk⟩ 16 (k0_off4_eq L k) (k0_off5_eq L k) (k0_off6_eq k) (k0_off4_inb L k) (k0_off5_inb L k) (k0_off6_inb k)
    · exact chunk_eq d L HV MV _ _ ⟨k.val, hk⟩ 0 (k0_off1_eq L k) (k0_off2_eq L k) (k0_off3_eq k) (k0_off1_inb L k) (k0_off2_inb L k) (k0_off3_inb k)
  · -- the eight chunks lie in row k
    intro p hp
    simp only [List.mem_cons, List.not_mem_nil, _root_.or_false] at hp
    rcases hp with rfl | rfl | rfl | rfl | rfl | rfl | rfl | rfl
    · exact row_of_mem_chunk k.val 112 (k0_off24_eq k) (k0_off24_inb k)
    · exact row_of_mem_chunk k.val 96 (k0_off21_eq k) (k0_off21_inb k)
    · exact row_of_mem_chunk k.val 80 (k0_off18_eq k) (k0_off18_inb k)
    · exact row_of_mem_chunk k.val 64 (k0_off15_eq k) (k0_off15_inb k)
    · exact row_of_mem_chunk k.val 48 (k0_off12_eq k) (k0_off12_inb k)
    · exact row_of_mem_chunk k.val 32 (k0_off9_eq k) (k0_off9_inb k)
    · exact row_of_mem_chunk k.val 16 (k0_off6_eq k) (k0_off6_inb k)
    · exact row_of_mem_chunk k.val 0 (k0_off3_eq k) (k0_off3_inb k)
  · -- and cover it: column col is in the chunk from 16 · (col / 16) on
    intro col
    have hc : col.val < 128 := col.isLt
    rcases (by omega : 112 ≤ col.val ∨ (96 ≤ col.val ∧ col.val < 112) ∨ (80 ≤ col.val ∧ col.val < 96) ∨ (64 ≤ col.val ∧ col.val < 80)
        ∨ (48 ≤ col.val ∧ col.val < 64) ∨ (32 ≤ col.val ∧ col.val < 48) ∨ (16 ≤ col.val ∧ col.val < 32) ∨ col.val < 16) with h | h | h | h | h | h | h | h
    · exact ⟨_, List.mem_cons_self, mem_chunk k.val 112 (k0_off24_eq k) (k0_off24_inb k) _ col rfl (by omega) (by omega)⟩
    · exact ⟨_, List.mem_cons_of_mem _ (List.mem_cons_self), mem_chunk k.val 96 (k0_off21_eq k) (k0_off21_inb k) _ col rfl (by omega) (by omega)⟩
    · exact ⟨_, List.mem_cons_of_mem _ (List.mem_cons_of_mem _ (List.mem_cons_self)), mem_chunk k.val 80 (k0_off18_eq k) (k0_off18_inb k) _ col rfl (by omega) (by omega)⟩
    · exact ⟨_, List.mem_cons_of_mem _ (List.mem_cons_of_mem _ (List.mem_cons_of_mem _ (List.mem_cons_self))), mem_chunk k.val 64 (k0_off15_eq k) (k0_off15_inb k) _ col rfl (by omega) (by omega)⟩
    · exact ⟨_, List.mem_cons_of_mem _ (List.mem_cons_of_mem _ (List.mem_cons_of_mem _ (List.mem_cons_of_mem _ (List.mem_cons_self)))), mem_chunk k.val 48 (k0_off12_eq k) (k0_off12_inb k) _ col rfl (by omega) (by omega)⟩
    · exact ⟨_, List.mem_cons_of_mem _ (List.mem_cons_of_mem _ (List.mem_cons_of_mem _ (List.mem_cons_of_mem _ (List.mem_cons_of_mem _ (List.mem_cons_self))))), mem_chunk k.val 32 (k0_off9_eq k) (k0_off9_inb k) _ col rfl (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_chunk k.val 16 (k0_off6_eq k) (k0_off6_inb k) _ col rfl (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_chunk k.val 0 (k0_off3_eq k) (k0_off3_inb k) _ col rfl (by omega) (by omega)⟩
  · -- the row's sum at (k, col) is what the invariant asks of row k
    intro col
    rfl

end Cert.KernelIdeal.Hand
end
-- ==== Proof.BarrierPay.lean ====
/-
  The subcore barrier's payload: what a tile gives at the barrier and what it takes from it.

  Before the barrier tile `i` of a SparseCore holds rows `[288 i, 288 i + 288)` of the shared table, whole, and they are
  right (row `R` is hour row `R / 64` plus minute row `R % 64` wherever minute `R % 64` exists). Its arrival at tile `j`'s
  barrier cell hands tile `j` a read share of those rows together with that fact. So a tile cuts sixteen read tokens off
  its points-to, one per tile of the SparseCore, and keeps the remainder (`pays_intro`).

  After the barrier a tile has collected, on its own cell, one token from each of the sixteen tiles: sixteen pieces whose
  row ranges are disjoint and cover the 4608 rows. They join into a read share of the whole table, and since each piece was
  right on its own rows the table is right on every row (`pays_elim`). That is what the gather of the second phase reads.
-/
import proofs.«204352_g17334488006705_cont_7to1_713_23_alg».proof.Proof.Common

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-! ## Before the barrier: a tile's rows become what it hands over -/

/-- A tile that holds its 288 rows of the table whole, and right, splits the points-to into sixteen read tokens and a
    remainder: it keeps the remainder, and token `j`, with the fact that the rows are right, is exactly what its arrival
    at tile `j`'s barrier cell hands over. -/
theorem pays_intro (g : Buf (Elt F) (shLoc d (cV L)))
    (hg : ∀ R : Fin 4608, R.val / 288 = (jL L).val → TabOK (F := F) (m (a1Loc d)) (m (a2Loc d)) g R) :
    (shLoc d (cV L) ↦[shrows (jL L)]{fullShare} g : sProp 𝕄) ⊢ iprop((shLoc d (cV L) ↦[shrows (jL L)]{shRest} g)
        ∗ bigSep Finset.univ fun j : Fin (grid0.bound 1) => (bRd (F := F) m).payload (bcell d (cV L) (j.castLE hsub0)) 0 (jV L).val) := by
  refine (Transfers.pointsTo_toks_split fullShare 16).trans (sep_mono_right ?_)
  refine bigSep_mono fun j _ => ?_
  show _ ⊢ bPay m (bcell d (cV L) (j.castLE hsub0)) (jV L).val
  unfold bPay; dsimp only
  rw [dif_pos (show (jV L).val < 16 from (jV L).isLt)]
  unfold shPiece
  iintro H
  iexists g
  isplitr
  · ipureintro; exact hg
  · iexact H

/-! ## After the barrier: sixteen pieces make the table -/

omit [FloatOps F] in
/-- The tiles' row ranges are pairwise disjoint … -/
theorem shrows_disjoint : ∀ i ∈ (Finset.univ : Finset (Fin 16)), ∀ j ∈ (Finset.univ : Finset (Fin 16)), i ≠ j → Disjoint (shrows i) (shrows j) :=
  fun _ _ _ _ h => Rect.part_disjoint hdivS h

omit [FloatOps F] in
/-- … and cover the table. -/
theorem shrows_cover : (Finset.univ : Finset (Fin 16)).biUnion shrows = Finset.univ := Rect.biUnion_part hdivS

omit [FloatOps F] in
/-- Row `R` of the table is among the rows of tile `R / 288`: `288 n ≤ R < 288 n + 288` for `n = R / 288`. -/
theorem mem_shrows (R : Fin 4608) (col : Fin 128) (n : Fin 16) (h : R.val / 288 = n.val) : (ix2 R col : S4608x128.Idx) ∈ shrows n := by
  refine Rect.mem_set_unit.mpr fun a => ?_
  match a with
  | ⟨0, _⟩ =>
    show n.val * 288 ≤ R.val ∧ R.val < n.val * 288 + 288
    omega
  | ⟨1, _⟩ =>
    show 0 * 128 ≤ col.val ∧ col.val < 0 * 128 + 128
    omega

/-- What a tile's own barrier round collects: from each of the sixteen tiles `n` a read token of tile `n`'s rows at
    contents `f n` that are right on those rows. The sixteen row ranges are disjoint and cover the table, so the pieces
    join into one points-to of the whole table, at contents `g` that agree with `f n` on tile `n`'s rows. Whether row `R`
    is right only depends on the contents at row `R`, which is one of tile `R / 288`'s: so `g` is right at every row. -/
theorem pays_elim : (bigSep ((bRd (F := F) m).duties (bcell d (cV L) (jV L)) 0 \ ∅) fun n => (bRd (F := F) m).payload (bcell d (cV L) (jV L)) 0 n)
    ⊢ (iprop(∃ g : Buf (Elt F) (shLoc d (cV L)), ⌜∀ R : Fin 4608, TabOK (F := F) (m (a1Loc d)) (m (a2Loc d)) g R⌝ ∗ shLoc d (cV L) ↦{shTok (jL L)} g) : sProp 𝕄) := by
  rw [Finset.sdiff_empty, bRd_duties₀, SparseCore.bigSep_image_of_injOn (Fin.val_injective.injOn)]
  -- duty `n`'s payload is tile `n`'s piece, at this tile's token
  have e : (bigSep Finset.univ fun n : Fin τ.nSub => (bRd (F := F) m).payload (bcell d (cV L) (jV L)) 0 n.val)
      = bigSep Finset.univ fun n : Fin 16 => shPiece m d (cV L) n (shTok (jL L)) :=
    bigSep_congr fun n _ => by
      show bPay m (bcell d (cV L) (jV L)) n.val = _
      unfold bPay; dsimp only
      rw [dif_pos (show n.val < 16 from n.isLt)]; rfl
  rw [e]
  unfold shPiece
  -- the sixteen contents as one family, their facts gathered
  refine (bigSep_exists_pi Finset.univ (fun (n : Fin 16) (f : Buf (Elt F) (shLoc d (cV L))) =>
    iprop(⌜∀ R : Fin 4608, R.val / 288 = n.val → TabOK (F := F) (m (a1Loc d)) (m (a2Loc d)) f R⌝ ∗ shLoc d (cV L) ↦[shrows n]{shTok (jL L)} f))).trans ?_
  iintro ⟨%fs, H⟩
  ihave H1 := (bigSep_pure_sep Finset.univ (fun n : Fin 16 => ∀ R : Fin 4608, R.val / 288 = n.val → TabOK (F := F) (m (a1Loc d)) (m (a2Loc d)) (fs n) R)
    (fun n : Fin 16 => (shLoc d (cV L) ↦[shrows n]{shTok (jL L)} fs n : sProp 𝕄))) $$ H
  icases H1 with ⟨%hfs, H2⟩
  -- the pieces joined
  ihave H3 := (pointsTo_biUnion_join Finset.univ shrows fs (fs 0) shrows_disjoint) $$ H2
  icases H3 with ⟨%g, %hgs, Hg⟩
  rw [shrows_cover]
  iexists g
  isplitr
  · ipureintro
    intro R hm col
    have hR : R.val / 288 < 16 := by have := R.isLt; omega
    rw [hgs ⟨R.val / 288, hR⟩ (Finset.mem_univ _) _ (mem_shrows R col ⟨R.val / 288, hR⟩ rfl)]
    exact hfs ⟨R.val / 288, hR⟩ (Finset.mem_univ _) R rfl hm col
  · iexact Hg

end Cert.KernelIdeal.Hand
end
-- ==== Proof.TileBody.lean ====
/-
  One tile's task, whole.

  The task of the vector subcore at coordinates `(core, subcore)`, from what the launch hands it to what it hands back:

  * it copies the minute table into the first 60 rows of a 64-row scratch and the hour table into a 72-row scratch, and
    waits for both copies;
  * 288 trips build the tile's rows of the table, row `r` being table row `R = 288 · subcore + r`: the hour copy's row
    `R / 64` plus the minute copy's row `R % 64` (the trip is `t1_region`; the loop's invariant is `inv1`);
  * it copies the 288 rows into rows `[288 · subcore, +288)` of the SparseCore's shared table and waits. Those rows are
    then right: the hour copy is the hour table, the minute copy is the minute table on rows below 60, and rightness only
    speaks of rows whose minute `R % 64` is below 60 (`tab_ok_of_built`);
  * at the subcore barrier it hands every tile a read share of its rows and receives one of every tile's rows: a read
    share of the whole table, right on every row (`pays_intro`, `pays_elim`);
  * then comes the pipeline, taken here as the hypothesis `PipeSpec`: with the table readable and right it fills the tile's
    800 blocks of the result.

  What is handed back: the blocks filled, what the tile still holds of the table, its scratch storage and semaphores as
  they were found, and the waits it made — its own copies' at no call index, the barrier's at the call's index.
-/
import proofs.«204352_g17334488006705_cont_7to1_713_23_alg».proof.Proof.Common
import proofs.«204352_g17334488006705_cont_7to1_713_23_alg».proof.Proof.TileOpen
import proofs.«204352_g17334488006705_cont_7to1_713_23_alg».proof.Proof.BodyTable
import proofs.«204352_g17334488006705_cont_7to1_713_23_alg».proof.Proof.BarrierPay
import proofs.«204352_g17334488006705_cont_7to1_713_23_alg».proof.Proof.PipeIface

noncomputable section

namespace Cert.KernelIdeal.Hand

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## The tile's rows of the shared table, as the program slices them -/

/-- The 288 rows from row `288 · subcore` on: the target of the tile's copy of its built rows. -/
abbrev shRowK (L : grid0.Coords) : Memref sig .scVector .shared S288x128 .f32 :=
  (shV).slice (Rect.unit (s := S4608x128) (k0_off25 L) S288x128.size (k0_off25_inb L)) (fun _ => rfl)

omit [FloatOps F] in
/-- Those rows are the tile's part of the table: rows `[288 i, 288 i + 288)`, every column. -/
theorem set_shRowK : (shRowK L).view.set = shrows (jL L) := by
  have e : (shRowK L).view.set = (Rect.unit (s := S4608x128) (k0_off25 L) S288x128.size (k0_off25_inb L)).set := by
    show ((shV).view.slice _).set = _
    rw [View.set_slice]; exact Finset.map_refl
  rw [e]
  have e0 : k0_off25 L 0 = 288 * (L 1).val := congrFun (k0_off25_eq L) 0
  have e1 : k0_off25 L 1 = 0 := congrFun (k0_off25_eq L) 1
  have ej : (jL L).val = (L 1).val := rfl
  ext i
  constructor
  · intro h
    have h0 : k0_off25 L 0 ≤ (i 0).val ∧ (i 0).val < k0_off25 L 0 + 288 := Rect.mem_set_unit.mp h 0
    have h1 : (i 1).val < 128 := (i 1).isLt
    refine Rect.mem_set_unit.mpr fun a => ?_
    match a with
    | ⟨0, _⟩ =>
      show (jL L).val * 288 ≤ (i 0).val ∧ (i 0).val < (jL L).val * 288 + 288
      omega
    | ⟨1, _⟩ =>
      show 0 * 128 ≤ (i 1).val ∧ (i 1).val < 0 * 128 + 128
      omega
  · intro h
    have h0 : (jL L).val * 288 ≤ (i 0).val ∧ (i 0).val < (jL L).val * 288 + 288 := Rect.mem_set_unit.mp h 0
    have h1 : (i 1).val < 128 := (i 1).isLt
    refine Rect.mem_set_unit.mpr fun a => ?_
    match a with
    | ⟨0, _⟩ =>
      show k0_off25 L 0 ≤ (i 0).val ∧ (i 0).val < k0_off25 L 0 + 288
      omega
    | ⟨1, _⟩ =>
      show k0_off25 L 1 ≤ (i 1).val ∧ (i 1).val < k0_off25 L 1 + 128
      omega

omit [FloatOps F] in
/-- The tile's rows held as the program addresses them. -/
theorem pts_shRowK (q : PosShare TreeShare) (f : Buf (Elt F) (shLoc d (cV L))) :
    ((shRowK L).view.loc (thr d L) ↦[(shRowK L).view.set]{q} f : sProp 𝕄) = shLoc d (cV L) ↦[shrows (jL L)]{q} f :=
  congrArg (fun S => (shLoc d (cV L) ↦[S]{q} f : sProp 𝕄)) (set_shRowK L)

/-! ## What the two copies hold, and what the built rows are then -/

omit [FloatOps F] in
/-- The hour copy after the whole hour table has been copied over it reads the table. -/
theorem hourCopy_apply (f2 : Buf (Elt F) ((thr d L).loc cc0_scratch2)) (X : S72x128.Idx → Elt F .f32) (y : S72x128.Idx) :
    (View.write (Elt F) (hourV).view f2 X Finset.univ) y = X y :=
  congrFun (View.read_write_univ (v := (hourV).view) f2 X) y

omit [FloatOps F] in
/-- The minute copy after the 60 rows of the minute table have been copied over its first 60 rows reads the table on
    those rows (rows 60 … 63 hold whatever they held). -/
theorem minCopy_apply (f1 : Buf (Elt F) ((thr d L).loc cc0_scratch1)) (X : S60x128.Idx → Elt F .f32)
    (inb : ∀ a, (![0, 0] : Fin 2 → Nat) a + S60x128.size a ≤ S64x128.size a) (mi : Fin 64) (h : mi.val < 60) (col : Fin 128) :
    ((minV).view.writes (Elt F) f1 [⟨Rect.unit (s := S64x128) ![0, 0] S60x128.size inb, X⟩]) (ix2 mi col) = X (ix2 (⟨mi.val, h⟩ : Fin 60) col) := by
  have e : (ix2 mi col : S64x128.Idx) = (Rect.unit (s := S64x128) ![0, 0] S60x128.size inb).emb (ix2 (⟨mi.val, h⟩ : Fin 60) col) := by
    funext a
    match a with
    | ⟨0, _⟩ => exact Fin.ext (show mi.val = 0 + 1 * mi.val by omega)
    | ⟨1, _⟩ => exact Fin.ext (show col.val = 0 + 1 * col.val by omega)
  have key := View.read_writes_cons_emb (minV).view f1 (Rect.unit (s := S64x128) ![0, 0] S60x128.size inb) X [] (ix2 (⟨mi.val, h⟩ : Fin 60) col)
  rw [← e] at key
  exact key

/-- The 288 built rows once the loop is over, in terms of the two tables: row `r` is table row `R = 288 s + r`, the hour
    table's row `R / 64` plus the minute table's row `R % 64` — wherever that minute exists, `R % 64 < 60`: only there
    does the minute copy hold the table. -/
theorem built_rows_ok (f1 : Buf (Elt F) ((thr d L).loc cc0_scratch1)) (f2 : Buf (Elt F) ((thr d L).loc cc0_scratch2))
    (X1 : S60x128.Idx → Elt F .f32) (X2 : S72x128.Idx → Elt F .f32) (inb : ∀ a, (![0, 0] : Fin 2 → Nat) a + S60x128.size a ≤ S64x128.size a)
    (h1 : X1 = m (a1Loc d)) (h2 : X2 = m (a2Loc d)) (g : Buf (Elt F) ((thr d L).loc cc0_scratch3))
    (hg : ∀ r : Fin 288, r.val < 288 → ∀ col : Fin 128, g (ix2 r col)
      = FloatOps.addf ((View.write (Elt F) (hourV).view f2 X2 Finset.univ) (ix2 (⟨(288 * (L 1).val + r.val) / 64, by have := (L 1).isLt; have : grid0.bound 1 = 16 := rfl; omega⟩ : Fin 72) col))
          (((minV).view.writes (Elt F) f1 [⟨Rect.unit (s := S64x128) ![0, 0] S60x128.size inb, X1⟩]) (ix2 (⟨(288 * (L 1).val + r.val) % 64, Nat.mod_lt _ (by norm_num)⟩ : Fin 64) col)))
    (r : Fin 288) (hm : (288 * (L 1).val + r.val) % 64 < 60) (col : Fin 128) :
    g (ix2 r col) = FloatOps.addf (m (a2Loc d) (ix2 (⟨(288 * (L 1).val + r.val) / 64, by have := (L 1).isLt; have : grid0.bound 1 = 16 := rfl; omega⟩ : Fin 72) col))
      (m (a1Loc d) (ix2 (⟨(288 * (L 1).val + r.val) % 64, hm⟩ : Fin 60) col)) := by
  subst h1 h2
  rw [hg r r.isLt col, hourCopy_apply, minCopy_apply d L f1 _ inb _ hm]

omit [FloatOps F] in
/-- The tile's rows of the shared table after the 288 built rows have been copied over them: table row `288 s + r` reads
    built row `r`. -/
theorem shCopy_apply (fsh : Buf (Elt F) (shLoc d (cV L))) (X : S288x128.Idx → Elt F .f32) (r : Fin 288) (col : Fin 128) (R : Fin 4608)
    (hR : R.val = 288 * (L 1).val + r.val) :
    ((shRowK L).view.writes (Elt F) fsh [⟨Rect.whole S288x128, X⟩]) (ix2 R col) = X (ix2 r col) := by
  have key := View.read_writes_cons_emb (shRowK L).view fsh (Rect.whole S288x128) X [] (ix2 r col)
  rw [← key]
  show _ = ((shRowK L).view.writes (Elt F) fsh [⟨Rect.whole S288x128, X⟩]) ((shRowK L).view.emb ((Rect.whole S288x128).emb (ix2 r col)))
  congr 1
  have e0 : k0_off25 L 0 = 288 * (L 1).val := congrFun (k0_off25_eq L) 0
  have e1 : k0_off25 L 1 = 0 := congrFun (k0_off25_eq L) 1
  funext a
  match a with
  | ⟨0, _⟩ => exact Fin.ext (show R.val = k0_off25 L 0 + 1 * (0 + 1 * r.val) by omega)
  | ⟨1, _⟩ => exact Fin.ext (show col.val = k0_off25 L 1 + 1 * (0 + 1 * col.val) by omega)

omit [FloatOps F] in
/-- The loop makes 288 trips. -/
theorem t1_trips : Scf.trips k0_t1_loop.lb k0_t1_loop.ub k0_t1_loop.st = 288 := by decide +kernel

/-- The tile's rows of the shared table, once the built rows are copied there, are right: table row `R` with
    `R / 288 = s` is built row `R − 288 s`, which is the hour table's row `R / 64` plus the minute table's row `R % 64`
    when that minute exists. -/
theorem tab_ok_of_built (f1 : Buf (Elt F) ((thr d L).loc cc0_scratch1)) (f2 : Buf (Elt F) ((thr d L).loc cc0_scratch2))
    (X1 : S60x128.Idx → Elt F .f32) (X2 : S72x128.Idx → Elt F .f32) (inb : ∀ a, (![0, 0] : Fin 2 → Nat) a + S60x128.size a ≤ S64x128.size a)
    (h1 : X1 = m (a1Loc d)) (h2 : X2 = m (a2Loc d)) (g : Buf (Elt F) ((thr d L).loc cc0_scratch3))
    (hg : ∀ r : Fin 288, r.val < 288 → ∀ col : Fin 128, g (ix2 r col)
      = FloatOps.addf ((View.write (Elt F) (hourV).view f2 X2 Finset.univ) (ix2 (⟨(288 * (L 1).val + r.val) / 64, by have := (L 1).isLt; have : grid0.bound 1 = 16 := rfl; omega⟩ : Fin 72) col))
          (((minV).view.writes (Elt F) f1 [⟨Rect.unit (s := S64x128) ![0, 0] S60x128.size inb, X1⟩]) (ix2 (⟨(288 * (L 1).val + r.val) % 64, Nat.mod_lt _ (by norm_num)⟩ : Fin 64) col)))
    (fsh : Buf (Elt F) (shLoc d (cV L))) (X3 : S288x128.Idx → Elt F .f32) (h3 : X3 = g) :
    ∀ R : Fin 4608, R.val / 288 = (jL L).val →
      TabOK (F := F) (m (a1Loc d)) (m (a2Loc d)) ((shRowK L).view.writes (Elt F) fsh [⟨Rect.whole S288x128, X3⟩]) R := by
  subst h3
  intro R hR hm col
  have hj : (jL L).val = (L 1).val := rfl
  have hlt : R.val < 4608 := R.isLt
  have hr : R.val - 288 * (L 1).val < 288 := by omega
  have e : 288 * (L 1).val + (R.val - 288 * (L 1).val) = R.val := by omega
  have hm' : (288 * (L 1).val + (R.val - 288 * (L 1).val)) % 64 < 60 := by rw [e]; exact hm
  rw [shCopy_apply d L fsh _ ⟨R.val - 288 * (L 1).val, hr⟩ col R e.symm,
    built_rows_ok m d L f1 f2 X1 X2 inb h1 h2 _ hg ⟨R.val - 288 * (L 1).val, hr⟩ hm' col]
  simp only [e]

/-! ## The task -/

set_option maxHeartbeats 4000000 in
theorem tile_body (hx0 : ∀ j, (X0v d j).toNat ≤ 59) (hx1 : ∀ j, (X1v d j).toNat ≤ 59) (hF : (K (F := F)).Facts)
    (hpipe : PipeSpec (F := F) m X0v X1v d L hx0 hx1) : TileBodyAt (F := F) m X0v X1v d L hF := by
  intro O W hO hOlev
  rw [taskProg_eq_tail, wp_bind, k0_part10_eq_skeleton]; unfold k0_part10_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Ha1, Ha2, Hx0, Hx1⟩, Hob, %fsh, Hsh⟩, ⟨⟨%f0, Hb0⟩, ⟨%f1, Hmin⟩, ⟨%f2, Hhour⟩, ⟨%f3, Hcbuf⟩, Hb4, Hb5, Hb6, Hbufs⟩, ⟨Hs0, Hs1, Hs2, Hs3, Hs4, Hs5, Hs6, Hs7, Hs8, Hs9, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the operands as the program addresses them
  ihave Ha1' := (Entails.of_eq (pts_a1V (F := F) d L _ _).symm) $$ Ha1
  ihave Ha2' := (Entails.of_eq (pts_a2V (F := F) d L _ _).symm) $$ Ha2
  ihave Hmin' := (Entails.of_eq (pts_minV (F := F) d L _).symm) $$ Hmin
  ihave Hhour' := (Entails.of_eq (pts_hourV (F := F) d L _).symm) $$ Hhour
  ihave Hcbuf' := (Entails.of_eq (pts_cbufV (F := F) d L _).symm) $$ Hcbuf
  ihave Hsh' := (Entails.of_eq (pts_shRowK (F := F) d L _ _).symm) $$ Hsh
  sl_exec
  sl_for (inv1 d L _ _) $$ [Hmin' Hhour' Hcbuf']
  rotate_left
  · -- before the first trip no row is asked for
    unfold inv1
    isplitl [Hmin']; · iexact Hmin'
    isplitl [Hhour']; · iexact Hhour'
    iexists f3
    isplitr
    · ipureintro; intro r hr; exact absurd hr (Nat.not_lt_zero _)
    · iexact Hcbuf'
  case region =>
    intro k acc
    exact t1_region d L _ _ k acc
  unfold inv1
  iintro %acc ⟨Hmin, Hhour, ⟨%g, %hg, Hcbuf⟩⟩
  -- the built rows into the tile's rows of the shared table, and the wait
  sl_exec
  -- those rows are right
  have hgsh := tab_ok_of_built m d L f1 f2 _ _ _ rfl rfl g (fun r hr col => hg r (hr.trans_eq t1_trips.symm) col) fsh _ rfl
  -- the barrier: a read share of them to every tile, the other tiles' received
  ihave Hpays := (pays_intro (F := F) m d L _ hgsh) $$ [Hsh']
  · iapply (Entails.of_eq (pts_shRowK (F := F) d L _ _)); iexact Hsh'
  icases Hpays with ⟨Hrest, Hpays⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hgot' := (pays_elim (F := F) m d L) $$ Hgot
  icases Hgot' with ⟨%gT, %hgT, HshT⟩
  -- the tile's first block number, and the return into the pipeline
  iapply (le_wp_ret Idealize.ShloMosaic.frame (wpE (defs₀ (F := F)) 𝒱₀ (thr d L) none) Set.univ
    (⟨firstBlk L, Scalar.addi 0#32 (firstBlk L), 1#1, 0#32⟩ : Σ' (v6 : BitVec 32) (v10_r3 : BitVec 32) (true_9_r3 : BitVec 1), BitVec 32) _)
  -- the pipeline, with the table read through this tile's share of it
  ihave Hx0' := (Entails.of_eq (pts_x0V (F := F) d L _ _).symm) $$ Hx0
  ihave Hx1' := (Entails.of_eq (pts_x1V (F := F) d L _ _).symm) $$ Hx1
  ihave Hw := (hpipe gT hgT O _) $$ [Hx0' Hx1' Hob Hb0 Hb4 Hb5 Hb6 Hs3 Hs4 Hs5 Hs6 Hs7 Hs8 Hs9 HshT HO]
  · isplitr; · iexact Hmw2
    isplitl [Hx0']; · iexact Hx0'
    isplitl [Hx1']; · iexact Hx1'
    isplitl [Hob]; · iexact Hob
    isplitl [Hb0]; · iexists f0; iexact Hb0
    isplitl [Hb4]; · iexact Hb4
    isplitl [Hb5]; · iexact Hb5
    isplitl [Hb6]; · iexact Hb6
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [HshT]; · iexact HshT
    iexact HO
  iapply (wp_wand_r Idealize.ShloMosaic.frame (wpE (defs₀ (F := F)) 𝒱₀ (thr d L) none) Set.univ)
  isplitl [Hw]; · iexact Hw
  iintro %a ⟨Hdone, Hidx, Hw0, Hw1, Hstg, Hs3, Hs4, Hs5, Hs6, Hs7, Hs8, Hs9, ⟨%g', HshT⟩, ⟨%W', %hW', HO⟩⟩
  -- what the task hands back
  isplitl [Hdone Hrest HshT]
  · isplitl [Hdone]; · iexact Hdone
    isplitl [Hrest]; · iexists _; iexact Hrest
    iexists g'; iexact HshT
  isplitl [Hidx Hmin Hhour Hcbuf Hw0 Hw1 Hstg Hbufs]
  · isplitl [Hidx]; · iexact Hidx
    isplitl [Hmin]; · iexists _; iexact Hmin
    isplitl [Hhour]; · iexists _; iexact Hhour
    isplitl [Hcbuf]; · iexists _; iexact Hcbuf
    isplitl [Hw0]; · iexact Hw0
    isplitl [Hw1]; · iexact Hw1
    isplitl [Hstg]; · iexact Hstg
    iexact Hbufs
  isplitl [Hs0 Hs1 Hs2 Hs3 Hs4 Hs5 Hs6 Hs7 Hs8 Hs9 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  -- the waits it made: its own three copies' (index `none`), the barrier's (the call's index), the pipeline's (`none`)
  iexists W'; isplitr
  swap; · iexact HO
  ipureintro; intro p hp
  rcases hW' p hp with h | h
  · rcases Finset.mem_insert.mp h with h | h
    · exact .inr (.inr (by rw [h]))
    rcases Finset.mem_insert.mp h with h | h
    · exact .inr (.inl (by rw [h]; rfl))
    rcases Finset.mem_insert.mp h with h | h
    · exact .inr (.inl (by rw [h]; rfl))
    rcases Finset.mem_insert.mp h with h | h
    · exact .inr (.inl (by rw [h]; rfl))
    exact .inl h
  · exact .inr (.inl h)

end Cert.KernelIdeal.Hand
end
-- ==== Proof.Assemble.lean ====
/-
  The kernel's run, with its value.

  The kernel does not look the two tables up separately. Each tile first builds rows of ONE table of 72 · 64 rows: row
  `64 h + mn` holds hour row `h` plus minute row `mn`. After a barrier every tile sees the whole table, and the lookup of a
  position with hour word `h` and minute word `mn` is a single gather of row `64 h + mn`. For words between 0 and 59 that
  row is a real row of the table (`mn < 64`, `h < 72`) and it holds exactly the sum the specification asks for.

  This module puts the pieces together. The words the call finds are the two columns of the word array, flattened: each
  of them is an entry of the word array, so the bound 59 on the word array's entries is a bound on them. Under that bound
  the pipeline half of a tile's task meets its statement, hence the whole task does, hence the launch theorem gives the
  run: every weakly fair execution terminates with the flat result — at position `200 b + l` the hour row named by
  `x[b, l, 0]` plus the minute row named by `x[b, l, 1]` — reshaped to 16384 × 200 × 128, which is the specification, and
  with the three arguments unchanged.
-/
import proofs.«204352_g17334488006705_cont_7to1_713_23_alg».proof.Proof.Launch
import proofs.«204352_g17334488006705_cont_7to1_713_23_alg».proof.Proof.ValueBridge
import proofs.«204352_g17334488006705_cont_7to1_713_23_alg».proof.Proof.Pipe
import proofs.«204352_g17334488006705_cont_7to1_713_23_alg».proof.Proof.TileBody
import proofs.«204352_g17334488006705_cont_7to1_713_23_alg».proof.Proof.Spec

noncomputable section

namespace Cert.KernelIdeal.Hand

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

variable (m : (ℓ : Loc nD τ sig) → Buf (Elt F) ℓ) (ρ : Dev nD → PrngReg)

variable [FloatOps F]

/-! ## The flattened words are entries of the word array -/

/-- Every position of a row of 3276800 words is the flat position `200 b + l` of a pair `(b, l)`: quotient and
    remainder by 200. -/
theorem exists_flatPos (j : S1x3276800.Idx) : ∃ (b : Fin 16384) (l : Fin 200), j = ix2 (0 : Fin 1) (flatPos b l) := by
  obtain ⟨u, n, rfl⟩ : ∃ (u : Fin 1) (n : Fin 3276800), j = ix2 u n := ⟨j 0, j 1, eq_ix2 j⟩
  obtain rfl : u = 0 := Subsingleton.elim _ _
  refine ⟨⟨n.val / 200, by have := n.isLt; omega⟩, ⟨n.val % 200, Nat.mod_lt _ (by norm_num)⟩, ?_⟩
  congr 1
  exact Fin.ext (by show n.val = 200 * (n.val / 200) + n.val % 200; omega)

/-- The flattened hour words are entries of column 0 of the word array: a bound on the array's entries bounds them. -/
theorem X0h_le (x : IVec S16384x200x2 32) (hx : ∀ j, (x j).toNat ≤ 59) : ∀ j, (X0h x j).toNat ≤ 59 := fun j => by
  obtain ⟨b, l, rfl⟩ := exists_flatPos j
  rw [X0h_apply]
  exact hx _

/-- The flattened minute words likewise, of column 1. -/
theorem X1h_le (x : IVec S16384x200x2 32) (hx : ∀ j, (x j).toNat ≤ 59) : ∀ j, (X1h x j).toNat ≤ 59 := fun j => by
  obtain ⟨b, l, rfl⟩ := exists_flatPos j
  rw [X1h_apply]
  exact hx _

/-- The hour words the call finds are the flattened hour words of the launch contents of the word array … -/
theorem X0v_le (d : Dev nD) (hx : ∀ j, ((m (a0Loc d) : IVec S16384x200x2 32) j).toNat ≤ 59) :
    ∀ j, (X0v m d j).toNat ≤ 59 :=
  X0h_le (m (a0Loc d)) hx

/-- … and the minute words the flattened minute words. -/
theorem X1v_le (d : Dev nD) (hx : ∀ j, ((m (a0Loc d) : IVec S16384x200x2 32) j).toNat ≤ 59) :
    ∀ j, (X1v m d j).toNat ≤ 59 :=
  X1h_le (m (a0Loc d)) hx

/-- The program's result is the specification of the three arguments: the flat result is stated over the flattened
    columns of the word array, and its reshape reads, at `(b, l, d)`, the flat result's row `200 b + l`. -/
theorem RES_eq (d : Dev nD) :
    RES m d = Cert.Spec.G (F := F) (m (a0Loc d)) (m (a1Loc d)) (m (a2Loc d)) :=
  outFlat_reshape (F := F) (m (a0Loc d)) (m (a1Loc d)) (m (a2Loc d))

/-! ## The run -/

/-- From any memory whose word array holds words between 0 and 59, with zero counters: every weakly fair execution of
    the program's threads terminates with the result buffer at the specification of the three arguments' launch
    contents, and the arguments unchanged. -/
theorem kernel_run [∀ e, Nonempty (Elt F e)]
    (hx : ∀ (c : Dev Cert.KernelIdeal.nD) j,
      (m ((c.tc : Thread Cert.KernelIdeal.nD Cert.KernelIdeal.τ).loc Cert.KernelIdeal.main_arg0) j).toNat ≤ 59) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_v7)
        = Cert.Spec.G (F := F) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run _ _ _).mono (fun _ h c => ⟨(h c).1.trans (RES_eq m c), (h c).2⟩)
    (run_main m ρ (fun d L hF =>
      tile_body m (X0v m) (X1v m) d L (X0v_le m d (hx d)) (X1v_le m d (hx d)) hF (pipe_spec m (X0v m) (X1v m) d L _ _)))

end Cert.KernelIdeal.Hand

end
-- ==== Proof.Bits.Common.lean ====
/-
  What every part of the kernel's proof shares: the program as the launch theorem reads it, the ghost state, the arrays
  and their pieces, the values, the barrier's schedule and what the handshakes carry.

  The kernel runs on the 32 vector subcores (2 SparseCores of 16 tiles). Tile `i` of a SparseCore first builds rows
  `[288 i, 288 i + 288)` of a table of 4608 = 72 · 64 rows in the SparseCore's shared memory: row `R` is the hour
  table's row `R / 64` plus the minute table's row `R % 64` (minute rows 60 … 63 do not exist: those table rows hold
  whatever the tile's scratch held, and are never read). The tiles of a SparseCore meet at the subcore barrier, where
  each hands every tile a read share of its 288 rows. Then tile number `t = i + 16 c` serves positions
  `[102400 t, 102400 t + 102400)` in 800 blocks of 128: per block it forms the words `64 · hour + minute`, gathers
  those rows of the table and copies the 128 × 128 block out.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.Transfers
import proofs.«204352_g17334488006705_cont_7to1_713_23_alg».proof.Proof.Gen.Kernel
import proofs.«204352_g17334488006705_cont_7to1_713_23_alg».proof.Proof.Gen.Kernel.Skeleton
import proofs.«204352_g17334488006705_cont_7to1_713_23_alg».proof.Proof.Spec

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays -/

/-- The minute table, the hour table, the flattened hour and minute words, and the flat result, in HBM. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev x0Loc (d : Dev nD) : Loc nD τ sig := (SparseCore.T d).loc main_v2
abbrev x1Loc (d : Dev nD) : Loc nD τ sig := (SparseCore.T d).loc main_v5
abbrev oLoc (d : Dev nD) : Loc nD τ sig := (SparseCore.T d).loc main_v6

/-- SparseCore `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## Tiles, blocks and rows -/

/-- The number of tile `i` of SparseCore `c` among the 32. -/
def tno (c : Fin 2) (i : Fin 16) : Fin 32 := ⟨i.val + 16 * c.val, by omega⟩
/-- The number of tile number `t`'s `k`-th block among the 25600 blocks of 128 positions. -/
def blkNo (t : Fin 32) (k : Fin 800) : Fin 25600 := ⟨t.val * 800 + k.val, by omega⟩

theorem hdivO : 25600 ∣ S3276800x128.size 0 := ⟨128, rfl⟩
theorem hdivS : 16 ∣ S4608x128.size 0 := ⟨288, rfl⟩
/-- Block `B` of the flat result: rows `[128 B, 128 B + 128)`, every column. -/
abbrev oRect (B : Fin 25600) : Rect S3276800x128 := Rect.part (s := S3276800x128) (a₀ := 0) hdivO B
abbrev oblk (B : Fin 25600) : Finset S3276800x128.Idx := (oRect B).set
/-- Tile `i`'s rows of the shared table: `[288 i, 288 i + 288)`, every column. -/
abbrev shRect (i : Fin 16) : Rect S4608x128 := Rect.part (s := S4608x128) (a₀ := 0) hdivS i
abbrev shrows (i : Fin 16) : Finset S4608x128.Idx := (shRect i).set

/-- The read share of an input array that tile number `t` holds. -/
abbrev inTok (t : Fin 32) : PosShare TreeShare := shareTok fullShare 32 t
/-- The read share of a tile's table rows that tile `j` of the SparseCore is handed at the barrier. -/
abbrev shTok (j : Fin 16) : PosShare TreeShare := shareTok fullShare 16 j
/-- What the tile keeps of its own rows. -/
abbrev shRest : PosShare TreeShare := shareDrop fullShare 16

/-! ## The values -/

section Values
variable [FloatOps F]

/-- Row `R` of the table is right: where its minute `R % 64` exists, it is hour row `R / 64` plus minute row `R % 64`. -/
def TabOK (a1 : FVec F S60x128 .f32) (a2 : FVec F S72x128 .f32) (g : FVec F S4608x128 .f32) (R : Fin 4608) : Prop :=
  ∀ (hm : R.val % 64 < 60) (col : Fin 128),
    g (ix2 R col) = FloatOps.addf (a2 (ix2 (⟨R.val / 64, by omega⟩ : Fin 72) col)) (a1 (ix2 (⟨R.val % 64, hm⟩ : Fin 60) col))

/-- The flat result: at position `n`, column `col`, the hour row named by the `n`-th hour word plus the minute row named
    by the `n`-th minute word. -/
def OutFlat (a1 : FVec F S60x128 .f32) (a2 : FVec F S72x128 .f32) (x0 x1 : IVec S1x3276800 32) : FVec F S3276800x128 .f32 :=
  fun j => FloatOps.addf (a2 (ix2 (Cert.Spec.row 72 (by norm_num) (x0 (ix2 (0 : Fin 1) (j 0)))) (j 1)))
    (a1 (ix2 (Cert.Spec.row 60 (by norm_num) (x1 (ix2 (0 : Fin 1) (j 0)))) (j 1)))

end Values

/-! ## The barrier cells -/

variable (m : (ℓ : Loc nD τ sig) → Buf (Elt F) ℓ) (ρ : Dev nD → PrngReg)
-- the flattened hour and minute words as the call finds them (the host's slices and reshapes of `x`)
variable (X0v X1v : Dev nD → IVec S1x3276800 32)

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

variable [FloatOps F]

/-- Tile `n`'s rows of SparseCore `c`'s table are right, and held at share `q`. -/
def shPiece (d : Dev nD) (c : Fin τ.nSC) (n : Fin 16) (q : PosShare TreeShare) : sProp 𝕄 :=
  iprop(∃ f : Buf (Elt F) (shLoc d c), ⌜∀ R : Fin 4608, R.val / 288 = n.val → TabOK (F := F) (m (a1Loc d)) (m (a2Loc d)) f R⌝ ∗ shLoc d c ↦[shrows n]{q} f)

/-- What tile `n`'s arrival at tile `j`'s barrier cell hands over: a read share of tile `n`'s rows of the table, right. -/
def bPay (g : GSem nD τ sig) (n : ℕ) : sProp 𝕄 :=
  match g with
  | ((d, .scVector c j), _) => if h : n < 16 then shPiece m d c ⟨n, h⟩ (shTok (Fin.cast nSub_eq j)) else iprop(emp)
  | _ => iprop(emp)

/-- The barrier cells' schedule: one round on each, of one unit duty per tile of the SparseCore (named by its number),
    each handing over a read share of its rows. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay shPiece
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier bundle: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The result array's contents after the call. -/
abbrev OUTv (d : Dev nD) : Buf (Elt F) (oLoc d) := OutFlat (F := F) (m (a1Loc d)) (m (a2Loc d)) (X0v d) (X1v d)

/-- The four input arrays at tile number `t`'s read shares. -/
abbrev inPts (d : Dev nD) (t : Fin 32) : sProp 𝕄 :=
  iprop((a1Loc d ↦{inTok t} m (a1Loc d)) ∗ (a2Loc d ↦{inTok t} m (a2Loc d)) ∗ (x0Loc d ↦{inTok t} (X0v d : Buf (Elt F) (x0Loc d))) ∗ (x1Loc d ↦{inTok t} (X1v d : Buf (Elt F) (x1Loc d))))
/-- A tile's 800 blocks of the result at some contents, and at the contents the call leaves. -/
abbrev oBlksAny (d : Dev nD) (t : Fin 32) : sProp 𝕄 := bigSep Finset.univ fun k : Fin 800 => iprop(∃ f, oLoc d ↦[oblk (blkNo t k)]{fullShare} f)
abbrev oBlksDone (d : Dev nD) (t : Fin 32) : sProp 𝕄 := bigSep Finset.univ fun k : Fin 800 => oLoc d ↦[oblk (blkNo t k)]{fullShare} OUTv m X0v X1v d

/-- What tile `i` (number `t`) of SparseCore `sc` is handed, and hands back. -/
abbrev goPts (d : Dev nD) (sc : Fin τ.nSC) (t : Fin 32) (i : Fin 16) : sProp 𝕄 :=
  iprop(inPts m X0v X1v d t ∗ oBlksAny d t ∗ ∃ f, shLoc d sc ↦[shrows i]{fullShare} f)
abbrev tdPts (d : Dev nD) (sc : Fin τ.nSC) (t : Fin 32) (i : Fin 16) : sProp 𝕄 :=
  iprop(oBlksDone m X0v X1v d t
    ∗ (∃ f, shLoc d sc ↦[shrows i]{shRest} f) ∗ ∃ f, shLoc d sc ↦{shTok i} f)

/-- The tile number of the call's core `c` and subcore `i`. -/
abbrev tnoK (c : Fin ((K (F := F)).nCore 0)) (i : Fin ((K (F := F)).nSub 0)) : Fin 32 := tno (Fin.cast nCore_zero c) (Fin.cast nSub_zero i)

/-- The one call: each SparseCore is handed its tiles' shares and blocks; each task the read shares of the inputs, its 800
    blocks of the result and its rows of the table, and hands back the blocks filled and what it holds of the table (the read shares of
    the inputs are not handed back: nothing after the call needs them);
    each task's proof consumes its barrier bundle; each tile owes its arrivals. -/
def P : (K (F := F)).Pay (nD := nD) (Val := Elt F) (Name := ℕ) (U := UU) where
  st := fun q d c => match q with | 0 => bigSep Finset.univ fun i : Fin ((K (F := F)).nSub 0) => iprop(inPts m X0v X1v d (tnoK c i) ∗ oBlksAny d (tnoK c i))
  dn := fun q d c => match q with | 0 => bigSep Finset.univ fun i : Fin ((K (F := F)).nSub 0) => oBlksDone m X0v X1v d (tnoK c i)
  go := fun q d c i => match q with | 0 => goPts m X0v X1v d (coreOf c) (tnoK c i) (Fin.cast nSub_zero i)
  td := fun q d c i => match q with | 0 => tdPts m X0v X1v d (coreOf c) (tnoK c i) (Fin.cast nSub_zero i)
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m X0v X1v).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## The task, as a statement -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The number of the tile at coordinates `L`. -/
abbrev tL (L : grid0.Coords) : Fin 32 := tno (cL L) (jL L)

/-- The kernel's operands as the task addresses them: the two tables, the flattened words, the flat result, in HBM; the
    index list, the minute and hour copies and the 288 built rows in the tile's memory; the table in shared memory; the
    two-slot staging buffers of the words and of the result blocks. -/
abbrev a1V : Memref sig .scVector .hbm S60x128 .f32 := Memref.whole main_arg1_scv
abbrev a2V : Memref sig .scVector .hbm S72x128 .f32 := Memref.whole main_arg2_scv
abbrev x0V : Memref sig .scVector .hbm S1x3276800 .i32 := Memref.whole main_v2_scv
abbrev x1V : Memref sig .scVector .hbm S1x3276800 .i32 := Memref.whole main_v5_scv
abbrev oV : Memref sig .scVector .hbm S3276800x128 .f32 := Memref.whole main_v6_scv
abbrev idxV : Memref sig .scVector .vmem S128 .i32 := Memref.whole cc0_scratch0
abbrev minV : Memref sig .scVector .vmem S64x128 .f32 := Memref.whole cc0_scratch1
abbrev hourV : Memref sig .scVector .vmem S72x128 .f32 := Memref.whole cc0_scratch2
abbrev cbufV : Memref sig .scVector .vmem S288x128 .f32 := Memref.whole cc0_scratch3
abbrev shV : Memref sig .scVector .shared S4608x128 .f32 := Memref.whole cc0_scratch4
abbrev w0V : Memref sig .scVector .vmem S2x1x128 .i32 := Memref.whole cc0_scoped3
abbrev w1V : Memref sig .scVector .vmem S2x1x128 .i32 := Memref.whole cc0_scoped5
abbrev stgV : Memref sig .scVector .vmem S2x128x128 .f32 := Memref.whole cc0_scoped7

/-- The task's program at coordinates `L`. -/
abbrev taskProg (L : grid0.Coords) : Prog (TpuEff nD τ sig (Elt F) Λ₀ (.scVector ((L 0).castLE hcore0) ((L 1).castLE hsub0))) PUnit :=
  cc0_k (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9

/-- The task on the vector subcore at coordinates `L` of device `d`, from what it is handed to what it hands back. -/
def TileBodyAt (hF : (K (F := F)).Facts) : Prop :=
  ∀ (O : CellTallies nD τ sig (HIx 1)) (W : Waits sig (HIx 1)) (_hO : ∀ g, O g none = 0)
    (_hOlev : ∀ g ι, 0 < O g ι → 8 * (0 : Fin 1).val + 6 ≤ (K (F := F)).lev g ι),
    iprop(levAts (K (F := F)).L (K (F := F)).lev ∗ bkit m d (cV L) (jV L)
        ∗ goPts m X0v X1v d (cV L) (tL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ (taskProg (F := F) L)
          fun _ => iprop(tdPts m X0v X1v d (cV L) (tL L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W')

end Tile

/-- Every task, on every device at every coordinate. -/
def TileBodySpec : Prop := ∀ (d : Dev nD) (L : grid0.Coords) (hF : (K (F := F)).Facts), TileBodyAt m X0v X1v d L hF

end Cert.Kernel.Hand

end
-- ==== Proof.Bits.LaunchGhost.lean ====
/-
  The launch element of the ghost state: the barrier cells of every tile of both SparseCores are funded at once, before
  any thread runs, so that a tile may signal a sibling whose task has not begun. Each cell gets its invariant (round 0,
  sixteen unit duties, one per tile of the SparseCore); each tile gets its bundle: every cell's invariant of its
  SparseCore, its own duty token in each of them, its position at the origin of its own cell's round, and the credit for
  the sixteen units it will wait for. Then: one tile's task, as the launch theorem asks for it, from the task's own
  statement.
-/
import proofs.«204352_g17334488006705_cont_7to1_713_23_alg».proof.Proof.Bits.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable (X0v X1v : Dev nD → IVec S1x3276800 32)

variable [FloatOps F]

/-! ## The barrier cells and the tokens -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile of either SparseCore the sixteen units of its own cell. -/
theorem creds_b : ((P (F := F) m X0v X1v).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m X0v X1v).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m X0v X1v).oxFrom 0 (V d c i) = oxV d c := fun i => by
      rw [show (0 : ℕ) = (0 : Fin 1).val from rfl, (P m X0v X1v).oxFrom_step, (P m X0v X1v).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m X0v X1v).x q (SparseCore.T d)) = iprop(emp) :=
  bigSep_univ_of_subsingleton (0 : Fin 1)
theorem Px_S (d : Dev nD) (c : Fin τ.nSC) : (bigSep Finset.univ fun q : Fin 1 => (P (F := F) m X0v X1v).x q (S d c)) = iprop(emp) :=
  bigSep_univ_of_subsingleton (0 : Fin 1)
theorem Px_V (d : Dev nD) (c : Fin τ.nSC) (i : Fin τ.nSub) :
    (bigSep Finset.univ fun q : Fin 1 => (P (F := F) m X0v X1v).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One tile's bundle out of those. -/
theorem kit_intro (dci : DCI) : iprop(shared (F := F) m ∗ mine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each tile its bundle. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m X0v X1v).x q thr : sProp 𝕄) := by
  rw [SparseCore.Cfg.bigSep_threads (fun thr : Thread nD τ => bigSep Finset.univ fun q : Fin 1 => (P m X0v X1v).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m X0v X1v).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m X0v X1v).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m X0v X1v) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m X0v X1v)
  isplitr
  · isplitl; · iexists κ; iexact Hinv'
    iexact Hr'
  isplitl [Hat']; · iexact Hat'
  isplitl [Htok']; · iexact Htok'
  iexact Hcred'

/-! ## One tile's task, as the launch theorem asks for it -/

/-- The coordinates of the tile the call's core `c` and subcore `s` name. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => taskProg (F := F) (coordsV c s)) ⟨⟩ c s := rfl

set_option maxRecDepth 16384 in
/-- The launch theorem's obligation for a tile is the task's statement at that tile's coordinates: the tile of the
    call's core `c` and subcore `i` is tile number `i + 16 c`, on SparseCore `c`. -/
theorem tileObl (hbody : TileBodySpec (F := F) m X0v X1v) (hF : (K (F := F)).Facts) :
    (K (F := F)).TileObl (D (F := F)) 𝒱 (P m X0v X1v) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m X0v X1v).ox 0 (V d ((K (F := F)).core 0 c) ((K (F := F)).sub 0 i)) = oxV d ((K (F := F)).core 0 c) from if_pos hc,
    show (P m X0v X1v).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact hbody d (coordsV ⟨_, hci.1⟩ ⟨_, hci.2⟩) hF O W hO hOlev

end Cert.Kernel.Hand

end
-- ==== Proof.Bits.LaunchSplit.lean ====
/-
  How the call's operands are cut up and put back. The shared table of a SparseCore is the sequencer's own buffer: it
  is cut into the sixteen row sets of 288 rows, one per tile, and rebuilt from what the tiles hand back: from tile i
  the remainder of its rows (the share left after sixteen read shares were split off) and a read share of the WHOLE
  table (what it was handed at the barrier, row set by row set). The remainders of the sixteen disjoint row sets are one
  whole-array remainder at some contents h; every read share, held beside it, agrees with h everywhere, so it is a read
  share of h; remainder and sixteen read shares of h are h at the full share. The flat result is cut into its 25600
  blocks of 128 rows, grouped as 32 tiles of 800 blocks; each input into 32 read shares, which the tiles keep, and a remainder, which stays with the TensorCore.
-/
import proofs.«204352_g17334488006705_cont_7to1_713_23_alg».proof.Proof.Bits.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)
variable (X0v X1v : Dev nD → IVec S1x3276800 32)

variable [FloatOps F]

/-! ## Two holders of one array agree, and keep what they hold -/

omit [FloatOps F] in
theorem pt_agree_keep {ℓ : Loc nD τ sig} {I : Finset (Idx ℓ)} {q₁ q₂ : PosShare TreeShare} {f g : Buf (Elt F) ℓ} :
    iprop((ℓ ↦[I]{q₁} f) ∗ ℓ ↦[I]{q₂} g) ⊢ (iprop((ℓ ↦[I]{q₁} f) ∗ ℓ ↦[I]{q₂} f) : sProp 𝕄) :=
  pure_elim _ pointsTo_agree fun h => Entails.of_eq (by
    rw [pointsTo_congr (f := g) (g := f) fun i hi => ((h i (Finset.mem_inter.mpr ⟨hi, hi⟩)).1).symm])

omit [FloatOps F] in
/-- A family of holders of the whole array, each at contents of its own, beside one more holder at contents `h`: all
    are holders of `h`. -/
theorem toks_restate {T : Type} [DecidableEq T] {ℓ : Loc nD τ sig} (q : PosShare TreeShare) (p : T → PosShare TreeShare)
    (h : Buf (Elt F) ℓ) (gs : T → Buf (Elt F) ℓ) (s : Finset T) :
    iprop((ℓ ↦{q} h) ∗ bigSep s fun j => ℓ ↦{p j} gs j) ⊢ (iprop((ℓ ↦{q} h) ∗ bigSep s fun j => ℓ ↦{p j} h) : sProp 𝕄) := by
  induction s using Finset.induction_on with
  | empty => rw [bigSep_empty, bigSep_empty]
  | insert a s ha ih =>
    rw [SparseCore.bigSep_insert' ha, SparseCore.bigSep_insert' ha]
    iintro ⟨Hh, Ha, Hs⟩
    ihave H := ih $$ [Hh Hs]
    · isplitl [Hh] <;> iassumption
    icases H with ⟨Hh, Hs⟩
    ihave H := (pt_agree_keep (F := F)) $$ [Hh Ha]
    · isplitl [Hh] <;> iassumption
    icases H with ⟨Hh, Ha⟩
    isplitl [Hh]; · iexact Hh
    isplitl [Ha]; · iexact Ha
    iexact Hs

/-! ## The shared table's rows -/

omit [FloatOps F] in
theorem shrows_disjoint : ∀ i ∈ (Finset.univ : Finset (Fin 16)), ∀ j ∈ (Finset.univ : Finset (Fin 16)), i ≠ j → Disjoint (shrows i) (shrows j) :=
  fun _ _ _ _ h => Rect.part_disjoint hdivS h
omit [FloatOps F] in
theorem shrows_cover : (Finset.univ : Finset (Fin 16)).biUnion shrows = Finset.univ := Rect.biUnion_part hdivS

omit [FloatOps F] in
theorem shPts_rows (d : Dev nD) (c : Fin τ.nSC) (f : Buf (Elt F) (shLoc d c)) :
    (shLoc d c ↦{fullShare} f : sProp 𝕄) = bigSep Finset.univ fun i : Fin 16 => shLoc d c ↦[shrows i]{fullShare} f := by
  rw [← pointsTo_biUnion Finset.univ (ℓ := shLoc d c) shrows shrows_disjoint, shrows_cover]; try rfl

/-- The table, whole, is its sixteen row sets, each at some contents. -/
theorem sh_split (d : Dev nD) (c : Fin τ.nSC) (f : Buf (Elt F) (shLoc d c)) :
    (shLoc d c ↦{fullShare} f : sProp 𝕄) ⊢ bigSep Finset.univ fun i : Fin 16 => iprop(∃ g, shLoc d c ↦[shrows i]{fullShare} g) :=
  (Entails.of_eq (shPts_rows d c f)).trans (SparseCore.ent (bigSep_mono (Φ := fun i => (shLoc d c ↦[shrows i]{fullShare} f : sProp 𝕄))
    (Ψ := fun i => iprop(∃ g, shLoc d c ↦[shrows i]{fullShare} g))
    fun i _ => BI.BIClass.exists_intro (Φ := fun g => (shLoc d c ↦[shrows i]{fullShare} g : sProp 𝕄)) f))

/-- What the sixteen tiles hand back is the table, whole, at some contents. -/
theorem sh_join (d : Dev nD) (c : Fin τ.nSC) :
    iprop((bigSep Finset.univ fun i : Fin 16 => iprop(∃ f, shLoc d c ↦[shrows i]{shRest} f))
        ∗ bigSep Finset.univ fun i : Fin 16 => iprop(∃ g, shLoc d c ↦{shTok i} g))
      ⊢ (iprop(∃ f, shLoc d c ↦{fullShare} f) : sProp 𝕄) := by
  iintro ⟨HA, HB⟩
  ihave HA' := (bigSep_exists_pi Finset.univ (fun (i : Fin 16) (f : Buf (Elt F) (shLoc d c)) => (shLoc d c ↦[shrows i]{shRest} f : sProp 𝕄))) $$ HA
  icases HA' with ⟨%fs, HA⟩
  ihave HB' := (bigSep_exists_pi Finset.univ (fun (i : Fin 16) (g : Buf (Elt F) (shLoc d c)) => (shLoc d c ↦{shTok i} g : sProp 𝕄))) $$ HB
  icases HB' with ⟨%gs, HB⟩
  -- the remainders of the sixteen row sets: one remainder of the whole table, at contents `h`
  ihave HA'' := (pointsTo_biUnion_join Finset.univ shrows fs (fs 0) shrows_disjoint) $$ HA
  icases HA'' with ⟨%h, -, Hh⟩
  rw [shrows_cover]
  -- every read share agrees with it
  ihave H := (toks_restate (F := F) shRest shTok h gs Finset.univ) $$ [Hh HB]
  · isplitl [Hh] <;> iassumption
  iexists h
  iapply (Transfers.pointsTo_toks_join fullShare 16)
  iexact H

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-! ## The tiles of a SparseCore -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- One SparseCore's split, over its sixteen tiles, whatever else the tiles are handed (`IN`, `OA`) and hand back
    (`OD`): tile `j` is handed its rows of the table; the table comes back whole from what the tiles return. -/
theorem split_generic (IN OA OD : Fin 16 → sProp 𝕄) (d : Dev nD) (sc : Fin τ.nSC) :
    iprop((bigSep Finset.univ fun j : Fin 16 => iprop(IN j ∗ OA j)) ∗ ownBufs (S d sc))
      ⊢ |={Set.univ}=> iprop(
        (bigSep Finset.univ fun j : Fin 16 => iprop(IN j ∗ OA j ∗ ∃ f : Buf (Elt F) (shLoc d sc), shLoc d sc ↦[shrows j]{fullShare} f))
        ∗ ((bigSep Finset.univ fun j : Fin 16 => iprop(OD j
              ∗ (∃ f : Buf (Elt F) (shLoc d sc), shLoc d sc ↦[shrows j]{shRest} f) ∗ ∃ f : Buf (Elt F) (shLoc d sc), shLoc d sc ↦{shTok j} f))
            -∗ iprop((bigSep Finset.univ fun j : Fin 16 => OD j) ∗ ownBufs (S d sc)))) := by
  rw [bigSep_sep', bigSep_sep', bigSep_sep', bigSep_sep', bigSep_sep', ownBufs_S]
  iintro ⟨⟨Hin, Hoa⟩, ⟨%fsh, Hsh⟩, Hrest⟩; imodintro
  isplitl [Hin Hoa Hsh]
  · isplitl [Hin]; · iexact Hin
    isplitl [Hoa]; · iexact Hoa
    iapply (sh_split d sc fsh); iexact Hsh
  iintro ⟨Hod, Hsr, Hst⟩
  isplitl [Hod]; · iexact Hod
  isplitl [Hsr Hst]
  · iapply (sh_join d sc)
    isplitl [Hsr]; · iexact Hsr
    iexact Hst
  iexact Hrest

/-- The same at the tiles' operands: tile `j` is handed its inputs' shares, its blocks and its rows of the table, and hands
    back its blocks filled and what it holds of the table. -/
theorem vecSplit16 (d : Dev nD) (c2 : Fin 2) (sc : Fin τ.nSC) :
    iprop((bigSep Finset.univ fun j : Fin 16 => iprop(inPts m X0v X1v d (tno c2 j) ∗ oBlksAny d (tno c2 j))) ∗ ownBufs (S d sc))
      ⊢ |={Set.univ}=> iprop(
        (bigSep Finset.univ fun j : Fin 16 => iprop(inPts m X0v X1v d (tno c2 j) ∗ oBlksAny d (tno c2 j) ∗ ∃ f, shLoc d sc ↦[shrows j]{fullShare} f))
        ∗ ((bigSep Finset.univ fun j : Fin 16 => iprop(oBlksDone m X0v X1v d (tno c2 j)
              ∗ (∃ f, shLoc d sc ↦[shrows j]{shRest} f) ∗ ∃ f, shLoc d sc ↦{shTok j} f))
            -∗ iprop((bigSep Finset.univ fun j : Fin 16 => oBlksDone m X0v X1v d (tno c2 j)) ∗ ownBufs (S d sc)))) :=
  split_generic (F := F) (fun j => inPts m X0v X1v d (tno c2 j)) (fun j => oBlksAny d (tno c2 j)) (fun j => oBlksDone m X0v X1v d (tno c2 j)) d sc

theorem P_st (d : Dev nD) (c : Fin ((K (F := F)).nCore 0)) : (P (F := F) m X0v X1v).st 0 d c
    = bigSep Finset.univ fun i : Fin ((K (F := F)).nSub 0) => iprop(inPts m X0v X1v d (tnoK c i) ∗ oBlksAny d (tnoK c i)) := by unfold P; dsimp only <;> rfl
theorem P_dn (d : Dev nD) (c : Fin ((K (F := F)).nCore 0)) : (P (F := F) m X0v X1v).dn 0 d c
    = bigSep Finset.univ fun i : Fin ((K (F := F)).nSub 0) => oBlksDone m X0v X1v d (tnoK c i) := by unfold P; dsimp only <;> rfl
theorem P_go (d : Dev nD) (c : Fin ((K (F := F)).nCore 0)) (i : Fin ((K (F := F)).nSub 0)) : (P (F := F) m X0v X1v).go 0 d c i
    = goPts m X0v X1v d (coreOf c) (tnoK c i) (Fin.cast nSub_zero i) := rfl
theorem P_td (d : Dev nD) (c : Fin ((K (F := F)).nCore 0)) (i : Fin ((K (F := F)).nSub 0)) : (P (F := F) m X0v X1v).td 0 d c i
    = tdPts m X0v X1v d (coreOf c) (tnoK c i) (Fin.cast nSub_zero i) := rfl

/-- The split of the call's operands for one SparseCore among its tiles, over the sequencer's own buffers. -/
theorem vecSplit : (K (F := F)).VecSplit (P m X0v X1v) 0 := by
  intro d c
  simp only [P_st, P_dn, P_go, P_td]
  rw [bigSep_tasks (F := F) (fun j => iprop(inPts m X0v X1v d (tno (Fin.cast nCore_zero c) j) ∗ oBlksAny d (tno (Fin.cast nCore_zero c) j))),
    bigSep_tasks (F := F) (fun j => iprop(inPts m X0v X1v d (tno (Fin.cast nCore_zero c) j) ∗ oBlksAny d (tno (Fin.cast nCore_zero c) j) ∗ ∃ f, shLoc d (coreOf c) ↦[shrows j]{fullShare} f)),
    bigSep_tasks (F := F) (fun j => iprop(oBlksDone m X0v X1v d (tno (Fin.cast nCore_zero c) j)
      ∗ (∃ f, shLoc d (coreOf c) ↦[shrows j]{shRest} f) ∗ ∃ f, shLoc d (coreOf c) ↦{shTok j} f)),
    bigSep_tasks (F := F) (fun j => oBlksDone m X0v X1v d (tno (Fin.cast nCore_zero c) j))]
  exact vecSplit16 m X0v X1v d (Fin.cast nCore_zero c) (coreOf c)

/-! ## The 32 tiles and their 800 blocks -/

/-- Tile `i` of SparseCore `c` is tile number `i + 16 c`: every number below 32 once. -/
def tnoEquiv : Fin 2 × Fin 16 ≃ Fin 32 where
  toFun x := tno x.1 x.2
  invFun t := (⟨t.val / 16, by omega⟩, ⟨t.val % 16, by omega⟩)
  left_inv := by
    rintro ⟨c, i⟩
    refine Prod.ext (Fin.ext ?_) (Fin.ext ?_)
    · show (i.val + 16 * c.val) / 16 = c.val; omega
    · show (i.val + 16 * c.val) % 16 = i.val; omega
  right_inv := by
    intro t; refine Fin.ext ?_
    show t.val % 16 + 16 * (t.val / 16) = t.val; omega

/-- Tile number `t`'s `k`-th block is block `800 t + k`: every block below 25600 once. -/
def blkEquiv : Fin 32 × Fin 800 ≃ Fin 25600 where
  toFun x := blkNo x.1 x.2
  invFun B := (⟨B.val / 800, by omega⟩, ⟨B.val % 800, by omega⟩)
  left_inv := by
    rintro ⟨t, k⟩
    refine Prod.ext (Fin.ext ?_) (Fin.ext ?_)
    · show (t.val * 800 + k.val) / 800 = t.val; omega
    · show (t.val * 800 + k.val) % 800 = k.val; omega
  right_inv := by
    intro B; refine Fin.ext ?_
    show B.val / 800 * 800 + B.val % 800 = B.val; omega

omit [FloatOps F] in
/-- Over the call's cores and subcores is over the 32 tile numbers. -/
theorem bigSep_grid (Φ : Fin 32 → sProp 𝕄) :
    (bigSep Finset.univ fun c : Fin ((K (F := F)).nCore 0) => bigSep Finset.univ fun i : Fin ((K (F := F)).nSub 0) => Φ (tnoK c i)) = bigSep Finset.univ Φ := by
  rw [bigSep_univ_equiv tnoEquiv Φ, bigSep_univ_prod]
  exact bigSep_congr fun c _ => bigSep_congr fun i _ => congrArg Φ (Fin.ext rfl)

theorem st_eq (d : Dev nD) : (bigSep Finset.univ fun c : Fin ((K (F := F)).nCore 0) => (P m X0v X1v).st 0 d c)
    = bigSep Finset.univ fun t : Fin 32 => iprop(inPts m X0v X1v d t ∗ oBlksAny d t) := by
  simp only [P_st]
  exact bigSep_grid (F := F) fun t => iprop(inPts m X0v X1v d t ∗ oBlksAny d t)
theorem dn_eq (d : Dev nD) : (bigSep Finset.univ fun c : Fin ((K (F := F)).nCore 0) => (P m X0v X1v).dn 0 d c)
    = bigSep Finset.univ fun t : Fin 32 => oBlksDone m X0v X1v d t := by
  simp only [P_dn]
  exact bigSep_grid (F := F) fun t => oBlksDone m X0v X1v d t

omit [FloatOps F] in
theorem oblk_disjoint : ∀ B ∈ (Finset.univ : Finset (Fin 25600)), ∀ B' ∈ (Finset.univ : Finset (Fin 25600)), B ≠ B' → Disjoint (oblk B) (oblk B') :=
  fun _ _ _ _ h => Rect.part_disjoint hdivO h
omit [FloatOps F] in
theorem oblk_cover : (Finset.univ : Finset (Fin 25600)).biUnion oblk = Finset.univ := Rect.biUnion_part hdivO

omit [FloatOps F] in
/-- The flat result, whole, is its blocks, tile by tile. -/
theorem oPts_blocks (d : Dev nD) (f : Buf (Elt F) (oLoc d)) :
    (oLoc d ↦{fullShare} f : sProp 𝕄) = bigSep Finset.univ fun t : Fin 32 => bigSep Finset.univ fun k : Fin 800 => oLoc d ↦[oblk (blkNo t k)]{fullShare} f :=
  calc (oLoc d ↦{fullShare} f : sProp 𝕄)
      = bigSep Finset.univ fun B : Fin 25600 => oLoc d ↦[oblk B]{fullShare} f := by
        rw [← pointsTo_biUnion Finset.univ (ℓ := oLoc d) oblk oblk_disjoint, oblk_cover]; try rfl
    _ = bigSep Finset.univ fun x : Fin 32 × Fin 800 => oLoc d ↦[oblk (blkEquiv x)]{fullShare} f :=
        bigSep_univ_equiv blkEquiv fun B : Fin 25600 => (oLoc d ↦[oblk B]{fullShare} f : sProp 𝕄)
    _ = bigSep Finset.univ fun x : Fin 32 × Fin 800 => oLoc d ↦[oblk (blkNo x.1 x.2)]{fullShare} f := rfl
    _ = _ := bigSep_univ_prod fun x : Fin 32 × Fin 800 => (oLoc d ↦[oblk (blkNo x.1 x.2)]{fullShare} f : sProp 𝕄)

/-! ## What the TensorCore keeps, hands to the call and gets back -/

/-- What the TensorCore keeps of the four inputs during the call: the remainder after 32 read shares. -/
abbrev inRest (d : Dev nD) : sProp 𝕄 :=
  iprop((a1Loc d ↦{shareDrop fullShare 32} m (a1Loc d)) ∗ (a2Loc d ↦{shareDrop fullShare 32} m (a2Loc d))
    ∗ (x0Loc d ↦{shareDrop fullShare 32} (X0v d : Buf (Elt F) (x0Loc d))) ∗ (x1Loc d ↦{shareDrop fullShare 32} (X1v d : Buf (Elt F) (x1Loc d))))
/-- The four inputs, whole. -/
abbrev inFull (d : Dev nD) : sProp 𝕄 :=
  iprop((a1Loc d ↦{fullShare} m (a1Loc d)) ∗ (a2Loc d ↦{fullShare} m (a2Loc d))
    ∗ (x0Loc d ↦{fullShare} (X0v d : Buf (Elt F) (x0Loc d))) ∗ (x1Loc d ↦{fullShare} (X1v d : Buf (Elt F) (x1Loc d))))

theorem in_split (d : Dev nD) : (inFull m X0v X1v d : sProp 𝕄) ⊢ iprop(inRest m X0v X1v d ∗ bigSep Finset.univ fun t : Fin 32 => inPts m X0v X1v d t) := by
  rw [bigSep_sep', bigSep_sep', bigSep_sep']
  iintro ⟨H1, H2, H3, H4⟩
  ihave H1' := (Transfers.pointsTo_toks_split fullShare 32) $$ H1
  ihave H2' := (Transfers.pointsTo_toks_split fullShare 32) $$ H2
  ihave H3' := (Transfers.pointsTo_toks_split fullShare 32) $$ H3
  ihave H4' := (Transfers.pointsTo_toks_split fullShare 32) $$ H4
  icases H1' with ⟨R1, T1⟩; icases H2' with ⟨R2, T2⟩; icases H3' with ⟨R3, T3⟩; icases H4' with ⟨R4, T4⟩
  isplitl [R1 R2 R3 R4]
  · isplitl [R1]; · iexact R1
    isplitl [R2]; · iexact R2
    isplitl [R3]; · iexact R3
    iexact R4
  isplitl [T1]; · iexact T1
  isplitl [T2]; · iexact T2
  isplitl [T3]; · iexact T3
  iexact T4

/-- Before the call: the inputs and the result, whole, are what the TensorCore keeps and what the SparseCores are handed. -/
theorem st_intro (d : Dev nD) (fo : Buf (Elt F) (oLoc d)) :
    iprop(inFull m X0v X1v d ∗ oLoc d ↦{fullShare} fo)
      ⊢ (iprop(inRest m X0v X1v d ∗ bigSep Finset.univ fun c : Fin ((K (F := F)).nCore 0) => (P m X0v X1v).st 0 d c) : sProp 𝕄) := by
  rw [st_eq, bigSep_sep', oPts_blocks]
  iintro ⟨Hin, Ho⟩
  ihave Hin' := (in_split m X0v X1v d) $$ Hin
  icases Hin' with ⟨HR, HT⟩
  isplitl [HR]; · iexact HR
  isplitl [HT]; · iexact HT
  iapply (SparseCore.ent (bigSep_mono (Φ := fun t : Fin 32 => bigSep Finset.univ fun k : Fin 800 => (oLoc d ↦[oblk (blkNo t k)]{fullShare} fo : sProp 𝕄))
    (Ψ := fun t : Fin 32 => oBlksAny (F := F) d t) fun t _ =>
      bigSep_mono (Φ := fun k : Fin 800 => (oLoc d ↦[oblk (blkNo t k)]{fullShare} fo : sProp 𝕄))
        (Ψ := fun k : Fin 800 => iprop(∃ f, oLoc d ↦[oblk (blkNo t k)]{fullShare} f)) fun k _ =>
          BI.BIClass.exists_intro (Φ := fun f => (oLoc d ↦[oblk (blkNo t k)]{fullShare} f : sProp 𝕄)) fo))
  iexact Ho

/-- After the call: what the SparseCores hand back is the flat result, whole, at the contents the call leaves. (The read
    shares of the inputs stay with the tiles; the TensorCore goes on with the remainders it kept.) -/
theorem dn_elim (d : Dev nD) :
    (bigSep Finset.univ fun c : Fin ((K (F := F)).nCore 0) => (P m X0v X1v).dn 0 d c)
      ⊢ (oLoc d ↦{fullShare} OUTv m X0v X1v d : sProp 𝕄) := by
  rw [dn_eq, oPts_blocks]

end Cert.Kernel.Hand

end
-- ==== Proof.Bits.LaunchMain.lean ====
/-
  @main on the TensorCore. Six host operations flatten the two columns of x: the slice of column 0 (of column 1), the
  squeeze of the last axis, the reshape to one row of 3276800 words; these are the hour words and the minute words the
  call finds. The call hands each of the 32 tiles a read share of the two tables and of the two word rows and its 800
  blocks of the flat result, and brings the result back at the value every block was filled with; the read shares stay
  with the tiles, and the TensorCore keeps the remainder of each input's share, which is enough to read the two tables
  back at the end. One more host operation reshapes the flat result to 16384 × 200 × 128. The arguments are never
  written.
-/
import proofs.«204352_g17334488006705_cont_7to1_713_23_alg».proof.Proof.Bits.Common
import proofs.«204352_g17334488006705_cont_7to1_713_23_alg».proof.Proof.Bits.LaunchSplit

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

variable [FloatOps F]

/-! ## The flattened words, and the result -/

/-- The hour words as the call finds them: column 0 of `x`, its last axis squeezed, flattened to one row. -/
def X0v (d : Dev nD) : IVec S1x3276800 32 :=
  shapeCast S1x3276800 (shapeCast S16384x200
    (extractStridedSlice S16384x200x1 ![0, 0, 0] (m (a0Loc d) : (⟨S16384x200x2, .i32⟩ : BufTy).Contents (Elt F)) slices_S16384x200x2_S16384x200x1_0_0_0)
    shapeCasts_S16384x200x1_S16384x200) shapeCasts_S16384x200_S1x3276800
/-- The minute words: column 1 of `x`, likewise. -/
def X1v (d : Dev nD) : IVec S1x3276800 32 :=
  shapeCast S1x3276800 (shapeCast S16384x200
    (extractStridedSlice S16384x200x1 ![0, 0, 1] (m (a0Loc d) : (⟨S16384x200x2, .i32⟩ : BufTy).Contents (Elt F)) slices_S16384x200x2_S16384x200x1_0_0_1)
    shapeCasts_S16384x200x1_S16384x200) shapeCasts_S16384x200_S1x3276800

abbrev rLoc (d : Dev nD) : Loc nD τ sig := (SparseCore.T d).loc main_v7
/-- The program's result: the flat result, reshaped to 16384 × 200 × 128. -/
def RES (d : Dev nD) : Buf (Elt F) (rLoc d) :=
  shapeCast S16384x200x128 (OUTv m (X0v m) (X1v m) d : (⟨S3276800x128, .f32⟩ : BufTy).Contents (Elt F)) shapeCasts_S3276800x128_S16384x200x128

/-! ## The TensorCore's arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev x0' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev x1' : DevRef τ sig := Proc.devRef .tc (main_v5 : Ref sig .tc)
abbrev o' : DevRef τ sig := Proc.devRef .tc (main_v6 : Ref sig .tc)
abbrev r' : DevRef τ sig := Proc.devRef .tc (main_v7 : Ref sig .tc)

abbrev op0 : HloOp τ sig (Elt F) := StableHlo.unary main_arg0 main_v0 ((extractStridedSlice S16384x200x1 ![0, 0, 0] · slices_S16384x200x2_S16384x200x1_0_0_0) : (⟨S16384x200x2, .i32⟩ : BufTy).Contents (Elt F) → (⟨S16384x200x1, .i32⟩ : BufTy).Contents (Elt F))
abbrev op1 : HloOp τ sig (Elt F) := StableHlo.reshape main_v0 main_v1 rfl shapeCasts_S16384x200x1_S16384x200
abbrev op2 : HloOp τ sig (Elt F) := StableHlo.reshape main_v1 main_v2 rfl shapeCasts_S16384x200_S1x3276800
abbrev op3 : HloOp τ sig (Elt F) := StableHlo.unary main_arg0 main_v3 ((extractStridedSlice S16384x200x1 ![0, 0, 1] · slices_S16384x200x2_S16384x200x1_0_0_1) : (⟨S16384x200x2, .i32⟩ : BufTy).Contents (Elt F) → (⟨S16384x200x1, .i32⟩ : BufTy).Contents (Elt F))
abbrev op4 : HloOp τ sig (Elt F) := StableHlo.reshape main_v3 main_v4 rfl shapeCasts_S16384x200x1_S16384x200
abbrev op5 : HloOp τ sig (Elt F) := StableHlo.reshape main_v4 main_v5 rfl shapeCasts_S16384x200_S1x3276800
abbrev op7 : HloOp τ sig (Elt F) := StableHlo.reshape main_v6 main_v7 rfl shapeCasts_S3276800x128_S16384x200x128

/-- The TensorCore's arrays, all in HBM, none scoped: `x`, the two tables, the eight intermediate and result arrays. -/
abbrev S11 : Finset (DevRef τ sig) := {a0', a1', a2', v0', v1', x0', v3', v4', x1', o', r'}

theorem held_S11 (d : Dev nD) (W : Valuation τ sig (Elt F)) :
    (held (T d) S11 W : sProp 𝕄)
      = iprop((a0Loc d ↦{fullShare} W a0') ∗ (a1Loc d ↦{fullShare} W a1') ∗ (a2Loc d ↦{fullShare} W a2')
          ∗ ((SparseCore.T d).loc main_v0 ↦{fullShare} W v0') ∗ ((SparseCore.T d).loc main_v1 ↦{fullShare} W v1') ∗ (x0Loc d ↦{fullShare} W x0')
          ∗ ((SparseCore.T d).loc main_v3 ↦{fullShare} W v3') ∗ ((SparseCore.T d).loc main_v4 ↦{fullShare} W v4') ∗ (x1Loc d ↦{fullShare} W x1')
          ∗ (oLoc d ↦{fullShare} W o') ∗ rLoc d ↦{fullShare} W r') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ ((SparseCore.T d).loc main_v0 ↦{fullShare} W main_v0) ∗ ((SparseCore.T d).loc main_v1 ↦{fullShare} W main_v1) ∗ (x0Loc d ↦{fullShare} W main_v2)
          ∗ ((SparseCore.T d).loc main_v3 ↦{fullShare} W main_v3) ∗ ((SparseCore.T d).loc main_v4 ↦{fullShare} W main_v4) ∗ (x1Loc d ↦{fullShare} W main_v5)
          ∗ (oLoc d ↦{fullShare} W main_v6) ∗ rLoc d ↦{fullShare} W main_v7) := by
  unfold unscopedBufs
  rw [show (Finset.univ.filter fun b : Ref sig .tc => ¬ b.isScoped) = {main_arg0, main_arg1, main_arg2, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; the valuation before the call (the six operations' results); after the call (the flat result
    at what the tiles wrote); after the last reshape. -/
def V0 (d : Dev nD) : Valuation τ sig (Elt F) := fun b => m (d, b)
def V6 (d : Dev nD) : Valuation τ sig (Elt F) :=
  (op5 (F := F)).result ((op4 (F := F)).result ((op3 (F := F)).result ((op2 (F := F)).result ((op1 (F := F)).result ((op0 (F := F)).result (V0 m d))))))
def V7 (d : Dev nD) : Valuation τ sig (Elt F) := Function.update (V6 m d) o' (OUTv m (X0v m) (X1v m) d)
def V8 (d : Dev nD) : Valuation τ sig (Elt F) := (op7 (F := F)).result (V7 m d)

theorem unscoped_held (d : Dev nD) : (unscopedBufs d (fun b => m ((SparseCore.T d).loc b)) : sProp 𝕄) = held (T d) S11 (V0 m d) := by
  rw [unscopedBufs_eq, held_S11]; rfl

theorem V6_a0 (d : Dev nD) : V6 m d a0' = m (a0Loc d) := by
  unfold V6
  simp (disch := decide) only [StableHlo.reshape_result_ne', StableHlo.unary_result_ne']
  rfl
theorem V6_a1 (d : Dev nD) : V6 m d a1' = m (a1Loc d) := by
  unfold V6
  simp (disch := decide) only [StableHlo.reshape_result_ne', StableHlo.unary_result_ne']
  rfl
theorem V6_a2 (d : Dev nD) : V6 m d a2' = m (a2Loc d) := by
  unfold V6
  simp (disch := decide) only [StableHlo.reshape_result_ne', StableHlo.unary_result_ne']
  rfl
theorem V6_x0 (d : Dev nD) : V6 m d x0' = (X0v m d : Buf (Elt F) (x0Loc d)) := by
  unfold V6
  simp (disch := decide) only [StableHlo.reshape_result', StableHlo.unary_result', StableHlo.reshape_result_ne', StableHlo.unary_result_ne']
  rfl
theorem V6_x1 (d : Dev nD) : V6 m d x1' = (X1v m d : Buf (Elt F) (x1Loc d)) := by
  unfold V6
  simp (disch := decide) only [StableHlo.reshape_result', StableHlo.unary_result', StableHlo.reshape_result_ne', StableHlo.unary_result_ne']
  rfl

theorem V7_r (d : Dev nD) : V7 m d r' = V6 m d r' := Function.update_of_ne (show r' ≠ o' by decide) _ _
theorem V7_o (d : Dev nD) : V7 m d o' = OUTv m (X0v m) (X1v m) d := Function.update_self _ _ _

theorem V8_r (d : Dev nD) : V8 m d r' = RES m d := by
  unfold V8
  simp (disch := decide) only [StableHlo.reshape_result']
  rw [V7_o]
  rfl

/-- The eleven arrays before the call. -/
theorem held_V6 (d : Dev nD) :
    (held (T d) S11 ((op5 (F := F)).result ((op4 (F := F)).result ((op3 (F := F)).result ((op2 (F := F)).result ((op1 (F := F)).result ((op0 (F := F)).result (V0 m d)))))))
        : sProp 𝕄)
      = iprop((a0Loc d ↦{fullShare} m (a0Loc d)) ∗ (a1Loc d ↦{fullShare} m (a1Loc d)) ∗ (a2Loc d ↦{fullShare} m (a2Loc d))
          ∗ ((SparseCore.T d).loc main_v0 ↦{fullShare} V6 m d v0') ∗ ((SparseCore.T d).loc main_v1 ↦{fullShare} V6 m d v1')
          ∗ (x0Loc d ↦{fullShare} (X0v m d : Buf (Elt F) (x0Loc d)))
          ∗ ((SparseCore.T d).loc main_v3 ↦{fullShare} V6 m d v3') ∗ ((SparseCore.T d).loc main_v4 ↦{fullShare} V6 m d v4')
          ∗ (x1Loc d ↦{fullShare} (X1v m d : Buf (Elt F) (x1Loc d)))
          ∗ (oLoc d ↦{fullShare} V6 m d o') ∗ rLoc d ↦{fullShare} V6 m d r') := by
  show held (SparseCore.T d) S11 (V6 m d) = _
  rw [held_S11, V6_a0, V6_a1, V6_a2, V6_x0, V6_x1]

/-- The flat result and the result array: what the last reshape touches. -/
abbrev S2 : Finset (DevRef τ sig) := {o', r'}

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The two arrays after the call, -/
theorem held_V7 (d : Dev nD) :
    (held (T d) S2 (V7 m d) : sProp 𝕄) = iprop((oLoc d ↦{fullShare} OUTv m (X0v m) (X1v m) d) ∗ rLoc d ↦{fullShare} V6 m d r') := by
  rw [held_S2, V7_o, V7_r]

/-- and after the last reshape. -/
theorem held_V8 (d : Dev nD) :
    (held (T d) S2 ((op7 (F := F)).result (V7 m d)) : sProp 𝕄) = iprop((oLoc d ↦{fullShare} V8 m d o') ∗ rLoc d ↦{fullShare} RES m d) := by
  show held (SparseCore.T d) S2 (V8 m d) = _
  rw [held_S2, V8_r]

/-- What @main leaves the claim: `x` at its launch contents, whole; of the two tables, at their launch contents, the
    remainder of the share the TensorCore kept through the call; the result at its value. -/
abbrev FIN (d : Dev nD) : sProp 𝕄 :=
  iprop((a0Loc d ↦{fullShare} m (a0Loc d)) ∗ (a1Loc d ↦{shareDrop fullShare 32} m (a1Loc d)) ∗ (a2Loc d ↦{shareDrop fullShare 32} m (a2Loc d))
    ∗ rLoc d ↦{fullShare} RES m d)

theorem h0 : (op0 (F := F)).bufs ⊆ S11 := show ({a0', v0'} : Finset (DevRef τ sig)) ⊆ S11 by decide
theorem h1 : (op1 (F := F)).bufs ⊆ S11 := show ({v0', v1'} : Finset (DevRef τ sig)) ⊆ S11 by decide
theorem h2 : (op2 (F := F)).bufs ⊆ S11 := show ({v1', x0'} : Finset (DevRef τ sig)) ⊆ S11 by decide
theorem h3 : (op3 (F := F)).bufs ⊆ S11 := show ({a0', v3'} : Finset (DevRef τ sig)) ⊆ S11 by decide
theorem h4 : (op4 (F := F)).bufs ⊆ S11 := show ({v3', v4'} : Finset (DevRef τ sig)) ⊆ S11 by decide
theorem h5 : (op5 (F := F)).bufs ⊆ S11 := show ({v4', x1'} : Finset (DevRef τ sig)) ⊆ S11 by decide
theorem h7 : (op7 (F := F)).bufs ⊆ S2 := show ({o', r'} : Finset (DevRef τ sig)) ⊆ S2 from Finset.Subset.refl _

/-- @main on device `d`'s TensorCore: the six host operations (over the eleven arrays held whole), the call (from the read
    shares of the four inputs and the blocks of the flat result; the result back at its value), the last reshape (over
    the flat result and the result array). -/
theorem hmain (κ : GSem nD τ sig → ℕ) (d : Dev nD) :
    iprop((K (F := F)).ctx EH (P m (X0v m) (X1v m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the slices and the reshapes
  iapply (wp_hlo_within 𝒱 (SparseCore.T d) none Set.univ (op := op0) (S := S11) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S11) h1 (V := (op0 (F := F)).result (V0 m d))) $$ [Hb Hheld]
  · isplitl [Hb] <;> iassumption
  iintro ⟨Hb, Hheld⟩
  rw [wp_ret]; imodintro
  iapply (wp_hlo_within 𝒱 (SparseCore.T d) none Set.univ (op := op2) (S := S11) h2 (V := (op1 (F := F)).result ((op0 (F := F)).result (V0 m d)))) $$ [Hb Hheld]
  · isplitl [Hb] <;> iassumption
  iintro ⟨Hb, Hheld⟩
  rw [wp_ret]; imodintro
  iapply (wp_hlo_within 𝒱 (SparseCore.T d) none Set.univ (op := op3) (S := S11) h3
    (V := (op2 (F := F)).result ((op1 (F := F)).result ((op0 (F := F)).result (V0 m d))))) $$ [Hb Hheld]
  · isplitl [Hb] <;> iassumption
  iintro ⟨Hb, Hheld⟩
  rw [wp_ret]; imodintro
  iapply (wp_hlo_within 𝒱 (SparseCore.T d) none Set.univ (op := op4) (S := S11) h4
    (V := (op3 (F := F)).result ((op2 (F := F)).result ((op1 (F := F)).result ((op0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := op5) (S := S11) h5
    (V := (op4 (F := F)).result ((op3 (F := F)).result ((op2 (F := F)).result ((op1 (F := F)).result ((op0 (F := F)).result (V0 m d))))))) $$ [Hb Hheld]
  · isplitl [Hb] <;> iassumption
  iintro ⟨Hb, Hheld⟩
  rw [wp_ret]; imodintro
  -- the call: each tile its read shares and its blocks; the blocks back, filled
  ihave Hh := (Entails.of_eq (held_V6 (F := F) m d)) $$ Hheld
  icases Hh with ⟨Ha0, Ha1, Ha2, -, -, Hx0, -, -, Hx1, Ho, Hr⟩
  ihave Hs := (st_intro m (X0v m) (X1v m) d (V6 m d o')) $$ [Ha1 Ha2 Hx0 Hx1 Ho]
  · isplitl [Ha1 Ha2 Hx0 Hx1]
    · isplitl [Ha1]; · iexact Ha1
      isplitl [Ha2]; · iexact Ha2
      isplitl [Hx0]; · iexact Hx0
      iexact Hx1
    iexact Ho
  icases Hs with ⟨⟨Ra1, Ra2, -, -⟩, Hst0⟩
  iapply ((K (F := F)).wp_run (D (F := F)) 𝒱 (EH := EH) (P := P m (X0v m) (X1v m)) κ d 0) $$ [Hst Hst0 Hb Ha0 Hr Ra1 Ra2]
  isplitr; · iexact Hctx
  isplitl [Hst]; · iexact Hst
  isplitl [Hst0]; · iexact Hst0
  iintro ⟨Hst, Hdn⟩
  ihave Ho := (dn_elim m (X0v m) (X1v m) d) $$ Hdn
  -- the last reshape
  iapply (wp_hlo_within 𝒱 (SparseCore.T d) none Set.univ (op := op7) (S := S2) h7 (V := V7 m d)) $$ [Hb Ho Hr]
  · isplitl [Hb]; · iexact Hb
    rw [held_V7]
    isplitl [Ho]; · iexact Ho
    iexact Hr
  iintro ⟨Hb, Hheld⟩
  ihave Hh := (Entails.of_eq (held_V8 (F := F) m d)) $$ Hheld
  icases Hh with ⟨-, Hr⟩
  rw [wp_ret]; imodintro; imodintro
  isplitl [Hst]; · iexact Hst
  isplitl [Ha0]; · iexact Ha0
  isplitl [Ra1]; · iexact Ra1
  isplitl [Ra2]; · iexact Ra2
  iexact Hr

/-! ## What the final memory reads -/

def fq (d : Dev nD) (s' : Phys nD τ sig (Elt F)) : Prop :=
  s'.mem.mem (rLoc d) = RES m d ∧ s'.mem.mem (a0Loc d) = m (a0Loc d) ∧ s'.mem.mem (a1Loc d) = m (a1Loc d) ∧ s'.mem.mem (a2Loc d) = m (a2Loc d)

omit [FloatOps F] in
/-- An array held whole is what the memory holds. -/
theorem SI_read {ℓ : Loc nD τ sig} {q : PosShare TreeShare} {f : Buf (Elt F) ℓ} (s' : Phys nD τ sig (Elt F)) :
    iprop(SI s' ∗ ℓ ↦{q} f) ⊢ (iprop(SI s' ∗ ⌜s'.mem.mem ℓ = f⌝) : sProp 𝕄) :=
  pure_elim _ (SI_pointsTo_agree (st := s') (ℓ := ℓ) (I := Finset.univ) (q := q) (f := f)) fun hx => by
    iintro ⟨HSI, -⟩
    isplitl [HSI]; · iexact HSI
    ipureintro; exact funext fun i => hx i (Finset.mem_univ i)

theorem hfin (d : Dev nD) (s' : Phys nD τ sig (Elt F)) : iprop(FIN m d ∗ SI s') ⊢ (⌜fq m d s'⌝ : sProp 𝕄) := by
  iintro ⟨⟨Ha0, Ha1, Ha2, Hr⟩, HSI⟩
  ihave H := (SI_read (F := F) s') $$ [HSI Hr]
  · isplitl [HSI] <;> iassumption
  icases H with ⟨HSI, %hr⟩
  ihave H := (SI_read (F := F) s') $$ [HSI Ha0]
  · isplitl [HSI] <;> iassumption
  icases H with ⟨HSI, %h0⟩
  ihave H := (SI_read (F := F) s') $$ [HSI Ha1]
  · isplitl [HSI] <;> iassumption
  icases H with ⟨HSI, %h1⟩
  ihave H := (SI_read (F := F) s') $$ [HSI Ha2]
  · isplitl [HSI] <;> iassumption
  icases H with ⟨HSI, %h2⟩
  ipureintro; exact ⟨hr, h0, h1, h2⟩

end Cert.Kernel.Hand

end
-- ==== Proof.Bits.Launch.lean ====
/-
  The program's run, with values: from one tile's task (proved apart, taken here as a hypothesis), every weakly fair
  execution of the 35 threads of a device — the TensorCore, the two sequencers, the 32 tiles — terminates, and in the
  final memory the result is the flat result reshaped to 16384 × 200 × 128, where row n of the flat result is the hour
  table's row named by the n-th hour word plus the minute table's row named by the n-th minute word; the three
  arguments are unchanged.
-/
import proofs.«204352_g17334488006705_cont_7to1_713_23_alg».proof.Proof.Bits.Common
import proofs.«204352_g17334488006705_cont_7to1_713_23_alg».proof.Proof.Bits.LaunchGhost
import proofs.«204352_g17334488006705_cont_7to1_713_23_alg».proof.Proof.Bits.LaunchMain

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the run leaves: the result at its value, the arguments unchanged, on every device. -/
def QC : PUnit × MemSt nD τ sig (Elt F) → Prop := fun r => ∀ c : Dev nD,
  r.2.mem ((c.tc : Thread Cert.Kernel.nD Cert.Kernel.τ).loc Cert.Kernel.main_v7) = RES m c
  ∧ r.2.mem ((c.tc : Thread Cert.Kernel.nD Cert.Kernel.τ).loc Cert.Kernel.main_arg0) = m ((c.tc : Thread Cert.Kernel.nD Cert.Kernel.τ).loc Cert.Kernel.main_arg0)
  ∧ r.2.mem ((c.tc : Thread Cert.Kernel.nD Cert.Kernel.τ).loc Cert.Kernel.main_arg1) = m ((c.tc : Thread Cert.Kernel.nD Cert.Kernel.τ).loc Cert.Kernel.main_arg1)
  ∧ r.2.mem ((c.tc : Thread Cert.Kernel.nD Cert.Kernel.τ).loc Cert.Kernel.main_arg2) = m ((c.tc : Thread Cert.Kernel.nD Cert.Kernel.τ).loc Cert.Kernel.main_arg2)

/-- The run of the whole program from one tile's task: the launch theorem, given the task's statement at every tile,
    the split of the call's operands, the launch element of the ghost state, @main, and how the final memory reads. -/
theorem run_main [∀ e, Nonempty (Elt F e)] (hbody : TileBodySpec (F := F) m (X0v m) (X1v m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (X0v m) (X1v m)) facts v₀
    (fun q hq => match q with | 0 => nomatch hq)
    (fun q _ => match q with | 0 => tileObl m (X0v m) (X1v m) hbody facts)
    (fun q _ => match q with | 0 => vecSplit m (X0v m) (X1v m))
    m ρ main (fun _ => iprop(emp)) (FIN m) (u₀ (F := F)) (hu₀ m (X0v m) (X1v m)) (hmain m ρ) (fq m) (hfin m) (QC m) (fun _ h => h)

end Cert.Kernel.Hand

end
-- ==== Proof.Bits.ValueBridge.lean ====
/-
  The value bridge: the index arithmetic that connects what the kernel computes, word by word, to the function the
  specification states.

  Five facts, none of them about memory or synchronisation:

  * the table's rows. In trip `k` the tile at subcore `s` builds table row `R = 288 s + k` from hour row `R >> 6` and
    minute row `R & 63`; in 32-bit words these are `R / 64` and `R % 64` because `R < 4608` never wraps;
  * the index word. Per lane the kernel gathers table row `64 · hour + minute`; for words at most 59 this does not
    wrap, is below 4608, and has quotient `hour` and remainder `minute < 60` by 64;
  * the table gives the result. Row `64 · hour + minute` of a right table holds hour row `hour` plus minute row
    `minute`, which for words below both heights are the rows the words name;
  * the flattened words. The host's slice and two reshapes of `x` put `x[b, l, c]` at flat position `200 b + l`;
  * the final reshape. Entry `(b, l, d)` of the result is entry `(200 b + l, d)` of the flat array.
-/
import proofs.«204352_g17334488006705_cont_7to1_713_23_alg».proof.Proof.Bits.Common
import proofs.«204352_g17334488006705_cont_7to1_713_23_alg».proof.Proof.Spec
import Idealize.ShloMosaic.Lib.Pipeline.Value
import Idealize.ShloMosaic.Lib.ValueIdx
import Idealize.ShloMosaic.Lib.ValueLayout
import Idealize.ShloMosaic.Lib.Affine

noncomputable section

namespace Cert.Kernel.Hand

open Cert.Kernel Cert.Kernel.Gen
open Idealize.ShloMosaic
open Idealize.ShloMosaic.ValueIdx

variable {F : FTy → Type}

/-! ## The table's row arithmetic

In trip `k` of the loop that builds the table, the tile at subcore `s` forms the table row number
`R = 288 · s + k` in 32-bit words, and reads the hour copy at row `R >> 6` and the minute copy at row `R & 63`.
Since `s < 16` and `k < 288`, `R < 4608 < 2³¹`: no product or sum wraps, a logical shift right by 6 is the
quotient by `64 = 2⁶`, and the mask `63 = 2⁶ − 1` is the remainder modulo 64. -/

/-- The row word `288 · subcore + trip`, by the operations the kernel computes it with. -/
def rowWord (L : grid0.Coords) (k : Fin k0_t1_loop.trips) : BitVec 32 :=
  Scalar.addi (Scalar.muli (BitVec.ofNat 32 (L 1).val) 288#32) (Scalar.addi 0#32 (Scalar.muli (Scf.iv 0#32 1#32 k) 1#32))

/-- No step of the row word wraps: it is the number `288 · subcore + trip`. -/
theorem rowWord_toNat (L : grid0.Coords) (k : Fin k0_t1_loop.trips) : (rowWord L k).toNat = 288 * (L 1).val + k.val := by
  have hs : (L 1).val < 16 := (L 1).isLt
  have hk : k.val < 288 := Nat.lt_of_lt_of_le k.isLt k0_t1_abs.2.1
  have h_s : Affine.IsInt (BitVec.ofNat 32 (L 1).val) ((L 1).val : Int) := Affine.ofNat _ ⟨rfl, by omega⟩
  have h_288 : Affine.IsInt 288#32 288 := Affine.ofNat _ (by omega)
  have h_0 : Affine.IsInt 0#32 0 := Affine.ofNat _ (by omega)
  have h_1 : Affine.IsInt 1#32 1 := Affine.ofNat _ (by omega)
  have h_prod : Affine.IsInt _ (288 * ((L 1).val : Int)) := Affine.muli h_s h_288 (by omega)
  have h_iv : Affine.IsInt (Scf.iv 0#32 1#32 k.val) (k.val : Int) := Affine.iv h_0 h_1 k.val (by omega)
  have h_iv1 : Affine.IsInt _ (k.val : Int) := Affine.muli h_iv h_1 (by omega)
  have h_iv0 : Affine.IsInt _ (k.val : Int) := Affine.addi h_0 h_iv1 (by omega)
  have h_row : Affine.IsInt (rowWord L k) (288 * ((L 1).val : Int) + k.val) := Affine.addi h_prod h_iv0 (by omega)
  exact Affine.nat_eq h_row _ (by omega)

/-- A logical shift right by the literal 6 is the quotient by 64. -/
theorem shrui6_toNat (w : BitVec 32) : (Scalar.indexCast (Scalar.shrui w 6#32)).toNat = w.toNat / 64 := by
  unfold Scalar.indexCast Scalar.shrui IntOp.shrui
  rw [if_pos (by decide)]
  rw [BitVec.ushiftRight_eq', BitVec.toNat_ushiftRight, Nat.shiftRight_eq_div_pow]
  rfl

/-- The mask `63 = 2⁶ − 1` keeps the remainder modulo 64. -/
theorem andi63_toNat (w : BitVec 32) : (Scalar.indexCast (Scalar.andi w 63#32)).toNat = w.toNat % 64 := by
  unfold Scalar.indexCast Scalar.andi IntOp.andi
  rw [BitVec.toNat_and]
  exact Nat.and_two_pow_sub_one_eq_mod w.toNat 6

/-- The hour copy is read at row `(288 s + k) / 64`, whatever the column offset `c`. -/
theorem hourOff_eq (L : grid0.Coords) (k : Fin k0_t1_loop.trips) (c : Nat) :
    (![(Scalar.indexCast (Scalar.shrui (rowWord L k) 6#32)).toNat, c] : Fin 2 → Nat) = ![(288 * (L 1).val + k.val) / 64, c] := by
  rw [shrui6_toNat, rowWord_toNat]

/-- The minute copy is read at row `(288 s + k) % 64`, whatever the column offset `c`. -/
theorem minuteOff_eq (L : grid0.Coords) (k : Fin k0_t1_loop.trips) (c : Nat) :
    (![(Scalar.indexCast (Scalar.andi (rowWord L k) 63#32)).toNat, c] : Fin 2 → Nat) = ![(288 * (L 1).val + k.val) % 64, c] := by
  rw [andi63_toNat, rowWord_toNat]

/-- The sixteen loads of a trip: for each of the eight chunks of 16 columns (column offsets `0, 16, …, 112`) the hour
    copy at row `(288 s + k) / 64` and the minute copy at row `(288 s + k) % 64`. Each chain is the row word, shifted or
    masked, so each closed form is one of the two lemmas above. -/
theorem k0_off1_eq (L : grid0.Coords) (k : Fin k0_t1_loop.trips) : k0_off1 L k = ![(288 * (L 1).val + k.val) / 64, 0] := hourOff_eq L k 0
theorem k0_off2_eq (L : grid0.Coords) (k : Fin k0_t1_loop.trips) : k0_off2 L k = ![(288 * (L 1).val + k.val) % 64, 0] := minuteOff_eq L k 0
theorem k0_off4_eq (L : grid0.Coords) (k : Fin k0_t1_loop.trips) : k0_off4 L k = ![(288 * (L 1).val + k.val) / 64, 16] := hourOff_eq L k 16
theorem k0_off5_eq (L : grid0.Coords) (k : Fin k0_t1_loop.trips) : k0_off5 L k = ![(288 * (L 1).val + k.val) % 64, 16] := minuteOff_eq L k 16
theorem k0_off7_eq (L : grid0.Coords) (k : Fin k0_t1_loop.trips) : k0_off7 L k = ![(288 * (L 1).val + k.val) / 64, 32] := hourOff_eq L k 32
theorem k0_off8_eq (L : grid0.Coords) (k : Fin k0_t1_loop.trips) : k0_off8 L k = ![(288 * (L 1).val + k.val) % 64, 32] := minuteOff_eq L k 32
theorem k0_off10_eq (L : grid0.Coords) (k : Fin k0_t1_loop.trips) : k0_off10 L k = ![(288 * (L 1).val + k.val) / 64, 48] := hourOff_eq L k 48
theorem k0_off11_eq (L : grid0.Coords) (k : Fin k0_t1_loop.trips) : k0_off11 L k = ![(288 * (L 1).val + k.val) % 64, 48] := minuteOff_eq L k 48
theorem k0_off13_eq (L : grid0.Coords) (k : Fin k0_t1_loop.trips) : k0_off13 L k = ![(288 * (L 1).val + k.val) / 64, 64] := hourOff_eq L k 64
theorem k0_off14_eq (L : grid0.Coords) (k : Fin k0_t1_loop.trips) : k0_off14 L k = ![(288 * (L 1).val + k.val) % 64, 64] := minuteOff_eq L k 64
theorem k0_off16_eq (L : grid0.Coords) (k : Fin k0_t1_loop.trips) : k0_off16 L k = ![(288 * (L 1).val + k.val) / 64, 80] := hourOff_eq L k 80
theorem k0_off17_eq (L : grid0.Coords) (k : Fin k0_t1_loop.trips) : k0_off17 L k = ![(288 * (L 1).val + k.val) % 64, 80] := minuteOff_eq L k 80
theorem k0_off19_eq (L : grid0.Coords) (k : Fin k0_t1_loop.trips) : k0_off19 L k = ![(288 * (L 1).val + k.val) / 64, 96] := hourOff_eq L k 96
theorem k0_off20_eq (L : grid0.Coords) (k : Fin k0_t1_loop.trips) : k0_off20 L k = ![(288 * (L 1).val + k.val) % 64, 96] := minuteOff_eq L k 96
theorem k0_off22_eq (L : grid0.Coords) (k : Fin k0_t1_loop.trips) : k0_off22 L k = ![(288 * (L 1).val + k.val) / 64, 112] := hourOff_eq L k 112
theorem k0_off23_eq (L : grid0.Coords) (k : Fin k0_t1_loop.trips) : k0_off23 L k = ![(288 * (L 1).val + k.val) % 64, 112] := minuteOff_eq L k 112

/-! ## The index word

Per lane the kernel forms `64 · hour + minute` in 32-bit words. With both words at most 59 the product is at most
`64 · 59 = 3776` and the sum at most `3835 < 4608 < 2³²`, so nothing wraps; and since `minute < 64` the hour is the
quotient of the index by 64 and the minute its remainder: the index names the table row built from exactly that hour
row and that minute row, and the minute is one that exists (`< 60`). -/

/-- The index word of an hour word and a minute word, by the operations the kernel applies to a lane. -/
def idxWord (h mn : BitVec 32) : BitVec 32 := IntOp.addi (IntOp.muli h 64#32) mn

/-- For words in range the index word is the number `64 · hour + minute`. -/
theorem idxWord_toNat {h mn : BitVec 32} (hh : h.toNat ≤ 59) (hm : mn.toNat ≤ 59) : (idxWord h mn).toNat = 64 * h.toNat + mn.toNat := by
  unfold idxWord IntOp.addi IntOp.muli
  rw [BitVec.toNat_add, BitVec.toNat_mul]
  have h64 : (64#32 : BitVec 32).toNat = 64 := rfl
  rw [h64]
  omega

/-- It is a row of the table. -/
theorem idxWord_lt {h mn : BitVec 32} (hh : h.toNat ≤ 59) (hm : mn.toNat ≤ 59) : (idxWord h mn).toNat < 4608 := by
  rw [idxWord_toNat hh hm]; omega

/-- Its quotient by 64 is the hour. -/
theorem idxWord_div {h mn : BitVec 32} (hh : h.toNat ≤ 59) (hm : mn.toNat ≤ 59) : (idxWord h mn).toNat / 64 = h.toNat := by
  rw [idxWord_toNat hh hm]; omega

/-- Its remainder modulo 64 is the minute, a minute that exists. -/
theorem idxWord_mod {h mn : BitVec 32} (hh : h.toNat ≤ 59) (hm : mn.toNat ≤ 59) : (idxWord h mn).toNat % 64 = mn.toNat := by
  rw [idxWord_toNat hh hm]; omega

theorem idxWord_mod_lt {h mn : BitVec 32} (hh : h.toNat ≤ 59) (hm : mn.toNat ≤ 59) : (idxWord h mn).toNat % 64 < 60 := by
  rw [idxWord_mod hh hm]; omega

/-- Each of the eight payloads of a block's index list (one per chunk of 16 lanes) is, lane by lane, the index word of
    the hour lane and the minute lane: the shape casts are between equal shapes, the multiplier is the splat of 64. -/
theorem k0_pay10_apply (v0 v1 : Vec F S16 .i32) (i : S16.Idx) : k0_pay10 (F := F) v0 v1 i = idxWord (v0 i) (v1 i) := by
  unfold k0_pay10
  simp only [shapeCast_self]
  rfl
theorem k0_pay11_apply (v0 v1 : Vec F S16 .i32) (i : S16.Idx) : k0_pay11 (F := F) v0 v1 i = idxWord (v0 i) (v1 i) := by
  unfold k0_pay11
  simp only [shapeCast_self]
  rfl
theorem k0_pay12_apply (v0 v1 : Vec F S16 .i32) (i : S16.Idx) : k0_pay12 (F := F) v0 v1 i = idxWord (v0 i) (v1 i) := by
  unfold k0_pay12
  simp only [shapeCast_self]
  rfl
theorem k0_pay13_apply (v0 v1 : Vec F S16 .i32) (i : S16.Idx) : k0_pay13 (F := F) v0 v1 i = idxWord (v0 i) (v1 i) := by
  unfold k0_pay13
  simp only [shapeCast_self]
  rfl
theorem k0_pay14_apply (v0 v1 : Vec F S16 .i32) (i : S16.Idx) : k0_pay14 (F := F) v0 v1 i = idxWord (v0 i) (v1 i) := by
  unfold k0_pay14
  simp only [shapeCast_self]
  rfl
theorem k0_pay15_apply (v0 v1 : Vec F S16 .i32) (i : S16.Idx) : k0_pay15 (F := F) v0 v1 i = idxWord (v0 i) (v1 i) := by
  unfold k0_pay15
  simp only [shapeCast_self]
  rfl
theorem k0_pay16_apply (v0 v1 : Vec F S16 .i32) (i : S16.Idx) : k0_pay16 (F := F) v0 v1 i = idxWord (v0 i) (v1 i) := by
  unfold k0_pay16
  simp only [shapeCast_self]
  rfl
theorem k0_pay17_apply (v0 v1 : Vec F S16 .i32) (i : S16.Idx) : k0_pay17 (F := F) v0 v1 i = idxWord (v0 i) (v1 i) := by
  unfold k0_pay17
  simp only [shapeCast_self]
  rfl

/-! ## The table gives the result

A table row `R = 64 · hour + minute` whose minute exists holds hour row `R / 64 = hour` plus minute row
`R % 64 = minute`; for words below both heights the row a word names (its value modulo the height) is the row of its
own value. So the gathered row is the entry the flat result names. -/

section Table
variable [FloatOps F]

/-- Row `R = 64 · hour + minute` of a right table, read at a column. -/
theorem tab_entry {a1 : FVec F S60x128 .f32} {a2 : FVec F S72x128 .f32} {g : FVec F S4608x128 .f32} {R : Fin 4608}
    (hT : TabOK a1 a2 g R) {h mn : BitVec 32} (hh : h.toNat ≤ 59) (hm : mn.toNat ≤ 59) (hR : R.val = 64 * h.toNat + mn.toNat) (col : Fin 128) :
    g (ix2 R col) = FloatOps.addf (a2 (ix2 (Cert.Spec.row 72 (by norm_num) h) col)) (a1 (ix2 (Cert.Spec.row 60 (by norm_num) mn) col)) := by
  have hmod : R.val % 64 < 60 := by omega
  rw [hT hmod col]
  have e2 : (⟨R.val / 64, by omega⟩ : Fin 72) = Cert.Spec.row 72 (by norm_num) h :=
    Fin.ext (by rw [Cert.Spec.row_val_of_lt (by norm_num) (by omega : h.toNat < 72)]; show R.val / 64 = h.toNat; omega)
  have e1 : (⟨R.val % 64, hmod⟩ : Fin 60) = Cert.Spec.row 60 (by norm_num) mn :=
    Fin.ext (by rw [Cert.Spec.row_val_of_lt (by norm_num) (by omega : mn.toNat < 60)]; show R.val % 64 = mn.toNat; omega)
  rw [e2, e1]

/-- The same with the row written out, for a table right at every row. -/
theorem tab_entry_all {a1 : FVec F S60x128 .f32} {a2 : FVec F S72x128 .f32} {g : FVec F S4608x128 .f32}
    (hT : ∀ R, TabOK a1 a2 g R) {h mn : BitVec 32} (hh : h.toNat ≤ 59) (hm : mn.toNat ≤ 59) (col : Fin 128) :
    g (ix2 (⟨64 * h.toNat + mn.toNat, by omega⟩ : Fin 4608) col)
      = FloatOps.addf (a2 (ix2 (Cert.Spec.row 72 (by norm_num) h) col)) (a1 (ix2 (Cert.Spec.row 60 (by norm_num) mn) col)) :=
  tab_entry (hT _) hh hm rfl col

/-- The same at the row the index word names. -/
theorem tab_entry_idxWord {a1 : FVec F S60x128 .f32} {a2 : FVec F S72x128 .f32} {g : FVec F S4608x128 .f32}
    (hT : ∀ R, TabOK a1 a2 g R) {h mn : BitVec 32} (hh : h.toNat ≤ 59) (hm : mn.toNat ≤ 59) (col : Fin 128) :
    g (ix2 (⟨(idxWord h mn).toNat, idxWord_lt hh hm⟩ : Fin 4608) col)
      = FloatOps.addf (a2 (ix2 (Cert.Spec.row 72 (by norm_num) h) col)) (a1 (ix2 (Cert.Spec.row 60 (by norm_num) mn) col)) :=
  tab_entry (hT _) hh hm (idxWord_toNat hh hm) col

end Table

/-! ## The flattened words

Before the call the host takes the two planes of `x`: the slice `x[:, :, c : c+1]` (`c = 0` for the hour, `c = 1` for
the minute), reshaped to `[16384, 200]` and then to `[1, 3276800]`. A reshape keeps the row-major position, and the
position of `(b, l)` in `[16384, 200]` is `200 b + l`: word `200 b + l` of the flattened hour (minute) list is
`x[b, l, 0]` (`x[b, l, 1]`). -/

/-- The flattened hour words: the slice at plane 0, reshaped twice. -/
def X0h (x : IVec S16384x200x2 32) : IVec S1x3276800 32 :=
  shapeCast S1x3276800
    (shapeCast S16384x200 (extractStridedSlice S16384x200x1 ![0, 0, 0] x slices_S16384x200x2_S16384x200x1_0_0_0)
      shapeCasts_S16384x200x1_S16384x200)
    shapeCasts_S16384x200_S1x3276800

/-- The flattened minute words: the slice at plane 1, reshaped twice. -/
def X1h (x : IVec S16384x200x2 32) : IVec S1x3276800 32 :=
  shapeCast S1x3276800
    (shapeCast S16384x200 (extractStridedSlice S16384x200x1 ![0, 0, 1] x slices_S16384x200x2_S16384x200x1_0_0_1)
      shapeCasts_S16384x200x1_S16384x200)
    shapeCasts_S16384x200_S1x3276800

/-- The flat position of `(b, l)`. -/
abbrev flatPos (b : Fin 16384) (l : Fin 200) : Fin 3276800 := ⟨200 * b.val + l.val, by omega⟩

/-- A plane of `x`, sliced and reshaped twice, read at the flat position of `(b, l)`. -/
theorem plane_apply (x : IVec S16384x200x2 32) (c : Fin 2) (hs : S16384x200x2.Slices ![0, 0, c.val] S16384x200x1)
    (b : Fin 16384) (l : Fin 200) :
    shapeCast S1x3276800
        (shapeCast S16384x200 (extractStridedSlice S16384x200x1 ![0, 0, c.val] x hs) shapeCasts_S16384x200x1_S16384x200)
        shapeCasts_S16384x200_S1x3276800 (ix2 (0 : Fin 1) (flatPos b l))
      = x (ix3 b l c) := by
  -- the outer reshape: position `0 · 3276800 + (200 b + l)` of `[1, 3276800]` is position `b · 200 + l` of `[16384, 200]`
  refine (shapeCast_apply _ _ _ (ix2 b l) ?_).trans ?_
  · rw [Shape.rowMajor_val_two, Shape.rowMajor_val_two]
    show b.val * 200 + l.val = 0 * 3276800 + (200 * b.val + l.val)
    omega
  -- the inner reshape drops the unit axis: position `(b · 200 + l) · 1 + 0` of `[16384, 200, 1]`
  refine (shapeCast_apply _ _ _ (ix3 b l (0 : Fin 1)) ?_).trans ?_
  · rw [Shape.rowMajor_val_three, Shape.rowMajor_val_two]
    show (b.val * 200 + l.val) * 1 + 0 = b.val * 200 + l.val
    omega
  -- the slice shifts the last coordinate by the plane
  exact extractStridedSlice_apply _ _ _ _ (ix3 b l c) fun a => match a with
    | ⟨0, _⟩ => by show b.val = 0 + b.val; omega
    | ⟨1, _⟩ => by show l.val = 0 + l.val; omega
    | ⟨2, _⟩ => by show c.val = c.val + 0; omega

theorem X0h_apply (x : IVec S16384x200x2 32) (b : Fin 16384) (l : Fin 200) :
    X0h x (ix2 (0 : Fin 1) (flatPos b l)) = x (ix3 b l (0 : Fin 2)) :=
  plane_apply x 0 slices_S16384x200x2_S16384x200x1_0_0_0 b l

theorem X1h_apply (x : IVec S16384x200x2 32) (b : Fin 16384) (l : Fin 200) :
    X1h x (ix2 (0 : Fin 1) (flatPos b l)) = x (ix3 b l (1 : Fin 2)) :=
  plane_apply x 1 slices_S16384x200x2_S16384x200x1_0_0_1 b l

/-! ## The final reshape

The call leaves the flat result `[3276800, 128]`; the host reshapes it to `[16384, 200, 128]`. Entry `(b, l, d)` has
row-major position `(200 b + l) · 128 + d`, which is entry `(200 b + l, d)` of the flat array: the hour row named by
`x[b, l, 0]` plus the minute row named by `x[b, l, 1]`, at column `d` — the specification's entry. -/

theorem outFlat_reshape [FloatOps F] (x : IVec S16384x200x2 32) (a1 : FVec F S60x128 .f32) (a2 : FVec F S72x128 .f32) :
    shapeCast S16384x200x128 (OutFlat a1 a2 (X0h x) (X1h x)) shapeCasts_S3276800x128_S16384x200x128 = Cert.Spec.G x a1 a2 := by
  funext j
  obtain ⟨b, l, d, rfl⟩ : ∃ (b : Fin 16384) (l : Fin 200) (d : Fin 128), j = ix3 b l d := ⟨j 0, j 1, j 2, eq_ix3 j⟩
  refine (shapeCast_apply _ _ _ (ix2 (flatPos b l) d) ?_).trans ?_
  · rw [Shape.rowMajor_val_two, Shape.rowMajor_val_three]
    show (200 * b.val + l.val) * 128 + d.val = (b.val * 200 + l.val) * 128 + d.val
    omega
  show FloatOps.addf (a2 (ix2 (Cert.Spec.row 72 _ (X0h x (ix2 (0 : Fin 1) (flatPos b l)))) d))
      (a1 (ix2 (Cert.Spec.row 60 _ (X1h x (ix2 (0 : Fin 1) (flatPos b l)))) d)) = _
  rw [X0h_apply, X1h_apply]
  rfl

end Cert.Kernel.Hand

end
-- ==== Proof.Bits.TileOpen.lean ====
/-
  Opening a tile's scoped storage.

  When its task starts, a vector subcore holds its own semaphores at zero and its own buffers whole at some contents, each
  as one iterated conjunction over everything it owns. The task's proof needs the ones the kernel names, one by one: the
  ten DMA semaphores (three of the table's set-up, three two-slot arrays of the pipeline, one of the gather) and the seven
  vector-memory buffers (the index list, the minute and hour copies, the built rows, three two-slot staging buffers). Each
  opening splits the conjunction over a named finite set from the conjunction over the rest, and spells the named part
  out. The last section restates the points-to of each whole-array operand as the task's program addresses it.
-/
import proofs.«204352_g17334488006705_cont_7to1_713_23_alg».proof.Proof.Bits.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-- The vector subcore at coordinates `L` of device `d`, as a thread. -/
abbrev thr (d : Dev nD) (L : grid0.Coords) : Thread nD τ := V d (cV L) (jV L)

/-! ## The subcore's ten DMA semaphores -/

/-- The cell of the subcore's DMA semaphore number `n`. -/
abbrev dcell (d : Dev nD) (L : grid0.Coords) (n : DmaSem sig) : GSem nD τ sig := (thr d L, SemLoc.dma n)

/-- Distinct semaphores have distinct cells. -/
def dcellEmb (d : Dev nD) (L : grid0.Coords) : DmaSem sig ↪ GSem nD τ sig :=
  ⟨dcell d L, fun _ _ h => SemLoc.dma.inj (Prod.mk.inj h).2⟩

/-- The ten cells together. -/
def dmaCells (d : Dev nD) (L : grid0.Coords) : Finset (GSem nD τ sig) := Finset.univ.map (dcellEmb d L)

theorem dmaCells_subset (d : Dev nD) (L : grid0.Coords) : dmaCells d L ⊆ ownCells (thr d L) := by
  intro g hg
  obtain ⟨n, -, rfl⟩ := Finset.mem_map.mp hg
  refine mem_ownCells.mpr ⟨rfl, ?_⟩
  -- every DMA semaphore of a vector subcore is a scoped one
  have key : ∀ n : DmaSem sig, (SemLoc.dma n : SemLoc sig).isScoped .scVector = true := by decide
  exact key n

theorem bigSep_dmaCells (d : Dev nD) (L : grid0.Coords) (Φ : GSem nD τ sig → sProp 𝕄) :
    bigSep (dmaCells d L) Φ = iprop(Φ (dcell d L ⟨0, by decide⟩) ∗ Φ (dcell d L ⟨1, by decide⟩) ∗ Φ (dcell d L ⟨2, by decide⟩)
      ∗ Φ (dcell d L ⟨3, by decide⟩) ∗ Φ (dcell d L ⟨4, by decide⟩) ∗ Φ (dcell d L ⟨5, by decide⟩) ∗ Φ (dcell d L ⟨6, by decide⟩)
      ∗ Φ (dcell d L ⟨7, by decide⟩) ∗ Φ (dcell d L ⟨8, by decide⟩) ∗ Φ (dcell d L ⟨9, by decide⟩)) := by
  unfold dmaCells
  rw [BI.bigSep_map]
  rw [show (Finset.univ : Finset (DmaSem sig)) = {⟨0, by decide⟩, ⟨1, by decide⟩, ⟨2, by decide⟩, ⟨3, by decide⟩, ⟨4, by decide⟩,
      ⟨5, by decide⟩, ⟨6, by decide⟩, ⟨7, by decide⟩, ⟨8, by decide⟩, ⟨9, by decide⟩} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]
  rfl

/-- The subcore's scoped semaphores at zero are its ten DMA semaphores at zero, and the rest. -/
theorem ownSems0_V (d : Dev nD) (L : grid0.Coords) :
    (ownSems0 (thr d L) : sProp 𝕄)
      = iprop(semVal (dcell d L ⟨0, by decide⟩) 0 ∗ semVal (dcell d L ⟨1, by decide⟩) 0 ∗ semVal (dcell d L ⟨2, by decide⟩) 0
          ∗ semVal (dcell d L ⟨3, by decide⟩) 0 ∗ semVal (dcell d L ⟨4, by decide⟩) 0 ∗ semVal (dcell d L ⟨5, by decide⟩) 0
          ∗ semVal (dcell d L ⟨6, by decide⟩) 0 ∗ semVal (dcell d L ⟨7, by decide⟩) 0 ∗ semVal (dcell d L ⟨8, by decide⟩) 0
          ∗ semVal (dcell d L ⟨9, by decide⟩) 0
          ∗ bigSep (ownCells (thr d L) \ dmaCells d L) fun g => semVal g 0) := by
  have assoc : ∀ P Q R : sProp 𝕄, iprop((P ∗ Q) ∗ R) = iprop(P ∗ Q ∗ R) := fun _ _ _ =>
    Idealize.SL.BI.Entails.antisymm Idealize.SL.BI.sep_assoc Idealize.SL.BI.sep_assoc'
  unfold SparseCore.Cfg.ownSems0
  rw [SparseCore.bigSep_sdiff_split' (dmaCells_subset d L), bigSep_dmaCells]
  simp only [assoc]

/-! ## How the kernel's names read the ten semaphores

The three single semaphores of the table's set-up are numbers 0, 1, 2; the pipeline's three two-slot arrays are numbers
3–4 (hour words in), 5–6 (minute words in), 7–8 (blocks out); the gather's is number 9. A slot of a two-slot array is
its base plus the slot. -/

theorem cc0_scoped0_sem : cc0_scoped0.sem = (⟨0, by decide⟩ : DmaSem sig) := rfl
theorem cc0_scoped1_sem : cc0_scoped1.sem = (⟨1, by decide⟩ : DmaSem sig) := rfl
theorem cc0_scoped2_sem : cc0_scoped2.sem = (⟨2, by decide⟩ : DmaSem sig) := rfl
theorem cc0_scoped9_sem : cc0_scoped9.sem = (⟨9, by decide⟩ : DmaSem sig) := rfl

/-- Slot `off 0` of a two-slot semaphore array laid from `base`: number `base + off 0`. -/
theorem slot_sem_val (base : Nat) (hb : base + S2.numel ≤ 10) (off : Fin 1 → Nat) (h : ∀ a, off a + S1.size a ≤ S2.size a) :
    ((((SemArray.consecutive base S2 hb : DmaSems sig S2).slice (Rect.unit (s := S2) off S1.size h)).squeeze S_ squeezes_S1_S_).sem).val
      = base + off 0 := by
  show base + (S2.rowMajor ((Rect.unit (s := S2) off S1.size h).emb (Shape.reshapeEquiv squeezes_S1_S_.numel_eq fun i => i.elim0))).val = _
  rw [Shape.rowMajor_val_one, Rect.emb_apply]
  have h0 : ((Shape.reshapeEquiv squeezes_S1_S_.numel_eq (fun i => i.elim0) : (Rect.unit (s := S2) off S1.size h).shape.Idx) 0).val < 1 :=
    ((Shape.reshapeEquiv squeezes_S1_S_.numel_eq (fun i => i.elim0) : (Rect.unit (s := S2) off S1.size h).shape.Idx) 0).isLt
  show base + (off 0 + 1 * _) = _
  omega

theorem cc0_scoped4_slot (off : Fin 1 → Nat) (h : ∀ a, off a + S1.size a ≤ S2.size a) :
    ((cc0_scoped4.slice (Rect.unit (s := S2) off S1.size h)).squeeze S_ squeezes_S1_S_).sem
      = (⟨3 + off 0, by have := h 0; show 3 + off 0 < 10; change off 0 + 1 ≤ 2 at this; omega⟩ : DmaSem sig) :=
  Fin.ext (slot_sem_val 3 hcc0_scoped4 off h)
theorem cc0_scoped6_slot (off : Fin 1 → Nat) (h : ∀ a, off a + S1.size a ≤ S2.size a) :
    ((cc0_scoped6.slice (Rect.unit (s := S2) off S1.size h)).squeeze S_ squeezes_S1_S_).sem
      = (⟨5 + off 0, by have := h 0; show 5 + off 0 < 10; change off 0 + 1 ≤ 2 at this; omega⟩ : DmaSem sig) :=
  Fin.ext (slot_sem_val 5 hcc0_scoped6 off h)
theorem cc0_scoped8_slot (off : Fin 1 → Nat) (h : ∀ a, off a + S1.size a ≤ S2.size a) :
    ((cc0_scoped8.slice (Rect.unit (s := S2) off S1.size h)).squeeze S_ squeezes_S1_S_).sem
      = (⟨7 + off 0, by have := h 0; show 7 + off 0 < 10; change off 0 + 1 ≤ 2 at this; omega⟩ : DmaSem sig) :=
  Fin.ext (slot_sem_val 7 hcc0_scoped8 off h)

/-! ## The subcore's seven buffers

The index list, the minute copy, the hour copy, the 288 built rows, and the three two-slot staging buffers (hour words,
minute words, result blocks): buffers 0–6 of the subcore's vector memory. -/

/-- The seven, as the kernel names them. -/
def tileRefs₀ : Finset (Ref sig .scVector) :=
  {cc0_scratch0, cc0_scratch1, cc0_scratch2, cc0_scratch3, cc0_scoped3, cc0_scoped5, cc0_scoped7}

/-- The seven, as buffers of the device: those of the subcore at `L`. -/
def tileRefs (L : grid0.Coords) : Finset (DevRef τ sig) :=
  tileRefs₀.map ⟨(Proc.scVector (cV L) (jV L)).devRef, Proc.devRef_injective _⟩

theorem tileRefs_subset (L : grid0.Coords) : tileRefs L ⊆ ownRefs (τ := τ) (.scVector (cV L) (jV L)) := by
  intro b hb
  obtain ⟨r, hr, rfl⟩ := Finset.mem_map.mp hb
  simp only [tileRefs₀, Finset.mem_insert, Finset.mem_singleton] at hr
  rcases hr with rfl | rfl | rfl | rfl | rfl | rfl | rfl <;> exact SparseCore.Cfg.mem_ownRefs_of_owner rfl

theorem bigSep_tileRefs₀ (Ψ : Ref sig .scVector → sProp 𝕄) :
    bigSep tileRefs₀ Ψ = iprop(Ψ cc0_scratch0 ∗ Ψ cc0_scratch1 ∗ Ψ cc0_scratch2 ∗ Ψ cc0_scratch3 ∗ Ψ cc0_scoped3 ∗ Ψ cc0_scoped5 ∗ Ψ cc0_scoped7) := by
  unfold tileRefs₀
  rw [SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]

theorem bigSep_tileRefs (L : grid0.Coords) (Φ : DevRef τ sig → sProp 𝕄) :
    bigSep (tileRefs L) Φ
      = iprop(Φ ((Proc.scVector (cV L) (jV L)).devRef cc0_scratch0) ∗ Φ ((Proc.scVector (cV L) (jV L)).devRef cc0_scratch1)
          ∗ Φ ((Proc.scVector (cV L) (jV L)).devRef cc0_scratch2) ∗ Φ ((Proc.scVector (cV L) (jV L)).devRef cc0_scratch3)
          ∗ Φ ((Proc.scVector (cV L) (jV L)).devRef cc0_scoped3) ∗ Φ ((Proc.scVector (cV L) (jV L)).devRef cc0_scoped5)
          ∗ Φ ((Proc.scVector (cV L) (jV L)).devRef cc0_scoped7)) := by
  unfold tileRefs
  exact (BI.bigSep_map _).trans (bigSep_tileRefs₀ _)

/-- The subcore's own buffers, each whole at some contents, are its seven and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scoped3 ↦{fullShare} f) ∗ (∃ f, (thr d L).loc cc0_scoped5 ↦{fullShare} f)
          ∗ (∃ f, (thr d L).loc cc0_scoped7 ↦{fullShare} f)
          ∗ bigSep (ownRefs (τ := τ) (.scVector (cV L) (jV L)) \ tileRefs L) fun b => iprop(∃ f, ((d, b) : Loc nD τ sig) ↦{fullShare} f)) := by
  have assoc : ∀ P Q R : sProp 𝕄, iprop((P ∗ Q) ∗ R) = iprop(P ∗ Q ∗ R) := fun _ _ _ =>
    Idealize.SL.BI.Entails.antisymm Idealize.SL.BI.sep_assoc Idealize.SL.BI.sep_assoc'
  unfold SparseCore.Cfg.ownBufs
  rw [SparseCore.bigSep_sdiff_split' (tileRefs_subset L), bigSep_tileRefs]
  simp only [assoc]

/-! ## The operands as the task's program addresses them

A whole-array memref's view is the array itself: a points-to through it is the points-to of the array. -/

section Respell
variable (d : Dev nD) (L : grid0.Coords)

theorem pts_idxV (f : Buf (Elt F) ((thr d L).loc cc0_scratch0)) :
    ((idxV).view.loc (thr d L) ↦{fullShare} f : sProp 𝕄) = (thr d L).loc cc0_scratch0 ↦{fullShare} f := rfl
theorem pts_minV (f : Buf (Elt F) ((thr d L).loc cc0_scratch1)) :
    ((minV).view.loc (thr d L) ↦{fullShare} f : sProp 𝕄) = (thr d L).loc cc0_scratch1 ↦{fullShare} f := rfl
theorem pts_hourV (f : Buf (Elt F) ((thr d L).loc cc0_scratch2)) :
    ((hourV).view.loc (thr d L) ↦{fullShare} f : sProp 𝕄) = (thr d L).loc cc0_scratch2 ↦{fullShare} f := rfl
theorem pts_cbufV (f : Buf (Elt F) ((thr d L).loc cc0_scratch3)) :
    ((cbufV).view.loc (thr d L) ↦{fullShare} f : sProp 𝕄) = (thr d L).loc cc0_scratch3 ↦{fullShare} f := rfl
theorem pts_w0V (f : Buf (Elt F) ((thr d L).loc cc0_scoped3)) :
    ((w0V).view.loc (thr d L) ↦{fullShare} f : sProp 𝕄) = (thr d L).loc cc0_scoped3 ↦{fullShare} f := rfl
theorem pts_w1V (f : Buf (Elt F) ((thr d L).loc cc0_scoped5)) :
    ((w1V).view.loc (thr d L) ↦{fullShare} f : sProp 𝕄) = (thr d L).loc cc0_scoped5 ↦{fullShare} f := rfl
theorem pts_stgV (f : Buf (Elt F) ((thr d L).loc cc0_scoped7)) :
    ((stgV).view.loc (thr d L) ↦{fullShare} f : sProp 𝕄) = (thr d L).loc cc0_scoped7 ↦{fullShare} f := rfl

theorem pts_a1V (q : PosShare TreeShare) (f : Buf (Elt F) (a1Loc d)) :
    ((a1V).view.loc (thr d L) ↦{q} f : sProp 𝕄) = a1Loc d ↦{q} f := by
  simp only [Memref.view_whole, View.set_whole]
theorem pts_a2V (q : PosShare TreeShare) (f : Buf (Elt F) (a2Loc d)) :
    ((a2V).view.loc (thr d L) ↦{q} f : sProp 𝕄) = a2Loc d ↦{q} f := by
  simp only [Memref.view_whole, View.set_whole]
theorem pts_x0V (q : PosShare TreeShare) (f : Buf (Elt F) (x0Loc d)) :
    ((x0V).view.loc (thr d L) ↦{q} f : sProp 𝕄) = x0Loc d ↦{q} f := by
  simp only [Memref.view_whole, View.set_whole]
theorem pts_x1V (q : PosShare TreeShare) (f : Buf (Elt F) (x1Loc d)) :
    ((x1V).view.loc (thr d L) ↦{q} f : sProp 𝕄) = x1Loc d ↦{q} f := by
  simp only [Memref.view_whole, View.set_whole]
theorem pts_shV (q : PosShare TreeShare) (f : Buf (Elt F) (shLoc d (cV L))) :
    ((shV).view.loc (thr d L) ↦{q} f : sProp 𝕄) = shLoc d (cV L) ↦{q} f := rfl

end Respell

end Cert.Kernel.Hand

end
-- ==== Proof.Bits.PipeWords.lean ====
/-
  The control words of the pipelined loop, as pure facts about 32-bit words.

  One tile's main loop runs 800 trips over seven carried counters.  Two of them count the
  prefetches issued, three the blocks consumed and produced, one the copies out that have been
  waited for, and one is the index of the current block, which wraps to zero after block 799.
  A buffer slot is always "counter mod 2".  This module gives the counters' values at every
  trip in closed form, and proves, from those values,
    * that every slot offset is inside its two-slot buffer, whatever the counter;
    * which of the trip's conditional transfers run (all of them, except: no prefetch in the
      last trip, no wait for a copy out in the first);
    * where in the flat input and result arrays each transfer of the trip lands;
    * that the side conditions the program states at each trip hold; and
    * that one trip takes the closed forms at trip `k` to the closed forms at trip `k + 1`.

  Method.  A word is read as the signed integer it represents; as long as no intermediate result
  leaves the 32-bit range, the program's additions, multiplications, comparisons and selections
  are the integer ones (the library's `Affine.IsInt` calculus).  The tile number is at most 31 and
  the block index at most 799, so the largest number formed is 128 · (800 · 31 + 799) < 2³¹.
-/
import proofs.«204352_g17334488006705_cont_7to1_713_23_alg».proof.Kernel
import Idealize.ShloMosaic.Lib.Affine
import Idealize.ShloMosaic.Lib.WordArith

namespace Cert.Kernel.Hand

open Idealize.ShloMosaic Idealize.SL.Sem
open Idealize.ShloMosaic.Affine (IsInt Holds Fails)

/-! ## The carried counters in closed form -/

/-- The number of prefetches issued before trip `k`: one before the loop, and one more in every
    trip except the last (there is no block 800 to fetch).  Carried twice, once per input. -/
def A13 (k : ℕ) : BitVec 32 := BitVec.ofNat 32 (min (k + 1) 800)
/-- The number of blocks consumed, and of blocks produced, before trip `k`. -/
def A14 (k : ℕ) : BitVec 32 := BitVec.ofNat 32 k
/-- The number of copies out waited for before trip `k`: every trip but the first waits for the
    copy out of the block before it (truncated subtraction: zero at `k = 0`). -/
def A18 (k : ℕ) : BitVec 32 := BitVec.ofNat 32 (k - 1)
/-- The block index at trip `k`; after the last trip it has wrapped to zero. -/
def A19 (k : ℕ) : BitVec 32 := BitVec.ofNat 32 (k % 800)

theorem trips_eq : k0_t2_loop.trips = 800 := by decide

theorem A13_eq_A14_succ {k : ℕ} (hk : k < 799) : A13 k = A14 (k + 1) := by
  unfold A13 A14; rw [Nat.min_eq_left (by omega)]
theorem A13_last : A13 799 = 800#32 := rfl
theorem A13_end : A13 800 = 800#32 := rfl

/-! ## Slots

A slot is `counter mod 2`, so it is 0 or 1 and the slot's block of the two-slot buffer (or
its semaphore of the two) is inside the buffer, for every word. -/

theorem slot_lt (w : BitVec 32) : (Scalar.remui w 2#32).toNat < 2 := by
  unfold Scalar.remui IntOp.remui
  rw [if_neg (by decide), BitVec.toNat_umod]
  exact Nat.mod_lt _ (by decide)

/-- The slot of the word that spells the number `n` is `n mod 2` (2 divides 2³², so the
    reduction of `n` to a word does not change its parity). -/
theorem slot_ofNat (n : ℕ) : (Scalar.remui (BitVec.ofNat 32 n) 2#32).toNat = n % 2 := by
  unfold Scalar.remui IntOp.remui
  rw [if_neg (by decide), BitVec.toNat_umod, BitVec.toNat_ofNat]
  show n % 2 ^ 32 % 2 = n % 2
  omega

/-- A slot of a buffer of two blocks of shape `1 × 128` words. -/
theorem inb_slot_w {x : ℕ} (hx : x < 2) : ∀ a, (![x, 0, 0] : Fin 3 → ℕ) a + S1x1x128.size a ≤ S2x1x128.size a := by
  intro a; fin_cases a
  · show x + 1 ≤ 2; omega
  · show 0 + 1 ≤ 1; omega
  · show 0 + 128 ≤ 128; omega
/-- A slot of a buffer of two blocks of shape `128 × 128`. -/
theorem inb_slot_f {x : ℕ} (hx : x < 2) : ∀ a, (![x, 0, 0] : Fin 3 → ℕ) a + S1x128x128.size a ≤ S2x128x128.size a := by
  intro a; fin_cases a
  · show x + 1 ≤ 2; omega
  · show 0 + 128 ≤ 128; omega
  · show 0 + 128 ≤ 128; omega
/-- One of two semaphores. -/
theorem inb_slot_s {x : ℕ} (hx : x < 2) : ∀ a, (![x] : Fin 1 → ℕ) a + S1.size a ≤ S2.size a := by
  intro a; fin_cases a
  show x + 1 ≤ 2; omega

theorem off29_inb (w : BitVec 32) : ∀ a, (k0_off29 w) a + S1x1x128.size a ≤ S2x1x128.size a := inb_slot_w (slot_lt w)
theorem off31_inb (w : BitVec 32) : ∀ a, (k0_off31 w) a + S1.size a ≤ S2.size a := inb_slot_s (slot_lt w)
theorem off32_inb (w : BitVec 32) : ∀ a, (k0_off32 w) a + S1x1x128.size a ≤ S2x1x128.size a := inb_slot_w (slot_lt w)
theorem off34_inb (w : BitVec 32) : ∀ a, (k0_off34 w) a + S1.size a ≤ S2.size a := inb_slot_s (slot_lt w)
theorem off35_inb (w : BitVec 32) : ∀ a, (k0_off35 w) a + S1x1x128.size a ≤ S2x1x128.size a := inb_slot_w (slot_lt w)
theorem off37_inb (w : BitVec 32) : ∀ a, (k0_off37 w) a + S1.size a ≤ S2.size a := inb_slot_s (slot_lt w)
theorem off38_inb (w : BitVec 32) : ∀ a, (k0_off38 w) a + S1x1x128.size a ≤ S2x1x128.size a := inb_slot_w (slot_lt w)
theorem off40_inb (w : BitVec 32) : ∀ a, (k0_off40 w) a + S1.size a ≤ S2.size a := inb_slot_s (slot_lt w)
theorem off41_inb (w : BitVec 32) : ∀ a, (k0_off41 w) a + S1x1x128.size a ≤ S2x1x128.size a := inb_slot_w (slot_lt w)
theorem off42_inb (w : BitVec 32) : ∀ a, (k0_off42 w) a + S1x1x128.size a ≤ S2x1x128.size a := inb_slot_w (slot_lt w)
theorem off43_inb (w : BitVec 32) : ∀ a, (k0_off43 w) a + S1x128x128.size a ≤ S2x128x128.size a := inb_slot_f (slot_lt w)
theorem off44_inb (w : BitVec 32) : ∀ a, (k0_off44 w) a + S1x128x128.size a ≤ S2x128x128.size a := inb_slot_f (slot_lt w)
theorem off46_inb (w : BitVec 32) : ∀ a, (k0_off46 w) a + S1.size a ≤ S2.size a := inb_slot_s (slot_lt w)
theorem off47_inb (w : BitVec 32) : ∀ a, (k0_off47 w) a + S1x128x128.size a ≤ S2x128x128.size a := inb_slot_f (slot_lt w)
theorem off49_inb (w : BitVec 32) : ∀ a, (k0_off49 w) a + S1.size a ≤ S2.size a := inb_slot_s (slot_lt w)
theorem off50_inb (w : BitVec 32) : ∀ a, (k0_off50 w) a + S1x128x128.size a ≤ S2x128x128.size a := inb_slot_f (slot_lt w)
theorem off52_inb (w : BitVec 32) : ∀ a, (k0_off52 w) a + S1.size a ≤ S2.size a := inb_slot_s (slot_lt w)
theorem off53_inb (w : BitVec 32) : ∀ a, (k0_off53 w) a + S1x128x128.size a ≤ S2x128x128.size a := inb_slot_f (slot_lt w)

/-- The side conditions the loop body states of a single counter: its slot is in the buffer. -/
theorem chk2_all (w : BitVec 32) : k0_chk2 w := off41_inb w
theorem chk3_all (w : BitVec 32) : k0_chk3 w := off42_inb w
theorem chk4_all (w : BitVec 32) : k0_chk4 w := off43_inb w
theorem chk5_all (w : BitVec 32) : k0_chk5 w := ⟨off50_inb w, off52_inb w, off53_inb w⟩

/-! ### The slot of a counter given by a number -/

theorem off29_ofNat (n : ℕ) : k0_off29 (BitVec.ofNat 32 n) = ![n % 2, 0, 0] := by
  show ![(Scalar.remui (BitVec.ofNat 32 n) 2#32).toNat, 0, 0] = _; rw [slot_ofNat]
theorem off32_ofNat (n : ℕ) : k0_off32 (BitVec.ofNat 32 n) = ![n % 2, 0, 0] := by
  show ![(Scalar.remui (BitVec.ofNat 32 n) 2#32).toNat, 0, 0] = _; rw [slot_ofNat]
theorem off35_ofNat (n : ℕ) : k0_off35 (BitVec.ofNat 32 n) = ![n % 2, 0, 0] := by
  show ![(Scalar.remui (BitVec.ofNat 32 n) 2#32).toNat, 0, 0] = _; rw [slot_ofNat]
theorem off38_ofNat (n : ℕ) : k0_off38 (BitVec.ofNat 32 n) = ![n % 2, 0, 0] := by
  show ![(Scalar.remui (BitVec.ofNat 32 n) 2#32).toNat, 0, 0] = _; rw [slot_ofNat]
theorem off41_ofNat (n : ℕ) : k0_off41 (BitVec.ofNat 32 n) = ![n % 2, 0, 0] := by
  show ![(Scalar.remui (BitVec.ofNat 32 n) 2#32).toNat, 0, 0] = _; rw [slot_ofNat]
theorem off42_ofNat (n : ℕ) : k0_off42 (BitVec.ofNat 32 n) = ![n % 2, 0, 0] := by
  show ![(Scalar.remui (BitVec.ofNat 32 n) 2#32).toNat, 0, 0] = _; rw [slot_ofNat]
theorem off43_ofNat (n : ℕ) : k0_off43 (BitVec.ofNat 32 n) = ![n % 2, 0, 0] := by
  show ![(Scalar.remui (BitVec.ofNat 32 n) 2#32).toNat, 0, 0] = _; rw [slot_ofNat]
theorem off44_ofNat (n : ℕ) : k0_off44 (BitVec.ofNat 32 n) = ![n % 2, 0, 0] := by
  show ![(Scalar.remui (BitVec.ofNat 32 n) 2#32).toNat, 0, 0] = _; rw [slot_ofNat]
theorem off47_ofNat (n : ℕ) : k0_off47 (BitVec.ofNat 32 n) = ![n % 2, 0, 0] := by
  show ![(Scalar.remui (BitVec.ofNat 32 n) 2#32).toNat, 0, 0] = _; rw [slot_ofNat]
theorem off50_ofNat (n : ℕ) : k0_off50 (BitVec.ofNat 32 n) = ![n % 2, 0, 0] := by
  show ![(Scalar.remui (BitVec.ofNat 32 n) 2#32).toNat, 0, 0] = _; rw [slot_ofNat]
theorem off53_ofNat (n : ℕ) : k0_off53 (BitVec.ofNat 32 n) = ![n % 2, 0, 0] := by
  show ![(Scalar.remui (BitVec.ofNat 32 n) 2#32).toNat, 0, 0] = _; rw [slot_ofNat]
theorem off31_ofNat (n : ℕ) : k0_off31 (BitVec.ofNat 32 n) = ![n % 2] := by
  show ![(Scalar.remui (BitVec.ofNat 32 n) 2#32).toNat] = _; rw [slot_ofNat]
theorem off34_ofNat (n : ℕ) : k0_off34 (BitVec.ofNat 32 n) = ![n % 2] := by
  show ![(Scalar.remui (BitVec.ofNat 32 n) 2#32).toNat] = _; rw [slot_ofNat]
theorem off37_ofNat (n : ℕ) : k0_off37 (BitVec.ofNat 32 n) = ![n % 2] := by
  show ![(Scalar.remui (BitVec.ofNat 32 n) 2#32).toNat] = _; rw [slot_ofNat]
theorem off40_ofNat (n : ℕ) : k0_off40 (BitVec.ofNat 32 n) = ![n % 2] := by
  show ![(Scalar.remui (BitVec.ofNat 32 n) 2#32).toNat] = _; rw [slot_ofNat]
theorem off46_ofNat (n : ℕ) : k0_off46 (BitVec.ofNat 32 n) = ![n % 2] := by
  show ![(Scalar.remui (BitVec.ofNat 32 n) 2#32).toNat] = _; rw [slot_ofNat]
theorem off49_ofNat (n : ℕ) : k0_off49 (BitVec.ofNat 32 n) = ![n % 2] := by
  show ![(Scalar.remui (BitVec.ofNat 32 n) 2#32).toNat] = _; rw [slot_ofNat]
theorem off52_ofNat (n : ℕ) : k0_off52 (BitVec.ofNat 32 n) = ![n % 2] := by
  show ![(Scalar.remui (BitVec.ofNat 32 n) 2#32).toNat] = _; rw [slot_ofNat]

/-! ## Words read as integers -/

/-- A literal below 2³¹ reads as itself. -/
theorem lit (n : ℕ) (h : n < 2 ^ 31 := by omega) : IsInt (BitVec.ofNat 32 n) (n : ℤ) := Affine.ofNat n ⟨rfl, h⟩

/-- Two words with the same reading are the same word. -/
theorem eq_of_isInt {x y : BitVec 32} {e : ℤ} (hx : IsInt x e) (hy : IsInt y e) : x = y := by
  unfold Affine.IsInt at hx hy
  exact BitVec.eq_of_toInt_eq (hx.trans hy.symm)

/-- The tile's first block number as the kernel computes it, `800 · (subcore + 16 · core)`: the
    tiles of the second SparseCore come after the sixteen of the first, 800 blocks each. -/
abbrev baseW (L : grid0.Coords) : BitVec 32 :=
  Scalar.muli (Scalar.addi (Scalar.addi 0#32 (Scalar.muli (BitVec.ofNat 32 (L 1).val) 1#32))
    (Scalar.muli (BitVec.ofNat 32 (L 0).val) 16#32)) 800#32

/-- The block index after `w`, wrapping from 799 to 0 (what the kernel's pipeline asks to fetch next). -/
abbrev nextW (w : BitVec 32) : BitVec 32 :=
  Scalar.select (Scalar.cmpi .eq (Scalar.select 1#1 (Scalar.addi w 1#32) w) 800#32) 0#32
    (Scalar.select 1#1 (Scalar.addi w 1#32) w)

/-- The block index before `w`, wrapping from 0 to 799 (the block whose copy out is still pending). -/
abbrev prevW (w : BitVec 32) : BitVec 32 :=
  Scalar.select (Scalar.cmpi .eq (Scalar.select 1#1 (Scalar.subi w 1#32) w) 4294967295#32) 799#32
    (Scalar.select 1#1 (Scalar.subi w 1#32) w)

theorem coords_lt (L : grid0.Coords) : (L 1).val < 16 ∧ (L 0).val < 2 := ⟨(L 1).isLt, (L 0).isLt⟩

/-- The tile number is at most 31, so 800 times it is far inside the 32-bit range. -/
theorem baseW_isInt (L : grid0.Coords) : IsInt (baseW L) (800 * (((L 1).val : ℤ) + 16 * ((L 0).val : ℤ))) := by
  obtain ⟨h1, h0⟩ := coords_lt L
  have a1 : IsInt (BitVec.ofNat 32 (L 1).val) ((L 1).val : ℤ) := Affine.ofNat _ ⟨rfl, by omega⟩
  have a0 : IsInt (BitVec.ofNat 32 (L 0).val) ((L 0).val : ℤ) := Affine.ofNat _ ⟨rfl, by omega⟩
  have v2 : IsInt _ ((L 1).val : ℤ) := Affine.muli a1 (lit 1) (by omega)
  have v3 : IsInt _ ((L 1).val : ℤ) := Affine.addi (lit 0) v2 (by omega)
  have v4 : IsInt _ (16 * ((L 0).val : ℤ)) := Affine.muli a0 (lit 16) (by omega)
  have v5 : IsInt _ (((L 1).val : ℤ) + 16 * ((L 0).val : ℤ)) := Affine.addi v3 v4 (by omega)
  exact Affine.muli v5 (lit 800) (by omega)

section
variable {w : BitVec 32} {k : ℕ}

/-- `k + 1`, except that 799 is followed by 0. -/
theorem nextW_isInt (hw : IsInt w (k : ℤ)) (hk : k < 800) : IsInt (nextW w) (((k + 1) % 800 : ℕ) : ℤ) := by
  have h86 : IsInt (Scalar.addi w 1#32) ((k : ℤ) + 1) := Affine.addi hw (lit 1) (by omega)
  have h87 : IsInt (Scalar.select 1#1 (Scalar.addi w 1#32) w) ((k : ℤ) + 1) :=
    Affine.select_holds Affine.holds_one h86 hw rfl
  by_cases hl : k = 799
  · exact Affine.select_holds (Affine.eq_holds h87 (lit 800) (by omega)) (lit 0) h87 (by omega)
  · exact Affine.select_fails (Affine.eq_fails h87 (lit 800) (by omega)) (lit 0) h87 (by omega)

/-- `k − 1`, except that 0 is preceded by 799: the subtraction gives −1 there, which the kernel
    tests for. -/
theorem prevW_isInt (hw : IsInt w (k : ℤ)) (hk : k < 800) : IsInt (prevW w) (((k + 799) % 800 : ℕ) : ℤ) := by
  have h81 : IsInt (Scalar.subi w 1#32) ((k : ℤ) - 1) := Affine.subi hw (lit 1) (by omega)
  have h82 : IsInt (Scalar.select 1#1 (Scalar.subi w 1#32) w) ((k : ℤ) - 1) :=
    Affine.select_holds Affine.holds_one h81 hw rfl
  have hm1 : IsInt 4294967295#32 (-1) := Affine.ofNat_neg 4294967295 (by omega)
  by_cases hz : k = 0
  · exact Affine.select_holds (Affine.eq_holds h82 hm1 (by omega)) (lit 799) h82 (by omega)
  · exact Affine.select_fails (Affine.eq_fails h82 hm1 (by omega)) (lit 799) h82 (by omega)

theorem A19_isInt (hk : k < 800) : IsInt (A19 k) (k : ℤ) := Affine.ofNat _ ⟨by omega, by omega⟩
theorem A14_isInt (hk : k ≤ 800) : IsInt (A14 k) (k : ℤ) := Affine.ofNat _ ⟨rfl, by omega⟩
theorem A13_isInt : IsInt (A13 k) ((min (k + 1) 800 : ℕ) : ℤ) := Affine.ofNat _ ⟨rfl, by omega⟩
theorem A18_isInt (hk : k ≤ 800) : IsInt (A18 k) ((k - 1 : ℕ) : ℤ) := Affine.ofNat _ ⟨rfl, by omega⟩
/-- The induction word of trip `k` is `k`. -/
theorem iv_isInt (hk : k < 800) : IsInt (Scf.iv 0#32 1#32 k) (k : ℤ) := Affine.iv (lit 0) (lit 1) k (by omega)

/-- The current block is never the next one: the tile base added to both sides cancels, and
    `k ≠ k + 1`, `799 ≠ 0`. -/
theorem ne_next (L : grid0.Coords) (hw : IsInt w (k : ℤ)) (hk : k < 800) :
    Holds (Scalar.cmpi .ne (Scalar.addi w (baseW L)) (Scalar.addi (nextW w) (baseW L))) := by
  obtain ⟨h1, h0⟩ := coords_lt L
  have hb := baseW_isInt L
  have h80 : IsInt (Scalar.addi w (baseW L)) _ := Affine.addi hw hb ⟨rfl, by omega, by omega⟩
  have h90 : IsInt (Scalar.addi (nextW w) (baseW L)) _ := Affine.addi (nextW_isInt hw hk) hb ⟨rfl, by omega, by omega⟩
  exact Affine.ne_holds h80 h90 (by omega)

/-- Nor is it the previous one. -/
theorem ne_prev (L : grid0.Coords) (hw : IsInt w (k : ℤ)) (hk : k < 800) :
    Holds (Scalar.cmpi .ne (Scalar.addi w (baseW L)) (Scalar.addi (prevW w) (baseW L))) := by
  obtain ⟨h1, h0⟩ := coords_lt L
  have hb := baseW_isInt L
  have h80 : IsInt (Scalar.addi w (baseW L)) _ := Affine.addi hw hb ⟨rfl, by omega, by omega⟩
  have h85 : IsInt (Scalar.addi (prevW w) (baseW L)) _ := Affine.addi (prevW_isInt hw hk) hb ⟨rfl, by omega, by omega⟩
  exact Affine.ne_holds h80 h85 (by omega)

end

theorem trip_lt (k : Fin k0_t2_loop.trips) : k.val < 800 := by
  have := k.isLt; have e := trips_eq; omega

/-! ## Which conditional transfers run -/

/-- "Not yet the last trip": the guard of both prefetches and of the prefetch counters' increment. -/
theorem notLast_holds (k : Fin k0_t2_loop.trips) (h : k.val < 799) :
    Holds (Scalar.xori (Scalar.cmpi .sge (Scf.iv 0#32 1#32 k) 799#32) 1#1) :=
  Affine.xori_fh (Affine.sge_fails (iv_isInt (trip_lt k)) (lit 799) (by omega)) Affine.holds_one
theorem notLast_fails (k : Fin k0_t2_loop.trips) (h : k.val = 799) :
    Fails (Scalar.xori (Scalar.cmpi .sge (Scf.iv 0#32 1#32 k) 799#32) 1#1) :=
  Affine.xori_hh (Affine.sge_holds (iv_isInt (trip_lt k)) (lit 799) (by omega)) Affine.holds_one
/-- "Not the first trip": the guard of the wait for the previous copy out. -/
theorem notFirst_holds (k : Fin k0_t2_loop.trips) (h : 0 < k.val) :
    Holds (Scalar.xori (Scalar.cmpi .eq (Scf.iv 0#32 1#32 k) 0#32) 1#1) :=
  Affine.xori_fh (Affine.eq_fails (iv_isInt (trip_lt k)) (lit 0) (by omega)) Affine.holds_one
theorem notFirst_fails (k : Fin k0_t2_loop.trips) (h : k.val = 0) :
    Fails (Scalar.xori (Scalar.cmpi .eq (Scf.iv 0#32 1#32 k) 0#32) 1#1) :=
  Affine.xori_hh (Affine.eq_holds (iv_isInt (trip_lt k)) (lit 0) (by omega)) Affine.holds_one
/-- The induction word is never negative. -/
theorem nonneg_holds (k : Fin k0_t2_loop.trips) :
    Holds (Scalar.xori (Scalar.cmpi .slt (Scf.iv 0#32 1#32 k) 0#32) 1#1) :=
  Affine.xori_fh (Affine.slt_fails (iv_isInt (trip_lt k)) (lit 0) (by omega)) Affine.holds_one

variable (L : grid0.Coords) (k : Fin k0_t2_loop.trips)

/-- The prefetch of the next block of the first input runs in every trip but the last. -/
theorem cond1_lt (h : k.val < 799) : k0_cond1 L k (A19 k.val) = 1#1 :=
  (Scalar.guard_iff _).mpr (Affine.andi_holds (ne_next L (A19_isInt (trip_lt k)) (trip_lt k)) (notLast_holds k h))
theorem cond1_last (h : k.val = 799) : k0_cond1 L k (A19 k.val) ≠ 1#1 :=
  (Scalar.guard_iff _).not.mpr (Affine.andi_fails_right (Affine.tH (ne_next L (A19_isInt (trip_lt k)) (trip_lt k))) (notLast_fails k h))
/-- Likewise for the second input. -/
theorem cond2_lt (h : k.val < 799) : k0_cond2 L k (A19 k.val) = 1#1 :=
  (Scalar.guard_iff _).mpr (Affine.andi_holds (ne_next L (A19_isInt (trip_lt k)) (trip_lt k)) (notLast_holds k h))
theorem cond2_last (h : k.val = 799) : k0_cond2 L k (A19 k.val) ≠ 1#1 :=
  (Scalar.guard_iff _).not.mpr (Affine.andi_fails_right (Affine.tH (ne_next L (A19_isInt (trip_lt k)) (trip_lt k))) (notLast_fails k h))
/-- The waits for the current block of each input run in every trip. -/
theorem cond3_all : k0_cond3 L k (A19 k.val) = 1#1 :=
  (Scalar.guard_iff _).mpr (Affine.andi_holds
    (Affine.ori_holds_left (ne_prev L (A19_isInt (trip_lt k)) (trip_lt k)) trivial) (nonneg_holds k))
theorem cond4_all : k0_cond4 L k (A19 k.val) = 1#1 :=
  (Scalar.guard_iff _).mpr (Affine.andi_holds
    (Affine.ori_holds_left (ne_prev L (A19_isInt (trip_lt k)) (trip_lt k)) trivial) (nonneg_holds k))
/-- The copy out of the block just gathered starts in every trip. -/
theorem cond8_all : k0_cond8 L k (A19 k.val) = 1#1 :=
  (Scalar.guard_iff _).mpr (Affine.ori_holds_left (ne_next L (A19_isInt (trip_lt k)) (trip_lt k)) trivial)
/-- The wait for the previous block's copy out runs in every trip but the first. -/
theorem cond11_pos (h : 0 < k.val) : k0_cond11 L k (A19 k.val) = 1#1 :=
  (Scalar.guard_iff _).mpr (Affine.andi_holds (ne_prev L (A19_isInt (trip_lt k)) (trip_lt k)) (notFirst_holds k h))
theorem cond11_first (h : k.val = 0) : k0_cond11 L k (A19 k.val) ≠ 1#1 :=
  (Scalar.guard_iff _).not.mpr (Affine.andi_fails_right (Affine.tH (ne_prev L (A19_isInt (trip_lt k)) (trip_lt k))) (notFirst_fails k h))

/-! ## Where the transfers of a trip land

Block `B` of a tile's 800 is block `800 · T + B` of the whole array (`T` the tile number,
`subcore + 16 · core`), and starts at word (or row) 128 times that. -/

/-- Word `128 · (block index + tile base)`, read as a natural number. -/
theorem blockStart_toNat {w : BitVec 32} {b : ℕ} (hw : IsInt w (b : ℤ)) (hb : b < 800) :
    (Scalar.muli 128#32 (Scalar.addi w (baseW L))).toNat = 128 * (800 * ((L 1).val + 16 * (L 0).val) + b) := by
  obtain ⟨h1, h0⟩ := coords_lt L
  have h80 : IsInt (Scalar.addi w (baseW L)) _ := Affine.addi hw (baseW_isInt L) ⟨rfl, by omega, by omega⟩
  have hm : IsInt (Scalar.muli 128#32 (Scalar.addi w (baseW L))) _ := Affine.muli (lit 128) h80 ⟨rfl, by omega, by omega⟩
  exact Affine.nat_eq hm _ (by push_cast; omega)

/-- A block of 128 words of the flat input that starts at or before word 128 · 25599 is inside it. -/
theorem inb_flat {x : ℕ} (hx : x + 128 ≤ 3276800) : ∀ a, (![0, x] : Fin 2 → ℕ) a + S1x128.size a ≤ S1x3276800.size a := by
  intro a; fin_cases a
  · show 0 + 1 ≤ 1; omega
  · show x + 128 ≤ 3276800; omega
/-- Likewise a block of 128 rows of the result. -/
theorem inb_rows {x : ℕ} (hx : x + 128 ≤ 3276800) : ∀ a, (![x, 0] : Fin 2 → ℕ) a + S128x128.size a ≤ S3276800x128.size a := by
  intro a; fin_cases a
  · show x + 128 ≤ 3276800; omega
  · show 0 + 128 ≤ 128; omega

/-- The prefetch of trip `k < 799` reads block `k + 1` of the tile's share of the first input. -/
theorem off30_eq (h : k.val < 799) :
    k0_off30 L (A19 k.val) = ![0, 128 * (800 * ((L 1).val + 16 * (L 0).val) + k.val + 1)] := by
  have hn := blockStart_toNat L (nextW_isInt (A19_isInt (trip_lt k)) (trip_lt k)) (Nat.mod_lt _ (by omega))
  show ![0, (Scalar.muli 128#32 (Scalar.addi (nextW (A19 k.val)) (baseW L))).toNat] = _
  rw [hn, Nat.mod_eq_of_lt (by omega)]; rfl
theorem off33_eq (h : k.val < 799) :
    k0_off33 L (A19 k.val) = ![0, 128 * (800 * ((L 1).val + 16 * (L 0).val) + k.val + 1)] := off30_eq L k h
/-- The wait of trip `k` is for block `k` of each input. -/
theorem off36_eq : k0_off36 L (A19 k.val) = ![0, 128 * (800 * ((L 1).val + 16 * (L 0).val) + k.val)] := by
  have hn := blockStart_toNat L (A19_isInt (trip_lt k)) (trip_lt k)
  show ![0, (Scalar.muli 128#32 (Scalar.addi (A19 k.val) (baseW L))).toNat] = _
  rw [hn]
theorem off39_eq : k0_off39 L (A19 k.val) = ![0, 128 * (800 * ((L 1).val + 16 * (L 0).val) + k.val)] := off36_eq L k
/-- The copy out of trip `k` writes block `k` of the tile's share of the result. -/
theorem off45_eq : k0_off45 L (A19 k.val) = ![128 * (800 * ((L 1).val + 16 * (L 0).val) + k.val), 0] := by
  have hn := blockStart_toNat L (A19_isInt (trip_lt k)) (trip_lt k)
  show ![(Scalar.muli 128#32 (Scalar.addi (A19 k.val) (baseW L))).toNat, 0] = _
  rw [hn]
/-- The wait of trip `k > 0` is for the copy out of block `k − 1`. -/
theorem off48_eq (h : 0 < k.val) :
    k0_off48 L (A19 k.val) = ![128 * (800 * ((L 1).val + 16 * (L 0).val) + k.val - 1), 0] := by
  have hn := blockStart_toNat L (prevW_isInt (A19_isInt (trip_lt k)) (trip_lt k)) (Nat.mod_lt _ (by omega))
  show ![(Scalar.muli 128#32 (Scalar.addi (prevW (A19 k.val)) (baseW L))).toNat, 0] = _
  have hk := trip_lt k
  rw [hn]; congr 2; omega
/-- After the loop the block index has wrapped to 0, and the block before it is the last one. -/
theorem off51_eq : k0_off51 L 0#32 = ![128 * (800 * ((L 1).val + 16 * (L 0).val) + 799), 0] := by
  have hn := blockStart_toNat L (prevW_isInt (k := 0) (lit 0) (by omega)) (Nat.mod_lt _ (by omega))
  show ![(Scalar.muli 128#32 (Scalar.addi (prevW 0#32) (baseW L))).toNat, 0] = _
  rw [hn]

/-! ### … and that they land inside the arrays

Whatever block index below 800 the wrap-around produces, block `800 · T + B` is one of the
25600 blocks, so these hold at every trip, whether or not the transfer runs. -/

theorem off30_inb : ∀ a, (k0_off30 L (A19 k.val)) a + S1x128.size a ≤ S1x3276800.size a := by
  obtain ⟨h1, h0⟩ := coords_lt L
  have hn := blockStart_toNat L (nextW_isInt (A19_isInt (trip_lt k)) (trip_lt k)) (Nat.mod_lt _ (by omega))
  have hlt : (k.val + 1) % 800 < 800 := Nat.mod_lt _ (by omega)
  exact inb_flat (x := (Scalar.muli 128#32 (Scalar.addi (nextW (A19 k.val)) (baseW L))).toNat) (by omega)
theorem off33_inb : ∀ a, (k0_off33 L (A19 k.val)) a + S1x128.size a ≤ S1x3276800.size a := off30_inb L k
theorem off36_inb : ∀ a, (k0_off36 L (A19 k.val)) a + S1x128.size a ≤ S1x3276800.size a := by
  obtain ⟨h1, h0⟩ := coords_lt L
  have hn := blockStart_toNat L (A19_isInt (trip_lt k)) (trip_lt k)
  have hk := trip_lt k
  exact inb_flat (x := (Scalar.muli 128#32 (Scalar.addi (A19 k.val) (baseW L))).toNat) (by omega)
theorem off39_inb : ∀ a, (k0_off39 L (A19 k.val)) a + S1x128.size a ≤ S1x3276800.size a := off36_inb L k
theorem off45_inb : ∀ a, (k0_off45 L (A19 k.val)) a + S128x128.size a ≤ S3276800x128.size a := by
  obtain ⟨h1, h0⟩ := coords_lt L
  have hn := blockStart_toNat L (A19_isInt (trip_lt k)) (trip_lt k)
  have hk := trip_lt k
  exact inb_rows (x := (Scalar.muli 128#32 (Scalar.addi (A19 k.val) (baseW L))).toNat) (by omega)
theorem off48_inb : ∀ a, (k0_off48 L (A19 k.val)) a + S128x128.size a ≤ S3276800x128.size a := by
  obtain ⟨h1, h0⟩ := coords_lt L
  have hn := blockStart_toNat L (prevW_isInt (A19_isInt (trip_lt k)) (trip_lt k)) (Nat.mod_lt _ (by omega))
  have hlt : (k.val + 799) % 800 < 800 := Nat.mod_lt _ (by omega)
  exact inb_rows (x := (Scalar.muli 128#32 (Scalar.addi (prevW (A19 k.val)) (baseW L))).toNat) (by omega)

/-! ## The side conditions the program states at each trip, and after the loop -/

theorem chk1_at : k0_chk1 L k (A13 k.val) (A14 k.val) (A13 k.val) (A14 k.val) (A14 k.val) (A18 k.val) (A19 k.val) :=
  ⟨fun _ => off29_inb _, fun _ => off30_inb L k, fun _ => off31_inb _,
   fun _ => off32_inb _, fun _ => off33_inb L k, fun _ => off34_inb _,
   fun _ => off35_inb _, fun _ => off36_inb L k, fun _ => off37_inb _,
   fun _ => off38_inb _, fun _ => off39_inb L k, fun _ => off40_inb _,
   fun _ => off44_inb _, fun _ => off45_inb L k, fun _ => off46_inb _,
   fun _ => off47_inb _, fun _ => off48_inb L k, fun _ => off49_inb _⟩

theorem chk6_end : k0_chk6 L 0#32 := by
  obtain ⟨h1, h0⟩ := coords_lt L
  have hn := blockStart_toNat L (prevW_isInt (k := 0) (lit 0) (by omega)) (Nat.mod_lt _ (by omega))
  exact inb_rows (x := (Scalar.muli 128#32 (Scalar.addi (prevW 0#32) (baseW L))).toNat) (by omega)

/-! ## One trip's update of the carried counters

The seven definitions below are the program's own lines for the values a trip yields, in the
program's operations, over the trip's induction word `Scf.iv 0 1 k`, the tile base and the carried
words they read.  Each theorem says that at the closed forms of trip `k` the line yields the closed
form of trip `k + 1`. -/

/-- Next count of prefetches of the first input: one more unless this is the last trip. -/
def nxt13 (L : grid0.Coords) (k : Fin k0_t2_loop.trips) (a13 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v96 : BitVec 1 := Scalar.cmpi .ne v80 v90
  let v97 : BitVec 1 := Scalar.cmpi .sge arg12 799#32
  let v98 : BitVec 1 := Scalar.xori v97 1#1
  let v99 : BitVec 1 := Scalar.andi v96 v98
  let v102 : BitVec 1 := Scalar.andi v99 1#1
  let v103 : BitVec 32 := Scalar.addi a13 1#32
  Scalar.select v102 v103 a13

/-- Next count of prefetches of the second input: the same rule, written again by the program. -/
def nxt15 (L : grid0.Coords) (k : Fin k0_t2_loop.trips) (a15 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v105 : BitVec 1 := Scalar.cmpi .ne v80 v90
  let v106 : BitVec 1 := Scalar.cmpi .sge arg12 799#32
  let v107 : BitVec 1 := Scalar.xori v106 1#1
  let v108 : BitVec 1 := Scalar.andi v105 v107
  let v111 : BitVec 1 := Scalar.andi v108 1#1
  let v112 : BitVec 32 := Scalar.addi a15 1#32
  Scalar.select v111 v112 a15

/-- Next count of blocks of the first input consumed: always one more. -/
def nxt14 (L : grid0.Coords) (k : Fin k0_t2_loop.trips) (a14 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v79 : BitVec 1 := Scalar.cmpi .eq arg12 799#32
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v323 : BitVec 1 := Scalar.cmpi .ne v80 v90
  let v324 : BitVec 1 := Scalar.ori v323 v79
  let v325 : BitVec 32 := Scalar.addi a14 1#32
  Scalar.select v324 v325 a14

/-- Next count of blocks of the second input consumed: the same line over its own counter. -/
def nxt16 (L : grid0.Coords) (k : Fin k0_t2_loop.trips) (a16 a19 : BitVec 32) : BitVec 32 := nxt14 L k a16 a19

/-- Next count of result blocks produced: always one more. -/
def nxt17 (L : grid0.Coords) (k : Fin k0_t2_loop.trips) (a17 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v79 : BitVec 1 := Scalar.cmpi .eq arg12 799#32
  let v80 : BitVec 32 := Scalar.addi a19 v6
  let v86 : BitVec 32 := Scalar.addi a19 1#32
  let v87 : BitVec 32 := Scalar.select 1#1 v86 a19
  let v88 : BitVec 1 := Scalar.cmpi .eq v87 800#32
  let v89 : BitVec 32 := Scalar.select v88 0#32 v87
  let v90 : BitVec 32 := Scalar.addi v89 v6
  let v296 : BitVec 1 := Scalar.cmpi .ne v80 v90
  let v297 : BitVec 1 := Scalar.ori v296 v79
  let v300 : BitVec 1 := Scalar.andi v297 1#1
  let v301 : BitVec 32 := Scalar.addi a17 1#32
  Scalar.select v300 v301 a17

/-- Next count of copies out waited for: one more unless this is the first trip. -/
def nxt18 (L : grid0.Coords) (k : Fin k0_t2_loop.trips) (a18 a19 : BitVec 32) : BitVec 32 :=
  let v6 : BitVec 32 := Scalar.muli (Scalar.addi (Scalar.addi 0#32 (Scalar.muli (BitVec.ofNat 32 (L 1).val) 1#32)) (Scalar.muli (BitVec.ofNat 32 (L 0).val) 16#32)) 800#32
  let arg12 : BitVec 32 := Scf.iv 0#32 1#32 k
  let v78 : BitVec 1 := Scalar.cmpi .eq arg12 0#32
  let v80 : BitVec 32 := Scalar.addi a19 v6
  let v81 : BitVec 32 := Scalar.subi a19 1#32
  let v82 : BitVec 32 := Scalar.select 1#1 v81 a19
  let v83 : BitVec 1 := Scalar.cmpi .eq v82 4294967295#32
  let v84 : BitVec 32 := Scalar.select v83 799#32 v82
  let v85 : BitVec 32 := Scalar.addi v84 v6
  let v315 : BitVec 1 := Scalar.cmpi .ne v80 v85
  let v316 : BitVec 1 := Scalar.xori v78 1#1
  let v317 : BitVec 1 := Scalar.andi v315 v316
  let v320 : BitVec 1 := Scalar.andi v317 1#1
  let v321 : BitVec 32 := Scalar.addi a18 1#32
  Scalar.select v320 v321 a18

/-- Next block index: one more, wrapping from 799 to 0. -/
def nxt19 (a19 : BitVec 32) : BitVec 32 :=
  let v331 : BitVec 32 := Scalar.addi a19 1#32
  let v332 : BitVec 32 := Scalar.select 1#1 v331 a19
  let v333 : BitVec 1 := Scalar.cmpi .eq v332 800#32
  Scalar.select v333 0#32 v332

theorem nxt13_eq : nxt13 L k (A13 k.val) (A19 k.val) = A13 (k.val + 1) := by
  have hk := trip_lt k
  have hne := ne_next L (A19_isInt hk) hk
  have h13 : IsInt (A13 k.val) _ := A13_isInt
  have h103 : IsInt (Scalar.addi (A13 k.val) 1#32) _ := Affine.addi h13 (lit 1) ⟨rfl, by omega, by omega⟩
  by_cases hl : k.val < 799
  · exact eq_of_isInt (Affine.select_holds (Affine.andi_holds (Affine.andi_holds hne (notLast_holds k hl)) Affine.holds_one)
      h103 h13 rfl) (Affine.ofNat _ ⟨by omega, by omega⟩)
  · exact eq_of_isInt (Affine.select_fails (Affine.andi_fails_left
      (Affine.andi_fails_right (Affine.tH hne) (notLast_fails k (by omega))) trivial) h103 h13 rfl)
      (Affine.ofNat _ ⟨by omega, by omega⟩)

theorem nxt15_eq : nxt15 L k (A13 k.val) (A19 k.val) = A13 (k.val + 1) := nxt13_eq L k

theorem nxt14_eq : nxt14 L k (A14 k.val) (A19 k.val) = A14 (k.val + 1) := by
  have hk := trip_lt k
  have hne := ne_next L (A19_isInt hk) hk
  have h14 : IsInt (A14 k.val) _ := A14_isInt (by omega)
  have h325 : IsInt (Scalar.addi (A14 k.val) 1#32) _ := Affine.addi h14 (lit 1) ⟨rfl, by omega, by omega⟩
  exact eq_of_isInt (Affine.select_holds (Affine.ori_holds_left hne trivial) h325 h14 rfl)
    (Affine.ofNat _ ⟨by omega, by omega⟩)

theorem nxt16_eq : nxt16 L k (A14 k.val) (A19 k.val) = A14 (k.val + 1) := nxt14_eq L k

theorem nxt17_eq : nxt17 L k (A14 k.val) (A19 k.val) = A14 (k.val + 1) := by
  have hk := trip_lt k
  have hne := ne_next L (A19_isInt hk) hk
  have h14 : IsInt (A14 k.val) _ := A14_isInt (by omega)
  have h301 : IsInt (Scalar.addi (A14 k.val) 1#32) _ := Affine.addi h14 (lit 1) ⟨rfl, by omega, by omega⟩
  exact eq_of_isInt (Affine.select_holds (Affine.andi_holds (Affine.ori_holds_left hne trivial) Affine.holds_one) h301 h14 rfl)
    (Affine.ofNat _ ⟨by omega, by omega⟩)

theorem nxt18_eq : nxt18 L k (A18 k.val) (A19 k.val) = A18 (k.val + 1) := by
  have hk := trip_lt k
  have hne := ne_prev L (A19_isInt hk) hk
  have h18 : IsInt (A18 k.val) _ := A18_isInt (by omega)
  have h321 : IsInt (Scalar.addi (A18 k.val) 1#32) _ := Affine.addi h18 (lit 1) ⟨rfl, by omega, by omega⟩
  by_cases hz : 0 < k.val
  · exact eq_of_isInt (Affine.select_holds (Affine.andi_holds (Affine.andi_holds hne (notFirst_holds k hz)) Affine.holds_one)
      h321 h18 rfl) (Affine.ofNat _ ⟨by omega, by omega⟩)
  · exact eq_of_isInt (Affine.select_fails (Affine.andi_fails_left
      (Affine.andi_fails_right (Affine.tH hne) (notFirst_fails k (by omega))) trivial) h321 h18 rfl)
      (Affine.ofNat _ ⟨by omega, by omega⟩)

theorem nxt19_eq : nxt19 (A19 k.val) = A19 (k.val + 1) := by
  have hk := trip_lt k
  exact eq_of_isInt (nextW_isInt (A19_isInt hk) hk) (Affine.ofNat _ ⟨by omega, by omega⟩)

/-- The loop's initial values are the closed forms at trip 0 … -/
theorem A_init : (A13 0, A14 0, A13 0, A14 0, A14 0, A18 0, A19 0) = ((1#32, 0#32, 1#32, 0#32, 0#32, 0#32, 0#32) : BitVec 32 × BitVec 32 × BitVec 32 × BitVec 32 × BitVec 32 × BitVec 32 × BitVec 32) := rfl
/-- … and after the last trip the block index is back at zero, which is what the final wait reads. -/
theorem A19_end : A19 800 = 0#32 := rfl

end Cert.Kernel.Hand
-- ==== Proof.Bits.PipeIface.lean ====
/-
  The seam between the two halves of a tile's task. The first half builds the tile's rows of the table and meets the
  other tiles at the barrier; the second half is the pipeline: fetch the first block's words, 800 trips of
  (prefetch, wait, form the index words, gather, copy out, wait for the previous copy), and the wait for the last copy.
  Here: the second half as a program of its own, the check that the kernel is the first half followed by it, and what
  the second half does, as a statement.
-/
import proofs.«204352_g17334488006705_cont_7to1_713_23_alg».proof.Proof.Bits.Common
import proofs.«204352_g17334488006705_cont_7to1_713_23_alg».proof.Proof.Bits.TileOpen
import proofs.«204352_g17334488006705_cont_7to1_713_23_alg».proof.Proof.Bits.PipeWords

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-- The task after its table part: from the words `v6` (the tile's first block number) … that the table part returns. -/
def tailProg (L : grid0.Coords) (v6 v10_r3 : BitVec 32) (true_9_r3 : BitVec 1) (c0_i32_10_r3 : BitVec 32) :
    Prog (TpuEff nD τ sig (Elt F) Λ₀ (.scVector ((L 0).castLE hcore0) ((L 1).castLE hsub0))) PUnit := do
  let ⟨v34_r3, c0_i32_36_r3⟩ : Σ' (v34_r3 : BitVec 32), BitVec 32 ← k0_part11 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 v6 v10_r3 true_9_r3 c0_i32_10_r3
  let ⟨v47_5_r3, v47_6_r3, k0_hw6, k0_hw5⟩ : Σ' (v47_5_r3 : BitVec 32) (v47_6_r3 : BitVec 32) (k0_hw6 : k0_chk6 L v47_6_r3), k0_chk5 v47_5_r3 ← k0_part12 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 v6 v34_r3 c0_i32_36_r3
  let v73_r3 : DmaSems sig S1 := cc0_scoped8.slice (Rect.unit (s := S2) (k0_off52 v47_5_r3) S1.size (k0_off52_inb v47_5_r3 k0_hw5))
  let v74_r3 : DmaSems sig S_ := v73_r3.squeeze S_ squeezes_S1_S_
  let v75_r3 : Memref sig .scVector .hbm S128x128 .f32 := (oV).slice (Rect.unit (s := S3276800x128) (k0_off51 L v47_6_r3) S128x128.size (k0_off51_inb L v47_6_r3 k0_hw6)) (fun _ => rfl)
  let v76_r3 : Memref sig .scVector .vmem S1x128x128 .f32 := (stgV).slice (Rect.unit (s := S2x128x128) (k0_off53 v47_5_r3) S1x128x128.size (k0_off53_inb v47_5_r3 k0_hw5)) (fun _ => rfl)
  let v77_r3 : Memref sig .scVector .vmem S128x128 .f32 := v76_r3.squeeze S128x128 squeezes_S1x128x128_S128x128
  Prog.lift (.waitDma2 v74_r3.sem v77_r3 v75_r3 ((View.wordExact_bits rfl).reshape _ _) (View.wordExact_bits rfl))
  pure ⟨⟩

set_option maxRecDepth 65536 in
/-- The kernel is its table part followed by the tail. -/
theorem taskProg_eq_tail (L : grid0.Coords) :
    taskProg (F := F) L = (k0_part10 (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9) >>= fun r => tailProg (F := F) L r.1 r.2.1 r.2.2.1 r.2.2.2 := rfl

/-- The words the table part returns: the tile's first block number `800 · t`, as the program computes it. -/
abbrev firstBlk (L : grid0.Coords) : BitVec 32 :=
  Scalar.muli (Scalar.addi (Scalar.addi 0#32 (Scalar.muli (BitVec.ofNat 32 (L 1).val) 1#32)) (Scalar.muli (BitVec.ofNat 32 (L 0).val) 16#32)) 800#32

/-- What the pipeline does: from the read shares of the flattened words, the tile's 800 blocks of the result at any
    contents, the index list, the three two-slot staging buffers, the seven semaphores it uses at zero and a read share
    of the whole table, right — to the 800 blocks at their final contents, the staging storage and semaphores back. -/
def PipeSpec (hx0 : ∀ j, (X0v d j).toNat ≤ 59) (hx1 : ∀ j, (X1v d j).toNat ≤ 59) : Prop :=
  ∀ (g : Buf (Elt F) (shLoc d (cV L))) (_hg : ∀ R : Fin 4608, TabOK (F := F) (m (a1Loc d)) (m (a2Loc d)) g R)
    (O : CellTallies nD τ sig (HIx 1)) (W1 : Waits sig (HIx 1)),
    iprop(Transfers.MayWaits (thr d L) (default : HIx 1) O
        ∗ ((x0V).view.loc (thr d L) ↦{inTok (tL L)} (X0v d : Buf (Elt F) (x0Loc d)))
        ∗ ((x1V).view.loc (thr d L) ↦{inTok (tL L)} (X1v d : Buf (Elt F) (x1Loc d)))
        ∗ oBlksAny (F := F) d (tL L)
        ∗ (∃ f, (idxV).view.loc (thr d L) ↦{fullShare} f) ∗ (∃ f, (w0V).view.loc (thr d L) ↦{fullShare} f)
        ∗ (∃ f, (w1V).view.loc (thr d L) ↦{fullShare} f) ∗ (∃ f, (stgV).view.loc (thr d L) ↦{fullShare} f)
        ∗ semVal (dcell d L ⟨3, by decide⟩) 0 ∗ semVal (dcell d L ⟨4, by decide⟩) 0 ∗ semVal (dcell d L ⟨5, by decide⟩) 0
        ∗ semVal (dcell d L ⟨6, by decide⟩) 0 ∗ semVal (dcell d L ⟨7, by decide⟩) 0 ∗ semVal (dcell d L ⟨8, by decide⟩) 0
        ∗ semVal (dcell d L ⟨9, by decide⟩) 0
        ∗ ((shV).view.loc (thr d L) ↦{shTok (jL L)} g)
        ∗ owes (thr d L) O W1)
      ⊢ wp frame (wpE (defs₀ (F := F)) 𝒱₀ (thr d L) none) Set.univ (tailProg (F := F) L (firstBlk L) (Scalar.addi 0#32 (firstBlk L)) 1#1 0#32)
          fun _ => iprop(oBlksDone m X0v X1v d (tL L)
            ∗ (∃ f, (idxV).view.loc (thr d L) ↦{fullShare} f) ∗ (∃ f, (w0V).view.loc (thr d L) ↦{fullShare} f)
            ∗ (∃ f, (w1V).view.loc (thr d L) ↦{fullShare} f) ∗ (∃ f, (stgV).view.loc (thr d L) ↦{fullShare} f)
            ∗ semVal (dcell d L ⟨3, by decide⟩) 0 ∗ semVal (dcell d L ⟨4, by decide⟩) 0 ∗ semVal (dcell d L ⟨5, by decide⟩) 0
            ∗ semVal (dcell d L ⟨6, by decide⟩) 0 ∗ semVal (dcell d L ⟨7, by decide⟩) 0 ∗ semVal (dcell d L ⟨8, by decide⟩) 0
            ∗ semVal (dcell d L ⟨9, by decide⟩) 0
            ∗ (∃ g', (shV).view.loc (thr d L) ↦{shTok (jL L)} g')
            ∗ ∃ W', ⌜∀ p ∈ W', p ∈ W1 ∨ p.2 = none⌝ ∗ owes (thr d L) O W')

end Cert.Kernel.Hand
end
-- ==== Proof.Bits.SlotSplit.lean ====
/-
  The two slots of a double buffer.

  The pipeline's three staging buffers (hour words, minute words, result blocks) have shape `[2, n₁, n₂]`: two slots,
  used in turn. A buffer held whole splits into its two slots, and the two slots, each at whatever contents its last use
  left, join back into the buffer whole. Both follow from one fact about index sets: an element is in slot `s % 2`
  exactly when its leading coordinate is `s % 2`, so the slots of two consecutive numbers are disjoint and cover the
  buffer.
-/
import proofs.«204352_g17334488006705_cont_7to1_713_23_alg».proof.Proof.Bits.Common
import proofs.«204352_g17334488006705_cont_7to1_713_23_alg».proof.Proof.Bits.TileOpen

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## Slots, named by offsets -/

/-- Slot `off` of a two-slot word buffer, and of the two-slot staging buffer of result blocks. -/
abbrev wSlot (M : Memref sig .scVector .vmem S2x1x128 .i32) (off : Fin 3 → Nat) (h : ∀ a, off a + S1x1x128.size a ≤ S2x1x128.size a) :
    Memref sig .scVector .vmem S1x1x128 .i32 :=
  M.slice (Rect.unit (s := S2x1x128) off S1x1x128.size h) (fun _ => rfl)
abbrev sSlot (off : Fin 3 → Nat) (h : ∀ a, off a + S1x128x128.size a ≤ S2x128x128.size a) : Memref sig .scVector .vmem S1x128x128 .f32 :=
  (stgV).slice (Rect.unit (s := S2x128x128) off S1x128x128.size h) (fun _ => rfl)

/-- The offsets of slot `s % 2` of a two-slot buffer. -/
abbrev slot3 (s : ℕ) : Fin 3 → Nat := ![s % 2, 0, 0]

/-- A slot of a `[2, n₁, n₂]` buffer is in range. -/
theorem slot3_inb (n₁ n₂ : ℕ) (s : ℕ) : ∀ a, slot3 s a + (![1, n₁, n₂] : Fin 3 → Nat) a ≤ (![2, n₁, n₂] : Fin 3 → Nat) a := by
  have := Nat.mod_lt s (show 0 < 2 by norm_num)
  intro a
  match a with
  | ⟨0, _⟩ => show s % 2 + 1 ≤ 2; omega
  | ⟨1, _⟩ => show 0 + n₁ ≤ n₁; omega
  | ⟨2, _⟩ => show 0 + n₂ ≤ n₂; omega

theorem slot3_inb_w (s : ℕ) : ∀ a, slot3 s a + S1x1x128.size a ≤ S2x1x128.size a := slot3_inb 1 128 s
theorem slot3_inb_s (s : ℕ) : ∀ a, slot3 s a + S1x128x128.size a ≤ S2x128x128.size a := slot3_inb 128 128 s

/-- Slot `s % 2` of a word buffer, and of the staging buffer. -/
abbrev wSlotC (M : Memref sig .scVector .vmem S2x1x128 .i32) (s : ℕ) : Memref sig .scVector .vmem S1x1x128 .i32 := wSlot M (slot3 s) (slot3_inb_w s)
abbrev sSlotC (s : ℕ) : Memref sig .scVector .vmem S1x128x128 .f32 := sSlot (slot3 s) (slot3_inb_s s)

/-! ## The two slots partition the buffer

An element of a `[2, n₁, n₂]` buffer lies in slot `s % 2` exactly when its leading coordinate is `s % 2`. Consecutive
numbers have different parities, so slots `s` and `s + 1` share no element; a leading coordinate below 2 is one of the two
parities, so together they are the whole buffer. -/

/-- The rectangle of slot `s % 2`. -/
abbrev slotRect (n₁ n₂ : ℕ) (s : ℕ) : Rect (⟨3, ![2, n₁, n₂]⟩ : Shape) :=
  Rect.unit (s := ⟨3, ![2, n₁, n₂]⟩) (slot3 s) ![1, n₁, n₂] (slot3_inb n₁ n₂ s)

theorem mem_slotRect {n₁ n₂ : ℕ} (s : ℕ) (i : (⟨3, ![2, n₁, n₂]⟩ : Shape).Idx) :
    i ∈ (slotRect n₁ n₂ s).set ↔ (i 0).val = s % 2 := by
  rw [LoadRect.mem_set]
  constructor
  · intro H
    obtain ⟨j, hj, e⟩ := H 0
    have hj' : j < 1 := hj
    have e' : (i 0).val = s % 2 + 1 * j := e
    omega
  · intro e a
    match a with
    | ⟨0, _⟩ => exact ⟨0, Nat.one_pos, by show (i 0).val = s % 2 + 1 * 0; omega⟩
    | ⟨1, _⟩ => exact ⟨(i 1).val, (i 1).isLt, by show (i 1).val = 0 + 1 * (i 1).val; omega⟩
    | ⟨2, _⟩ => exact ⟨(i 2).val, (i 2).isLt, by show (i 2).val = 0 + 1 * (i 2).val; omega⟩

theorem slotRect_disjoint (n₁ n₂ : ℕ) (s : ℕ) : Disjoint (slotRect n₁ n₂ s).set (slotRect n₁ n₂ (s + 1)).set := by
  rw [Finset.disjoint_left]
  intro i h₀ h₁
  rw [mem_slotRect] at h₀ h₁
  omega

theorem slotRect_cover (n₁ n₂ : ℕ) (s : ℕ) : (slotRect n₁ n₂ s).set ∪ (slotRect n₁ n₂ (s + 1)).set = Finset.univ := by
  ext i
  simp only [Finset.mem_union, mem_slotRect, Finset.mem_univ, iff_true]
  have : (i 0).val < 2 := (i 0).isLt
  omega

/-! ## Splitting and joining along two sets that partition a buffer -/

section TwoSets
variable {ℓ : Loc nD τ sig} {A B : Finset (Idx ℓ)}

theorem pts_split2 (hd : Disjoint A B) (hc : A ∪ B = Finset.univ) (q : PosShare TreeShare) (f : Buf (Elt F) ℓ) :
    (ℓ ↦{q} f : sProp 𝕄) ⊢ iprop((ℓ ↦[A]{q} f) ∗ ℓ ↦[B]{q} f) := by
  rw [← hc]
  exact (pointsTo_union hd).1

theorem pts_join2 (hd : Disjoint A B) (hc : A ∪ B = Finset.univ) (q : PosShare TreeShare) :
    iprop((∃ f, ℓ ↦[A]{q} f) ∗ (∃ g, ℓ ↦[B]{q} g)) ⊢ (iprop(∃ f, ℓ ↦{q} f) : sProp 𝕄) := by
  iintro ⟨⟨%f, Hf⟩, ⟨%g, Hg⟩⟩
  iexists (B.piecewise g f)
  rw [← hc]
  iapply (pointsTo_join hd)
  isplitl [Hf]
  · iexact Hf
  · iexact Hg

end TwoSets

/-! ## The three double buffers -/

/-- The slots' element sets of the word buffer `w0V`. -/
theorem set_w0 (s : ℕ) : (wSlotC w0V s).view.set = (slotRect 1 128 s).set := by
  show (((w0V).view.slice (slotRect 1 128 s))).set = _
  simp only [Memref.view_whole, View.set_slice_whole]

/-- The buffer whole is its slots `s` and `s + 1`, at the same contents. -/
theorem split_w0 (d : Dev nD) (L : grid0.Coords) (s : ℕ) (f : Buf (Elt F) ((w0V).view.loc (thr d L))) :
    ((w0V).view.loc (thr d L) ↦{fullShare} f : sProp 𝕄)
      ⊢ iprop(((wSlotC w0V s).view.loc (thr d L) ↦[(wSlotC w0V s).view.set]{fullShare} f)
          ∗ ((wSlotC w0V (s + 1)).view.loc (thr d L) ↦[(wSlotC w0V (s + 1)).view.set]{fullShare} f)) := by
  rw [set_w0, set_w0]
  exact pts_split2 (ℓ := (w0V).view.loc (thr d L)) (slotRect_disjoint 1 128 s) (slotRect_cover 1 128 s) fullShare f

/-- The slots `s` and `s + 1`, each at some contents, are the buffer whole at some contents. -/
theorem join_w0 (d : Dev nD) (L : grid0.Coords) (s : ℕ) :
    iprop((∃ f, (wSlotC w0V s).view.loc (thr d L) ↦[(wSlotC w0V s).view.set]{fullShare} f)
        ∗ (∃ f, (wSlotC w0V (s + 1)).view.loc (thr d L) ↦[(wSlotC w0V (s + 1)).view.set]{fullShare} f))
      ⊢ (iprop(∃ f, (w0V).view.loc (thr d L) ↦{fullShare} f) : sProp 𝕄) := by
  rw [set_w0, set_w0]
  exact pts_join2 (ℓ := (w0V).view.loc (thr d L)) (slotRect_disjoint 1 128 s) (slotRect_cover 1 128 s) fullShare

/-- The slots' element sets of the word buffer `w1V`. -/
theorem set_w1 (s : ℕ) : (wSlotC w1V s).view.set = (slotRect 1 128 s).set := by
  show (((w1V).view.slice (slotRect 1 128 s))).set = _
  simp only [Memref.view_whole, View.set_slice_whole]

/-- The buffer whole is its slots `s` and `s + 1`, at the same contents. -/
theorem split_w1 (d : Dev nD) (L : grid0.Coords) (s : ℕ) (f : Buf (Elt F) ((w1V).view.loc (thr d L))) :
    ((w1V).view.loc (thr d L) ↦{fullShare} f : sProp 𝕄)
      ⊢ iprop(((wSlotC w1V s).view.loc (thr d L) ↦[(wSlotC w1V s).view.set]{fullShare} f)
          ∗ ((wSlotC w1V (s + 1)).view.loc (thr d L) ↦[(wSlotC w1V (s + 1)).view.set]{fullShare} f)) := by
  rw [set_w1, set_w1]
  exact pts_split2 (ℓ := (w1V).view.loc (thr d L)) (slotRect_disjoint 1 128 s) (slotRect_cover 1 128 s) fullShare f

/-- The slots `s` and `s + 1`, each at some contents, are the buffer whole at some contents. -/
theorem join_w1 (d : Dev nD) (L : grid0.Coords) (s : ℕ) :
    iprop((∃ f, (wSlotC w1V s).view.loc (thr d L) ↦[(wSlotC w1V s).view.set]{fullShare} f)
        ∗ (∃ f, (wSlotC w1V (s + 1)).view.loc (thr d L) ↦[(wSlotC w1V (s + 1)).view.set]{fullShare} f))
      ⊢ (iprop(∃ f, (w1V).view.loc (thr d L) ↦{fullShare} f) : sProp 𝕄) := by
  rw [set_w1, set_w1]
  exact pts_join2 (ℓ := (w1V).view.loc (thr d L)) (slotRect_disjoint 1 128 s) (slotRect_cover 1 128 s) fullShare

/-- The slots' element sets of the staging buffer. -/
theorem set_stg (s : ℕ) : (sSlotC s).view.set = (slotRect 128 128 s).set := by
  show (((stgV).view.slice (slotRect 128 128 s))).set = _
  simp only [Memref.view_whole, View.set_slice_whole]

/-- The buffer whole is its slots `s` and `s + 1`, at the same contents. -/
theorem split_stg (d : Dev nD) (L : grid0.Coords) (s : ℕ) (f : Buf (Elt F) ((stgV).view.loc (thr d L))) :
    ((stgV).view.loc (thr d L) ↦{fullShare} f : sProp 𝕄)
      ⊢ iprop(((sSlotC s).view.loc (thr d L) ↦[(sSlotC s).view.set]{fullShare} f)
          ∗ ((sSlotC (s + 1)).view.loc (thr d L) ↦[(sSlotC (s + 1)).view.set]{fullShare} f)) := by
  rw [set_stg, set_stg]
  exact pts_split2 (ℓ := (stgV).view.loc (thr d L)) (slotRect_disjoint 128 128 s) (slotRect_cover 128 128 s) fullShare f

/-- The slots `s` and `s + 1`, each at some contents, are the buffer whole at some contents. -/
theorem join_stg (d : Dev nD) (L : grid0.Coords) (s : ℕ) :
    iprop((∃ f, (sSlotC s).view.loc (thr d L) ↦[(sSlotC s).view.set]{fullShare} f)
        ∗ (∃ f, (sSlotC (s + 1)).view.loc (thr d L) ↦[(sSlotC (s + 1)).view.set]{fullShare} f))
      ⊢ (iprop(∃ f, (stgV).view.loc (thr d L) ↦{fullShare} f) : sProp 𝕄) := by
  rw [set_stg, set_stg]
  exact pts_join2 (ℓ := (stgV).view.loc (thr d L)) (slotRect_disjoint 128 128 s) (slotRect_cover 128 128 s) fullShare

end Cert.Kernel.Hand

end
-- ==== Proof.Bits.WordsLand.lean ====
/-
  What a prefetch leaves in a word slot. A pipeline trip copies a window of 128 consecutive words of a flat row of
  3276800 words into one of the two slots of a 2 × 1 × 128 buffer. The slot is addressed as the 1 × 1 × 128 block at
  offset (s, 0, 0), its leading axis squeezed away; the window as the 1 × 128 block at offset (0, c). Reading the buffer
  after the copy at (s, 0, lane) gives the row's word at position c + lane: the slot's index (0, lane) sits at
  (s, 0, lane) in the buffer, the copy puts there what the window reads at (0, lane), and the window's (0, lane) sits at
  (0, c + lane) in the row. The other slot keeps what it held.
-/
import proofs.«204352_g17334488006705_cont_7to1_713_23_alg».proof.Proof.Bits.Common

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## Where the slot's and the window's indices sit -/

/-- The squeeze matches the slot's `(0, lane)` with the block's `(0, 0, lane)`: both are at row-major position `lane`. -/
theorem squeeze_lane (h : S1x128.numel = S1x1x128.numel) (lane : Fin 128) :
    Shape.reshapeEquiv h (ix2 (0 : Fin 1) lane) = ix3 (0 : Fin 1) (0 : Fin 1) lane :=
  Shape.reshapeEquiv_eq_of_rowMajor h (by
    show ((⟨3, ![1, 1, 128]⟩ : Shape).rowMajor (ix3 (0 : Fin 1) (0 : Fin 1) lane)).val = ((⟨2, ![1, 128]⟩ : Shape).rowMajor (ix2 (0 : Fin 1) lane)).val
    rw [Shape.rowMajor_val_three, Shape.rowMajor_val_two]; simp)

/-- Slot `s`'s index `(0, lane)` sits at `(s, 0, lane)` of the two-slot buffer. -/
theorem slot0_emb (o3 : Fin S2x1x128.rank → ℕ) (h3 : ∀ a, o3 a + S1x1x128.size a ≤ S2x1x128.size a)
    (s : Fin 2) (ho3 : o3 = ![s.val, 0, 0]) (lane : Fin 128) :
    (((w0V).slice (Rect.unit (s := S2x1x128) o3 S1x1x128.size h3) (fun _ => rfl)).squeeze S1x128 squeezes_S1x1x128_S1x128).view.emb (ix2 (0 : Fin 1) lane)
      = ix3 s (0 : Fin 1) lane := by
  subst ho3
  show (Rect.unit (s := S2x1x128) ![s.val, 0, 0] S1x1x128.size h3).emb (Shape.reshapeEquiv squeezes_S1x1x128_S1x128.numel_eq (ix2 (0 : Fin 1) lane)) = _
  rw [squeeze_lane]
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl
  | ⟨2, _⟩ => simp only [Rect.off_unit, Rect.stride_unit, Nat.one_mul]; show 0 + lane.val = lane.val; omega

/-- The window's index `(0, lane)` sits at `(0, c + lane)` of the flat row. -/
theorem win0_emb (o2 : Fin S1x3276800.rank → ℕ) (h2 : ∀ a, o2 a + S1x128.size a ≤ S1x3276800.size a)
    (c : ℕ) (ho2 : o2 = ![0, c]) (hc : c + 128 ≤ 3276800) (lane : Fin 128) :
    ((x0V).slice (Rect.unit (s := S1x3276800) o2 S1x128.size h2) (fun _ => rfl)).view.emb (ix2 (0 : Fin 1) lane)
      = ix2 (0 : Fin 1) (⟨c + lane.val, by omega⟩ : Fin 3276800) := by
  subst ho2
  show (Rect.unit (s := S1x3276800) ![0, c] S1x128.size h2).emb (ix2 (0 : Fin 1) lane) = _
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl

/-! ## What the slot holds after the copy -/

/-- After the copy of the window at `(0, c)` of the hour words into slot `s`, the slot's lane `lane` holds the word at
    position `c + lane`. -/
theorem words_landed0 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (c : ℕ) (ho2 : o2 = ![0, c]) (hc : c + 128 ≤ 3276800) (lane : Fin 128) :
    View.write (Elt F) (((w0V).slice (Rect.unit (s := S2x1x128) o3 S1x1x128.size h3) (fun _ => rfl)).squeeze S1x128 squeezes_S1x1x128_S1x128).view fA
        (ReadAs.same.apply (View.read (Elt F) ((x0V).slice (Rect.unit (s := S1x3276800) o2 S1x128.size h2) (fun _ => rfl)).view X)) Finset.univ
        (ix3 s (0 : Fin 1) lane)
      = X (ix2 (0 : Fin 1) (⟨c + lane.val, by omega⟩ : Fin 3276800)) := by
  rw [← slot0_emb o3 h3 s ho3 lane, View.write_emb_of_mem _ _ (Finset.mem_univ _)]
  show _root_.cast _ (View.read (Elt F) ((x0V).slice (Rect.unit (s := S1x3276800) o2 S1x128.size h2) (fun _ => rfl)).view X (ix2 (0 : Fin 1) lane)) = _
  rw [View.read_apply, cast_cast, cast_eq, win0_emb o2 h2 c ho2 hc lane]

/-! ## The same for the minute words -/

/-- Slot `s`'s index `(0, lane)` sits at `(s, 0, lane)` of the two-slot buffer. -/
theorem slot1_emb (o3 : Fin S2x1x128.rank → ℕ) (h3 : ∀ a, o3 a + S1x1x128.size a ≤ S2x1x128.size a)
    (s : Fin 2) (ho3 : o3 = ![s.val, 0, 0]) (lane : Fin 128) :
    (((w1V).slice (Rect.unit (s := S2x1x128) o3 S1x1x128.size h3) (fun _ => rfl)).squeeze S1x128 squeezes_S1x1x128_S1x128).view.emb (ix2 (0 : Fin 1) lane)
      = ix3 s (0 : Fin 1) lane := by
  subst ho3
  show (Rect.unit (s := S2x1x128) ![s.val, 0, 0] S1x1x128.size h3).emb (Shape.reshapeEquiv squeezes_S1x1x128_S1x128.numel_eq (ix2 (0 : Fin 1) lane)) = _
  rw [squeeze_lane]
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl
  | ⟨2, _⟩ => simp only [Rect.off_unit, Rect.stride_unit, Nat.one_mul]; show 0 + lane.val = lane.val; omega

/-- The window's index `(0, lane)` sits at `(0, c + lane)` of the flat row. -/
theorem win1_emb (o2 : Fin S1x3276800.rank → ℕ) (h2 : ∀ a, o2 a + S1x128.size a ≤ S1x3276800.size a)
    (c : ℕ) (ho2 : o2 = ![0, c]) (hc : c + 128 ≤ 3276800) (lane : Fin 128) :
    ((x1V).slice (Rect.unit (s := S1x3276800) o2 S1x128.size h2) (fun _ => rfl)).view.emb (ix2 (0 : Fin 1) lane)
      = ix2 (0 : Fin 1) (⟨c + lane.val, by omega⟩ : Fin 3276800) := by
  subst ho2
  show (Rect.unit (s := S1x3276800) ![0, c] S1x128.size h2).emb (ix2 (0 : Fin 1) lane) = _
  funext a
  refine Fin.ext ?_
  rw [Rect.emb_apply]
  match a with
  | ⟨0, _⟩ => simp only [Rect.off_unit, Rect.stride_unit, Nat.one_mul]; rfl
  | ⟨1, _⟩ => simp only [Rect.off_unit, Rect.stride_unit, Nat.one_mul]; rfl

/-- After the copy of the window at `(0, c)` of the minute words into slot `s`, the slot's lane `lane` holds the word at
    position `c + lane`. -/
theorem words_landed1 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (c : ℕ) (ho2 : o2 = ![0, c]) (hc : c + 128 ≤ 3276800) (lane : Fin 128) :
    View.write (Elt F) (((w1V).slice (Rect.unit (s := S2x1x128) o3 S1x1x128.size h3) (fun _ => rfl)).squeeze S1x128 squeezes_S1x1x128_S1x128).view fA
        (ReadAs.same.apply (View.read (Elt F) ((x1V).slice (Rect.unit (s := S1x3276800) o2 S1x128.size h2) (fun _ => rfl)).view X)) Finset.univ
        (ix3 s (0 : Fin 1) lane)
      = X (ix2 (0 : Fin 1) (⟨c + lane.val, by omega⟩ : Fin 3276800)) := by
  rw [← slot1_emb o3 h3 s ho3 lane, View.write_emb_of_mem _ _ (Finset.mem_univ _)]
  show _root_.cast _ (View.read (Elt F) ((x1V).slice (Rect.unit (s := S1x3276800) o2 S1x128.size h2) (fun _ => rfl)).view X (ix2 (0 : Fin 1) lane)) = _
  rw [View.read_apply, cast_cast, cast_eq, win1_emb o2 h2 c ho2 hc lane]

/-! ## The other slot -/

/-- The copy into slot `s` leaves the other slot as it was: no index of slot `s` has first coordinate `s'`. -/
theorem words_kept0 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (s' : Fin 2) (hs : s' ≠ s) (lane : Fin 128) :
    View.write (Elt F) (((w0V).slice (Rect.unit (s := S2x1x128) o3 S1x1x128.size h3) (fun _ => rfl)).squeeze S1x128 squeezes_S1x1x128_S1x128).view fA
        (ReadAs.same.apply (View.read (Elt F) ((x0V).slice (Rect.unit (s := S1x3276800) o2 S1x128.size h2) (fun _ => rfl)).view X)) Finset.univ
        (ix3 s' (0 : Fin 1) lane)
      = fA (ix3 s' (0 : Fin 1) lane) := by
  refine View.write_of_not_mem _ _ _ ?_
  intro hmem
  rw [View.setOn_univ] at hmem
  obtain ⟨y, -, hy⟩ := Finset.mem_map.mp hmem
  subst ho3
  have h0 : ((((w0V).slice (Rect.unit (s := S2x1x128) ![s.val, 0, 0] S1x1x128.size h3) (fun _ => rfl)).squeeze S1x128 squeezes_S1x1x128_S1x128).view.emb y (0 : Fin 3)).val = s'.val :=
    congrArg (fun i : S2x1x128.Idx => (i (0 : Fin 3)).val) hy
  have h1 : ((((w0V).slice (Rect.unit (s := S2x1x128) ![s.val, 0, 0] S1x1x128.size h3) (fun _ => rfl)).squeeze S1x128 squeezes_S1x1x128_S1x128).view.emb y (0 : Fin 3)).val
      = s.val + 1 * ((Shape.reshapeEquiv squeezes_S1x1x128_S1x128.numel_eq y) (0 : Fin 3)).val := rfl
  have h4 : ((Shape.reshapeEquiv squeezes_S1x1x128_S1x128.numel_eq y) (0 : Fin 3)).val < 1 :=
    ((Shape.reshapeEquiv squeezes_S1x1x128_S1x128.numel_eq y) (0 : Fin 3)).isLt
  exact hs (Fin.ext (by omega))

/-- The copy into slot `s` leaves the other slot as it was: no index of slot `s` has first coordinate `s'`. -/
theorem words_kept1 (o3 : Fin S2x1x128.rank → ℕ) (h3 : ∀ a, o3 a + S1x1x128.size a ≤ S2x1x128.size a)
    (o2 : Fin S1x3276800.rank → ℕ) (h2 : ∀ a, o2 a + S1x128.size a ≤ S1x3276800.size a)
    (fA : IVec S2x1x128 32) (X : IVec S1x3276800 32)
    (s : Fin 2) (ho3 : o3 = ![s.val, 0, 0]) (s' : Fin 2) (hs : s' ≠ s) (lane : Fin 128) :
    View.write (Elt F) (((w1V).slice (Rect.unit (s := S2x1x128) o3 S1x1x128.size h3) (fun _ => rfl)).squeeze S1x128 squeezes_S1x1x128_S1x128).view fA
        (ReadAs.same.apply (View.read (Elt F) ((x1V).slice (Rect.unit (s := S1x3276800) o2 S1x128.size h2) (fun _ => rfl)).view X)) Finset.univ
        (ix3 s' (0 : Fin 1) lane)
      = fA (ix3 s' (0 : Fin 1) lane) := by
  refine View.write_of_not_mem _ _ _ ?_
  intro hmem
  rw [View.setOn_univ] at hmem
  obtain ⟨y, -, hy⟩ := Finset.mem_map.mp hmem
  subst ho3
  have h0 : ((((w1V).slice (Rect.unit (s := S2x1x128) ![s.val, 0, 0] S1x1x128.size h3) (fun _ => rfl)).squeeze S1x128 squeezes_S1x1x128_S1x128).view.emb y (0 : Fin 3)).val = s'.val :=
    congrArg (fun i : S2x1x128.Idx => (i (0 : Fin 3)).val) hy
  have h1 : ((((w1V).slice (Rect.unit (s := S2x1x128) ![s.val, 0, 0] S1x1x128.size h3) (fun _ => rfl)).squeeze S1x128 squeezes_S1x1x128_S1x128).view.emb y (0 : Fin 3)).val
      = s.val + 1 * ((Shape.reshapeEquiv squeezes_S1x1x128_S1x128.numel_eq y) (0 : Fin 3)).val := rfl
  have h4 : ((Shape.reshapeEquiv squeezes_S1x1x128_S1x128.numel_eq y) (0 : Fin 3)).val < 1 :=
    ((Shape.reshapeEquiv squeezes_S1x1x128_S1x128.numel_eq y) (0 : Fin 3)).isLt
  exact hs (Fin.ext (by omega))

end Cert.Kernel.Hand

end
-- ==== Proof.Bits.IdxList.lean ====
/-
  The index list of one pipeline trip.

  A trip of the pipeline turns the current block's 128 hour words and 128 minute words, staged in one slot each of two
  two-slot buffers, into the 128 row numbers the gather reads: eight loads of 16 lanes from each slot, eight stores of
  the index words `64 · hour + minute` into the index list. This module names the list of those stores, reads a slot
  through the body's chain of slices and squeezes, reads the list after the stores lane by lane, and bounds every lane
  by the table's height when the words are in range.
-/
import proofs.«204352_g17334488006705_cont_7to1_713_23_alg».proof.Proof.Bits.Common
import proofs.«204352_g17334488006705_cont_7to1_713_23_alg».proof.Proof.Bits.ValueBridge
import proofs.«204352_g17334488006705_cont_7to1_713_23_alg».proof.Proof.Bits.TileOpen
import Idealize.ShloMosaic.Lib.Writes
import Idealize.ShloMosaic.Lib.Pipeline.Value

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

/-! ## A slot of a two-slot word buffer

The pipeline stages the hour words and the minute words of a block in two-slot buffers of shape `[2, 1, 128]`. The body
addresses slot `s` as a list of 128 words: the slice `[s : s+1, 0 : 1, 0 : 128]`, its leading unit axis dropped, the whole
of that, its remaining unit axis dropped. A load of 16 lanes at lane `n` of the list reads words `n … n + 15` of slot `s`. -/

/-- Slot `o` of a two-slot word buffer `M` as a list of 128 words, by the body's chain of slices and squeezes. -/
abbrev slotView (M : Memref sig .scVector .vmem S2x1x128 .i32) (o : Fin 3 → Nat) (h : ∀ a, o a + S1x1x128.size a ≤ S2x1x128.size a) :
    View sig .scVector .vmem S128 .i32 :=
  ((((M.slice (Rect.unit (s := S2x1x128) o S1x1x128.size h) (fun _ => rfl)).squeeze S1x128 squeezes_S1x1x128_S1x128).slice
      (Rect.unit ![0, 0] S1x128.size inb_S1x128_S1x128_0_0) (fun _ => rfl)).squeeze S128 squeezes_S1x128_S128).view

theorem shapeCasts_S1x1x128_S1x128 : S1x1x128.ShapeCasts S1x128 := by decide
theorem shapeCasts_S1x128_S128 : S1x128.ShapeCasts S128 := by decide

section Slot
variable (d : Dev nD) (L : grid0.Coords)

/-- Sixteen lanes at lane `n` of slot `s` of the hour-word buffer: lane `y` is word `n + y` of row `s`. -/
theorem slot0_read (o : Fin 3 → Nat) (h : ∀ a, o a + S1x1x128.size a ≤ S2x1x128.size a) (s : Fin 2) (ho : o = ![s.val, 0, 0])
    (cur : Buf (Elt F) ((thr d L).loc cc0_scoped3)) (n : Nat) (inb : ∀ a, (![n] : Fin 1 → Nat) a + S16.size a ≤ S128.size a)
    (y : S16.Idx) (hny : n + (y 0).val < 128) :
    View.readAt (Elt F) (slotView w0V o h) (Rect.unit (s := S128) ![n] S16.size inb).toLoadRect cur y
      = cur (ix3 s (0 : Fin 1) (⟨n + (y 0).val, hny⟩ : Fin 128)) := by
  subst ho
  rw [View.readAt_apply]
  -- the outer squeeze: position `n + y` of the list is position `0 · 128 + (n + y)` of `[1, 128]`
  refine (congrFun (Memref.read_squeeze_slice (Val := Elt F)
    ((w0V.slice (Rect.unit (s := S2x1x128) ![s.val, 0, 0] S1x1x128.size h) (fun _ => rfl)).squeeze S1x128 squeezes_S1x1x128_S1x128)
    (Rect.unit ![0, 0] S1x128.size inb_S1x128_S1x128_0_0) (fun _ => rfl)
    squeezes_S1x128_S128 shapeCasts_S1x128_S128 cur) _).trans ?_
  refine (shapeCast_apply _ _ _ (ix2 (0 : Fin 1) (⟨n + (y 0).val, hny⟩ : Fin 128)) ?_).trans ?_
  · rw [Shape.rowMajor_val_two, Shape.rowMajor_val_one]
    show 0 * 128 + (n + (y 0).val) = n + 1 * (y 0).val
    omega
  rw [View.readAt_apply]
  -- the inner squeeze: position `(0 · 1 + 0) · 128 + (n + y)` of `[1, 1, 128]`
  refine (congrFun (Memref.read_squeeze_slice (Val := Elt F) w0V (Rect.unit (s := S2x1x128) ![s.val, 0, 0] S1x1x128.size h) (fun _ => rfl)
    squeezes_S1x1x128_S1x128 shapeCasts_S1x1x128_S1x128 cur) _).trans ?_
  refine (shapeCast_apply _ _ _ (ix3 (0 : Fin 1) (0 : Fin 1) (⟨n + (y 0).val, hny⟩ : Fin 128)) ?_).trans ?_
  · rw [Shape.rowMajor_val_three, Shape.rowMajor_val_two]
    show (0 * 1 + 0) * 128 + (n + (y 0).val) = (0 + 1 * 0) * 128 + (0 + 1 * (n + (y 0).val))
    omega
  -- the slice shifts the slot coordinate by `s`
  rw [View.readAt_apply]
  refine congrArg cur (funext fun a => Fin.ext ?_)
  match a with
  | ⟨0, _⟩ => show s.val + 1 * 0 = s.val; omega
  | ⟨1, _⟩ => show 0 + 1 * 0 = 0; omega
  | ⟨2, _⟩ => show 0 + 1 * (n + (y 0).val) = n + (y 0).val; omega

/-- Sixteen lanes at lane `n` of slot `s` of the minute-word buffer: lane `y` is word `n + y` of row `s`. -/
theorem slot1_read (o : Fin 3 → Nat) (h : ∀ a, o a + S1x1x128.size a ≤ S2x1x128.size a) (s : Fin 2) (ho : o = ![s.val, 0, 0])
    (cur : Buf (Elt F) ((thr d L).loc cc0_scoped5)) (n : Nat) (inb : ∀ a, (![n] : Fin 1 → Nat) a + S16.size a ≤ S128.size a)
    (y : S16.Idx) (hny : n + (y 0).val < 128) :
    View.readAt (Elt F) (slotView w1V o h) (Rect.unit (s := S128) ![n] S16.size inb).toLoadRect cur y
      = cur (ix3 s (0 : Fin 1) (⟨n + (y 0).val, hny⟩ : Fin 128)) := by
  subst ho
  rw [View.readAt_apply]
  -- the outer squeeze: position `n + y` of the list is position `0 · 128 + (n + y)` of `[1, 128]`
  refine (congrFun (Memref.read_squeeze_slice (Val := Elt F)
    ((w1V.slice (Rect.unit (s := S2x1x128) ![s.val, 0, 0] S1x1x128.size h) (fun _ => rfl)).squeeze S1x128 squeezes_S1x1x128_S1x128)
    (Rect.unit ![0, 0] S1x128.size inb_S1x128_S1x128_0_0) (fun _ => rfl)
    squeezes_S1x128_S128 shapeCasts_S1x128_S128 cur) _).trans ?_
  refine (shapeCast_apply _ _ _ (ix2 (0 : Fin 1) (⟨n + (y 0).val, hny⟩ : Fin 128)) ?_).trans ?_
  · rw [Shape.rowMajor_val_two, Shape.rowMajor_val_one]
    show 0 * 128 + (n + (y 0).val) = n + 1 * (y 0).val
    omega
  rw [View.readAt_apply]
  -- the inner squeeze: position `(0 · 1 + 0) · 128 + (n + y)` of `[1, 1, 128]`
  refine (congrFun (Memref.read_squeeze_slice (Val := Elt F) w1V (Rect.unit (s := S2x1x128) ![s.val, 0, 0] S1x1x128.size h) (fun _ => rfl)
    squeezes_S1x1x128_S1x128 shapeCasts_S1x1x128_S1x128 cur) _).trans ?_
  refine (shapeCast_apply _ _ _ (ix3 (0 : Fin 1) (0 : Fin 1) (⟨n + (y 0).val, hny⟩ : Fin 128)) ?_).trans ?_
  · rw [Shape.rowMajor_val_three, Shape.rowMajor_val_two]
    show (0 * 1 + 0) * 128 + (n + (y 0).val) = (0 + 1 * 0) * 128 + (0 + 1 * (n + (y 0).val))
    omega
  -- the slice shifts the slot coordinate by `s`
  rw [View.readAt_apply]
  refine congrArg cur (funext fun a => Fin.ext ?_)
  match a with
  | ⟨0, _⟩ => show s.val + 1 * 0 = s.val; omega
  | ⟨1, _⟩ => show 0 + 1 * 0 = 0; omega
  | ⟨2, _⟩ => show 0 + 1 * (n + (y 0).val) = n + (y 0).val; omega

end Slot

/-! ## The index list of a trip

For each of the eight chunks `c` of 16 lanes, the body loads lanes `[16 c, 16 c + 16)` of the current hour-word slot and
of the current minute-word slot, and stores their index words at lanes `[16 c, 16 c + 16)` of the index list. The eight
stores tile the 128 lanes, so afterwards lane `x` of the list is the index word of hour word `x` and minute word `x` of
the current slots, whatever the list held before. -/

section IdxList
variable (d : Dev nD) (L : grid0.Coords)

/-- Sixteen hour words of slot `o0` at lane `n`, as the body loads them. -/
abbrev RD0 (o0 : Fin 3 → Nat) (h0 : ∀ a, o0 a + S1x1x128.size a ≤ S2x1x128.size a) (cur0 : Buf (Elt F) ((thr d L).loc cc0_scoped3))
    (n : Nat) (inb : ∀ a, (![n] : Fin 1 → Nat) a + S16.size a ≤ S128.size a) : Vec F S16 .i32 :=
  View.readAt (Elt F) (slotView w0V o0 h0) (Rect.unit (s := S128) ![n] S16.size inb).toLoadRect cur0

/-- Sixteen minute words of slot `o1` at lane `n`, as the body loads them. -/
abbrev RD1 (o1 : Fin 3 → Nat) (h1 : ∀ a, o1 a + S1x1x128.size a ≤ S2x1x128.size a) (cur1 : Buf (Elt F) ((thr d L).loc cc0_scoped5))
    (n : Nat) (inb : ∀ a, (![n] : Fin 1 → Nat) a + S16.size a ≤ S128.size a) : Vec F S16 .i32 :=
  View.readAt (Elt F) (slotView w1V o1 h1) (Rect.unit (s := S128) ![n] S16.size inb).toLoadRect cur1

/-- The eight stores of a trip into the index list, the last store first. -/
def idxPieces (o0 : Fin 3 → Nat) (h0 : ∀ a, o0 a + S1x1x128.size a ≤ S2x1x128.size a)
    (o1 : Fin 3 → Nat) (h1 : ∀ a, o1 a + S1x1x128.size a ≤ S2x1x128.size a)
    (cur0 : Buf (Elt F) ((thr d L).loc cc0_scoped3)) (cur1 : Buf (Elt F) ((thr d L).loc cc0_scoped5)) :
    List (View.Piece (Elt F) S128 EltTy.i32) :=
  [
    ⟨Rect.unit ![112] S16.size inb_S128_S16_112, k0_pay17 (RD0 d L o0 h0 cur0 112 inb_S128_S16_112) (RD1 d L o1 h1 cur1 112 inb_S128_S16_112)⟩,
    ⟨Rect.unit ![96] S16.size inb_S128_S16_96, k0_pay16 (RD0 d L o0 h0 cur0 96 inb_S128_S16_96) (RD1 d L o1 h1 cur1 96 inb_S128_S16_96)⟩,
    ⟨Rect.unit ![80] S16.size inb_S128_S16_80, k0_pay15 (RD0 d L o0 h0 cur0 80 inb_S128_S16_80) (RD1 d L o1 h1 cur1 80 inb_S128_S16_80)⟩,
    ⟨Rect.unit ![64] S16.size inb_S128_S16_64, k0_pay14 (RD0 d L o0 h0 cur0 64 inb_S128_S16_64) (RD1 d L o1 h1 cur1 64 inb_S128_S16_64)⟩,
    ⟨Rect.unit ![48] S16.size inb_S128_S16_48, k0_pay13 (RD0 d L o0 h0 cur0 48 inb_S128_S16_48) (RD1 d L o1 h1 cur1 48 inb_S128_S16_48)⟩,
    ⟨Rect.unit ![32] S16.size inb_S128_S16_32, k0_pay12 (RD0 d L o0 h0 cur0 32 inb_S128_S16_32) (RD1 d L o1 h1 cur1 32 inb_S128_S16_32)⟩,
    ⟨Rect.unit ![16] S16.size inb_S128_S16_16, k0_pay11 (RD0 d L o0 h0 cur0 16 inb_S128_S16_16) (RD1 d L o1 h1 cur1 16 inb_S128_S16_16)⟩,
    ⟨Rect.unit ![0] S16.size inb_S128_S16_0, k0_pay10 (RD0 d L o0 h0 cur0 0 inb_S128_S16_0) (RD1 d L o1 h1 cur1 0 inb_S128_S16_0)⟩]

variable {d L}
variable {o0 : Fin 3 → Nat} {h0 : ∀ a, o0 a + S1x1x128.size a ≤ S2x1x128.size a}
  {o1 : Fin 3 → Nat} {h1 : ∀ a, o1 a + S1x1x128.size a ≤ S2x1x128.size a}
  {cur0 : Buf (Elt F) ((thr d L).loc cc0_scoped3)} {cur1 : Buf (Elt F) ((thr d L).loc cc0_scoped5)}
  {s0 s1 : Fin 2}

/-- Lane `x` of the list as the stores leave it: the index word of the current slots' words `x`. -/
def idxLane (cur0 : Buf (Elt F) ((thr d L).loc cc0_scoped3)) (cur1 : Buf (Elt F) ((thr d L).loc cc0_scoped5)) (s0 s1 : Fin 2)
    (x : S128.Idx) : Elt F .i32 :=
  idxWord (cur0 (ix3 s0 (0 : Fin 1) (x 0 : Fin 128))) (cur1 (ix3 s1 (0 : Fin 1) (x 0 : Fin 128)))

/-- One store's payload at a lane is the list's lane under it. -/
theorem piece_lane (ho0 : o0 = ![s0.val, 0, 0]) (ho1 : o1 = ![s1.val, 0, 0])
    (n : Nat) (inb : ∀ a, (![n] : Fin 1 → Nat) a + S16.size a ≤ S128.size a) (y : S16.Idx) :
    idxWord (RD0 d L o0 h0 cur0 n inb y) (RD1 d L o1 h1 cur1 n inb y)
      = idxLane cur0 cur1 s0 s1 ((Rect.unit (s := S128) ![n] S16.size inb).emb y) := by
  have hn : n + 16 ≤ 128 := inb 0
  have hy : (y 0).val < 16 := (y 0).isLt
  have hny : n + (y 0).val < 128 := by omega
  rw [show RD0 d L o0 h0 cur0 n inb y = _ from slot0_read d L o0 h0 s0 ho0 cur0 n inb y hny,
    show RD1 d L o1 h1 cur1 n inb y = _ from slot1_read d L o1 h1 s1 ho1 cur1 n inb y hny]
  have e : (⟨n + (y 0).val, hny⟩ : Fin 128) = ((Rect.unit (s := S128) ![n] S16.size inb).emb y 0 : Fin 128) :=
    Fin.ext (by show n + (y 0).val = n + 1 * (y 0).val; omega)
  unfold idxLane
  rw [e]

/-- The list after the eight stores, read at a lane, over any prior contents. -/
theorem idxList_read (ho0 : o0 = ![s0.val, 0, 0]) (ho1 : o1 = ![s1.val, 0, 0]) (j : idxV.view.ty.Contents (Elt F)) (x : S128.Idx) :
    View.read (Elt F) idxV.view (idxV.view.writes (Elt F) j (idxPieces d L o0 h0 o1 h1 cur0 cur1)) x
      = idxWord (cur0 (ix3 s0 (0 : Fin 1) (x 0 : Fin 128))) (cur1 (ix3 s1 (0 : Fin 1) (x 0 : Fin 128))) := by
  refine View.read_writes_apply_of_pieces idxV.view j (idxLane cur0 cur1 s0 s1) _ ?_ x
    (View.cover_of_tiled _ ![16] rfl x)
  intro p hp y
  simp only [idxPieces, List.mem_cons, List.not_mem_nil, or_false] at hp
  rcases hp with rfl | rfl | rfl | rfl | rfl | rfl | rfl | rfl
  · exact (k0_pay17_apply _ _ y).trans (piece_lane ho0 ho1 112 inb_S128_S16_112 y)
  · exact (k0_pay16_apply _ _ y).trans (piece_lane ho0 ho1 96 inb_S128_S16_96 y)
  · exact (k0_pay15_apply _ _ y).trans (piece_lane ho0 ho1 80 inb_S128_S16_80 y)
  · exact (k0_pay14_apply _ _ y).trans (piece_lane ho0 ho1 64 inb_S128_S16_64 y)
  · exact (k0_pay13_apply _ _ y).trans (piece_lane ho0 ho1 48 inb_S128_S16_48 y)
  · exact (k0_pay12_apply _ _ y).trans (piece_lane ho0 ho1 32 inb_S128_S16_32 y)
  · exact (k0_pay11_apply _ _ y).trans (piece_lane ho0 ho1 16 inb_S128_S16_16 y)
  · exact (k0_pay10_apply _ _ y).trans (piece_lane ho0 ho1 0 inb_S128_S16_0 y)

/-- With the current slots' words in range, every lane of the list names a row of the table. -/
theorem idxList_lt [FloatOps F] (ho0 : o0 = ![s0.val, 0, 0]) (ho1 : o1 = ![s1.val, 0, 0])
    (hr0 : ∀ lane : Fin 128, (cur0 (ix3 s0 (0 : Fin 1) lane)).toNat ≤ 59) (hr1 : ∀ lane : Fin 128, (cur1 (ix3 s1 (0 : Fin 1) lane)).toNat ≤ 59)
    (x : S128.Idx) :
    (View.read (Elt F) idxV.view (idxV.view.writes (Elt F) idxV.view.junk (idxPieces d L o0 h0 o1 h1 cur0 cur1)) x).toNat < 4608 := by
  rw [idxList_read ho0 ho1]
  exact idxWord_lt (hr0 _) (hr1 _)

/-- The same bound, written with the table's extent on the gathered axis. -/
theorem idxList_lt_axis [FloatOps F] (ho0 : o0 = ![s0.val, 0, 0]) (ho1 : o1 = ![s1.val, 0, 0])
    (hr0 : ∀ lane : Fin 128, (cur0 (ix3 s0 (0 : Fin 1) lane)).toNat ≤ 59) (hr1 : ∀ lane : Fin 128, (cur1 (ix3 s1 (0 : Fin 1) lane)).toNat ≤ 59)
    (x : S128.Idx) :
    (View.read (Elt F) idxV.view (idxV.view.writes (Elt F) idxV.view.junk (idxPieces d L o0 h0 o1 h1 cur0 cur1)) x).toNat
      < S4608x128.size gathers_S4608x128_S128x128.axis :=
  idxList_lt ho0 ho1 hr0 hr1 x

end IdxList

end Cert.Kernel.Hand

end
-- ==== Proof.Bits.OutBlock.lean ====
/-
  The value of one block of the result.

  In one trip of the pipeline a tile forms 128 index words from the block's hour and minute words, gathers the rows of
  the shared table those words name into a staging slot, and copies the slot out to the block's 128 rows of the flat
  result. This module follows one entry of the block back through those three steps.

  * Geometry. The window the copy writes, rows `[128 B, 128 B + 128)` and every column, is block `B` of the cut of the
    result into 25600 blocks; its entry `(r, c)` is the result's entry `(128 B + r, c)`.
  * The copy moves what the gather has just put in the slot, unchanged.
  * The gather's entry `(r, c)` is the table's entry at the row that lane `r` of the index list names, column `c`.
  * That lane holds `64 · hour + minute` for the block's `r`-th hour and minute words, both at most 59; a right table
    holds at that row the hour table's row `hour` plus the minute table's row `minute`.
  * The block's `r`-th words are the flat word lists' entries at position `128 B + r`, so this is exactly what the flat
    result is defined to hold at `(128 B + r, c)`.
-/
import proofs.«204352_g17334488006705_cont_7to1_713_23_alg».proof.Proof.Bits.Common
import proofs.«204352_g17334488006705_cont_7to1_713_23_alg».proof.Proof.Bits.ValueBridge
import proofs.«204352_g17334488006705_cont_7to1_713_23_alg».proof.Proof.Bits.TileOpen
import proofs.«204352_g17334488006705_cont_7to1_713_23_alg».proof.Proof.Bits.PipeWords
import proofs.«204352_g17334488006705_cont_7to1_713_23_alg».proof.Proof.Bits.IdxList
import Idealize.ShloMosaic.Lib.Writes
import Idealize.ShloMosaic.Lib.SparseCore.Stream

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

section
variable (d : Dev nD) (L : grid0.Coords)
/-- The window of 128 rows the copy out writes is block `B` of the flat result. -/
theorem set_oWin (B : Fin 25600) (offO : Fin 2 → Nat) (hO : ∀ a, offO a + S128x128.size a ≤ S3276800x128.size a)
    (hoff : offO = ![128 * B.val, 0]) :
    ((oV).slice (Rect.unit (s := S3276800x128) offO S128x128.size hO) (fun _ => rfl)).view.set = oblk B := by
  subst hoff
  refine (View.set_slice_whole main_v6_scv (Rect.unit (s := S3276800x128) ![128 * B.val, 0] S128x128.size hO)).trans ?_
  ext i
  rw [Rect.mem_set_unit, Rect.mem_set_unit]
  have hB := B.isLt
  -- both sides say: row in [128 B, 128 B + 128), column in [0, 128)
  constructor
  · intro h a
    have ha := h a
    match a with
    | ⟨0, _⟩ =>
      change 128 * B.val ≤ (i 0).val ∧ (i 0).val < 128 * B.val + 128 at ha
      show B.val * 128 ≤ (i 0).val ∧ (i 0).val < B.val * 128 + 128
      omega
    | ⟨1, _⟩ =>
      change 0 ≤ (i 1).val ∧ (i 1).val < 0 + 128 at ha
      show 0 * 128 ≤ (i 1).val ∧ (i 1).val < 0 * 128 + 128
      omega
  · intro h a
    have ha := h a
    match a with
    | ⟨0, _⟩ =>
      change B.val * 128 ≤ (i 0).val ∧ (i 0).val < B.val * 128 + 128 at ha
      show 128 * B.val ≤ (i 0).val ∧ (i 0).val < 128 * B.val + 128
      omega
    | ⟨1, _⟩ =>
      change 0 * 128 ≤ (i 1).val ∧ (i 1).val < 0 * 128 + 128 at ha
      show 0 ≤ (i 1).val ∧ (i 1).val < 0 + 128
      omega

/-- Reading the whole table through the gather's source window (all rows, all columns, from the origin) is reading the table. -/
theorem whole_read (g : Buf (Elt F) (shLoc d (cV L))) (hs : ∀ a, (Rect.unit (s := S4608x128) ![0, 0] S4608x128.size inb_S4608x128_S4608x128_0_0).stride a = 1) :
    View.read (Elt F) ((shV).slice (Rect.unit ![0, 0] S4608x128.size inb_S4608x128_S4608x128_0_0) hs).view g = g := by
  funext y
  rw [View.read_apply]
  have e : ((shV).slice (Rect.unit ![0, 0] S4608x128.size inb_S4608x128_S4608x128_0_0) hs).view.emb y = y := by
    funext a
    apply Fin.ext
    match a with
    | ⟨0, _⟩ => show 0 + 1 * (y 0).val = (y 0).val; omega
    | ⟨1, _⟩ => show 0 + 1 * (y 1).val = (y 1).val; omega
  rw [e]
  rfl

/-- The table index a gathered entry comes from: the row the list names for the entry's row, the entry's own column. -/
theorem gather_idx (r : Fin (S128x128.size gathers_S4608x128_S128x128.axis') → Fin (S4608x128.size gathers_S4608x128_S128x128.axis)) (x : S128x128.Idx) :
    gathers_S4608x128_S128x128.idx r x = ix2 (r (x 0)) (x 1) := by
  funext b
  apply Fin.ext
  match b with
  | ⟨0, _⟩ => exact congrArg Fin.val (Shape.Gathers.idx_axis gathers_S4608x128_S128x128 r x)
  | ⟨1, _⟩ => exact Shape.Gathers.idx_of_ne gathers_S4608x128_S128x128 r x ⟨1, by decide⟩ (by decide)

/-- The row the list names for entry `k`: the number its `k`-th word spells (a list of rank one: position `k` is lane `k`). -/
theorem rows_apply (idx : S128.Idx → Elt F .i32) (hn : S128.numel = S128x128.size gathers_S4608x128_S128x128.axis')
    (hin : ∀ x, (idx x).toNat < S4608x128.size gathers_S4608x128_S128x128.axis) (k : Fin 128) :
    (SparseCore.rows idx hn hin k).val = (idx (ix1 k)).toNat := by
  unfold SparseCore.rows
  show (idx _).toNat = _
  congr 2
  rw [Equiv.symm_apply_eq]
  apply Fin.ext
  rw [Shape.rowMajor_val_one]
  rfl

/-- The copy out, as a statement about positions: if entry `(r, c)` of what is copied is `G` at row `128 B + r`, column `c`,
    then after the copy the result array agrees with `G` on all of block `B`. -/
theorem block_of_copy (B : Fin 25600) (offO : Fin 2 → Nat) (hO : ∀ a, offO a + S128x128.size a ≤ S3276800x128.size a)
    (hoff : offO = ![128 * B.val, 0]) (fo G : Buf (Elt F) (oLoc d)) (C : S128x128.Idx → Elt F .f32)
    (hC : ∀ x : S128x128.Idx, C x = G (ix2 (⟨128 * B.val + (x 0).val, by have := B.isLt; have : (x 0).val < 128 := (x 0).isLt; omega⟩ : Fin 3276800) (x 1 : Fin 128))) :
    ∀ i ∈ oblk B, (((oV).slice (Rect.unit (s := S3276800x128) offO S128x128.size hO) (fun _ => rfl)).view.writes (Elt F) fo
        [⟨Rect.whole S128x128, C⟩]) i = G i := by
  intro i hi
  rw [← set_oWin B offO hO hoff] at hi
  obtain ⟨x, -, rfl⟩ := Finset.mem_map.mp hi
  subst hoff
  have hread := View.read_writes_cons_emb ((oV).slice (Rect.unit (s := S3276800x128) ![128 * B.val, 0] S128x128.size hO) (fun _ => rfl)).view fo
    (Rect.whole S128x128) C [] x
  have e : (Rect.whole S128x128).emb x = x := Rect.emb_whole_apply S128x128 x
  rw [e, View.read_apply] at hread
  have epos : ((oV).slice (Rect.unit (s := S3276800x128) ![128 * B.val, 0] S128x128.size hO) (fun _ => rfl)).view.emb x
      = ix2 (⟨128 * B.val + (x 0).val, by have := B.isLt; have : (x 0).val < 128 := (x 0).isLt; omega⟩ : Fin 3276800) (x 1 : Fin 128) := by
    funext a
    apply Fin.ext
    match a with
    | ⟨0, _⟩ => show 128 * B.val + 1 * (x 0).val = 128 * B.val + (x 0).val; omega
    | ⟨1, _⟩ => show 0 + 1 * (x 1).val = (x 1).val; omega
  exact Eq.trans (by rfl) (hread.trans ((hC x).trans (congrArg G epos.symm)))

/-- The value half: entry `(r, c)` of what the trip copies out. The copy reads the staging slot the gather has just
    filled, so it is the gathered entry; the gather took it from the table row that lane `r` of the index list names,
    column `c`; that lane holds `64 · hour + minute` of the block's `r`-th hour and minute words; a right table holds
    there the hour row plus the minute row, which is the flat result at position `128 B + r`. -/
theorem copy_value [FloatOps F] (B : Fin 25600)
    (a1 : FVec F S60x128 .f32) (a2 : FVec F S72x128 .f32) (x0 x1 : IVec S1x3276800 32)
    (g : Buf (Elt F) (shLoc d (cV L))) (hg : ∀ R, TabOK a1 a2 g R)
    (cur0 : Buf (Elt F) ((thr d L).loc cc0_scoped3)) (cur1 : Buf (Elt F) ((thr d L).loc cc0_scoped5))
    (fs : Buf (Elt F) ((thr d L).loc cc0_scoped7))
    (s0 s1 : Fin 2)
    (o0 : Fin 3 → Nat) (h0 : ∀ a, o0 a + S1x1x128.size a ≤ S2x1x128.size a) (ho0 : o0 = ![s0.val, 0, 0])
    (o1 : Fin 3 → Nat) (h1 : ∀ a, o1 a + S1x1x128.size a ≤ S2x1x128.size a) (ho1 : o1 = ![s1.val, 0, 0])
    (hw0 : ∀ lane : Fin 128, cur0 (ix3 s0 (0 : Fin 1) lane) = x0 (ix2 (0 : Fin 1) (⟨128 * B.val + lane.val, by omega⟩ : Fin 3276800)))
    (hw1 : ∀ lane : Fin 128, cur1 (ix3 s1 (0 : Fin 1) lane) = x1 (ix2 (0 : Fin 1) (⟨128 * B.val + lane.val, by omega⟩ : Fin 3276800)))
    (hx0 : ∀ j, (x0 j).toNat ≤ 59) (hx1 : ∀ j, (x1 j).toNat ≤ 59)
    (o43 o44 : Fin 3 → Nat) (h43 : ∀ a, o43 a + S1x128x128.size a ≤ S2x128x128.size a) (h44 : ∀ a, o44 a + S1x128x128.size a ≤ S2x128x128.size a)
    (ho : o43 = o44)
    (hsW : ∀ a, (Rect.unit (s := S4608x128) ![0, 0] S4608x128.size inb_S4608x128_S4608x128_0_0).stride a = 1)
    (hn : S128.numel = S128x128.size gathers_S4608x128_S128x128.axis')
    (hin : ∀ x, (View.read (Elt F) idxV.view (idxV.view.writes (Elt F) idxV.view.junk (idxPieces d L o0 h0 o1 h1 cur0 cur1)) x).toNat < S4608x128.size gathers_S4608x128_S128x128.axis)
    (x : S128x128.Idx) :
    ReadAs.same.apply (View.read (Elt F) (((stgV).slice (Rect.unit (s := S2x128x128) o44 S1x128x128.size h44) (fun _ => rfl)).squeeze S128x128 squeezes_S1x128x128_S128x128).view
        (View.write (Elt F) (((stgV).slice (Rect.unit (s := S2x128x128) o43 S1x128x128.size h43) (fun _ => rfl)).squeeze S128x128 squeezes_S1x128x128_S128x128).view fs
          (SparseCore.gatherPayload gathers_S4608x128_S128x128
            (View.read (Elt F) ((shV).slice (Rect.unit ![0, 0] S4608x128.size inb_S4608x128_S4608x128_0_0) hsW).view g)
            (SparseCore.rows (View.read (Elt F) idxV.view (idxV.view.writes (Elt F) idxV.view.junk (idxPieces d L o0 h0 o1 h1 cur0 cur1))) hn hin))
          Finset.univ)) x
      = OutFlat (F := F) a1 a2 x0 x1 (ix2 (⟨128 * B.val + (x 0).val, by have := B.isLt; have : (x 0).val < 128 := (x 0).isLt; omega⟩ : Fin 3276800) (x 1 : Fin 128)) := by
  subst ho
  -- the copy reads the slot the gather has just filled
  refine (congrFun (View.read_write_univ (v := (((stgV).slice (Rect.unit (s := S2x128x128) o43 S1x128x128.size h43) (fun _ => rfl)).squeeze S128x128 squeezes_S1x128x128_S128x128).view) fs _) x).trans ?_
  -- the gathered entry: the table at the row the list names for row `x 0`, column `x 1`
  show View.read (Elt F) ((shV).slice (Rect.unit ![0, 0] S4608x128.size inb_S4608x128_S4608x128_0_0) hsW).view g
      (gathers_S4608x128_S128x128.idx (SparseCore.rows (View.read (Elt F) idxV.view (idxV.view.writes (Elt F) idxV.view.junk (idxPieces d L o0 h0 o1 h1 cur0 cur1))) hn hin) x) = _
  refine (congrFun (whole_read d L g hsW) _).trans ?_
  refine (congrArg g (gather_idx _ x)).trans ?_
  -- that row is the index word of the block's hour word and minute word at lane `x 0`
  have hR : (SparseCore.rows (View.read (Elt F) idxV.view (idxV.view.writes (Elt F) idxV.view.junk (idxPieces d L o0 h0 o1 h1 cur0 cur1))) hn hin (x 0)).val
      = (idxWord (cur0 (ix3 s0 (0 : Fin 1) (x 0 : Fin 128))) (cur1 (ix3 s1 (0 : Fin 1) (x 0 : Fin 128)))).toNat :=
    (rows_apply _ hn hin (x 0)).trans (congrArg BitVec.toNat (idxList_read ho0 ho1 _ (ix1 (x 0 : Fin 128))))
  have hh : (cur0 (ix3 s0 (0 : Fin 1) (x 0 : Fin 128))).toNat ≤ 59 := le_of_eq_of_le (congrArg BitVec.toNat (hw0 (x 0))) (hx0 _)
  have hm : (cur1 (ix3 s1 (0 : Fin 1) (x 0 : Fin 128))).toNat ≤ 59 := le_of_eq_of_le (congrArg BitVec.toNat (hw1 (x 0))) (hx1 _)
  -- a right table holds there the hour row plus the minute row
  refine (tab_entry (hg _) hh hm (hR.trans (idxWord_toNat hh hm)) (x 1)).trans ?_
  -- and the words are the flat lists' words at position `128 B + x 0`
  exact congrArg₂ (fun u v => FloatOps.addf (a2 (ix2 (Cert.Spec.row 72 (by norm_num) u) (x 1 : Fin 128))) (a1 (ix2 (Cert.Spec.row 60 (by norm_num) v) (x 1 : Fin 128))))
    (hw0 (x 0)) (hw1 (x 0))

/-- One block of the result after a trip's copy out: on all of block `B`, the result array holds the flat result. -/
theorem block_value [FloatOps F] (B : Fin 25600)
    (a1 : FVec F S60x128 .f32) (a2 : FVec F S72x128 .f32) (x0 x1 : IVec S1x3276800 32)
    (g : Buf (Elt F) (shLoc d (cV L))) (hg : ∀ R, TabOK a1 a2 g R)
    (cur0 : Buf (Elt F) ((thr d L).loc cc0_scoped3)) (cur1 : Buf (Elt F) ((thr d L).loc cc0_scoped5))
    (fs : Buf (Elt F) ((thr d L).loc cc0_scoped7)) (fo : Buf (Elt F) (oLoc d))
    (s0 s1 : Fin 2)
    (o0 : Fin 3 → Nat) (h0 : ∀ a, o0 a + S1x1x128.size a ≤ S2x1x128.size a) (ho0 : o0 = ![s0.val, 0, 0])
    (o1 : Fin 3 → Nat) (h1 : ∀ a, o1 a + S1x1x128.size a ≤ S2x1x128.size a) (ho1 : o1 = ![s1.val, 0, 0])
    (hw0 : ∀ lane : Fin 128, cur0 (ix3 s0 (0 : Fin 1) lane) = x0 (ix2 (0 : Fin 1) (⟨128 * B.val + lane.val, by omega⟩ : Fin 3276800)))
    (hw1 : ∀ lane : Fin 128, cur1 (ix3 s1 (0 : Fin 1) lane) = x1 (ix2 (0 : Fin 1) (⟨128 * B.val + lane.val, by omega⟩ : Fin 3276800)))
    (hx0 : ∀ j, (x0 j).toNat ≤ 59) (hx1 : ∀ j, (x1 j).toNat ≤ 59)
    (o43 o44 : Fin 3 → Nat) (h43 : ∀ a, o43 a + S1x128x128.size a ≤ S2x128x128.size a) (h44 : ∀ a, o44 a + S1x128x128.size a ≤ S2x128x128.size a)
    (ho : o43 = o44)
    (offO : Fin 2 → Nat) (hO : ∀ a, offO a + S128x128.size a ≤ S3276800x128.size a) (hoff : offO = ![128 * B.val, 0])
    (hsW : ∀ a, (Rect.unit (s := S4608x128) ![0, 0] S4608x128.size inb_S4608x128_S4608x128_0_0).stride a = 1)
    (hn : S128.numel = S128x128.size gathers_S4608x128_S128x128.axis')
    (hin : ∀ x, (View.read (Elt F) idxV.view (idxV.view.writes (Elt F) idxV.view.junk (idxPieces d L o0 h0 o1 h1 cur0 cur1)) x).toNat < S4608x128.size gathers_S4608x128_S128x128.axis) :
    ∀ i ∈ oblk B,
      (((oV).slice (Rect.unit (s := S3276800x128) offO S128x128.size hO) (fun _ => rfl)).view.writes (Elt F) fo
        [⟨Rect.whole S128x128,
          ReadAs.same.apply (View.read (Elt F) (((stgV).slice (Rect.unit (s := S2x128x128) o44 S1x128x128.size h44) (fun _ => rfl)).squeeze S128x128 squeezes_S1x128x128_S128x128).view
            (View.write (Elt F) (((stgV).slice (Rect.unit (s := S2x128x128) o43 S1x128x128.size h43) (fun _ => rfl)).squeeze S128x128 squeezes_S1x128x128_S128x128).view fs
              (SparseCore.gatherPayload gathers_S4608x128_S128x128
                (View.read (Elt F) ((shV).slice (Rect.unit ![0, 0] S4608x128.size inb_S4608x128_S4608x128_0_0) hsW).view g)
                (SparseCore.rows (View.read (Elt F) idxV.view (idxV.view.writes (Elt F) idxV.view.junk (idxPieces d L o0 h0 o1 h1 cur0 cur1))) hn hin))
              Finset.univ))⟩]) i
      = OutFlat (F := F) a1 a2 x0 x1 i :=
  block_of_copy d B offO hO hoff fo (OutFlat (F := F) a1 a2 x0 x1) _ fun x =>
    copy_value d L B a1 a2 x0 x1 g hg cur0 cur1 fs s0 s1 o0 h0 ho0 o1 h1 ho1 hw0 hw1 hx0 hx1 o43 o44 h43 h44 ho hsW hn hin x

/-! ## The windows of a trip, by block number

The copy out of trip `k` of tile number `t` writes block `800 t + k`; the wait of trip `k > 0` is for block `800 t + k − 1`;
the wait after the loop is for the tile's last block. -/

theorem off45_blk (k : Fin k0_t2_loop.trips) :
    k0_off45 L (A19 k.val) = ![128 * (blkNo (tL L) ⟨k.val, trip_lt k⟩).val, 0] := by
  rw [off45_eq]
  have e : (blkNo (tL L) ⟨k.val, trip_lt k⟩).val = 800 * ((L 1).val + 16 * (L 0).val) + k.val := by
    show ((L 1).val + 16 * (L 0).val) * 800 + k.val = _
    omega
  rw [e]

theorem off48_blk (k : Fin k0_t2_loop.trips) (hk : 0 < k.val) :
    k0_off48 L (A19 k.val) = ![128 * (blkNo (tL L) ⟨k.val - 1, by have := trip_lt k; omega⟩).val, 0] := by
  rw [off48_eq L k hk]
  have e : (blkNo (tL L) ⟨k.val - 1, by have := trip_lt k; omega⟩).val = 800 * ((L 1).val + 16 * (L 0).val) + k.val - 1 := by
    show ((L 1).val + 16 * (L 0).val) * 800 + (k.val - 1) = _
    omega
  rw [e]

theorem off51_blk : k0_off51 L 0#32 = ![128 * (blkNo (tL L) ⟨799, by omega⟩).val, 0] := by
  rw [off51_eq]
  have e : (blkNo (tL L) ⟨799, by omega⟩).val = 800 * ((L 1).val + 16 * (L 0).val) + 799 := by
    show ((L 1).val + 16 * (L 0).val) * 800 + 799 = _
    omega
  rw [e]

end
end Cert.Kernel.Hand
end
-- ==== Proof.Bits.PipeInv.lean ====
/-
  The pipeline of one tile: the invariant of its 800 trips.

  Block `k` of the tile (number `800 t + k` among all blocks) goes through three double-buffered stages, the slot of
  every stage being the trip number modulo two:
    * its 128 hour words and 128 minute words are fetched into slot `k % 2` of the two word buffers — started one trip
      ahead (or before the loop for block 0), awaited in trip `k`;
    * trip `k` forms the 128 index words, gathers those rows of the table into slot `k % 2` of the staging buffer and
      starts the copy of that slot out to the block's 128 rows of the result;
    * that copy is awaited in trip `k + 1` (the last one after the loop).
  So before trip `k`: the fetches of block `k` are in flight into slot `k % 2`, slot `(k + 1) % 2` of the word buffers is
  free, staging slot `k % 2` is free, the copy-out of block `k - 1` is in flight from staging slot `(k + 1) % 2`, blocks
  before `k - 1` hold their final contents and blocks from `k` on are untouched.
-/
import proofs.«204352_g17334488006705_cont_7to1_713_23_alg».proof.Proof.Bits.Common
import proofs.«204352_g17334488006705_cont_7to1_713_23_alg».proof.Proof.Bits.PipeIface
import proofs.«204352_g17334488006705_cont_7to1_713_23_alg».proof.Proof.Bits.SlotSplit
import proofs.«204352_g17334488006705_cont_7to1_713_23_alg».proof.Proof.Bits.WordsLand
import proofs.«204352_g17334488006705_cont_7to1_713_23_alg».proof.Proof.Bits.OutBlock

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## Slots, windows and cells, named by offsets -/

abbrev xWin (M : Memref sig .scVector .hbm S1x3276800 .i32) (off : Fin 2 → Nat) (h : ∀ a, off a + S1x128.size a ≤ S1x3276800.size a) : Memref sig .scVector .hbm S1x128 .i32 :=
  M.slice (Rect.unit (s := S1x3276800) off S1x128.size h) (fun _ => rfl)
abbrev oWin (off : Fin 2 → Nat) (h : ∀ a, off a + S128x128.size a ≤ S3276800x128.size a) : Memref sig .scVector .hbm S128x128 .f32 :=
  (oV).slice (Rect.unit (s := S3276800x128) off S128x128.size h) (fun _ => rfl)
abbrev semAt (A : DmaSems sig S2) (off : Fin 1 → Nat) (h : ∀ a, off a + S1.size a ≤ S2.size a) : SemLoc sig :=
  .dma ((A.slice (Rect.unit (s := S2) off S1.size h)).squeeze S_ squeezes_S1_S_).sem

/-- The offsets of slot `s % 2` of a two-slot buffer, and of a two-cell semaphore array. -/
abbrev slot1 (s : ℕ) : Fin 1 → Nat := ![s % 2]
omit [FloatOps F] in
theorem slot1_inb (s : ℕ) : ∀ a, slot1 s a + S1.size a ≤ S2.size a := by
  intro a; have := Nat.mod_lt s (show 0 < 2 by norm_num); fin_cases a; simp [slot1]; omega

/-- Slot `s % 2` of a word buffer, of the staging buffer, and cell `s % 2` of a semaphore pair. -/
abbrev cellC (A : DmaSems sig S2) (s : ℕ) : SemLoc sig := semAt A (slot1 s) (slot1_inb s)

omit [FloatOps F] in
theorem wSlot_congr (M : Memref sig .scVector .vmem S2x1x128 .i32) {o o' : Fin 3 → Nat} (e : o = o') (h : ∀ a, o a + S1x1x128.size a ≤ S2x1x128.size a)
    (h' : ∀ a, o' a + S1x1x128.size a ≤ S2x1x128.size a) : wSlot M o h = wSlot M o' h' := by subst e; rfl
omit [FloatOps F] in
theorem sSlot_congr {o o' : Fin 3 → Nat} (e : o = o') (h : ∀ a, o a + S1x128x128.size a ≤ S2x128x128.size a)
    (h' : ∀ a, o' a + S1x128x128.size a ≤ S2x128x128.size a) : sSlot o h = sSlot o' h' := by subst e; rfl
omit [FloatOps F] in
theorem semAt_congr (A : DmaSems sig S2) {o o' : Fin 1 → Nat} (e : o = o') (h : ∀ a, o a + S1.size a ≤ S2.size a)
    (h' : ∀ a, o' a + S1.size a ≤ S2.size a) : semAt A o h = semAt A o' h' := by subst e; rfl
omit [FloatOps F] in
theorem slot3_add_two (s : ℕ) : slot3 (s + 2) = slot3 s := by unfold slot3; rw [Nat.add_mod_right]
omit [FloatOps F] in
theorem slot1_add_two (s : ℕ) : slot1 (s + 2) = slot1 s := by unfold slot1; rw [Nat.add_mod_right]

/-! ## The invariant -/

/-- The carried words before trip `k`. -/
abbrev accAt (k : ℕ) : BitVec 32 × BitVec 32 × BitVec 32 × BitVec 32 × BitVec 32 × BitVec 32 × BitVec 32 :=
  (A13 k, A14 k, A13 k, A14 k, A14 k, A18 k, A19 k)

/-- A word slot holds block `B`'s 128 words of `x` in slot `s % 2`. -/
def WordsOK (x : IVec S1x3276800 32) (B : ℕ) (s : ℕ) (cur : IVec S2x1x128 32) : Prop :=
  ∀ lane : Fin 128, cur (ix3 (⟨s % 2, Nat.mod_lt _ (by norm_num)⟩ : Fin 2) (0 : Fin 1) lane) = x (ix2 (0 : Fin 1) (⟨(128 * B + lane.val) % 3276800, Nat.mod_lt _ (by norm_num)⟩ : Fin 3276800))

/-- The number of the tile's block `k` among all blocks, as a natural number. -/
abbrev blkN (L : grid0.Coords) (k : ℕ) : ℕ := 800 * ((L 1).val + 16 * (L 0).val) + k

/-- The hour-word stream before trip `k`: what is left of its read share, the fetch of block `k` in flight into slot `k % 2` from
    the block's window of the flattened words (after the last trip: that slot free), and slot `(k + 1) % 2` free. -/
def inStream0 (X : IVec S1x3276800 32) (k : ℕ) : sProp 𝕄 :=
  iprop((x0Loc d ↦{shareDrop (inTok (tL L)) (k + 1)} X)
    ∗ (if h : k < 800 then
        iprop(∃ cur : IVec S2x1x128 32, ⌜WordsOK X (blkN L k) k cur⌝
          ∗ Transfers.Flight countersEmb (thr d L) (cellC cc0_scoped4 k) (default : HIx 1) 4096
              iprop(((wSlotC w0V k).view.loc (thr d L) ↦[(wSlotC w0V k).view.set]{fullShare} cur)
                ∗ ((xWin x0V (k0_off36 L (A19 k)) (off36_inb L ⟨k, by rw [trips_eq]; exact h⟩)).view.loc (thr d L)
                    ↦[(xWin x0V (k0_off36 L (A19 k)) (off36_inb L ⟨k, by rw [trips_eq]; exact h⟩)).view.set]{Transfers.shareTokN (inTok (tL L)) k} X)))
      else iprop((∃ cur : IVec S2x1x128 32, (wSlotC w0V k).view.loc (thr d L) ↦[(wSlotC w0V k).view.set]{fullShare} cur) ∗ semVal (thr d L, cellC cc0_scoped4 k) 0))
    ∗ (∃ f : IVec S2x1x128 32, (wSlotC w0V (k + 1)).view.loc (thr d L) ↦[(wSlotC w0V (k + 1)).view.set]{fullShare} f)
    ∗ semVal (thr d L, cellC cc0_scoped4 (k + 1)) 0)

/-- The minute-word stream before trip `k`: what is left of its read share, the fetch of block `k` in flight into slot `k % 2` from
    the block's window of the flattened words (after the last trip: that slot free), and slot `(k + 1) % 2` free. -/
def inStream1 (X : IVec S1x3276800 32) (k : ℕ) : sProp 𝕄 :=
  iprop((x1Loc d ↦{shareDrop (inTok (tL L)) (k + 1)} X)
    ∗ (if h : k < 800 then
        iprop(∃ cur : IVec S2x1x128 32, ⌜WordsOK X (blkN L k) k cur⌝
          ∗ Transfers.Flight countersEmb (thr d L) (cellC cc0_scoped6 k) (default : HIx 1) 4096
              iprop(((wSlotC w1V k).view.loc (thr d L) ↦[(wSlotC w1V k).view.set]{fullShare} cur)
                ∗ ((xWin x1V (k0_off39 L (A19 k)) (off39_inb L ⟨k, by rw [trips_eq]; exact h⟩)).view.loc (thr d L)
                    ↦[(xWin x1V (k0_off39 L (A19 k)) (off39_inb L ⟨k, by rw [trips_eq]; exact h⟩)).view.set]{Transfers.shareTokN (inTok (tL L)) k} X)))
      else iprop((∃ cur : IVec S2x1x128 32, (wSlotC w1V k).view.loc (thr d L) ↦[(wSlotC w1V k).view.set]{fullShare} cur) ∗ semVal (thr d L, cellC cc0_scoped6 k) 0))
    ∗ (∃ f : IVec S2x1x128 32, (wSlotC w1V (k + 1)).view.loc (thr d L) ↦[(wSlotC w1V (k + 1)).view.set]{fullShare} f)
    ∗ semVal (thr d L, cellC cc0_scoped6 (k + 1)) 0)

/-- The result side before trip `k`: staging slot `k % 2` free, the copy-out of block `k - 1` in flight from slot
    `(k + 1) % 2` (before the first trip: that slot free), the blocks before `k - 1` final, those from `k` on untouched. -/
def outStream (k : ℕ) : sProp 𝕄 :=
  iprop((∃ f : FVec F S2x128x128 .f32, (sSlotC k).view.loc (thr d L) ↦[(sSlotC k).view.set]{fullShare} f)
    ∗ semVal (thr d L, cellC cc0_scoped8 k) 0
    ∗ (if 0 < k then
        iprop(∃ (f : FVec F S2x128x128 .f32) (B : Fin 25600), ⌜B.val = blkN L (k - 1)⌝
          ∗ Transfers.Flight countersEmb (thr d L) (cellC cc0_scoped8 (k + 1)) (default : HIx 1) 524288
              iprop((oLoc d ↦[oblk B]{fullShare} OUTv m X0v X1v d)
                ∗ ((sSlotC (k + 1)).view.loc (thr d L) ↦[(sSlotC (k + 1)).view.set]{fullShare} f)))
      else iprop((∃ f : FVec F S2x128x128 .f32, (sSlotC (k + 1)).view.loc (thr d L) ↦[(sSlotC (k + 1)).view.set]{fullShare} f)
            ∗ semVal (thr d L, cellC cc0_scoped8 (k + 1)) 0))
    ∗ (bigSep (Finset.univ.filter fun b : Fin 800 => k ≤ b.val) fun b => iprop(∃ f, oLoc d ↦[oblk (blkNo (tL L) b)]{fullShare} f))
    ∗ (bigSep (Finset.univ.filter fun b : Fin 800 => b.val + 1 < k) fun b => oLoc d ↦[oblk (blkNo (tL L) b)]{fullShare} OUTv m X0v X1v d))

/-- Before trip `k` of the pipeline. -/
def inv2 (g : Buf (Elt F) (shLoc d (cV L))) (O : CellTallies nD τ sig (HIx 1)) (W : Waits sig (HIx 1)) (k : ℕ)
    (acc : BitVec 32 × BitVec 32 × BitVec 32 × BitVec 32 × BitVec 32 × BitVec 32 × BitVec 32) : sProp 𝕄 :=
  iprop(⌜acc = accAt k⌝ ∗ Transfers.MayWaits (thr d L) (default : HIx 1) O
    ∗ ((shV).view.loc (thr d L) ↦{shTok (jL L)} g)
    ∗ (∃ fi, (idxV).view.loc (thr d L) ↦{fullShare} fi)
    ∗ semVal (dcell d L ⟨9, by decide⟩) 0
    ∗ inStream0 (F := F) d L (X0v d) k
    ∗ inStream1 (F := F) d L (X1v d) k
    ∗ outStream m X0v X1v d L k
    ∗ ∃ W', ⌜∀ p ∈ W', p ∈ W ∨ p.2 = none⌝ ∗ owes (thr d L) O W')

/-! ## Respellings: a slot under the name the program's chain gives it at a word, and under its number -/

omit [FloatOps F] in
/-- The tile's block `k` has number `800 t + k` among all blocks. -/
theorem blkNo_val (k : Fin 800) : (blkNo (tL L) k).val = blkN L k.val := by
  show (tL L).val * 800 + k.val = 800 * ((L 1).val + 16 * (L 0).val) + k.val
  have : (tL L).val = (L 1).val + 16 * (L 0).val := rfl
  rw [this]; ring

/-- A block of the result as the program slices it is the block as the call hands it over. -/
theorem pts_oWin (off : Fin 2 → Nat) (h : ∀ a, off a + S128x128.size a ≤ S3276800x128.size a) (B : Fin 25600) (e : off = ![128 * B.val, 0]) (f : Buf (Elt F) (oLoc d)) :
    ((oWin off h).view.loc (thr d L) ↦[(oWin off h).view.set]{fullShare} f : sProp 𝕄) = oLoc d ↦[oblk B]{fullShare} f := by
  rw [set_oWin B off h e]

omit [FloatOps F] in
theorem untouched_split (k : ℕ) (hk : k < 800) : (Finset.univ.filter fun b : Fin 800 => k ≤ b.val) = insert (⟨k, hk⟩ : Fin 800) (Finset.univ.filter fun b : Fin 800 => k + 1 ≤ b.val) := by
  ext b; simp only [Finset.mem_filter, Finset.mem_univ, true_and, Finset.mem_insert, Fin.ext_iff]; omega
omit [FloatOps F] in
theorem done_split (k : ℕ) (hk0 : 0 < k) (hk : k ≤ 800) : (Finset.univ.filter fun b : Fin 800 => b.val + 1 < k + 1) = insert (⟨k - 1, by omega⟩ : Fin 800) (Finset.univ.filter fun b : Fin 800 => b.val + 1 < k) := by
  ext b; simp only [Finset.mem_filter, Finset.mem_univ, true_and, Finset.mem_insert, Fin.ext_iff]; omega

theorem w0_open (s : ℕ) {o : Fin 3 → Nat} (e : slot3 s = o) (h : ∀ a, o a + S1x1x128.size a ≤ S2x1x128.size a) :
    iprop(∃ f : IVec S2x1x128 32, (wSlotC w0V s).view.loc (thr d L) ↦[(wSlotC w0V s).view.set]{fullShare} f)
      ⊢ (iprop(∃ f : IVec S2x1x128 32, (wSlot w0V o h).view.loc (thr d L) ↦[(wSlot w0V o h).view.set]{fullShare} f) : sProp 𝕄) := by
  subst e; exact BI.Entails.refl _
theorem w0_fold (s : ℕ) {o : Fin 3 → Nat} (e : o = slot3 s) (h : ∀ a, o a + S1x1x128.size a ≤ S2x1x128.size a) (f : IVec S2x1x128 32) :
    ((wSlot w0V o h).view.loc (thr d L) ↦[(wSlot w0V o h).view.set]{fullShare} f : sProp 𝕄)
      ⊢ (wSlotC w0V s).view.loc (thr d L) ↦[(wSlotC w0V s).view.set]{fullShare} f := by
  subst e; exact BI.Entails.refl _

theorem w1_open (s : ℕ) {o : Fin 3 → Nat} (e : slot3 s = o) (h : ∀ a, o a + S1x1x128.size a ≤ S2x1x128.size a) :
    iprop(∃ f : IVec S2x1x128 32, (wSlotC w1V s).view.loc (thr d L) ↦[(wSlotC w1V s).view.set]{fullShare} f)
      ⊢ (iprop(∃ f : IVec S2x1x128 32, (wSlot w1V o h).view.loc (thr d L) ↦[(wSlot w1V o h).view.set]{fullShare} f) : sProp 𝕄) := by
  subst e; exact BI.Entails.refl _
theorem w1_fold (s : ℕ) {o : Fin 3 → Nat} (e : o = slot3 s) (h : ∀ a, o a + S1x1x128.size a ≤ S2x1x128.size a) (f : IVec S2x1x128 32) :
    ((wSlot w1V o h).view.loc (thr d L) ↦[(wSlot w1V o h).view.set]{fullShare} f : sProp 𝕄)
      ⊢ (wSlotC w1V s).view.loc (thr d L) ↦[(wSlotC w1V s).view.set]{fullShare} f := by
  subst e; exact BI.Entails.refl _

theorem st_open (s : ℕ) {o : Fin 3 → Nat} (e : slot3 s = o) (h : ∀ a, o a + S1x128x128.size a ≤ S2x128x128.size a) :
    iprop(∃ f : FVec F S2x128x128 .f32, (sSlotC s).view.loc (thr d L) ↦[(sSlotC s).view.set]{fullShare} f)
      ⊢ (iprop(∃ f : FVec F S2x128x128 .f32, (sSlot o h).view.loc (thr d L) ↦[(sSlot o h).view.set]{fullShare} f) : sProp 𝕄) := by
  subst e; exact BI.Entails.refl _
theorem st_fold (s : ℕ) {o : Fin 3 → Nat} (e : o = slot3 s) (h : ∀ a, o a + S1x128x128.size a ≤ S2x128x128.size a) (f : FVec F S2x128x128 .f32) :
    ((sSlot o h).view.loc (thr d L) ↦[(sSlot o h).view.set]{fullShare} f : sProp 𝕄)
      ⊢ (sSlotC s).view.loc (thr d L) ↦[(sSlotC s).view.set]{fullShare} f := by
  subst e; exact BI.Entails.refl _

theorem w0_flight_open (s : ℕ) (sm : SemLoc sig) {o : Fin 3 → Nat} (e : slot3 s = o) (h : ∀ a, o a + S1x1x128.size a ≤ S2x1x128.size a) (cur : IVec S2x1x128 32) (Src : sProp 𝕄) :
    (Transfers.Flight countersEmb (thr d L) sm (default : HIx 1) 4096 iprop(((wSlotC w0V s).view.loc (thr d L) ↦[(wSlotC w0V s).view.set]{fullShare} cur) ∗ Src) : sProp 𝕄)
      ⊢ Transfers.Flight countersEmb (thr d L) sm (default : HIx 1) 4096 iprop(((wSlot w0V o h).view.loc (thr d L) ↦[(wSlot w0V o h).view.set]{fullShare} cur) ∗ Src) := by
  subst e; exact BI.Entails.refl _

theorem w1_flight_open (s : ℕ) (sm : SemLoc sig) {o : Fin 3 → Nat} (e : slot3 s = o) (h : ∀ a, o a + S1x1x128.size a ≤ S2x1x128.size a) (cur : IVec S2x1x128 32) (Src : sProp 𝕄) :
    (Transfers.Flight countersEmb (thr d L) sm (default : HIx 1) 4096 iprop(((wSlotC w1V s).view.loc (thr d L) ↦[(wSlotC w1V s).view.set]{fullShare} cur) ∗ Src) : sProp 𝕄)
      ⊢ Transfers.Flight countersEmb (thr d L) sm (default : HIx 1) 4096 iprop(((wSlot w1V o h).view.loc (thr d L) ↦[(wSlot w1V o h).view.set]{fullShare} cur) ∗ Src) := by
  subst e; exact BI.Entails.refl _

/-! ## What a trip's transfers leave -/

/-- The hour-word buffer after the prefetch of a window of the flattened words into one of its slots. -/
abbrev landed0 (o3 : Fin 3 → Nat) (h3 : ∀ a, o3 a + S1x1x128.size a ≤ S2x1x128.size a) (o2 : Fin 2 → Nat) (h2 : ∀ a, o2 a + S1x128.size a ≤ S1x3276800.size a)
    (fA : IVec S2x1x128 32) (X : IVec S1x3276800 32) : IVec S2x1x128 32 :=
  View.write (Elt F) (((w0V).slice (Rect.unit (s := S2x1x128) o3 S1x1x128.size h3) (fun _ => rfl)).squeeze S1x128 squeezes_S1x1x128_S1x128).view fA
    (ReadAs.same.apply (View.read (Elt F) ((x0V).slice (Rect.unit (s := S1x3276800) o2 S1x128.size h2) (fun _ => rfl)).view X)) Finset.univ
abbrev landed1 (o3 : Fin 3 → Nat) (h3 : ∀ a, o3 a + S1x1x128.size a ≤ S2x1x128.size a) (o2 : Fin 2 → Nat) (h2 : ∀ a, o2 a + S1x128.size a ≤ S1x3276800.size a)
    (fA : IVec S2x1x128 32) (X : IVec S1x3276800 32) : IVec S2x1x128 32 :=
  View.write (Elt F) (((w1V).slice (Rect.unit (s := S2x1x128) o3 S1x1x128.size h3) (fun _ => rfl)).squeeze S1x128 squeezes_S1x1x128_S1x128).view fA
    (ReadAs.same.apply (View.read (Elt F) ((x1V).slice (Rect.unit (s := S1x3276800) o2 S1x128.size h2) (fun _ => rfl)).view X)) Finset.univ

omit [FloatOps F] in
/-- A block number below 25600 puts its 128 positions inside the flattened words. -/
theorem blk_pos_lt {B : ℕ} (hB : B < 25600) (lane : Fin 128) : 128 * B + lane.val < 3276800 := by have := lane.isLt; omega
omit [FloatOps F] in
theorem blkN_lt (k : ℕ) (hk : k < 800) : blkN L k < 25600 := by
  have h1 := (L 1).isLt; have h0 := (L 0).isLt
  have : grid0.bound 1 = 16 := rfl
  have : grid0.bound 0 = 2 := rfl
  unfold blkN; omega

omit [FloatOps F] in
/-- The words a prefetch of block `B` into slot `s` leaves there are block `B`'s. -/
theorem landed0_ok (s : ℕ) (B : ℕ) (hB : B < 25600) (o3 : Fin 3 → Nat) (h3 : ∀ a, o3 a + S1x1x128.size a ≤ S2x1x128.size a) (ho3 : o3 = slot3 s)
    (o2 : Fin 2 → Nat) (h2 : ∀ a, o2 a + S1x128.size a ≤ S1x3276800.size a) (ho2 : o2 = ![0, 128 * B]) (fA : IVec S2x1x128 32) (X : IVec S1x3276800 32) :
    WordsOK X B s (landed0 (F := F) o3 h3 o2 h2 fA X) := by
  intro lane
  have hc : 128 * B + 128 ≤ 3276800 := by omega
  refine (words_landed0 (F := F) o3 h3 o2 h2 fA X ⟨s % 2, Nat.mod_lt _ (by norm_num)⟩ ho3 (128 * B) ho2 hc lane).trans ?_
  congr 2; exact Fin.ext (Nat.mod_eq_of_lt (blk_pos_lt hB lane)).symm
omit [FloatOps F] in
theorem landed1_ok (s : ℕ) (B : ℕ) (hB : B < 25600) (o3 : Fin 3 → Nat) (h3 : ∀ a, o3 a + S1x1x128.size a ≤ S2x1x128.size a) (ho3 : o3 = slot3 s)
    (o2 : Fin 2 → Nat) (h2 : ∀ a, o2 a + S1x128.size a ≤ S1x3276800.size a) (ho2 : o2 = ![0, 128 * B]) (fA : IVec S2x1x128 32) (X : IVec S1x3276800 32) :
    WordsOK X B s (landed1 (F := F) o3 h3 o2 h2 fA X) := by
  intro lane
  have hc : 128 * B + 128 ≤ 3276800 := by omega
  refine (words_landed1 (F := F) o3 h3 o2 h2 fA X ⟨s % 2, Nat.mod_lt _ (by norm_num)⟩ ho3 (128 * B) ho2 hc lane).trans ?_
  congr 2; exact Fin.ext (Nat.mod_eq_of_lt (blk_pos_lt hB lane)).symm

omit [FloatOps F] in
/-- A window of the flattened words under two names of one offset. -/
theorem x0win_congr {o o' : Fin 2 → Nat} (e : o = o') (h : ∀ a, o a + S1x128.size a ≤ S1x3276800.size a) (h' : ∀ a, o' a + S1x128.size a ≤ S1x3276800.size a)
    (q : PosShare TreeShare) (X : IVec S1x3276800 32) :
    ((xWin x0V o h).view.loc (thr d L) ↦[(xWin x0V o h).view.set]{q} X : sProp 𝕄) = (xWin x0V o' h').view.loc (thr d L) ↦[(xWin x0V o' h').view.set]{q} X := by
  subst e; rfl
omit [FloatOps F] in
theorem x1win_congr {o o' : Fin 2 → Nat} (e : o = o') (h : ∀ a, o a + S1x128.size a ≤ S1x3276800.size a) (h' : ∀ a, o' a + S1x128.size a ≤ S1x3276800.size a)
    (q : PosShare TreeShare) (X : IVec S1x3276800 32) :
    ((xWin x1V o h).view.loc (thr d L) ↦[(xWin x1V o h).view.set]{q} X : sProp 𝕄) = (xWin x1V o' h').view.loc (thr d L) ↦[(xWin x1V o' h').view.set]{q} X := by
  subst e; rfl

/-- The staging slot a copy-out read from, held by the elements of its squeezed view, is the slot of its number. -/
theorem stg_src_fold (s : ℕ) {o43 o44 : Fin 3 → Nat} (e43 : o43 = slot3 s) (e44 : o44 = slot3 s) (h43 : ∀ a, o43 a + S1x128x128.size a ≤ S2x128x128.size a)
    (h44 : ∀ a, o44 a + S1x128x128.size a ≤ S2x128x128.size a) (f : FVec F S2x128x128 .f32) :
    ((sSlot o43 h43).view.loc (thr d L) ↦[(((stgV).slice (Rect.unit (s := S2x128x128) o44 S1x128x128.size h44) (fun _ => rfl)).squeeze S128x128 squeezes_S1x128x128_S128x128).view.set]{fullShare} f : sProp 𝕄)
      ⊢ (sSlotC s).view.loc (thr d L) ↦[(sSlotC s).view.set]{fullShare} f := by
  subst e43 e44
  refine Entails.of_eq ?_
  congr 1
  show ((((stgV).view.slice (Rect.unit (s := S2x128x128) (slot3 s) S1x128x128.size h44)).reshape S128x128 squeezes_S1x128x128_S128x128.numel_eq).set) = _
  rw [View.set_reshape]

/-- The word slot a prefetch wrote, held by the elements of its squeezed view, is the slot of its number. -/
theorem w0_dst_fold (s : ℕ) {o : Fin 3 → Nat} (e : o = slot3 s) (h : ∀ a, o a + S1x1x128.size a ≤ S2x1x128.size a) (f : IVec S2x1x128 32) :
    ((wSlot w0V o h).view.loc (thr d L) ↦[(((w0V).slice (Rect.unit (s := S2x1x128) o S1x1x128.size h) (fun _ => rfl)).squeeze S1x128 squeezes_S1x1x128_S1x128).view.set]{fullShare} f : sProp 𝕄)
      ⊢ (wSlotC w0V s).view.loc (thr d L) ↦[(wSlotC w0V s).view.set]{fullShare} f := by
  subst e
  refine Entails.of_eq ?_
  congr 1
  show ((((w0V).view.slice (Rect.unit (s := S2x1x128) (slot3 s) S1x1x128.size h)).reshape S1x128 squeezes_S1x1x128_S1x128.numel_eq).set) = _
  rw [View.set_reshape]

/-- The word slot a prefetch wrote, held by the elements of its squeezed view, is the slot of its number. -/
theorem w1_dst_fold (s : ℕ) {o : Fin 3 → Nat} (e : o = slot3 s) (h : ∀ a, o a + S1x1x128.size a ≤ S2x1x128.size a) (f : IVec S2x1x128 32) :
    ((wSlot w1V o h).view.loc (thr d L) ↦[(((w1V).slice (Rect.unit (s := S2x1x128) o S1x1x128.size h) (fun _ => rfl)).squeeze S1x128 squeezes_S1x1x128_S1x128).view.set]{fullShare} f : sProp 𝕄)
      ⊢ (wSlotC w1V s).view.loc (thr d L) ↦[(wSlotC w1V s).view.set]{fullShare} f := by
  subst e
  refine Entails.of_eq ?_
  congr 1
  show ((((w1V).view.slice (Rect.unit (s := S2x1x128) (slot3 s) S1x1x128.size h)).reshape S1x128 squeezes_S1x1x128_S1x128.numel_eq).set) = _
  rw [View.set_reshape]

end Cert.Kernel.Hand
end
-- ==== Proof.Bits.PipeTrips.lean ====
/-
  One trip of the pipeline keeps its invariant.

  In trip `k` the tile: starts the fetch of block `k + 1`'s hour and minute words into the free slot of each word buffer
  (not in the last trip); waits for block `k`'s words; forms the 128 index words `64 · hour + minute` — each below 4608
  and with a minute below 60 because the precondition bounds the words by 59 —; gathers those rows of the table into
  the free staging slot; starts the copy of that slot out to block `k`'s rows of the result; and waits for block
  `k - 1`'s copy-out (not in the first trip). Each resource then sits where the invariant of trip `k + 1` wants it: the
  slot just read is the next prefetch's target, the slot just filled is in flight out, the staging slot whose copy-out
  landed is the next gather's target, and the landed block holds the hour row plus the minute row of each of its
  positions. The three cases (first, middle, last trip) differ only in which of the optional stages run.
-/
import proofs.«204352_g17334488006705_cont_7to1_713_23_alg».proof.Proof.Bits.PipeInv

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## One trip, in the middle of the loop -/

set_option maxHeartbeats 32000000 in
/-- A trip `0 < k < 799`: every stage runs. -/
theorem trip_mid (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk0 : 0 < k.val) (hk1 : k.val < 799)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  generalize hΦ : inv2 (F := F) m X0v X1v d L g O W (k.val + 1) = Φ
  unfold inv2 inStream0 inStream1 outStream
  rw [dif_pos hk8, dif_pos hk8, if_pos hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_lt L k hk1
  have hc2 := cond2_lt L k hk1
  have hc3 := cond3_all L k
  have hc4 := cond4_all L k
  have hc8 := cond8_all L k
  have hc11 := cond11_pos L k hk0
  have e13 : A13 k.val = BitVec.ofNat 32 (k.val + 1) := A13_eq_A14_succ hk1
  have e18 : slot3 (k.val + 1) = slot3 (k.val - 1) := by
    have : k.val + 1 = (k.val - 1) + 2 := by omega
    rw [this, slot3_add_two]
  have e18' : slot1 (k.val + 1) = slot1 (k.val - 1) := by
    have : k.val + 1 = (k.val - 1) + 2 := by omega
    rw [this, slot1_add_two]
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 k.val = semAt cc0_scoped8 (k0_off46 (A14 k.val)) (off46_inb _) from semAt_congr _ (off46_ofNat _).symm _ _,
    show cellC cc0_scoped8 (k.val + 1) = semAt cc0_scoped8 (k0_off49 (A18 k.val)) (off49_inb _) from semAt_congr _ (e18'.trans (off49_ofNat _).symm) _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨%fp, %Bp, %hBp, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hw0n := (w0_open (F := F) d L (k.val + 1) (show slot3 (k.val + 1) = k0_off29 (A13 k.val) from (e13 ▸ (off29_ofNat _).symm)) (off29_inb _)) $$ Hw0n
  icases Hw0n with ⟨%fA, Hw0n⟩
  ihave Hw1n := (w1_open (F := F) d L (k.val + 1) (show slot3 (k.val + 1) = k0_off32 (A13 k.val) from (e13 ▸ (off32_ofNat _).symm)) (off32_inb _)) $$ Hw1n
  icases Hw1n with ⟨%fA1, Hw1n⟩
  ihave Hstg := (st_open (F := F) d L k.val (show slot3 k.val = k0_off43 (A14 k.val) from (off43_ofNat _).symm) hw4) $$ Hstg
  icases Hstg with ⟨%fs, Hstg⟩
  -- a read token of each word stream for the prefetch
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  ihave Hx0t := (Entails.of_eq (pts_x0V (F := F) d L _ _).symm) $$ Hx0t
  ihave Hx1t := (Entails.of_eq (pts_x1V (F := F) d L _ _).symm) $$ Hx1t
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : k.val + 1 < 800 := by omega
  unfold inv2 inStream0 inStream1 outStream
  rw [dif_pos hk9, dif_pos hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 (k.val + 1) = semAt cc0_scoped8 (k0_off49 (A18 k.val)) (off49_inb _) from semAt_congr _ (e18'.trans (off49_ofNat _).symm) _ _]
  have hB : blkN L (k.val + 1) < 25600 := blkN_lt L _ hk9
  have e30 : k0_off30 L (A19 k.val) = ![0, 128 * blkN L (k.val + 1)] := off30_eq L k hk1
  have e33 : k0_off33 L (A19 k.val) = ![0, 128 * blkN L (k.val + 1)] := off33_eq L k hk1
  have e36 : k0_off30 L (A19 k.val) = k0_off36 L (A19 (k.val + 1)) := by rw [e30, off36_eq L ⟨k.val + 1, by have := trips_eq; omega⟩]
  have e39 : k0_off33 L (A19 k.val) = k0_off39 L (A19 (k.val + 1)) := by rw [e33, off39_eq L ⟨k.val + 1, by have := trips_eq; omega⟩]
  -- the yielded words are the next trip's
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: block k + 1 is in flight into the slot the prefetch took, the slot just read is free
  isplitl [Hx0 Hs0n F0_dst F0]
  · isplitl [Hx0]; · iexact Hx0
    isplitl [Hs0n]
    · iexists (landed0 (F := F) (k0_off29 (A13 k.val)) (off29_inb _) (k0_off30 L (A19 k.val)) (off30_inb L k) fA (X0v d))
      isplitr
      · ipureintro
        exact landed0_ok (F := F) (k.val + 1) (blkN L (k.val + 1)) hB _ _ (e13 ▸ off29_ofNat (k.val + 1)) _ _ e30 fA (X0v d)
      · iapply (Transfers.Flight_mono countersEmb (thr d L) (BI.sep_mono (w0_dst_fold (F := F) d L (k.val + 1) (e13 ▸ off29_ofNat (k.val + 1)) (off29_inb _) _)
          (Entails.of_eq (x0win_congr (F := F) d L e36 (off30_inb L k) _ _ (X0v d)))))
        iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hs1n F1_dst F1]
  · isplitl [Hx1]; · iexact Hx1
    isplitl [Hs1n]
    · iexists (landed1 (F := F) (k0_off32 (A13 k.val)) (off32_inb _) (k0_off33 L (A19 k.val)) (off33_inb L k) fA1 (X1v d))
      isplitr
      · ipureintro
        exact landed1_ok (F := F) (k.val + 1) (blkN L (k.val + 1)) hB _ _ (e13 ▸ off32_ofNat (k.val + 1)) _ _ e33 fA1 (X1v d)
      · iapply (Transfers.Flight_mono countersEmb (thr d L) (BI.sep_mono (w1_dst_fold (F := F) d L (k.val + 1) (e13 ▸ off32_ofNat (k.val + 1)) (off32_inb _) _)
          (Entails.of_eq (x1win_congr (F := F) d L e39 (off33_inb L k) _ _ (X1v d)))))
        iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  have hkm : k.val - 1 < 800 := Nat.lt_of_le_of_lt (Nat.sub_le _ _) hk8
  have hBp' : Bp = blkNo (tL L) ⟨k.val - 1, hkm⟩ := Fin.ext (hBp.trans (blkNo_val L ⟨k.val - 1, hkm⟩).symm)
  subst hBp'
  isplitl [FO_src FO HsO Hun Hdn FO_dst]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [done_split k.val hk0 (by omega), SparseCore.bigSep_insert' (by simp only [Finset.mem_filter, Finset.mem_univ, _root_.true_and]; omega)]
    isplitl [FO_dst]; · iexact FO_dst
    iexact Hdn
  -- the waits recorded
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact hW' p hp

/-! ## The first trip -/

set_option maxHeartbeats 32000000 in
/-- Trip `0`: no copy-out is in flight yet; the other staging slot and its cell stay free. -/
theorem trip_first (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk : k.val = 0)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  have hk1 : k.val < 799 := by omega
  have hk0 : ¬ 0 < k.val := by omega
  generalize hΦ : inv2 (F := F) m X0v X1v d L g O W (k.val + 1) = Φ
  unfold inv2 inStream0 inStream1 outStream
  rw [dif_pos hk8, dif_pos hk8, if_neg hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_lt L k hk1
  have hc2 := cond2_lt L k hk1
  have hc3 := cond3_all L k
  have hc4 := cond4_all L k
  have hc8 := cond8_all L k
  have hc11 := cond11_first L k hk
  have e13 : A13 k.val = BitVec.ofNat 32 (k.val + 1) := A13_eq_A14_succ hk1
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _,
    show cellC cc0_scoped8 k.val = semAt cc0_scoped8 (k0_off46 (A14 k.val)) (off46_inb _) from semAt_congr _ (off46_ofNat _).symm _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨⟨%fp, FO_src⟩, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hw0n := (w0_open (F := F) d L (k.val + 1) (show slot3 (k.val + 1) = k0_off29 (A13 k.val) from (e13 ▸ (off29_ofNat _).symm)) (off29_inb _)) $$ Hw0n
  icases Hw0n with ⟨%fA, Hw0n⟩
  ihave Hw1n := (w1_open (F := F) d L (k.val + 1) (show slot3 (k.val + 1) = k0_off32 (A13 k.val) from (e13 ▸ (off32_ofNat _).symm)) (off32_inb _)) $$ Hw1n
  icases Hw1n with ⟨%fA1, Hw1n⟩
  ihave Hstg := (st_open (F := F) d L k.val (show slot3 k.val = k0_off43 (A14 k.val) from (off43_ofNat _).symm) hw4) $$ Hstg
  icases Hstg with ⟨%fs, Hstg⟩
  -- a read token of each word stream for the prefetch
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  ihave Hx0t := (Entails.of_eq (pts_x0V (F := F) d L _ _).symm) $$ Hx0t
  ihave Hx1t := (Entails.of_eq (pts_x1V (F := F) d L _ _).symm) $$ Hx1t
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : k.val + 1 < 800 := by omega
  unfold inv2 inStream0 inStream1 outStream
  rw [dif_pos hk9, dif_pos hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped4 (k.val + 1) = semAt cc0_scoped4 (k0_off31 (A13 k.val)) (off31_inb _) from semAt_congr _ (e13 ▸ (off31_ofNat _).symm) _ _,
    show cellC cc0_scoped6 (k.val + 1) = semAt cc0_scoped6 (k0_off34 (A13 k.val)) (off34_inb _) from semAt_congr _ (e13 ▸ (off34_ofNat _).symm) _ _]
  have hB : blkN L (k.val + 1) < 25600 := blkN_lt L _ hk9
  have e30 : k0_off30 L (A19 k.val) = ![0, 128 * blkN L (k.val + 1)] := off30_eq L k hk1
  have e33 : k0_off33 L (A19 k.val) = ![0, 128 * blkN L (k.val + 1)] := off33_eq L k hk1
  have e36 : k0_off30 L (A19 k.val) = k0_off36 L (A19 (k.val + 1)) := by rw [e30, off36_eq L ⟨k.val + 1, by have := trips_eq; omega⟩]
  have e39 : k0_off33 L (A19 k.val) = k0_off39 L (A19 (k.val + 1)) := by rw [e33, off39_eq L ⟨k.val + 1, by have := trips_eq; omega⟩]
  -- the yielded words are the next trip's
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: block k + 1 is in flight into the slot the prefetch took, the slot just read is free
  isplitl [Hx0 Hs0n F0_dst F0]
  · isplitl [Hx0]; · iexact Hx0
    isplitl [Hs0n]
    · iexists (landed0 (F := F) (k0_off29 (A13 k.val)) (off29_inb _) (k0_off30 L (A19 k.val)) (off30_inb L k) fA (X0v d))
      isplitr
      · ipureintro
        exact landed0_ok (F := F) (k.val + 1) (blkN L (k.val + 1)) hB _ _ (e13 ▸ off29_ofNat (k.val + 1)) _ _ e30 fA (X0v d)
      · iapply (Transfers.Flight_mono countersEmb (thr d L) (BI.sep_mono (w0_dst_fold (F := F) d L (k.val + 1) (e13 ▸ off29_ofNat (k.val + 1)) (off29_inb _) _)
          (Entails.of_eq (x0win_congr (F := F) d L e36 (off30_inb L k) _ _ (X0v d)))))
        iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hs1n F1_dst F1]
  · isplitl [Hx1]; · iexact Hx1
    isplitl [Hs1n]
    · iexists (landed1 (F := F) (k0_off32 (A13 k.val)) (off32_inb _) (k0_off33 L (A19 k.val)) (off33_inb L k) fA1 (X1v d))
      isplitr
      · ipureintro
        exact landed1_ok (F := F) (k.val + 1) (blkN L (k.val + 1)) hB _ _ (e13 ▸ off32_ofNat (k.val + 1)) _ _ e33 fA1 (X1v d)
      · iapply (Transfers.Flight_mono countersEmb (thr d L) (BI.sep_mono (w1_dst_fold (F := F) d L (k.val + 1) (e13 ▸ off32_ofNat (k.val + 1)) (off32_inb _) _)
          (Entails.of_eq (x1win_congr (F := F) d L e39 (off33_inb L k) _ _ (X1v d)))))
        iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  isplitl [FO_src FO HsO Hun Hdn]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [show (Finset.univ.filter fun b : Fin 800 => b.val + 1 < k.val + 1) = (Finset.univ.filter fun b : Fin 800 => b.val + 1 < k.val) from by
      ext b; simp only [Finset.mem_filter, Finset.mem_univ, _root_.true_and]; omega]
    iexact Hdn
  -- the waits recorded
  iexists _; isplitr
  swap; · iexact HO
  ipureintro; intro p hp
  simp only [Finset.mem_insert] at hp
  rcases hp with rfl | rfl | rfl | hp
  · exact .inr rfl
  · exact .inr rfl
  · exact .inr rfl
  · exact hW' p hp

/-! ## The last trip -/

set_option maxHeartbeats 32000000 in
/-- Trip `799`: there is no next block to prefetch; the word slot and cell the prefetch would have taken stay free. -/
theorem trip_last (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips) (hk : k.val = 799)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  have hk8 : k.val < 800 := by omega
  have hk0 : 0 < k.val := by omega
  generalize hΦ : inv2 (F := F) m X0v X1v d L g O W (k.val + 1) = Φ
  unfold inv2 inStream0 inStream1 outStream
  rw [dif_pos hk8, dif_pos hk8, if_pos hk0]
  -- the carried words' facts
  have hw4 : k0_chk4 (A14 k.val) := chk4_all _
  have hw3 : k0_chk3 (A14 k.val) := chk3_all _
  have hw2 : k0_chk2 (A14 k.val) := chk2_all _
  have hw1 := chk1_at L k
  have hc1 := cond1_last L k hk
  have hc2 := cond2_last L k hk
  have hc3 := cond3_all L k
  have hc4 := cond4_all L k
  have hc8 := cond8_all L k
  have hc11 := cond11_pos L k hk0
  have e18 : slot3 (k.val + 1) = slot3 (k.val - 1) := by
    have : k.val + 1 = (k.val - 1) + 2 := by omega
    rw [this, slot3_add_two]
  have e18' : slot1 (k.val + 1) = slot1 (k.val - 1) := by
    have : k.val + 1 = (k.val - 1) + 2 := by omega
    rw [this, slot1_add_two]
  -- the cells as the program's chains name them at the carried words
  rw [show cellC cc0_scoped4 k.val = semAt cc0_scoped4 (k0_off37 (A14 k.val)) (off37_inb _) from semAt_congr _ (off37_ofNat _).symm _ _,
    show cellC cc0_scoped6 k.val = semAt cc0_scoped6 (k0_off40 (A14 k.val)) (off40_inb _) from semAt_congr _ (off40_ofNat _).symm _ _,
    show cellC cc0_scoped8 k.val = semAt cc0_scoped8 (k0_off46 (A14 k.val)) (off46_inb _) from semAt_congr _ (off46_ofNat _).symm _ _,
    show cellC cc0_scoped8 (k.val + 1) = semAt cc0_scoped8 (k0_off49 (A18 k.val)) (off49_inb _) from semAt_congr _ (e18'.trans (off49_ofNat _).symm) _ _]
  iintro ⟨%hacc, #Hmw, Hsh, ⟨%fi, Hidx⟩, Hs9, ⟨Hx0, ⟨%cur0, %hcur0, F0⟩, Hw0n, Hs0n⟩, ⟨Hx1, ⟨%cur1, %hcur1, F1⟩, Hw1n, Hs1n⟩, ⟨Hstg, HsO, ⟨%fp, %Bp, %hBp, FO⟩, Hun, Hdn⟩, ⟨%W', %hW', HO⟩⟩
  subst hacc
  -- the slots as the program's chains name them
  ihave F0 := (w0_flight_open (F := F) d L k.val _ (show slot3 k.val = k0_off41 (A14 k.val) from (off41_ofNat _).symm) hw2 cur0 _) $$ F0
  ihave F1 := (w1_flight_open (F := F) d L k.val _ (show slot3 k.val = k0_off42 (A14 k.val) from (off42_ofNat _).symm) hw3 cur1 _) $$ F1
  ihave Hstg := (st_open (F := F) d L k.val (show slot3 k.val = k0_off43 (A14 k.val) from (off43_ofNat _).symm) hw4) $$ Hstg
  icases Hstg with ⟨%fs, Hstg⟩
  -- the read shares are cut as in every trip (the token is not used)
  ihave Hx0s := ((pointsTo_share (PosShare.mem_left_op_right (shareDrop (inTok (tL L)) (k.val + 1)))).1) $$ Hx0
  icases Hx0s with ⟨Hx0, Hx0t⟩
  ihave Hx1s := ((pointsTo_share (PosShare.mem_left_op_right (shareDrop (inTok (tL L)) (k.val + 1)))).1) $$ Hx1
  icases Hx1s with ⟨Hx1, Hx1t⟩
  -- block k of the result, as the program slices it
  ihave Hun' := (Entails.of_eq (by rw [untouched_split k.val hk8, SparseCore.bigSep_insert' (by simp)])) $$ Hun
  icases Hun' with ⟨⟨%fo, Hob⟩, Hun⟩
  ihave Hob := (Entails.of_eq (pts_oWin (F := F) d L (k0_off45 L (A19 k.val)) (off45_inb L k) (blkNo (tL L) ⟨k.val, hk8⟩) (by rw [off45_eq L k, blkNo_val]) fo).symm) $$ Hob
  -- the trip
  unfold k0_t2_body
  rw [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  sl_exec
  -- the index words are in range: each is 64 · hour + minute of the block's words, which the precondition bounds by 59
  have hs0 : k0_off41 (A14 k.val) = ![(⟨k.val % 2, Nat.mod_lt _ (by norm_num)⟩ : Fin 2).val, 0, 0] := off41_ofNat _
  have hs1 : k0_off42 (A14 k.val) = ![(⟨k.val % 2, Nat.mod_lt _ (by norm_num)⟩ : Fin 2).val, 0, 0] := off42_ofNat _
  have hr0 : ∀ lane : Fin 128, (cur0 (ix3 (⟨k.val % 2, Nat.mod_lt _ (by norm_num)⟩ : Fin 2) (0 : Fin 1) lane)).toNat ≤ 59 := fun lane => by
    rw [hcur0 lane]; exact hx0 _
  have hr1 : ∀ lane : Fin 128, (cur1 (ix3 (⟨k.val % 2, Nat.mod_lt _ (by norm_num)⟩ : Fin 2) (0 : Fin 1) lane)).toNat ≤ 59 := fun lane => by
    rw [hcur1 lane]; exact hx1 _
  have hin : ∀ (x : S128.Idx), (View.read (Elt F) idxV.view (idxV.view.writes (Elt F) idxV.view.junk (idxPieces d L (k0_off41 (A14 k.val)) hw2 (k0_off42 (A14 k.val)) hw3 cur0 cur1)) x).toNat < 4608 :=
    idxList_lt (F := F) hs0 hs1 hr0 hr1
  sl_exec
  sl_step
  subst hΦ
  have hk9 : ¬ k.val + 1 < 800 := by omega
  unfold inv2 inStream0 inStream1 outStream
  rw [dif_neg hk9, dif_neg hk9, if_pos (Nat.succ_pos k.val)]
  rw [show cellC cc0_scoped4 (k.val + 1 + 1) = semAt cc0_scoped4 (k0_off37 (A14 k.val)) (off37_inb _) from semAt_congr _ ((slot1_add_two k.val).trans (off37_ofNat _).symm) _ _,
    show cellC cc0_scoped6 (k.val + 1 + 1) = semAt cc0_scoped6 (k0_off40 (A14 k.val)) (off40_inb _) from semAt_congr _ ((slot1_add_two k.val).trans (off40_ofNat _).symm) _ _,
    show cellC cc0_scoped8 (k.val + 1 + 1) = semAt cc0_scoped8 (k0_off46 (A14 k.val)) (off46_inb _) from semAt_congr _ ((slot1_add_two k.val).trans (off46_ofNat _).symm) _ _,
    show cellC cc0_scoped8 (k.val + 1) = semAt cc0_scoped8 (k0_off49 (A18 k.val)) (off49_inb _) from semAt_congr _ (e18'.trans (off49_ofNat _).symm) _ _]
  -- the yielded words are the loop's last
  isplitr
  · ipureintro
    exact Prod.ext (nxt13_eq L k) (Prod.ext (nxt14_eq L k) (Prod.ext (nxt15_eq L k) (Prod.ext (nxt16_eq L k) (Prod.ext (nxt17_eq L k) (Prod.ext (nxt18_eq L k) (nxt19_eq k))))))
  isplitr; · iexact Hmw
  isplitl [Hsh]; · iexact Hsh
  isplitl [Hidx]; · iexists _; iexact Hidx
  isplitl [Hs9]; · iexact Hs9
  -- the hour words: both slots and cells are free
  isplitl [Hx0 Hw0n Hs0n F0_dst F0]
  · isplitl [Hx0]; · iexact Hx0
    isplitl [Hw0n Hs0n]
    · isplitl [Hw0n]; · iexact Hw0n
      iexact Hs0n
    isplitl [F0_dst]
    · iexists cur0
      iapply (w0_fold (F := F) d L (k.val + 1 + 1) ((off41_ofNat k.val).trans (slot3_add_two k.val).symm) hw2 cur0)
      iexact F0_dst
    iexact F0
  -- the minute words likewise
  isplitl [Hx1 Hw1n Hs1n F1_dst F1]
  · isplitl [Hx1]; · iexact Hx1
    isplitl [Hw1n Hs1n]
    · isplitl [Hw1n]; · iexact Hw1n
      iexact Hs1n
    isplitl [F1_dst]
    · iexists cur1
      iapply (w1_fold (F := F) d L (k.val + 1 + 1) ((off42_ofNat k.val).trans (slot3_add_two k.val).symm) hw3 cur1)
      iexact F1_dst
    iexact F1
  -- the result: block k's copy-out is in flight from the slot the gather filled; block k - 1 has landed
  have hBk : (blkNo (tL L) ⟨k.val, hk8⟩).val = blkN L k.val := blkNo_val L ⟨k.val, hk8⟩
  have hkm : k.val - 1 < 800 := Nat.lt_of_le_of_lt (Nat.sub_le _ _) hk8
  have hBp' : Bp = blkNo (tL L) ⟨k.val - 1, hkm⟩ := Fin.ext (hBp.trans (blkNo_val L ⟨k.val - 1, hkm⟩).symm)
  subst hBp'
  isplitl [FO_src FO HsO Hun Hdn FO_dst]
  · isplitl [FO_src]; · iexists fp; iexact FO_src
    isplitl [FO]; · iexact FO
    isplitl [HsO]
    · iexists _, (blkNo (tL L) ⟨k.val, hk8⟩)
      isplitr
      · ipureintro; rw [hBk]; rfl
      · iapply (Transfers.Flight_mono countersEmb (thr d L) (BI.sep_mono
          (Entails.of_eq ((pts_oWin (F := F) d L (k0_off45 L (A19 k.val)) (off45_inb L k) (blkNo (tL L) ⟨k.val, hk8⟩) (by rw [off45_eq L k, hBk]) _).trans
            (pointsTo_congr (block_value (F := F) d L (blkNo (tL L) ⟨k.val, hk8⟩) (m (a1Loc d)) (m (a2Loc d)) (X0v d) (X1v d) g hg cur0 cur1 fs fo
              ⟨k.val % 2, Nat.mod_lt _ (by norm_num)⟩ ⟨k.val % 2, Nat.mod_lt _ (by norm_num)⟩ (k0_off41 (A14 k.val)) hw2 hs0 (k0_off42 (A14 k.val)) hw3 hs1
              (fun lane => (hcur0 lane).trans (congrArg (X0v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              (fun lane => (hcur1 lane).trans (congrArg (X1v d) (congrArg (ix2 (0 : Fin 1)) (Fin.ext (by show (128 * blkN L k.val + lane.val) % 3276800 = 128 * (blkNo (tL L) ⟨k.val, hk8⟩).val + lane.val; rw [hBk]; exact Nat.mod_eq_of_lt (blk_pos_lt (blkN_lt L _ hk8) lane))))))
              hx0 hx1 (k0_off43 (A14 k.val)) (k0_off44 (A14 k.val)) hw4 (off44_inb _) ((off43_ofNat _).trans (off44_ofNat _).symm)
              (k0_off45 L (A19 k.val)) (off45_inb L k) (by rw [off45_eq L k, hBk]) _ _ hin))))
          (stg_src_fold (F := F) d L (k.val + 1 + 1) ((off43_ofNat k.val).trans (slot3_add_two k.val).symm) ((off44_ofNat k.val).trans (slot3_add_two k.val).symm) hw4 (off44_inb _) _)))
        iexact HsO
    isplitl [Hun]; · iexact Hun
    rw [done_split k.val hk0 (by omega), SparseCore.bigSep_insert' (by simp only [Finset.mem_filter, Finset.mem_univ, _root_.true_and]; omega)]
    isplitl [FO_dst]; · iexact FO_dst
    iexact Hdn
  -- the waits recorded
  iexists _; isplitr
  swap; · iexact HO
  ipureintro; intro p hp
  simp only [Finset.mem_insert] at hp
  rcases hp with rfl | rfl | rfl | rfl | hp
  · exact .inr rfl
  · exact .inr rfl
  · exact .inr rfl
  · exact .inr rfl
  · exact hW' p hp

/-! ## Every trip -/

/-- Trip `k` of the pipeline takes the invariant before `k` to the invariant before `k + 1`. -/
theorem trip (g : Buf (Elt F) (shLoc d (cV L))) (hg : ∀ R : Fin 4608, TabOK (F := F) (m (a1Loc d)) (m (a2Loc d)) g R)
    (hx0 : ∀ j, (X0v d j).toNat ≤ 59) (hx1 : ∀ j, (X1v d j).toNat ≤ 59)
    (O : CellTallies nD τ sig (HIx 1)) (W : Waits sig (HIx 1)) (k : Fin k0_t2_loop.trips)
    (acc : BitVec 32 × BitVec 32 × BitVec 32 × BitVec 32 × BitVec 32 × BitVec 32 × BitVec 32) :
    inv2 (F := F) m X0v X1v d L g O W k.val acc ⊢ wp frame (wpE (defs₀ (F := F)) 𝒱₀ (thr d L) none) Set.univ
      (k0_t2_body (F := F) L a1V (Memref.isWhole_whole _) a2V (Memref.isWhole_whole _) x0V (Memref.isWhole_whole _) x1V (Memref.isWhole_whole _) oV (Memref.isWhole_whole _) idxV (Memref.isWhole_whole _) minV (Memref.isWhole_whole _) hourV (Memref.isWhole_whole _) cbufV (Memref.isWhole_whole _) shV (Memref.isWhole_whole _) cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)) := by
  by_cases h0 : k.val = 0
  · exact trip_first (F := F) m X0v X1v d L g hg hx0 hx1 O W k h0 acc
  by_cases h9 : k.val = 799
  · exact trip_last (F := F) m X0v X1v d L g hg hx0 hx1 O W k h9 acc
  have hk := trip_lt k
  exact trip_mid (F := F) m X0v X1v d L g hg hx0 hx1 O W k (by omega) (by omega) acc

end Cert.Kernel.Hand
end
-- ==== Proof.Bits.PipeEnds.lean ====
/-
  The two ends of the pipeline, and the pipeline from its trips.

  The second half of a tile's task is: start the fetches of its block 0 (the hour words and the minute words of 128
  positions, into slot 0 of the two word buffers); 800 trips; wait for the copy-out of the last block. The trips are
  proved elsewhere to carry the invariant `inv2` from `k` to `k + 1`. Here:

  * `pipe_entry`: what the task holds when it enters the pipeline, after the two fetches are started, IS the invariant
    before trip 0 — each word buffer and the staging buffer split into their two slots, a read token split off each word
    stream for the fetch in flight, slot 0's contents after the fetch being block 0's words, every block of the result
    untouched and none final;
  * `pipe_loop`: 800 trips take the invariant from 0 to 800, and the two side conditions the program then assumes of the
    carried words hold of the words the invariant names;
  * `pipe_last`: the invariant after trip 799 has one copy-out in flight, that of block 799 from staging slot 1. Once it
    is waited for, block 799 joins the 799 blocks that were final: all 800 are; the slots rejoin into whole buffers;
  * `pipe_spec_of_trips`: the three composed, along the program's own sequencing.
-/
import proofs.«204352_g17334488006705_cont_7to1_713_23_alg».proof.Proof.Bits.PipeInv

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## Cells and slots under their two names -/

omit [FloatOps F] in
theorem cell4_even : cellC cc0_scoped4 0 = (SemLoc.dma ⟨3, by decide⟩ : SemLoc sig) := rfl
omit [FloatOps F] in
theorem cell4_odd : cellC cc0_scoped4 1 = (SemLoc.dma ⟨4, by decide⟩ : SemLoc sig) := rfl
omit [FloatOps F] in
theorem cell6_even : cellC cc0_scoped6 0 = (SemLoc.dma ⟨5, by decide⟩ : SemLoc sig) := rfl
omit [FloatOps F] in
theorem cell6_odd : cellC cc0_scoped6 1 = (SemLoc.dma ⟨6, by decide⟩ : SemLoc sig) := rfl
omit [FloatOps F] in
theorem cell8_even : cellC cc0_scoped8 0 = (SemLoc.dma ⟨7, by decide⟩ : SemLoc sig) := rfl
omit [FloatOps F] in
theorem cell8_odd : cellC cc0_scoped8 1 = (SemLoc.dma ⟨8, by decide⟩ : SemLoc sig) := rfl

omit [FloatOps F] in
/-- A slot of the hour-word buffer under two names of one offset. -/
theorem w0slot_respell {o o' : Fin 3 → Nat} (e : o = o') (h : ∀ a, o a + S1x1x128.size a ≤ S2x1x128.size a)
    (h' : ∀ a, o' a + S1x1x128.size a ≤ S2x1x128.size a) (q : PosShare TreeShare) (f : IVec S2x1x128 32) :
    ((wSlot w0V o h).view.loc (thr d L) ↦[(wSlot w0V o h).view.set]{q} f : sProp 𝕄)
      ⊢ (wSlot w0V o' h').view.loc (thr d L) ↦[(wSlot w0V o' h').view.set]{q} f := by
  subst e; exact BI.Entails.refl _
omit [FloatOps F] in
/-- A slot of the minute-word buffer under two names of one offset. -/
theorem w1slot_respell {o o' : Fin 3 → Nat} (e : o = o') (h : ∀ a, o a + S1x1x128.size a ≤ S2x1x128.size a)
    (h' : ∀ a, o' a + S1x1x128.size a ≤ S2x1x128.size a) (q : PosShare TreeShare) (f : IVec S2x1x128 32) :
    ((wSlot w1V o h).view.loc (thr d L) ↦[(wSlot w1V o h).view.set]{q} f : sProp 𝕄)
      ⊢ (wSlot w1V o' h').view.loc (thr d L) ↦[(wSlot w1V o' h').view.set]{q} f := by
  subst e; exact BI.Entails.refl _

/-! ## The tail in three pieces: the first fetches, the loop with its two side conditions, the last wait -/

/-- The wait for the last block's copy-out. -/
def tail3 (L : grid0.Coords) (v47_5_r3 v47_6_r3 : BitVec 32) (k0_hw6 : k0_chk6 L v47_6_r3) (k0_hw5 : k0_chk5 v47_5_r3) :
    Prog (TpuEff nD τ sig (Elt F) Λ₀ (.scVector ((L 0).castLE hcore0) ((L 1).castLE hsub0))) PUnit := do
  let v73_r3 : DmaSems sig S1 := cc0_scoped8.slice (Rect.unit (s := S2) (k0_off52 v47_5_r3) S1.size (k0_off52_inb v47_5_r3 k0_hw5))
  let v74_r3 : DmaSems sig S_ := v73_r3.squeeze S_ squeezes_S1_S_
  let v75_r3 : Memref sig .scVector .hbm S128x128 .f32 := (oV).slice (Rect.unit (s := S3276800x128) (k0_off51 L v47_6_r3) S128x128.size (k0_off51_inb L v47_6_r3 k0_hw6)) (fun _ => rfl)
  let v76_r3 : Memref sig .scVector .vmem S1x128x128 .f32 := (stgV).slice (Rect.unit (s := S2x128x128) (k0_off53 v47_5_r3) S1x128x128.size (k0_off53_inb v47_5_r3 k0_hw5)) (fun _ => rfl)
  let v77_r3 : Memref sig .scVector .vmem S128x128 .f32 := v76_r3.squeeze S128x128 squeezes_S1x128x128_S128x128
  Prog.lift (.waitDma2 v74_r3.sem v77_r3 v75_r3 ((View.wordExact_bits rfl).reshape _ _) (View.wordExact_bits rfl))
  pure ⟨⟩

/-- The loop, then the last wait. -/
def tail2 (L : grid0.Coords) (v6 v34_r3 c0_i32_36_r3 : BitVec 32) :
    Prog (TpuEff nD τ sig (Elt F) Λ₀ (.scVector ((L 0).castLE hcore0) ((L 1).castLE hsub0))) PUnit :=
  k0_part12 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 v6 v34_r3 c0_i32_36_r3 >>= fun r => tail3 (F := F) L r.1 r.2.1 r.2.2.1 r.2.2.2

set_option maxRecDepth 65536 in
/-- The tail is the first fetches followed by the rest. -/
theorem tailProg_eq (L : grid0.Coords) (v6 v10_r3 : BitVec 32) (t : BitVec 1) (c : BitVec 32) :
    tailProg (F := F) L v6 v10_r3 t c = k0_part11 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 v6 v10_r3 t c >>= fun r => tail2 (F := F) L v6 r.1 r.2 := rfl

/-! ## Into the loop: the two fetches of block 0 -/

set_option maxHeartbeats 8000000 in
/-- Before the loop the tile starts the fetches of its block 0 into slot 0 of the two word buffers. What it then holds is
    the invariant before trip 0. -/
theorem pipe_entry (g : Buf (Elt F) (shLoc d (cV L))) (O : CellTallies nD τ sig (HIx 1)) (W1 : Waits sig (HIx 1)) :
    iprop(Transfers.MayWaits (thr d L) (default : HIx 1) O
        ∗ ((x0V).view.loc (thr d L) ↦{inTok (tL L)} (X0v d : Buf (Elt F) (x0Loc d)))
        ∗ ((x1V).view.loc (thr d L) ↦{inTok (tL L)} (X1v d : Buf (Elt F) (x1Loc d)))
        ∗ oBlksAny (F := F) d (tL L)
        ∗ (∃ f, (idxV).view.loc (thr d L) ↦{fullShare} f) ∗ (∃ f, (w0V).view.loc (thr d L) ↦{fullShare} f)
        ∗ (∃ f, (w1V).view.loc (thr d L) ↦{fullShare} f) ∗ (∃ f, (stgV).view.loc (thr d L) ↦{fullShare} f)
        ∗ semVal (dcell d L ⟨3, by decide⟩) 0 ∗ semVal (dcell d L ⟨4, by decide⟩) 0 ∗ semVal (dcell d L ⟨5, by decide⟩) 0
        ∗ semVal (dcell d L ⟨6, by decide⟩) 0 ∗ semVal (dcell d L ⟨7, by decide⟩) 0 ∗ semVal (dcell d L ⟨8, by decide⟩) 0
        ∗ semVal (dcell d L ⟨9, by decide⟩) 0
        ∗ ((shV).view.loc (thr d L) ↦{shTok (jL L)} g)
        ∗ owes (thr d L) O W1)
      ⊢ wp frame (wpE (defs₀ (F := F)) 𝒱₀ (thr d L) none) Set.univ (k0_part11 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 (firstBlk L)) 1#1 0#32)
          fun a => iprop(⌜a = ⟨Scalar.addi 0#32 1#32, 0#32⟩⌝ ∗ inv2 (F := F) m X0v X1v d L g O W1 0 (accAt 0)) := by
  rw [k0_part11_eq_skeleton]; unfold k0_part11_skel
  iintro ⟨#Hmw, Hx0, Hx1, Hob, ⟨%fi, Hidx⟩, ⟨%fw0, Hw0⟩, ⟨%fw1, Hw1⟩, ⟨%fst, Hstg⟩, Hs3, Hs4, Hs5, Hs6, Hs7, Hs8, Hs9, Hsh, HO⟩
  -- the three double buffers as their two slots
  ihave Hw0s := (split_w0 (F := F) d L 0 fw0) $$ Hw0
  icases Hw0s with ⟨Hw0a, Hw0b⟩
  ihave Hw1s := (split_w1 (F := F) d L 0 fw1) $$ Hw1
  icases Hw1s with ⟨Hw1a, Hw1b⟩
  ihave Hsts := (split_stg (F := F) d L 0 fst) $$ Hstg
  icases Hsts with ⟨Hsta, Hstb⟩
  -- slot 0 of the word buffers, as the program names it
  have e26 : slot3 0 = k0_off26 := k0_off26_eq.symm
  ihave Hw0a := (w0slot_respell (F := F) d L e26 (slot3_inb_w 0) k0_off26_inb fullShare fw0) $$ Hw0a
  ihave Hw1a := (w1slot_respell (F := F) d L e26 (slot3_inb_w 0) k0_off26_inb fullShare fw1) $$ Hw1a
  -- a read token of each word stream for the first fetch; the rest is kept aside
  ihave Hx0s := ((pointsTo_share (PosShare.mem_left_op_right (inTok (tL L)))).1) $$ Hx0
  icases Hx0s with ⟨Hx0, Hx0t⟩
  ihave Hx1s := ((pointsTo_share (PosShare.mem_left_op_right (inTok (tL L)))).1) $$ Hx1
  icases Hx1s with ⟨Hx1, Hx1t⟩
  ihave Hx0 := (Entails.of_eq (pts_x0V (F := F) d L _ _)) $$ Hx0
  ihave Hx1 := (Entails.of_eq (pts_x1V (F := F) d L _ _)) $$ Hx1
  -- the two fetches of block 0
  sl_exec
  sl_step
  isplitr
  · ipureintro; rfl
  -- what is held is the invariant before trip 0
  have h0 : (0 : ℕ) < 800 := by norm_num
  have hB : blkN L 0 < 25600 := blkN_lt L 0 h0
  have e27 : k0_off27 L = ![0, 128 * blkN L 0] := by
    have : 102400 * (L 1).val + 1638400 * (L 0).val = 128 * blkN L 0 := by unfold blkN; omega
    rw [k0_off27_eq, this]
  have e36 : k0_off27 L = k0_off36 L (A19 0) := by rw [e27, off36_eq L ⟨0, by rw [trips_eq]; exact h0⟩]
  have e39 : k0_off27 L = k0_off39 L (A19 0) := by rw [e27, off39_eq L ⟨0, by rw [trips_eq]; exact h0⟩]
  unfold inv2 inStream0 inStream1 outStream
  rw [dif_pos h0, dif_pos h0, if_neg (Nat.lt_irrefl 0)]
  isplitr; · ipureintro; rfl
  isplitr; · iexact Hmw
  isplitl [Hsh]; · iexact Hsh
  isplitl [Hidx]; · iexists fi; iexact Hidx
  isplitl [Hs9]; · iexact Hs9
  -- the hour words: block 0 in flight into slot 0, slot 1 free
  isplitl [Hx0 Hs3 Hw0b Hs4]
  · isplitl [Hx0]; · iexact Hx0
    isplitl [Hs3]
    · iexists (landed0 (F := F) k0_off26 k0_off26_inb (k0_off27 L) (k0_off27_inb L) fw0 (X0v d))
      isplitr
      · ipureintro
        exact landed0_ok (F := F) 0 (blkN L 0) hB _ _ k0_off26_eq _ _ e27 fw0 (X0v d)
      · iapply (Transfers.Flight_mono countersEmb (thr d L) (BI.sep_mono (w0_fold (F := F) d L 0 k0_off26_eq k0_off26_inb _)
          (Entails.of_eq (x0win_congr (F := F) d L e36 (k0_off27_inb L) _ _ (X0v d)))))
        iexact Hs3
    isplitl [Hw0b]; · iexists fw0; iexact Hw0b
    iexact Hs4
  -- the minute words likewise
  isplitl [Hx1 Hs5 Hw1b Hs6]
  · isplitl [Hx1]; · iexact Hx1
    isplitl [Hs5]
    · iexists (landed1 (F := F) k0_off26 k0_off26_inb (k0_off27 L) (k0_off27_inb L) fw1 (X1v d))
      isplitr
      · ipureintro
        exact landed1_ok (F := F) 0 (blkN L 0) hB _ _ k0_off26_eq _ _ e27 fw1 (X1v d)
      · iapply (Transfers.Flight_mono countersEmb (thr d L) (BI.sep_mono (w1_fold (F := F) d L 0 k0_off26_eq k0_off26_inb _)
          (Entails.of_eq (x1win_congr (F := F) d L e39 (k0_off27_inb L) _ _ (X1v d)))))
        iexact Hs5
    isplitl [Hw1b]; · iexists fw1; iexact Hw1b
    iexact Hs6
  -- the result: both staging slots free, every block untouched, none final
  isplitl [Hsta Hs7 Hstb Hs8 Hob]
  · isplitl [Hsta]; · iexists fst; iexact Hsta
    isplitl [Hs7]; · iexact Hs7
    isplitl [Hstb Hs8]
    · isplitl [Hstb]; · iexists fst; iexact Hstb
      iexact Hs8
    isplitl [Hob]
    · rw [show (Finset.univ.filter fun b : Fin 800 => 0 ≤ b.val) = Finset.univ from Finset.filter_true_of_mem fun _ _ => Nat.zero_le _]
      iexact Hob
    · rw [show (Finset.univ.filter fun b : Fin 800 => b.val + 1 < 0) = ∅ from Finset.filter_false_of_mem fun _ _ => Nat.not_lt_zero _, BI.bigSep_empty]
      iempintro
  iexists W1; isplitr
  · ipureintro; exact fun p hp => .inl hp
  · iexact HO

/-! ## The loop -/

omit [FloatOps F] in
theorem t2_trips : Scf.trips k0_t2_loop.lb k0_t2_loop.ub k0_t2_loop.st = 800 := trips_eq

set_option maxHeartbeats 8000000 in
/-- The 800 trips carry the invariant from before trip 0 to after trip 799; the two side conditions the program then
    assumes of the carried words hold of the words the invariant names. -/
theorem pipe_loop
    (htrip : ∀ (g : Buf (Elt F) (shLoc d (cV L))) (_hg : ∀ R : Fin 4608, TabOK (F := F) (m (a1Loc d)) (m (a2Loc d)) g R)
      (O : CellTallies nD τ sig (HIx 1)) (W : Waits sig (HIx 1)) (k : Fin k0_t2_loop.trips)
      (acc : BitVec 32 × BitVec 32 × BitVec 32 × BitVec 32 × BitVec 32 × BitVec 32 × BitVec 32),
      inv2 (F := F) m X0v X1v d L g O W k.val acc ⊢ wp frame (wpE (defs₀ (F := F)) 𝒱₀ (thr d L) none) Set.univ
        (k0_t2_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1)))
    (g : Buf (Elt F) (shLoc d (cV L))) (hg : ∀ R : Fin 4608, TabOK (F := F) (m (a1Loc d)) (m (a2Loc d)) g R)
    (O : CellTallies nD τ sig (HIx 1)) (W1 : Waits sig (HIx 1)) :
    inv2 (F := F) m X0v X1v d L g O W1 0 (accAt 0)
      ⊢ wp frame (wpE (defs₀ (F := F)) 𝒱₀ (thr d L) none) Set.univ (k0_part12 (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32)
          fun r => iprop(⌜r.1 = A18 800 ∧ r.2.1 = A19 800⌝ ∗ inv2 (F := F) m X0v X1v d L g O W1 800 (accAt 800)) := by
  rw [k0_part12_eq_skeleton]; unfold k0_part12_skel
  iintro Hinv
  sl_exec
  sl_for (inv2 (F := F) m X0v X1v d L g O W1) $$ [Hinv]
  rotate_left
  · iexact Hinv
  case region =>
    intro k acc
    exact htrip g hg O W1 k acc
  rw [t2_trips]
  unfold inv2
  iintro %acc ⟨%hacc, Hrest⟩
  subst hacc
  have hw6 : k0_chk6 L (A19 800) := chk6_end L
  have hw5 : k0_chk5 (A18 800) := chk5_all _
  sl_exec
  sl_step
  isplitr
  · ipureintro; exact ⟨rfl, rfl⟩
  isplitr
  · ipureintro; rfl
  iexact Hrest

omit [FloatOps F] in
/-- All 800 blocks are block 799 and the blocks before it. -/
theorem bigSep_all_blocks (Φ : Fin 800 → sProp 𝕄) :
    bigSep (Finset.univ : Finset (Fin 800)) Φ = iprop(Φ ⟨799, by norm_num⟩ ∗ bigSep (Finset.univ.filter fun b : Fin 800 => b.val + 1 < 800) Φ) := by
  have e : (Finset.univ : Finset (Fin 800)) = insert (⟨799, by norm_num⟩ : Fin 800) (Finset.univ.filter fun b : Fin 800 => b.val + 1 < 800) := by
    ext b; simp only [Finset.mem_univ, Finset.mem_insert, Finset.mem_filter, true_and, Fin.ext_iff, true_iff]; have := b.isLt; omega
  conv_lhs => rw [e]
  exact SparseCore.bigSep_insert' (by simp only [Finset.mem_filter, Finset.mem_univ, true_and]; omega)

/-! ## Out of the loop: the last copy-out -/

set_option maxHeartbeats 8000000 in
/-- After the last trip only the copy-out of block 799 is in flight. The tile waits for it: then all its 800 blocks hold
    their final contents, and every buffer and semaphore of the pipeline is free again. -/
theorem pipe_last (g : Buf (Elt F) (shLoc d (cV L))) (O : CellTallies nD τ sig (HIx 1)) (W1 : Waits sig (HIx 1))
    (hw6 : k0_chk6 L (A19 800)) (hw5 : k0_chk5 (A18 800)) :
    inv2 (F := F) m X0v X1v d L g O W1 800 (accAt 800)
      ⊢ wp frame (wpE (defs₀ (F := F)) 𝒱₀ (thr d L) none) Set.univ (tail3 (F := F) L (A18 800) (A19 800) hw6 hw5)
          fun _ => iprop(oBlksDone m X0v X1v d (tL L)
            ∗ (∃ f, (idxV).view.loc (thr d L) ↦{fullShare} f) ∗ (∃ f, (w0V).view.loc (thr d L) ↦{fullShare} f)
            ∗ (∃ f, (w1V).view.loc (thr d L) ↦{fullShare} f) ∗ (∃ f, (stgV).view.loc (thr d L) ↦{fullShare} f)
            ∗ semVal (dcell d L ⟨3, by decide⟩) 0 ∗ semVal (dcell d L ⟨4, by decide⟩) 0 ∗ semVal (dcell d L ⟨5, by decide⟩) 0
            ∗ semVal (dcell d L ⟨6, by decide⟩) 0 ∗ semVal (dcell d L ⟨7, by decide⟩) 0 ∗ semVal (dcell d L ⟨8, by decide⟩) 0
            ∗ semVal (dcell d L ⟨9, by decide⟩) 0
            ∗ (∃ g', (shV).view.loc (thr d L) ↦{shTok (jL L)} g')
            ∗ ∃ W', ⌜∀ p ∈ W', p ∈ W1 ∨ p.2 = none⌝ ∗ owes (thr d L) O W') := by
  unfold inv2 inStream0 inStream1 outStream
  rw [dif_neg (Nat.lt_irrefl 800), dif_neg (Nat.lt_irrefl 800), if_pos (by norm_num : 0 < 800)]
  -- the cell of the copy-out in flight, as the program names it at the carried word
  rw [show cellC cc0_scoped8 (800 + 1) = semAt cc0_scoped8 (k0_off52 (A18 800)) (off52_inb _) from semAt_congr _ (off52_ofNat 799).symm _ _]
  iintro ⟨-, #Hmw, Hsh, ⟨%fi, Hidx⟩, Hs9, ⟨Hx0, ⟨⟨%c0, Hw0a⟩, Hs4a⟩, ⟨%c0', Hw0b⟩, Hs4b⟩, ⟨Hx1, ⟨⟨%c1, Hw1a⟩, Hs6a⟩, ⟨%c1', Hw1b⟩, Hs6b⟩, ⟨⟨%fs, Hstg⟩, HsO, ⟨%fp, %Bp, %hBp, FO⟩, Hun, Hdn⟩, ⟨%W', %hW', HO⟩⟩
  unfold tail3
  sl_exec
  sl_step
  -- all 800 blocks hold their final contents: the blocks before 799 already did, block 799 has just landed
  have hBp' : Bp = blkNo (tL L) ⟨799, by norm_num⟩ := Fin.ext (hBp.trans (blkNo_val L ⟨799, by norm_num⟩).symm)
  subst hBp'
  isplitl [Hdn FO_dst]
  · iapply (Entails.of_eq (bigSep_all_blocks (F := F) fun b => (oLoc d ↦[oblk (blkNo (tL L) b)]{fullShare} OUTv m X0v X1v d : sProp 𝕄)).symm)
    isplitl [FO_dst]; · iexact FO_dst
    iexact Hdn
  -- the buffers whole again, the cells under their numbers
  isplitl [Hidx]; · iexists fi; iexact Hidx
  isplitl [Hw0a Hw0b]
  · iapply (join_w0 (F := F) d L 800)
    isplitl [Hw0a]; · iexists c0; iexact Hw0a
    iexists c0'; iexact Hw0b
  isplitl [Hw1a Hw1b]
  · iapply (join_w1 (F := F) d L 800)
    isplitl [Hw1a]; · iexists c1; iexact Hw1a
    iexists c1'; iexact Hw1b
  isplitl [Hstg FO_src]
  · iapply (join_stg (F := F) d L 800)
    isplitl [Hstg]; · iexists fs; iexact Hstg
    iexists fp; iexact FO_src
  isplitl [Hs4a]; · iexact Hs4a
  isplitl [Hs4b]; · iexact Hs4b
  isplitl [Hs6a]; · iexact Hs6a
  isplitl [Hs6b]; · iexact Hs6b
  isplitl [HsO]; · iexact HsO
  isplitl [FO]; · iexact FO
  isplitl [Hs9]; · iexact Hs9
  isplitl [Hsh]; · iexists g; iexact Hsh
  -- the last wait is at no call index
  iexists _; isplitr
  swap; · iexact HO
  ipureintro; intro p hp
  rcases Finset.mem_insert.mp hp with h | h
  · exact .inr (by rw [h]; rfl)
  · exact hW' p h

/-! ## The pipeline, from its trips -/

set_option maxHeartbeats 8000000 in
/-- Given that every trip carries the invariant one step on, the pipeline does what its statement says: the first
    fetches establish the invariant, 800 trips carry it, the last wait turns it into the statement's post. -/
theorem pipe_spec_of_trips (hx0 : ∀ j, (X0v d j).toNat ≤ 59) (hx1 : ∀ j, (X1v d j).toNat ≤ 59)
    (htrip : ∀ (g : Buf (Elt F) (shLoc d (cV L))) (_hg : ∀ R : Fin 4608, TabOK (F := F) (m (a1Loc d)) (m (a2Loc d)) g R)
      (O : CellTallies nD τ sig (HIx 1)) (W : Waits sig (HIx 1)) (k : Fin k0_t2_loop.trips)
      (acc : BitVec 32 × BitVec 32 × BitVec 32 × BitVec 32 × BitVec 32 × BitVec 32 × BitVec 32),
      inv2 (F := F) m X0v X1v d L g O W k.val acc ⊢ wp frame (wpE (defs₀ (F := F)) 𝒱₀ (thr d L) none) Set.univ
        (k0_t2_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (firstBlk L) (Scalar.addi 0#32 1#32) 0#32 k acc) (inv2 (F := F) m X0v X1v d L g O W (k.val + 1))) :
    PipeSpec (F := F) m X0v X1v d L hx0 hx1 := by
  intro g hg O W1
  rw [tailProg_eq, wp_bind]
  iintro H
  -- the first fetches
  iapply (wp_wand_r Idealize.ShloMosaic.frame (wpE (defs₀ (F := F)) 𝒱₀ (thr d L) none) Set.univ)
  isplitl [H]
  · iapply (pipe_entry (F := F) m X0v X1v d L g O W1); iexact H
  iintro %a ⟨%ha, Hinv⟩
  subst ha
  -- the loop
  unfold tail2
  rw [wp_bind]
  iapply (wp_wand_r Idealize.ShloMosaic.frame (wpE (defs₀ (F := F)) 𝒱₀ (thr d L) none) Set.univ)
  isplitl [Hinv]
  · iapply (pipe_loop (F := F) m X0v X1v d L htrip g hg O W1); iexact Hinv
  iintro %r ⟨%hr, Hinv⟩
  obtain ⟨v5, v6, h6, h5⟩ := r
  obtain ⟨rfl, rfl⟩ := hr
  -- the last wait
  iapply (pipe_last (F := F) m X0v X1v d L g O W1 h6 h5); iexact Hinv

end Cert.Kernel.Hand
end
-- ==== Proof.Bits.Pipe.lean ====
/-
  The pipeline of one tile, whole: from the first block's fetches, through the 800 trips, to the wait for the last
  block's copy-out, the tile's 800 blocks of the result end at the hour row plus the minute row of each position.
  The entry and the exit are the ends of the loop; every trip keeps the invariant.
-/
import proofs.«204352_g17334488006705_cont_7to1_713_23_alg».proof.Proof.Bits.PipeTrips
import proofs.«204352_g17334488006705_cont_7to1_713_23_alg».proof.Proof.Bits.PipeEnds

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-- What the pipeline does, proved: the ends of the loop around the trips. -/
theorem pipe_spec (hx0 : ∀ j, (X0v d j).toNat ≤ 59) (hx1 : ∀ j, (X1v d j).toNat ≤ 59) : PipeSpec (F := F) m X0v X1v d L hx0 hx1 :=
  pipe_spec_of_trips (F := F) m X0v X1v d L hx0 hx1
    (fun g hg O W k acc => trip (F := F) m X0v X1v d L g hg hx0 hx1 O W k acc)

end Cert.Kernel.Hand
end
-- ==== Proof.Bits.BodyTable.lean ====
/-
  The table-building loop, one trip.

  Tile `s` of a SparseCore builds rows `[288 s, 288 s + 288)` of the table in a 288 × 128 scratch of its own. Trip `k` of
  the loop builds row `k` of the scratch, that is row `R = 288 s + k` of the table: it reads the hour copy at row
  `R / 64` and the minute copy at row `R % 64`, in eight chunks of 16 lanes, adds the chunks lane by lane and stores the
  eight sums in row `k`. The loop's invariant says that the two copies stay as they are and that the rows before `k` hold
  their sums; this file proves that a trip carries the invariant from `k` to `k + 1`.

  The argument, once the trip's memory operations are accounted for: the scratch then holds its former contents
  overwritten by eight chunks. Each chunk sits in row `k`, so a row `r < k` reads what it read before, which the invariant
  describes; the chunks cover row `k`, and chunk `c` at lane `l` is the hour copy at `(R / 64, 16 c + l)` plus the minute
  copy at `(R % 64, 16 c + l)` (the casts between `1 × 16` and `16` around the addition keep the lane), so row `k` reads
  its sum at every column.
-/
import proofs.«204352_g17334488006705_cont_7to1_713_23_alg».proof.Proof.Bits.Common
import proofs.«204352_g17334488006705_cont_7to1_713_23_alg».proof.Proof.Bits.TileOpen
import proofs.«204352_g17334488006705_cont_7to1_713_23_alg».proof.Proof.Bits.ValueBridge
import Idealize.ShloMosaic.Lib.Writes
import Idealize.ShloMosaic.Lib.ValueLayout

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-- Before trip `k` of the table-building loop: the minute and hour copies as they are, and the first `k` built rows right. -/
def inv1 (HV : Buf (Elt F) ((thr d L).loc cc0_scratch2)) (MV : Buf (Elt F) ((thr d L).loc cc0_scratch1)) (k : Nat) (_ : Unit) : sProp 𝕄 :=
  iprop(((minV).view.loc (thr d L) ↦{fullShare} MV) ∗ ((hourV).view.loc (thr d L) ↦{fullShare} HV)
    ∗ ∃ g : Buf (Elt F) ((thr d L).loc cc0_scratch3), ⌜∀ r : Fin 288, r.val < k → ∀ col : Fin 128,
        g (ix2 r col) = FloatOps.addf (HV (ix2 (⟨(288 * (L 1).val + r.val) / 64, by have := (L 1).isLt; have : grid0.bound 1 = 16 := rfl; omega⟩ : Fin 72) col))
          (MV (ix2 (⟨(288 * (L 1).val + r.val) % 64, Nat.mod_lt _ (by norm_num)⟩ : Fin 64) col))⌝
      ∗ (cbufV).view.loc (thr d L) ↦{fullShare} g)

/-! ## One chunk of one row -/

section Chunk
variable (HV : Buf (Elt F) ((thr d L).loc cc0_scratch2)) (MV : Buf (Elt F) ((thr d L).loc cc0_scratch1))

/-- What a trip writes, as a function of the position `y` in the 288 × 128 scratch: at column `y 1`, the hour copy's row
    `hr` plus the minute copy's row `mr`. (It does not depend on `y`'s row: a trip writes one row.) -/
def rowSum (hr : Fin 72) (mr : Fin 64) (y : S288x128.Idx) : Elt F .f32 :=
  FloatOps.addf (HV (ix2 hr (⟨(y 1).val, (y 1).isLt⟩ : Fin 128))) (MV (ix2 mr (⟨(y 1).val, (y 1).isLt⟩ : Fin 128)))

/-- One of the eight chunks of a trip. The trip loads 16 lanes of hour row `hr` and of minute row `mr` from column `c`
    on, drops the unit axis of both, adds them lane by lane, puts the unit axis back and stores the 16 sums in row `k`
    from column `c` on. A cast between `1 × 16` and `16` keeps the lane, and the three rectangles have unit strides, so
    lane `l` of the stored chunk is the sum of the two copies at column `c + l`: the payload agrees with `rowSum` at the
    place the store puts it. The offsets are taken as variables equal to their closed forms, so that one statement
    serves the eight chunks whatever the words they are computed from. -/
theorem chunk_eq (hr : Fin 72) (mr : Fin 64) (k : Fin 288) (c : Nat)
    {offH offM offC : Fin 2 → Nat} (eH : offH = ![hr.val, c]) (eM : offM = ![mr.val, c]) (eC : offC = ![k.val, c])
    (inbH : ∀ a, offH a + S1x16.size a ≤ S72x128.size a) (inbM : ∀ a, offM a + S1x16.size a ≤ S64x128.size a)
    (inbC : ∀ a, offC a + S1x16.size a ≤ S288x128.size a) (x : S1x16.Idx) :
    shapeCast S1x16 (addf (shapeCast S16 (View.readAt (Elt F) (hourV).view (Rect.unit (s := S72x128) offH S1x16.size inbH).toLoadRect HV) shapeCasts_S1x16_S16)
        (shapeCast S16 (View.readAt (Elt F) (minV).view (Rect.unit (s := S64x128) offM S1x16.size inbM).toLoadRect MV) shapeCasts_S1x16_S16)) shapeCasts_S16_S1x16 x
      = rowSum d L HV MV hr mr ((Rect.unit (s := S288x128) offC S1x16.size inbC).emb x) := by
  subst eH eM eC
  obtain ⟨u, l, rfl⟩ : ∃ u l, x = ix2 u l := ⟨x 0, x 1, eq_ix2 x⟩
  rw [shapeCast_a_1a_apply]
  show FloatOps.addf (shapeCast S16 _ _ (ix1 l)) (shapeCast S16 _ _ (ix1 l)) = _
  rw [shapeCast_1a_a_apply, shapeCast_1a_a_apply, View.readAt_apply, View.readAt_apply]
  unfold rowSum
  show FloatOps.addf (HV _) (MV _) = FloatOps.addf (HV _) (MV _)
  congr 2
  · funext a
    match a with
    | ⟨0, _⟩ => exact Fin.ext (show hr.val + 1 * ((0 : Fin 1) : ℕ) = hr.val by simp)
    | ⟨1, _⟩ => exact Fin.ext (show c + 1 * l.val = c + 1 * l.val from rfl)
  · funext a
    match a with
    | ⟨0, _⟩ => exact Fin.ext (show mr.val + 1 * ((0 : Fin 1) : ℕ) = mr.val by simp)
    | ⟨1, _⟩ => exact Fin.ext (show c + 1 * l.val = c + 1 * l.val from rfl)

end Chunk

/-! ## The writes of one trip, read back -/

/-- A position of the scratch lies in the chunk at row `k`, columns `[c, c + 16)`, when its row is `k` and its column is
    in that range. -/
theorem mem_chunk {off : Fin 2 → Nat} (k c : Nat) (e : off = ![k, c]) (inb : ∀ a, off a + S1x16.size a ≤ S288x128.size a)
    (r : Fin 288) (col : Fin 128) (hr : r.val = k) (h1 : c ≤ col.val) (h2 : col.val < c + 16) :
    ix2 r col ∈ (Rect.unit (s := S288x128) off S1x16.size inb).set := by
  subst e
  refine Rect.mem_set_unit.mpr fun a => ?_
  match a with
  | ⟨0, _⟩ => exact ⟨hr.ge, show r.val < k + 1 by omega⟩
  | ⟨1, _⟩ => exact ⟨h1, h2⟩

/-- A position in a chunk of row `k` is in row `k`. -/
theorem row_of_mem_chunk {off : Fin 2 → Nat} (k c : Nat) (e : off = ![k, c]) (inb : ∀ a, off a + S1x16.size a ≤ S288x128.size a)
    (r : Fin 288) (col : Fin 128) (h : ix2 r col ∈ (Rect.unit (s := S288x128) off S1x16.size inb).set) : r.val = k := by
  subst e
  have h0 := Rect.mem_set_unit.mp h 0
  have h1 : k ≤ r.val := h0.1
  have h2 : r.val < k + 1 := h0.2
  omega

/-- The scratch after the stores of trip `k`, read at (row, column). The stores all lie in row `k` and between them cover
    it, and each payload is the function `G` at the place it is stored: so a row before `k` still holds what it held
    (`T` by the invariant), and row `k` now holds `G`, which is `T` there. -/
theorem rows_step (g : Buf (Elt F) ((thr d L).loc cc0_scratch3)) (Lst : List (View.Piece (Elt F) S288x128 .f32)) (k : Nat) (hk : k < 288)
    (T : Fin 288 → Fin 128 → Elt F .f32) (G : S288x128.Idx → Elt F .f32)
    (hpay : ∀ p ∈ Lst, ∀ x : p.1.shape.Idx, p.2 x = G (p.1.emb x))
    (hrow : ∀ p ∈ Lst, ∀ (r : Fin 288) (col : Fin 128), ix2 r col ∈ p.1.set → r.val = k)
    (hcov : ∀ col : Fin 128, ∃ p ∈ Lst, ix2 (⟨k, hk⟩ : Fin 288) col ∈ p.1.set)
    (hg : ∀ r : Fin 288, r.val < k → ∀ col : Fin 128, g (ix2 r col) = T r col)
    (hG : ∀ col : Fin 128, G (ix2 (⟨k, hk⟩ : Fin 288) col) = T ⟨k, hk⟩ col) :
    ∀ r : Fin 288, r.val < k + 1 → ∀ col : Fin 128, ((cbufV).view.writes (Elt F) g Lst) (ix2 r col) = T r col := by
  intro r hr col
  show (cbufV).view.read (Elt F) ((cbufV).view.writes (Elt F) g Lst) (ix2 r col) = _
  by_cases hrk : r.val = k
  · obtain rfl : r = ⟨k, hk⟩ := Fin.ext hrk
    rw [View.read_writes_apply_of_pieces _ _ G Lst hpay _ (hcov col)]; exact hG col
  · rw [View.read_writes_apply_of_forall_not_mem _ _ _ Lst (fun p hp hm => hrk (hrow p hp r col hm))]
    exact hg r (by omega) col

/-! ## One trip -/

set_option maxHeartbeats 4000000 in
/-- Trip `k` of the table-building loop keeps the invariant: it reads the two copies (kept as they are), and its eight
    stores fill row `k` of the scratch with hour row `(288 s + k) / 64` plus minute row `(288 s + k) % 64`, `s` the
    subcore, leaving the rows before it alone. -/
theorem t1_region (HV : Buf (Elt F) ((thr d L).loc cc0_scratch2)) (MV : Buf (Elt F) ((thr d L).loc cc0_scratch1)) (k : Fin k0_t1_loop.trips) (acc : Unit) :
    inv1 d L HV MV k.val acc ⊢ wp frame (wpE (defs₀ (F := F)) 𝒱₀ (thr d L) none) Set.univ
      (k0_t1_body (F := F) L a1V (Memref.isWhole_whole _) a2V (Memref.isWhole_whole _) x0V (Memref.isWhole_whole _) x1V (Memref.isWhole_whole _) oV (Memref.isWhole_whole _)
    idxV (Memref.isWhole_whole _) minV (Memref.isWhole_whole _) hourV (Memref.isWhole_whole _) cbufV (Memref.isWhole_whole _) shV (Memref.isWhole_whole _)
    cc0_scoped0 cc0_scoped1 cc0_scoped2 w0V (Memref.isWhole_whole _) cc0_scoped4 w1V (Memref.isWhole_whole _) cc0_scoped6 stgV (Memref.isWhole_whole _) cc0_scoped8 cc0_scoped9 (Scalar.muli (BitVec.ofNat 32 (L 1).val) 288#32) k acc) (inv1 d L HV MV (k.val + 1)) := by
  have hk : k.val < 288 := Nat.lt_of_lt_of_le k.isLt k0_t1_abs.2.1
  have hj : (L 1).val < 16 := (L 1).isLt
  unfold inv1
  iintro ⟨Hmin, Hhour, ⟨%g, %hg, Hcbuf⟩⟩
  unfold k0_t1_body
  rw [k0_part1_eq_skeleton, k0_part2_eq_skeleton]; unfold k0_part1_skel k0_part2_skel
  sl_exec
  sl_step
  isplitl [Hmin]; · iexact Hmin
  isplitl [Hhour]; · iexact Hhour
  iexists _; isplitr
  swap; · iexact Hcbuf
  ipureintro
  refine rows_step d L g _ k.val hk _
    (rowSum d L HV MV ⟨(288 * (L 1).val + k.val) / 64, by omega⟩ ⟨(288 * (L 1).val + k.val) % 64, Nat.mod_lt _ (by norm_num)⟩) ?_ ?_ ?_ hg ?_
  · -- each of the eight payloads is the row's sum at the place it is stored
    intro p hp
    simp only [List.mem_cons, List.not_mem_nil, _root_.or_false] at hp
    rcases hp with rfl | rfl | rfl | rfl | rfl | rfl | rfl | rfl
    · exact chunk_eq d L HV MV _ _ ⟨k.val, hk⟩ 112 (k0_off22_eq L k) (k0_off23_eq L k) (k0_off24_eq k) (k0_off22_inb L k) (k0_off23_inb L k) (k0_off24_inb k)
    · exact chunk_eq d L HV MV _ _ ⟨k.val, hk⟩ 96 (k0_off19_eq L k) (k0_off20_eq L k) (k0_off21_eq k) (k0_off19_inb L k) (k0_off20_inb L k) (k0_off21_inb k)
    · exact chunk_eq d L HV MV _ _ ⟨k.val, hk⟩ 80 (k0_off16_eq L k) (k0_off17_eq L k) (k0_off18_eq k) (k0_off16_inb L k) (k0_off17_inb L k) (k0_off18_inb k)
    · exact chunk_eq d L HV MV _ _ ⟨k.val, hk⟩ 64 (k0_off13_eq L k) (k0_off14_eq L k) (k0_off15_eq k) (k0_off13_inb L k) (k0_off14_inb L k) (k0_off15_inb k)
    · exact chunk_eq d L HV MV _ _ ⟨k.val, hk⟩ 48 (k0_off10_eq L k) (k0_off11_eq L k) (k0_off12_eq k) (k0_off10_inb L k) (k0_off11_inb L k) (k0_off12_inb k)
    · exact chunk_eq d L HV MV _ _ ⟨k.val, hk⟩ 32 (k0_off7_eq L k) (k0_off8_eq L k) (k0_off9_eq k) (k0_off7_inb L k) (k0_off8_inb L k) (k0_off9_inb k)
    · exact chunk_eq d L HV MV _ _ ⟨k.val, hk⟩ 16 (k0_off4_eq L k) (k0_off5_eq L k) (k0_off6_eq k) (k0_off4_inb L k) (k0_off5_inb L k) (k0_off6_inb k)
    · exact chunk_eq d L HV MV _ _ ⟨k.val, hk⟩ 0 (k0_off1_eq L k) (k0_off2_eq L k) (k0_off3_eq k) (k0_off1_inb L k) (k0_off2_inb L k) (k0_off3_inb k)
  · -- the eight chunks lie in row k
    intro p hp
    simp only [List.mem_cons, List.not_mem_nil, _root_.or_false] at hp
    rcases hp with rfl | rfl | rfl | rfl | rfl | rfl | rfl | rfl
    · exact row_of_mem_chunk k.val 112 (k0_off24_eq k) (k0_off24_inb k)
    · exact row_of_mem_chunk k.val 96 (k0_off21_eq k) (k0_off21_inb k)
    · exact row_of_mem_chunk k.val 80 (k0_off18_eq k) (k0_off18_inb k)
    · exact row_of_mem_chunk k.val 64 (k0_off15_eq k) (k0_off15_inb k)
    · exact row_of_mem_chunk k.val 48 (k0_off12_eq k) (k0_off12_inb k)
    · exact row_of_mem_chunk k.val 32 (k0_off9_eq k) (k0_off9_inb k)
    · exact row_of_mem_chunk k.val 16 (k0_off6_eq k) (k0_off6_inb k)
    · exact row_of_mem_chunk k.val 0 (k0_off3_eq k) (k0_off3_inb k)
  · -- and cover it: column col is in the chunk from 16 · (col / 16) on
    intro col
    have hc : col.val < 128 := col.isLt
    rcases (by omega : 112 ≤ col.val ∨ (96 ≤ col.val ∧ col.val < 112) ∨ (80 ≤ col.val ∧ col.val < 96) ∨ (64 ≤ col.val ∧ col.val < 80)
        ∨ (48 ≤ col.val ∧ col.val < 64) ∨ (32 ≤ col.val ∧ col.val < 48) ∨ (16 ≤ col.val ∧ col.val < 32) ∨ col.val < 16) with h | h | h | h | h | h | h | h
    · exact ⟨_, List.mem_cons_self, mem_chunk k.val 112 (k0_off24_eq k) (k0_off24_inb k) _ col rfl (by omega) (by omega)⟩
    · exact ⟨_, List.mem_cons_of_mem _ (List.mem_cons_self), mem_chunk k.val 96 (k0_off21_eq k) (k0_off21_inb k) _ col rfl (by omega) (by omega)⟩
    · exact ⟨_, List.mem_cons_of_mem _ (List.mem_cons_of_mem _ (List.mem_cons_self)), mem_chunk k.val 80 (k0_off18_eq k) (k0_off18_inb k) _ col rfl (by omega) (by omega)⟩
    · exact ⟨_, List.mem_cons_of_mem _ (List.mem_cons_of_mem _ (List.mem_cons_of_mem _ (List.mem_cons_self))), mem_chunk k.val 64 (k0_off15_eq k) (k0_off15_inb k) _ col rfl (by omega) (by omega)⟩
    · exact ⟨_, List.mem_cons_of_mem _ (List.mem_cons_of_mem _ (List.mem_cons_of_mem _ (List.mem_cons_of_mem _ (List.mem_cons_self)))), mem_chunk k.val 48 (k0_off12_eq k) (k0_off12_inb k) _ col rfl (by omega) (by omega)⟩
    · exact ⟨_, List.mem_cons_of_mem _ (List.mem_cons_of_mem _ (List.mem_cons_of_mem _ (List.mem_cons_of_mem _ (List.mem_cons_of_mem _ (List.mem_cons_self))))), mem_chunk k.val 32 (k0_off9_eq k) (k0_off9_inb k) _ col rfl (by omega) (by omega)⟩
    · exact ⟨_, List.mem_cons_of_mem _ (List.mem_cons_of_mem _ (List.mem_cons_of_mem _ (List.mem_cons_of_mem _ (List.mem_cons_of_mem _ (List.mem_cons_of_mem _ (List.mem_cons_self)))))), mem_chunk k.val 16 (k0_off6_eq k) (k0_off6_inb k) _ col rfl (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_chunk k.val 0 (k0_off3_eq k) (k0_off3_inb k) _ col rfl (by omega) (by omega)⟩
  · -- the row's sum at (k, col) is what the invariant asks of row k
    intro col
    rfl

end Cert.Kernel.Hand
end
-- ==== Proof.Bits.BarrierPay.lean ====
/-
  The subcore barrier's payload: what a tile gives at the barrier and what it takes from it.

  Before the barrier tile `i` of a SparseCore holds rows `[288 i, 288 i + 288)` of the shared table, whole, and they are
  right (row `R` is hour row `R / 64` plus minute row `R % 64` wherever minute `R % 64` exists). Its arrival at tile `j`'s
  barrier cell hands tile `j` a read share of those rows together with that fact. So a tile cuts sixteen read tokens off
  its points-to, one per tile of the SparseCore, and keeps the remainder (`pays_intro`).

  After the barrier a tile has collected, on its own cell, one token from each of the sixteen tiles: sixteen pieces whose
  row ranges are disjoint and cover the 4608 rows. They join into a read share of the whole table, and since each piece was
  right on its own rows the table is right on every row (`pays_elim`). That is what the gather of the second phase reads.
-/
import proofs.«204352_g17334488006705_cont_7to1_713_23_alg».proof.Proof.Bits.Common

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (d : Dev nD) (L : grid0.Coords)

/-! ## Before the barrier: a tile's rows become what it hands over -/

/-- A tile that holds its 288 rows of the table whole, and right, splits the points-to into sixteen read tokens and a
    remainder: it keeps the remainder, and token `j`, with the fact that the rows are right, is exactly what its arrival
    at tile `j`'s barrier cell hands over. -/
theorem pays_intro (g : Buf (Elt F) (shLoc d (cV L)))
    (hg : ∀ R : Fin 4608, R.val / 288 = (jL L).val → TabOK (F := F) (m (a1Loc d)) (m (a2Loc d)) g R) :
    (shLoc d (cV L) ↦[shrows (jL L)]{fullShare} g : sProp 𝕄) ⊢ iprop((shLoc d (cV L) ↦[shrows (jL L)]{shRest} g)
        ∗ bigSep Finset.univ fun j : Fin (grid0.bound 1) => (bRd (F := F) m).payload (bcell d (cV L) (j.castLE hsub0)) 0 (jV L).val) := by
  refine (Transfers.pointsTo_toks_split fullShare 16).trans (sep_mono_right ?_)
  refine bigSep_mono fun j _ => ?_
  show _ ⊢ bPay m (bcell d (cV L) (j.castLE hsub0)) (jV L).val
  unfold bPay; dsimp only
  rw [dif_pos (show (jV L).val < 16 from (jV L).isLt)]
  unfold shPiece
  iintro H
  iexists g
  isplitr
  · ipureintro; exact hg
  · iexact H

/-! ## After the barrier: sixteen pieces make the table -/

omit [FloatOps F] in
/-- The tiles' row ranges are pairwise disjoint … -/
theorem shrows_disjoint : ∀ i ∈ (Finset.univ : Finset (Fin 16)), ∀ j ∈ (Finset.univ : Finset (Fin 16)), i ≠ j → Disjoint (shrows i) (shrows j) :=
  fun _ _ _ _ h => Rect.part_disjoint hdivS h

omit [FloatOps F] in
/-- … and cover the table. -/
theorem shrows_cover : (Finset.univ : Finset (Fin 16)).biUnion shrows = Finset.univ := Rect.biUnion_part hdivS

omit [FloatOps F] in
/-- Row `R` of the table is among the rows of tile `R / 288`: `288 n ≤ R < 288 n + 288` for `n = R / 288`. -/
theorem mem_shrows (R : Fin 4608) (col : Fin 128) (n : Fin 16) (h : R.val / 288 = n.val) : (ix2 R col : S4608x128.Idx) ∈ shrows n := by
  refine Rect.mem_set_unit.mpr fun a => ?_
  match a with
  | ⟨0, _⟩ =>
    show n.val * 288 ≤ R.val ∧ R.val < n.val * 288 + 288
    omega
  | ⟨1, _⟩ =>
    show 0 * 128 ≤ col.val ∧ col.val < 0 * 128 + 128
    omega

/-- What a tile's own barrier round collects: from each of the sixteen tiles `n` a read token of tile `n`'s rows at
    contents `f n` that are right on those rows. The sixteen row ranges are disjoint and cover the table, so the pieces
    join into one points-to of the whole table, at contents `g` that agree with `f n` on tile `n`'s rows. Whether row `R`
    is right only depends on the contents at row `R`, which is one of tile `R / 288`'s: so `g` is right at every row. -/
theorem pays_elim : (bigSep ((bRd (F := F) m).duties (bcell d (cV L) (jV L)) 0 \ ∅) fun n => (bRd (F := F) m).payload (bcell d (cV L) (jV L)) 0 n)
    ⊢ (iprop(∃ g : Buf (Elt F) (shLoc d (cV L)), ⌜∀ R : Fin 4608, TabOK (F := F) (m (a1Loc d)) (m (a2Loc d)) g R⌝ ∗ shLoc d (cV L) ↦{shTok (jL L)} g) : sProp 𝕄) := by
  rw [Finset.sdiff_empty, bRd_duties₀, SparseCore.bigSep_image_of_injOn (Fin.val_injective.injOn)]
  -- duty `n`'s payload is tile `n`'s piece, at this tile's token
  have e : (bigSep Finset.univ fun n : Fin τ.nSub => (bRd (F := F) m).payload (bcell d (cV L) (jV L)) 0 n.val)
      = bigSep Finset.univ fun n : Fin 16 => shPiece m d (cV L) n (shTok (jL L)) :=
    bigSep_congr fun n _ => by
      show bPay m (bcell d (cV L) (jV L)) n.val = _
      unfold bPay; dsimp only
      rw [dif_pos (show n.val < 16 from n.isLt)]; rfl
  rw [e]
  unfold shPiece
  -- the sixteen contents as one family, their facts gathered
  refine (bigSep_exists_pi Finset.univ (fun (n : Fin 16) (f : Buf (Elt F) (shLoc d (cV L))) =>
    iprop(⌜∀ R : Fin 4608, R.val / 288 = n.val → TabOK (F := F) (m (a1Loc d)) (m (a2Loc d)) f R⌝ ∗ shLoc d (cV L) ↦[shrows n]{shTok (jL L)} f))).trans ?_
  iintro ⟨%fs, H⟩
  ihave H1 := (bigSep_pure_sep Finset.univ (fun n : Fin 16 => ∀ R : Fin 4608, R.val / 288 = n.val → TabOK (F := F) (m (a1Loc d)) (m (a2Loc d)) (fs n) R)
    (fun n : Fin 16 => (shLoc d (cV L) ↦[shrows n]{shTok (jL L)} fs n : sProp 𝕄))) $$ H
  icases H1 with ⟨%hfs, H2⟩
  -- the pieces joined
  ihave H3 := (pointsTo_biUnion_join Finset.univ shrows fs (fs 0) shrows_disjoint) $$ H2
  icases H3 with ⟨%g, %hgs, Hg⟩
  rw [shrows_cover]
  iexists g
  isplitr
  · ipureintro
    intro R hm col
    have hR : R.val / 288 < 16 := by have := R.isLt; omega
    rw [hgs ⟨R.val / 288, hR⟩ (Finset.mem_univ _) _ (mem_shrows R col ⟨R.val / 288, hR⟩ rfl)]
    exact hfs ⟨R.val / 288, hR⟩ (Finset.mem_univ _) R rfl hm col
  · iexact Hg

end Cert.Kernel.Hand
end
-- ==== Proof.Bits.TileBody.lean ====
/-
  One tile's task, whole.

  The task of the vector subcore at coordinates `(core, subcore)`, from what the launch hands it to what it hands back:

  * it copies the minute table into the first 60 rows of a 64-row scratch and the hour table into a 72-row scratch, and
    waits for both copies;
  * 288 trips build the tile's rows of the table, row `r` being table row `R = 288 · subcore + r`: the hour copy's row
    `R / 64` plus the minute copy's row `R % 64` (the trip is `t1_region`; the loop's invariant is `inv1`);
  * it copies the 288 rows into rows `[288 · subcore, +288)` of the SparseCore's shared table and waits. Those rows are
    then right: the hour copy is the hour table, the minute copy is the minute table on rows below 60, and rightness only
    speaks of rows whose minute `R % 64` is below 60 (`tab_ok_of_built`);
  * at the subcore barrier it hands every tile a read share of its rows and receives one of every tile's rows: a read
    share of the whole table, right on every row (`pays_intro`, `pays_elim`);
  * then comes the pipeline, taken here as the hypothesis `PipeSpec`: with the table readable and right it fills the tile's
    800 blocks of the result.

  What is handed back: the blocks filled, what the tile still holds of the table, its scratch storage and semaphores as
  they were found, and the waits it made — its own copies' at no call index, the barrier's at the call's index.
-/
import proofs.«204352_g17334488006705_cont_7to1_713_23_alg».proof.Proof.Bits.Common
import proofs.«204352_g17334488006705_cont_7to1_713_23_alg».proof.Proof.Bits.TileOpen
import proofs.«204352_g17334488006705_cont_7to1_713_23_alg».proof.Proof.Bits.BodyTable
import proofs.«204352_g17334488006705_cont_7to1_713_23_alg».proof.Proof.Bits.BarrierPay
import proofs.«204352_g17334488006705_cont_7to1_713_23_alg».proof.Proof.Bits.PipeIface

noncomputable section

namespace Cert.Kernel.Hand

open Cert.Kernel Cert.Kernel.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

local notation "𝕄" => MT nD τ sig (HIx 1) (Elt F) ℕ UU ℕ

variable (m : (ℓ : Loc nD τ sig) → Buf (Elt F) ℓ) [FloatOps F]
variable (X0v X1v : Dev nD → IVec S1x3276800 32)
variable (d : Dev nD) (L : grid0.Coords)

/-! ## The tile's rows of the shared table, as the program slices them -/

/-- The 288 rows from row `288 · subcore` on: the target of the tile's copy of its built rows. -/
abbrev shRowK (L : grid0.Coords) : Memref sig .scVector .shared S288x128 .f32 :=
  (shV).slice (Rect.unit (s := S4608x128) (k0_off25 L) S288x128.size (k0_off25_inb L)) (fun _ => rfl)

omit [FloatOps F] in
/-- Those rows are the tile's part of the table: rows `[288 i, 288 i + 288)`, every column. -/
theorem set_shRowK : (shRowK L).view.set = shrows (jL L) := by
  have e : (shRowK L).view.set = (Rect.unit (s := S4608x128) (k0_off25 L) S288x128.size (k0_off25_inb L)).set := by
    show ((shV).view.slice _).set = _
    rw [View.set_slice]; exact Finset.map_refl
  rw [e]
  have e0 : k0_off25 L 0 = 288 * (L 1).val := congrFun (k0_off25_eq L) 0
  have e1 : k0_off25 L 1 = 0 := congrFun (k0_off25_eq L) 1
  have ej : (jL L).val = (L 1).val := rfl
  ext i
  constructor
  · intro h
    have h0 : k0_off25 L 0 ≤ (i 0).val ∧ (i 0).val < k0_off25 L 0 + 288 := Rect.mem_set_unit.mp h 0
    have h1 : (i 1).val < 128 := (i 1).isLt
    refine Rect.mem_set_unit.mpr fun a => ?_
    match a with
    | ⟨0, _⟩ =>
      show (jL L).val * 288 ≤ (i 0).val ∧ (i 0).val < (jL L).val * 288 + 288
      omega
    | ⟨1, _⟩ =>
      show 0 * 128 ≤ (i 1).val ∧ (i 1).val < 0 * 128 + 128
      omega
  · intro h
    have h0 : (jL L).val * 288 ≤ (i 0).val ∧ (i 0).val < (jL L).val * 288 + 288 := Rect.mem_set_unit.mp h 0
    have h1 : (i 1).val < 128 := (i 1).isLt
    refine Rect.mem_set_unit.mpr fun a => ?_
    match a with
    | ⟨0, _⟩ =>
      show k0_off25 L 0 ≤ (i 0).val ∧ (i 0).val < k0_off25 L 0 + 288
      omega
    | ⟨1, _⟩ =>
      show k0_off25 L 1 ≤ (i 1).val ∧ (i 1).val < k0_off25 L 1 + 128
      omega

omit [FloatOps F] in
/-- The tile's rows held as the program addresses them. -/
theorem pts_shRowK (q : PosShare TreeShare) (f : Buf (Elt F) (shLoc d (cV L))) :
    ((shRowK L).view.loc (thr d L) ↦[(shRowK L).view.set]{q} f : sProp 𝕄) = shLoc d (cV L) ↦[shrows (jL L)]{q} f :=
  congrArg (fun S => (shLoc d (cV L) ↦[S]{q} f : sProp 𝕄)) (set_shRowK L)

/-! ## What the two copies hold, and what the built rows are then -/

omit [FloatOps F] in
/-- The hour copy after the whole hour table has been copied over it reads the table. -/
theorem hourCopy_apply (f2 : Buf (Elt F) ((thr d L).loc cc0_scratch2)) (X : S72x128.Idx → Elt F .f32) (y : S72x128.Idx) :
    (View.write (Elt F) (hourV).view f2 X Finset.univ) y = X y :=
  congrFun (View.read_write_univ (v := (hourV).view) f2 X) y

omit [FloatOps F] in
/-- The minute copy after the 60 rows of the minute table have been copied over its first 60 rows reads the table on
    those rows (rows 60 … 63 hold whatever they held). -/
theorem minCopy_apply (f1 : Buf (Elt F) ((thr d L).loc cc0_scratch1)) (X : S60x128.Idx → Elt F .f32)
    (inb : ∀ a, (![0, 0] : Fin 2 → Nat) a + S60x128.size a ≤ S64x128.size a) (mi : Fin 64) (h : mi.val < 60) (col : Fin 128) :
    ((minV).view.writes (Elt F) f1 [⟨Rect.unit (s := S64x128) ![0, 0] S60x128.size inb, X⟩]) (ix2 mi col) = X (ix2 (⟨mi.val, h⟩ : Fin 60) col) := by
  have e : (ix2 mi col : S64x128.Idx) = (Rect.unit (s := S64x128) ![0, 0] S60x128.size inb).emb (ix2 (⟨mi.val, h⟩ : Fin 60) col) := by
    funext a
    match a with
    | ⟨0, _⟩ => exact Fin.ext (show mi.val = 0 + 1 * mi.val by omega)
    | ⟨1, _⟩ => exact Fin.ext (show col.val = 0 + 1 * col.val by omega)
  have key := View.read_writes_cons_emb (minV).view f1 (Rect.unit (s := S64x128) ![0, 0] S60x128.size inb) X [] (ix2 (⟨mi.val, h⟩ : Fin 60) col)
  rw [← e] at key
  exact key

/-- The 288 built rows once the loop is over, in terms of the two tables: row `r` is table row `R = 288 s + r`, the hour
    table's row `R / 64` plus the minute table's row `R % 64` — wherever that minute exists, `R % 64 < 60`: only there
    does the minute copy hold the table. -/
theorem built_rows_ok (f1 : Buf (Elt F) ((thr d L).loc cc0_scratch1)) (f2 : Buf (Elt F) ((thr d L).loc cc0_scratch2))
    (X1 : S60x128.Idx → Elt F .f32) (X2 : S72x128.Idx → Elt F .f32) (inb : ∀ a, (![0, 0] : Fin 2 → Nat) a + S60x128.size a ≤ S64x128.size a)
    (h1 : X1 = m (a1Loc d)) (h2 : X2 = m (a2Loc d)) (g : Buf (Elt F) ((thr d L).loc cc0_scratch3))
    (hg : ∀ r : Fin 288, r.val < 288 → ∀ col : Fin 128, g (ix2 r col)
      = FloatOps.addf ((View.write (Elt F) (hourV).view f2 X2 Finset.univ) (ix2 (⟨(288 * (L 1).val + r.val) / 64, by have := (L 1).isLt; have : grid0.bound 1 = 16 := rfl; omega⟩ : Fin 72) col))
          (((minV).view.writes (Elt F) f1 [⟨Rect.unit (s := S64x128) ![0, 0] S60x128.size inb, X1⟩]) (ix2 (⟨(288 * (L 1).val + r.val) % 64, Nat.mod_lt _ (by norm_num)⟩ : Fin 64) col)))
    (r : Fin 288) (hm : (288 * (L 1).val + r.val) % 64 < 60) (col : Fin 128) :
    g (ix2 r col) = FloatOps.addf (m (a2Loc d) (ix2 (⟨(288 * (L 1).val + r.val) / 64, by have := (L 1).isLt; have : grid0.bound 1 = 16 := rfl; omega⟩ : Fin 72) col))
      (m (a1Loc d) (ix2 (⟨(288 * (L 1).val + r.val) % 64, hm⟩ : Fin 60) col)) := by
  subst h1 h2
  rw [hg r r.isLt col, hourCopy_apply, minCopy_apply d L f1 _ inb _ hm]

omit [FloatOps F] in
/-- The tile's rows of the shared table after the 288 built rows have been copied over them: table row `288 s + r` reads
    built row `r`. -/
theorem shCopy_apply (fsh : Buf (Elt F) (shLoc d (cV L))) (X : S288x128.Idx → Elt F .f32) (r : Fin 288) (col : Fin 128) (R : Fin 4608)
    (hR : R.val = 288 * (L 1).val + r.val) :
    ((shRowK L).view.writes (Elt F) fsh [⟨Rect.whole S288x128, X⟩]) (ix2 R col) = X (ix2 r col) := by
  have key := View.read_writes_cons_emb (shRowK L).view fsh (Rect.whole S288x128) X [] (ix2 r col)
  rw [← key]
  show _ = ((shRowK L).view.writes (Elt F) fsh [⟨Rect.whole S288x128, X⟩]) ((shRowK L).view.emb ((Rect.whole S288x128).emb (ix2 r col)))
  congr 1
  have e0 : k0_off25 L 0 = 288 * (L 1).val := congrFun (k0_off25_eq L) 0
  have e1 : k0_off25 L 1 = 0 := congrFun (k0_off25_eq L) 1
  funext a
  match a with
  | ⟨0, _⟩ => exact Fin.ext (show R.val = k0_off25 L 0 + 1 * (0 + 1 * r.val) by omega)
  | ⟨1, _⟩ => exact Fin.ext (show col.val = k0_off25 L 1 + 1 * (0 + 1 * col.val) by omega)

omit [FloatOps F] in
/-- The loop makes 288 trips. -/
theorem t1_trips : Scf.trips k0_t1_loop.lb k0_t1_loop.ub k0_t1_loop.st = 288 := by decide +kernel

/-- The tile's rows of the shared table, once the built rows are copied there, are right: table row `R` with
    `R / 288 = s` is built row `R − 288 s`, which is the hour table's row `R / 64` plus the minute table's row `R % 64`
    when that minute exists. -/
theorem tab_ok_of_built (f1 : Buf (Elt F) ((thr d L).loc cc0_scratch1)) (f2 : Buf (Elt F) ((thr d L).loc cc0_scratch2))
    (X1 : S60x128.Idx → Elt F .f32) (X2 : S72x128.Idx → Elt F .f32) (inb : ∀ a, (![0, 0] : Fin 2 → Nat) a + S60x128.size a ≤ S64x128.size a)
    (h1 : X1 = m (a1Loc d)) (h2 : X2 = m (a2Loc d)) (g : Buf (Elt F) ((thr d L).loc cc0_scratch3))
    (hg : ∀ r : Fin 288, r.val < 288 → ∀ col : Fin 128, g (ix2 r col)
      = FloatOps.addf ((View.write (Elt F) (hourV).view f2 X2 Finset.univ) (ix2 (⟨(288 * (L 1).val + r.val) / 64, by have := (L 1).isLt; have : grid0.bound 1 = 16 := rfl; omega⟩ : Fin 72) col))
          (((minV).view.writes (Elt F) f1 [⟨Rect.unit (s := S64x128) ![0, 0] S60x128.size inb, X1⟩]) (ix2 (⟨(288 * (L 1).val + r.val) % 64, Nat.mod_lt _ (by norm_num)⟩ : Fin 64) col)))
    (fsh : Buf (Elt F) (shLoc d (cV L))) (X3 : S288x128.Idx → Elt F .f32) (h3 : X3 = g) :
    ∀ R : Fin 4608, R.val / 288 = (jL L).val →
      TabOK (F := F) (m (a1Loc d)) (m (a2Loc d)) ((shRowK L).view.writes (Elt F) fsh [⟨Rect.whole S288x128, X3⟩]) R := by
  subst h3
  intro R hR hm col
  have hj : (jL L).val = (L 1).val := rfl
  have hlt : R.val < 4608 := R.isLt
  have hr : R.val - 288 * (L 1).val < 288 := by omega
  have e : 288 * (L 1).val + (R.val - 288 * (L 1).val) = R.val := by omega
  have hm' : (288 * (L 1).val + (R.val - 288 * (L 1).val)) % 64 < 60 := by rw [e]; exact hm
  rw [shCopy_apply d L fsh _ ⟨R.val - 288 * (L 1).val, hr⟩ col R e.symm,
    built_rows_ok m d L f1 f2 X1 X2 inb h1 h2 _ hg ⟨R.val - 288 * (L 1).val, hr⟩ hm' col]
  simp only [e]

/-! ## The task -/

set_option maxHeartbeats 4000000 in
theorem tile_body (hx0 : ∀ j, (X0v d j).toNat ≤ 59) (hx1 : ∀ j, (X1v d j).toNat ≤ 59) (hF : (K (F := F)).Facts)
    (hpipe : PipeSpec (F := F) m X0v X1v d L hx0 hx1) : TileBodyAt (F := F) m X0v X1v d L hF := by
  intro O W hO hOlev
  rw [taskProg_eq_tail, wp_bind, k0_part10_eq_skeleton]; unfold k0_part10_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Ha1, Ha2, Hx0, Hx1⟩, Hob, %fsh, Hsh⟩, ⟨⟨%f0, Hb0⟩, ⟨%f1, Hmin⟩, ⟨%f2, Hhour⟩, ⟨%f3, Hcbuf⟩, Hb4, Hb5, Hb6, Hbufs⟩, ⟨Hs0, Hs1, Hs2, Hs3, Hs4, Hs5, Hs6, Hs7, Hs8, Hs9, Hsems⟩, HO⟩
  -- the waits' evidence: at index `none`, under either debt
  have hO' : ∀ g, (O + oxV d (cV L)) g none = 0 := fun g => by rw [Pi.add_apply, Finsupp.add_apply, hO g, oxV_none]
  ihave Hmw1 := (show levAts (K (F := F)).L (K (F := F)).lev ⊢ Transfers.MayWaits (thr d L) (default : HIx 1) (O + oxV d (cV L)) from
    (K (F := F)).mayWaits_none (thr := thr d L) hO') $$ Hlv
  ihave Hmw2 := (show levAts (K (F := F)).L (K (F := F)).lev ⊢ Transfers.MayWaits (thr d L) (default : HIx 1) O from
    (K (F := F)).mayWaits_none (thr := thr d L) hO) $$ Hlv
  -- the operands as the program addresses them
  ihave Ha1' := (Entails.of_eq (pts_a1V (F := F) d L _ _).symm) $$ Ha1
  ihave Ha2' := (Entails.of_eq (pts_a2V (F := F) d L _ _).symm) $$ Ha2
  ihave Hmin' := (Entails.of_eq (pts_minV (F := F) d L _).symm) $$ Hmin
  ihave Hhour' := (Entails.of_eq (pts_hourV (F := F) d L _).symm) $$ Hhour
  ihave Hcbuf' := (Entails.of_eq (pts_cbufV (F := F) d L _).symm) $$ Hcbuf
  ihave Hsh' := (Entails.of_eq (pts_shRowK (F := F) d L _ _).symm) $$ Hsh
  sl_exec
  sl_for (inv1 d L _ _) $$ [Hmin' Hhour' Hcbuf']
  rotate_left
  · -- before the first trip no row is asked for
    unfold inv1
    isplitl [Hmin']; · iexact Hmin'
    isplitl [Hhour']; · iexact Hhour'
    iexists f3
    isplitr
    · ipureintro; intro r hr; exact absurd hr (Nat.not_lt_zero _)
    · iexact Hcbuf'
  case region =>
    intro k acc
    exact t1_region d L _ _ k acc
  unfold inv1
  iintro %acc ⟨Hmin, Hhour, ⟨%g, %hg, Hcbuf⟩⟩
  -- the built rows into the tile's rows of the shared table, and the wait
  sl_exec
  -- those rows are right
  have hgsh := tab_ok_of_built m d L f1 f2 _ _ _ rfl rfl g (fun r hr col => hg r (hr.trans_eq t1_trips.symm) col) fsh _ rfl
  -- the barrier: a read share of them to every tile, the other tiles' received
  ihave Hpays := (pays_intro (F := F) m d L _ hgsh) $$ [Hsh']
  · iapply (Entails.of_eq (pts_shRowK (F := F) d L _ _)); iexact Hsh'
  icases Hpays with ⟨Hrest, Hpays⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hgot' := (pays_elim (F := F) m d L) $$ Hgot
  icases Hgot' with ⟨%gT, %hgT, HshT⟩
  -- the tile's first block number, and the return into the pipeline
  iapply (le_wp_ret Idealize.ShloMosaic.frame (wpE (defs₀ (F := F)) 𝒱₀ (thr d L) none) Set.univ
    (⟨firstBlk L, Scalar.addi 0#32 (firstBlk L), 1#1, 0#32⟩ : Σ' (v6 : BitVec 32) (v10_r3 : BitVec 32) (true_9_r3 : BitVec 1), BitVec 32) _)
  -- the pipeline, with the table read through this tile's share of it
  ihave Hx0' := (Entails.of_eq (pts_x0V (F := F) d L _ _).symm) $$ Hx0
  ihave Hx1' := (Entails.of_eq (pts_x1V (F := F) d L _ _).symm) $$ Hx1
  ihave Hw := (hpipe gT hgT O _) $$ [Hx0' Hx1' Hob Hb0 Hb4 Hb5 Hb6 Hs3 Hs4 Hs5 Hs6 Hs7 Hs8 Hs9 HshT HO]
  · isplitr; · iexact Hmw2
    isplitl [Hx0']; · iexact Hx0'
    isplitl [Hx1']; · iexact Hx1'
    isplitl [Hob]; · iexact Hob
    isplitl [Hb0]; · iexists f0; iexact Hb0
    isplitl [Hb4]; · iexact Hb4
    isplitl [Hb5]; · iexact Hb5
    isplitl [Hb6]; · iexact Hb6
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [HshT]; · iexact HshT
    iexact HO
  iapply (wp_wand_r Idealize.ShloMosaic.frame (wpE (defs₀ (F := F)) 𝒱₀ (thr d L) none) Set.univ)
  isplitl [Hw]; · iexact Hw
  iintro %a ⟨Hdone, Hidx, Hw0, Hw1, Hstg, Hs3, Hs4, Hs5, Hs6, Hs7, Hs8, Hs9, ⟨%g', HshT⟩, ⟨%W', %hW', HO⟩⟩
  -- what the task hands back
  isplitl [Hdone Hrest HshT]
  · isplitl [Hdone]; · iexact Hdone
    isplitl [Hrest]; · iexists _; iexact Hrest
    iexists g'; iexact HshT
  isplitl [Hidx Hmin Hhour Hcbuf Hw0 Hw1 Hstg Hbufs]
  · isplitl [Hidx]; · iexact Hidx
    isplitl [Hmin]; · iexists _; iexact Hmin
    isplitl [Hhour]; · iexists _; iexact Hhour
    isplitl [Hcbuf]; · iexists _; iexact Hcbuf
    isplitl [Hw0]; · iexact Hw0
    isplitl [Hw1]; · iexact Hw1
    isplitl [Hstg]; · iexact Hstg
    iexact Hbufs
  isplitl [Hs0 Hs1 Hs2 Hs3 Hs4 Hs5 Hs6 Hs7 Hs8 Hs9 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hsems
  -- the waits it made: its own three copies' (index `none`), the barrier's (the call's index), the pipeline's (`none`)
  iexists W'; isplitr
  swap; · iexact HO
  ipureintro; intro p hp
  rcases hW' p hp with h | h
  · rcases Finset.mem_insert.mp h with h | h
    · exact .inr (.inr (by rw [h]))
    rcases Finset.mem_insert.mp h with h | h
    · exact .inr (.inl (by rw [h]; rfl))
    rcases Finset.mem_insert.mp h with h | h
    · exact .inr (.inl (by rw [h]; rfl))
    rcases Finset.mem_insert.mp h with h | h
    · exact .inr (.inl (by rw [h]; rfl))
    exact .inl h
  · exact .inr (.inl h)

end Cert.Kernel.Hand
end
-- ==== Proof.Bits.Assemble.lean ====
/-
  The kernel's run, with its value.

  The kernel does not look the two tables up separately. Each tile first builds rows of ONE table of 72 · 64 rows: row
  `64 h + mn` holds hour row `h` plus minute row `mn`. After a barrier every tile sees the whole table, and the lookup of a
  position with hour word `h` and minute word `mn` is a single gather of row `64 h + mn`. For words between 0 and 59 that
  row is a real row of the table (`mn < 64`, `h < 72`) and it holds exactly the sum the specification asks for.

  This module puts the pieces together. The words the call finds are the two columns of the word array, flattened: each
  of them is an entry of the word array, so the bound 59 on the word array's entries is a bound on them. Under that bound
  the pipeline half of a tile's task meets its statement, hence the whole task does, hence the launch theorem gives the
  run: every weakly fair execution terminates with the flat result — at position `200 b + l` the hour row named by
  `x[b, l, 0]` plus the minute row named by `x[b, l, 1]` — reshaped to 16384 × 200 × 128, which is the specification, and
  with the three arguments unchanged.
-/
import proofs.«204352_g17334488006705_cont_7to1_713_23_alg».proof.Proof.Bits.Launch
import proofs.«204352_g17334488006705_cont_7to1_713_23_alg».proof.Proof.Bits.ValueBridge
import proofs.«204352_g17334488006705_cont_7to1_713_23_alg».proof.Proof.Bits.Pipe
import proofs.«204352_g17334488006705_cont_7to1_713_23_alg».proof.Proof.Bits.TileBody
import proofs.«204352_g17334488006705_cont_7to1_713_23_alg».proof.Proof.Spec

noncomputable section

namespace Cert.Kernel.Hand

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)

variable {F : FTy → Type}

variable (m : (ℓ : Loc nD τ sig) → Buf (Elt F) ℓ) (ρ : Dev nD → PrngReg)

variable [FloatOps F]

/-! ## The flattened words are entries of the word array -/

/-- Every position of a row of 3276800 words is the flat position `200 b + l` of a pair `(b, l)`: quotient and
    remainder by 200. -/
theorem exists_flatPos (j : S1x3276800.Idx) : ∃ (b : Fin 16384) (l : Fin 200), j = ix2 (0 : Fin 1) (flatPos b l) := by
  obtain ⟨u, n, rfl⟩ : ∃ (u : Fin 1) (n : Fin 3276800), j = ix2 u n := ⟨j 0, j 1, eq_ix2 j⟩
  obtain rfl : u = 0 := Subsingleton.elim _ _
  refine ⟨⟨n.val / 200, by have := n.isLt; omega⟩, ⟨n.val % 200, Nat.mod_lt _ (by norm_num)⟩, ?_⟩
  congr 1
  exact Fin.ext (by show n.val = 200 * (n.val / 200) + n.val % 200; omega)

/-- The flattened hour words are entries of column 0 of the word array: a bound on the array's entries bounds them. -/
theorem X0h_le (x : IVec S16384x200x2 32) (hx : ∀ j, (x j).toNat ≤ 59) : ∀ j, (X0h x j).toNat ≤ 59 := fun j => by
  obtain ⟨b, l, rfl⟩ := exists_flatPos j
  rw [X0h_apply]
  exact hx _

/-- The flattened minute words likewise, of column 1. -/
theorem X1h_le (x : IVec S16384x200x2 32) (hx : ∀ j, (x j).toNat ≤ 59) : ∀ j, (X1h x j).toNat ≤ 59 := fun j => by
  obtain ⟨b, l, rfl⟩ := exists_flatPos j
  rw [X1h_apply]
  exact hx _

/-- The hour words the call finds are the flattened hour words of the launch contents of the word array … -/
theorem X0v_le (d : Dev nD) (hx : ∀ j, ((m (a0Loc d) : IVec S16384x200x2 32) j).toNat ≤ 59) :
    ∀ j, (X0v m d j).toNat ≤ 59 :=
  X0h_le (m (a0Loc d)) hx

/-- … and the minute words the flattened minute words. -/
theorem X1v_le (d : Dev nD) (hx : ∀ j, ((m (a0Loc d) : IVec S16384x200x2 32) j).toNat ≤ 59) :
    ∀ j, (X1v m d j).toNat ≤ 59 :=
  X1h_le (m (a0Loc d)) hx

/-- The program's result is the specification of the three arguments: the flat result is stated over the flattened
    columns of the word array, and its reshape reads, at `(b, l, d)`, the flat result's row `200 b + l`. -/
theorem RES_eq (d : Dev nD) :
    RES m d = Cert.Spec.G (F := F) (m (a0Loc d)) (m (a1Loc d)) (m (a2Loc d)) :=
  outFlat_reshape (F := F) (m (a0Loc d)) (m (a1Loc d)) (m (a2Loc d))

/-! ## The run -/

/-- From any memory whose word array holds words between 0 and 59, with zero counters: every weakly fair execution of
    the program's threads terminates with the result buffer at the specification of the three arguments' launch
    contents, and the arguments unchanged. -/
theorem kernel_run [∀ e, Nonempty (Elt F e)]
    (hx : ∀ (c : Dev Cert.Kernel.nD) j,
      (m ((c.tc : Thread Cert.Kernel.nD Cert.Kernel.τ).loc Cert.Kernel.main_arg0) j).toNat ≤ 59) :
    θ_run (Cert.Kernel.defs (F := F)) (Cert.Kernel.threads (F := F)) ⟨m, fun _ => 0, ρ⟩ (fun r => ∀ c : Dev Cert.Kernel.nD,
      r.2.mem ((c.tc : Thread Cert.Kernel.nD Cert.Kernel.τ).loc Cert.Kernel.main_v7)
        = Cert.Spec.G (F := F) (m ((c.tc : Thread Cert.Kernel.nD Cert.Kernel.τ).loc Cert.Kernel.main_arg0))
            (m ((c.tc : Thread Cert.Kernel.nD Cert.Kernel.τ).loc Cert.Kernel.main_arg1))
            (m ((c.tc : Thread Cert.Kernel.nD Cert.Kernel.τ).loc Cert.Kernel.main_arg2))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) :=
  (θ_run _ _ _).mono (fun _ h c => ⟨(h c).1.trans (RES_eq m c), (h c).2⟩)
    (run_main m ρ (fun d L hF =>
      tile_body m (X0v m) (X1v m) d L (X0v_le m d (hx d)) (X1v_le m d (hx d)) hF (pipe_spec m (X0v m) (X1v m) d L _ _)))

end Cert.Kernel.Hand

end
-- ==== Proof.lean ====
/-
  Two embedding lookups and their sum, computed two ways.

  THE FUNCTION. The word array `x` holds, for each of 16384 × 200 positions `(b, l)`, an hour word `x[b, l, 0]` and a
  minute word `x[b, l, 1]`; there is an hour table of 72 rows and a minute table of 60 rows, each row 128 numbers. The
  result at `(b, l, ·)` is the hour table's row `x[b, l, 0]` plus the minute table's row `x[b, l, 1]`, entry by entry,
  the hour entry first (Proof/Spec.lean, `Cert.Spec.G`).

  THE REFERENCE looks the two rows up separately and adds them. Each lookup moves negative words up by the table's
  height, gathers whole rows at the words clamped into the table, and replaces the row by a not-a-number wherever the
  word was out of range. For a word between 0 and the last row all of that is inert: the word is not moved, not clamped
  and not masked, and the lookup reads the row the word names (Proof/RefValue.lean).

  THE KERNEL looks up ONE table. Each of the two groups of 16 tiles first builds, 288 rows per tile, a table of 72 · 64
  rows whose row `64 h + mn` is hour row `h` plus minute row `mn` for `mn < 60` (the last four rows of each group of
  64 hold nothing meaningful and are never read). After a barrier every tile of the group sees the whole table, and
  each tile then walks its share of the positions, 128 at a time: it forms the words `64 · x[b, l, 0] + x[b, l, 1]`,
  gathers those rows of the table, and copies them out. The flat result is reshaped to 16384 × 200 × 128
  (Proof/Assemble.lean, and Proof/Bits/Assemble.lean for the same program read at the machine's floats).

  WHY THE TWO AGREE for words between 0 and 59. Such a minute word is below 64, so `64 h + mn` has quotient `h` and
  remainder `mn` by 64 and is below 72 · 64: it names a row that was built, and that row is hour row `h` plus minute row
  `mn`. Both programs therefore add the same two table entries in the same order, and their results are equal whatever
  the floats are: no property of the addition is used, and none of the tables' entries (the precondition's finiteness
  tests are not needed). The precondition's range test is what makes this true: a minute word in 60 … 63 would read a
  row the kernel never wrote, and a negative word is wrapped by the reference and not by the kernel. Read back, the
  range test says that every word, as a natural number, is at most 59 (Proof/PreRange.lean).

  Both programs are proved against the one specification, so the equality of their results is the transitivity of
  two equalities; that each runs to the end and leaves its arguments alone comes with the same two theorems.
-/
import proofs.«204352_g17334488006705_cont_7to1_713_23_alg».proof.Defs
import proofs.«204352_g17334488006705_cont_7to1_713_23_alg».proof.Proof.Gen.Kernel
import proofs.«204352_g17334488006705_cont_7to1_713_23_alg».proof.Proof.Gen.Kernel.Skeleton
import proofs.«204352_g17334488006705_cont_7to1_713_23_alg».proof.Proof.Gen.KernelIdeal
import proofs.«204352_g17334488006705_cont_7to1_713_23_alg».proof.Proof.Gen.KernelIdeal.Skeleton
import proofs.«204352_g17334488006705_cont_7to1_713_23_alg».proof.Proof.Gen.ReferenceIdeal
import proofs.«204352_g17334488006705_cont_7to1_713_23_alg».proof.Proof.Gen.Pre_input_domain
import proofs.«204352_g17334488006705_cont_7to1_713_23_alg».proof.Proof.PreRange
import proofs.«204352_g17334488006705_cont_7to1_713_23_alg».proof.Proof.RefValue
import proofs.«204352_g17334488006705_cont_7to1_713_23_alg».proof.Proof.Assemble
import proofs.«204352_g17334488006705_cont_7to1_713_23_alg».proof.Proof.Bits.Assemble

noncomputable section

namespace Cert.Proof

open Idealize.ShloMosaic Idealize.SL.Sem

/-- The kernel at the machine's floats runs to the end and leaves its arguments alone: its run with the value, the
    value dropped. -/
theorem frame_Kernel : Cert.frame_Kernel := fun m g hpre =>
  (θ_run _ _ _).mono (fun _ h c => (h c).2) (Cert.Kernel.Hand.kernel_run (F := Bits) m g (Cert.PreRange.range_Kernel m hpre))

/-- The same at the ideal floats. -/
theorem frame_KernelIdeal : Cert.frame_KernelIdeal := fun m g hpre =>
  (θ_run _ _ _).mono (fun _ h c => (h c).2) (Cert.KernelIdeal.Hand.kernel_run (F := Ideal) m g (Cert.PreRange.range_KernelIdeal m hpre))

/-- The reference runs to the end and leaves its arguments alone. -/
theorem frame_ReferenceIdeal : Cert.frame_ReferenceIdeal := fun m g hpre =>
  (θ_run _ _ _).mono (fun _ h c => (h c).2)
    (Cert.ReferenceIdeal.RefValue.ref_run m g (Cert.PreRange.range_ReferenceIdeal m hpre))

/-- Nothing was rewritten between the kernel as printed and the kernel read at the ideal floats. -/
theorem preserves : Cert.preserves_Kernel_KernelIdeal := trivial

/-- At the ideal floats, from memories that agree on the three arguments, the kernel and the reference both end with
    the specification of those arguments in their result buffers: the kernel's words are in range by the precondition,
    the reference's because they are the kernel's. -/
theorem algebraic : Cert.algebraic_KernelIdeal_ReferenceIdeal := by
  intro m g m' g' hpre hagree
  have hx := Cert.PreRange.range_KernelIdeal m hpre
  refine ⟨fun c => Cert.Spec.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run (F := Ideal) m g hx, ?_⟩
  refine (θ_run _ _ _).mono (fun _ h c => ⟨(h c).1.trans ?_, (h c).2⟩)
    (Cert.ReferenceIdeal.RefValue.ref_run m' g' (fun c j => by rw [(hagree c).1]; exact hx c j))
  rw [(hagree c).1, (hagree c).2.1, (hagree c).2.2]

theorem claim : Cert.Claim := ⟨Cert.Kernel.Gen.facts, Cert.KernelIdeal.Gen.facts, Cert.ReferenceIdeal.Gen.facts, Cert.Pre_input_domain.Gen.facts,
  frame_Kernel, frame_KernelIdeal, frame_ReferenceIdeal, preserves, algebraic⟩

end Cert.Proof

end
